-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S32x100000 : Shape := ⟨2, ![32, 100000]⟩
abbrev S100000x8 : Shape := ⟨2, ![100000, 8]⟩
abbrev S100000x256 : Shape := ⟨2, ![100000, 256]⟩
abbrev S98976x128 : Shape := ⟨2, ![98976, 128]⟩
abbrev S128 : Shape := ⟨1, ![128]⟩
abbrev S_ : Shape := ⟨0, ![]⟩

class Facts : Prop where
  bcast_S_S98976x128 : S_.BroadcastsInDim S98976x128 (![] : Fin 0 → Fin S98976x128.rank)
  reducesTo_S98976x128_S_d0_1 : S98976x128.ReducesTo [0, 1] S_
  h_S_ : 0 < S_.numel
  bcast_S_S128 : S_.BroadcastsInDim S128 (![] : Fin 0 → Fin S128.rank)
  reducesTo_S128_S_d0 : S128.ReducesTo [0] S_
  bcast_S_S32x100000 : S_.BroadcastsInDim S32x100000 (![] : Fin 0 → Fin S32x100000.rank)
  reducesTo_S32x100000_S_d0_1 : S32x100000.ReducesTo [0, 1] S_
  bcast_S_S100000x8 : S_.BroadcastsInDim S100000x8 (![] : Fin 0 → Fin S100000x8.rank)
  reducesTo_S100000x8_S_d0_1 : S100000x8.ReducesTo [0, 1] S_
  bcast_S_S100000x256 : S_.BroadcastsInDim S100000x256 (![] : Fin 0 → Fin S100000x256.rank)
  reducesTo_S100000x256_S_d0_1 : S100000x256.ReducesTo [0, 1] S_

variable [Facts]

def fn_part2 {F : FTy → Type} [FloatOps F] (main_arg3 : IVec S100000x256 32) (main_v29 : IVec S_ 1) (main_v31 : IVec S100000x256 1) (main_v32 : IVec S100000x256 32) : IVec S_ 1 :=
  let main_v33 : IVec S100000x256 1 := cmpi .sle main_arg3 main_v32
  let main_v34 : IVec S100000x256 1 := andi main_v31 main_v33
  let main_c_13 : IVec S_ 1 := constantI S_ 1 1#1
  let main_v35 : IVec S_ 1 := (fun x v => Host.reduce IntOp.andi x v reducesTo_S100000x256_S_d0_1 h_S_) main_v34 main_c_13
  let main_v36 : IVec S_ 1 := andi main_v29 main_v35
  main_v36

def fn_part1 {F : FTy → Type} [FloatOps F] (main_arg1 : IVec S100000x8 32) (main_arg2 : IVec S100000x8 32) (main_arg3 : IVec S100000x256 32) (main_v15 : IVec S_ 1) (main_c_5 : IVec S_ 32) : IVec S_ 1 :=
  let main_v16 : IVec S100000x8 32 := broadcastInDim S100000x8 ![] bcast_S_S100000x8 main_c_5
  let main_v17 : IVec S100000x8 1 := cmpi .sge main_arg1 main_v16
  let main_c_6 : IVec S_ 32 := constantI S_ 32 99999#32
  let main_v18 : IVec S100000x8 32 := broadcastInDim S100000x8 ![] bcast_S_S100000x8 main_c_6
  let main_v19 : IVec S100000x8 1 := cmpi .sle main_arg1 main_v18
  let main_v20 : IVec S100000x8 1 := andi main_v17 main_v19
  let main_c_7 : IVec S_ 1 := constantI S_ 1 1#1
  let main_v21 : IVec S_ 1 := (fun x v => Host.reduce IntOp.andi x v reducesTo_S100000x8_S_d0_1 h_S_) main_v20 main_c_7
  let main_v22 : IVec S_ 1 := andi main_v15 main_v21
  let main_c_8 : IVec S_ 32 := constantI S_ 32 0#32
  let main_v23 : IVec S100000x8 32 := broadcastInDim S100000x8 ![] bcast_S_S100000x8 main_c_8
  let main_v24 : IVec S100000x8 1 := cmpi .sge main_arg2 main_v23
  let main_c_9 : IVec S_ 32 := constantI S_ 32 1#32
  let main_v25 : IVec S100000x8 32 := broadcastInDim S100000x8 ![] bcast_S_S100000x8 main_c_9
  let main_v26 : IVec S100000x8 1 := cmpi .sle main_arg2 main_v25
  let main_v27 : IVec S100000x8 1 := andi main_v24 main_v26
  let main_c_10 : IVec S_ 1 := constantI S_ 1 1#1
  let main_v28 : IVec S_ 1 := (fun x v => Host.reduce IntOp.andi x v reducesTo_S100000x8_S_d0_1 h_S_) main_v27 main_c_10
  let main_v29 : IVec S_ 1 := andi main_v22 main_v28
  let main_c_11 : IVec S_ 32 := constantI S_ 32 0#32
  let main_v30 : IVec S100000x256 32 := broadcastInDim S100000x256 ![] bcast_S_S100000x256 main_c_11
  let main_v31 : IVec S100000x256 1 := cmpi .sge main_arg3 main_v30
  let main_c_12 : IVec S_ 32 := constantI S_ 32 1#32
  let main_v32 : IVec S100000x256 32 := broadcastInDim S100000x256 ![] bcast_S_S100000x256 main_c_12
  fn_part2 (F := F) main_arg3 main_v29 main_v31 main_v32

def fn {F : FTy → Type} [FloatOps F] (main_arg0 : IVec S32x100000 32) (main_arg1 : IVec S100000x8 32) (main_arg2 : IVec S100000x8 32) (main_arg3 : IVec S100000x256 32) (main_arg4 : FVec F S98976x128 .f32) (main_arg5 : FVec F S128 .f32) : IVec S_ 1 :=
  let main_v0 : FVec F S98976x128 .f32 := Host.absf main_arg4
  let main_cst : FVec F S_ .f32 := constant S_ .f32 0x7F800000#32
  let main_v1 : FVec F S98976x128 .f32 := broadcastInDim S98976x128 ![] bcast_S_S98976x128 main_cst
  let main_v2 : IVec S98976x128 1 := cmpf .olt main_v0 main_v1
  let main_c : IVec S_ 1 := constantI S_ 1 1#1
  let main_v3 : IVec S_ 1 := (fun x v => Host.reduce IntOp.andi x v reducesTo_S98976x128_S_d0_1 h_S_) main_v2 main_c
  let main_v4 : FVec F S128 .f32 := Host.absf main_arg5
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S32x100000 32 := broadcastInDim S32x100000 ![] bcast_S_S32x100000 main_c_2
  let main_v10 : IVec S32x100000 1 := cmpi .sge main_arg0 main_v9
  let main_c_3 : IVec S_ 32 := constantI S_ 32 1#32
  let main_v11 : IVec S32x100000 32 := broadcastInDim S32x100000 ![] bcast_S_S32x100000 main_c_3
  let main_v12 : IVec S32x100000 1 := cmpi .sle main_arg0 main_v11
  let main_v13 : IVec S32x100000 1 := andi main_v10 main_v12
  let main_c_4 : IVec S_ 1 := constantI S_ 1 1#1
  let main_v14 : IVec S_ 1 := (fun x v => Host.reduce IntOp.andi x v reducesTo_S32x100000_S_d0_1 h_S_) main_v13 main_c_4
  let main_v15 : IVec S_ 1 := andi main_v8 main_v14
  let main_c_5 : IVec S_ 32 := constantI S_ 32 0#32
  fn_part1 (F := F) main_arg1 main_arg2 main_arg3 main_v15 main_c_5
-- ==== Kernel.lean ====
abbrev S32x100000 : Shape := ⟨2, ![32, 100000]⟩
abbrev S100000x8 : Shape := ⟨2, ![100000, 8]⟩
abbrev S100000x256 : Shape := ⟨2, ![100000, 256]⟩
abbrev S98976x128 : Shape := ⟨2, ![98976, 128]⟩
abbrev S128 : Shape := ⟨1, ![128]⟩
abbrev S98976x8 : Shape := ⟨2, ![98976, 8]⟩
abbrev S_ : Shape := ⟨0, ![]⟩
abbrev S99328x8 : Shape := ⟨2, ![99328, 8]⟩
abbrev S8x99328 : Shape := ⟨2, ![8, 99328]⟩
abbrev S794624 : Shape := ⟨1, ![794624]⟩
abbrev S1x128 : Shape := ⟨2, ![1, 128]⟩
abbrev S49x16x128 : Shape := ⟨3, ![49, 16, 128]⟩
abbrev S32x2048 : Shape := ⟨2, ![32, 2048]⟩
abbrev S1x16x128 : Shape := ⟨3, ![1, 16, 128]⟩
abbrev S32x1 : Shape := ⟨2, ![32, 1]⟩
abbrev S2048 : Shape := ⟨1, ![2048]⟩
abbrev S100352 : Shape := ⟨1, ![100352]⟩
abbrev S6208 : Shape := ⟨1, ![6208]⟩
abbrev S16 : Shape := ⟨1, ![16]⟩
abbrev S99328 : Shape := ⟨1, ![99328]⟩
abbrev S97x8x128 : Shape := ⟨3, ![97, 8, 128]⟩
abbrev S32x128 : Shape := ⟨2, ![32, 128]⟩
abbrev S1024x256 : Shape := ⟨2, ![1024, 256]⟩
abbrev S8x1024 : Shape := ⟨2, ![8, 1024]⟩
abbrev S1x8x128 : Shape := ⟨3, ![1, 8, 128]⟩
abbrev S1024x128 : Shape := ⟨2, ![1024, 128]⟩
abbrev S1024x1 : Shape := ⟨2, ![1024, 1]⟩
abbrev S16x256 : Shape := ⟨2, ![16, 256]⟩
abbrev S16x1024 : Shape := ⟨2, ![16, 1024]⟩
abbrev S16x8x128 : Shape := ⟨3, ![16, 8, 128]⟩
abbrev S8x128 : Shape := ⟨2, ![8, 128]⟩
abbrev S8x8x128 : Shape := ⟨3, ![8, 8, 128]⟩
abbrev S32x8x128 : Shape := ⟨3, ![32, 8, 128]⟩
abbrev S32x1024 : Shape := ⟨2, ![32, 1024]⟩

abbrev nBuf : Table → Nat
  | .hbm => 25
  | .local .tc .vmem => 16
  | .local .scVector .vmem => 3
  | _ => 0

abbrev bufTy : (tb : Table) → Fin (nBuf tb) → BufTy
  | .hbm, ⟨0, _⟩ => ⟨S32x100000, .i32⟩
  | .hbm, ⟨1, _⟩ => ⟨S100000x8, .i32⟩
  | .hbm, ⟨2, _⟩ => ⟨S100000x8, .i32⟩
  | .hbm, ⟨3, _⟩ => ⟨S100000x256, .i32⟩
  | .hbm, ⟨4, _⟩ => ⟨S98976x128, .f32⟩
  | .hbm, ⟨5, _⟩ => ⟨S128, .f32⟩
  | .hbm, ⟨6, _⟩ => ⟨S98976x8, .i32⟩
  | .hbm, ⟨7, _⟩ => ⟨S_, .i32⟩
  | .hbm, ⟨8, _⟩ => ⟨S_, .i32⟩
  | .hbm, ⟨9, _⟩ => ⟨S99328x8, .i32⟩
  | .hbm, ⟨10, _⟩ => ⟨S8x99328, .i32⟩
  | .hbm, ⟨11, _⟩ => ⟨S794624, .i32⟩
  | .hbm, ⟨12, _⟩ => ⟨S98976x8, .i32⟩
  | .hbm, ⟨13, _⟩ => ⟨S_, .i32⟩
  | .hbm, ⟨14, _⟩ => ⟨S_, .i32⟩
  | .hbm, ⟨15, _⟩ => ⟨S99328x8, .i32⟩
  | .hbm, ⟨16, _⟩ => ⟨S8x99328, .i32⟩
  | .hbm, ⟨17, _⟩ => ⟨S1x128, .f32⟩
  | .hbm, ⟨18, _⟩ => ⟨S49x16x128, .i32⟩
  | .hbm, ⟨19, _⟩ => ⟨S100352, .i32⟩
  | .hbm, ⟨20, _⟩ => ⟨S794624, .i32⟩
  | .hbm, ⟨21, _⟩ => ⟨S8x99328, .i32⟩
  | .hbm, ⟨22, _⟩ => ⟨S99328, .i32⟩
  | .hbm, ⟨23, _⟩ => ⟨S97x8x128, .i32⟩
  | .hbm, ⟨24, _⟩ => ⟨S32x128, .f32⟩
  | .local .tc .vmem, ⟨0, _⟩ => ⟨S32x2048, .i32⟩
  | .local .tc .vmem, ⟨1, _⟩ => ⟨S32x2048, .i32⟩
  | .local .tc .vmem, ⟨2, _⟩ => ⟨S1x16x128, .i32⟩
  | .local .tc .vmem, ⟨3, _⟩ => ⟨S1x16x128, .i32⟩
  | .local .tc .vmem, ⟨4, _⟩ => ⟨S1024x256, .i32⟩
  | .local .tc .vmem, ⟨5, _⟩ => ⟨S1024x256, .i32⟩
  | .local .tc .vmem, ⟨6, _⟩ => ⟨S8x1024, .i32⟩
  | .local .tc .vmem, ⟨7, _⟩ => ⟨S8x1024, .i32⟩
  | .local .tc .vmem, ⟨8, _⟩ => ⟨S8x1024, .i32⟩
  | .local .tc .vmem, ⟨9, _⟩ => ⟨S8x1024, .i32⟩
  | .local .tc .vmem, ⟨10, _⟩ => ⟨S1x8x128, .i32⟩
  | .local .tc .vmem, ⟨11, _⟩ => ⟨S1x8x128, .i32⟩
  | .local .tc .vmem, ⟨12, _⟩ => ⟨S1024x128, .f32⟩
  | .local .tc .vmem, ⟨13, _⟩ => ⟨S1024x128, .f32⟩
  | .local .tc .vmem, ⟨14, _⟩ => ⟨S1x128, .f32⟩
  | .local .tc .vmem, ⟨15, _⟩ => ⟨S32x128, .f32⟩
  | .local .scVector .vmem, ⟨0, _⟩ => ⟨S100352, .i32⟩
  | .local .scVector .vmem, ⟨1, _⟩ => ⟨S6208, .i32⟩
  | .local .scVector .vmem, ⟨2, _⟩ => ⟨S6208, .i32⟩
  | _, _ => ⟨S32x100000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v9_scv : Ref sig .scVector := ⟨.hbm, 19, rfl⟩
abbrev main_v3_scv : Ref sig .scVector := ⟨.hbm, 11, rfl⟩
abbrev main_v10_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg4_1 : Ref sig .tc := ⟨.vmem, 13, rfl⟩
abbrev cc2_stg5_0 : Ref sig .tc := ⟨.vmem, 14, rfl⟩
abbrev cc2_stg6_0 : Ref sig .tc := ⟨.vmem, 15, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem6_0 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24832_i32 : BitVec 32 := 24832#32
  let v2 : BitVec 32 := Scalar.muli v1 c24832_i32
  let v3 : BitVec 32 := Scalar.addi v2 c0_i32
  ![v3.toNat]
@[reducible] def k1_t1_loop : Scf.Loop 32 :=
  let c0_i32_1 : BitVec 32 := 0#32
  let c388_i32 : BitVec 32 := 388#32
  let v4 : BitVec 32 := Scalar.addi c0_i32_1 c388_i32
  let c1_i32 : BitVec 32 := 1#32
  ⟨c0_i32_1, v4, c1_i32⟩
def k1_off2 (k1_t1 : Fin k1_t1_loop.trips) : Fin 1 → Nat :=
  let c0_i32_1 : BitVec 32 := 0#32
  let c1_i32 : BitVec 32 := 1#32
  let arg8 : BitVec 32 := Scf.iv c0_i32_1 c1_i32 k1_t1
  let c16_i32 : BitVec 32 := 16#32
  let v14 : BitVec 32 := Scalar.muli arg8 c16_i32
  let v15 : Index := Scalar.indexCast v14
  ![v15.toNat]

def k1_chk1 (v16 : IVec S16 32) : Prop :=
  (∀ a x, ((![v16] : Fin 1 → IVec S16 32) a x).toNat < S100352.size a)
instance k1_chk1.dec : ∀ (v16 : IVec S16 32), Decidable (k1_chk1 v16) := fun v16 => decidable_of_iff' _ (Iff.of_eq (k1_chk1.eq_1 v16))
theorem k1_idx1_inb : ∀ (v16 : IVec S16 32) (k1_hw1 : k1_chk1 v16), ∀ a x, ((![v16] : Fin 1 → IVec S16 32) a x).toNat < S100352.size a := fun v16 k1_hw1 => k1_hw1
def k1_off3 (k1_t1 : Fin k1_t1_loop.trips) : Fin 1 → Nat :=
  let c0_i32_1 : BitVec 32 := 0#32
  let c1_i32 : BitVec 32 := 1#32
  let arg8 : BitVec 32 := Scf.iv c0_i32_1 c1_i32 k1_t1
  let c16_i32_21 : BitVec 32 := 16#32
  let v18 : BitVec 32 := Scalar.muli arg8 c16_i32_21
  let v19 : Index := Scalar.indexCast v18
  ![v19.toNat]
@[reducible] def k1_t2_loop : Scf.Loop 32 :=
  let c0_i32_5 : BitVec 32 := 0#32
  let c388_i32_6 : BitVec 32 := 388#32
  let v7 : BitVec 32 := Scalar.addi c0_i32_5 c388_i32_6
  let c1_i32_7 : BitVec 32 := 1#32
  ⟨c0_i32_5, v7, c1_i32_7⟩
def k1_off4 (k1_t2 : Fin k1_t2_loop.trips) : Fin 1 → Nat :=
  let c0_i32_5 : BitVec 32 := 0#32
  let c1_i32_7 : BitVec 32 := 1#32
  let arg8 : BitVec 32 := Scf.iv c0_i32_5 c1_i32_7 k1_t2
  let c16_i32 : BitVec 32 := 16#32
  let v14 : BitVec 32 := Scalar.muli arg8 c16_i32
  let v15 : Index := Scalar.indexCast v14
  ![v15.toNat]

def k1_chk2 (v16 : IVec S16 32) : Prop :=
  (∀ a x, ((![v16] : Fin 1 → IVec S16 32) a x).toNat < S100352.size a)
instance k1_chk2.dec : ∀ (v16 : IVec S16 32), Decidable (k1_chk2 v16) := fun v16 => decidable_of_iff' _ (Iff.of_eq (k1_chk2.eq_1 v16))
theorem k1_idx2_inb : ∀ (v16 : IVec S16 32) (k1_hw2 : k1_chk2 v16), ∀ a x, ((![v16] : Fin 1 → IVec S16 32) a x).toNat < S100352.size a := fun v16 k1_hw2 => k1_hw2
def k1_off5 (k1_t2 : Fin k1_t2_loop.trips) : Fin 1 → Nat :=
  let c0_i32_5 : BitVec 32 := 0#32
  let c1_i32_7 : BitVec 32 := 1#32
  let arg8 : BitVec 32 := Scf.iv c0_i32_5 c1_i32_7 k1_t2
  let c16_i32_21 : BitVec 32 := 16#32
  let v18 : BitVec 32 := Scalar.muli arg8 c16_i32_21
  let v19 : Index := Scalar.indexCast v18
  ![v19.toNat]
@[reducible] def k1_t3_loop : Scf.Loop 32 :=
  let c0_i32_11 : BitVec 32 := 0#32
  let c388_i32_12 : BitVec 32 := 388#32
  let v10 : BitVec 32 := Scalar.addi c0_i32_11 c388_i32_12
  let c1_i32_13 : BitVec 32 := 1#32
  ⟨c0_i32_11, v10, c1_i32_13⟩
def k1_off6 (k1_t3 : Fin k1_t3_loop.trips) : Fin 1 → Nat :=
  let c0_i32_11 : BitVec 32 := 0#32
  let c1_i32_13 : BitVec 32 := 1#32
  let arg8 : BitVec 32 := Scf.iv c0_i32_11 c1_i32_13 k1_t3
  let c16_i32 : BitVec 32 := 16#32
  let v14 : BitVec 32 := Scalar.muli arg8 c16_i32
  let v15 : Index := Scalar.indexCast v14
  ![v15.toNat]

def k1_chk3 (v16 : IVec S16 32) : Prop :=
  (∀ a x, ((![v16] : Fin 1 → IVec S16 32) a x).toNat < S100352.size a)
instance k1_chk3.dec : ∀ (v16 : IVec S16 32), Decidable (k1_chk3 v16) := fun v16 => decidable_of_iff' _ (Iff.of_eq (k1_chk3.eq_1 v16))
theorem k1_idx3_inb : ∀ (v16 : IVec S16 32) (k1_hw3 : k1_chk3 v16), ∀ a x, ((![v16] : Fin 1 → IVec S16 32) a x).toNat < S100352.size a := fun v16 k1_hw3 => k1_hw3
def k1_off7 (k1_t3 : Fin k1_t3_loop.trips) : Fin 1 → Nat :=
  let c0_i32_11 : BitVec 32 := 0#32
  let c1_i32_13 : BitVec 32 := 1#32
  let arg8 : BitVec 32 := Scf.iv c0_i32_11 c1_i32_13 k1_t3
  let c16_i32_21 : BitVec 32 := 16#32
  let v18 : BitVec 32 := Scalar.muli arg8 c16_i32_21
  let v19 : Index := Scalar.indexCast v18
  ![v19.toNat]
@[reducible] def k1_t4_loop : Scf.Loop 32 :=
  let c0_i32_17 : BitVec 32 := 0#32
  let c388_i32_18 : BitVec 32 := 388#32
  let v13 : BitVec 32 := Scalar.addi c0_i32_17 c388_i32_18
  let c1_i32_19 : BitVec 32 := 1#32
  ⟨c0_i32_17, v13, c1_i32_19⟩
def k1_off8 (k1_t4 : Fin k1_t4_loop.trips) : Fin 1 → Nat :=
  let c0_i32_17 : BitVec 32 := 0#32
  let c1_i32_19 : BitVec 32 := 1#32
  let arg8 : BitVec 32 := Scf.iv c0_i32_17 c1_i32_19 k1_t4
  let c16_i32 : BitVec 32 := 16#32
  let v14 : BitVec 32 := Scalar.muli arg8 c16_i32
  let v15 : Index := Scalar.indexCast v14
  ![v15.toNat]

def k1_chk4 (v16 : IVec S16 32) : Prop :=
  (∀ a x, ((![v16] : Fin 1 → IVec S16 32) a x).toNat < S100352.size a)
instance k1_chk4.dec : ∀ (v16 : IVec S16 32), Decidable (k1_chk4 v16) := fun v16 => decidable_of_iff' _ (Iff.of_eq (k1_chk4.eq_1 v16))
theorem k1_idx4_inb : ∀ (v16 : IVec S16 32) (k1_hw4 : k1_chk4 v16), ∀ a x, ((![v16] : Fin 1 → IVec S16 32) a x).toNat < S100352.size a := fun v16 k1_hw4 => k1_hw4
def k1_off9 (k1_t4 : Fin k1_t4_loop.trips) : Fin 1 → Nat :=
  let c0_i32_17 : BitVec 32 := 0#32
  let c1_i32_19 : BitVec 32 := 1#32
  let arg8 : BitVec 32 := Scf.iv c0_i32_17 c1_i32_19 k1_t4
  let c16_i32_21 : BitVec 32 := 16#32
  let v18 : BitVec 32 := Scalar.muli arg8 c16_i32_21
  let v19 : Index := Scalar.indexCast v18
  ![v19.toNat]
abbrev grid2 : Pipeline.Grid := ⟨1, ![97], ![false]⟩

def k2_cond1 (i : grid2.Coords) : BitVec 1 :=
  let arg0 : BitVec 32 := BitVec.ofNat 32 (i 0).val
  let c0_i32_774 : BitVec 32 := 0#32
  let v2134 : BitVec 1 := Scalar.cmpi .eq arg0 c0_i32_774
  let v2135 : BitVec 32 := Scalar.extui v2134
  let c0_i32_775 : BitVec 32 := 0#32
  let v2136 : BitVec 1 := Scalar.cmpi .ne v2135 c0_i32_775
  v2136

def k2_cond2 (i : grid2.Coords) : BitVec 1 :=
  let arg0 : BitVec 32 := BitVec.ofNat 32 (i 0).val
  let c0_i32_776 : BitVec 32 := 0#32
  let v2137 : BitVec 1 := Scalar.cmpi .sgt arg0 c0_i32_776
  let v2138 : BitVec 32 := Scalar.extui v2137
  let c0_i32_777 : BitVec 32 := 0#32
  let v2139 : BitVec 1 := Scalar.cmpi .ne v2138 c0_i32_777
  v2139

def k2_cond3 (i : grid2.Coords) : BitVec 1 :=
  let arg0 : BitVec 32 := BitVec.ofNat 32 (i 0).val
  let c96_i32 : BitVec 32 := 96#32
  let v2140 : BitVec 1 := Scalar.cmpi .eq arg0 c96_i32
  let v2141 : BitVec 32 := Scalar.extui v2140
  let c0_i32_778 : BitVec 32 := 0#32
  let v2142 : BitVec 1 := Scalar.cmpi .ne v2141 c0_i32_778
  v2142

def cc2_transform_0 (i : grid2.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x256 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x1024 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x8x128 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S100000x8_S98976x8_1024_0 : S100000x8.Slices ![1024, 0] S98976x8
  pads_S98976x8_S99328x8_03520_000 : S98976x8.Pads (![0, 0] : Fin 2 → Nat) ![352, 0] ![0, 0] S99328x8
  h_S_ : 0 < S_.numel
  transposes_S99328x8_S8x99328_1_0 : S99328x8.Transposes [1, 0] S8x99328
  shapeCasts_S8x99328_S794624 : S8x99328.ShapeCasts S794624
  shapeCasts_S128_S1x128 : S128.ShapeCasts S1x128
  inb_S32x2048_S32x2048_0_0 : ∀ a, (![0, 0] : Fin 2 → Nat) a + S32x2048.size a ≤ S32x2048.size a
  h_S32x2048 : 0 < S32x2048.numel
  iota_S32x1_d0_w32 : S32x1.Iotas .tc 32 [0]
  broadcasts_S32x1_S32x2048 : S32x1.Broadcasts S32x2048
  reduces_S32x2048_S2048 : S32x2048.Reduces [0] S2048
  shapeCasts_S2048_S1x16x128 : S2048.ShapeCasts S1x16x128
  inb_S1x16x128_S1x16x128_0_0_0 : ∀ a, (![0, 0, 0] : Fin 3 → Nat) a + S1x16x128.size a ≤ S1x16x128.size a
  h_S1x16x128 : 0 < S1x16x128.numel
  shapeCasts_S49x16x128_S100352 : S49x16x128.ShapeCasts S100352
  h_S16 : 0 < S16.numel
  h_S100352 : 0 < S100352.numel
  shapeCasts_S794624_S8x99328 : S794624.ShapeCasts S8x99328
  slices_S100352_S99328_1024 : S100352.Slices ![1024] S99328
  shapeCasts_S99328_S97x8x128 : S99328.ShapeCasts S97x8x128
  iota_S1024x1_d0_w32 : S1024x1.Iotas .tc 32 [0]
  inb_S1024x128_S1024x128_0_0 : ∀ a, (![0, 0] : Fin 2 → Nat) a + S1024x128.size a ≤ S1024x128.size a
  h_S1024x128 : 0 < S1024x128.numel
  shapeCasts_S1024x1_S1024x1 : S1024x1.ShapeCasts S1024x1
  broadcasts_S1024x1_S1024x128 : S1024x1.Broadcasts S1024x128
  inb_S1024x256_S1024x256_0_0 : ∀ a, (![0, 0] : Fin 2 → Nat) a + S1024x256.size a ≤ S1024x256.size a
  h_S1024x256 : 0 < S1024x256.numel
  iota_S16x256_d0_w32 : S16x256.Iotas .tc 32 [0]
  iota_S16x256_d1_w32 : S16x256.Iotas .tc 32 [1]
  natLt_1_32 : 1 < 32
  broadcasts_S16x256_S16x256 : S16x256.Broadcasts S16x256
  shapeCasts_S16x1024_S16x8x128 : S16x1024.ShapeCasts S16x8x128
  slices_S16x8x128_o0_0_0_S1x8x128 : S16x8x128.Slices ![0, 0, 0] S1x8x128
  shapeCasts_S1x8x128_S8x128 : S1x8x128.ShapeCasts S8x128
  slices_S16x8x128_o1_0_0_S1x8x128 : S16x8x128.Slices ![1, 0, 0] S1x8x128
  slices_S16x8x128_o2_0_0_S1x8x128 : S16x8x128.Slices ![2, 0, 0] S1x8x128
  slices_S16x8x128_o3_0_0_S1x8x128 : S16x8x128.Slices ![3, 0, 0] S1x8x128
  slices_S16x8x128_o4_0_0_S1x8x128 : S16x8x128.Slices ![4, 0, 0] S1x8x128
  slices_S16x8x128_o5_0_0_S1x8x128 : S16x8x128.Slices ![5, 0, 0] S1x8x128
  slices_S16x8x128_o6_0_0_S1x8x128 : S16x8x128.Slices ![6, 0, 0] S1x8x128
  slices_S16x8x128_o7_0_0_S1x8x128 : S16x8x128.Slices ![7, 0, 0] S1x8x128
  slices_S16x8x128_o8_0_0_S1x8x128 : S16x8x128.Slices ![8, 0, 0] S1x8x128
  slices_S16x8x128_o9_0_0_S1x8x128 : S16x8x128.Slices ![9, 0, 0] S1x8x128
  slices_S16x8x128_o10_0_0_S1x8x128 : S16x8x128.Slices ![10, 0, 0] S1x8x128
  slices_S16x8x128_o11_0_0_S1x8x128 : S16x8x128.Slices ![11, 0, 0] S1x8x128
  slices_S16x8x128_o12_0_0_S1x8x128 : S16x8x128.Slices ![12, 0, 0] S1x8x128
  slices_S16x8x128_o13_0_0_S1x8x128 : S16x8x128.Slices ![13, 0, 0] S1x8x128
  slices_S16x8x128_o14_0_0_S1x8x128 : S16x8x128.Slices ![14, 0, 0] S1x8x128
  slices_S16x8x128_o15_0_0_S1x8x128 : S16x8x128.Slices ![15, 0, 0] S1x8x128
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x8x128 : S8x1024.ShapeCasts S8x8x128
  slices_S8x8x128_o0_0_0_S1x8x128 : S8x8x128.Slices ![0, 0, 0] S1x8x128
  slices_S8x8x128_o1_0_0_S1x8x128 : S8x8x128.Slices ![1, 0, 0] S1x8x128
  slices_S8x8x128_o2_0_0_S1x8x128 : S8x8x128.Slices ![2, 0, 0] S1x8x128
  slices_S8x8x128_o3_0_0_S1x8x128 : S8x8x128.Slices ![3, 0, 0] S1x8x128
  slices_S8x8x128_o4_0_0_S1x8x128 : S8x8x128.Slices ![4, 0, 0] S1x8x128
  slices_S8x8x128_o5_0_0_S1x8x128 : S8x8x128.Slices ![5, 0, 0] S1x8x128
  slices_S8x8x128_o6_0_0_S1x8x128 : S8x8x128.Slices ![6, 0, 0] S1x8x128
  slices_S8x8x128_o7_0_0_S1x8x128 : S8x8x128.Slices ![7, 0, 0] S1x8x128
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  shapeCasts_S8x128_S1x8x128 : S8x128.ShapeCasts S1x8x128
  concatenates_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S32x8x128_d0 : Shape.Concatenates [S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128, S1x8x128] S32x8x128 0
  shapeCasts_S32x8x128_S32x1024 : S32x8x128.ShapeCasts S32x1024
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  dot_S16x256_S1024x256_S16x1024_1_1_0_0_n_n_wf : DotDims.WF S16x256 S1024x256 S16x1024 [1] [1] [0] [0] [] []
  dot_S32x1024_S1024x128_S32x128_1_0_0_1_n_n_wf : DotDims.WF S32x1024 S1024x128 S32x128 [1] [0] [0] [1] [] []
  hcc1_scoped0 : 4 + S_.numel ≤ 25
  hcc1_scoped1 : 5 + S_.numel ≤ 25
  hcc1_scoped2 : 6 + S_.numel ≤ 25
  hcc1_scoped3 : 7 + S_.numel ≤ 25
  hcc1_scoped4 : 8 + S_.numel ≤ 25
  hcc1_scoped5 : 9 + S_.numel ≤ 25
  hcc1_scoped6 : 10 + S_.numel ≤ 25
  hcc1_scoped7 : 11 + S_.numel ≤ 25
  hcc1_scoped8 : 12 + S_.numel ≤ 25
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x2048.size a < S32x100000.size a
  hwx0_0 : ∀ i : grid0.Coords, EltTy.bits .i32 = 32 ∨ (Rect.unit (s := S32x100000) (fun a => cc0_transform_0 i a * S32x2048.size a) (fun a => (Pipeline.Clip.of (cc0_transform_0 i a) (S32x2048.size a) (S32x100000.size a)).extent (S32x2048.size a)) fun a => Pipeline.Clip.inb (Pipeline.Clip.ok_of (hstart0_0 i a))).WholeWords (EltTy.packing .i32)
  hwxs0_0 : ∀ i : grid0.Coords, EltTy.bits .i32 = 32 ∨ (Rect.unit (s := S32x2048) (fun _ => 0) (fun a => (Pipeline.Clip.of (cc0_transform_0 i a) (S32x2048.size a) (S32x100000.size a)).extent (S32x2048.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128.size a ≤ S49x16x128.size a
  hwx0_1 : ∀ i : grid0.Coords, EltTy.bits .i32 = 32 ∨ (Rect.block (s := S49x16x128) S1x16x128.size (cc0_transform_1 i) (hinb0_1 i)).WholeWords (EltTy.packing .i32)
  hcore1 : grid1.bound 0 ≤ τ.nSC
  hsub1 : grid1.bound 1 ≤ τ.nSub
  k1_off1_inb : ∀ i : grid1.Coords, ∀ (r : Fin 4), ∀ a, (k1_off1 i (BitVec.ofNat 32 (6208 * r.val))) a + S6208.size a ≤ S794624.size a
  k1_t1_ok : k1_t1_loop.OK
  k1_off2_inb : ∀ k1_t1 : Fin k1_t1_loop.trips, ∀ a, (k1_off2 k1_t1) a + S16.size a ≤ S6208.size a
  k1_off3_inb : ∀ k1_t1 : Fin k1_t1_loop.trips, ∀ a, (k1_off3 k1_t1) a + S16.size a ≤ S6208.size a
  k1_t2_ok : k1_t2_loop.OK
  k1_off4_inb : ∀ k1_t2 : Fin k1_t2_loop.trips, ∀ a, (k1_off4 k1_t2) a + S16.size a ≤ S6208.size a
  k1_off5_inb : ∀ k1_t2 : Fin k1_t2_loop.trips, ∀ a, (k1_off5 k1_t2) a + S16.size a ≤ S6208.size a
  k1_t3_ok : k1_t3_loop.OK
  k1_off6_inb : ∀ k1_t3 : Fin k1_t3_loop.trips, ∀ a, (k1_off6 k1_t3) a + S16.size a ≤ S6208.size a
  k1_off7_inb : ∀ k1_t3 : Fin k1_t3_loop.trips, ∀ a, (k1_off7 k1_t3) a + S16.size a ≤ S6208.size a
  k1_t4_ok : k1_t4_loop.OK
  k1_off8_inb : ∀ k1_t4 : Fin k1_t4_loop.trips, ∀ a, (k1_off8 k1_t4) a + S16.size a ≤ S6208.size a
  k1_off9_inb : ∀ k1_t4 : Fin k1_t4_loop.trips, ∀ a, (k1_off9 k1_t4) a + S16.size a ≤ S6208.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S1024x256.size a < S100000x256.size a
  hwx2_0 : ∀ i : grid2.Coords, EltTy.bits .i32 = 32 ∨ (Rect.unit (s := S100000x256) (fun a => cc2_transform_0 i a * S1024x256.size a) (fun a => (Pipeline.Clip.of (cc2_transform_0 i a) (S1024x256.size a) (S100000x256.size a)).extent (S1024x256.size a)) fun a => Pipeline.Clip.inb (Pipeline.Clip.ok_of (hstart2_0 i a))).WholeWords (EltTy.packing .i32)
  hwxs2_0 : ∀ i : grid2.Coords, EltTy.bits .i32 = 32 ∨ (Rect.unit (s := S1024x256) (fun _ => 0) (fun a => (Pipeline.Clip.of (cc2_transform_0 i a) (S1024x256.size a) (S100000x256.size a)).extent (S1024x256.size a)) fun a => (Nat.zero_add _).trans_le (Pipeline.Clip.extent_le (Pipeline.Clip.ok_of (hstart2_0 i a)))).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x1024.size a ≤ S8x99328.size a
  hwx2_1 : ∀ i : grid2.Coords, EltTy.bits .i32 = 32 ∨ (Rect.block (s := S8x99328) S8x1024.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x1024.size a ≤ S8x99328.size a
  hwx2_2 : ∀ i : grid2.Coords, EltTy.bits .i32 = 32 ∨ (Rect.block (s := S8x99328) S8x1024.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x8x128.size a ≤ S97x8x128.size a
  hwx2_3 : ∀ i : grid2.Coords, EltTy.bits .i32 = 32 ∨ (Rect.block (s := S97x8x128) S1x8x128.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S1024x128.size a < S98976x128.size a
  hwx2_4 : ∀ i : grid2.Coords, EltTy.bits .f32 = 32 ∨ (Rect.unit (s := S98976x128) (fun a => cc2_transform_4 i a * S1024x128.size a) (fun a => (Pipeline.Clip.of (cc2_transform_4 i a) (S1024x128.size a) (S98976x128.size a)).extent (S1024x128.size a)) fun a => Pipeline.Clip.inb (Pipeline.Clip.ok_of (hstart2_4 i a))).WholeWords (EltTy.packing .f32)
  hwxs2_4 : ∀ i : grid2.Coords, EltTy.bits .f32 = 32 ∨ (Rect.unit (s := S1024x128) (fun _ => 0) (fun a => (Pipeline.Clip.of (cc2_transform_4 i a) (S1024x128.size a) (S98976x128.size a)).extent (S1024x128.size a)) fun a => (Nat.zero_add _).trans_le (Pipeline.Clip.extent_le (Pipeline.Clip.ok_of (hstart2_4 i a)))).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x128.size a ≤ S32x128.size a
  hwx2_6 : ∀ i : grid2.Coords, EltTy.bits .f32 = 32 ∨ (Rect.block (s := S32x128) S32x128.size (cc2_transform_6 i) (hinb2_6 i)).WholeWords (EltTy.packing .f32)

variable [Facts₀]

abbrev cc1_scoped0 : DmaSems sig S_ := SemArray.consecutive 4 S_ hcc1_scoped0
abbrev cc1_scoped1 : DmaSems sig S_ := SemArray.consecutive 5 S_ hcc1_scoped1
abbrev cc1_scoped2 : DmaSems sig S_ := SemArray.consecutive 6 S_ hcc1_scoped2
abbrev cc1_scoped3 : DmaSems sig S_ := SemArray.consecutive 7 S_ hcc1_scoped3
abbrev cc1_scoped4 : DmaSems sig S_ := SemArray.consecutive 8 S_ hcc1_scoped4
abbrev cc1_scoped5 : DmaSems sig S_ := SemArray.consecutive 9 S_ hcc1_scoped5
abbrev cc1_scoped6 : DmaSems sig S_ := SemArray.consecutive 10 S_ hcc1_scoped6
abbrev cc1_scoped7 : DmaSems sig S_ := SemArray.consecutive 11 S_ hcc1_scoped7
abbrev cc1_scoped8 : DmaSems sig S_ := SemArray.consecutive 12 S_ hcc1_scoped8
def dot_S16x256_S1024x256_S16x1024_1_1_0_0_n_n : DotDims S16x256 S1024x256 S16x1024 where
  lhsContracting := [1]
  rhsContracting := [1]
  lhsNonContracting := [0]
  rhsNonContracting := [0]
  lhsBatch := []
  rhsBatch := []
  wf := dot_S16x256_S1024x256_S16x1024_1_1_0_0_n_n_wf
def dot_S32x1024_S1024x128_S32x128_1_0_0_1_n_n : DotDims S32x1024 S1024x128 S32x128 where
  lhsContracting := [1]
  rhsContracting := [0]
  lhsNonContracting := [0]
  rhsNonContracting := [1]
  lhsBatch := []
  rhsBatch := []
  wf := dot_S32x1024_S1024x128_S32x128_1_0_0_1_n_n_wf

abbrev win0_0 : Pipeline.Window sig grid0 :=
  Pipeline.Window.ofSpecClip (Memref.whole main_arg0) S32x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v8) S1x16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win2_0 : Pipeline.Window sig grid2 :=
  Pipeline.Window.ofSpecClip (Memref.whole main_arg3) S1024x256.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v11) S8x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S8x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x8x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpecClip (Memref.whole main_arg4) S1024x128.size cc2_transform_4 reads2_4 false false 2 stage2_4 sem2_4
    hrank2 hreads2_4 hstart2_4 nbuf2_4 (Memref.isWhole_whole _) hwx2_4 hwxs2_4 hstage2_4

abbrev win2_5 : Pipeline.Window sig grid2 :=
  Pipeline.Window.ofSpec (Memref.whole main_v7) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S32x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond1 i == 1#1) && !(k2_cond2 i == 1#1) && !(k2_cond3 i == 1#1) | ⟨_ + 7, h⟩ => absurd h (Nat.not_lt.2 (Nat.le_add_left _ _))

class Facts : Prop extends Facts₀ where

variable [Facts]
-- ==== ReferenceIdeal.lean ====
abbrev S32x100000 : Shape := ⟨2, ![32, 100000]⟩
abbrev S100000x8 : Shape := ⟨2, ![100000, 8]⟩
abbrev S100000x256 : Shape := ⟨2, ![100000, 256]⟩
abbrev S98976x128 : Shape := ⟨2, ![98976, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S32x800000 : Shape := ⟨2, ![32, 800000]⟩
abbrev S32x100000x8 : Shape := ⟨3, ![32, 100000, 8]⟩
abbrev S1x100000x8 : Shape := ⟨3, ![1, 100000, 8]⟩
abbrev S8 : Shape := ⟨1, ![8]⟩
abbrev S1x1x8 : Shape := ⟨3, ![1, 1, 8]⟩
abbrev S1x100000x256 : Shape := ⟨3, ![1, 100000, 256]⟩
abbrev S32x100000x256 : Shape := ⟨3, ![32, 100000, 256]⟩
abbrev S32x100000x1 : Shape := ⟨3, ![32, 100000, 1]⟩
abbrev S32x100000x1x1 : Shape := ⟨4, ![32, 100000, 1, 1]⟩
abbrev S1x1x1x1 : Shape := ⟨4, ![1, 1, 1, 1]⟩
abbrev S100000 : Shape := ⟨1, ![100000]⟩
abbrev S1x100000 : Shape := ⟨2, ![1, 100000]⟩
abbrev S32x98976 : Shape := ⟨2, ![32, 98976]⟩
abbrev S32x128 : Shape := ⟨2, ![32, 128]⟩
abbrev S1x128 : Shape := ⟨2, ![1, 128]⟩

abbrev nBuf : Space → Nat
  | .hbm => 185
  | .vmem => 0
  | .smem => 0
  | _ => 0

abbrev hbmTy0_0 (i : Nat) : BufTy := match i % 128 with
  | 0 => ⟨S32x100000, .i32⟩
  | 1 => ⟨S100000x8, .i32⟩
  | 2 => ⟨S100000x8, .i32⟩
  | 3 => ⟨S100000x256, .i32⟩
  | 4 => ⟨S98976x128, .f32⟩
  | 5 => ⟨S128, .f32⟩
  | 6 => ⟨S800000, .i32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S1, .i32⟩
  | 16 => ⟨S_, .i32⟩
  | 17 => ⟨S800000x1, .i32⟩
  | 18 => ⟨S800000x1, .i1⟩
  | 19 => ⟨S1x1, .i32⟩
  | 20 => ⟨S800000x1, .i32⟩
  | 21 => ⟨S800000x1, .i1⟩
  | 22 => ⟨S800000x1, .i1⟩
  | 23 => ⟨S_, .i1⟩
  | 24 => ⟨S800000, .i1⟩
  | 25 => ⟨S32x800000, .i32⟩
  | 26 => ⟨S32x800000, .i1⟩
  | 27 => ⟨S_, .i32⟩
  | 28 => ⟨S32x800000, .i32⟩
  | 29 => ⟨S32x800000, .i32⟩
  | 30 => ⟨S32x100000x8, .i32⟩
  | 31 => ⟨S1x100000x8, .i32⟩
  | 32 => ⟨S32x100000x8, .i32⟩
  | 33 => ⟨S32x100000x8, .i32⟩
  | 34 => ⟨S8, .i32⟩
  | 35 => ⟨S_, .i32⟩
  | 36 => ⟨S_, .i32⟩
  | 37 => ⟨S_, .i1⟩
  | 38 => ⟨S_, .i32⟩
  | 39 => ⟨S8, .i32⟩
  | 40 => ⟨S8, .i1⟩
  | 41 => ⟨S8, .i1⟩
  | 42 => ⟨S8, .i1⟩
  | 43 => ⟨S_, .i32⟩
  | 44 => ⟨S_, .i32⟩
  | 45 => ⟨S8, .i32⟩
  | 46 => ⟨S8, .i32⟩
  | 47 => ⟨S8, .i32⟩
  | 48 => ⟨S_, .i32⟩
  | 49 => ⟨S8, .i32⟩
  | 50 => ⟨S8, .i32⟩
  | 51 => ⟨S_, .i32⟩
  | 52 => ⟨S8, .i32⟩
  | 53 => ⟨S8, .i32⟩
  | 54 => ⟨S_, .i32⟩
  | 55 => ⟨S8, .i32⟩
  | 56 => ⟨S8, .i1⟩
  | 57 => ⟨S8, .i32⟩
  | 58 => ⟨S_, .i32⟩
  | 59 => ⟨S_, .i32⟩
  | 60 => ⟨S_, .i32⟩
  | 61 => ⟨S_, .i32⟩
  | 62 => ⟨S8, .i32⟩
  | 63 => ⟨S8, .i32⟩
  | 64 => ⟨S_, .i32⟩
  | 65 => ⟨S8, .i32⟩
  | 66 => ⟨S8, .i32⟩
  | 67 => ⟨S8, .i32⟩
  | 68 => ⟨S8, .i32⟩
  | 69 => ⟨S_, .i32⟩
  | 70 => ⟨S8, .i32⟩
  | 71 => ⟨S8, .i1⟩
  | 72 => ⟨S8, .i32⟩
  | 73 => ⟨S_, .i32⟩
  | 74 => ⟨S_, .i32⟩
  | 75 => ⟨S8, .i32⟩
  | 76 => ⟨S8, .i32⟩
  | 77 => ⟨S_, .i32⟩
  | 78 => ⟨S8, .i32⟩
  | 79 => ⟨S8, .i32⟩
  | 80 => ⟨S8, .i32⟩
  | 81 => ⟨S8, .i32⟩
  | 82 => ⟨S_, .i32⟩
  | 83 => ⟨S8, .i32⟩
  | 84 => ⟨S8, .i1⟩
  | 85 => ⟨S8, .i32⟩
  | 86 => ⟨S_, .i32⟩
  | 87 => ⟨S_, .i32⟩
  | 88 => ⟨S8, .i32⟩
  | 89 => ⟨S8, .i32⟩
  | 90 => ⟨S_, .i32⟩
  | 91 => ⟨S8, .i32⟩
  | 92 => ⟨S8, .i32⟩
  | 93 => ⟨S8, .i32⟩
  | 94 => ⟨S8, .i32⟩
  | 95 => ⟨S_, .i32⟩
  | 96 => ⟨S8, .i32⟩
  | 97 => ⟨S8, .i1⟩
  | 98 => ⟨S8, .i32⟩
  | 99 => ⟨S_, .i32⟩
  | 100 => ⟨S_, .i32⟩
  | 101 => ⟨S8, .i32⟩
  | 102 => ⟨S8, .i32⟩
  | 103 => ⟨S_, .i32⟩
  | 104 => ⟨S8, .i32⟩
  | 105 => ⟨S8, .i32⟩
  | 106 => ⟨S8, .i32⟩
  | 107 => ⟨S8, .i32⟩
  | 108 => ⟨S_, .i32⟩
  | 109 => ⟨S8, .i32⟩
  | 110 => ⟨S8, .i1⟩
  | 111 => ⟨S8, .i32⟩
  | 112 => ⟨S_, .i32⟩
  | 113 => ⟨S_, .i32⟩
  | 114 => ⟨S8, .i32⟩
  | 115 => ⟨S8, .i32⟩
  | 116 => ⟨S_, .i32⟩
  | 117 => ⟨S8, .i32⟩
  | 118 => ⟨S8, .i32⟩
  | 119 => ⟨S8, .i32⟩
  | 120 => ⟨S8, .i32⟩
  | 121 => ⟨S_, .i32⟩
  | 122 => ⟨S8, .i32⟩
  | 123 => ⟨S8, .i1⟩
  | 124 => ⟨S8, .i32⟩
  | 125 => ⟨S_, .i32⟩
  | 126 => ⟨S_, .i32⟩
  | 127 => ⟨S8, .i32⟩
  | _ => ⟨S32x100000, .i32⟩

abbrev hbmTy0_1 (i : Nat) : BufTy := match i % 128 with
  | 0 => ⟨S8, .i32⟩
  | 1 => ⟨S8, .i32⟩
  | 2 => ⟨S1x1x8, .i32⟩
  | 3 => ⟨S32x100000x8, .i32⟩
  | 4 => ⟨S32x100000x8, .i32⟩
  | 5 => ⟨S_, .i32⟩
  | 6 => ⟨S32x100000, .i32⟩
  | 7 => ⟨S1x100000x256, .i32⟩
  | 8 => ⟨S32x100000x256, .i32⟩
  | 9 => ⟨S32x100000x1, .i32⟩
  | 10 => ⟨S_, .i32⟩
  | 11 => ⟨S32x100000x1, .i32⟩
  | 12 => ⟨S32x100000x1, .i1⟩
  | 13 => ⟨S_, .i32⟩
  | 14 => ⟨S32x100000x1, .i32⟩
  | 15 => ⟨S32x100000x1, .i32⟩
  | 16 => ⟨S32x100000x1, .i32⟩
  | 17 => ⟨S32x100000x1x1, .i32⟩
  | 18 => ⟨S1, .i32⟩
  | 19 => ⟨S_, .i32⟩
  | 20 => ⟨S32x100000x1x1, .i32⟩
  | 21 => ⟨S32x100000x1x1, .i1⟩
  | 22 => ⟨S1x1x1x1, .i32⟩
  | 23 => ⟨S32x100000x1x1, .i32⟩
  | 24 => ⟨S32x100000x1x1, .i1⟩
  | 25 => ⟨S32x100000x1x1, .i1⟩
  | 26 => ⟨S_, .i1⟩
  | 27 => ⟨S32x100000x1, .i1⟩
  | 28 => ⟨S32x100000x1, .i32⟩
  | 29 => ⟨S_, .i32⟩
  | 30 => ⟨S32x100000x1, .i32⟩
  | 31 => ⟨S32x100000x1, .i32⟩
  | 32 => ⟨S32x100000, .i32⟩
  | 33 => ⟨S_, .i32⟩
  | 34 => ⟨S100000x8, .i32⟩
  | 35 => ⟨S100000x8, .i1⟩
  | 36 => ⟨S100000x8, .i1⟩
  | 37 => ⟨S_, .i1⟩
  | 38 => ⟨S100000, .i1⟩
  | 39 => ⟨S100000, .i1⟩
  | 40 => ⟨S1x100000, .i1⟩
  | 41 => ⟨S32x100000, .i1⟩
  | 42 => ⟨S32x100000, .i32⟩
  | 43 => ⟨S32x98976, .i32⟩
  | 44 => ⟨S32x98976, .f32⟩
  | 45 => ⟨S32x128, .f32⟩
  | 46 => ⟨S1x128, .f32⟩
  | 47 => ⟨S32x128, .f32⟩
  | 48 => ⟨S32x128, .f32⟩
  | 49 => ⟨S32x128, .f32⟩
  | 50 => ⟨S32x128, .f32⟩
  | 51 => ⟨S_, .f32⟩
  | 52 => ⟨S32x128, .f32⟩
  | 53 => ⟨S32x128, .f32⟩
  | 54 => ⟨S_, .f32⟩
  | 55 => ⟨S32x128, .f32⟩
  | 56 => ⟨S32x128, .f32⟩
  | _ => ⟨S32x100000, .i32⟩

abbrev hbmTy (i : Nat) : BufTy := match i / 128 with
  | 0 => hbmTy0_0 i
  | 1 => hbmTy0_1 i
  | _ => ⟨S32x100000, .i32⟩

abbrev bufTy : (tb : Table) → Fin (tcTables nBuf tb) → BufTy
  | .hbm, ⟨i, _⟩ => hbmTy i
  | _, _ => ⟨S32x100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_c_4 : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c : Ref sig .tc := ⟨.hbm, 35, rfl⟩
abbrev main_c_0 : Ref sig .tc := ⟨.hbm, 36, rfl⟩
abbrev main_v7 : Ref sig .tc := ⟨.hbm, 37, rfl⟩
abbrev main_c_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c_2 : Ref sig .tc := ⟨.hbm, 43, rfl⟩
abbrev main_c_3 : Ref sig .tc := ⟨.hbm, 44, rfl⟩
abbrev main_call1_v0 : Ref sig .tc := ⟨.hbm, 45, rfl⟩
abbrev main_call1_v1 : Ref sig .tc := ⟨.hbm, 46, rfl⟩
abbrev main_v12 : Ref sig .tc := ⟨.hbm, 47, rfl⟩
abbrev main_c_4 : Ref sig .tc := ⟨.hbm, 48, rfl⟩
abbrev main_v13 : Ref sig .tc := ⟨.hbm, 49, rfl⟩
abbrev main_v14 : Ref sig .tc := ⟨.hbm, 50, rfl⟩
abbrev main_c_5 : Ref sig .tc := ⟨.hbm, 51, rfl⟩
abbrev main_v15 : Ref sig .tc := ⟨.hbm, 52, rfl⟩
abbrev main_v16 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_v17 : Ref sig .tc := ⟨.hbm, 57, rfl⟩
abbrev main_c_6 : Ref sig .tc := ⟨.hbm, 58, rfl⟩
abbrev main_c_7 : Ref sig .tc := ⟨.hbm, 59, rfl⟩
abbrev main_v18 : Ref sig .tc := ⟨.hbm, 60, rfl⟩
abbrev main_c_8 : Ref sig .tc := ⟨.hbm, 61, rfl⟩
abbrev main_v19 : Ref sig .tc := ⟨.hbm, 62, rfl⟩
abbrev main_v20 : Ref sig .tc := ⟨.hbm, 63, rfl⟩
abbrev main_c_9 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_v25 : Ref sig .tc := ⟨.hbm, 72, rfl⟩
abbrev main_v26 : Ref sig .tc := ⟨.hbm, 73, rfl⟩
abbrev main_c_10 : Ref sig .tc := ⟨.hbm, 74, rfl⟩
abbrev main_v27 : Ref sig .tc := ⟨.hbm, 75, rfl⟩
abbrev main_v28 : Ref sig .tc := ⟨.hbm, 76, rfl⟩
abbrev main_c_11 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_call4_c : Ref sig .tc := ⟨.hbm, 82, rfl⟩
abbrev main_call4_v0 : Ref sig .tc := ⟨.hbm, 83, rfl⟩
abbrev main_call4_v1 : Ref sig .tc := ⟨.hbm, 84, rfl⟩
abbrev main_v33 : Ref sig .tc := ⟨.hbm, 85, rfl⟩
abbrev main_v34 : Ref sig .tc := ⟨.hbm, 86, rfl⟩
abbrev main_c_12 : Ref sig .tc := ⟨.hbm, 87, rfl⟩
abbrev main_v35 : Ref sig .tc := ⟨.hbm, 88, rfl⟩
abbrev main_v36 : Ref sig .tc := ⟨.hbm, 89, rfl⟩
abbrev main_c_13 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_v41 : Ref sig .tc := ⟨.hbm, 98, rfl⟩
abbrev main_v42 : Ref sig .tc := ⟨.hbm, 99, rfl⟩
abbrev main_c_14 : Ref sig .tc := ⟨.hbm, 100, rfl⟩
abbrev main_v43 : Ref sig .tc := ⟨.hbm, 101, rfl⟩
abbrev main_v44 : Ref sig .tc := ⟨.hbm, 102, rfl⟩
abbrev main_c_15 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_call6_c : Ref sig .tc := ⟨.hbm, 108, rfl⟩
abbrev main_call6_v0 : Ref sig .tc := ⟨.hbm, 109, rfl⟩
abbrev main_call6_v1 : Ref sig .tc := ⟨.hbm, 110, rfl⟩
abbrev main_v49 : Ref sig .tc := ⟨.hbm, 111, rfl⟩
abbrev main_v50 : Ref sig .tc := ⟨.hbm, 112, rfl⟩
abbrev main_c_16 : Ref sig .tc := ⟨.hbm, 113, rfl⟩
abbrev main_v51 : Ref sig .tc := ⟨.hbm, 114, rfl⟩
abbrev main_v52 : Ref sig .tc := ⟨.hbm, 115, rfl⟩
abbrev main_c_17 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_call7_c : Ref sig .tc := ⟨.hbm, 121, rfl⟩
abbrev main_call7_v0 : Ref sig .tc := ⟨.hbm, 122, rfl⟩
abbrev main_call7_v1 : Ref sig .tc := ⟨.hbm, 123, rfl⟩
abbrev main_v57 : Ref sig .tc := ⟨.hbm, 124, rfl⟩
abbrev main_v58 : Ref sig .tc := ⟨.hbm, 125, rfl⟩
abbrev main_c_18 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_c_19 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_call8_c : Ref sig .tc := ⟨.hbm, 138, rfl⟩
abbrev main_call8_v0 : Ref sig .tc := ⟨.hbm, 139, rfl⟩
abbrev main_call8_v1 : Ref sig .tc := ⟨.hbm, 140, rfl⟩
abbrev main_call8_c_0 : Ref sig .tc := ⟨.hbm, 141, rfl⟩
abbrev main_call8_v2 : Ref sig .tc := ⟨.hbm, 142, rfl⟩
abbrev main_call8_v3 : Ref sig .tc := ⟨.hbm, 143, rfl⟩
abbrev main_call8_v4 : Ref sig .tc := ⟨.hbm, 144, rfl⟩
abbrev main_call8_v5 : Ref sig .tc := ⟨.hbm, 145, rfl⟩
abbrev main_call8_c_1 : Ref sig .tc := ⟨.hbm, 146, rfl⟩
abbrev main_call8_c_2 : Ref sig .tc := ⟨.hbm, 147, rfl⟩
abbrev main_call8_v6 : Ref sig .tc := ⟨.hbm, 148, rfl⟩
abbrev main_call8_v7 : Ref sig .tc := ⟨.hbm, 149, rfl⟩
abbrev main_call8_v8 : Ref sig .tc := ⟨.hbm, 150, rfl⟩
abbrev main_call8_v9 : Ref sig .tc := ⟨.hbm, 151, rfl⟩
abbrev main_call8_v10 : Ref sig .tc := ⟨.hbm, 152, rfl⟩
abbrev main_call8_v11 : Ref sig .tc := ⟨.hbm, 153, rfl⟩
abbrev main_call8_c_3 : Ref sig .tc := ⟨.hbm, 154, rfl⟩
abbrev main_call8_v12 : Ref sig .tc := ⟨.hbm, 155, rfl⟩
abbrev main_call8_v13 : Ref sig .tc := ⟨.hbm, 156, rfl⟩
abbrev main_call8_c_4 : Ref sig .tc := ⟨.hbm, 157, rfl⟩
abbrev main_call8_v14 : Ref sig .tc := ⟨.hbm, 158, rfl⟩
abbrev main_v69 : Ref sig .tc := ⟨.hbm, 159, rfl⟩
abbrev main_v70 : Ref sig .tc := ⟨.hbm, 160, rfl⟩
abbrev main_c_20 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_c_21 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_call9_v0 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_cst : Ref sig .tc := ⟨.hbm, 179, rfl⟩
abbrev main_v86 : Ref sig .tc := ⟨.hbm, 180, rfl⟩
abbrev main_v87 : Ref sig .tc := ⟨.hbm, 181, rfl⟩
abbrev main_cst_22 : Ref sig .tc := ⟨.hbm, 182, rfl⟩
abbrev main_v88 : Ref sig .tc := ⟨.hbm, 183, rfl⟩
abbrev main_v89 : Ref sig .tc := ⟨.hbm, 184, rfl⟩

abbrev nD : Nat := 1
abbrev τ : Topo := Topo.v7x

variable {F : FTy → Type} [FloatOps F]

class Facts₀ : Prop where
  shapeCasts_S100000x8_S800000 : S100000x8.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S32x800000_1 : S800000.BroadcastsInDim S32x800000 (![1] : Fin 1 → Fin S32x800000.rank)
  bcast_S_S32x800000 : S_.BroadcastsInDim S32x800000 (![] : Fin 0 → Fin S32x800000.rank)
  shapeCasts_S32x800000_S32x100000x8 : S32x800000.ShapeCasts S32x100000x8
  bcast_S100000x8_S1x100000x8_1_2 : S100000x8.BroadcastsInDim S1x100000x8 (![1, 2] : Fin 2 → Fin S1x100000x8.rank)
  bcast_S1x100000x8_S32x100000x8_0_1_2 : S1x100000x8.BroadcastsInDim S32x100000x8 (![0, 1, 2] : Fin 3 → Fin S32x100000x8.rank)
  bcast_S_S8 : S_.BroadcastsInDim S8 (![] : Fin 0 → Fin S8.rank)
  bcast_S8_S1x1x8_2 : S8.BroadcastsInDim S1x1x8 (![2] : Fin 1 → Fin S1x1x8.rank)
  bcast_S1x1x8_S32x100000x8_0_1_2 : S1x1x8.BroadcastsInDim S32x100000x8 (![0, 1, 2] : Fin 3 → Fin S32x100000x8.rank)
  reducesTo_S32x100000x8_S32x100000_d2 : S32x100000x8.ReducesTo [2] S32x100000
  bcast_S100000x256_S1x100000x256_1_2 : S100000x256.BroadcastsInDim S1x100000x256 (![1, 2] : Fin 2 → Fin S1x100000x256.rank)
  bcast_S1x100000x256_S32x100000x256_0_1_2 : S1x100000x256.BroadcastsInDim S32x100000x256 (![0, 1, 2] : Fin 3 → Fin S32x100000x256.rank)
  bcast_S32x100000_S32x100000x1_0_1 : S32x100000.BroadcastsInDim S32x100000x1 (![0, 1] : Fin 2 → Fin S32x100000x1.rank)
  bcast_S_S32x100000x1 : S_.BroadcastsInDim S32x100000x1 (![] : Fin 0 → Fin S32x100000x1.rank)
  shapeCasts_S32x100000x1_S32x100000x1x1 : S32x100000x1.ShapeCasts S32x100000x1x1
  bcast_S_S32x100000x1x1 : S_.BroadcastsInDim S32x100000x1x1 (![] : Fin 0 → Fin S32x100000x1x1.rank)
  bcast_S1_S1x1x1x1_3 : S1.BroadcastsInDim S1x1x1x1 (![3] : Fin 1 → Fin S1x1x1x1.rank)
  bcast_S1x1x1x1_S32x100000x1x1_0_1_2_3 : S1x1x1x1.BroadcastsInDim S32x100000x1x1 (![0, 1, 2, 3] : Fin 4 → Fin S32x100000x1x1.rank)
  reducesTo_S32x100000x1x1_S32x100000x1_d3 : S32x100000x1x1.ReducesTo [3] S32x100000x1
  shapeCasts_S32x100000x1_S32x100000 : S32x100000x1.ShapeCasts S32x100000
  bcast_S_S100000x8 : S_.BroadcastsInDim S100000x8 (![] : Fin 0 → Fin S100000x8.rank)
  reducesTo_S100000x8_S100000_d1 : S100000x8.ReducesTo [1] S100000
  bcast_S100000_S1x100000_1 : S100000.BroadcastsInDim S1x100000 (![1] : Fin 1 → Fin S1x100000.rank)
  bcast_S1x100000_S32x100000_0_1 : S1x100000.BroadcastsInDim S32x100000 (![0, 1] : Fin 2 → Fin S32x100000.rank)
  slices_S32x100000_S32x98976_0_1024 : S32x100000.Slices ![0, 1024] S32x98976
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  gather_S32x100000_S800000x1_S32x800000_0_1_n_n_1_1_321_wf : GatherDims.WF S32x100000 S800000x1 S32x800000 [0] [1] [] [1] [] 1 ![32, 1]
  gather_S32x100000x256_S32x100000x1x1_S32x100000x1_n_2_01_01_2_3_111_wf : GatherDims.WF S32x100000x256 S32x100000x1x1 S32x100000x1 [] [2] [0, 1] [2] [0, 1] 3 ![1, 1, 1]
  dot_S32x98976_S98976x128_S32x128_1_0_0_1_n_n_wf : DotDims.WF S32x98976 S98976x128 S32x128 [1] [0] [0] [1] [] []

variable [Facts₀]

def gather_S32x100000_S800000x1_S32x800000_0_1_n_n_1_1_321 : GatherDims S32x100000 S800000x1 S32x800000 where
  offsetDims := [0]
  collapsedSliceDims := [1]
  operandBatchingDims := []
  startIndicesBatchingDims := []
  startIndexMap := [1]
  indexVectorDim := 1
  sliceSizes := ![32, 1]
  wf := gather_S32x100000_S800000x1_S32x800000_0_1_n_n_1_1_321_wf
def gather_S32x100000x256_S32x100000x1x1_S32x100000x1_n_2_01_01_2_3_111 : GatherDims S32x100000x256 S32x100000x1x1 S32x100000x1 where
  offsetDims := []
  collapsedSliceDims := [2]
  operandBatchingDims := [0, 1]
  startIndicesBatchingDims := [0, 1]
  startIndexMap := [2]
  indexVectorDim := 3
  sliceSizes := ![1, 1, 1]
  wf := gather_S32x100000x256_S32x100000x1x1_S32x100000x1_n_2_01_01_2_3_111_wf
def dot_S32x98976_S98976x128_S32x128_1_0_0_1_n_n : DotDims S32x98976 S98976x128 S32x128 where
  lhsContracting := [1]
  rhsContracting := [0]
  lhsNonContracting := [0]
  rhsNonContracting := [1]
  lhsBatch := []
  rhsBatch := []
  wf := dot_S32x98976_S98976x128_S32x128_1_0_0_1_n_n_wf

class Facts : Prop extends Facts₀ where

variable [Facts]
-- ==== Proof.Setup.lean ====
/-
  The program as the launch theorems see it, and the ghost state every part of the proof is stated over.

  The device runs 35 threads: the TensorCore (its @main: host operations, two pipelined calls, one SparseCore call),
  two sequencers and thirty-two vector subcores.  Three protocols meet in one resource algebra: the four handshake
  semaphores of the SparseCore call (rounds indexed by naturals), the staging cells of the two pipelined calls
  (rounds with one duty each), and the counters of the vector subcores' own local copies, which need no schedule.
-/
import proofs.«203813_g3255585210786_cont_8to1_b_763_8_alg».proof.Defs
import Idealize.ShloMosaic.Lib.SparseCore.Launch
import Idealize.ShloMosaic.Lib.SparseCore.Ops
import Idealize.ShloMosaic.Lib.StableHlo.Run
import Idealize.ShloMosaic.Lib.Pipeline.Regions
import Idealize.ShloMosaic.Lib.Transfers
import Idealize.ShloMosaic.Lib.Tactic
import proofs.«203813_g3255585210786_cont_8to1_b_763_8_alg».proof.Proof.Gen.KernelIdeal
import proofs.«203813_g3255585210786_cont_8to1_b_763_8_alg».proof.Proof.Gen.KernelIdeal.Launch

noncomputable section

namespace Cert.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are pairwise apart and unscoped, no buffer of a SparseCore's own is reassigned per task, and
    the one call has a single body. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Neither pipelined call has prefetched tables: the one admissible choice. -/
abbrev adm : (p : Fin 2) → (pcfgs (F := F) p).Adm := fun p => (cfgs p).toPCfg_adm

/-! ## The resource algebra -/

/-- The handshakes' rounds, the pipelines' rounds, the local copies' counters. -/
abbrev UH : Type := URounds (GSem nD τ sig) ℕ
abbrev UP : Type := URounds (GSem nD τ sig) Unit
abbrev UU : Type := (UH × UP) × Counters

local notation "𝕄" => MT nD τ sig (HIx 1) (Elt F) ℕ UU ℕ

def EH : Emb UH (MT nD τ sig (HIx 1) (Elt F) ℕ UU ℕ) :=
  ((Emb.inl : Emb UH (UH × UP)).trans (Emb.inl : Emb (UH × UP) UU)).trans
    (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UH × UP)).trans (Emb.inl : Emb (UH × UP) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The pipelines' own waits are recorded at no call's index. -/
abbrev ι₀ : HIx 1 := none

end Cert.KI

end
-- ==== Proof.HostSegs.lean ====
/-
  The host operations of @main, in three stretches around its three calls.

  Before the first call: the neighbour slots and the validity flags of the read-out nodes are cut out of their
  arrays, padded with 352 zero rows to a multiple of the block height, transposed to slot-major order (the slots
  also flattened to one index list) and the bias is viewed as a row.  Between the first call and the SparseCore
  call: the packed words are viewed as one flat table.  After it: the gathered words are viewed slot-major, and the
  read-out nodes' own packed words are cut out of the table and viewed in blocks.  No host operation writes an
  argument array.
-/
import proofs.«203813_g3255585210786_cont_8to1_b_763_8_alg».proof.Proof.Setup
import Idealize.ShloMosaic.Lib.Pipeline.Frame

noncomputable section

namespace Cert.KI

open Cert.KernelIdeal Cert.KernelIdeal.Gen
open Idealize.ShloMosaic Idealize.ShloMosaic.StableHlo
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The operations -/

abbrev hop0 : HloOp τ sig (Elt F) := StableHlo.unary main_arg1 main_v0 ((extractStridedSlice S98976x8 ![1024, 0] · slices_S100000x8_S98976x8_1024_0) : (⟨S100000x8, .i32⟩ : BufTy).Contents (Elt F) → (⟨S98976x8, .i32⟩ : BufTy).Contents (Elt F))
abbrev hop1 : HloOp τ sig (Elt F) := StableHlo.nullary main_c (constantI S_ 32 0#32)
abbrev hop2 : HloOp τ sig (Elt F) := StableHlo.TRef.unary (.of main_c : StableHlo.TRef sig ⟨S_, .i32⟩) main_call0.v0 id
abbrev hop3 : HloOp τ sig (Elt F) := StableHlo.TRef.binary (.of main_v0 : StableHlo.TRef sig ⟨S98976x8, .i32⟩) main_call0.v0 main_call0.v1 (fun x v => pad S99328x8 ![0, 0] ![352, 0] ![0, 0] x v pads_S98976x8_S99328x8_03520_000 h_S_)
abbrev hop4 : HloOp τ sig (Elt F) := StableHlo.unary main_v1 main_v2 ((transpose S8x99328 [1, 0] · transposes_S99328x8_S8x99328_1_0) : (⟨S99328x8, .i32⟩ : BufTy).Contents (Elt F) → (⟨S8x99328, .i32⟩ : BufTy).Contents (Elt F))
abbrev hop5 : HloOp τ sig (Elt F) := StableHlo.reshape main_v2 main_v3 rfl shapeCasts_S8x99328_S794624
abbrev hop6 : HloOp τ sig (Elt F) := StableHlo.unary main_arg2 main_v4 ((extractStridedSlice S98976x8 ![1024, 0] · slices_S100000x8_S98976x8_1024_0) : (⟨S100000x8, .i32⟩ : BufTy).Contents (Elt F) → (⟨S98976x8, .i32⟩ : BufTy).Contents (Elt F))
abbrev hop7 : HloOp τ sig (Elt F) := StableHlo.nullary main_c_0 (constantI S_ 32 0#32)
abbrev hop8 : HloOp τ sig (Elt F) := StableHlo.TRef.unary (.of main_c_0 : StableHlo.TRef sig ⟨S_, .i32⟩) main_call1.v0 id
abbrev hop9 : HloOp τ sig (Elt F) := StableHlo.TRef.binary (.of main_v4 : StableHlo.TRef sig ⟨S98976x8, .i32⟩) main_call1.v0 main_call1.v1 (fun x v => pad S99328x8 ![0, 0] ![352, 0] ![0, 0] x v pads_S98976x8_S99328x8_03520_000 h_S_)
abbrev hop10 : HloOp τ sig (Elt F) := StableHlo.unary main_v5 main_v6 ((transpose S8x99328 [1, 0] · transposes_S99328x8_S8x99328_1_0) : (⟨S99328x8, .i32⟩ : BufTy).Contents (Elt F) → (⟨S8x99328, .i32⟩ : BufTy).Contents (Elt F))
abbrev hop11 : HloOp τ sig (Elt F) := StableHlo.reshape main_arg5 main_v7 rfl shapeCasts_S128_S1x128
abbrev hop13 : HloOp τ sig (Elt F) := StableHlo.reshape main_v8 main_v9 rfl shapeCasts_S49x16x128_S100352
abbrev hop15 : HloOp τ sig (Elt F) := StableHlo.reshape main_v10 main_v11 rfl shapeCasts_S794624_S8x99328
abbrev hop16 : HloOp τ sig (Elt F) := StableHlo.unary main_v9 main_v12 ((extractStridedSlice S99328 ![1024] · slices_S100352_S99328_1024) : (⟨S100352, .i32⟩ : BufTy).Contents (Elt F) → (⟨S99328, .i32⟩ : BufTy).Contents (Elt F))
abbrev hop17 : HloOp τ sig (Elt F) := StableHlo.reshape main_v12 main_v13 rfl shapeCasts_S99328_S97x8x128

/-! ## The stretches -/

/-- The valuation after host stretch A. -/
abbrev opsA : List (HloOp τ sig (Elt F)) := [hop0 (F := F), hop1 (F := F), hop2 (F := F), hop3 (F := F), hop4 (F := F), hop5 (F := F), hop6 (F := F), hop7 (F := F), hop8 (F := F), hop9 (F := F), hop10 (F := F), hop11 (F := F)]
abbrev WA (V : Valuation τ sig (Elt F)) : Valuation τ sig (Elt F) := after (opsA (F := F)) V
/-- Host stretch A followed by `k`. -/
abbrev progA {α : Type} (k : Prog (TpuEff nD τ sig (Elt F) (SparseCore.Sig (ΛP (F := F)) 1) .tc) α) :
    Prog (TpuEff nD τ sig (Elt F) (SparseCore.Sig (ΛP (F := F)) 1) .tc) α :=
  hlo rfl (hop0 (F := F)) (fun _ => hlo rfl (hop1 (F := F)) (fun _ => hlo rfl (hop2 (F := F)) (fun _ => hlo rfl (hop3 (F := F)) (fun _ => hlo rfl (hop4 (F := F)) (fun _ => hlo rfl (hop5 (F := F)) (fun _ => hlo rfl (hop6 (F := F)) (fun _ => hlo rfl (hop7 (F := F)) (fun _ => hlo rfl (hop8 (F := F)) (fun _ => hlo rfl (hop9 (F := F)) (fun _ => hlo rfl (hop10 (F := F)) (fun _ => hlo rfl (hop11 (F := F)) (fun _ => k))))))))))))

set_option backward.isDefEq.respectTransparency.types false in
/-- Stretch A from every unscoped buffer at `V`: the buffers end at the stretch's fold over `V`. -/
theorem hostA (d : Dev nD) (bd : Option 𝒱.V) {α : Type} (k : Prog (TpuEff nD τ sig (Elt F) (SparseCore.Sig (ΛP (F := F)) 1) .tc) α)
    (Q : α → sProp 𝕄) (V : Valuation τ sig (Elt F)) :
    iprop(boundary (T d) ∗ held (T d) (Pipeline.ucRefs τ sig) V)
      ⊢ iprop((iprop(boundary (T d) ∗ held (T d) (Pipeline.ucRefs τ sig) (WA (F := F) V))
            -∗ wp frame (wpE ((K (F := F)).defs (D (F := F))) 𝒱 (T d) bd) Set.univ k Q)
          -∗ wp frame (wpE ((K (F := F)).defs (D (F := F))) 𝒱 (T d) bd) Set.univ (progA (F := F) k) Q) := by
  iintro ⟨Hb, Hh⟩ Hk
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (nullary_bufs_sub _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (binary_bufs_sub _ _ _ _ _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (reshape_bufs_sub _ _ _ _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (nullary_bufs_sub _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (binary_bufs_sub _ _ _ _ _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (reshape_bufs_sub _ _ _ _ _ _))) $$ [Hb Hh]
  · isplitl [Hb] <;> iassumption
  iintro ⟨Hb, Hh⟩
  iapply Hk
  isplitl [Hb]; · iexact Hb
  iexact Hh

/-- The valuation after host stretch B. -/
abbrev opsB : List (HloOp τ sig (Elt F)) := [hop13 (F := F)]
abbrev WB (V : Valuation τ sig (Elt F)) : Valuation τ sig (Elt F) := after (opsB (F := F)) V
/-- Host stretch B followed by `k`. -/
abbrev progB {α : Type} (k : Prog (TpuEff nD τ sig (Elt F) (SparseCore.Sig (ΛP (F := F)) 1) .tc) α) :
    Prog (TpuEff nD τ sig (Elt F) (SparseCore.Sig (ΛP (F := F)) 1) .tc) α :=
  hlo rfl (hop13 (F := F)) (fun _ => k)

set_option backward.isDefEq.respectTransparency.types false in
/-- Stretch B from every unscoped buffer at `V`: the buffers end at the stretch's fold over `V`. -/
theorem hostB (d : Dev nD) (bd : Option 𝒱.V) {α : Type} (k : Prog (TpuEff nD τ sig (Elt F) (SparseCore.Sig (ΛP (F := F)) 1) .tc) α)
    (Q : α → sProp 𝕄) (V : Valuation τ sig (Elt F)) :
    iprop(boundary (T d) ∗ held (T d) (Pipeline.ucRefs τ sig) V)
      ⊢ iprop((iprop(boundary (T d) ∗ held (T d) (Pipeline.ucRefs τ sig) (WB (F := F) V))
            -∗ wp frame (wpE ((K (F := F)).defs (D (F := F))) 𝒱 (T d) bd) Set.univ k Q)
          -∗ wp frame (wpE ((K (F := F)).defs (D (F := F))) 𝒱 (T d) bd) Set.univ (progB (F := F) k) Q) := by
  iintro ⟨Hb, Hh⟩ Hk
  iapply (wp_hlo_within 𝒱 (T d) bd Set.univ (Pipeline.sub_ucRefs _ (reshape_bufs_sub _ _ _ _ _ _))) $$ [Hb Hh]
  · isplitl [Hb] <;> iassumption
  iintro ⟨Hb, Hh⟩
  iapply Hk
  isplitl [Hb]; · iexact Hb
  iexact Hh

/-- The valuation after host stretch C. -/
abbrev opsC : List (HloOp τ sig (Elt F)) := [hop15 (F := F), hop16 (F := F), hop17 (F := F)]
abbrev WC (V : Valuation τ sig (Elt F)) : Valuation τ sig (Elt F) := after (opsC (F := F)) V
/-- Host stretch C followed by `k`. -/
abbrev progC {α : Type} (k : Prog (TpuEff nD τ sig (Elt F) (SparseCore.Sig (ΛP (F := F)) 1) .tc) α) :
    Prog (TpuEff nD τ sig (Elt F) (SparseCore.Sig (ΛP (F := F)) 1) .tc) α :=
  hlo rfl (hop15 (F := F)) (fun _ => hlo rfl (hop16 (F := F)) (fun _ => hlo rfl (hop17 (F := F)) (fun _ => k)))

set_option backward.isDefEq.respectTransparency.types false in
/-- Stretch C from every unscoped buffer at `V`: the buffers end at the stretch's fold over `V`. -/
theorem hostC (d : Dev nD) (bd : Option 𝒱.V) {α : Type} (k : Prog (TpuEff nD τ sig (Elt F) (SparseCore.Sig (ΛP (F := F)) 1) .tc) α)
    (Q : α → sProp 𝕄) (V : Valuation τ sig (Elt F)) :
    iprop(boundary (T d) ∗ held (T d) (Pipeline.ucRefs τ sig) V)
      ⊢ iprop((iprop(boundary (T d) ∗ held (T d) (Pipeline.ucRefs τ sig) (WC (F := F) V))
            -∗ wp frame (wpE ((K (F := F)).defs (D (F := F))) 𝒱 (T d) bd) Set.univ k Q)
          -∗ wp frame (wpE ((K (F := F)).defs (D (F := F))) 𝒱 (T d) bd) Set.univ (progC (F := F) k) Q) := by
  iintro ⟨Hb, Hh⟩ Hk
  iapply (wp_hlo_within 𝒱 (T d) bd Set.univ (Pipeline.sub_ucRefs _ (reshape_bufs_sub _ _ _ _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (reshape_bufs_sub _ _ _ _ _ _))) $$ [Hb Hh]
  · isplitl [Hb] <;> iassumption
  iintro ⟨Hb, Hh⟩
  iapply Hk
  isplitl [Hb]; · iexact Hb
  iexact Hh

/-! ## @main is the three stretches around the three calls -/

/-- A pipelined call as @main spells it. -/
abbrev callTc (p : Fin 2) : Prog (TpuEff nD τ sig (Elt F) (SparseCore.Sig (ΛP (F := F)) 1) .tc) PUnit :=
  Prog.lift (.customCall (SparseCore.inner (Pipeline.entry p)) ())

theorem main_eq (d : Dev nD) :
    main (F := F) d = progA (F := F) (callTc (F := F) 0 >>= fun _ => progB (F := F) ((K (F := F)).run d 0 >>= fun _ =>
      progC (F := F) (callTc (F := F) 1 >>= fun _ => pure ⟨⟩))) := rfl

end Cert.KI

end
-- ==== Proof.Steps.lean ====
/-
  Two steps of the TensorCore's @main inside the SparseCore program: a pipelined call run under the pipelines' own body
  table and lifted, and such a call taken as a region segment — entered from the segment's thread state with that
  pipeline's share of the launch ghost state, left at the segment's exit state.
-/
import proofs.«203813_g3255585210786_cont_8to1_b_763_8_alg».proof.Proof.Setup
import Idealize.ShloMosaic.Lib.Pipeline.Frame

noncomputable section

namespace Cert.KI

open Cert.KernelIdeal Cert.KernelIdeal.Gen
open Idealize.ShloMosaic Idealize.ShloMosaic.StableHlo
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- A pipelined call inside the SparseCore program: from its run under the pipelines' own body table, the rest of the
    program's run being its postcondition. -/
theorem wp_entry_lift (d : Dev nD) (p : Fin 2) (bd : Option 𝒱.V) {α : Type}
    (k : PUnit → Prog (TpuEff nD τ sig (Elt F) (SparseCore.Sig (ΛP (F := F)) 1) .tc) α) (Q : α → sProp 𝕄) :
    wp frame (wpE (D (F := F)) 𝒱 (T d) bd) Set.univ (.op (.customCall (Pipeline.entry p) ()) .ret)
        (fun r => wp frame (wpE ((K (F := F)).defs (D (F := F))) 𝒱 (T d) bd) Set.univ (k r) Q)
      ⊢ wp frame (wpE ((K (F := F)).defs (D (F := F))) 𝒱 (T d) bd) Set.univ (.op (.customCall (SparseCore.inner (Pipeline.entry p)) ()) k) Q := by
  have h := (K (F := F)).wp_liftProg (D (F := F)) 𝒱 (T d) Set.univ bd
    (.op (.customCall (Pipeline.entry p) ()) .ret : Prog (TpuEff nD τ sig (Elt F) (ΛP (F := F)) .tc) PUnit)
    (fun r => wp frame (wpE ((K (F := F)).defs (D (F := F))) 𝒱 (T d) bd) Set.univ (k r) Q)
  rw [← wp_bind] at h
  exact h

set_option backward.isDefEq.respectTransparency.types false in
/-- A pipelined call as a region segment `R` of pipeline `p`: entered from `R.pre d` with the ghost state of a set
    `S'` of pipelines containing `p`, left at `R.post d` with the ghost state of the others. -/
theorem regionStep [∀ e, Nonempty (Elt F e)]
    (rd : (p : Fin 2) → (c : Dev nD) → RDat τ (Elt F) (HIx 1) ℕ UU ℕ (Pipeline.pin (pcfgs (F := F)) adm p) c)
    {p : Fin 2} (R : Pipeline.RDat.RegionSeg (pcfgs (F := F)) adm rd ι₀ defs₀ 𝒱₀ (K (F := F)).L (K (F := F)).lev p)
    (S' : Finset (Fin 2)) (hp : p ∈ S') (d : Dev nD) {α : Type}
    (k : PUnit → Prog (TpuEff nD τ sig (Elt F) (SparseCore.Sig (ΛP (F := F)) 1) .tc) α) (Q : α → sProp 𝕄) :
    iprop(levAts (K (F := F)).L (K (F := F)).lev ∗ boundary (T d) ∗ R.pre d ∗ Pipeline.ghostOn (pcfgs (F := F)) adm EP S' d)
      ⊢ iprop((iprop(boundary (T d) ∗ R.post d ∗ Pipeline.ghostOn (pcfgs (F := F)) adm EP (S'.erase p) d)
            -∗ wp frame (wpE ((K (F := F)).defs (D (F := F))) 𝒱 (T d) none) Set.univ (k ⟨⟩) Q)
          -∗ wp frame (wpE ((K (F := F)).defs (D (F := F))) 𝒱 (T d) none) Set.univ
              (.op (.customCall (SparseCore.inner (Pipeline.entry p)) ()) k) Q) := by
  rw [show Pipeline.ghostOn (pcfgs (F := F)) adm EP S' d = Pipeline.PerCore.ghostOn (pcfgs (F := F)) (fun _ => adm) EP S' d from rfl,
    Pipeline.PerCore.ghostOn_erase (pcfgs (F := F)) (fun _ => adm) EP hp d]
  iintro ⟨#Hlev, Hb, Hpre, ⟨Hc, Ht⟩, Hg⟩ Hk
  iapply (wp_entry_lift d p none _ _)
  iapply (Pipeline.RDat.RegionSeg.wp (pcfgs (F := F)) adm rd ι₀ Gen.cellOf_inj EP defs₀ 𝒱₀ (K (F := F)).L (K (F := F)).lev R d none
    (fun u hu => by cases hu) .ret _)
  isplitl [Hk Hg]
  · iintro ⟨Hb, Hpost⟩
    rw [wp_ret]
    imodintro
    iapply Hk
    isplitl [Hb]; · iexact Hb
    isplitl [Hpost]; · iexact Hpost
    iexact Hg
  isplitl [Hb]; · iexact Hb
  isplitl [Hpre]; · iexact Hpre
  isplitr; · iexact Hlev
  isplitl [Hc]; · iexact Hc
  iexact Ht

end Cert.KI

end
-- ==== Proof.MainBody.lean ====
/-
  One grid point of the second TensorCore call, run once at symbolic operands.

  At a point the body reads six staged blocks — the node tables, the gathered neighbour words, the validity flags,
  the nodes' own packed words, a block of `W` and the bias — and touches only the accumulator block: it computes
  the block's partial product `part` from the inputs, then, according to where the point stands in the grid,
    first point:   acc := part
    middle points: acc := acc + part
    last point:    acc := logistic ((acc + part) + bias).
  Each run below says: from the seven staging memrefs held whole, the six inputs reading `x1 … x6` and the
  accumulator reading `x7`, the body runs to its return with the inputs as they were and the accumulator reading
  `W x7`, where `W` is the function of the old accumulator contents (and of the inputs) that the run itself finds.
-/
import proofs.«203813_g3255585210786_cont_8to1_b_763_8_alg».proof.Proof.Gen.KernelIdeal
import proofs.«203813_g3255585210786_cont_8to1_b_763_8_alg».proof.Proof.Gen.KernelIdeal.Skeleton
import Idealize.ShloMosaic.Lib.Tactic
import Idealize.ShloMosaic.Lib.Memref
import Idealize.ShloMosaic.Lib.Pipeline.Kit
import Idealize.ShloMosaic.Lib.Pipeline.Frame
import Idealize.ShloMosaic.Lib.SparseCore.Cells

noncomputable section

namespace Cert.MainBody

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (SparseCore.Cfg.HIx 1) (Elt F) ℕ U ℕ

/-! ## Where a point stands in the grid -/

/-- The first branch is taken exactly at point 0, -/
theorem cond1_iff : ∀ t : Fin grid2.N, k2_cond1 (grid2.coords t) = 1#1 ↔ t.val = 0 := by decide +kernel
/-- the second exactly after it, -/
theorem cond2_iff : ∀ t : Fin grid2.N, k2_cond2 (grid2.coords t) = 1#1 ↔ 0 < t.val := by decide +kernel
/-- the third exactly at the last point, 96. -/
theorem cond3_iff : ∀ t : Fin grid2.N, k2_cond3 (grid2.coords t) = 1#1 ↔ t.val = 96 := by decide +kernel

/-! ## The three runs -/

set_option maxHeartbeats 8000000 in
/-- The first point: the accumulator is overwritten with the block's partial product. -/
noncomputable def runFirst (c : Dev nD) (i : grid2.Coords) (h1 : k2_cond1 i = 1#1) (h2 : ¬ k2_cond2 i = 1#1) (h3 : ¬ k2_cond3 i = 1#1)
    (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec F S1024x256 .i32) (x2 : Vec F S8x1024 .i32) (x3 : Vec F S8x1024 .i32) (x4 : Vec F S1x8x128 .i32)
    (x5 : Vec F S1024x128 .f32) (x6 : Vec F S1x128 .f32) :
    { W : Vec F S32x128 .f32 → Vec F S32x128 .f32 //
      ∀ (x7 : Vec F S32x128 .f32) (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
          ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (W x7)) -∗ K ⟨⟩))
        ⊢ wp frame (wpE (defs₀ (F := F)) Variants.none c none) E
            (cc2__main_body i M1 hm1 M2 hm2 M3 hm3 M4 hm4 M5 hm5 M6 hm6 M7 hm7) K } := by
  refine ⟨?_, fun x7 E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := hm1.eq_unread hf1; obtain rfl := hm2.eq_unread hf2; obtain rfl := hm3.eq_unread hf3
    obtain rfl := hm4.eq_unread hf4; obtain rfl := hm5.eq_unread hf5; obtain rfl := hm6.eq_unread hf6
    obtain rfl := hm7.eq_unread hf7
    sl_exec_parts!
    sl_step
    iapply Hk
    isplitl [H1]
    · iexists _; isplitr; · ipureintro; exact hm1.read_unread _
      iexact H1
    isplitl [H2]
    · iexists _; isplitr; · ipureintro; exact hm2.read_unread _
      iexact H2
    isplitl [H3]
    · iexists _; isplitr; · ipureintro; exact hm3.read_unread _
      iexact H3
    isplitl [H4]
    · iexists _; isplitr; · ipureintro; exact hm4.read_unread _
      iexact H4
    isplitl [H5]
    · iexists _; isplitr; · ipureintro; exact hm5.read_unread _
      iexact H5
    isplitl [H6]
    · iexists _; isplitr; · ipureintro; exact hm6.read_unread _
      iexact H6
    iexists _; isplitr
    swap; · iexact H7
    ipureintro; rfl

set_option maxHeartbeats 8000000 in
/-- A middle point: the block's partial product is added to the accumulator. -/
noncomputable def runMid (c : Dev nD) (i : grid2.Coords) (h1 : ¬ k2_cond1 i = 1#1) (h2 : k2_cond2 i = 1#1) (h3 : ¬ k2_cond3 i = 1#1)
    (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec F S1024x256 .i32) (x2 : Vec F S8x1024 .i32) (x3 : Vec F S8x1024 .i32) (x4 : Vec F S1x8x128 .i32)
    (x5 : Vec F S1024x128 .f32) (x6 : Vec F S1x128 .f32) :
    { W : Vec F S32x128 .f32 → Vec F S32x128 .f32 //
      ∀ (x7 : Vec F S32x128 .f32) (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
          ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (W x7)) -∗ K ⟨⟩))
        ⊢ wp frame (wpE (defs₀ (F := F)) Variants.none c none) E
            (cc2__main_body i M1 hm1 M2 hm2 M3 hm3 M4 hm4 M5 hm5 M6 hm6 M7 hm7) K } := by
  refine ⟨?_, fun x7 E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := hm1.eq_unread hf1; obtain rfl := hm2.eq_unread hf2; obtain rfl := hm3.eq_unread hf3
    obtain rfl := hm4.eq_unread hf4; obtain rfl := hm5.eq_unread hf5; obtain rfl := hm6.eq_unread hf6
    obtain rfl := hm7.eq_unread hf7
    sl_exec_parts!
    sl_step
    iapply Hk
    isplitl [H1]
    · iexists _; isplitr; · ipureintro; exact hm1.read_unread _
      iexact H1
    isplitl [H2]
    · iexists _; isplitr; · ipureintro; exact hm2.read_unread _
      iexact H2
    isplitl [H3]
    · iexists _; isplitr; · ipureintro; exact hm3.read_unread _
      iexact H3
    isplitl [H4]
    · iexists _; isplitr; · ipureintro; exact hm4.read_unread _
      iexact H4
    isplitl [H5]
    · iexists _; isplitr; · ipureintro; exact hm5.read_unread _
      iexact H5
    isplitl [H6]
    · iexists _; isplitr; · ipureintro; exact hm6.read_unread _
      iexact H6
    iexists _; isplitr
    swap; · iexact H7
    ipureintro; rfl

set_option maxHeartbeats 8000000 in
/-- The last point: the partial product is added, then the bias, and the logistic function applied. -/
noncomputable def runLast (c : Dev nD) (i : grid2.Coords) (h1 : ¬ k2_cond1 i = 1#1) (h2 : k2_cond2 i = 1#1) (h3 : k2_cond3 i = 1#1)
    (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec F S1024x256 .i32) (x2 : Vec F S8x1024 .i32) (x3 : Vec F S8x1024 .i32) (x4 : Vec F S1x8x128 .i32)
    (x5 : Vec F S1024x128 .f32) (x6 : Vec F S1x128 .f32) :
    { W : Vec F S32x128 .f32 → Vec F S32x128 .f32 //
      ∀ (x7 : Vec F S32x128 .f32) (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
          ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (W x7)) -∗ K ⟨⟩))
        ⊢ wp frame (wpE (defs₀ (F := F)) Variants.none c none) E
            (cc2__main_body i M1 hm1 M2 hm2 M3 hm3 M4 hm4 M5 hm5 M6 hm6 M7 hm7) K } := by
  refine ⟨?_, fun x7 E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := hm1.eq_unread hf1; obtain rfl := hm2.eq_unread hf2; obtain rfl := hm3.eq_unread hf3
    obtain rfl := hm4.eq_unread hf4; obtain rfl := hm5.eq_unread hf5; obtain rfl := hm6.eq_unread hf6
    obtain rfl := hm7.eq_unread hf7
    sl_exec_parts!
    sl_step
    iapply Hk
    isplitl [H1]
    · iexists _; isplitr; · ipureintro; exact hm1.read_unread _
      iexact H1
    isplitl [H2]
    · iexists _; isplitr; · ipureintro; exact hm2.read_unread _
      iexact H2
    isplitl [H3]
    · iexists _; isplitr; · ipureintro; exact hm3.read_unread _
      iexact H3
    isplitl [H4]
    · iexists _; isplitr; · ipureintro; exact hm4.read_unread _
      iexact H4
    isplitl [H5]
    · iexists _; isplitr; · ipureintro; exact hm5.read_unread _
      iexact H5
    isplitl [H6]
    · iexists _; isplitr; · ipureintro; exact hm6.read_unread _
      iexact H6
    iexists _; isplitr
    swap; · iexact H7
    ipureintro; rfl

end Cert.MainBody

end
-- ==== Proof.MainRegion.lean ====
/-
  The second TensorCore call as relational proof data for the pipeline library.

  The call walks 97 grid points; at each it stages a block of the node tables, of the gathered words, of the flags,
  of the packed words and of `W` (the tables' and `W`'s last blocks overhang their arrays, so the tail of those
  two buffers holds words nothing names), the bias once, and keeps ONE accumulator block for the whole grid, written
  back after the last point.  What a staging buffer holds is therefore not a function of the arrays, and the data is
  stated as relations: an input buffer is left as it was found; of the accumulator nothing is said here (that the
  program runs, and that its argument arrays are kept, needs no more).
-/
import proofs.«203813_g3255585210786_cont_8to1_b_763_8_alg».proof.Proof.MainBody
import proofs.«203813_g3255585210786_cont_8to1_b_763_8_alg».proof.Proof.Gen.KernelIdeal.Launch
import proofs.«203813_g3255585210786_cont_8to1_b_763_8_alg».proof.Proof.Gen.KernelIdeal.Points
import Idealize.ShloMosaic.Lib.Pipeline.Kit

noncomputable section

namespace Cert.MainRegion

open Cert.KernelIdeal Cert.KernelIdeal.Gen Cert.MainBody
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] {U : Type} [URA U]

local notation "𝕄" => MT nD τ sig (SparseCore.Cfg.HIx 1) (Elt F) ℕ U ℕ

/-- The call's proof data on core `c`: the seven arrays as the region finds them (`V`); every input's staging
    buffer left as found, the accumulator's (window 6) at anything; the invariant `Φc`, what the core owes `O` and the
    bound `B` on the pairs its waits have recorded are the caller's, and the body never touches them; full shares. -/
def rdat (Φc : sProp 𝕄) (O : CellTallies nD τ sig (SparseCore.Cfg.HIx 1))
    (B : Set (SemLoc sig × SparseCore.Cfg.HIx 1)) (V : (c : Dev nD) → (b : Ref sig .tc) → Buf (Elt F) ((c : Thread nD τ).loc b)) (c : Dev nD) :
    RDat τ (Elt F) (SparseCore.Cfg.HIx 1) ℕ U ℕ cfg2 c where
  A w := V c (Pipeline.arrRef spec2 w)
  after w _ Y X := w.val = 6 ∨ X = Y
  Φ _ := Φc
  q _ := fullShare
  owed _ := O
  recorded _ := B

/-- The body at point `t`, whatever the seven current staging buffers hold (`Y`): the invariant and what the core
    owes pass through unread; the inputs come back as they were, the accumulator at what the point's case leaves. -/
theorem sound_body (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (ι : SparseCore.Cfg.HIx 1)
    (t : Fin cfg2.N) (Y : (w : Fin cfg2.W) → (cfg2.win w).block.Idx → Elt F (cfg2.win w).elt) :
    iprop((rdat (F := F) (U := U) Φc O B V c).Φ t.castSucc ∗ (rdat (F := F) (U := U) Φc O B V c).owesAt ι t.castSucc
        ∗ owns (c : Thread nD τ) (st2_0 t) fullShare (Y 0)
        ∗ owns (c : Thread nD τ) (st2_1 t) fullShare (Y 1)
        ∗ owns (c : Thread nD τ) (st2_2 t) fullShare (Y 2)
        ∗ owns (c : Thread nD τ) (st2_3 t) fullShare (Y 3)
        ∗ owns (c : Thread nD τ) (st2_4 t) fullShare (Y 4)
        ∗ owns (c : Thread nD τ) (st2_5 t) fullShare (Y 5)
        ∗ owns (c : Thread nD τ) (st2_6 t) fullShare (Y 6))
      ⊢ wp frame (wpE (defs₀ (F := F)) Variants.none c none) Set.univ (bodyAt2 t) fun _ =>
          iprop((rdat (F := F) (U := U) Φc O B V c).Φ t.succ ∗ (rdat (F := F) (U := U) Φc O B V c).owesAt ι t.succ
            ∗ (∃ X, ⌜(rdat (F := F) (U := U) Φc O B V c).after 0 t (Y 0) X⌝ ∗ owns (c : Thread nD τ) (st2_0 t) fullShare X)
            ∗ (∃ X, ⌜(rdat (F := F) (U := U) Φc O B V c).after 1 t (Y 1) X⌝ ∗ owns (c : Thread nD τ) (st2_1 t) fullShare X)
            ∗ (∃ X, ⌜(rdat (F := F) (U := U) Φc O B V c).after 2 t (Y 2) X⌝ ∗ owns (c : Thread nD τ) (st2_2 t) fullShare X)
            ∗ (∃ X, ⌜(rdat (F := F) (U := U) Φc O B V c).after 3 t (Y 3) X⌝ ∗ owns (c : Thread nD τ) (st2_3 t) fullShare X)
            ∗ (∃ X, ⌜(rdat (F := F) (U := U) Φc O B V c).after 4 t (Y 4) X⌝ ∗ owns (c : Thread nD τ) (st2_4 t) fullShare X)
            ∗ (∃ X, ⌜(rdat (F := F) (U := U) Φc O B V c).after 5 t (Y 5) X⌝ ∗ owns (c : Thread nD τ) (st2_5 t) fullShare X)
            ∗ (∃ X, ⌜(rdat (F := F) (U := U) Φc O B V c).after 6 t (Y 6) X⌝ ∗ owns (c : Thread nD τ) (st2_6 t) fullShare X)) := by
  rw [show (rdat (F := F) (U := U) Φc O B V c).Φ t.succ = (rdat (F := F) (U := U) Φc O B V c).Φ t.castSucc from rfl,
    show (rdat (F := F) (U := U) Φc O B V c).owesAt ι t.succ = (rdat (F := F) (U := U) Φc O B V c).owesAt ι t.castSucc from rfl]
  have hN : t.val < 97 := lt_of_lt_of_eq t.isLt (show cfg2.N = 97 from N_2)
  iintro ⟨HΦ, Ho, H0, H1, H2, H3, H4, H5, H6⟩
  by_cases h0 : t.val = 0
  · have c1 : k2_cond1 (grid2.coords t) = 1#1 := (cond1_iff t).mpr h0
    have c2 : ¬ k2_cond2 (grid2.coords t) = 1#1 := fun h => by have := (cond2_iff t).mp h; omega
    have c3 : ¬ k2_cond3 (grid2.coords t) = 1#1 := fun h => by have := (cond3_iff t).mp h; omega
    iapply ((runFirst c (grid2.coords t) c1 c2 c3 _ _ _ _ _ _ _ _ _ _ _ _ _ _ (Y 0) (Y 1) (Y 2) (Y 3) (Y 4) (Y 5)).2 (Y 6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexists _; isplitr; · ipureintro; exact Or.inr rfl
                    iexact H0
    isplitl [H1]; · iexists _; isplitr; · ipureintro; exact Or.inr rfl
                    iexact H1
    isplitl [H2]; · iexists _; isplitr; · ipureintro; exact Or.inr rfl
                    iexact H2
    isplitl [H3]; · iexists _; isplitr; · ipureintro; exact Or.inr rfl
                    iexact H3
    isplitl [H4]; · iexists _; isplitr; · ipureintro; exact Or.inr rfl
                    iexact H4
    isplitl [H5]; · iexists _; isplitr; · ipureintro; exact Or.inr rfl
                    iexact H5
    iexists _; isplitr
    swap; · iexact H6
    ipureintro; exact Or.inl rfl
  · have c1 : ¬ k2_cond1 (grid2.coords t) = 1#1 := fun h => h0 ((cond1_iff t).mp h)
    have c2 : k2_cond2 (grid2.coords t) = 1#1 := (cond2_iff t).mpr (Nat.pos_of_ne_zero h0)
    by_cases h96 : t.val = 96
    · have c3 : k2_cond3 (grid2.coords t) = 1#1 := (cond3_iff t).mpr h96
      iapply ((runLast c (grid2.coords t) c1 c2 c3 _ _ _ _ _ _ _ _ _ _ _ _ _ _ (Y 0) (Y 1) (Y 2) (Y 3) (Y 4) (Y 5)).2 (Y 6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexists _; isplitr; · ipureintro; exact Or.inr rfl
                      iexact H0
      isplitl [H1]; · iexists _; isplitr; · ipureintro; exact Or.inr rfl
                      iexact H1
      isplitl [H2]; · iexists _; isplitr; · ipureintro; exact Or.inr rfl
                      iexact H2
      isplitl [H3]; · iexists _; isplitr; · ipureintro; exact Or.inr rfl
                      iexact H3
      isplitl [H4]; · iexists _; isplitr; · ipureintro; exact Or.inr rfl
                      iexact H4
      isplitl [H5]; · iexists _; isplitr; · ipureintro; exact Or.inr rfl
                      iexact H5
      iexists _; isplitr
      swap; · iexact H6
      ipureintro; exact Or.inl rfl
    · have c3 : ¬ k2_cond3 (grid2.coords t) = 1#1 := fun h => h96 ((cond3_iff t).mp h)
      iapply ((runMid c (grid2.coords t) c1 c2 c3 _ _ _ _ _ _ _ _ _ _ _ _ _ _ (Y 0) (Y 1) (Y 2) (Y 3) (Y 4) (Y 5)).2 (Y 6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexists _; isplitr; · ipureintro; exact Or.inr rfl
                      iexact H0
      isplitl [H1]; · iexists _; isplitr; · ipureintro; exact Or.inr rfl
                      iexact H1
      isplitl [H2]; · iexists _; isplitr; · ipureintro; exact Or.inr rfl
                      iexact H2
      isplitl [H3]; · iexists _; isplitr; · ipureintro; exact Or.inr rfl
                      iexact H3
      isplitl [H4]; · iexists _; isplitr; · ipureintro; exact Or.inr rfl
                      iexact H4
      isplitl [H5]; · iexists _; isplitr; · ipureintro; exact Or.inr rfl
                      iexact H5
      iexists _; isplitr
      swap; · iexact H6
      ipureintro; exact Or.inl rfl

/-- The library's body obligation for the call, at every point and for all contents the buffers may hold. -/
theorem body_obligation (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (ι : SparseCore.Cfg.HIx 1) :
    (rdat (F := F) (U := U) Φc O B V c).BodyObligation (defs₀ (F := F)) Variants.none ι Set.univ := fun t Y _ => by
  rw [bigSep_W2, bigSep_W2]
  exact sound_body Φc O B V c ι t Y

end Cert.MainRegion

end
-- ==== Proof.Reg1.lean ====
/-
  The second TensorCore call as a segment of @main.

  The call is entered from the TensorCore's thread state after the SparseCore call: every unscoped buffer at its
  contents `W`, and the thread's debt term as the handshake protocol keeps it (after the one call: nothing owed, the
  recorded pairs at levels up to 8).  At the entry the call's seven arrays are split out of the unscoped buffers; the
  scoped buffers no window stages ride in the pipeline's invariant; at the exit the arrays come back, the six inputs as
  they were and the result array at some contents the write-back at the last point may leave.
-/
import proofs.«203813_g3255585210786_cont_8to1_b_763_8_alg».proof.Proof.Setup
import proofs.«203813_g3255585210786_cont_8to1_b_763_8_alg».proof.Proof.MainRegion

noncomputable section

namespace Cert.KI

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- Every TensorCore buffer's contents, per device. -/
abbrev Vals (F : FTy → Type) : Type := (c : Dev nD) → (b : Ref sig .tc) → Buf (Elt F) ((c : Thread nD τ).loc b)

/-- The pairs the TensorCore's waits may have recorded before call `n`: those at levels up to `8 n`. -/
def recBound (c : Dev nD) (n : ℕ) : Set (SemLoc sig × HIx 1) := {p | (K (F := F)).lev ((c : Thread nD τ), p.1) p.2 ≤ 8 * n}

/-- The TensorCore's debt term before call `n`, as the handshake state holds it. -/
def owesTc (c : Dev nD) (n : ℕ) : sProp 𝕄 :=
  iprop(∃ W, ⌜(K (F := F)).WBelow (c : Thread nD τ) W (8 * n)⌝ ∗ owes (c : Thread nD τ) ((K (F := F)).Otc c n) W)

/-- The two calls' proof data: the first call's is a parameter; the second's is over the contents `W1` the second
    region finds, its invariant the scoped buffers no window stages, its debt and recorded pairs those after the
    SparseCore call. -/
def rdats (rd0 : (c : Dev nD) → RDat τ (Elt F) (HIx 1) ℕ UU ℕ cfg0 c) (W1 : Vals F) :
    (p : Fin 2) → (c : Dev nD) → RDat τ (Elt F) (HIx 1) ℕ UU ℕ (Pipeline.pin (pcfgs (F := F)) adm p) c
  | ⟨0, _⟩ => rd0
  | ⟨1, _⟩ => fun c => MainRegion.rdat (F := F) (U := UU) (Pipeline.scopedRest spec2 c) ((K (F := F)).Otc c 1) (recBound (F := F) c 1) W1 c

set_option backward.isDefEq.respectTransparency.types false in
/-- The second call as a region segment. -/
def reg1 (rd0 : (c : Dev nD) → RDat τ (Elt F) (HIx 1) ℕ UU ℕ cfg0 c) (W1 : Vals F) :
    Pipeline.RDat.RegionSeg (pcfgs (F := F)) adm (rdats rd0 W1) ι₀ defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := MainRegion.body_obligation (F := F) (U := UU) (Pipeline.scopedRest spec2 c) ((K (F := F)).Otc c 1) (recBound (F := F) c 1) W1 c ι₀
  hwaits := Pipeline.RDat.hwaits_of_owed_zero _ _ _ _ _ _ 1 fun c _ => (K (F := F)).Otc_end c (le_refl 1)
  pre c := iprop(unscopedBufs c (W1 c) ∗ owesTc (F := F) c 1)
  post c := iprop((rdats rd0 W1 1 c).arraysAt cfg2.N ∗ Pipeline.unscopedRest spec2 c (W1 c) ∗ owesTc (F := F) c 1)
  X _ := iprop(emp)
  Y _ := iprop(emp)
  Z c := Pipeline.unscopedRest spec2 c (W1 c)
  hentry c := by
    rw [Pipeline.ownSems0_none]
    have hsplit := Pipeline.RDat.arrays_of_unscopedBufs (p := 1) (pcfgs (F := F)) adm (rdats rd0 W1) launch2.win launch2.arr_whole c
      ((rdats rd0 W1 1 c).share_full fun _ => rfl) (W1 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesTc
      icases HO with ⟨%W, %hW, HO⟩
      iexists W; isplitr
      · ipureintro; exact fun p hp => Or.inl (hW p hp)
      iexact HO
    isplitr; · iempintro
    iexact Hrest
  hin c := by
    rw [show (rdats rd0 W1 1 c).Φ 0 = Pipeline.scopedRest spec2 c from rfl]
    iintro ⟨-, -, Hr⟩
    iexact Hr
  hout c := by
    rw [Pipeline.ownSems0_none, show (rdats rd0 W1 1 c).Φ (Fin.last _) = Pipeline.scopedRest spec2 c from rfl]
    iintro Hr
    isplitr; · iempintro
    isplitr; · iempintro
    iexact Hr
  hexit c := by
    iintro ⟨Ha, HO, -, Hrest⟩
    imodintro
    isplitl [Ha]; · iexact Ha
    isplitl [Hrest]; · iexact Hrest
    unfold owesTc
    icases HO with ⟨%W, %hW, HO⟩
    iexists W; isplitr
    · ipureintro
      intro p hp
      rcases hW hp with h | ⟨w, s, rfl⟩
      · exact h
      · show (K (F := F)).lev _ none ≤ 8 * 1
        rw [SparseCore.Cfg.lev_none]; exact Nat.zero_le _
    iexact HO

end Cert.KI

end
-- ==== Proof.PackRegion.lean ====
/-
  The first TensorCore call of the program, as proof data for the pipeline rule.

  The call runs over 49 points.  At point `t` it is handed the block of the 0/1 state array made of all 32 rows and
  the columns `2048 t ‥ 2048 t + 2047`, and leaves in the result's block the 2048 words
  `Σ_b state b (2048 t + a) · 2^b` (row `b` shifted left by `b`, the 32 rows added), laid out as 16 rows of 128.
  The array has 100000 columns, so the last block overhangs it by 352 columns: there the staging buffer holds the
  array's columns `98304 ‥ 99999` on its first 1696 columns and words nothing names on the other 352, and the
  352 words computed from those are words nothing names either.  So what the body leaves in the result's buffer is
  not a function of the array alone; it is CONSTRAINED: it is the packed word of SOME completion of the block.
  The proof data is therefore relational: the input's buffer is left as found, the result's buffer holds
  `out0_1` of the input block completed by some `d`.
-/
import proofs.«203813_g3255585210786_cont_8to1_b_763_8_alg».proof.Proof.Gen.KernelIdeal.Launch
import proofs.«203813_g3255585210786_cont_8to1_b_763_8_alg».proof.Proof.Gen.KernelIdeal.Skeleton
import proofs.«203813_g3255585210786_cont_8to1_b_763_8_alg».proof.Proof.Gen.KernelIdeal.Points
import Idealize.ShloMosaic.Lib.Pipeline.FrameBody
import Idealize.ShloMosaic.Lib.Tactic

-- membership in a rectangle of 2048 columns: the structural recursion is as deep as the long axis
set_option maxRecDepth 16384

noncomputable section

namespace Cert.PackRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## What the body reads and writes -/

/-- The whole input block: all 32 rows, all 2048 columns. -/
abbrev r0_0 : Rect S32x2048 := Rect.unit (s := S32x2048) ![0, 0] S32x2048.size inb_S32x2048_S32x2048_0_0
/-- The whole result block: 1 × 16 × 128. -/
abbrev r1_0 : Rect S1x16x128 := Rect.unit (s := S1x16x128) ![0, 0, 0] S1x16x128.size inb_S1x16x128_S1x16x128_0_0_0

/-- What the body leaves in the result's block when the input block reads `x0`: its one store, of the packed words
    computed from the whole of `x0`, over the whole block. -/
def out0_1 (x0 : Vec F S32x2048 .i32) : Vec F S1x16x128 .i32 :=
  View.canon [⟨r1_0, k0_pay1 (View.ld x0 r0_0)⟩]

/-- The one store covers the result's block. -/
theorem cover0_1 (p0 : Vec F S1x16x128 .i32) (y : S1x16x128.Idx) :
    ∃ pc ∈ ([⟨r1_0, p0⟩] : List (View.Piece (Elt F) S1x16x128 .i32)), y ∈ pc.1.set :=
  View.cover_of_tiled [⟨r1_0, p0⟩] S1x16x128.size (by rfl) y

/-! ## The body's triple -/

set_option maxHeartbeats 1000000 in
/-- The body on whole staging buffers, the input's reading `x0` and the result's holding anything: it ends with the
    input's buffer unchanged and the result's reading `out0_1 x0`.  (One load of the input block, the pure
    computation, one load of the result block that nothing uses, one store over the whole result block.) -/
theorem sound_kernel (c : Dev nD) (E : Set Name) (i : grid0.Coords)
    (arg1 : Memref sig .tc .vmem S32x2048 .i32) (harg1 : arg1.IsWhole)
    (arg2 : Memref sig .tc .vmem S1x16x128 .i32) (harg2 : arg2.IsWhole)
    (x0 : Vec F S32x2048 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pack_body i arg1 harg1 arg2 harg2) K := by
  simp only [cc0__pack_body_eq_skeleton]; unfold cc0__pack_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The block of the state array at point `t` as a fetch reads it: its part inside the array (all 2048 columns at the
    points 0 ‥ 47, the first 1696 at point 48), off the array as the region finds it. -/
def blk0 (V : (c : Dev nD) → (b : Ref sig .tc) → Buf (Elt F) ((c : Thread nD τ).loc b)) (c : Dev nD) (t : Fin cfg0.N) :
    ((cfg0.win 0).xblock (cfg0.grid.coords t)).Idx → Elt F (cfg0.win 0).elt :=
  ((cfg0.win 0).blk t).view.read (Elt F) (V c (Pipeline.arrRef spec0 0))

/-- The proof data of the call on core `c`.  The arrays are as the region finds them (`V`).  The input's buffer is
    left as found.  The result's buffer is left holding `out0_1` of the input block completed, past the array's end,
    by SOME words `d` (at the points 0 ‥ 47 nothing is past the end and `d` is not read).  The invariant `Φ0`, the
    tallies `O` the core owes and the bound `B` on its recorded pairs are the caller's, the same at every point: the
    body reads none of them. -/
def rdat0 (Φ0 : sProp 𝕄) (O : CellTallies nD τ sig Ix) (B : Set (SemLoc sig × Ix))
    (V : (c : Dev nD) → (b : Ref sig .tc) → Buf (Elt F) ((c : Thread nD τ).loc b)) (c : Dev nD) :
    RDat τ (Elt F) Ix Name U Lvl cfg0 c where
  A w := V c (Pipeline.arrRef spec0 w)
  after w t := match w with
    | ⟨0, _⟩ => fun Y X => X = Y
    | ⟨1, _⟩ => fun _ X => ∃ d, X = out0_1 (win0_0.fill (grid0.coords t) d (blk0 V c t))
  Φ _ := Φ0
  q _ := fullShare
  owed _ := O
  recorded _ := B

/-- The data's arrays are the region-entry contents. -/
theorem A_eq (Φ0 : sProp 𝕄) (O : CellTallies nD τ sig Ix) (B : Set (SemLoc sig × Ix))
    (V : (c : Dev nD) → (b : Ref sig .tc) → Buf (Elt F) ((c : Thread nD τ).loc b)) (c : Dev nD) (w : Fin cfg0.W) : (rdat0 Φ0 O B V c).A w = V c (Pipeline.arrRef spec0 w) := by
  dsimp only [rdat0]

/-- The two relations, window by window. -/
theorem after0_0 (Φ0 : sProp 𝕄) (O : CellTallies nD τ sig Ix) (B : Set (SemLoc sig × Ix))
    (V : (c : Dev nD) → (b : Ref sig .tc) → Buf (Elt F) ((c : Thread nD τ).loc b)) (c : Dev nD) (t : Fin cfg0.N) (Y X) : (rdat0 Φ0 O B V c).after 0 t Y X ↔ X = Y := by
  dsimp only [rdat0]; exact Iff.rfl
theorem after0_1 (Φ0 : sProp 𝕄) (O : CellTallies nD τ sig Ix) (B : Set (SemLoc sig × Ix))
    (V : (c : Dev nD) → (b : Ref sig .tc) → Buf (Elt F) ((c : Thread nD τ).loc b)) (c : Dev nD) (t : Fin cfg0.N) (Y X) :
    (rdat0 Φ0 O B V c).after 1 t Y X ↔ ∃ d, X = out0_1 (win0_0.fill (grid0.coords t) d (blk0 V c t)) := by
  dsimp only [rdat0]; exact Iff.rfl

/-- What the body may find in the input's buffer: the window is fetched at every point, so the block on the part
    inside the array and some `d` past it. -/
theorem finds0_0 (Φ0 : sProp 𝕄) (O : CellTallies nD τ sig Ix) (B : Set (SemLoc sig × Ix))
    (V : (c : Dev nD) → (b : Ref sig .tc) → Buf (Elt F) ((c : Thread nD τ).loc b)) (c : Dev nD) (t : Fin cfg0.N) (Y) (h : (rdat0 Φ0 O B V c).Finds 0 t Y) :
    ∃ d, Y = win0_0.fill (grid0.coords t) d (blk0 V c t) := by
  obtain ⟨d, hd⟩ := ((rdat0 Φ0 O B V c).finds_of_fetch (fetch0_0 t) Y).mp h
  exact ⟨d, hd⟩

/-- The body obligation of the pipeline rule, at every point: whatever the two buffers hold, the body leaves the
    input's as it was and the result's at `out0_1` of it, which is `out0_1` of a completed block because what the
    input's buffer held was one; the invariant and what the core owes pass through untouched. -/
theorem body_obligation0 (Φ0 : sProp 𝕄) (O : CellTallies nD τ sig Ix) (B : Set (SemLoc sig × Ix))
    (V : (c : Dev nD) → (b : Ref sig .tc) → Buf (Elt F) ((c : Thread nD τ).loc b)) (c : Dev nD) (ι : Ix) :
    (rdat0 Φ0 O B V c).BodyObligation (defs₀ (F := F)) Variants.none ι Set.univ := fun t Y hY => by
  rw [bigSep_W0, bigSep_W0]
  obtain ⟨d0, h0⟩ := finds0_0 Φ0 O B V c t (Y 0) (hY 0)
  rw [show (rdat0 Φ0 O B V c).Φ t.succ = (rdat0 Φ0 O B V c).Φ t.castSucc from rfl,
    show (rdat0 Φ0 O B V c).owesAt ι t.succ = (rdat0 Φ0 O B V c).owesAt ι t.castSucc from rfl]
  change _ ⊢ wp frame _ _ (bodyAt0 t) _
  iintro ⟨HΦ, Ho, H0, H1⟩
  iapply (sound_kernel c Set.univ (grid0.coords t) _ _ _ _ (Y 0) _)
  isplitl [H0]; · iexact H0
  isplitl [H1]; · iexists _; iexact H1
  iintro ⟨H0, H1⟩
  isplitl [HΦ]; · iexact HΦ
  isplitl [Ho]; · iexact Ho
  isplitl [H0]
  · iexists (Y 0); isplitr; · ipureintro; exact (after0_0 Φ0 O B V c t _ _).mpr rfl
    iexact H0
  · iexists out0_1 (Y 0); isplitr; · ipureintro; exact (after0_1 Φ0 O B V c t _ _).mpr ⟨d0, by rw [h0]⟩
    iexact H1

end Cert.PackRegion

end
-- ==== Proof.Reg0.lean ====
/-
  The first TensorCore call as a segment of @main.

  The call is entered from the TensorCore's thread state at launch: every unscoped buffer at its contents `W0`, and
  the thread's debt term before the SparseCore call (it still owes every SparseCore of that call its start signal;
  nothing is recorded above level 0).  At the entry the state array and the result array are split out of the
  unscoped buffers; the scoped buffers no window stages ride in the pipeline's invariant; at the exit the two arrays
  come back — the state array as it was, the result array at some contents `f8` the 49 write-backs may leave — and
  are put back among the unscoped buffers, at the valuation that has `f8` at the result array and `W0` elsewhere.
  The pipeline's own waits are at the index of no call, where the thread owes nothing: that is what lets it wait while
  the start signals are still owed.
-/
import proofs.«203813_g3255585210786_cont_8to1_b_763_8_alg».proof.Proof.Setup
import proofs.«203813_g3255585210786_cont_8to1_b_763_8_alg».proof.Proof.Reg1
import proofs.«203813_g3255585210786_cont_8to1_b_763_8_alg».proof.Proof.PackRegion

noncomputable section

namespace Cert.KI

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- The first call's proof data over the contents `W0` the region finds: its invariant the scoped buffers no window
    stages, its debt and recorded pairs those before the SparseCore call. -/
abbrev rd0 (W0 : Vals F) : (c : Dev nD) → RDat τ (Elt F) (HIx 1) ℕ UU ℕ cfg0 c := fun c =>
  Cert.PackRegion.rdat0 (Pipeline.scopedRest spec0 c) ((K (F := F)).Otc c 0) (recBound (F := F) c 0) W0 c

/-- A valuation with the result array's contents replaced by `f8`. -/
def setV8 (c : Dev nD) (V : (b : Ref sig .tc) → Buf (Elt F) ((c : Thread nD τ).loc b))
    (f8 : Buf (Elt F) ((c : Thread nD τ).loc main_v8)) : (b : Ref sig .tc) → Buf (Elt F) ((c : Thread nD τ).loc b) :=
  fun b => if h : b = main_v8 then h ▸ f8 else V b

/-- It has `f8` at the result array, -/
theorem setV8_v8 (c : Dev nD) (V : (b : Ref sig .tc) → Buf (Elt F) ((c : Thread nD τ).loc b))
    (f8 : Buf (Elt F) ((c : Thread nD τ).loc main_v8)) : setV8 c V f8 main_v8 = f8 := by
  unfold setV8; rw [dif_pos rfl]

/-- and the old contents at every other buffer. -/
theorem setV8_ne (c : Dev nD) (V : (b : Ref sig .tc) → Buf (Elt F) ((c : Thread nD τ).loc b))
    (f8 : Buf (Elt F) ((c : Thread nD τ).loc main_v8)) {b : Ref sig .tc} (hb : b ≠ main_v8) : setV8 c V f8 b = V b := by
  unfold setV8; rw [dif_neg hb]

/-- The state array is not the result array. -/
theorem arrRef0_ne : Pipeline.arrRef spec0 0 ≠ main_v8 := by decide

/-- Everything the TensorCore owes is owed at the index of some call: at the index of none, nothing. -/
theorem Otc_none (c : Dev nD) (n : ℕ) (g : GSem nD τ sig) : ((K (F := F)).Otc c n) g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c' _ => ?_
    rw [tallyAt_apply, if_neg (fun h => nomatch h.2)]
  · rfl

set_option backward.isDefEq.respectTransparency.types false in
/-- The first call as a region segment. -/
def reg0 (W0 W1 : Vals F) :
    Pipeline.RDat.RegionSeg (pcfgs (F := F)) adm (rdats (rd0 W0) W1) ι₀ defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := Cert.PackRegion.body_obligation0 (F := F) (U := UU) (Pipeline.scopedRest spec0 c) ((K (F := F)).Otc c 0) (recBound (F := F) c 0) W0 c ι₀
  hwaits c := Pipeline.RDat.cellsWaits_intro _ _ _ 0 c fun w s t =>
    (K (F := F)).mayWait_none _ (fun g => Otc_none (F := F) c 0 g)
  pre c := iprop(unscopedBufs c (W0 c) ∗ owesTc (F := F) c 0)
  post c := iprop(∃ f8 : Buf (Elt F) ((c : Thread nD τ).loc main_v8), ⌜(rdats (rd0 W0) W1 0 c).ArrAt 1 cfg0.N f8⌝
    ∗ unscopedBufs c (setV8 c (W0 c) f8) ∗ owesTc (F := F) c 0)
  X _ := iprop(emp)
  Y _ := iprop(emp)
  Z c := Pipeline.unscopedRest spec0 c (W0 c)
  hentry c := by
    rw [Pipeline.ownSems0_none]
    have hsplit := Pipeline.RDat.arrays_of_unscopedBufs (p := 0) (pcfgs (F := F)) adm (rdats (rd0 W0) W1) launch0.win launch0.arr_whole c
      ((rdats (rd0 W0) W1 0 c).share_full fun _ => rfl) (W0 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesTc
      icases HO with ⟨%W, %hW, HO⟩
      iexists W; isplitr
      · ipureintro; exact fun p hp => Or.inl (hW p hp)
      iexact HO
    isplitr; · iempintro
    iexact Hrest
  hin c := by
    rw [show (rdats (rd0 W0) W1 0 c).Φ 0 = Pipeline.scopedRest spec0 c from rfl]
    iintro ⟨-, -, Hr⟩
    iexact Hr
  hout c := by
    rw [Pipeline.ownSems0_none, show (rdats (rd0 W0) W1 0 c).Φ (Fin.last _) = Pipeline.scopedRest spec0 c from rfl]
    iintro Hr
    isplitr; · iempintro
    isplitr; · iempintro
    iexact Hr
  hexit c := by
    unfold RDat.arraysAt
    rw [bigSep_W0]
    iintro ⟨⟨⟨%F0, %hF0, H0⟩, ⟨%F1, %hF1, H1⟩⟩, HO, -, Hrest⟩
    imodintro
    iexists F1
    isplitr; · ipureintro; exact hF1
    isplitl [H0 H1 Hrest]
    · have h0 : F0 = W0 c main_arg0 := by
        have := hF0; rw [RDat.ArrAt_in _ _ rfl] at this; exact this
      subst h0
      have e0 : setV8 c (W0 c) F1 (Pipeline.arrRef (Pipeline.pin (pcfgs (F := F)) adm 0).spec 0) = W0 c main_arg0 :=
        setV8_ne c (W0 c) F1 arrRef0_ne
      have e1 : setV8 c (W0 c) F1 (Pipeline.arrRef (Pipeline.pin (pcfgs (F := F)) adm 0).spec 1) = F1 := setV8_v8 c (W0 c) F1
      rw [Pipeline.unscopedBufs_split (Pipeline.pin (pcfgs (F := F)) adm) 0 launch0.win.arr_unscoped launch0.win.arr_inj c (setV8 c (W0 c) F1),
        ← Pipeline.RDat.arrays_eq (pcfgs (F := F)) adm (rdats (rd0 W0) W1) 0 c launch0.arr_whole ((rdats (rd0 W0) W1 0 c).share_full fun _ => rfl)]
      unfold RDat.arrays
      rw [bigSep_W0]
      simp only [e0, e1]
      isplitl [H0 H1]
      · isplitl [H0]; · iexact H0
        iexact H1
      have hr : (Pipeline.unscopedRest (Pipeline.pin (pcfgs (F := F)) adm 0).spec c (setV8 c (W0 c) F1) : sProp 𝕄)
          = Pipeline.unscopedRest spec0 c (W0 c) := by
        unfold Pipeline.unscopedRest
        exact bigSep_congr fun b hb => by
          rw [setV8_ne c (W0 c) F1 (fun e => (Finset.mem_sdiff.mp hb).2 (Finset.mem_image.mpr ⟨1, Finset.mem_univ _, e.symm⟩))]
      rw [hr]; iexact Hrest
    unfold owesTc
    icases HO with ⟨%W, %hW, HO⟩
    iexists W; isplitr
    · ipureintro
      intro p hp
      rcases hW hp with h | ⟨w, s, rfl⟩
      · exact h
      · show (K (F := F)).lev _ none ≤ 8 * 0
        rw [SparseCore.Cfg.lev_none]
    iexact HO

end Cert.KI

end
-- ==== Proof.LaunchElem.lean ====
/-
  The launch element of the ghost state.

  The resource algebra is a product of three components: the rounds of the four handshake semaphores, the rounds of
  the staging cells of the two pipelined calls, and the counters of the vector subcores' local copies.  The launch
  element holds, in the first, the handshake cells at their launch state with every duty token; in the second, the
  staging cells likewise with the token of every transfer the two loops issue; in the third, the unit.  Owning it
  is owning the three components separately; the second is funded into each cell's launch state and each token, and
  that family, indexed by device and pipeline, is regrouped per device, which is the form the pipelined regions of
  @main consume.  No vector subcore needs anything from the launch, the credit for the kernels' own debts is empty,
  and the free semaphores are not used.
-/
import proofs.«203813_g3255585210786_cont_8to1_b_763_8_alg».proof.Proof.Setup

noncomputable section

namespace Cert.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The launch element: the handshake cells' rounds, the staging cells' rounds of the two pipelined calls, and the
    counters' unit. -/
def u₀ : UU :=
  ((initOf (K (F := F)).hsCells (K (F := F)).hsToks,
    initOf (Pipeline.cells cfgs Gen.cellOf_inj) (Pipeline.launchToks cfgs Gen.cellOf_inj)), 1)

/-- What @main's proof starts from on device `d`: per pipelined call, its staging cells' launch state and the duty
    tokens of the transfers its loop issues. -/
def G (d : Dev nD) : sProp 𝕄 := Pipeline.ghostOn (pcfgs (F := F)) adm EP Finset.univ d

/-- The element is the composition of its three components, each with the unit at the other two; the counters'
    component, the unit itself, is let go. -/
theorem ownU_split (a : UH) (b : UP) : (ownU ((a, b), (1 : Counters)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one (1 : Counters))))

/-- The funded ghost state, given per family over devices and pipelines, regrouped per device. -/
theorem ghost_regroup :
    iprop((bigSep Finset.univ fun c : Dev nD => bigSep Finset.univ fun p => Pipeline.cellsGhost cfgs (EP (F := F)) p c)
        ∗ (bigSep Finset.univ fun c : Dev nD => bigSep Finset.univ fun p => (Pipeline.toksInit cfgs (EP (F := F)) p c : sProp 𝕄)))
      ⊢ bigSep Finset.univ (G (F := F)) := by
  rw [← bigSep_sep']
  exact bigSep_mono fun c _ =>
    show iprop((bigSep Finset.univ fun p => Pipeline.cellsGhost cfgs (EP (F := F)) p c)
        ∗ bigSep Finset.univ fun p => (Pipeline.toksInit cfgs (EP (F := F)) p c : sProp 𝕄)) ⊢ G (F := F) c
    from Entails.of_eq (by unfold G Pipeline.ghostOn Pipeline.PerCore.ghostOn; rw [bigSep_sep'] <;> rfl)

theorem hu₀ (P : (K (F := F)).Pay (nD := nD) (Val := Elt F) (Name := ℕ) (U := UU)) (hx : ∀ q thr, P.x q thr = iprop(emp)) :
    iprop(ownU (u₀ (F := F)) ∗ P.oxCred ∗ (K (F := F)).freeSems0)
      ⊢ |={Set.univ}=> iprop(BI.own (EH (initOf (K (F := F)).hsCells (K (F := F)).hsToks)) ∗ bigSep Finset.univ (G (F := F))
          ∗ bigSep Finset.univ fun thr : Thread nD τ => bigSep Finset.univ fun q : Fin 1 => P.x q thr) := by
  unfold u₀
  iintro ⟨Hu, -, -⟩
  ihave H := (ownU_split _ _) $$ Hu
  icases H with ⟨HH, HP⟩
  imod (Pipeline.fund_ghost cfgs (EP (F := F)) Gen.cellOf_inj) $$ HP with ⟨Hg, Ht⟩
  imodintro
  isplitl [HH]; · iexact HH
  isplitl [Hg Ht]
  · iapply ghost_regroup
    isplitl [Hg] <;> iassumption
  · rw [show (bigSep Finset.univ fun thr : Thread nD τ => bigSep Finset.univ fun q : Fin 1 => P.x q thr) = (iprop(emp) : sProp 𝕄) from by
      rw [bigSep_congr fun thr _ => (bigSep_congr fun q _ => hx q thr).trans (bigSep_emp_const _), bigSep_emp_const]; rfl]
    iempintro

end Cert.KI

end
-- ==== Proof.Final.lean ====
/-
  Reading the claim off the final memory.

  At the end of @main the TensorCore of each device holds, whole and at full share, the result array and the six
  argument arrays, the arguments at the contents the launch memory gave them.  The state interpretation agrees with
  every held array on every index, so the final memory has the result at the value held and the arguments
  unchanged.  A location on the TensorCore spelt through the launch theorem's name of the thread is the claim's own.
-/
import proofs.«203813_g3255585210786_cont_8to1_b_763_8_alg».proof.Proof.Setup

noncomputable section

namespace Cert.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The TensorCore thread as the launch theorem names it is the thread the claim names: their locations agree. -/
theorem T_loc (d : Dev nD) (b : Ref sig .tc) : (SparseCore.T (τ := τ) d).loc b = (d.tc : Thread nD τ).loc b := rfl

/-- The result array and the six argument arrays of device `d`, on its TensorCore. -/
abbrev vLoc (d : Dev nD) : Loc nD τ sig := (SparseCore.T d).loc main_v14
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev a5Loc (d : Dev nD) : Loc nD τ sig := (SparseCore.T d).loc main_arg5

/-- The state interpretation agrees with an array held whole, and is kept. -/
theorem agree_keep (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hf⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  · iexact HSI

/-- What the TensorCore of device `d` holds at the end of @main: the result at `v`, the arguments as launched. -/
abbrev FIN (d : Dev nD) (v : Buf (Elt F) (vLoc d)) : sProp 𝕄 :=
  iprop((vLoc d ↦{fullShare} v) ∗ (a0Loc d ↦{fullShare} m (a0Loc d)) ∗ (a1Loc d ↦{fullShare} m (a1Loc d))
    ∗ (a2Loc d ↦{fullShare} m (a2Loc d)) ∗ (a3Loc d ↦{fullShare} m (a3Loc d)) ∗ (a4Loc d ↦{fullShare} m (a4Loc d))
    ∗ (a5Loc d ↦{fullShare} m (a5Loc d)))

/-- What the claim says of device `d` in a final state: the result is `v`, the arguments are unchanged. -/
def fq (d : Dev nD) (v : Buf (Elt F) (vLoc d)) (s' : Phys nD τ sig (Elt F)) : Prop :=
  s'.mem.mem (vLoc d) = v ∧ s'.mem.mem (a0Loc d) = m (a0Loc d) ∧ s'.mem.mem (a1Loc d) = m (a1Loc d)
    ∧ s'.mem.mem (a2Loc d) = m (a2Loc d) ∧ s'.mem.mem (a3Loc d) = m (a3Loc d) ∧ s'.mem.mem (a4Loc d) = m (a4Loc d)
    ∧ s'.mem.mem (a5Loc d) = m (a5Loc d)

theorem hfin (d : Dev nD) (v : Buf (Elt F) (vLoc d)) (s' : Phys nD τ sig (Elt F)) :
    iprop(((vLoc d ↦{fullShare} v) ∗ (a0Loc d ↦{fullShare} m (a0Loc d)) ∗ (a1Loc d ↦{fullShare} m (a1Loc d))
        ∗ (a2Loc d ↦{fullShare} m (a2Loc d)) ∗ (a3Loc d ↦{fullShare} m (a3Loc d)) ∗ (a4Loc d ↦{fullShare} m (a4Loc d))
        ∗ (a5Loc d ↦{fullShare} m (a5Loc d))) ∗ SI s')
      ⊢ (⌜s'.mem.mem (vLoc d) = v ∧ s'.mem.mem (a0Loc d) = m (a0Loc d) ∧ s'.mem.mem (a1Loc d) = m (a1Loc d)
          ∧ s'.mem.mem (a2Loc d) = m (a2Loc d) ∧ s'.mem.mem (a3Loc d) = m (a3Loc d) ∧ s'.mem.mem (a4Loc d) = m (a4Loc d)
          ∧ s'.mem.mem (a5Loc d) = m (a5Loc d)⌝ : sProp 𝕄) := by
  iintro ⟨⟨Hv, H0, H1, H2, H3, H4, H5⟩, HSI⟩
  ihave H := (agree_keep s' _ _) $$ [HSI Hv]
  · isplitl [HSI] <;> iassumption
  icases H with ⟨%hv, HSI⟩
  ihave H := (agree_keep s' _ _) $$ [HSI H0]
  · isplitl [HSI] <;> iassumption
  icases H with ⟨%h0, HSI⟩
  ihave H := (agree_keep s' _ _) $$ [HSI H1]
  · isplitl [HSI] <;> iassumption
  icases H with ⟨%h1, HSI⟩
  ihave H := (agree_keep s' _ _) $$ [HSI H2]
  · isplitl [HSI] <;> iassumption
  icases H with ⟨%h2, HSI⟩
  ihave H := (agree_keep s' _ _) $$ [HSI H3]
  · isplitl [HSI] <;> iassumption
  icases H with ⟨%h3, HSI⟩
  ihave H := (agree_keep s' _ _) $$ [HSI H4]
  · isplitl [HSI] <;> iassumption
  icases H with ⟨%h4, HSI⟩
  ihave H := (agree_keep s' _ _) $$ [HSI H5]
  · isplitl [HSI] <;> iassumption
  icases H with ⟨%h5, -⟩
  ipureintro
  exact ⟨hv, h0, h1, h2, h3, h4, h5⟩

/-- The same, in the launch theorem's shape. -/
theorem hfin' (d : Dev nD) (v : Buf (Elt F) (vLoc d)) (s' : Phys nD τ sig (Elt F)) :
    iprop(FIN m d v ∗ SI s') ⊢ (⌜fq m d v s'⌝ : sProp 𝕄) := hfin m d v s'

/-- The final state's facts on device `d` are the claim's conjuncts at the claim's own spelling of the locations. -/
theorem fq_claim (d : Dev nD) (v : Buf (Elt F) (vLoc d)) (s' : Phys nD τ sig (Elt F)) (h : fq m d v s') :
    s'.mem.mem ((d.tc : Thread nD τ).loc main_v14) = v
      ∧ s'.mem.mem ((d.tc : Thread nD τ).loc main_arg0) = m ((d.tc : Thread nD τ).loc main_arg0)
      ∧ s'.mem.mem ((d.tc : Thread nD τ).loc main_arg1) = m ((d.tc : Thread nD τ).loc main_arg1)
      ∧ s'.mem.mem ((d.tc : Thread nD τ).loc main_arg2) = m ((d.tc : Thread nD τ).loc main_arg2)
      ∧ s'.mem.mem ((d.tc : Thread nD τ).loc main_arg3) = m ((d.tc : Thread nD τ).loc main_arg3)
      ∧ s'.mem.mem ((d.tc : Thread nD τ).loc main_arg4) = m ((d.tc : Thread nD τ).loc main_arg4)
      ∧ s'.mem.mem ((d.tc : Thread nD τ).loc main_arg5) = m ((d.tc : Thread nD τ).loc main_arg5) := h

end Cert.KI

end
-- ==== Proof.HostIdx.lean ====
/-
  What the host operations leave in the buffers the three calls read, as explicit functions of what they were computed
  from: the flat index list and the slot-major validity flags (the read-out nodes' rows of the neighbour slots and of
  the flags, 352 zero rows appended, transposed), the bias as a row, the packed words as one flat table, the gathered
  words slot-major, and the read-out nodes' own packed words in blocks.
-/
import proofs.«203813_g3255585210786_cont_8to1_b_763_8_alg».proof.Proof.HostSegs
import Idealize.ShloMosaic.Lib.StableHlo.Run

noncomputable section

namespace Cert.KI

open Cert.KernelIdeal Cert.KernelIdeal.Gen
open Idealize.ShloMosaic Idealize.ShloMosaic.StableHlo
open Idealize.ShloMosaic.TcCoe

variable {F : FTy → Type} [FloatOps F]

/-- Rows 1024 … 99999 of a node-by-slot array, 352 zero rows appended, slot-major. -/
def slotMajor (x : IVec S100000x8 32) : IVec S8x99328 32 :=
  transpose S8x99328 [1, 0]
    (pad S99328x8 ![0, 0] ![352, 0] ![0, 0] (extractStridedSlice S98976x8 ![1024, 0] x slices_S100000x8_S98976x8_1024_0)
      (constantI S_ 32 0#32) pads_S98976x8_S99328x8_03520_000 h_S_) transposes_S99328x8_S8x99328_1_0

/-- The flat index list. -/
def idxF (adj : IVec S100000x8 32) : IVec S794624 32 := shapeCast S794624 (slotMajor adj) shapeCasts_S8x99328_S794624

/-! ## Before the first call -/

theorem WA_v3 (W : Valuation τ sig (Elt F)) :
    (WA (F := F) W (Proc.devRef .tc main_v3) : S794624.Idx → BitVec 32) = idxF (W (Proc.devRef .tc main_arg1)) := by
  dsimp only [WA, opsA]
  after_results
  rfl

theorem WA_v6 (W : Valuation τ sig (Elt F)) :
    (WA (F := F) W (Proc.devRef .tc main_v6) : S8x99328.Idx → BitVec 32) = slotMajor (W (Proc.devRef .tc main_arg2)) := by
  dsimp only [WA, opsA]
  after_results
  rfl

theorem WA_v7 (W : Valuation τ sig (Elt F)) :
    (WA (F := F) W (Proc.devRef .tc main_v7) : S1x128.Idx → F .f32)
      = shapeCast S1x128 (W (Proc.devRef .tc main_arg5) : S128.Idx → F .f32) shapeCasts_S128_S1x128 := by
  dsimp only [WA, opsA]
  after_results
  rfl

/-- Every index names an entry of the flat table. -/
theorem idxF_lt (adj : IVec S100000x8 32) (h : ∀ i, (adj i).toNat < 100000) (j : S794624.Idx) : (idxF adj j).toNat < 100352 := by
  unfold idxF slotMajor shapeCast transpose pad extractStridedSlice
  dsimp only
  split
  · exact lt_trans (h _) (by decide)
  · simp [constantI]

/-! ## Between the first call and the SparseCore call -/

theorem WB_v9 (W : Valuation τ sig (Elt F)) :
    (WB (F := F) W (Proc.devRef .tc main_v9) : S100352.Idx → BitVec 32)
      = shapeCast S100352 (W (Proc.devRef .tc main_v8) : S49x16x128.Idx → BitVec 32) shapeCasts_S49x16x128_S100352 := by
  dsimp only [WB, opsB]
  after_results
  rfl

theorem WB_v3 (W : Valuation τ sig (Elt F)) : WB (F := F) W (Proc.devRef .tc main_v3) = W (Proc.devRef .tc main_v3) := by
  dsimp only [WB, opsB]
  after_results

/-! ## After the SparseCore call -/

theorem WC_v11 (W : Valuation τ sig (Elt F)) :
    (WC (F := F) W (Proc.devRef .tc main_v11) : S8x99328.Idx → BitVec 32)
      = shapeCast S8x99328 (W (Proc.devRef .tc main_v10) : S794624.Idx → BitVec 32) shapeCasts_S794624_S8x99328 := by
  dsimp only [WC, opsC]
  after_results
  rfl

theorem WC_v13 (W : Valuation τ sig (Elt F)) :
    (WC (F := F) W (Proc.devRef .tc main_v13) : S97x8x128.Idx → BitVec 32)
      = shapeCast S97x8x128 (extractStridedSlice S99328 ![1024] (W (Proc.devRef .tc main_v9) : S100352.Idx → BitVec 32) slices_S100352_S99328_1024)
          shapeCasts_S99328_S97x8x128 := by
  dsimp only [WC, opsC]
  after_results
  rfl

end Cert.KI

end
-- ==== Proof.ScTask.Trip.lean ====
/-
  One trip of the gather task's chunk loops, and the data facts it rests on.

  A vector subcore holds three scratches: the table (100352 words), one chunk of 6208 index words, and 6208 gathered
  words.  A chunk's loop makes 388 trips; trip `t` loads the sixteen index words at `16 t`, reads the table at the
  entries they name, and stores the sixteen entries at `16 t` of the gathered scratch.  The invariant before trip `k`
  (`inv`): the table scratch is the table, the index scratch is the chunk, and each of the first `16 k` gathered words
  is the table entry its index word names (`Done`).  The four loops of the task are the same region over different
  names, so the trip is proved once per loop by the same steps.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«203813_g3255585210786_cont_8to1_b_763_8_alg».proof.Proof.Gen.KernelIdeal
import proofs.«203813_g3255585210786_cont_8to1_b_763_8_alg».proof.Proof.Gen.KernelIdeal.Skeleton

noncomputable section

namespace Cert.ScTask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {X : Type} [URA X]

abbrev ΛP : Labels := Pipeline.Sig Λ₀ (Fin 2) fun p => (pcfgs (F := F) p).Adm
abbrev K : SparseCore.Cfg τ sig (ΛP (F := F)) 1 := sc (F := F)
abbrev 𝒱₀ : Variants := Variants.none

local notation "𝕄" => MT nD τ sig (HIx 1) (Elt F) ℕ (X × Counters) ℕ

abbrev tabW : Memref sig .scVector .hbm S100352 .i32 := Memref.whole main_v9_scv
abbrev idxW : Memref sig .scVector .hbm S794624 .i32 := Memref.whole main_v3_scv
abbrev outW : Memref sig .scVector .hbm S794624 .i32 := Memref.whole main_v10_scv
abbrev sT : Memref sig .scVector .vmem S100352 .i32 := Memref.whole cc1_scratch0
abbrev sI : Memref sig .scVector .vmem S6208 .i32 := Memref.whole cc1_scratch1
abbrev sO : Memref sig .scVector .vmem S6208 .i32 := Memref.whole cc1_scratch2

abbrev cV (L : grid1.Coords) : Fin τ.nSC := (L 0).castLE hcore1
abbrev jV (L : grid1.Coords) : Fin τ.nSub := (L 1).castLE hsub1

variable [FloatOps F]

variable (d : Dev nD) (L : grid1.Coords)

/-- The vector subcore that runs the task at grid point `L`. -/
abbrev thr : Thread nD τ := V d (cV L) (jV L)

/-- The table entry a word names (the remainder only makes the function total: under `PreIdx` it is the word itself). -/
def ent (n : Nat) : S100352.Idx := ValueIdx.ix1 (⟨n % 100352, Nat.mod_lt _ (by decide)⟩ : Fin 100352)

omit [FloatOps F] in
/-- An indexed load through one index vector reads, lane by lane, the entry the lane's word names. -/
theorem loadIdx_eq (f : Vec F S100352 .i32) (v : IVec S16 32)
    (h : ∀ a x, ((![v] : Fin 1 → IVec S16 32) a x).toNat < S100352.size a) (x : S16.Idx) :
    loadIdx f ![v] h x = f (ent (v x).toNat) := by
  unfold loadIdx
  congr 1
  funext a
  have ha : a = 0 := Subsingleton.elim _ _
  subst ha
  apply Fin.ext
  have := h 0 x
  show ((![v] : Fin 1 → IVec S16 32) 0 x).toNat = (v x).toNat % 100352
  exact (Nat.mod_eq_of_lt this).symm

/-- The gathered scratch is done below `n`: each of its first `n` words is the table scratch's entry named by the
    index scratch's word at the same place. -/
def Done (T : Buf (Elt F) ((sT).view.loc (thr d L))) (I : Buf (Elt F) ((sI).view.loc (thr d L)))
    (g : Buf (Elt F) ((sO).view.loc (thr d L))) (n : Nat) : Prop :=
  ∀ y : S6208.Idx, (y 0).val < n →
    (sO : Memref sig .scVector .vmem S6208 .i32).view.read (Elt F) g y
      = (sT : Memref sig .scVector .vmem S100352 .i32).view.read (Elt F) T
          (ent (((sI : Memref sig .scVector .vmem S6208 .i32).view.read (Elt F) I y : BitVec 32)).toNat)

omit [FloatOps F] in
theorem done_zero (T : Buf (Elt F) ((sT).view.loc (thr d L))) (I : Buf (Elt F) ((sI).view.loc (thr d L)))
    (g : Buf (Elt F) ((sO).view.loc (thr d L))) : Done d L T I g (16 * 0) :=
  fun _ h => absurd h (by omega)

omit [FloatOps F] in
/-- One trip: sixteen words loaded at `16 n`, the table read at them, the sixteen results stored at `16 n`. -/
theorem done_step (n : Nat) {o2 o3 : Fin 1 → Nat} (ho2 : o2 = ![16 * n]) (ho3 : o3 = ![16 * n])
    (p2 : ∀ a, o2 a + S16.size a ≤ S6208.size a) (p3 : ∀ a, o3 a + S16.size a ≤ S6208.size a)
    (T : Buf (Elt F) ((sT).view.loc (thr d L))) (I : Buf (Elt F) ((sI).view.loc (thr d L)))
    (g : Buf (Elt F) ((sO).view.loc (thr d L)))
    (h : ∀ a x, ((![View.readAt (Elt F) (sI : Memref sig .scVector .vmem S6208 .i32).view (Rect.unit (s := S6208) o2 S16.size p2).toLoadRect I] : Fin 1 → IVec S16 32) a x).toNat < S100352.size a)
    (hd : Done d L T I g (16 * n)) :
    Done d L T I ((sO : Memref sig .scVector .vmem S6208 .i32).view.writes (Elt F) g
      [⟨Rect.unit (s := S6208) o3 S16.size p3,
        loadIdx (View.read (Elt F) ((sT : Memref sig .scVector .vmem S100352 .i32).access (Rect.whole S100352)) T)
          ![View.readAt (Elt F) (sI : Memref sig .scVector .vmem S6208 .i32).view (Rect.unit (s := S6208) o2 S16.size p2).toLoadRect I] h⟩])
      (16 * (n + 1)) := by
  subst ho2 ho3
  intro y hy
  by_cases hm : y ∈ (Rect.unit (s := S6208) ![16 * n] S16.size p3).set
  · rw [← Rect.map_emb_univ] at hm
    obtain ⟨x, -, rfl⟩ := Finset.mem_map.mp hm
    have e : View.read (Elt F) ((sT : Memref sig .scVector .vmem S100352 .i32).access (Rect.whole S100352)) T = T :=
      Memref.read_access_whole (Elt F) (cc1_scratch0 : Ref sig .scVector) T
    rw [View.read_writes_cons_emb, loadIdx_eq, e]
    rfl
  · have hlt : (y 0).val < 16 * n := by
      by_contra hge
      apply hm
      rw [Rect.mem_set_unit]
      intro a
      have ha : a = 0 := Subsingleton.elim _ _
      subst ha
      have e1 : (![16 * n] : Fin 1 → Nat) 0 = 16 * n := rfl
      have e2 : S16.size 0 = 16 := rfl
      rw [e1, e2]
      omega
    rw [View.read_writes_apply_of_forall_not_mem _ _ _ _ (by
      intro p hp
      rw [List.mem_singleton] at hp
      subst hp
      exact hm)]
    exact hd y hlt

/-- The table scratch holds the table. -/
def TabHolds (tab : Buf (Elt F) ((tabW).view.loc (thr d L))) (T : Buf (Elt F) ((sT).view.loc (thr d L))) : Prop :=
  ∀ z, (sT : Memref sig .scVector .vmem S100352 .i32).view.read (Elt F) T z
    = (tabW : Memref sig .scVector .hbm S100352 .i32).view.read (Elt F) tab z

/-- The index scratch holds the chunk of the index array that the slice `sl` addresses. -/
def IdxHolds (sl : Memref sig .scVector .hbm S6208 .i32) (idx : sl.view.ty.Contents (Elt F)) (I : Buf (Elt F) ((sI).view.loc (thr d L))) : Prop :=
  ∀ y, (sI : Memref sig .scVector .vmem S6208 .i32).view.read (Elt F) I y = sl.view.read (Elt F) idx y

/-- Every word of the index array names a table entry. -/
def IdxOK (idx : Buf (Elt F) ((idxW).view.loc (thr d L))) : Prop := ∀ j, (idx j : BitVec 32).toNat < 100352

/-- Before trip `k` of a chunk's loop: the table scratch at the table, the index scratch at the chunk, the gathered
    scratch done below `16 k`. -/
def inv (tab : Buf (Elt F) ((tabW).view.loc (thr d L))) (sl : Memref sig .scVector .hbm S6208 .i32) (idx : sl.view.ty.Contents (Elt F))
    (k : Nat) (_ : Unit) : sProp 𝕄 :=
  iprop(∃ T I g, ((sT).view.loc (thr d L) ↦{fullShare} T) ∗ ((sI).view.loc (thr d L) ↦{fullShare} I)
    ∗ ((sO).view.loc (thr d L) ↦{fullShare} g) ∗ ⌜TabHolds d L tab T ∧ IdxHolds d L sl idx I ∧ Done d L T I g (16 * k)⌝)

abbrev iSl0 : Memref sig .scVector .hbm S6208 .i32 := idxW.slice (Rect.unit (s := S794624) (k1_off1 L 0#32) S6208.size (k1_off1_inb L 0)) (fun _ => rfl)
abbrev iSl1 : Memref sig .scVector .hbm S6208 .i32 := idxW.slice (Rect.unit (s := S794624) (k1_off1 L 6208#32) S6208.size (k1_off1_inb L 1)) (fun _ => rfl)
abbrev iSl2 : Memref sig .scVector .hbm S6208 .i32 := idxW.slice (Rect.unit (s := S794624) (k1_off1 L 12416#32) S6208.size (k1_off1_inb L 2)) (fun _ => rfl)
abbrev iSl3 : Memref sig .scVector .hbm S6208 .i32 := idxW.slice (Rect.unit (s := S794624) (k1_off1 L 18624#32) S6208.size (k1_off1_inb L 3)) (fun _ => rfl)
abbrev oSl0 : Memref sig .scVector .hbm S6208 .i32 := outW.slice (Rect.unit (s := S794624) (k1_off1 L 0#32) S6208.size (k1_off1_inb L 0)) (fun _ => rfl)
abbrev oSl1 : Memref sig .scVector .hbm S6208 .i32 := outW.slice (Rect.unit (s := S794624) (k1_off1 L 6208#32) S6208.size (k1_off1_inb L 1)) (fun _ => rfl)
abbrev oSl2 : Memref sig .scVector .hbm S6208 .i32 := outW.slice (Rect.unit (s := S794624) (k1_off1 L 12416#32) S6208.size (k1_off1_inb L 2)) (fun _ => rfl)
abbrev oSl3 : Memref sig .scVector .hbm S6208 .i32 := outW.slice (Rect.unit (s := S794624) (k1_off1 L 18624#32) S6208.size (k1_off1_inb L 3)) (fun _ => rfl)

/-- Trip `t` of chunk loop 1: sixteen index words are loaded and each names a table entry (the check), the table scratch is read at
    them, the sixteen entries are stored at the same place of the gathered scratch. -/
theorem trip1 (tab : Buf (Elt F) ((tabW).view.loc (thr d L))) (sl : Memref sig .scVector .hbm S6208 .i32) (idx : sl.view.ty.Contents (Elt F))
    (hidx : ∀ y, (sl.view.read (Elt F) idx y : BitVec 32).toNat < 100352) (t : Fin k1_t1_loop.trips) (u : Unit) :
    inv (X := X) d L tab sl idx t.val u
      ⊢ wp frame (wpE (defs₀ (F := F)) 𝒱₀ (thr d L) none) Set.univ
          (k1_t1_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8 t u)
          (inv (X := X) d L tab sl idx (t.val + 1)) := by
  unfold k1_t1_body inv
  iintro ⟨%T, %I, %g, Hs0, Hs1, Hs2, %hh⟩
  obtain ⟨hT, hIh, hd⟩ := hh
  have hchk : k1_chk1 (View.readAt (Elt F) (sI : Memref sig .scVector .vmem S6208 .i32).view (Rect.unit (s := S6208) (k1_off2 t) S16.size (k1_off2_inb t)).toLoadRect I) := by
    intro a x
    have ha : a = 0 := Subsingleton.elim _ _
    subst ha
    have h1 := hidx ((Rect.unit (s := S6208) (k1_off2 t) S16.size (k1_off2_inb t)).toLoadRect.idx x)
    rw [← hIh] at h1
    exact h1
  sl_exec
  iapply (SparseCore.wp_vectorLoadIdx 𝒱₀ (thr d L) none Set.univ (base := (sT : Memref sig .scVector .vmem S100352 .i32)) (S := Finset.univ) (q := fullShare) (Finset.subset_univ _)) $$ Hs0; iintro Hs0
  sl_exec
  sl_step
  iexists T, I, _
  isplitl [Hs0]; · iexact Hs0
  isplitl [Hs1]; · iexact Hs1
  isplitl [Hs2]; · iexact Hs2
  ipureintro
  exact ⟨hT, hIh, done_step d L t.val (k1_off2_eq t) (k1_off3_eq t) _ _ T I g _ hd⟩

/-- Trip `t` of chunk loop 2: sixteen index words are loaded and each names a table entry (the check), the table scratch is read at
    them, the sixteen entries are stored at the same place of the gathered scratch. -/
theorem trip2 (tab : Buf (Elt F) ((tabW).view.loc (thr d L))) (sl : Memref sig .scVector .hbm S6208 .i32) (idx : sl.view.ty.Contents (Elt F))
    (hidx : ∀ y, (sl.view.read (Elt F) idx y : BitVec 32).toNat < 100352) (t : Fin k1_t2_loop.trips) (u : Unit) :
    inv (X := X) d L tab sl idx t.val u
      ⊢ wp frame (wpE (defs₀ (F := F)) 𝒱₀ (thr d L) none) Set.univ
          (k1_t2_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8 t u)
          (inv (X := X) d L tab sl idx (t.val + 1)) := by
  unfold k1_t2_body inv
  iintro ⟨%T, %I, %g, Hs0, Hs1, Hs2, %hh⟩
  obtain ⟨hT, hIh, hd⟩ := hh
  have hchk : k1_chk2 (View.readAt (Elt F) (sI : Memref sig .scVector .vmem S6208 .i32).view (Rect.unit (s := S6208) (k1_off4 t) S16.size (k1_off4_inb t)).toLoadRect I) := by
    intro a x
    have ha : a = 0 := Subsingleton.elim _ _
    subst ha
    have h1 := hidx ((Rect.unit (s := S6208) (k1_off4 t) S16.size (k1_off4_inb t)).toLoadRect.idx x)
    rw [← hIh] at h1
    exact h1
  sl_exec
  iapply (SparseCore.wp_vectorLoadIdx 𝒱₀ (thr d L) none Set.univ (base := (sT : Memref sig .scVector .vmem S100352 .i32)) (S := Finset.univ) (q := fullShare) (Finset.subset_univ _)) $$ Hs0; iintro Hs0
  sl_exec
  sl_step
  iexists T, I, _
  isplitl [Hs0]; · iexact Hs0
  isplitl [Hs1]; · iexact Hs1
  isplitl [Hs2]; · iexact Hs2
  ipureintro
  exact ⟨hT, hIh, done_step d L t.val (k1_off4_eq t) (k1_off5_eq t) _ _ T I g _ hd⟩

/-- Trip `t` of chunk loop 3: sixteen index words are loaded and each names a table entry (the check), the table scratch is read at
    them, the sixteen entries are stored at the same place of the gathered scratch. -/
theorem trip3 (tab : Buf (Elt F) ((tabW).view.loc (thr d L))) (sl : Memref sig .scVector .hbm S6208 .i32) (idx : sl.view.ty.Contents (Elt F))
    (hidx : ∀ y, (sl.view.read (Elt F) idx y : BitVec 32).toNat < 100352) (t : Fin k1_t3_loop.trips) (u : Unit) :
    inv (X := X) d L tab sl idx t.val u
      ⊢ wp frame (wpE (defs₀ (F := F)) 𝒱₀ (thr d L) none) Set.univ
          (k1_t3_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8 t u)
          (inv (X := X) d L tab sl idx (t.val + 1)) := by
  unfold k1_t3_body inv
  iintro ⟨%T, %I, %g, Hs0, Hs1, Hs2, %hh⟩
  obtain ⟨hT, hIh, hd⟩ := hh
  have hchk : k1_chk3 (View.readAt (Elt F) (sI : Memref sig .scVector .vmem S6208 .i32).view (Rect.unit (s := S6208) (k1_off6 t) S16.size (k1_off6_inb t)).toLoadRect I) := by
    intro a x
    have ha : a = 0 := Subsingleton.elim _ _
    subst ha
    have h1 := hidx ((Rect.unit (s := S6208) (k1_off6 t) S16.size (k1_off6_inb t)).toLoadRect.idx x)
    rw [← hIh] at h1
    exact h1
  sl_exec
  iapply (SparseCore.wp_vectorLoadIdx 𝒱₀ (thr d L) none Set.univ (base := (sT : Memref sig .scVector .vmem S100352 .i32)) (S := Finset.univ) (q := fullShare) (Finset.subset_univ _)) $$ Hs0; iintro Hs0
  sl_exec
  sl_step
  iexists T, I, _
  isplitl [Hs0]; · iexact Hs0
  isplitl [Hs1]; · iexact Hs1
  isplitl [Hs2]; · iexact Hs2
  ipureintro
  exact ⟨hT, hIh, done_step d L t.val (k1_off6_eq t) (k1_off7_eq t) _ _ T I g _ hd⟩

/-- Trip `t` of chunk loop 4: sixteen index words are loaded and each names a table entry (the check), the table scratch is read at
    them, the sixteen entries are stored at the same place of the gathered scratch. -/
theorem trip4 (tab : Buf (Elt F) ((tabW).view.loc (thr d L))) (sl : Memref sig .scVector .hbm S6208 .i32) (idx : sl.view.ty.Contents (Elt F))
    (hidx : ∀ y, (sl.view.read (Elt F) idx y : BitVec 32).toNat < 100352) (t : Fin k1_t4_loop.trips) (u : Unit) :
    inv (X := X) d L tab sl idx t.val u
      ⊢ wp frame (wpE (defs₀ (F := F)) 𝒱₀ (thr d L) none) Set.univ
          (k1_t4_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8 t u)
          (inv (X := X) d L tab sl idx (t.val + 1)) := by
  unfold k1_t4_body inv
  iintro ⟨%T, %I, %g, Hs0, Hs1, Hs2, %hh⟩
  obtain ⟨hT, hIh, hd⟩ := hh
  have hchk : k1_chk4 (View.readAt (Elt F) (sI : Memref sig .scVector .vmem S6208 .i32).view (Rect.unit (s := S6208) (k1_off8 t) S16.size (k1_off8_inb t)).toLoadRect I) := by
    intro a x
    have ha : a = 0 := Subsingleton.elim _ _
    subst ha
    have h1 := hidx ((Rect.unit (s := S6208) (k1_off8 t) S16.size (k1_off8_inb t)).toLoadRect.idx x)
    rw [← hIh] at h1
    exact h1
  sl_exec
  iapply (SparseCore.wp_vectorLoadIdx 𝒱₀ (thr d L) none Set.univ (base := (sT : Memref sig .scVector .vmem S100352 .i32)) (S := Finset.univ) (q := fullShare) (Finset.subset_univ _)) $$ Hs0; iintro Hs0
  sl_exec
  sl_step
  iexists T, I, _
  isplitl [Hs0]; · iexact Hs0
  isplitl [Hs1]; · iexact Hs1
  isplitl [Hs2]; · iexact Hs2
  ipureintro
  exact ⟨hT, hIh, done_step d L t.val (k1_off8_eq t) (k1_off9_eq t) _ _ T I g _ hd⟩

end Cert.ScTask

end
-- ==== Proof.ScTask.Body.lean ====
/-
  The gather task of one vector subcore, as a weakest-precondition statement.

  The task copies the whole table (100352 words) into a scratch of its own; then, for each of its four chunks of 6208
  index words: copies the chunk into a second scratch, runs the chunk's loop of 388 trips (Trip.lean: after it every
  word of the third scratch is the table entry named by the index word at the same place), and copies the third scratch
  out to the chunk's slice of the result.  Each copy is issued and awaited on a semaphore of its own, one outstanding at
  a time (chunk 2's index copy is issued at the end of the first part of the printed body and awaited at the start of
  the rest).  From the table and the index array held at any read share, the four result slices and the three
  scratches held outright, the nine semaphores at zero — and every index word below 100352, which makes each trip's
  check pass — the task ends with the same, the four result slices gathered (`Gathered`).
-/
import proofs.«203813_g3255585210786_cont_8to1_b_763_8_alg».proof.Proof.ScTask.Trip

noncomputable section

namespace Cert.ScTask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {X : Type} [URA X]

local notation "𝕄" => MT nD τ sig (HIx 1) (Elt F) ℕ (X × Counters) ℕ

variable [FloatOps F]

variable (d : Dev nD) (L : grid1.Coords)

/-- A DMA semaphore of the task's vector subcore, as a cell. -/
abbrev cell (sm : DmaSem sig) : GSem nD τ sig := (thr d L, SemLoc.dma sm)

/-- The out slice `osl` holds, word by word, the table entry named by the same word of the index slice `isl`. -/
def Gathered (tab : Buf (Elt F) ((tabW).view.loc (thr d L))) (isl osl : Memref sig .scVector .hbm S6208 .i32)
    (idx : isl.view.ty.Contents (Elt F)) (g : osl.view.ty.Contents (Elt F)) : Prop :=
  ∀ y : S6208.Idx, (osl.view.read (Elt F) g y : BitVec 32)
    = (tabW : Memref sig .scVector .hbm S100352 .i32).view.read (Elt F) tab (ent ((isl.view.read (Elt F) idx y : BitVec 32)).toNat)

theorem trips1 : Scf.trips k1_t1_loop.lb k1_t1_loop.ub k1_t1_loop.st = 388 := by decide
theorem trips2 : Scf.trips k1_t2_loop.lb k1_t2_loop.ub k1_t2_loop.st = 388 := by decide
theorem trips3 : Scf.trips k1_t3_loop.lb k1_t3_loop.ub k1_t3_loop.st = 388 := by decide
theorem trips4 : Scf.trips k1_t4_loop.lb k1_t4_loop.ub k1_t4_loop.st = 388 := by decide

omit [FloatOps F] in
/-- A chunk's loop done (388 trips of sixteen words), the gathered scratch copied whole into the out slice: the slice is gathered. -/
theorem gathered_of (tab : Buf (Elt F) ((tabW).view.loc (thr d L))) (isl osl : Memref sig .scVector .hbm S6208 .i32)
    (idx : isl.view.ty.Contents (Elt F))
    (T : Buf (Elt F) ((sT).view.loc (thr d L))) (I : Buf (Elt F) ((sI).view.loc (thr d L))) (g : Buf (Elt F) ((sO).view.loc (thr d L)))
    (hT : TabHolds d L tab T) (hI : IdxHolds d L isl idx I) (hd : Done d L T I g (16 * 388))
    (w : (Rect.whole S6208).shape.Idx → Elt F .i32)
    (hw : ∀ y, w y = (sO : Memref sig .scVector .vmem S6208 .i32).view.read (Elt F) g y) (junk : osl.view.ty.Contents (Elt F)) :
    Gathered d L tab isl osl idx (osl.view.writes (Elt F) junk [⟨Rect.whole S6208, w⟩]) := by
  intro y
  have h1 := View.read_writes_cons_emb osl.view junk (Rect.whole S6208) w [] y
  rw [Rect.emb_whole_apply] at h1
  have hy : (y 0).val < 16 * 388 := (y 0).isLt
  rw [h1, hw, hd y hy, hT, hI]

/-- The task at grid point `L`. -/
theorem task_body (O : CellTallies nD τ sig (HIx 1)) (W : Waits sig (HIx 1)) (hO : ∀ g, O g none = 0)
    (qt qi : PosShare TreeShare)
    (tab : Buf (Elt F) ((tabW).view.loc (thr d L))) (idx : Buf (Elt F) ((idxW).view.loc (thr d L)))
    (hpre : IdxOK d L idx)
    (fo0 fo1 fo2 fo3 : Buf (Elt F) ((outW).view.loc (thr d L)))
    (f0 : Buf (Elt F) ((sT).view.loc (thr d L))) (f1 : Buf (Elt F) ((sI).view.loc (thr d L))) (f2 : Buf (Elt F) ((sO).view.loc (thr d L))) :
    iprop(levAts (K (F := F)).L (K (F := F)).lev
        ∗ ((tabW).view.loc (thr d L) ↦{qt} tab)
        ∗ ((idxW).view.loc (thr d L) ↦{qi} idx)
        ∗ ((oSl0 L).view.loc (thr d L) ↦[(oSl0 L).view.set]{fullShare} fo0)
        ∗ ((oSl1 L).view.loc (thr d L) ↦[(oSl1 L).view.set]{fullShare} fo1)
        ∗ ((oSl2 L).view.loc (thr d L) ↦[(oSl2 L).view.set]{fullShare} fo2)
        ∗ ((oSl3 L).view.loc (thr d L) ↦[(oSl3 L).view.set]{fullShare} fo3)
        ∗ ((sT).view.loc (thr d L) ↦{fullShare} f0)
        ∗ ((sI).view.loc (thr d L) ↦{fullShare} f1)
        ∗ ((sO).view.loc (thr d L) ↦{fullShare} f2)
        ∗ semVal (cell d L cc1_scoped0.sem) 0 ∗ semVal (cell d L cc1_scoped1.sem) 0 ∗ semVal (cell d L cc1_scoped2.sem) 0
        ∗ semVal (cell d L cc1_scoped3.sem) 0 ∗ semVal (cell d L cc1_scoped4.sem) 0 ∗ semVal (cell d L cc1_scoped5.sem) 0
        ∗ semVal (cell d L cc1_scoped6.sem) 0 ∗ semVal (cell d L cc1_scoped7.sem) 0 ∗ semVal (cell d L cc1_scoped8.sem) 0
        ∗ owes (thr d L) O W : sProp 𝕄)
      ⊢ wp frame (wpE (defs₀ (F := F)) 𝒱₀ (thr d L) none) Set.univ
          (cc1__gather_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8)
          fun _ => iprop(((tabW).view.loc (thr d L) ↦{qt} tab)
            ∗ ((idxW).view.loc (thr d L) ↦{qi} idx)
            ∗ (∃ g, ((oSl0 L).view.loc (thr d L) ↦[(oSl0 L).view.set]{fullShare} g) ∗ ⌜Gathered d L tab (iSl0 L) (oSl0 L) idx g⌝)
            ∗ (∃ g, ((oSl1 L).view.loc (thr d L) ↦[(oSl1 L).view.set]{fullShare} g) ∗ ⌜Gathered d L tab (iSl1 L) (oSl1 L) idx g⌝)
            ∗ (∃ g, ((oSl2 L).view.loc (thr d L) ↦[(oSl2 L).view.set]{fullShare} g) ∗ ⌜Gathered d L tab (iSl2 L) (oSl2 L) idx g⌝)
            ∗ (∃ g, ((oSl3 L).view.loc (thr d L) ↦[(oSl3 L).view.set]{fullShare} g) ∗ ⌜Gathered d L tab (iSl3 L) (oSl3 L) idx g⌝)
            ∗ (∃ f, (sT).view.loc (thr d L) ↦{fullShare} f)
            ∗ (∃ f, (sI).view.loc (thr d L) ↦{fullShare} f)
            ∗ (∃ f, (sO).view.loc (thr d L) ↦{fullShare} f)
            ∗ semVal (cell d L cc1_scoped0.sem) 0 ∗ semVal (cell d L cc1_scoped1.sem) 0 ∗ semVal (cell d L cc1_scoped2.sem) 0
            ∗ semVal (cell d L cc1_scoped3.sem) 0 ∗ semVal (cell d L cc1_scoped4.sem) 0 ∗ semVal (cell d L cc1_scoped5.sem) 0
            ∗ semVal (cell d L cc1_scoped6.sem) 0 ∗ semVal (cell d L cc1_scoped7.sem) 0 ∗ semVal (cell d L cc1_scoped8.sem) 0
            ∗ ∃ W', ⌜∀ p ∈ W', p ∈ W ∨ p.2 = none⌝ ∗ owes (thr d L) O W') := by
  rw [cc1__gather_body_eq_skeleton]; unfold cc1__gather_body_skel
  rw [wp_bind]
  rw [k1_part1_eq_skeleton]; unfold k1_part1_skel
  iintro ⟨#Hlv, Htab, Hidx, Ho0, Ho1, Ho2, Ho3, Hs0, Hs1, Hs2, Hc0, Hc1, Hc2, Hc3, Hc4, Hc5, Hc6, Hc7, Hc8, HO⟩
  ihave Hmw := ((K (F := F)).mayWaits_none (thr := thr d L) hO) $$ Hlv
  sl_exec
  sl_for (inv (X := X) d L tab (iSl0 L) idx) $$ [Hs0 Hs1 Hs2]
  case region => exact trip1 d L tab (iSl0 L) idx (fun y => hpre _)
  · unfold inv
    iexists _, _, _
    isplitl [Hs0]; · iexact Hs0
    isplitl [Hs1]; · iexact Hs1
    isplitl [Hs2]; · iexact Hs2
    ipureintro
    refine ⟨?_, ?_, done_zero d L _ _ _⟩
    · intro z; rw [View.write_whole_univ]; rfl
    · intro y; rw [View.write_whole_univ]; rfl
  iintro %_ HI
  unfold inv
  icases HI with ⟨%T0, %I0, %g0, Hs0, Hs1, Hs2, %hh0⟩
  sl_exec
  sl_for (inv (X := X) d L tab (iSl1 L) idx) $$ [Hs0 Hs1 Hs2]
  case region => exact trip2 d L tab (iSl1 L) idx (fun y => hpre _)
  · unfold inv
    iexists _, _, _
    isplitl [Hs0]; · iexact Hs0
    isplitl [Hs1]; · iexact Hs1
    isplitl [Hs2]; · iexact Hs2
    ipureintro
    refine ⟨?_, ?_, done_zero d L _ _ _⟩
    · exact hh0.1
    · intro y; rw [View.write_whole_univ]; rfl
  iintro %_ HI
  unfold inv
  icases HI with ⟨%T1, %I1, %g1, Hs0, Hs1, Hs2, %hh1⟩
  sl_exec
  sl_for (inv (X := X) d L tab (iSl2 L) idx) $$ [Hs0 Hs1 Hs2]
  case region => exact trip3 d L tab (iSl2 L) idx (fun y => hpre _)
  · unfold inv
    iexists _, _, _
    isplitl [Hs0]; · iexact Hs0
    isplitl [Hs1]; · iexact Hs1
    isplitl [Hs2]; · iexact Hs2
    ipureintro
    refine ⟨?_, ?_, done_zero d L _ _ _⟩
    · exact hh1.1
    · intro y; rw [View.write_whole_univ]; rfl
  iintro %_ HI
  unfold inv
  icases HI with ⟨%T2, %I2, %g2, Hs0, Hs1, Hs2, %hh2⟩
  sl_exec
  sl_for (inv (X := X) d L tab (iSl3 L) idx) $$ [Hs0 Hs1 Hs2]
  case region => exact trip4 d L tab (iSl3 L) idx (fun y => hpre _)
  · unfold inv
    iexists _, _, _
    isplitl [Hs0]; · iexact Hs0
    isplitl [Hs1]; · iexact Hs1
    isplitl [Hs2]; · iexact Hs2
    ipureintro
    refine ⟨?_, ?_, done_zero d L _ _ _⟩
    · exact hh2.1
    · intro y; rw [View.write_whole_univ]; rfl
  iintro %_ HI
  unfold inv
  icases HI with ⟨%T3, %I3, %g3, Hs0, Hs1, Hs2, %hh3⟩
  sl_exec
  sl_step
  have hd0 : Done d L T0 I0 g0 (16 * 388) := by have h := hh0.2.2; rw [trips1] at h; exact h
  have hd1 : Done d L T1 I1 g1 (16 * 388) := by have h := hh1.2.2; rw [trips2] at h; exact h
  have hd2 : Done d L T2 I2 g2 (16 * 388) := by have h := hh2.2.2; rw [trips3] at h; exact h
  have hd3 : Done d L T3 I3 g3 (16 * 388) := by have h := hh3.2.2; rw [trips4] at h; exact h
  isplitl [Htab]; · iexact Htab
  isplitl [Hidx]; · iexact Hidx
  isplitl [Ho0]
  · iexists _; isplitl [Ho0]; · iexact Ho0
    ipureintro; exact gathered_of d L tab (iSl0 L) (oSl0 L) idx T0 I0 g0 hh0.1 hh0.2.1 hd0 _ (fun _ => rfl) _
  isplitl [Ho1]
  · iexists _; isplitl [Ho1]; · iexact Ho1
    ipureintro; exact gathered_of d L tab (iSl1 L) (oSl1 L) idx T1 I1 g1 hh1.1 hh1.2.1 hd1 _ (fun _ => rfl) _
  isplitl [Ho2]
  · iexists _; isplitl [Ho2]; · iexact Ho2
    ipureintro; exact gathered_of d L tab (iSl2 L) (oSl2 L) idx T2 I2 g2 hh2.1 hh2.2.1 hd2 _ (fun _ => rfl) _
  isplitl [Ho3]
  · iexists _; isplitl [Ho3]; · iexact Ho3
    ipureintro; exact gathered_of d L tab (iSl3 L) (oSl3 L) idx T3 I3 g3 hh3.1 hh3.2.1 hd3 _ (fun _ => rfl) _
  isplitl [Hs0]; · iexists _; iexact Hs0
  isplitl [Hs1]; · iexists _; iexact Hs1
  isplitl [Hs2]; · iexists _; iexact Hs2
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  iexists _; isplitr
  rotate_left
  · iexact HO
  · ipureintro
    intro p hp
    simp only [Finset.mem_insert] at hp
    rcases hp with rfl | rfl | rfl | rfl | rfl | rfl | rfl | rfl | rfl | hp
    exacts [.inr rfl, .inr rfl, .inr rfl, .inr rfl, .inr rfl, .inr rfl, .inr rfl, .inr rfl, .inr rfl, .inl hp]

end Cert.ScTask

end
-- ==== Proof.ScTask.lean ====
/-
  The gather kernel's task as the launch theorem's obligation, and what the one SparseCore call carries.

  The call hands each of the two SparseCores a read share of the packed table (at whatever contents the first call left,
  under a predicate the caller chooses) and of the index array, and the result slices of its sixteen tasks; a SparseCore
  deals each task a share of its shares and the task's four slices.  The task (Body.lean) returns them with every slice
  gathered: each word the table entry its index word names.
-/
import proofs.«203813_g3255585210786_cont_8to1_b_763_8_alg».proof.Proof.Setup
import proofs.«203813_g3255585210786_cont_8to1_b_763_8_alg».proof.Proof.ScTask.Body

noncomputable section

namespace Cert.ScTask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ Cert.KI.UU ℕ

/-- An array of the TensorCore's, as a location of device `d`. -/
abbrev tLoc (d : Dev nD) (b : Ref sig .tc) : Loc nD τ sig := (SparseCore.T d).loc b

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The read share of SparseCore `c`, and of its vector subcore `i`. -/
abbrev qC (c : Fin 2) : PosShare TreeShare := shareTok fullShare 2 c
abbrev qV (c : Fin 2) (i : Fin 16) : PosShare TreeShare := shareTok (qC c) 16 i

variable [FloatOps F]

variable (TabOK : (d : Dev nD) → Buf (Elt F) (tLoc d main_v9) → Prop) (idx : (d : Dev nD) → Buf (Elt F) (tLoc d main_v3))

/-- The four result slices of the task at `L`, at some contents. -/
def outGo (d : Dev nD) (L : grid1.Coords) : sProp 𝕄 :=
  iprop((∃ f, tLoc d main_v10 ↦[(oSl0 L).view.set]{fullShare} f) ∗ (∃ f, tLoc d main_v10 ↦[(oSl1 L).view.set]{fullShare} f)
    ∗ (∃ f, tLoc d main_v10 ↦[(oSl2 L).view.set]{fullShare} f) ∗ (∃ f, tLoc d main_v10 ↦[(oSl3 L).view.set]{fullShare} f))

/-- The same, gathered out of the table `tab`. -/
def outTd (d : Dev nD) (L : grid1.Coords) (tab : Buf (Elt F) (tLoc d main_v9)) : sProp 𝕄 :=
  iprop((∃ g, (tLoc d main_v10 ↦[(oSl0 L).view.set]{fullShare} g) ∗ ⌜Gathered d L tab (iSl0 L) (oSl0 L) (idx d) g⌝)
    ∗ (∃ g, (tLoc d main_v10 ↦[(oSl1 L).view.set]{fullShare} g) ∗ ⌜Gathered d L tab (iSl1 L) (oSl1 L) (idx d) g⌝)
    ∗ (∃ g, (tLoc d main_v10 ↦[(oSl2 L).view.set]{fullShare} g) ∗ ⌜Gathered d L tab (iSl2 L) (oSl2 L) (idx d) g⌝)
    ∗ (∃ g, (tLoc d main_v10 ↦[(oSl3 L).view.set]{fullShare} g) ∗ ⌜Gathered d L tab (iSl3 L) (oSl3 L) (idx d) g⌝))

instance outGo_storable (d : Dev nD) (L : grid1.Coords) : BI.Storable (upEmb : UEmb _ 𝕄) (outGo (F := F) d L) := by
  unfold outGo; infer_instance
instance outTd_storable (d : Dev nD) (L : grid1.Coords) (tab : Buf (Elt F) (tLoc d main_v9)) :
    BI.Storable (upEmb : UEmb _ 𝕄) (outTd idx d L tab) := by
  unfold outTd; infer_instance

/-- What the one call hands SparseCore `c`: its read share of the table (at some contents the predicate `TabOK` admits) and of
    the index array, and its sixteen tasks' result slices; -/
def stP (d : Dev nD) (c : Fin 2) : sProp 𝕄 :=
  iprop(∃ tab, ⌜TabOK d tab⌝ ∗ (tLoc d main_v9 ↦{qC c} tab) ∗ (tLoc d main_v3 ↦{qC c} idx d)
    ∗ bigSep Finset.univ fun i : Fin 16 => outGo (F := F) d (coordsV c i))
/-- what it takes back: the same, the slices gathered out of that table; -/
def dnP (d : Dev nD) (c : Fin 2) : sProp 𝕄 :=
  iprop(∃ tab, ⌜TabOK d tab⌝ ∗ (tLoc d main_v9 ↦{qC c} tab) ∗ (tLoc d main_v3 ↦{qC c} idx d)
    ∗ bigSep Finset.univ fun i : Fin 16 => outTd idx d (coordsV c i) tab)
/-- what task `i` of SparseCore `c` is handed: its share of the SparseCore's shares, and its four result slices; -/
def goP (d : Dev nD) (c : Fin 2) (i : Fin 16) : sProp 𝕄 :=
  iprop(∃ tab, ⌜TabOK d tab⌝ ∗ (tLoc d main_v9 ↦{qV c i} tab) ∗ (tLoc d main_v3 ↦{qV c i} idx d) ∗ outGo (F := F) d (coordsV c i))
/-- and what it hands back. -/
def tdP (d : Dev nD) (c : Fin 2) (i : Fin 16) : sProp 𝕄 :=
  iprop(∃ tab, ⌜TabOK d tab⌝ ∗ (tLoc d main_v9 ↦{qV c i} tab) ∗ (tLoc d main_v3 ↦{qV c i} idx d) ∗ outTd idx d (coordsV c i) tab)

instance stP_storable (d : Dev nD) (c : Fin 2) : BI.Storable (upEmb : UEmb _ 𝕄) (stP TabOK idx d c) := by
  unfold stP
  haveI : ∀ i : Fin 16, BI.Storable (upEmb : UEmb _ 𝕄) (outGo (F := F) d (coordsV c i)) := fun i => outGo_storable d _
  infer_instance
instance dnP_storable (d : Dev nD) (c : Fin 2) : BI.Storable (upEmb : UEmb _ 𝕄) (dnP TabOK idx d c) := by
  unfold dnP
  haveI : ∀ (tab : Buf (Elt F) (tLoc d main_v9)) (i : Fin 16), BI.Storable (upEmb : UEmb _ 𝕄) (outTd idx d (coordsV c i) tab) :=
    fun tab i => outTd_storable idx d _ tab
  infer_instance
instance goP_storable (d : Dev nD) (c : Fin 2) (i : Fin 16) : BI.Storable (upEmb : UEmb _ 𝕄) (goP TabOK idx d c i) := by unfold goP; infer_instance
instance tdP_storable (d : Dev nD) (c : Fin 2) (i : Fin 16) : BI.Storable (upEmb : UEmb _ 𝕄) (tdP TabOK idx d c i) := by unfold tdP; infer_instance

/-- The payloads of the one SparseCore call; the task's proof consumes nothing of the launch's. -/
def P : (Cert.KI.K (F := F)).Pay (nD := nD) (Val := Elt F) (Name := ℕ) (U := Cert.KI.UU) where
  st := fun q d c => match q with | 0 => stP TabOK idx d (Fin.cast Cert.KI.nCore_zero c)
  dn := fun q d c => match q with | 0 => dnP TabOK idx d (Fin.cast Cert.KI.nCore_zero c)
  go := fun q d c i => match q with | 0 => goP TabOK idx d (Fin.cast Cert.KI.nCore_zero c) (Fin.cast Cert.KI.nSub_zero i)
  td := fun q d c i => match q with | 0 => tdP TabOK idx d (Fin.cast Cert.KI.nCore_zero c) (Fin.cast Cert.KI.nSub_zero i)
  x := fun _ _ => iprop(emp)

instance P_storable : (P TabOK idx).IsStorable where
  st q d c := match q with | 0 => (inferInstance : BI.Storable (upEmb : UEmb _ 𝕄) (stP TabOK idx d (Fin.cast Cert.KI.nCore_zero c)))
  dn q d c := match q with | 0 => (inferInstance : BI.Storable (upEmb : UEmb _ 𝕄) (dnP TabOK idx d (Fin.cast Cert.KI.nCore_zero c)))
  go q d c i := match q with | 0 => (inferInstance : BI.Storable (upEmb : UEmb _ 𝕄) (goP TabOK idx d (Fin.cast Cert.KI.nCore_zero c) (Fin.cast Cert.KI.nSub_zero i)))
  td q d c i := match q with | 0 => (inferInstance : BI.Storable (upEmb : UEmb _ 𝕄) (tdP TabOK idx d (Fin.cast Cert.KI.nCore_zero c) (Fin.cast Cert.KI.nSub_zero i)))

variable (d : Dev nD) (L : grid1.Coords)

omit [FloatOps F] in
theorem cell_ne {a b : DmaSem sig} (h : a ≠ b) : cell d L a ≠ cell d L b :=
  fun e => h (SemLoc.dma.inj (Prod.mk.inj e).2)

omit [FloatOps F] in
/-- The nine copy semaphores are among the subcore's own cells. -/
theorem ownSems0_V :
    (ownSems0 (thr d L) : sProp 𝕄)
      = iprop(semVal (cell d L cc1_scoped0.sem) 0 ∗ semVal (cell d L cc1_scoped1.sem) 0 ∗ semVal (cell d L cc1_scoped2.sem) 0 ∗ semVal (cell d L cc1_scoped3.sem) 0 ∗ semVal (cell d L cc1_scoped4.sem) 0 ∗ semVal (cell d L cc1_scoped5.sem) 0 ∗ semVal (cell d L cc1_scoped6.sem) 0 ∗ semVal (cell d L cc1_scoped7.sem) 0 ∗ semVal (cell d L cc1_scoped8.sem) 0
          ∗ bigSep ((((((((((ownCells (thr d L)).erase (cell d L cc1_scoped0.sem)).erase (cell d L cc1_scoped1.sem)).erase (cell d L cc1_scoped2.sem)).erase (cell d L cc1_scoped3.sem)).erase (cell d L cc1_scoped4.sem)).erase (cell d L cc1_scoped5.sem)).erase (cell d L cc1_scoped6.sem)).erase (cell d L cc1_scoped7.sem)).erase (cell d L cc1_scoped8.sem)) fun g => semVal g 0) := by
  unfold SparseCore.Cfg.ownSems0
  rw [SparseCore.bigSep_erase' ((mem_ownCells (g := cell d L cc1_scoped0.sem)).mpr ⟨rfl, by show (SemLoc.dma cc1_scoped0.sem : SemLoc sig).isScoped .scVector = true; decide⟩),
    SparseCore.bigSep_erase' (Finset.mem_erase.mpr ⟨cell_ne d L (show (cc1_scoped1.sem : DmaSem sig) ≠ cc1_scoped0.sem by decide), (mem_ownCells (g := cell d L cc1_scoped1.sem)).mpr ⟨rfl, by show (SemLoc.dma cc1_scoped1.sem : SemLoc sig).isScoped .scVector = true; decide⟩⟩),
    SparseCore.bigSep_erase' (Finset.mem_erase.mpr ⟨cell_ne d L (show (cc1_scoped2.sem : DmaSem sig) ≠ cc1_scoped1.sem by decide), Finset.mem_erase.mpr ⟨cell_ne d L (show (cc1_scoped2.sem : DmaSem sig) ≠ cc1_scoped0.sem by decide), (mem_ownCells (g := cell d L cc1_scoped2.sem)).mpr ⟨rfl, by show (SemLoc.dma cc1_scoped2.sem : SemLoc sig).isScoped .scVector = true; decide⟩⟩⟩),
    SparseCore.bigSep_erase' (Finset.mem_erase.mpr ⟨cell_ne d L (show (cc1_scoped3.sem : DmaSem sig) ≠ cc1_scoped2.sem by decide), Finset.mem_erase.mpr ⟨cell_ne d L (show (cc1_scoped3.sem : DmaSem sig) ≠ cc1_scoped1.sem by decide), Finset.mem_erase.mpr ⟨cell_ne d L (show (cc1_scoped3.sem : DmaSem sig) ≠ cc1_scoped0.sem by decide), (mem_ownCells (g := cell d L cc1_scoped3.sem)).mpr ⟨rfl, by show (SemLoc.dma cc1_scoped3.sem : SemLoc sig).isScoped .scVector = true; decide⟩⟩⟩⟩),
    SparseCore.bigSep_erase' (Finset.mem_erase.mpr ⟨cell_ne d L (show (cc1_scoped4.sem : DmaSem sig) ≠ cc1_scoped3.sem by decide), Finset.mem_erase.mpr ⟨cell_ne d L (show (cc1_scoped4.sem : DmaSem sig) ≠ cc1_scoped2.sem by decide), Finset.mem_erase.mpr ⟨cell_ne d L (show (cc1_scoped4.sem : DmaSem sig) ≠ cc1_scoped1.sem by decide), Finset.mem_erase.mpr ⟨cell_ne d L (show (cc1_scoped4.sem : DmaSem sig) ≠ cc1_scoped0.sem by decide), (mem_ownCells (g := cell d L cc1_scoped4.sem)).mpr ⟨rfl, by show (SemLoc.dma cc1_scoped4.sem : SemLoc sig).isScoped .scVector = true; decide⟩⟩⟩⟩⟩),
    SparseCore.bigSep_erase' (Finset.mem_erase.mpr ⟨cell_ne d L (show (cc1_scoped5.sem : DmaSem sig) ≠ cc1_scoped4.sem by decide), Finset.mem_erase.mpr ⟨cell_ne d L (show (cc1_scoped5.sem : DmaSem sig) ≠ cc1_scoped3.sem by decide), Finset.mem_erase.mpr ⟨cell_ne d L (show (cc1_scoped5.sem : DmaSem sig) ≠ cc1_scoped2.sem by decide), Finset.mem_erase.mpr ⟨cell_ne d L (show (cc1_scoped5.sem : DmaSem sig) ≠ cc1_scoped1.sem by decide), Finset.mem_erase.mpr ⟨cell_ne d L (show (cc1_scoped5.sem : DmaSem sig) ≠ cc1_scoped0.sem by decide), (mem_ownCells (g := cell d L cc1_scoped5.sem)).mpr ⟨rfl, by show (SemLoc.dma cc1_scoped5.sem : SemLoc sig).isScoped .scVector = true; decide⟩⟩⟩⟩⟩⟩),
    SparseCore.bigSep_erase' (Finset.mem_erase.mpr ⟨cell_ne d L (show (cc1_scoped6.sem : DmaSem sig) ≠ cc1_scoped5.sem by decide), Finset.mem_erase.mpr ⟨cell_ne d L (show (cc1_scoped6.sem : DmaSem sig) ≠ cc1_scoped4.sem by decide), Finset.mem_erase.mpr ⟨cell_ne d L (show (cc1_scoped6.sem : DmaSem sig) ≠ cc1_scoped3.sem by decide), Finset.mem_erase.mpr ⟨cell_ne d L (show (cc1_scoped6.sem : DmaSem sig) ≠ cc1_scoped2.sem by decide), Finset.mem_erase.mpr ⟨cell_ne d L (show (cc1_scoped6.sem : DmaSem sig) ≠ cc1_scoped1.sem by decide), Finset.mem_erase.mpr ⟨cell_ne d L (show (cc1_scoped6.sem : DmaSem sig) ≠ cc1_scoped0.sem by decide), (mem_ownCells (g := cell d L cc1_scoped6.sem)).mpr ⟨rfl, by show (SemLoc.dma cc1_scoped6.sem : SemLoc sig).isScoped .scVector = true; decide⟩⟩⟩⟩⟩⟩⟩),
    SparseCore.bigSep_erase' (Finset.mem_erase.mpr ⟨cell_ne d L (show (cc1_scoped7.sem : DmaSem sig) ≠ cc1_scoped6.sem by decide), Finset.mem_erase.mpr ⟨cell_ne d L (show (cc1_scoped7.sem : DmaSem sig) ≠ cc1_scoped5.sem by decide), Finset.mem_erase.mpr ⟨cell_ne d L (show (cc1_scoped7.sem : DmaSem sig) ≠ cc1_scoped4.sem by decide), Finset.mem_erase.mpr ⟨cell_ne d L (show (cc1_scoped7.sem : DmaSem sig) ≠ cc1_scoped3.sem by decide), Finset.mem_erase.mpr ⟨cell_ne d L (show (cc1_scoped7.sem : DmaSem sig) ≠ cc1_scoped2.sem by decide), Finset.mem_erase.mpr ⟨cell_ne d L (show (cc1_scoped7.sem : DmaSem sig) ≠ cc1_scoped1.sem by decide), Finset.mem_erase.mpr ⟨cell_ne d L (show (cc1_scoped7.sem : DmaSem sig) ≠ cc1_scoped0.sem by decide), (mem_ownCells (g := cell d L cc1_scoped7.sem)).mpr ⟨rfl, by show (SemLoc.dma cc1_scoped7.sem : SemLoc sig).isScoped .scVector = true; decide⟩⟩⟩⟩⟩⟩⟩⟩),
    SparseCore.bigSep_erase' (Finset.mem_erase.mpr ⟨cell_ne d L (show (cc1_scoped8.sem : DmaSem sig) ≠ cc1_scoped7.sem by decide), Finset.mem_erase.mpr ⟨cell_ne d L (show (cc1_scoped8.sem : DmaSem sig) ≠ cc1_scoped6.sem by decide), Finset.mem_erase.mpr ⟨cell_ne d L (show (cc1_scoped8.sem : DmaSem sig) ≠ cc1_scoped5.sem by decide), Finset.mem_erase.mpr ⟨cell_ne d L (show (cc1_scoped8.sem : DmaSem sig) ≠ cc1_scoped4.sem by decide), Finset.mem_erase.mpr ⟨cell_ne d L (show (cc1_scoped8.sem : DmaSem sig) ≠ cc1_scoped3.sem by decide), Finset.mem_erase.mpr ⟨cell_ne d L (show (cc1_scoped8.sem : DmaSem sig) ≠ cc1_scoped2.sem by decide), Finset.mem_erase.mpr ⟨cell_ne d L (show (cc1_scoped8.sem : DmaSem sig) ≠ cc1_scoped1.sem by decide), Finset.mem_erase.mpr ⟨cell_ne d L (show (cc1_scoped8.sem : DmaSem sig) ≠ cc1_scoped0.sem by decide), (mem_ownCells (g := cell d L cc1_scoped8.sem)).mpr ⟨rfl, by show (SemLoc.dma cc1_scoped8.sem : SemLoc sig).isScoped .scVector = true; decide⟩⟩⟩⟩⟩⟩⟩⟩⟩)]

omit [FloatOps F] in
/-- The three scratches are among the subcore's own buffers. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-- The task as the launch's obligation states it: from the task's operands (read shares of the table and of the index
    array at any share `q`, its four result slices), the subcore's scoped storage and what it owes. -/
theorem tile_body (hF : (Cert.KI.K (F := F)).Facts) (hpre : ∀ d j, (idx d j : BitVec 32).toNat < 100352) (q : PosShare TreeShare)
    (O : CellTallies nD τ sig (HIx 1)) (W : Waits sig (HIx 1)) (hO : ∀ g, O g none = 0) :
    iprop(levAts (Cert.KI.K (F := F)).L (Cert.KI.K (F := F)).lev ∗ emp
        ∗ (∃ tab, ⌜TabOK d tab⌝ ∗ (tLoc d main_v9 ↦{q} tab) ∗ (tLoc d main_v3 ↦{q} idx d) ∗ outGo (F := F) d L)
        ∗ scopedBufs (thr d L) ∗ scopedSems0 (thr d L) ∗ owes (thr d L) O W : sProp 𝕄)
      ⊢ wp frame (wpE (defs₀ (F := F)) 𝒱₀ (thr d L) none) Set.univ
          (cc1__gather_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8)
          fun _ => iprop((∃ tab, ⌜TabOK d tab⌝ ∗ (tLoc d main_v9 ↦{q} tab) ∗ (tLoc d main_v3 ↦{q} idx d) ∗ outTd idx d L tab)
            ∗ scopedBufs (thr d L) ∗ scopedSems0 (thr d L)
            ∗ ∃ W', ⌜∀ p ∈ W', p ∈ W ∨ p.2 = none⌝ ∗ owes (thr d L) O W') := by
  rw [(Cert.KI.K (F := F)).scopedBufs_V hF d (cV L) (jV L), SparseCore.Cfg.scopedSems0_V (Val := Elt F) d (cV L) (jV L), ownSems0_V, ownBufs_V]
  unfold outGo outTd
  iintro ⟨Hlv, -, ⟨%tab, %hT, Htab, Hidx, ⟨%fo0, Ho0⟩, ⟨%fo1, Ho1⟩, ⟨%fo2, Ho2⟩, ⟨%fo3, Ho3⟩⟩, ⟨⟨%f0, Hs0⟩, ⟨%f1, Hs1⟩, ⟨%f2, Hs2⟩, Hbufs⟩,
    ⟨Hc0, Hc1, Hc2, Hc3, Hc4, Hc5, Hc6, Hc7, Hc8, Hsems⟩, HO⟩
  iapply (wp_wand_r frame (wpE (defs₀ (F := F)) 𝒱₀ (thr d L) none) Set.univ)
  isplitl [Hlv Htab Hidx Ho0 Ho1 Ho2 Ho3 Hs0 Hs1 Hs2 Hc0 Hc1 Hc2 Hc3 Hc4 Hc5 Hc6 Hc7 Hc8 HO]
  · iapply (task_body (X := Cert.KI.UH × Cert.KI.UP) d L O W hO q q tab (idx d) (hpre d) fo0 fo1 fo2 fo3 f0 f1 f2)
    isplitl [Hlv]; · iexact Hlv
    isplitl [Htab]; · iexact Htab
    isplitl [Hidx]; · iexact Hidx
    isplitl [Ho0]; · iexact Ho0
    isplitl [Ho1]; · iexact Ho1
    isplitl [Ho2]; · iexact Ho2
    isplitl [Ho3]; · iexact Ho3
    isplitl [Hs0]; · iexact Hs0
    isplitl [Hs1]; · iexact Hs1
    isplitl [Hs2]; · iexact Hs2
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact HO
  · iintro %_ ⟨Htab, Hidx, Hg0, Hg1, Hg2, Hg3, Hs0, Hs1, Hs2, Hc0, Hc1, Hc2, Hc3, Hc4, Hc5, Hc6, Hc7, Hc8, HW⟩
    isplitl [Htab Hidx Hg0 Hg1 Hg2 Hg3]
    · iexists tab
      isplitr; · ipureintro; exact hT
      isplitl [Htab]; · iexact Htab
      isplitl [Hidx]; · iexact Hidx
      isplitl [Hg0]; · iexact Hg0
      isplitl [Hg1]; · iexact Hg1
      isplitl [Hg2]; · iexact Hg2
      iexact Hg3
    isplitl [Hs0 Hs1 Hs2 Hbufs]
    · isplitl [Hs0]; · iexact Hs0
      isplitl [Hs1]; · iexact Hs1
      isplitl [Hs2]; · iexact Hs2
      iexact Hbufs
    isplitl [Hc0 Hc1 Hc2 Hc3 Hc4 Hc5 Hc6 Hc7 Hc8 Hsems]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      iexact Hsems
    iexact HW

/-- The body table's entry for the kernel on a vector subcore: the task at the subcore's grid point. -/
theorem defs₀_vector (c : Fin τ.nSC) (s : Fin τ.nSub) :
    defs₀ (F := F) (.scVector c s) 1 ()
      = SparseCore.onTile hcore1 hsub1 (fun c s => cc1__gather_body (coordsV c s)
          tabW (Memref.isWhole_whole _) idxW (Memref.isWhole_whole _) outW (Memref.isWhole_whole _)
          sT (Memref.isWhole_whole _) sI (Memref.isWhole_whole _) sO (Memref.isWhole_whole _)
          cc1_scoped0 cc1_scoped1 cc1_scoped2 cc1_scoped3 cc1_scoped4 cc1_scoped5 cc1_scoped6 cc1_scoped7 cc1_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation for the one vector-subcore kernel. -/
theorem tileObl (hF : (Cert.KI.K (F := F)).Facts) (hpre : ∀ d j, (idx d j : BitVec 32).toNat < 100352) :
    (Cert.KI.K (F := F)).TileObl (Cert.KI.D (F := F)) Cert.KI.𝒱 (P TabOK idx) Cert.KI.v₀ 0 := by
  intro d c i O W hO _ _
  simp only [show (P TabOK idx).ox = fun _ _ => 0 from rfl, add_zero]
  change _ ⊢ wp _ _ _ (Pipeline.liftProg (defs₀ (F := F) (.scVector ((Cert.KI.K (F := F)).core 0 c) ((Cert.KI.K (F := F)).sub 0 i)) 1 ())) _
  refine BI.Entails.trans ?_ (Pipeline.wp_liftProg (Cert.KI.D (F := F)) (Pipeline.defs_kernel pcfgs defs₀) 𝒱₀ _ Set.univ none _ _)
  have hc : ((Cert.KI.K (F := F)).core 0 c).val < grid1.bound 0 ∧ ((Cert.KI.K (F := F)).sub 0 i).val < grid1.bound 1 := ⟨c.isLt, i.isLt⟩
  rw [defs₀_vector]; simp only [SparseCore.onTile, hc, and_self, ↓reduceDIte]
  exact (tile_body TabOK idx d (coordsV ⟨_, hc.1⟩ ⟨_, hc.2⟩) hF hpre _ O W hO).trans (wp_mono frame _ _ fun _ => obl_post)

omit [FloatOps F] in
theorem bigSep_tasks (Φ : Fin 16 → sProp 𝕄) :
    (bigSep Finset.univ fun i : Fin ((Cert.KI.K (F := F)).nSub 0) => Φ (Fin.cast Cert.KI.nSub_zero i)) = bigSep Finset.univ Φ :=
  bigSep_congr fun _ _ => congrArg Φ (Fin.ext rfl)

omit [FloatOps F] in
/-- Shares of one array that come back at contents of their own agree with a share kept at `f`: they are all at `f`. -/
theorem agree_back {ι : Type} [DecidableEq ι] (ℓ : Loc nD τ sig) (r : PosShare TreeShare) (q : ι → PosShare TreeShare) (f : Buf (Elt F) ℓ)
    (A : Buf (Elt F) ℓ → Prop) (Φ : ι → Buf (Elt F) ℓ → sProp 𝕄) (s : Finset ι) :
    iprop((ℓ ↦{r} f) ∗ bigSep s fun i => iprop(∃ fi, ⌜A fi⌝ ∗ (ℓ ↦{q i} fi) ∗ Φ i fi))
      ⊢ iprop((ℓ ↦{r} f) ∗ bigSep s fun i => iprop((ℓ ↦{q i} f) ∗ Φ i f)) := by
  induction s using Finset.induction_on with
  | empty => rw [bigSep_empty, bigSep_empty]
  | insert a s ha ih =>
    rw [SparseCore.bigSep_insert' ha, SparseCore.bigSep_insert' ha]
    iintro ⟨Hr, ⟨%fa, -, Ha, HΦ⟩, Hs⟩
    ihave H := (persistent_entails_right (pointsTo_agree (ℓ := ℓ) (I := Finset.univ) (J := Finset.univ) (q₁ := r) (q₂ := q a) (f := f) (g := fa))) $$ [Hr Ha]
    · isplitl [Hr] <;> iassumption
    icases H with ⟨%hag, Hr, Ha⟩
    have e : fa = f := funext fun i => ((hag i (Finset.mem_inter.mpr ⟨Finset.mem_univ _, Finset.mem_univ _⟩)).1).symm
    subst e
    ihave H2 := ih $$ [Hr Hs]
    · isplitl [Hr] <;> iassumption
    icases H2 with ⟨Hr, Hs⟩
    isplitl [Hr]; · iexact Hr
    isplitl [Ha HΦ]; · isplitl [Ha] <;> iassumption
    iexact Hs

/-- A SparseCore's operands split among its sixteen tasks and gather back from them: each read share into sixteen
    tokens (the remainder kept with the splitter, against which the tasks' tables agree), the result slices dealt as they are. -/
theorem vecSplit : (Cert.KI.K (F := F)).VecSplit' (P TabOK idx) 0 := by
  intro d c
  show stP TabOK idx d (Fin.cast Cert.KI.nCore_zero c) ⊢ |={Set.univ}=> iprop(
      (bigSep Finset.univ fun i : Fin ((Cert.KI.K (F := F)).nSub 0) => goP TabOK idx d (Fin.cast Cert.KI.nCore_zero c) (Fin.cast Cert.KI.nSub_zero i))
      ∗ ((bigSep Finset.univ fun i : Fin ((Cert.KI.K (F := F)).nSub 0) => tdP TabOK idx d (Fin.cast Cert.KI.nCore_zero c) (Fin.cast Cert.KI.nSub_zero i))
          -∗ dnP TabOK idx d (Fin.cast Cert.KI.nCore_zero c)))
  generalize Fin.cast Cert.KI.nCore_zero c = c'
  rw [bigSep_tasks (F := F) (fun i => goP TabOK idx d c' i), bigSep_tasks (F := F) (fun i => tdP TabOK idx d c' i)]
  unfold stP dnP
  iintro ⟨%tab, %hT, Ht, Hi, Ho⟩
  ihave Ht' := (pointsTo_toks_split (qC c') 16) $$ Ht
  icases Ht' with ⟨Htr, Htt⟩
  ihave Hi' := (pointsTo_toks_split (qC c') 16) $$ Hi
  icases Hi' with ⟨Hir, Hit⟩
  imodintro
  have hgo : ∀ i : Fin 16, iprop((tLoc d main_v9 ↦{qV c' i} tab) ∗ (tLoc d main_v3 ↦{qV c' i} idx d) ∗ outGo (F := F) d (coordsV c' i))
      ⊢ goP TabOK idx d c' i := by
    intro i; unfold goP
    iintro ⟨H1, H2, H3⟩
    iexists tab
    isplitr; · ipureintro; exact hT
    isplitl [H1]; · iexact H1
    isplitl [H2]; · iexact H2
    iexact H3
  have hsplit : (bigSep Finset.univ fun i : Fin 16 => iprop((tLoc d main_v9 ↦{qV c' i} tab) ∗ (tLoc d main_v3 ↦{qV c' i} idx d) ∗ outTd idx d (coordsV c' i) tab) : sProp 𝕄)
      ⊢ iprop((bigSep Finset.univ fun i : Fin 16 => tLoc d main_v9 ↦{qV c' i} tab) ∗ (bigSep Finset.univ fun i : Fin 16 => tLoc d main_v3 ↦{qV c' i} idx d)
          ∗ bigSep Finset.univ fun i : Fin 16 => outTd idx d (coordsV c' i) tab) := by
    rw [bigSep_sep', bigSep_sep']
  have hgoAll : iprop((bigSep Finset.univ fun i : Fin 16 => tLoc d main_v9 ↦{qV c' i} tab) ∗ (bigSep Finset.univ fun i : Fin 16 => tLoc d main_v3 ↦{qV c' i} idx d)
        ∗ bigSep Finset.univ fun i : Fin 16 => outGo (F := F) d (coordsV c' i))
      ⊢ (bigSep Finset.univ (fun i : Fin 16 => goP TabOK idx d c' i) : sProp 𝕄) := by
    rw [← bigSep_sep', ← bigSep_sep']
    exact bigSep_mono (fun i _ => hgo i)
  isplitl [Htt Hit Ho]
  · iapply hgoAll
    isplitl [Htt]; · iexact Htt
    isplitl [Hit]; · iexact Hit
    iexact Ho
  iintro Htd
  unfold tdP
  ihave H := (agree_back (tLoc d main_v9) (shareDrop (qC c') 16) (fun i : Fin 16 => qV c' i) tab (TabOK d)
    (fun i t => iprop((tLoc d main_v3 ↦{qV c' i} idx d) ∗ outTd idx d (coordsV c' i) t)) Finset.univ) $$ [Htr Htd]
  · isplitl [Htr] <;> iassumption
  icases H with ⟨Htr, Hs⟩
  ihave Hs' := hsplit $$ Hs
  icases Hs' with ⟨Htt, Hit, Ho⟩
  iexists tab
  isplitr; · ipureintro; exact hT
  isplitl [Htr Htt]
  · iapply (pointsTo_toks_join (qC c') 16); isplitl [Htr]; · iexact Htr
    iexact Htt
  isplitl [Hir Hit]
  · iapply (pointsTo_toks_join (qC c') 16); isplitl [Hir]; · iexact Hir
    iexact Hit
  iexact Ho

end Cert.ScTask

end
-- ==== Proof.ScTask.Call.lean ====
/-
  The SparseCore call as @main sees it: the three arrays whole before and after.

  The result array of 794624 words is the 128 slices of the 32 tasks' four chunks (slice number `8 i + 4 c + r` for
  vector subcore `i` of SparseCore `c`, chunk `r`: 6208 words each, pairwise apart, covering the array).  Before the
  call the table and the index array are split into a remainder @main keeps and one read share per SparseCore, and the
  result into the tasks' slices; after it the shares agree on the table's contents and join, and the gathered slices join
  into one valuation of the result: every word the table entry named by the index word at the same place.
-/
import proofs.«203813_g3255585210786_cont_8to1_b_763_8_alg».proof.Proof.ScTask

noncomputable section

namespace Cert.ScTask

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ Cert.KI.UU ℕ

/-! ## The 128 result slices: pairwise apart, covering the result -/

/-- Chunk `r`'s result slice and index slice of the task at `L`, spelt uniformly in `r` (at each `r` the program's own). -/
def oSl (L : grid1.Coords) (r : Fin 4) : Memref sig .scVector .hbm S6208 .i32 :=
  outW.slice (Rect.unit (s := S794624) (k1_off1 L (BitVec.ofNat 32 (6208 * r.val))) S6208.size (k1_off1_inb L r)) (fun _ => rfl)
def iSl (L : grid1.Coords) (r : Fin 4) : Memref sig .scVector .hbm S6208 .i32 :=
  idxW.slice (Rect.unit (s := S794624) (k1_off1 L (BitVec.ofNat 32 (6208 * r.val))) S6208.size (k1_off1_inb L r)) (fun _ => rfl)

/-- The first word of chunk `r` of the task at `L`. -/
def base (L : grid1.Coords) (r : Fin 4) : Nat := 49664 * (L 1).val + 24832 * (L 0).val + 6208 * r.val

/-- A slice is the 6208 words from its first. -/
theorem mem_oSl (L : grid1.Coords) (r : Fin 4) (j : S794624.Idx) :
    j ∈ (oSl L r).view.set ↔ base L r ≤ (j 0).val ∧ (j 0).val < base L r + 6208 := by
  have key : ∀ (w : BitVec 32) (hw : ∀ a, k1_off1 L w a + S6208.size a ≤ S794624.size a) (n : Nat) (_ : k1_off1 L w = ![n]),
      j ∈ ((outW : Memref sig .scVector .hbm S794624 .i32).slice (Rect.unit (s := S794624) (k1_off1 L w) S6208.size hw) (fun _ => rfl)).view.set
        ↔ n ≤ (j 0).val ∧ (j 0).val < n + 6208 := by
    intro w hw n e
    have hs : ((outW : Memref sig .scVector .hbm S794624 .i32).slice (Rect.unit (s := S794624) (k1_off1 L w) S6208.size hw) (fun _ => rfl)).view.set
        = (Rect.unit (s := S794624) (k1_off1 L w) S6208.size hw).set := by
      show ((View.whole (main_v10_scv : Ref sig .scVector)).slice _).set = _
      rw [View.set_slice]; exact Finset.map_refl
    rw [hs, Rect.mem_set_unit]
    constructor
    · intro h; have h0 := h 0; rw [e] at h0; exact h0
    · intro h a; have ha : a = 0 := Subsingleton.elim _ _; subst ha; rw [e]; exact h
  exact key (BitVec.ofNat 32 (6208 * r.val)) (k1_off1_inb L r) _ (k1_off1_eq L r)

/-- SparseCore, vector subcore, chunk. -/
abbrev Tix : Type := Fin 2 × Fin 16 × Fin 4

/-- The element set of a slice, in the result array of device `d`. -/
def KS (d : Dev nD) (t : Tix) : Finset (Idx (tLoc d main_v10)) := (oSl (coordsV t.1 t.2.1) t.2.2).view.set

theorem mem_KS (d : Dev nD) (t : Tix) (j : S794624.Idx) :
    j ∈ KS d t ↔ 6208 * (8 * t.2.1.val + 4 * t.1.val + t.2.2.val) ≤ (j 0).val ∧ (j 0).val < 6208 * (8 * t.2.1.val + 4 * t.1.val + t.2.2.val) + 6208 := by
  unfold KS
  refine (mem_oSl (coordsV t.1 t.2.1) t.2.2 j).trans ?_
  unfold base
  have h1 : ((coordsV t.1 t.2.1) 1).val = t.2.1.val := rfl
  have h0 : ((coordsV t.1 t.2.1) 0).val = t.1.val := rfl
  rw [h1, h0]
  constructor <;> intro h <;> omega

theorem KS_disjoint (d : Dev nD) :
    ∀ t ∈ (Finset.univ : Finset Tix), ∀ t' ∈ (Finset.univ : Finset Tix), t ≠ t' → Disjoint (KS d t) (KS d t') := by
  intro t _ t' _ hne
  rw [Finset.disjoint_left]
  intro j hj hj'
  rw [mem_KS] at hj hj'
  apply hne
  obtain ⟨c, i, r⟩ := t
  obtain ⟨c', i', r'⟩ := t'
  have hc := c.isLt; have hc' := c'.isLt; have hr := r.isLt; have hr' := r'.isLt
  simp only at hj hj'
  have h3 : c.val = c'.val ∧ i.val = i'.val ∧ r.val = r'.val := by omega
  exact Prod.ext (Fin.ext h3.1) (Prod.ext (Fin.ext h3.2.1) (Fin.ext h3.2.2))

theorem KS_cover (d : Dev nD) : (Finset.univ : Finset Tix).biUnion (KS d) = Finset.univ := by
  ext j
  simp only [Finset.mem_biUnion, Finset.mem_univ, true_and, iff_true]
  have hj : (j 0).val < 794624 := (j 0).isLt
  refine ⟨(⟨((j 0).val / 6208 % 8) / 4, by omega⟩, ⟨(j 0).val / 6208 / 8, by omega⟩, ⟨(j 0).val / 6208 % 4, by omega⟩), ?_⟩
  rw [mem_KS]
  simp only
  omega

theorem bigSep_univ_four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide), SparseCore.bigSep_insert' (by decide),
    SparseCore.bigSep_insert' (by decide), bigSep_singleton]

theorem bigSep_cores (Φ : Fin 2 → sProp 𝕄) :
    (bigSep Finset.univ fun c : Fin ((Cert.KI.K (F := F)).nCore 0) => Φ (Fin.cast Cert.KI.nCore_zero c)) = bigSep Finset.univ Φ :=
  bigSep_congr fun _ _ => congrArg Φ (Fin.ext rfl)

/-- The result whole is its 128 slices. -/
theorem out_slices (d : Dev nD) (f : Buf (Elt F) (tLoc d main_v10)) :
    (tLoc d main_v10 ↦{fullShare} f : sProp 𝕄) = bigSep (Finset.univ : Finset Tix) fun t => tLoc d main_v10 ↦[KS d t]{fullShare} f := by
  rw [← pointsTo_biUnion Finset.univ (ℓ := tLoc d main_v10) (KS d) (KS_disjoint d), KS_cover]

variable [FloatOps F]

variable (TabOK : (d : Dev nD) → Buf (Elt F) (tLoc d main_v9) → Prop) (idx : (d : Dev nD) → Buf (Elt F) (tLoc d main_v3))

/-- A task's four slices at one valuation are its operand. -/
theorem outGo_of_slices (d : Dev nD) (f : Buf (Elt F) (tLoc d main_v10)) (c : Fin 2) (i : Fin 16) :
    (bigSep Finset.univ fun r : Fin 4 => (tLoc d main_v10 ↦[KS d (c, i, r)]{fullShare} f : sProp 𝕄)) ⊢ outGo (F := F) d (coordsV c i) := by
  rw [bigSep_univ_four]
  unfold outGo
  iintro ⟨H0, H1, H2, H3⟩
  isplitl [H0]; · iexists f; iexact H0
  isplitl [H1]; · iexists f; iexact H1
  isplitl [H2]; · iexists f; iexact H2
  iexists f; iexact H3

/-- The result whole, dealt to the two SparseCores' sixteen tasks each. -/
theorem out_split (d : Dev nD) (f : Buf (Elt F) (tLoc d main_v10)) :
    (tLoc d main_v10 ↦{fullShare} f : sProp 𝕄)
      ⊢ bigSep Finset.univ fun c : Fin 2 => bigSep Finset.univ fun i : Fin 16 => outGo (F := F) d (coordsV c i) := by
  rw [out_slices, bigSep_univ_prod]
  refine bigSep_mono fun c _ => ?_
  rw [bigSep_univ_prod]
  exact bigSep_mono fun i _ => outGo_of_slices d f c i

/-- What @main keeps across the call: the remainders of the two read shares. -/
def Keep (d : Dev nD) : sProp 𝕄 :=
  iprop((∃ t, tLoc d main_v9 ↦{shareDrop fullShare 2} t) ∗ (tLoc d main_v3 ↦{shareDrop fullShare 2} idx d))

/-- At the call: the three arrays whole become what is kept and the two SparseCores' operands. -/
theorem st_intro (d : Dev nD) (tab : Buf (Elt F) (tLoc d main_v9)) (out0 : Buf (Elt F) (tLoc d main_v10)) (h : TabOK d tab) :
    iprop((tLoc d main_v9 ↦{fullShare} tab) ∗ (tLoc d main_v3 ↦{fullShare} idx d) ∗ (tLoc d main_v10 ↦{fullShare} out0))
      ⊢ iprop(Keep idx d ∗ bigSep Finset.univ fun c : Fin ((Cert.KI.K (F := F)).nCore 0) => (P TabOK idx).st 0 d c) := by
  show _ ⊢ iprop(Keep idx d ∗ bigSep Finset.univ fun c : Fin ((Cert.KI.K (F := F)).nCore 0) => stP TabOK idx d (Fin.cast Cert.KI.nCore_zero c))
  rw [bigSep_cores (F := F) (fun c => stP TabOK idx d c), bigSep_univ_two]
  unfold Keep stP
  iintro ⟨Ht, Hi, Ho⟩
  ihave Ht' := (pointsTo_toks_split fullShare 2) $$ Ht
  icases Ht' with ⟨Htr, Htt⟩
  ihave Hi' := (pointsTo_toks_split fullShare 2) $$ Hi
  icases Hi' with ⟨Hir, Hit⟩
  ihave Htt' := (Entails.of_eq (bigSep_univ_two (fun c : Fin 2 => (tLoc d main_v9 ↦{qC c} tab : sProp 𝕄)))) $$ Htt
  icases Htt' with ⟨Ht0, Ht1⟩
  ihave Hit' := (Entails.of_eq (bigSep_univ_two (fun c : Fin 2 => (tLoc d main_v3 ↦{qC c} idx d : sProp 𝕄)))) $$ Hit
  icases Hit' with ⟨Hi0, Hi1⟩
  ihave Ho' := (out_split (F := F) d out0) $$ Ho
  ihave Ho'' := (Entails.of_eq (bigSep_univ_two (fun c : Fin 2 => (bigSep Finset.univ fun i : Fin 16 => outGo (F := F) d (coordsV c i) : sProp 𝕄)))) $$ Ho'
  icases Ho'' with ⟨Ho0, Ho1⟩
  isplitl [Htr Hir]
  · isplitl [Htr]; · iexists tab; iexact Htr
    iexact Hir
  isplitl [Ht0 Hi0 Ho0]
  · iexists tab
    isplitr; · ipureintro; exact h
    isplitl [Ht0]; · iexact Ht0
    isplitl [Hi0]; · iexact Hi0
    iexact Ho0
  · iexists tab
    isplitr; · ipureintro; exact h
    isplitl [Ht1]; · iexact Ht1
    isplitl [Hi1]; · iexact Hi1
    iexact Ho1

/-- Slice `t` holds its part of the gather out of `tab`. -/
def GS (d : Dev nD) (tab : Buf (Elt F) (tLoc d main_v9)) (t : Tix) (g : Buf (Elt F) (tLoc d main_v10)) : Prop :=
  Gathered d (coordsV t.1 t.2.1) tab (iSl (coordsV t.1 t.2.1) t.2.2) (oSl (coordsV t.1 t.2.1) t.2.2) (idx d) g

/-- A task's four gathered slices, as a family over the chunk. -/
theorem outTd_slices (d : Dev nD) (tab : Buf (Elt F) (tLoc d main_v9)) (c : Fin 2) (i : Fin 16) :
    outTd idx d (coordsV c i) tab
      ⊢ bigSep Finset.univ fun r : Fin 4 => iprop(∃ g, ⌜GS idx d tab (c, i, r) g⌝ ∗ (tLoc d main_v10 ↦[KS d (c, i, r)]{fullShare} g)) := by
  rw [bigSep_univ_four]
  unfold outTd
  iintro ⟨⟨%g0, H0, %h0⟩, ⟨%g1, H1, %h1⟩, ⟨%g2, H2, %h2⟩, ⟨%g3, H3, %h3⟩⟩
  isplitl [H0]; · iexists g0; isplitr; · ipureintro; exact h0
                  iexact H0
  isplitl [H1]; · iexists g1; isplitr; · ipureintro; exact h1
                  iexact H1
  isplitl [H2]; · iexists g2; isplitr; · ipureintro; exact h2
                  iexact H2
  iexists g3; isplitr; · ipureintro; exact h3
  iexact H3

/-- The 128 gathered slices join into the result whole, gathered: each word the table entry its index word names. -/
theorem out_join (d : Dev nD) (tab : Buf (Elt F) (tLoc d main_v9)) :
    (bigSep Finset.univ fun c : Fin 2 => bigSep Finset.univ fun i : Fin 16 => outTd idx d (coordsV c i) tab : sProp 𝕄)
      ⊢ iprop(∃ g : Buf (Elt F) (tLoc d main_v10), ⌜∀ j : S794624.Idx, (g j : BitVec 32) = tab (ent ((idx d j : BitVec 32)).toNat)⌝
          ∗ (tLoc d main_v10 ↦{fullShare} g)) := by
  have h2 : (bigSep Finset.univ fun c : Fin 2 => bigSep Finset.univ fun i : Fin 16 => outTd idx d (coordsV c i) tab : sProp 𝕄)
      ⊢ bigSep (Finset.univ : Finset Tix) fun t => iprop(∃ g, ⌜GS idx d tab t g⌝ ∗ (tLoc d main_v10 ↦[KS d t]{fullShare} g)) := by
    rw [bigSep_univ_prod]
    refine bigSep_mono fun c _ => ?_
    rw [bigSep_univ_prod]
    exact bigSep_mono fun i _ => outTd_slices idx d tab c i
  refine h2.trans ?_
  refine (bigSep_exists_pi Finset.univ (fun (t : Tix) (g : Buf (Elt F) (tLoc d main_v10)) =>
    iprop(⌜GS idx d tab t g⌝ ∗ (tLoc d main_v10 ↦[KS d t]{fullShare} g)))).trans ?_
  iintro ⟨%gs, H⟩
  ihave H' := (bigSep_pure_sep Finset.univ (fun t : Tix => GS idx d tab t (gs t)) (fun t => (tLoc d main_v10 ↦[KS d t]{fullShare} gs t : sProp 𝕄))) $$ H
  icases H' with ⟨%hGS, H⟩
  ihave H'' := (pointsTo_biUnion_join Finset.univ (KS d) gs (gs default) (KS_disjoint d)) $$ H
  icases H'' with ⟨%g, %hag, Hg⟩
  rw [KS_cover]
  iexists g
  isplitr
  · ipureintro
    intro j
    have hj : j ∈ (Finset.univ : Finset Tix).biUnion (KS d) := by rw [KS_cover]; exact Finset.mem_univ _
    obtain ⟨t, -, hjt⟩ := Finset.mem_biUnion.mp hj
    obtain ⟨y, -, rfl⟩ := Finset.mem_map.mp hjt
    have e := hag t (Finset.mem_univ t) _ hjt
    exact e.trans (hGS t (Finset.mem_univ t) y)
  · iexact Hg

instance : Inhabited Tix := ⟨(0, 0, 0)⟩

/-- After the call: what was kept and the two SparseCores' results are the three arrays whole again, the table at
    contents the predicate admits, the result gathered out of it. -/
theorem dn_elim (d : Dev nD) :
    iprop(Keep idx d ∗ bigSep Finset.univ fun c : Fin ((Cert.KI.K (F := F)).nCore 0) => (P TabOK idx).dn 0 d c)
      ⊢ iprop(∃ (tab : Buf (Elt F) (tLoc d main_v9)) (g : Buf (Elt F) (tLoc d main_v10)),
          ⌜TabOK d tab ∧ ∀ j : S794624.Idx, (g j : BitVec 32) = tab (ent ((idx d j : BitVec 32)).toNat)⌝
          ∗ (tLoc d main_v9 ↦{fullShare} tab) ∗ (tLoc d main_v3 ↦{fullShare} idx d) ∗ (tLoc d main_v10 ↦{fullShare} g)) := by
  show iprop(Keep idx d ∗ bigSep Finset.univ fun c : Fin ((Cert.KI.K (F := F)).nCore 0) => dnP TabOK idx d (Fin.cast Cert.KI.nCore_zero c)) ⊢ _
  rw [bigSep_cores (F := F) (fun c => dnP TabOK idx d c), bigSep_univ_two]
  unfold Keep dnP
  iintro ⟨⟨⟨%t, Htr⟩, Hir⟩, ⟨%t0, %hT0, Ht0, Hi0, Ho0⟩, ⟨%t1, %hT1, Ht1, Hi1, Ho1⟩⟩
  ihave H := (persistent_entails_right (pointsTo_agree (ℓ := tLoc d main_v9) (I := Finset.univ) (J := Finset.univ)
    (q₁ := shareDrop fullShare 2) (q₂ := qC 0) (f := t) (g := t0))) $$ [Htr Ht0]
  · isplitl [Htr] <;> iassumption
  icases H with ⟨%h0, Htr, Ht0⟩
  have e0 : t0 = t := funext fun i => ((h0 i (Finset.mem_inter.mpr ⟨Finset.mem_univ _, Finset.mem_univ _⟩)).1).symm
  subst e0
  ihave H := (persistent_entails_right (pointsTo_agree (ℓ := tLoc d main_v9) (I := Finset.univ) (J := Finset.univ)
    (q₁ := shareDrop fullShare 2) (q₂ := qC 1) (f := t0) (g := t1))) $$ [Htr Ht1]
  · isplitl [Htr] <;> iassumption
  icases H with ⟨%h1, Htr, Ht1⟩
  have e1 : t1 = t0 := funext fun i => ((h1 i (Finset.mem_inter.mpr ⟨Finset.mem_univ _, Finset.mem_univ _⟩)).1).symm
  subst e1
  ihave Hg := (out_join idx d t1) $$ [Ho0 Ho1]
  · iapply (Entails.of_eq (bigSep_univ_two (fun c : Fin 2 => (bigSep Finset.univ fun i : Fin 16 => outTd idx d (coordsV c i) t1 : sProp 𝕄))).symm)
    isplitl [Ho0] <;> iassumption
  icases Hg with ⟨%g, %hg, Hg⟩
  iexists t1, g
  isplitr; · ipureintro; exact ⟨hT1, hg⟩
  isplitl [Htr Ht0 Ht1]
  · iapply (pointsTo_toks_join fullShare 2)
    isplitl [Htr]; · iexact Htr
    iapply (Entails.of_eq (bigSep_univ_two (fun c : Fin 2 => (tLoc d main_v9 ↦{qC c} t1 : sProp 𝕄))).symm)
    isplitl [Ht0] <;> iassumption
  isplitl [Hir Hi0 Hi1]
  · iapply (pointsTo_toks_join fullShare 2)
    isplitl [Hir]; · iexact Hir
    iapply (Entails.of_eq (bigSep_univ_two (fun c : Fin 2 => (tLoc d main_v3 ↦{qC c} idx d : sProp 𝕄))).symm)
    isplitl [Hi0] <;> iassumption
  iexact Hg

end Cert.ScTask

end
-- ==== Proof.Spec.lean ====
/-
  The function both programs compute, stated once, index by index, over the six argument arrays.

  A network of 100000 Boolean nodes is advanced one step for 32 independent batch rows.  Node `n` has eight
  incoming-neighbour slots `adj n k` with a 0/1 validity flag `msk n k`, and a truth table `lut n` of 256 entries.
  In batch row `b` the eight masked neighbour states, most significant first, form an address
  `addr b n = Σ_k state b (adj n k) · msk n k · 2^(7-k)` below 256; the node's next state is `lut n (addr b n)`,
  except that a node none of whose slots is valid keeps its state.  The read-out takes the next states of the
  98976 nodes from 1024 on as reals, multiplies by `W`, adds the bias and applies the logistic function
  `x ↦ 1 / (1 + e^(-x))` on the extended reals.
-/
import Idealize.ShloMosaic.PureOps.Ideal
import Idealize.ShloMosaic.Lib.ValueIdx

noncomputable section

open scoped BigOperators

namespace Cert.Spec

open Idealize.ShloMosaic Idealize.ShloMosaic.ValueIdx

abbrev SSt : Shape := ⟨2, ![32, 100000]⟩
abbrev SAdj : Shape := ⟨2, ![100000, 8]⟩
abbrev SLut : Shape := ⟨2, ![100000, 256]⟩
abbrev SW : Shape := ⟨2, ![98976, 128]⟩
abbrev SBias : Shape := ⟨1, ![128]⟩
abbrev SOut : Shape := ⟨2, ![32, 128]⟩

/-- The ranges of the integer arguments: states, flags and table entries are 0 or 1, a neighbour slot names a node. -/
structure Dom (st : IVec SSt 32) (adj msk : IVec SAdj 32) (lut : IVec SLut 32) : Prop where
  st01 : ∀ i, st i = 0#32 ∨ st i = 1#32
  adj_lt : ∀ i, (adj i).toNat < 100000
  msk01 : ∀ i, msk i = 0#32 ∨ msk i = 1#32
  lut01 : ∀ i, lut i = 0#32 ∨ lut i = 1#32

/-- The node that slot `k` of node `n` names (the remainder only makes the definition total: under `Dom` it is the slot's word). -/
def nbr (adj : IVec SAdj 32) (n : Fin 100000) (k : Fin 8) : Fin 100000 :=
  ⟨(adj (ix2 n k)).toNat % 100000, Nat.mod_lt _ (by decide)⟩

/-- The table address of node `n` in batch row `b`: the masked neighbour states, slot 0 most significant. -/
def addr (st : IVec SSt 32) (adj msk : IVec SAdj 32) (b : Fin 32) (n : Fin 100000) : Nat :=
  ∑ k : Fin 8, (st (ix2 b (nbr adj n k))).toNat * (msk (ix2 n k)).toNat * 2 ^ (7 - k.val)

/-- Node `n`'s next state in batch row `b`. -/
def next (st : IVec SSt 32) (adj msk : IVec SAdj 32) (lut : IVec SLut 32) (b : Fin 32) (n : Fin 100000) : BitVec 32 :=
  if ∀ k : Fin 8, msk (ix2 n k) = 0#32 then st (ix2 b n)
  else lut (ix2 n (⟨addr st adj msk b n % 256, Nat.mod_lt _ (by decide)⟩ : Fin 256))

/-- Read-out node `r` is node `1024 + r` of the network. -/
def res (r : Fin 98976) : Fin 100000 := ⟨1024 + r.val, by have := r.isLt; omega⟩

/-- The result: `logistic (Σ_r next b (1024 + r) · W r o + bias o)`, on the extended reals. -/
def out (st : IVec SSt 32) (adj msk : IVec SAdj 32) (lut : IVec SLut 32) (W : FVec Ideal SW .f32) (bias : FVec Ideal SBias .f32) :
    FVec Ideal SOut .f32 := fun j =>
  Ideal.logistic ((∑ r : Fin 98976, (((next st adj msk lut (j 0) (res r)).toInt : ℝ) : EReal) * W (ix2 r (j 1))) + bias (ix1 (j 1)))

end Cert.Spec

end
-- ==== Proof.Dom.lean ====
/-
  From the printed input predicate to the ranges of the integer arguments.

  The predicate is a conjunction of six `jnp.all`s: the two float arrays are finite, the states, the validity flags
  and the table entries lie between 0 and 1 as signed words, the neighbour slots between 0 and 99999.  Each
  `jnp.all` is a reduction by `and` into one bit, and that bit being 1 says that every element passed its two
  comparisons; a signed word between 0 and 1 is the word 0 or the word 1, and one between 0 and 99999 has an
  unsigned value below 100000.  Nothing here depends on what a float is.
-/
import proofs.«203813_g3255585210786_cont_8to1_b_763_8_alg».proof.Pre_input_domain
import proofs.«203813_g3255585210786_cont_8to1_b_763_8_alg».proof.Proof.Spec
import Idealize.ShloMosaic.Lib.ReduceAll

namespace Cert.RefSide

open Idealize.ShloMosaic Idealize.ShloMosaic.ValueIdx

/-- The shape with no axis has one index. -/
instance : Subsingleton Cert.Pre_input_domain.S_.Idx := ⟨fun a b => funext fun d => d.elim0⟩

/-- A word whose signed value lies between those of 0 and 1 is 0 or 1. -/
theorem word01_of_signed {x : BitVec 32} (h0 : (0#32).toInt ≤ x.toInt) (h1 : x.toInt ≤ (1#32).toInt) :
    x = 0#32 ∨ x = 1#32 := by
  have e0 : (0#32).toInt = 0 := by decide
  have e1 : (1#32).toInt = 1 := by decide
  rw [e0] at h0; rw [e1] at h1
  have hx : x.toInt = 0 ∨ x.toInt = 1 := by omega
  rcases hx with hx | hx
  · exact Or.inl (BitVec.eq_of_toInt_eq (by rw [hx, e0]))
  · exact Or.inr (BitVec.eq_of_toInt_eq (by rw [hx, e1]))

/-- A word whose signed value lies between those of 0 and 99999 has an unsigned value below 100000. -/
theorem lt_of_signed {x : BitVec 32} (h0 : (0#32).toInt ≤ x.toInt) (h1 : x.toInt ≤ (99999#32).toInt) :
    x.toNat < 100000 := by
  have e0 : (0#32).toInt = 0 := by decide
  have e1 : (99999#32).toInt = 99999 := by decide
  rw [e0] at h0; rw [e1] at h1
  have hc := BitVec.toInt_eq_toNat_cond x
  have hl := x.isLt
  split at hc <;> omega

/-- The input predicate gives the ranges. -/
theorem dom_of_fn {F : FTy → Type} [FloatOps F] [Cert.Pre_input_domain.Facts]
    (a0 : IVec Cert.Pre_input_domain.S32x100000 32) (a1 a2 : IVec Cert.Pre_input_domain.S100000x8 32)
    (a3 : IVec Cert.Pre_input_domain.S100000x256 32) (a4 : FVec F Cert.Pre_input_domain.S98976x128 .f32)
    (a5 : FVec F Cert.Pre_input_domain.S128 .f32)
    (h : Cert.Pre_input_domain.fn (F := F) a0 a1 a2 a3 a4 a5 = fun _ => 1#1) : Cert.Spec.Dom a0 a1 a2 a3 := by
  have h0 := congrFun h ValueIdx.ix0
  dsimp only [Cert.Pre_input_domain.fn, Cert.Pre_input_domain.fn_part1, Cert.Pre_input_domain.fn_part2] at h0
  simp only [andi, IntOp.andi_eq_one] at h0
  obtain ⟨⟨⟨⟨⟨-, -⟩, hst⟩, hadj⟩, hmsk⟩, hlut⟩ := h0
  refine ⟨fun i => ?_, fun i => ?_, fun i => ?_, fun i => ?_⟩
  · have hi := Host.reduce_andi_all _ _ _ _ _ hst i
    simp only [andi, cmpi, IntOp.andi_eq_one, IntOp.cmpi_sge, IntOp.cmpi_sle, broadcastInDim, constantI] at hi
    exact word01_of_signed hi.1 hi.2
  · have hi := Host.reduce_andi_all _ _ _ _ _ hadj i
    simp only [andi, cmpi, IntOp.andi_eq_one, IntOp.cmpi_sge, IntOp.cmpi_sle, broadcastInDim, constantI] at hi
    exact lt_of_signed hi.1 hi.2
  · have hi := Host.reduce_andi_all _ _ _ _ _ hmsk i
    simp only [andi, cmpi, IntOp.andi_eq_one, IntOp.cmpi_sge, IntOp.cmpi_sle, broadcastInDim, constantI] at hi
    exact word01_of_signed hi.1 hi.2
  · have hi := Host.reduce_andi_all _ _ _ _ _ hlut i
    simp only [andi, cmpi, IntOp.andi_eq_one, IntOp.cmpi_sge, IntOp.cmpi_sle, broadcastInDim, constantI] at hi
    exact word01_of_signed hi.1 hi.2

end Cert.RefSide
-- ==== Proof.HMain.lean ====
/-
  @main on the TensorCore, inside the SparseCore program: host operations, the first pipelined call, a host
  operation, the SparseCore call, host operations, the second pipelined call.

  Between any two of these the TensorCore holds every unscoped buffer at a known valuation and its part of the
  handshake state.  The contents are a fold of the host operations over the launch memory, overwritten at three
  places by what the three calls leave — each only characterised (some contents the first call's write-backs may
  leave in the packed words; some table and gathered list the SparseCores hand back; some contents the last
  write-back may leave in the result), so the final assertion quantifies them.
-/
import proofs.«203813_g3255585210786_cont_8to1_b_763_8_alg».proof.Proof.HostSegs
import proofs.«203813_g3255585210786_cont_8to1_b_763_8_alg».proof.Proof.Steps
import proofs.«203813_g3255585210786_cont_8to1_b_763_8_alg».proof.Proof.Reg0
import proofs.«203813_g3255585210786_cont_8to1_b_763_8_alg».proof.Proof.LaunchElem
import proofs.«203813_g3255585210786_cont_8to1_b_763_8_alg».proof.Proof.Final
import proofs.«203813_g3255585210786_cont_8to1_b_763_8_alg».proof.Proof.HostIdx
import proofs.«203813_g3255585210786_cont_8to1_b_763_8_alg».proof.Proof.ScTask.Call
import proofs.«203813_g3255585210786_cont_8to1_b_763_8_alg».proof.Proof.Dom

noncomputable section

namespace Cert.KI

open Cert.KernelIdeal Cert.KernelIdeal.Gen
open Idealize.ShloMosaic Idealize.ShloMosaic.StableHlo
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-! ## The SparseCore call as one step -/

/-- A TensorCore buffer's location on device `d`. -/
abbrev tLoc (d : Dev nD) (b : Ref sig .tc) : Loc nD τ sig := (SparseCore.T d).loc b

/-- A valuation overwritten at the packed words, at the flat table, at the gathered list. -/
abbrev set8 (v : main_v8.ty.Contents (Elt F)) (W : Valuation τ sig (Elt F)) : Valuation τ sig (Elt F) :=
  (StableHlo.nullary main_v8 v : HloOp τ sig (Elt F)).result W
abbrev set9 (v : main_v9.ty.Contents (Elt F)) (W : Valuation τ sig (Elt F)) : Valuation τ sig (Elt F) :=
  (StableHlo.nullary main_v9 v : HloOp τ sig (Elt F)).result W
abbrev set10 (v : main_v10.ty.Contents (Elt F)) (W : Valuation τ sig (Elt F)) : Valuation τ sig (Elt F) :=
  (StableHlo.nullary main_v10 v : HloOp τ sig (Elt F)).result W

/-- The call's three arrays. -/
abbrev scRefs : Finset (DevRef τ sig) := {Proc.devRef .tc main_v9, Proc.devRef .tc main_v3, Proc.devRef .tc main_v10}

theorem scRefs_sub : (scRefs : Finset (DevRef τ sig)) ⊆ Pipeline.ucRefs τ sig := by decide

omit [FloatOps F] in
/-- Those three held at a valuation are the three buffers at its values. -/
theorem held_sc (d : Dev nD) (W : Valuation τ sig (Elt F)) :
    (held (T d) scRefs W : sProp 𝕄)
      = iprop((tLoc d main_v9 ↦{fullShare} W (Proc.devRef .tc main_v9)) ∗ (tLoc d main_v3 ↦{fullShare} W (Proc.devRef .tc main_v3))
          ∗ (tLoc d main_v10 ↦{fullShare} W (Proc.devRef .tc main_v10))) := by
  unfold held scRefs
  rw [SparseCore.bigSep_insert' (by decide), SparseCore.bigSep_insert' (by decide), bigSep_singleton]

set_option backward.isDefEq.respectTransparency.types false in
/-- The call, from every unscoped buffer at `W` whose table satisfies `TabOK` and whose index list is `idxv d`. -/
theorem runStep [∀ e, Nonempty (Elt F e)] (P : (K (F := F)).Pay (nD := nD) (Val := Elt F) (Name := ℕ) (U := UU))
    (TabOK : (d : Dev nD) → main_v9.ty.Contents (Elt F) → Prop) (idxv : (d : Dev nD) → main_v3.ty.Contents (Elt F))
    (Gath : (d : Dev nD) → main_v9.ty.Contents (Elt F) → main_v10.ty.Contents (Elt F) → Prop) (Keep : Dev nD → sProp 𝕄)
    (hst : ∀ (d : Dev nD) (tab : main_v9.ty.Contents (Elt F)) (out0 : main_v10.ty.Contents (Elt F)), TabOK d tab →
      iprop((tLoc d main_v9 ↦{fullShare} tab) ∗ (tLoc d main_v3 ↦{fullShare} idxv d) ∗ (tLoc d main_v10 ↦{fullShare} out0))
        ⊢ iprop(Keep d ∗ bigSep Finset.univ fun c : Fin ((K (F := F)).nCore 0) => P.st 0 d c))
    (hdn : ∀ d : Dev nD, iprop(Keep d ∗ bigSep Finset.univ fun c : Fin ((K (F := F)).nCore 0) => P.dn 0 d c)
        ⊢ iprop(∃ (tab : main_v9.ty.Contents (Elt F)) (g : main_v10.ty.Contents (Elt F)), ⌜TabOK d tab ∧ Gath d tab g⌝
            ∗ (tLoc d main_v9 ↦{fullShare} tab) ∗ (tLoc d main_v3 ↦{fullShare} idxv d) ∗ (tLoc d main_v10 ↦{fullShare} g)))
    (κ : GSem nD τ sig → ℕ) (d : Dev nD) {α : Type}
    (k : PUnit → Prog (TpuEff nD τ sig (Elt F) (SparseCore.Sig (ΛP (F := F)) 1) .tc) α) (Q : α → sProp 𝕄)
    (W : Valuation τ sig (Elt F)) (htab : TabOK d (W (Proc.devRef .tc main_v9))) (hidx : W (Proc.devRef .tc main_v3) = idxv d) :
    iprop((K (F := F)).ctx EH P κ (K (F := F)).lev ∗ (K (F := F)).tcSt EH d 0 ∗ held (T d) (Pipeline.ucRefs τ sig) W)
      ⊢ iprop((iprop((K (F := F)).tcSt EH d 1 ∗ ∃ (tab : main_v9.ty.Contents (Elt F)) (g : main_v10.ty.Contents (Elt F)),
              ⌜TabOK d tab ∧ Gath d tab g⌝ ∗ held (T d) (Pipeline.ucRefs τ sig) (set10 g (set9 tab W)))
            -∗ wp frame (wpE ((K (F := F)).defs (D (F := F))) 𝒱 (T d) none) Set.univ (k ⟨⟩) Q)
          -∗ wp frame (wpE ((K (F := F)).defs (D (F := F))) 𝒱 (T d) none) Set.univ ((K (F := F)).run d 0 >>= k) Q) := by
  rw [wp_bind, held_sub_split (T d) scRefs_sub W, held_sc, hidx]
  iintro ⟨#Hctx, Hst, ⟨H9, H3, H10⟩, Hrest⟩ Hk
  ihave Hs := (hst d _ _ htab) $$ [H9 H3 H10]
  · isplitl [H9]; · iexact H9
    isplitl [H3]; · iexact H3
    iexact H10
  icases Hs with ⟨HK, Hsts⟩
  iapply ((K (F := F)).wp_run (D (F := F)) 𝒱 (EH := EH) (P := P) κ d 0) $$ [Hst Hsts HK Hrest Hk]
  isplitr; · iexact Hctx
  isplitl [Hst]; · iexact Hst
  isplitl [Hsts]; · iexact Hsts
  iintro ⟨Hst1, Hdn⟩
  ihave Hd := (hdn d) $$ [HK Hdn]
  · isplitl [HK]; · iexact HK
    iexact Hdn
  icases Hd with ⟨%tab, %g, %hf, H9, H3, H10⟩
  iapply Hk
  isplitl [Hst1]; · iexact Hst1
  iexists tab, g
  isplitr; · ipureintro; exact hf
  rw [held_sub_split (T d) scRefs_sub (set10 g (set9 tab W)), held_sc]
  have e9 : set10 g (set9 tab W) (Proc.devRef .tc main_v9) = tab :=
    (nullary_result_ne (τ := τ) (y := main_v10) g _ (set9 tab W) (r := main_v9) (by decide)).trans (nullary_result main_v9 tab _ W)
  have e3 : set10 g (set9 tab W) (Proc.devRef .tc main_v3) = idxv d :=
    ((nullary_result_ne (τ := τ) (y := main_v10) g _ (set9 tab W) (r := main_v3) (by decide)).trans
      (nullary_result_ne (τ := τ) (y := main_v9) tab _ W (r := main_v3) (by decide))).trans hidx
  have e10 : set10 g (set9 tab W) (Proc.devRef .tc main_v10) = g := nullary_result main_v10 g _ _
  have erest : (held (T d) (Pipeline.ucRefs τ sig \ scRefs) (set10 g (set9 tab W)) : sProp 𝕄)
      = held (T d) (Pipeline.ucRefs τ sig \ scRefs) W := by
    refine held_congr (T d) fun b hb => ?_
    have hb' := (Finset.mem_sdiff.mp hb).2
    unfold set10 set9
    rw [HloOp.result_of_not_mem _ _ (by rw [nullary_writes, Finset.mem_singleton]; rintro rfl; exact hb' (by decide)),
      HloOp.result_of_not_mem _ _ (by rw [nullary_writes, Finset.mem_singleton]; rintro rfl; exact hb' (by decide))]
  rw [e9, e3, e10, erest]
  isplitl [H9 H3 H10]
  · isplitl [H9]; · iexact H9
    isplitl [H3]; · iexact H3
    iexact H10
  iexact Hrest

/-! ## The handshake state: the debt term and the rest -/

/-- What the handshake state before call `n` holds besides the TensorCore's debt term. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : (K (F := F)).tcSt EH d n = iprop(owesTc (F := F) d n ∗ tcRest (F := F) d n) := rfl

/-! ## The valuations -/

variable (m : (ℓ : Loc nD τ sig) → Buf (Elt F) ℓ) (g : Dev nD → PrngReg)

/-- Device `d`'s buffers at launch. -/
abbrev W0 (d : Dev nD) : Valuation τ sig (Elt F) := fun b => m (d, b)

/-- A valuation read at the TensorCore's references, on every device. -/
abbrev valsOf (W : Valuation τ sig (Elt F)) : Vals F := fun _ b => W b

/-- The buffers when the first call is entered, -/
abbrev V1 (d : Dev nD) : Valuation τ sig (Elt F) := WA (F := F) (W0 m d)
/-- when the SparseCore call is reached, the first call having left `f8` in the packed words, -/
abbrev V3 (d : Dev nD) (f8 : main_v8.ty.Contents (Elt F)) : Valuation τ sig (Elt F) := WB (F := F) (set8 f8 (V1 m d))
/-- and when the second call is entered, the SparseCores having handed back `tab` and `gth`. -/
abbrev V5 (d : Dev nD) (f8 : main_v8.ty.Contents (Elt F)) (tab : main_v9.ty.Contents (Elt F)) (gth : main_v10.ty.Contents (Elt F)) :
    Valuation τ sig (Elt F) :=
  WC (F := F) (set10 gth (set9 tab (V3 m d f8)))

/-- What is known of the three witnesses. -/
def Chain (TabOK : (d : Dev nD) → main_v9.ty.Contents (Elt F) → Prop)
    (Gath : (d : Dev nD) → main_v9.ty.Contents (Elt F) → main_v10.ty.Contents (Elt F) → Prop)
    (d : Dev nD) (f8 : main_v8.ty.Contents (Elt F)) (tab : main_v9.ty.Contents (Elt F)) (gth : main_v10.ty.Contents (Elt F)) : Prop :=
  (rdats (rd0 (valsOf (V1 m d))) (valsOf (V1 m d)) 0 d).ArrAt 1 cfg0.N f8 ∧ TabOK d tab ∧ Gath d tab gth

/-- What @main ends holding on device `d`: the second call's arrays at contents its write-backs may leave, every other
    unscoped buffer as that call found it. -/
def FINd (TabOK : (d : Dev nD) → main_v9.ty.Contents (Elt F) → Prop)
    (Gath : (d : Dev nD) → main_v9.ty.Contents (Elt F) → main_v10.ty.Contents (Elt F) → Prop) (d : Dev nD) : sProp 𝕄 :=
  iprop(∃ (f8 : main_v8.ty.Contents (Elt F)) (tab : main_v9.ty.Contents (Elt F)) (gth : main_v10.ty.Contents (Elt F)),
    ⌜Chain m TabOK Gath d f8 tab gth⌝
      ∗ (rdats (rd0 (valsOf (V1 m d))) (valsOf (V5 m d f8 tab gth)) 1 d).arraysAt cfg2.N
      ∗ Pipeline.unscopedRest spec2 d (valsOf (V5 m d f8 tab gth) d))

/-! ## The two region records' thread states, and the program's tail -/

theorem reg0_pre (W0v W1v : Vals F) (d : Dev nD) : (reg0 (F := F) W0v W1v).pre d = iprop(unscopedBufs d (W0v d) ∗ owesTc (F := F) d 0) := rfl
theorem reg1_pre (rdz : (c : Dev nD) → RDat τ (Elt F) (HIx 1) ℕ UU ℕ cfg0 c) (W1v : Vals F) (d : Dev nD) :
    (reg1 (F := F) rdz W1v).pre d = iprop(unscopedBufs d (W1v d) ∗ owesTc (F := F) d 1) := rfl

/-- The last statement of @main after its last call. -/
theorem wp_tail [∀ e, Nonempty (Elt F e)] (d : Dev nD) (Q : PUnit → sProp 𝕄) :
    Q ⟨⟩ ⊢ wp frame (wpE ((K (F := F)).defs (D (F := F))) 𝒱 (T d) none) Set.univ
      ((Prog.ret PUnit.unit : Prog (TpuEff nD τ sig (Elt F) (SparseCore.Sig (ΛP (F := F)) 1) .tc) PUnit).bind fun _ => Pure.pure PUnit.unit) Q := by
  show Q ⟨⟩ ⊢ wp frame _ Set.univ (Prog.ret PUnit.unit) Q
  rw [wp_ret]
  iintro H
  imodintro
  iexact H

/-! ## @main -/

set_option backward.isDefEq.respectTransparency.types false in
set_option maxHeartbeats 1600000 in
theorem hmain [∀ e, Nonempty (Elt F e)] (P : (K (F := F)).Pay (nD := nD) (Val := Elt F) (Name := ℕ) (U := UU))
    (TabOK : (d : Dev nD) → main_v9.ty.Contents (Elt F) → Prop) (idxv : (d : Dev nD) → main_v3.ty.Contents (Elt F))
    (Gath : (d : Dev nD) → main_v9.ty.Contents (Elt F) → main_v10.ty.Contents (Elt F) → Prop) (Keep : Dev nD → sProp 𝕄)
    (hst : ∀ (d : Dev nD) (tab : main_v9.ty.Contents (Elt F)) (out0 : main_v10.ty.Contents (Elt F)), TabOK d tab →
      iprop((tLoc d main_v9 ↦{fullShare} tab) ∗ (tLoc d main_v3 ↦{fullShare} idxv d) ∗ (tLoc d main_v10 ↦{fullShare} out0))
        ⊢ iprop(Keep d ∗ bigSep Finset.univ fun c : Fin ((K (F := F)).nCore 0) => P.st 0 d c))
    (hdn : ∀ d : Dev nD, iprop(Keep d ∗ bigSep Finset.univ fun c : Fin ((K (F := F)).nCore 0) => P.dn 0 d c)
        ⊢ iprop(∃ (tab : main_v9.ty.Contents (Elt F)) (gth : main_v10.ty.Contents (Elt F)), ⌜TabOK d tab ∧ Gath d tab gth⌝
            ∗ (tLoc d main_v9 ↦{fullShare} tab) ∗ (tLoc d main_v3 ↦{fullShare} idxv d) ∗ (tLoc d main_v10 ↦{fullShare} gth)))
    (htab : ∀ (d : Dev nD) (f8 : main_v8.ty.Contents (Elt F)),
      (rdats (rd0 (valsOf (V1 m d))) (valsOf (V1 m d)) 0 d).ArrAt 1 cfg0.N f8 → TabOK d (V3 m d f8 (Proc.devRef .tc main_v9)))
    (hidx : ∀ (d : Dev nD) (f8 : main_v8.ty.Contents (Elt F)), V3 m d f8 (Proc.devRef .tc main_v3) = idxv d)
    (κ : GSem nD τ sig → ℕ) (d : Dev nD) :
    iprop((K (F := F)).ctx EH P κ (K (F := F)).lev ∗ (K (F := F)).tcSt EH d 0 ∗ (K (F := F)).tcRes m g d ∗ G (F := F) d)
      ⊢ wp frame (wpE ((K (F := F)).defs (D (F := F))) 𝒱 (T d) none) Set.univ (main d)
          fun _ => iprop((K (F := F)).tcSt EH d 1 ∗ FINd m TabOK Gath d) := by
  rw [main_eq, tcSt_eq, tcSt_eq]
  unfold SparseCore.Cfg.tcRes G
  iintro ⟨#Hctx, ⟨HO, Hrest⟩, ⟨Hb, Hu, -, -⟩, HG⟩
  ihave #Hlev := ((K (F := F)).ctx_levAts κ) $$ Hctx
  ihave Hh := (Entails.of_eq (Pipeline.unscopedBufs_held (Ix := HIx 1) (Name := ℕ) (U := UU) (Lvl := ℕ) (Val := Elt F) d (W0 m d))) $$ Hu
  -- the host operations before the first call
  iapply (hostA d none _ _ (W0 m d)) $$ [Hb Hh]
  · isplitl [Hb] <;> iassumption
  iintro ⟨Hb, Hh⟩
  -- the first call
  ihave Hu := (Entails.of_eq (Pipeline.unscopedBufs_held (Ix := HIx 1) (Name := ℕ) (U := UU) (Lvl := ℕ) (Val := Elt F) d (V1 m d)).symm) $$ Hh
  iapply (regionStep (rdats (rd0 (valsOf (V1 m d))) (valsOf (V1 m d))) (reg0 (valsOf (V1 m d)) (valsOf (V1 m d))) Finset.univ (Finset.mem_univ _) d _ _)
    $$ [Hb Hu HO HG]
  · isplitr; · iexact Hlev
    isplitl [Hb]; · iexact Hb
    isplitl [Hu HO]
    · rw [reg0_pre]
      isplitl [Hu] <;> iassumption
    iexact HG
  iintro ⟨Hb, Hpost, HG⟩
  ihave Hpost := (show (reg0 (F := F) (valsOf (V1 m d)) (valsOf (V1 m d))).post d ⊢ iprop(∃ f8 : Buf (Elt F) ((d : Thread nD τ).loc main_v8),
      ⌜(rdats (rd0 (valsOf (V1 m d))) (valsOf (V1 m d)) 0 d).ArrAt 1 cfg0.N f8⌝ ∗ unscopedBufs d (setV8 d (valsOf (V1 m d) d) f8) ∗ owesTc (F := F) d 0)
      from .rfl) $$ Hpost
  icases Hpost with ⟨%f8, %hf8, Hu, HO⟩
  have e8 : setV8 d (valsOf (V1 m d) d) f8 = fun b : Ref sig .tc => set8 f8 (V1 m d) b := by
    funext b
    by_cases hb : b = main_v8
    · subst hb; rw [setV8_v8]; exact (nullary_result _ _ _ _).symm
    · rw [setV8_ne _ _ _ hb]; exact (nullary_result_ne (τ := τ) (y := main_v8) f8 _ (V1 m d) (r := b) hb).symm
  rw [e8]
  ihave Hh := (Entails.of_eq (Pipeline.unscopedBufs_held (Ix := HIx 1) (Name := ℕ) (U := UU) (Lvl := ℕ) (Val := Elt F) d (set8 f8 (V1 m d)))) $$ Hu
  -- the host operation between the first call and the SparseCore call
  iapply (hostB d none _ _ (set8 f8 (V1 m d))) $$ [Hb Hh]
  · isplitl [Hb] <;> iassumption
  iintro ⟨Hb, Hh⟩
  -- the SparseCore call
  ihave Hst := (Entails.of_eq (tcSt_eq (F := F) d 0).symm) $$ [HO Hrest]
  · isplitl [HO] <;> iassumption
  iapply (runStep P TabOK idxv Gath Keep hst hdn κ d _ _ (V3 m d f8) (htab d f8 hf8) (hidx d f8)) $$ [Hst Hh]
  · isplitr; · iexact Hctx
    isplitl [Hst] <;> iassumption
  iintro ⟨Hst, %tab, %gth, %hfacts, Hh⟩
  ihave Hst := (Entails.of_eq (tcSt_eq (F := F) d 1)) $$ Hst
  icases Hst with ⟨HO, Hrest⟩
  -- the host operations after it
  iapply (hostC d none _ _ (set10 gth (set9 tab (V3 m d f8)))) $$ [Hb Hh]
  · isplitl [Hb] <;> iassumption
  iintro ⟨Hb, Hh⟩
  -- the second call
  ihave Hu := (Entails.of_eq (Pipeline.unscopedBufs_held (Ix := HIx 1) (Name := ℕ) (U := UU) (Lvl := ℕ) (Val := Elt F) d (V5 m d f8 tab gth)).symm) $$ Hh
  iapply (regionStep (rdats (rd0 (valsOf (V1 m d))) (valsOf (V5 m d f8 tab gth))) (reg1 (rd0 (valsOf (V1 m d))) (valsOf (V5 m d f8 tab gth)))
      (Finset.univ.erase 0) (by decide) d _ _) $$ [Hb Hu HO HG]
  · isplitr; · iexact Hlev
    isplitl [Hb]; · iexact Hb
    isplitl [Hu HO]
    · rw [reg1_pre]
      isplitl [Hu] <;> iassumption
    iexact HG
  iintro ⟨-, Hpost, -⟩
  ihave Hpost := (show (reg1 (F := F) (rd0 (valsOf (V1 m d))) (valsOf (V5 m d f8 tab gth))).post d
      ⊢ iprop((rdats (rd0 (valsOf (V1 m d))) (valsOf (V5 m d f8 tab gth)) 1 d).arraysAt cfg2.N
          ∗ Pipeline.unscopedRest spec2 d (valsOf (V5 m d f8 tab gth) d) ∗ owesTc (F := F) d 1) from .rfl) $$ Hpost
  icases Hpost with ⟨Ha, Hr, HO⟩
  iapply (wp_tail d _)
  isplitl [HO Hrest]
  · isplitl [HO] <;> iassumption
  unfold FINd
  iexists f8, tab, gth
  isplitr; · ipureintro; exact ⟨hf8, hfacts.1, hfacts.2⟩
  isplitl [Ha] <;> iassumption

/-! ## No step writes an argument array -/

theorem V5_main_arg0 (d : Dev nD) (f8 : main_v8.ty.Contents (Elt F)) (tab : main_v9.ty.Contents (Elt F)) (gth : main_v10.ty.Contents (Elt F)) :
    V5 m d f8 tab gth (Proc.devRef .tc main_arg0) = m (d, Proc.devRef .tc main_arg0) :=
  calc V5 m d f8 tab gth (Proc.devRef .tc main_arg0)
    _ = set10 gth (set9 tab (V3 m d f8)) (Proc.devRef .tc main_arg0) :=
        StableHlo.after_of_forall_not_mem (b := Proc.devRef .tc main_arg0) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg0) := nullary_result_ne (τ := τ) (y := main_v10) gth _ _ (r := main_arg0) (by decide)
    _ = V3 m d f8 (Proc.devRef .tc main_arg0) := nullary_result_ne (τ := τ) (y := main_v9) tab _ _ (r := main_arg0) (by decide)
    _ = set8 f8 (V1 m d) (Proc.devRef .tc main_arg0) :=
        StableHlo.after_of_forall_not_mem (b := Proc.devRef .tc main_arg0) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg0) := nullary_result_ne (τ := τ) (y := main_v8) f8 _ _ (r := main_arg0) (by decide)
    _ = W0 m d (Proc.devRef .tc main_arg0) :=
        StableHlo.after_of_forall_not_mem (b := Proc.devRef .tc main_arg0) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg0) := rfl

theorem V5_main_arg1 (d : Dev nD) (f8 : main_v8.ty.Contents (Elt F)) (tab : main_v9.ty.Contents (Elt F)) (gth : main_v10.ty.Contents (Elt F)) :
    V5 m d f8 tab gth (Proc.devRef .tc main_arg1) = m (d, Proc.devRef .tc main_arg1) :=
  calc V5 m d f8 tab gth (Proc.devRef .tc main_arg1)
    _ = set10 gth (set9 tab (V3 m d f8)) (Proc.devRef .tc main_arg1) :=
        StableHlo.after_of_forall_not_mem (b := Proc.devRef .tc main_arg1) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg1) := nullary_result_ne (τ := τ) (y := main_v10) gth _ _ (r := main_arg1) (by decide)
    _ = V3 m d f8 (Proc.devRef .tc main_arg1) := nullary_result_ne (τ := τ) (y := main_v9) tab _ _ (r := main_arg1) (by decide)
    _ = set8 f8 (V1 m d) (Proc.devRef .tc main_arg1) :=
        StableHlo.after_of_forall_not_mem (b := Proc.devRef .tc main_arg1) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg1) := nullary_result_ne (τ := τ) (y := main_v8) f8 _ _ (r := main_arg1) (by decide)
    _ = W0 m d (Proc.devRef .tc main_arg1) :=
        StableHlo.after_of_forall_not_mem (b := Proc.devRef .tc main_arg1) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg1) := rfl

theorem V5_main_arg2 (d : Dev nD) (f8 : main_v8.ty.Contents (Elt F)) (tab : main_v9.ty.Contents (Elt F)) (gth : main_v10.ty.Contents (Elt F)) :
    V5 m d f8 tab gth (Proc.devRef .tc main_arg2) = m (d, Proc.devRef .tc main_arg2) :=
  calc V5 m d f8 tab gth (Proc.devRef .tc main_arg2)
    _ = set10 gth (set9 tab (V3 m d f8)) (Proc.devRef .tc main_arg2) :=
        StableHlo.after_of_forall_not_mem (b := Proc.devRef .tc main_arg2) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg2) := nullary_result_ne (τ := τ) (y := main_v10) gth _ _ (r := main_arg2) (by decide)
    _ = V3 m d f8 (Proc.devRef .tc main_arg2) := nullary_result_ne (τ := τ) (y := main_v9) tab _ _ (r := main_arg2) (by decide)
    _ = set8 f8 (V1 m d) (Proc.devRef .tc main_arg2) :=
        StableHlo.after_of_forall_not_mem (b := Proc.devRef .tc main_arg2) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg2) := nullary_result_ne (τ := τ) (y := main_v8) f8 _ _ (r := main_arg2) (by decide)
    _ = W0 m d (Proc.devRef .tc main_arg2) :=
        StableHlo.after_of_forall_not_mem (b := Proc.devRef .tc main_arg2) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg2) := rfl

theorem V5_main_arg3 (d : Dev nD) (f8 : main_v8.ty.Contents (Elt F)) (tab : main_v9.ty.Contents (Elt F)) (gth : main_v10.ty.Contents (Elt F)) :
    V5 m d f8 tab gth (Proc.devRef .tc main_arg3) = m (d, Proc.devRef .tc main_arg3) :=
  calc V5 m d f8 tab gth (Proc.devRef .tc main_arg3)
    _ = set10 gth (set9 tab (V3 m d f8)) (Proc.devRef .tc main_arg3) :=
        StableHlo.after_of_forall_not_mem (b := Proc.devRef .tc main_arg3) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg3) := nullary_result_ne (τ := τ) (y := main_v10) gth _ _ (r := main_arg3) (by decide)
    _ = V3 m d f8 (Proc.devRef .tc main_arg3) := nullary_result_ne (τ := τ) (y := main_v9) tab _ _ (r := main_arg3) (by decide)
    _ = set8 f8 (V1 m d) (Proc.devRef .tc main_arg3) :=
        StableHlo.after_of_forall_not_mem (b := Proc.devRef .tc main_arg3) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg3) := nullary_result_ne (τ := τ) (y := main_v8) f8 _ _ (r := main_arg3) (by decide)
    _ = W0 m d (Proc.devRef .tc main_arg3) :=
        StableHlo.after_of_forall_not_mem (b := Proc.devRef .tc main_arg3) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg3) := rfl

theorem V5_main_arg4 (d : Dev nD) (f8 : main_v8.ty.Contents (Elt F)) (tab : main_v9.ty.Contents (Elt F)) (gth : main_v10.ty.Contents (Elt F)) :
    V5 m d f8 tab gth (Proc.devRef .tc main_arg4) = m (d, Proc.devRef .tc main_arg4) :=
  calc V5 m d f8 tab gth (Proc.devRef .tc main_arg4)
    _ = set10 gth (set9 tab (V3 m d f8)) (Proc.devRef .tc main_arg4) :=
        StableHlo.after_of_forall_not_mem (b := Proc.devRef .tc main_arg4) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg4) := nullary_result_ne (τ := τ) (y := main_v10) gth _ _ (r := main_arg4) (by decide)
    _ = V3 m d f8 (Proc.devRef .tc main_arg4) := nullary_result_ne (τ := τ) (y := main_v9) tab _ _ (r := main_arg4) (by decide)
    _ = set8 f8 (V1 m d) (Proc.devRef .tc main_arg4) :=
        StableHlo.after_of_forall_not_mem (b := Proc.devRef .tc main_arg4) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg4) := nullary_result_ne (τ := τ) (y := main_v8) f8 _ _ (r := main_arg4) (by decide)
    _ = W0 m d (Proc.devRef .tc main_arg4) :=
        StableHlo.after_of_forall_not_mem (b := Proc.devRef .tc main_arg4) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg4) := rfl

theorem V5_main_arg5 (d : Dev nD) (f8 : main_v8.ty.Contents (Elt F)) (tab : main_v9.ty.Contents (Elt F)) (gth : main_v10.ty.Contents (Elt F)) :
    V5 m d f8 tab gth (Proc.devRef .tc main_arg5) = m (d, Proc.devRef .tc main_arg5) :=
  calc V5 m d f8 tab gth (Proc.devRef .tc main_arg5)
    _ = set10 gth (set9 tab (V3 m d f8)) (Proc.devRef .tc main_arg5) :=
        StableHlo.after_of_forall_not_mem (b := Proc.devRef .tc main_arg5) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg5) := nullary_result_ne (τ := τ) (y := main_v10) gth _ _ (r := main_arg5) (by decide)
    _ = V3 m d f8 (Proc.devRef .tc main_arg5) := nullary_result_ne (τ := τ) (y := main_v9) tab _ _ (r := main_arg5) (by decide)
    _ = set8 f8 (V1 m d) (Proc.devRef .tc main_arg5) :=
        StableHlo.after_of_forall_not_mem (b := Proc.devRef .tc main_arg5) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg5) := nullary_result_ne (τ := τ) (y := main_v8) f8 _ _ (r := main_arg5) (by decide)
    _ = W0 m d (Proc.devRef .tc main_arg5) :=
        StableHlo.after_of_forall_not_mem (b := Proc.devRef .tc main_arg5) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg5) := rfl

/-! ## The final memory -/

variable (TabOK : (d : Dev nD) → main_v9.ty.Contents (Elt F) → Prop)
  (Gath : (d : Dev nD) → main_v9.ty.Contents (Elt F) → main_v10.ty.Contents (Elt F) → Prop)

/-- What the final memory is known to hold on device `d`: for some witnesses of the three calls, the second call's
    arrays at contents its write-backs may leave, and four argument arrays outside that call at the last valuation. -/
def fqd (d : Dev nD) (M : MemSt nD τ sig (Elt F)) : Prop :=
  ∃ (f8 : main_v8.ty.Contents (Elt F)) (tab : main_v9.ty.Contents (Elt F)) (gth : main_v10.ty.Contents (Elt F)),
    Chain m TabOK Gath d f8 tab gth
    ∧ (∀ w, (rdats (rd0 (valsOf (V1 m d))) (valsOf (V5 m d f8 tab gth)) 1 d).ArrAt w cfg2.N
          (M.mem (((Pipeline.pin (pcfgs (F := F)) adm 1).spec w).arr.view.loc (d.tc : Thread nD τ))))
    ∧ M.mem (tLoc d main_arg0) = V5 m d f8 tab gth (Proc.devRef .tc main_arg0)
    ∧ M.mem (tLoc d main_arg1) = V5 m d f8 tab gth (Proc.devRef .tc main_arg1)
    ∧ M.mem (tLoc d main_arg2) = V5 m d f8 tab gth (Proc.devRef .tc main_arg2)
    ∧ M.mem (tLoc d main_arg5) = V5 m d f8 tab gth (Proc.devRef .tc main_arg5)

set_option backward.isDefEq.respectTransparency.types false in
theorem hfind [∀ e, Nonempty (Elt F e)] (d : Dev nD) (s' : Phys nD τ sig (Elt F)) :
    iprop(FINd m TabOK Gath d ∗ SI s') ⊢ (⌜fqd m TabOK Gath d s'.mem⌝ : sProp 𝕄) := by
  unfold FINd
  iintro ⟨⟨%f8, %tab, %gth, %hc, Ha, Hr⟩, HSI⟩
  ihave H := (Pipeline.RDat.arrays_read (pcfgs (F := F)) adm (rdats (rd0 (valsOf (V1 m d))) (valsOf (V5 m d f8 tab gth))) (p := 1)
    launch2.arr_whole d cfg2.N s') $$ [Ha HSI]
  · isplitl [Ha] <;> iassumption
  icases H with ⟨%harr, HSI⟩
  ihave Hr := (Entails.of_eq (unscopedRest2_eq (Ix := HIx 1) (Val := Elt F) (Name := ℕ) (U := UU) (Lvl := ℕ) d (valsOf (V5 m d f8 tab gth) d))) $$ Hr
  icases Hr with ⟨H0, H1, H2, H5, -⟩
  ihave H := (agree_keep s' _ _) $$ [HSI H0]
  · isplitl [HSI] <;> iassumption
  icases H with ⟨%h0, HSI⟩
  ihave H := (agree_keep s' _ _) $$ [HSI H1]
  · isplitl [HSI] <;> iassumption
  icases H with ⟨%h1, HSI⟩
  ihave H := (agree_keep s' _ _) $$ [HSI H2]
  · isplitl [HSI] <;> iassumption
  icases H with ⟨%h2, HSI⟩
  ihave H := (agree_keep s' _ _) $$ [HSI H5]
  · isplitl [HSI] <;> iassumption
  icases H with ⟨%h5, -⟩
  ipureintro
  exact ⟨f8, tab, gth, hc, harr, h0, h1, h2, h5⟩

/-- The six argument arrays end as launched. -/
theorem fqd_args (d : Dev nD) (M : MemSt nD τ sig (Elt F)) (h : fqd m TabOK Gath d M) :
    M.mem ((d.tc : Thread nD τ).loc main_arg0) = m ((d.tc : Thread nD τ).loc main_arg0)
    ∧ M.mem ((d.tc : Thread nD τ).loc main_arg1) = m ((d.tc : Thread nD τ).loc main_arg1)
    ∧ M.mem ((d.tc : Thread nD τ).loc main_arg2) = m ((d.tc : Thread nD τ).loc main_arg2)
    ∧ M.mem ((d.tc : Thread nD τ).loc main_arg3) = m ((d.tc : Thread nD τ).loc main_arg3)
    ∧ M.mem ((d.tc : Thread nD τ).loc main_arg4) = m ((d.tc : Thread nD τ).loc main_arg4)
    ∧ M.mem ((d.tc : Thread nD τ).loc main_arg5) = m ((d.tc : Thread nD τ).loc main_arg5) := by
  obtain ⟨f8, tab, gth, -, harr, h0, h1, h2, h5⟩ := h
  have h3 := harr 0
  have h4 := harr 4
  rw [RDat.ArrAt_in _ 0 rfl] at h3
  rw [RDat.ArrAt_in _ 4 rfl] at h4
  exact ⟨h0.trans (V5_main_arg0 m d f8 tab gth), h1.trans (V5_main_arg1 m d f8 tab gth), h2.trans (V5_main_arg2 m d f8 tab gth),
    h3.trans (V5_main_arg3 m d f8 tab gth), h4.trans (V5_main_arg4 m d f8 tab gth), h5.trans (V5_main_arg5 m d f8 tab gth)⟩

/-! ## The run -/

set_option backward.isDefEq.respectTransparency.types false in
/-- Every weakly fair execution of the 35 threads terminates, nothing faulting, and the final memory is as `fqd` says
    on every device — from the task obligation, the split of a SparseCore's operands among its tiles, and the two facts
    about what the SparseCore call takes and hands back. -/
theorem run_main [∀ e, Nonempty (Elt F e)] (P : (K (F := F)).Pay (nD := nD) (Val := Elt F) (Name := ℕ) (U := UU)) [P.IsStorable]
    (hx : ∀ q thr, P.x q thr = iprop(emp)) (hheld : P.held = ∅)
    (htile : (K (F := F)).TileObl (D (F := F)) 𝒱 P v₀ 0) (hvec : (K (F := F)).VecSplit P 0)
    (idxv : (d : Dev nD) → main_v3.ty.Contents (Elt F)) (Keep : Dev nD → sProp 𝕄)
    (hst : ∀ (d : Dev nD) (tab : main_v9.ty.Contents (Elt F)) (out0 : main_v10.ty.Contents (Elt F)), TabOK d tab →
      iprop((tLoc d main_v9 ↦{fullShare} tab) ∗ (tLoc d main_v3 ↦{fullShare} idxv d) ∗ (tLoc d main_v10 ↦{fullShare} out0))
        ⊢ iprop(Keep d ∗ bigSep Finset.univ fun c : Fin ((K (F := F)).nCore 0) => P.st 0 d c))
    (hdn : ∀ d : Dev nD, iprop(Keep d ∗ bigSep Finset.univ fun c : Fin ((K (F := F)).nCore 0) => P.dn 0 d c)
        ⊢ iprop(∃ (tab : main_v9.ty.Contents (Elt F)) (gth : main_v10.ty.Contents (Elt F)), ⌜TabOK d tab ∧ Gath d tab gth⌝
            ∗ (tLoc d main_v9 ↦{fullShare} tab) ∗ (tLoc d main_v3 ↦{fullShare} idxv d) ∗ (tLoc d main_v10 ↦{fullShare} gth)))
    (htab : ∀ (d : Dev nD) (f8 : main_v8.ty.Contents (Elt F)),
      (rdats (rd0 (valsOf (V1 m d))) (valsOf (V1 m d)) 0 d).ArrAt 1 cfg0.N f8 → TabOK d (V3 m d f8 (Proc.devRef .tc main_v9)))
    (hidx : ∀ (d : Dev nD) (f8 : main_v8.ty.Contents (Elt F)), V3 m d f8 (Proc.devRef .tc main_v3) = idxv d) :
    θ_run ((K (F := F)).defs (D (F := F))) ((K (F := F)).threads main) ⟨m, fun _ => 0, g⟩
      (fun r => ∀ d : Dev nD, fqd m TabOK Gath d r.2) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m g main (G (F := F)) (FINd m TabOK Gath) (u₀ (F := F)) (hu₀ P hx)
    (hmain m g P TabOK idxv Gath Keep hst hdn htab hidx)
    (fun d s' => fqd m TabOK Gath d s'.mem) (hfind m TabOK Gath)
    (fun r => ∀ d : Dev nD, fqd m TabOK Gath d r.2) (fun _ h => h) hheld

/-! ## The frame -/

/-- The index list the SparseCores are handed: a function of the launch memory's neighbour slots. -/
abbrev idxv (d : Dev nD) : main_v3.ty.Contents (Elt F) := idxF (m (d, Proc.devRef .tc main_arg1))

/-- It is what the buffer holds when the SparseCore call is reached, whatever the first call left in the packed words. -/
theorem V3_v3 (d : Dev nD) (f8 : main_v8.ty.Contents (Elt F)) : V3 m d f8 (Proc.devRef .tc main_v3) = idxv m d :=
  ((WB_v3 (F := F) (set8 f8 (V1 m d))).trans (nullary_result_ne (τ := τ) (y := main_v8) f8 _ (V1 m d) (r := main_v3) (by decide))).trans
    (WA_v3 (F := F) (W0 m d))

set_option backward.isDefEq.respectTransparency.types false in
/-- The run, from the one fact the tasks' checks need. -/
theorem run_args [∀ e, Nonempty (Elt F e)] (hadj : ∀ (d : Dev nD) (i : S100000x8.Idx), ((m (d, Proc.devRef .tc main_arg1) : IVec S100000x8 32) i).toNat < 100000) :
    θ_run ((K (F := F)).defs (D (F := F))) ((K (F := F)).threads main) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run ((K (F := F)).defs (D (F := F))) _ _).mono
    (fun r h c => fqd_args m (fun _ _ => True) (fun _ _ _ => True) c r.2 (h c))
    (run_main m g (fun _ _ => True) (fun _ _ _ => True) (Cert.ScTask.P (fun _ _ => True) (idxv m)) (fun _ _ => rfl) rfl
      (Cert.ScTask.tileObl (fun _ _ => True) (idxv m) facts (fun d j => idxF_lt _ (hadj d) j))
      (SparseCore.Cfg.VecSplit.of_plain (Cert.ScTask.vecSplit (fun _ _ => True) (idxv m)))
      (idxv m) (Cert.ScTask.Keep (idxv m))
      (fun d tab out0 h => Cert.ScTask.st_intro (fun _ _ => True) (idxv m) d tab out0 h)
      (fun d => (Cert.ScTask.dn_elim (fun _ _ => True) (idxv m) d).trans (by
        iintro ⟨%tab, %gth, %hf, H⟩
        iexists tab, gth
        isplitr; · ipureintro; exact ⟨trivial, trivial⟩
        iexact H))
      (fun _ _ _ => trivial) (V3_v3 m))

end Cert.KI

end
-- ==== Proof.SetupK.lean ====
/-
  The program as the launch theorems see it, and the ghost state every part of the proof is stated over.

  The device runs 35 threads: the TensorCore (its @main: host operations, two pipelined calls, one SparseCore call),
  two sequencers and thirty-two vector subcores.  Three protocols meet in one resource algebra: the four handshake
  semaphores of the SparseCore call (rounds indexed by naturals), the staging cells of the two pipelined calls
  (rounds with one duty each), and the counters of the vector subcores' own local copies, which need no schedule.
-/
import proofs.«203813_g3255585210786_cont_8to1_b_763_8_alg».proof.Defs
import Idealize.ShloMosaic.Lib.SparseCore.Launch
import Idealize.ShloMosaic.Lib.SparseCore.Ops
import Idealize.ShloMosaic.Lib.StableHlo.Run
import Idealize.ShloMosaic.Lib.Pipeline.Regions
import Idealize.ShloMosaic.Lib.Transfers
import Idealize.ShloMosaic.Lib.Tactic
import proofs.«203813_g3255585210786_cont_8to1_b_763_8_alg».proof.Proof.Gen.Kernel
import proofs.«203813_g3255585210786_cont_8to1_b_763_8_alg».proof.Proof.Gen.Kernel.Launch

noncomputable section

namespace Cert.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are pairwise apart and unscoped, no buffer of a SparseCore's own is reassigned per task, and
    the one call has a single body. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Neither pipelined call has prefetched tables: the one admissible choice. -/
abbrev adm : (p : Fin 2) → (pcfgs (F := F) p).Adm := fun p => (cfgs p).toPCfg_adm

/-! ## The resource algebra -/

/-- The handshakes' rounds, the pipelines' rounds, the local copies' counters. -/
abbrev UH : Type := URounds (GSem nD τ sig) ℕ
abbrev UP : Type := URounds (GSem nD τ sig) Unit
abbrev UU : Type := (UH × UP) × Counters

local notation "𝕄" => MT nD τ sig (HIx 1) (Elt F) ℕ UU ℕ

def EH : Emb UH (MT nD τ sig (HIx 1) (Elt F) ℕ UU ℕ) :=
  ((Emb.inl : Emb UH (UH × UP)).trans (Emb.inl : Emb (UH × UP) UU)).trans
    (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UH × UP)).trans (Emb.inl : Emb (UH × UP) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The pipelines' own waits are recorded at no call's index. -/
abbrev ι₀ : HIx 1 := none

end Cert.KB

end
-- ==== Proof.HostSegsK.lean ====
/-
  The host operations of @main, in three stretches around its three calls.

  Before the first call: the neighbour slots and the validity flags of the read-out nodes are cut out of their
  arrays, padded with 352 zero rows to a multiple of the block height, transposed to slot-major order (the slots
  also flattened to one index list) and the bias is viewed as a row.  Between the first call and the SparseCore
  call: the packed words are viewed as one flat table.  After it: the gathered words are viewed slot-major, and the
  read-out nodes' own packed words are cut out of the table and viewed in blocks.  No host operation writes an
  argument array.
-/
import proofs.«203813_g3255585210786_cont_8to1_b_763_8_alg».proof.Proof.SetupK
import Idealize.ShloMosaic.Lib.Pipeline.Frame

noncomputable section

namespace Cert.KB

open Cert.Kernel Cert.Kernel.Gen
open Idealize.ShloMosaic Idealize.ShloMosaic.StableHlo
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The operations -/

abbrev hop0 : HloOp τ sig (Elt F) := StableHlo.unary main_arg1 main_v0 ((extractStridedSlice S98976x8 ![1024, 0] · slices_S100000x8_S98976x8_1024_0) : (⟨S100000x8, .i32⟩ : BufTy).Contents (Elt F) → (⟨S98976x8, .i32⟩ : BufTy).Contents (Elt F))
abbrev hop1 : HloOp τ sig (Elt F) := StableHlo.nullary main_c (constantI S_ 32 0#32)
abbrev hop2 : HloOp τ sig (Elt F) := StableHlo.TRef.unary (.of main_c : StableHlo.TRef sig ⟨S_, .i32⟩) main_call0.v0 id
abbrev hop3 : HloOp τ sig (Elt F) := StableHlo.TRef.binary (.of main_v0 : StableHlo.TRef sig ⟨S98976x8, .i32⟩) main_call0.v0 main_call0.v1 (fun x v => pad S99328x8 ![0, 0] ![352, 0] ![0, 0] x v pads_S98976x8_S99328x8_03520_000 h_S_)
abbrev hop4 : HloOp τ sig (Elt F) := StableHlo.unary main_v1 main_v2 ((transpose S8x99328 [1, 0] · transposes_S99328x8_S8x99328_1_0) : (⟨S99328x8, .i32⟩ : BufTy).Contents (Elt F) → (⟨S8x99328, .i32⟩ : BufTy).Contents (Elt F))
abbrev hop5 : HloOp τ sig (Elt F) := StableHlo.reshape main_v2 main_v3 rfl shapeCasts_S8x99328_S794624
abbrev hop6 : HloOp τ sig (Elt F) := StableHlo.unary main_arg2 main_v4 ((extractStridedSlice S98976x8 ![1024, 0] · slices_S100000x8_S98976x8_1024_0) : (⟨S100000x8, .i32⟩ : BufTy).Contents (Elt F) → (⟨S98976x8, .i32⟩ : BufTy).Contents (Elt F))
abbrev hop7 : HloOp τ sig (Elt F) := StableHlo.nullary main_c_0 (constantI S_ 32 0#32)
abbrev hop8 : HloOp τ sig (Elt F) := StableHlo.TRef.unary (.of main_c_0 : StableHlo.TRef sig ⟨S_, .i32⟩) main_call1.v0 id
abbrev hop9 : HloOp τ sig (Elt F) := StableHlo.TRef.binary (.of main_v4 : StableHlo.TRef sig ⟨S98976x8, .i32⟩) main_call1.v0 main_call1.v1 (fun x v => pad S99328x8 ![0, 0] ![352, 0] ![0, 0] x v pads_S98976x8_S99328x8_03520_000 h_S_)
abbrev hop10 : HloOp τ sig (Elt F) := StableHlo.unary main_v5 main_v6 ((transpose S8x99328 [1, 0] · transposes_S99328x8_S8x99328_1_0) : (⟨S99328x8, .i32⟩ : BufTy).Contents (Elt F) → (⟨S8x99328, .i32⟩ : BufTy).Contents (Elt F))
abbrev hop11 : HloOp τ sig (Elt F) := StableHlo.reshape main_arg5 main_v7 rfl shapeCasts_S128_S1x128
abbrev hop13 : HloOp τ sig (Elt F) := StableHlo.reshape main_v8 main_v9 rfl shapeCasts_S49x16x128_S100352
abbrev hop15 : HloOp τ sig (Elt F) := StableHlo.reshape main_v10 main_v11 rfl shapeCasts_S794624_S8x99328
abbrev hop16 : HloOp τ sig (Elt F) := StableHlo.unary main_v9 main_v12 ((extractStridedSlice S99328 ![1024] · slices_S100352_S99328_1024) : (⟨S100352, .i32⟩ : BufTy).Contents (Elt F) → (⟨S99328, .i32⟩ : BufTy).Contents (Elt F))
abbrev hop17 : HloOp τ sig (Elt F) := StableHlo.reshape main_v12 main_v13 rfl shapeCasts_S99328_S97x8x128

/-! ## The stretches -/

/-- The valuation after host stretch A. -/
abbrev opsA : List (HloOp τ sig (Elt F)) := [hop0 (F := F), hop1 (F := F), hop2 (F := F), hop3 (F := F), hop4 (F := F), hop5 (F := F), hop6 (F := F), hop7 (F := F), hop8 (F := F), hop9 (F := F), hop10 (F := F), hop11 (F := F)]
abbrev WA (V : Valuation τ sig (Elt F)) : Valuation τ sig (Elt F) := after (opsA (F := F)) V
/-- Host stretch A followed by `k`. -/
abbrev progA {α : Type} (k : Prog (TpuEff nD τ sig (Elt F) (SparseCore.Sig (ΛP (F := F)) 1) .tc) α) :
    Prog (TpuEff nD τ sig (Elt F) (SparseCore.Sig (ΛP (F := F)) 1) .tc) α :=
  hlo rfl (hop0 (F := F)) (fun _ => hlo rfl (hop1 (F := F)) (fun _ => hlo rfl (hop2 (F := F)) (fun _ => hlo rfl (hop3 (F := F)) (fun _ => hlo rfl (hop4 (F := F)) (fun _ => hlo rfl (hop5 (F := F)) (fun _ => hlo rfl (hop6 (F := F)) (fun _ => hlo rfl (hop7 (F := F)) (fun _ => hlo rfl (hop8 (F := F)) (fun _ => hlo rfl (hop9 (F := F)) (fun _ => hlo rfl (hop10 (F := F)) (fun _ => hlo rfl (hop11 (F := F)) (fun _ => k))))))))))))

set_option backward.isDefEq.respectTransparency.types false in
/-- Stretch A from every unscoped buffer at `V`: the buffers end at the stretch's fold over `V`. -/
theorem hostA (d : Dev nD) (bd : Option 𝒱.V) {α : Type} (k : Prog (TpuEff nD τ sig (Elt F) (SparseCore.Sig (ΛP (F := F)) 1) .tc) α)
    (Q : α → sProp 𝕄) (V : Valuation τ sig (Elt F)) :
    iprop(boundary (T d) ∗ held (T d) (Pipeline.ucRefs τ sig) V)
      ⊢ iprop((iprop(boundary (T d) ∗ held (T d) (Pipeline.ucRefs τ sig) (WA (F := F) V))
            -∗ wp frame (wpE ((K (F := F)).defs (D (F := F))) 𝒱 (T d) bd) Set.univ k Q)
          -∗ wp frame (wpE ((K (F := F)).defs (D (F := F))) 𝒱 (T d) bd) Set.univ (progA (F := F) k) Q) := by
  iintro ⟨Hb, Hh⟩ Hk
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (nullary_bufs_sub _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (binary_bufs_sub _ _ _ _ _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (reshape_bufs_sub _ _ _ _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (nullary_bufs_sub _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (binary_bufs_sub _ _ _ _ _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (reshape_bufs_sub _ _ _ _ _ _))) $$ [Hb Hh]
  · isplitl [Hb] <;> iassumption
  iintro ⟨Hb, Hh⟩
  iapply Hk
  isplitl [Hb]; · iexact Hb
  iexact Hh

/-- The valuation after host stretch B. -/
abbrev opsB : List (HloOp τ sig (Elt F)) := [hop13 (F := F)]
abbrev WB (V : Valuation τ sig (Elt F)) : Valuation τ sig (Elt F) := after (opsB (F := F)) V
/-- Host stretch B followed by `k`. -/
abbrev progB {α : Type} (k : Prog (TpuEff nD τ sig (Elt F) (SparseCore.Sig (ΛP (F := F)) 1) .tc) α) :
    Prog (TpuEff nD τ sig (Elt F) (SparseCore.Sig (ΛP (F := F)) 1) .tc) α :=
  hlo rfl (hop13 (F := F)) (fun _ => k)

set_option backward.isDefEq.respectTransparency.types false in
/-- Stretch B from every unscoped buffer at `V`: the buffers end at the stretch's fold over `V`. -/
theorem hostB (d : Dev nD) (bd : Option 𝒱.V) {α : Type} (k : Prog (TpuEff nD τ sig (Elt F) (SparseCore.Sig (ΛP (F := F)) 1) .tc) α)
    (Q : α → sProp 𝕄) (V : Valuation τ sig (Elt F)) :
    iprop(boundary (T d) ∗ held (T d) (Pipeline.ucRefs τ sig) V)
      ⊢ iprop((iprop(boundary (T d) ∗ held (T d) (Pipeline.ucRefs τ sig) (WB (F := F) V))
            -∗ wp frame (wpE ((K (F := F)).defs (D (F := F))) 𝒱 (T d) bd) Set.univ k Q)
          -∗ wp frame (wpE ((K (F := F)).defs (D (F := F))) 𝒱 (T d) bd) Set.univ (progB (F := F) k) Q) := by
  iintro ⟨Hb, Hh⟩ Hk
  iapply (wp_hlo_within 𝒱 (T d) bd Set.univ (Pipeline.sub_ucRefs _ (reshape_bufs_sub _ _ _ _ _ _))) $$ [Hb Hh]
  · isplitl [Hb] <;> iassumption
  iintro ⟨Hb, Hh⟩
  iapply Hk
  isplitl [Hb]; · iexact Hb
  iexact Hh

/-- The valuation after host stretch C. -/
abbrev opsC : List (HloOp τ sig (Elt F)) := [hop15 (F := F), hop16 (F := F), hop17 (F := F)]
abbrev WC (V : Valuation τ sig (Elt F)) : Valuation τ sig (Elt F) := after (opsC (F := F)) V
/-- Host stretch C followed by `k`. -/
abbrev progC {α : Type} (k : Prog (TpuEff nD τ sig (Elt F) (SparseCore.Sig (ΛP (F := F)) 1) .tc) α) :
    Prog (TpuEff nD τ sig (Elt F) (SparseCore.Sig (ΛP (F := F)) 1) .tc) α :=
  hlo rfl (hop15 (F := F)) (fun _ => hlo rfl (hop16 (F := F)) (fun _ => hlo rfl (hop17 (F := F)) (fun _ => k)))

set_option backward.isDefEq.respectTransparency.types false in
/-- Stretch C from every unscoped buffer at `V`: the buffers end at the stretch's fold over `V`. -/
theorem hostC (d : Dev nD) (bd : Option 𝒱.V) {α : Type} (k : Prog (TpuEff nD τ sig (Elt F) (SparseCore.Sig (ΛP (F := F)) 1) .tc) α)
    (Q : α → sProp 𝕄) (V : Valuation τ sig (Elt F)) :
    iprop(boundary (T d) ∗ held (T d) (Pipeline.ucRefs τ sig) V)
      ⊢ iprop((iprop(boundary (T d) ∗ held (T d) (Pipeline.ucRefs τ sig) (WC (F := F) V))
            -∗ wp frame (wpE ((K (F := F)).defs (D (F := F))) 𝒱 (T d) bd) Set.univ k Q)
          -∗ wp frame (wpE ((K (F := F)).defs (D (F := F))) 𝒱 (T d) bd) Set.univ (progC (F := F) k) Q) := by
  iintro ⟨Hb, Hh⟩ Hk
  iapply (wp_hlo_within 𝒱 (T d) bd Set.univ (Pipeline.sub_ucRefs _ (reshape_bufs_sub _ _ _ _ _ _))) $$ [Hb Hh]
  · isplitl [Hb] <;> iassumption
  iintro ⟨Hb, Hh⟩
  iapply (wp_hlo_within 𝒱 (T d) bd Set.univ (Pipeline.sub_ucRefs _ (unary_bufs_sub _ _ _ _ _))) $$ [Hb Hh]
  · isplitl [Hb] <;> iassumption
  iintro ⟨Hb, Hh⟩
  iapply (wp_hlo_within 𝒱 (T d) bd Set.univ (Pipeline.sub_ucRefs _ (reshape_bufs_sub _ _ _ _ _ _))) $$ [Hb Hh]
  · isplitl [Hb] <;> iassumption
  iintro ⟨Hb, Hh⟩
  iapply Hk
  isplitl [Hb]; · iexact Hb
  iexact Hh

/-! ## @main is the three stretches around the three calls -/

/-- A pipelined call as @main spells it. -/
abbrev callTc (p : Fin 2) : Prog (TpuEff nD τ sig (Elt F) (SparseCore.Sig (ΛP (F := F)) 1) .tc) PUnit :=
  Prog.lift (.customCall (SparseCore.inner (Pipeline.entry p)) ())

theorem main_eq (d : Dev nD) :
    main (F := F) d = progA (F := F) (callTc (F := F) 0 >>= fun _ => progB (F := F) ((K (F := F)).run d 0 >>= fun _ =>
      progC (F := F) (callTc (F := F) 1 >>= fun _ => pure ⟨⟩))) := rfl

end Cert.KB

end
-- ==== Proof.StepsK.lean ====
/-
  Two steps of the TensorCore's @main inside the SparseCore program: a pipelined call run under the pipelines' own body
  table and lifted, and such a call taken as a region segment — entered from the segment's thread state with that
  pipeline's share of the launch ghost state, left at the segment's exit state.
-/
import proofs.«203813_g3255585210786_cont_8to1_b_763_8_alg».proof.Proof.SetupK
import Idealize.ShloMosaic.Lib.Pipeline.Frame

noncomputable section

namespace Cert.KB

open Cert.Kernel Cert.Kernel.Gen
open Idealize.ShloMosaic Idealize.ShloMosaic.StableHlo
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- A pipelined call inside the SparseCore program: from its run under the pipelines' own body table, the rest of the
    program's run being its postcondition. -/
theorem wp_entry_lift (d : Dev nD) (p : Fin 2) (bd : Option 𝒱.V) {α : Type}
    (k : PUnit → Prog (TpuEff nD τ sig (Elt F) (SparseCore.Sig (ΛP (F := F)) 1) .tc) α) (Q : α → sProp 𝕄) :
    wp frame (wpE (D (F := F)) 𝒱 (T d) bd) Set.univ (.op (.customCall (Pipeline.entry p) ()) .ret)
        (fun r => wp frame (wpE ((K (F := F)).defs (D (F := F))) 𝒱 (T d) bd) Set.univ (k r) Q)
      ⊢ wp frame (wpE ((K (F := F)).defs (D (F := F))) 𝒱 (T d) bd) Set.univ (.op (.customCall (SparseCore.inner (Pipeline.entry p)) ()) k) Q := by
  have h := (K (F := F)).wp_liftProg (D (F := F)) 𝒱 (T d) Set.univ bd
    (.op (.customCall (Pipeline.entry p) ()) .ret : Prog (TpuEff nD τ sig (Elt F) (ΛP (F := F)) .tc) PUnit)
    (fun r => wp frame (wpE ((K (F := F)).defs (D (F := F))) 𝒱 (T d) bd) Set.univ (k r) Q)
  rw [← wp_bind] at h
  exact h

set_option backward.isDefEq.respectTransparency.types false in
/-- A pipelined call as a region segment `R` of pipeline `p`: entered from `R.pre d` with the ghost state of a set
    `S'` of pipelines containing `p`, left at `R.post d` with the ghost state of the others. -/
theorem regionStep [∀ e, Nonempty (Elt F e)]
    (rd : (p : Fin 2) → (c : Dev nD) → RDat τ (Elt F) (HIx 1) ℕ UU ℕ (Pipeline.pin (pcfgs (F := F)) adm p) c)
    {p : Fin 2} (R : Pipeline.RDat.RegionSeg (pcfgs (F := F)) adm rd ι₀ defs₀ 𝒱₀ (K (F := F)).L (K (F := F)).lev p)
    (S' : Finset (Fin 2)) (hp : p ∈ S') (d : Dev nD) {α : Type}
    (k : PUnit → Prog (TpuEff nD τ sig (Elt F) (SparseCore.Sig (ΛP (F := F)) 1) .tc) α) (Q : α → sProp 𝕄) :
    iprop(levAts (K (F := F)).L (K (F := F)).lev ∗ boundary (T d) ∗ R.pre d ∗ Pipeline.ghostOn (pcfgs (F := F)) adm EP S' d)
      ⊢ iprop((iprop(boundary (T d) ∗ R.post d ∗ Pipeline.ghostOn (pcfgs (F := F)) adm EP (S'.erase p) d)
            -∗ wp frame (wpE ((K (F := F)).defs (D (F := F))) 𝒱 (T d) none) Set.univ (k ⟨⟩) Q)
          -∗ wp frame (wpE ((K (F := F)).defs (D (F := F))) 𝒱 (T d) none) Set.univ
              (.op (.customCall (SparseCore.inner (Pipeline.entry p)) ()) k) Q) := by
  rw [show Pipeline.ghostOn (pcfgs (F := F)) adm EP S' d = Pipeline.PerCore.ghostOn (pcfgs (F := F)) (fun _ => adm) EP S' d from rfl,
    Pipeline.PerCore.ghostOn_erase (pcfgs (F := F)) (fun _ => adm) EP hp d]
  iintro ⟨#Hlev, Hb, Hpre, ⟨Hc, Ht⟩, Hg⟩ Hk
  iapply (wp_entry_lift d p none _ _)
  iapply (Pipeline.RDat.RegionSeg.wp (pcfgs (F := F)) adm rd ι₀ Gen.cellOf_inj EP defs₀ 𝒱₀ (K (F := F)).L (K (F := F)).lev R d none
    (fun u hu => by cases hu) .ret _)
  isplitl [Hk Hg]
  · iintro ⟨Hb, Hpost⟩
    rw [wp_ret]
    imodintro
    iapply Hk
    isplitl [Hb]; · iexact Hb
    isplitl [Hpost]; · iexact Hpost
    iexact Hg
  isplitl [Hb]; · iexact Hb
  isplitl [Hpre]; · iexact Hpre
  isplitr; · iexact Hlev
  isplitl [Hc]; · iexact Hc
  iexact Ht

end Cert.KB

end
-- ==== Proof.MainBodyK.lean ====
/-
  One grid point of the second TensorCore call, run once at symbolic operands.

  At a point the body reads six staged blocks — the node tables, the gathered neighbour words, the validity flags,
  the nodes' own packed words, a block of `W` and the bias — and touches only the accumulator block: it computes
  the block's partial product `part` from the inputs, then, according to where the point stands in the grid,
    first point:   acc := part
    middle points: acc := acc + part
    last point:    acc := logistic ((acc + part) + bias).
  Each run below says: from the seven staging memrefs held whole, the six inputs reading `x1 … x6` and the
  accumulator reading `x7`, the body runs to its return with the inputs as they were and the accumulator reading
  `W x7`, where `W` is the function of the old accumulator contents (and of the inputs) that the run itself finds.
-/
import proofs.«203813_g3255585210786_cont_8to1_b_763_8_alg».proof.Proof.Gen.Kernel
import proofs.«203813_g3255585210786_cont_8to1_b_763_8_alg».proof.Proof.Gen.Kernel.Skeleton
import Idealize.ShloMosaic.Lib.Tactic
import Idealize.ShloMosaic.Lib.Memref
import Idealize.ShloMosaic.Lib.Pipeline.Kit
import Idealize.ShloMosaic.Lib.Pipeline.Frame
import Idealize.ShloMosaic.Lib.SparseCore.Cells

noncomputable section

namespace Cert.MainBodyK

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {U : Type} [URA U]

local notation "𝕄" => MT nD τ sig (SparseCore.Cfg.HIx 1) (Elt F) ℕ U ℕ

/-! ## Where a point stands in the grid -/

/-- The first branch is taken exactly at point 0, -/
theorem cond1_iff : ∀ t : Fin grid2.N, k2_cond1 (grid2.coords t) = 1#1 ↔ t.val = 0 := by decide +kernel
/-- the second exactly after it, -/
theorem cond2_iff : ∀ t : Fin grid2.N, k2_cond2 (grid2.coords t) = 1#1 ↔ 0 < t.val := by decide +kernel
/-- the third exactly at the last point, 96. -/
theorem cond3_iff : ∀ t : Fin grid2.N, k2_cond3 (grid2.coords t) = 1#1 ↔ t.val = 96 := by decide +kernel

/-! ## The three runs -/

set_option maxHeartbeats 8000000 in
/-- The first point: the accumulator is overwritten with the block's partial product. -/
noncomputable def runFirst (c : Dev nD) (i : grid2.Coords) (h1 : k2_cond1 i = 1#1) (h2 : ¬ k2_cond2 i = 1#1) (h3 : ¬ k2_cond3 i = 1#1)
    (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec F S1024x256 .i32) (x2 : Vec F S8x1024 .i32) (x3 : Vec F S8x1024 .i32) (x4 : Vec F S1x8x128 .i32)
    (x5 : Vec F S1024x128 .f32) (x6 : Vec F S1x128 .f32) :
    { W : Vec F S32x128 .f32 → Vec F S32x128 .f32 //
      ∀ (x7 : Vec F S32x128 .f32) (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
          ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (W x7)) -∗ K ⟨⟩))
        ⊢ wp frame (wpE (defs₀ (F := F)) Variants.none c none) E
            (cc2__main_body i M1 hm1 M2 hm2 M3 hm3 M4 hm4 M5 hm5 M6 hm6 M7 hm7) K } := by
  refine ⟨?_, fun x7 E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := hm1.eq_unread hf1; obtain rfl := hm2.eq_unread hf2; obtain rfl := hm3.eq_unread hf3
    obtain rfl := hm4.eq_unread hf4; obtain rfl := hm5.eq_unread hf5; obtain rfl := hm6.eq_unread hf6
    obtain rfl := hm7.eq_unread hf7
    sl_exec_parts!
    sl_step
    iapply Hk
    isplitl [H1]
    · iexists _; isplitr; · ipureintro; exact hm1.read_unread _
      iexact H1
    isplitl [H2]
    · iexists _; isplitr; · ipureintro; exact hm2.read_unread _
      iexact H2
    isplitl [H3]
    · iexists _; isplitr; · ipureintro; exact hm3.read_unread _
      iexact H3
    isplitl [H4]
    · iexists _; isplitr; · ipureintro; exact hm4.read_unread _
      iexact H4
    isplitl [H5]
    · iexists _; isplitr; · ipureintro; exact hm5.read_unread _
      iexact H5
    isplitl [H6]
    · iexists _; isplitr; · ipureintro; exact hm6.read_unread _
      iexact H6
    iexists _; isplitr
    swap; · iexact H7
    ipureintro; rfl

set_option maxHeartbeats 8000000 in
/-- A middle point: the block's partial product is added to the accumulator. -/
noncomputable def runMid (c : Dev nD) (i : grid2.Coords) (h1 : ¬ k2_cond1 i = 1#1) (h2 : k2_cond2 i = 1#1) (h3 : ¬ k2_cond3 i = 1#1)
    (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec F S1024x256 .i32) (x2 : Vec F S8x1024 .i32) (x3 : Vec F S8x1024 .i32) (x4 : Vec F S1x8x128 .i32)
    (x5 : Vec F S1024x128 .f32) (x6 : Vec F S1x128 .f32) :
    { W : Vec F S32x128 .f32 → Vec F S32x128 .f32 //
      ∀ (x7 : Vec F S32x128 .f32) (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
          ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (W x7)) -∗ K ⟨⟩))
        ⊢ wp frame (wpE (defs₀ (F := F)) Variants.none c none) E
            (cc2__main_body i M1 hm1 M2 hm2 M3 hm3 M4 hm4 M5 hm5 M6 hm6 M7 hm7) K } := by
  refine ⟨?_, fun x7 E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := hm1.eq_unread hf1; obtain rfl := hm2.eq_unread hf2; obtain rfl := hm3.eq_unread hf3
    obtain rfl := hm4.eq_unread hf4; obtain rfl := hm5.eq_unread hf5; obtain rfl := hm6.eq_unread hf6
    obtain rfl := hm7.eq_unread hf7
    sl_exec_parts!
    sl_step
    iapply Hk
    isplitl [H1]
    · iexists _; isplitr; · ipureintro; exact hm1.read_unread _
      iexact H1
    isplitl [H2]
    · iexists _; isplitr; · ipureintro; exact hm2.read_unread _
      iexact H2
    isplitl [H3]
    · iexists _; isplitr; · ipureintro; exact hm3.read_unread _
      iexact H3
    isplitl [H4]
    · iexists _; isplitr; · ipureintro; exact hm4.read_unread _
      iexact H4
    isplitl [H5]
    · iexists _; isplitr; · ipureintro; exact hm5.read_unread _
      iexact H5
    isplitl [H6]
    · iexists _; isplitr; · ipureintro; exact hm6.read_unread _
      iexact H6
    iexists _; isplitr
    swap; · iexact H7
    ipureintro; rfl

set_option maxHeartbeats 8000000 in
/-- The last point: the partial product is added, then the bias, and the logistic function applied. -/
noncomputable def runLast (c : Dev nD) (i : grid2.Coords) (h1 : ¬ k2_cond1 i = 1#1) (h2 : k2_cond2 i = 1#1) (h3 : k2_cond3 i = 1#1)
    (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec F S1024x256 .i32) (x2 : Vec F S8x1024 .i32) (x3 : Vec F S8x1024 .i32) (x4 : Vec F S1x8x128 .i32)
    (x5 : Vec F S1024x128 .f32) (x6 : Vec F S1x128 .f32) :
    { W : Vec F S32x128 .f32 → Vec F S32x128 .f32 //
      ∀ (x7 : Vec F S32x128 .f32) (E : Set ℕ) (K : PUnit → sProp 𝕄),
        iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7
          ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (W x7)) -∗ K ⟨⟩))
        ⊢ wp frame (wpE (defs₀ (F := F)) Variants.none c none) E
            (cc2__main_body i M1 hm1 M2 hm2 M3 hm3 M4 hm4 M5 hm5 M6 hm6 M7 hm7) K } := by
  refine ⟨?_, fun x7 E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := hm1.eq_unread hf1; obtain rfl := hm2.eq_unread hf2; obtain rfl := hm3.eq_unread hf3
    obtain rfl := hm4.eq_unread hf4; obtain rfl := hm5.eq_unread hf5; obtain rfl := hm6.eq_unread hf6
    obtain rfl := hm7.eq_unread hf7
    sl_exec_parts!
    sl_step
    iapply Hk
    isplitl [H1]
    · iexists _; isplitr; · ipureintro; exact hm1.read_unread _
      iexact H1
    isplitl [H2]
    · iexists _; isplitr; · ipureintro; exact hm2.read_unread _
      iexact H2
    isplitl [H3]
    · iexists _; isplitr; · ipureintro; exact hm3.read_unread _
      iexact H3
    isplitl [H4]
    · iexists _; isplitr; · ipureintro; exact hm4.read_unread _
      iexact H4
    isplitl [H5]
    · iexists _; isplitr; · ipureintro; exact hm5.read_unread _
      iexact H5
    isplitl [H6]
    · iexists _; isplitr; · ipureintro; exact hm6.read_unread _
      iexact H6
    iexists _; isplitr
    swap; · iexact H7
    ipureintro; rfl

end Cert.MainBodyK

end
-- ==== Proof.MainRegionK.lean ====
/-
  The second TensorCore call as relational proof data for the pipeline library.

  The call walks 97 grid points; at each it stages a block of the node tables, of the gathered words, of the flags,
  of the packed words and of `W` (the tables' and `W`'s last blocks overhang their arrays, so the tail of those
  two buffers holds words nothing names), the bias once, and keeps ONE accumulator block for the whole grid, written
  back after the last point.  What a staging buffer holds is therefore not a function of the arrays, and the data is
  stated as relations: an input buffer is left as it was found; of the accumulator nothing is said here (that the
  program runs, and that its argument arrays are kept, needs no more).
-/
import proofs.«203813_g3255585210786_cont_8to1_b_763_8_alg».proof.Proof.MainBodyK
import proofs.«203813_g3255585210786_cont_8to1_b_763_8_alg».proof.Proof.Gen.Kernel.Launch
import proofs.«203813_g3255585210786_cont_8to1_b_763_8_alg».proof.Proof.Gen.Kernel.Points
import Idealize.ShloMosaic.Lib.Pipeline.Kit

noncomputable section

namespace Cert.MainRegionK

open Cert.Kernel Cert.Kernel.Gen Cert.MainBodyK
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] {U : Type} [URA U]

local notation "𝕄" => MT nD τ sig (SparseCore.Cfg.HIx 1) (Elt F) ℕ U ℕ

/-- The call's proof data on core `c`: the seven arrays as the region finds them (`V`); every input's staging
    buffer left as found, the accumulator's (window 6) at anything; the invariant `Φc`, what the core owes `O` and the
    bound `B` on the pairs its waits have recorded are the caller's, and the body never touches them; full shares. -/
def rdat (Φc : sProp 𝕄) (O : CellTallies nD τ sig (SparseCore.Cfg.HIx 1))
    (B : Set (SemLoc sig × SparseCore.Cfg.HIx 1)) (V : (c : Dev nD) → (b : Ref sig .tc) → Buf (Elt F) ((c : Thread nD τ).loc b)) (c : Dev nD) :
    RDat τ (Elt F) (SparseCore.Cfg.HIx 1) ℕ U ℕ cfg2 c where
  A w := V c (Pipeline.arrRef spec2 w)
  after w _ Y X := w.val = 6 ∨ X = Y
  Φ _ := Φc
  q _ := fullShare
  owed _ := O
  recorded _ := B

/-- The body at point `t`, whatever the seven current staging buffers hold (`Y`): the invariant and what the core
    owes pass through unread; the inputs come back as they were, the accumulator at what the point's case leaves. -/
theorem sound_body (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (ι : SparseCore.Cfg.HIx 1)
    (t : Fin cfg2.N) (Y : (w : Fin cfg2.W) → (cfg2.win w).block.Idx → Elt F (cfg2.win w).elt) :
    iprop((rdat (F := F) (U := U) Φc O B V c).Φ t.castSucc ∗ (rdat (F := F) (U := U) Φc O B V c).owesAt ι t.castSucc
        ∗ owns (c : Thread nD τ) (st2_0 t) fullShare (Y 0)
        ∗ owns (c : Thread nD τ) (st2_1 t) fullShare (Y 1)
        ∗ owns (c : Thread nD τ) (st2_2 t) fullShare (Y 2)
        ∗ owns (c : Thread nD τ) (st2_3 t) fullShare (Y 3)
        ∗ owns (c : Thread nD τ) (st2_4 t) fullShare (Y 4)
        ∗ owns (c : Thread nD τ) (st2_5 t) fullShare (Y 5)
        ∗ owns (c : Thread nD τ) (st2_6 t) fullShare (Y 6))
      ⊢ wp frame (wpE (defs₀ (F := F)) Variants.none c none) Set.univ (bodyAt2 t) fun _ =>
          iprop((rdat (F := F) (U := U) Φc O B V c).Φ t.succ ∗ (rdat (F := F) (U := U) Φc O B V c).owesAt ι t.succ
            ∗ (∃ X, ⌜(rdat (F := F) (U := U) Φc O B V c).after 0 t (Y 0) X⌝ ∗ owns (c : Thread nD τ) (st2_0 t) fullShare X)
            ∗ (∃ X, ⌜(rdat (F := F) (U := U) Φc O B V c).after 1 t (Y 1) X⌝ ∗ owns (c : Thread nD τ) (st2_1 t) fullShare X)
            ∗ (∃ X, ⌜(rdat (F := F) (U := U) Φc O B V c).after 2 t (Y 2) X⌝ ∗ owns (c : Thread nD τ) (st2_2 t) fullShare X)
            ∗ (∃ X, ⌜(rdat (F := F) (U := U) Φc O B V c).after 3 t (Y 3) X⌝ ∗ owns (c : Thread nD τ) (st2_3 t) fullShare X)
            ∗ (∃ X, ⌜(rdat (F := F) (U := U) Φc O B V c).after 4 t (Y 4) X⌝ ∗ owns (c : Thread nD τ) (st2_4 t) fullShare X)
            ∗ (∃ X, ⌜(rdat (F := F) (U := U) Φc O B V c).after 5 t (Y 5) X⌝ ∗ owns (c : Thread nD τ) (st2_5 t) fullShare X)
            ∗ (∃ X, ⌜(rdat (F := F) (U := U) Φc O B V c).after 6 t (Y 6) X⌝ ∗ owns (c : Thread nD τ) (st2_6 t) fullShare X)) := by
  rw [show (rdat (F := F) (U := U) Φc O B V c).Φ t.succ = (rdat (F := F) (U := U) Φc O B V c).Φ t.castSucc from rfl,
    show (rdat (F := F) (U := U) Φc O B V c).owesAt ι t.succ = (rdat (F := F) (U := U) Φc O B V c).owesAt ι t.castSucc from rfl]
  have hN : t.val < 97 := lt_of_lt_of_eq t.isLt (show cfg2.N = 97 from N_2)
  iintro ⟨HΦ, Ho, H0, H1, H2, H3, H4, H5, H6⟩
  by_cases h0 : t.val = 0
  · have c1 : k2_cond1 (grid2.coords t) = 1#1 := (cond1_iff t).mpr h0
    have c2 : ¬ k2_cond2 (grid2.coords t) = 1#1 := fun h => by have := (cond2_iff t).mp h; omega
    have c3 : ¬ k2_cond3 (grid2.coords t) = 1#1 := fun h => by have := (cond3_iff t).mp h; omega
    iapply ((runFirst c (grid2.coords t) c1 c2 c3 _ _ _ _ _ _ _ _ _ _ _ _ _ _ (Y 0) (Y 1) (Y 2) (Y 3) (Y 4) (Y 5)).2 (Y 6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexists _; isplitr; · ipureintro; exact Or.inr rfl
                    iexact H0
    isplitl [H1]; · iexists _; isplitr; · ipureintro; exact Or.inr rfl
                    iexact H1
    isplitl [H2]; · iexists _; isplitr; · ipureintro; exact Or.inr rfl
                    iexact H2
    isplitl [H3]; · iexists _; isplitr; · ipureintro; exact Or.inr rfl
                    iexact H3
    isplitl [H4]; · iexists _; isplitr; · ipureintro; exact Or.inr rfl
                    iexact H4
    isplitl [H5]; · iexists _; isplitr; · ipureintro; exact Or.inr rfl
                    iexact H5
    iexists _; isplitr
    swap; · iexact H6
    ipureintro; exact Or.inl rfl
  · have c1 : ¬ k2_cond1 (grid2.coords t) = 1#1 := fun h => h0 ((cond1_iff t).mp h)
    have c2 : k2_cond2 (grid2.coords t) = 1#1 := (cond2_iff t).mpr (Nat.pos_of_ne_zero h0)
    by_cases h96 : t.val = 96
    · have c3 : k2_cond3 (grid2.coords t) = 1#1 := (cond3_iff t).mpr h96
      iapply ((runLast c (grid2.coords t) c1 c2 c3 _ _ _ _ _ _ _ _ _ _ _ _ _ _ (Y 0) (Y 1) (Y 2) (Y 3) (Y 4) (Y 5)).2 (Y 6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexists _; isplitr; · ipureintro; exact Or.inr rfl
                      iexact H0
      isplitl [H1]; · iexists _; isplitr; · ipureintro; exact Or.inr rfl
                      iexact H1
      isplitl [H2]; · iexists _; isplitr; · ipureintro; exact Or.inr rfl
                      iexact H2
      isplitl [H3]; · iexists _; isplitr; · ipureintro; exact Or.inr rfl
                      iexact H3
      isplitl [H4]; · iexists _; isplitr; · ipureintro; exact Or.inr rfl
                      iexact H4
      isplitl [H5]; · iexists _; isplitr; · ipureintro; exact Or.inr rfl
                      iexact H5
      iexists _; isplitr
      swap; · iexact H6
      ipureintro; exact Or.inl rfl
    · have c3 : ¬ k2_cond3 (grid2.coords t) = 1#1 := fun h => h96 ((cond3_iff t).mp h)
      iapply ((runMid c (grid2.coords t) c1 c2 c3 _ _ _ _ _ _ _ _ _ _ _ _ _ _ (Y 0) (Y 1) (Y 2) (Y 3) (Y 4) (Y 5)).2 (Y 6) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexists _; isplitr; · ipureintro; exact Or.inr rfl
                      iexact H0
      isplitl [H1]; · iexists _; isplitr; · ipureintro; exact Or.inr rfl
                      iexact H1
      isplitl [H2]; · iexists _; isplitr; · ipureintro; exact Or.inr rfl
                      iexact H2
      isplitl [H3]; · iexists _; isplitr; · ipureintro; exact Or.inr rfl
                      iexact H3
      isplitl [H4]; · iexists _; isplitr; · ipureintro; exact Or.inr rfl
                      iexact H4
      isplitl [H5]; · iexists _; isplitr; · ipureintro; exact Or.inr rfl
                      iexact H5
      iexists _; isplitr
      swap; · iexact H6
      ipureintro; exact Or.inl rfl

/-- The library's body obligation for the call, at every point and for all contents the buffers may hold. -/
theorem body_obligation (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (ι : SparseCore.Cfg.HIx 1) :
    (rdat (F := F) (U := U) Φc O B V c).BodyObligation (defs₀ (F := F)) Variants.none ι Set.univ := fun t Y _ => by
  rw [bigSep_W2, bigSep_W2]
  exact sound_body Φc O B V c ι t Y

end Cert.MainRegionK

end
-- ==== Proof.Reg1K.lean ====
/-
  The second TensorCore call as a segment of @main.

  The call is entered from the TensorCore's thread state after the SparseCore call: every unscoped buffer at its
  contents `W`, and the thread's debt term as the handshake protocol keeps it (after the one call: nothing owed, the
  recorded pairs at levels up to 8).  At the entry the call's seven arrays are split out of the unscoped buffers; the
  scoped buffers no window stages ride in the pipeline's invariant; at the exit the arrays come back, the six inputs as
  they were and the result array at some contents the write-back at the last point may leave.
-/
import proofs.«203813_g3255585210786_cont_8to1_b_763_8_alg».proof.Proof.SetupK
import proofs.«203813_g3255585210786_cont_8to1_b_763_8_alg».proof.Proof.MainRegionK

noncomputable section

namespace Cert.KB

open Cert.Kernel Cert.Kernel.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- Every TensorCore buffer's contents, per device. -/
abbrev Vals (F : FTy → Type) : Type := (c : Dev nD) → (b : Ref sig .tc) → Buf (Elt F) ((c : Thread nD τ).loc b)

/-- The pairs the TensorCore's waits may have recorded before call `n`: those at levels up to `8 n`. -/
def recBound (c : Dev nD) (n : ℕ) : Set (SemLoc sig × HIx 1) := {p | (K (F := F)).lev ((c : Thread nD τ), p.1) p.2 ≤ 8 * n}

/-- The TensorCore's debt term before call `n`, as the handshake state holds it. -/
def owesTc (c : Dev nD) (n : ℕ) : sProp 𝕄 :=
  iprop(∃ W, ⌜(K (F := F)).WBelow (c : Thread nD τ) W (8 * n)⌝ ∗ owes (c : Thread nD τ) ((K (F := F)).Otc c n) W)

/-- The two calls' proof data: the first call's is a parameter; the second's is over the contents `W1` the second
    region finds, its invariant the scoped buffers no window stages, its debt and recorded pairs those after the
    SparseCore call. -/
def rdats (rd0 : (c : Dev nD) → RDat τ (Elt F) (HIx 1) ℕ UU ℕ cfg0 c) (W1 : Vals F) :
    (p : Fin 2) → (c : Dev nD) → RDat τ (Elt F) (HIx 1) ℕ UU ℕ (Pipeline.pin (pcfgs (F := F)) adm p) c
  | ⟨0, _⟩ => rd0
  | ⟨1, _⟩ => fun c => MainRegionK.rdat (F := F) (U := UU) (Pipeline.scopedRest spec2 c) ((K (F := F)).Otc c 1) (recBound (F := F) c 1) W1 c

set_option backward.isDefEq.respectTransparency.types false in
/-- The second call as a region segment. -/
def reg1 (rd0 : (c : Dev nD) → RDat τ (Elt F) (HIx 1) ℕ UU ℕ cfg0 c) (W1 : Vals F) :
    Pipeline.RDat.RegionSeg (pcfgs (F := F)) adm (rdats rd0 W1) ι₀ defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := MainRegionK.body_obligation (F := F) (U := UU) (Pipeline.scopedRest spec2 c) ((K (F := F)).Otc c 1) (recBound (F := F) c 1) W1 c ι₀
  hwaits := Pipeline.RDat.hwaits_of_owed_zero _ _ _ _ _ _ 1 fun c _ => (K (F := F)).Otc_end c (le_refl 1)
  pre c := iprop(unscopedBufs c (W1 c) ∗ owesTc (F := F) c 1)
  post c := iprop((rdats rd0 W1 1 c).arraysAt cfg2.N ∗ Pipeline.unscopedRest spec2 c (W1 c) ∗ owesTc (F := F) c 1)
  X _ := iprop(emp)
  Y _ := iprop(emp)
  Z c := Pipeline.unscopedRest spec2 c (W1 c)
  hentry c := by
    rw [Pipeline.ownSems0_none]
    have hsplit := Pipeline.RDat.arrays_of_unscopedBufs (p := 1) (pcfgs (F := F)) adm (rdats rd0 W1) launch2.win launch2.arr_whole c
      ((rdats rd0 W1 1 c).share_full fun _ => rfl) (W1 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesTc
      icases HO with ⟨%W, %hW, HO⟩
      iexists W; isplitr
      · ipureintro; exact fun p hp => Or.inl (hW p hp)
      iexact HO
    isplitr; · iempintro
    iexact Hrest
  hin c := by
    rw [show (rdats rd0 W1 1 c).Φ 0 = Pipeline.scopedRest spec2 c from rfl]
    iintro ⟨-, -, Hr⟩
    iexact Hr
  hout c := by
    rw [Pipeline.ownSems0_none, show (rdats rd0 W1 1 c).Φ (Fin.last _) = Pipeline.scopedRest spec2 c from rfl]
    iintro Hr
    isplitr; · iempintro
    isplitr; · iempintro
    iexact Hr
  hexit c := by
    iintro ⟨Ha, HO, -, Hrest⟩
    imodintro
    isplitl [Ha]; · iexact Ha
    isplitl [Hrest]; · iexact Hrest
    unfold owesTc
    icases HO with ⟨%W, %hW, HO⟩
    iexists W; isplitr
    · ipureintro
      intro p hp
      rcases hW hp with h | ⟨w, s, rfl⟩
      · exact h
      · show (K (F := F)).lev _ none ≤ 8 * 1
        rw [SparseCore.Cfg.lev_none]; exact Nat.zero_le _
    iexact HO

end Cert.KB

end
-- ==== Proof.PackRegionK.lean ====
/-
  The first TensorCore call of the program, as proof data for the pipeline rule.

  The call runs over 49 points.  At point `t` it is handed the block of the 0/1 state array made of all 32 rows and
  the columns `2048 t ‥ 2048 t + 2047`, and leaves in the result's block the 2048 words
  `Σ_b state b (2048 t + a) · 2^b` (row `b` shifted left by `b`, the 32 rows added), laid out as 16 rows of 128.
  The array has 100000 columns, so the last block overhangs it by 352 columns: there the staging buffer holds the
  array's columns `98304 ‥ 99999` on its first 1696 columns and words nothing names on the other 352, and the
  352 words computed from those are words nothing names either.  So what the body leaves in the result's buffer is
  not a function of the array alone; it is CONSTRAINED: it is the packed word of SOME completion of the block.
  The proof data is therefore relational: the input's buffer is left as found, the result's buffer holds
  `out0_1` of the input block completed by some `d`.
-/
import proofs.«203813_g3255585210786_cont_8to1_b_763_8_alg».proof.Proof.Gen.Kernel.Launch
import proofs.«203813_g3255585210786_cont_8to1_b_763_8_alg».proof.Proof.Gen.Kernel.Skeleton
import proofs.«203813_g3255585210786_cont_8to1_b_763_8_alg».proof.Proof.Gen.Kernel.Points
import Idealize.ShloMosaic.Lib.Pipeline.FrameBody
import Idealize.ShloMosaic.Lib.Tactic

-- membership in a rectangle of 2048 columns: the structural recursion is as deep as the long axis
set_option maxRecDepth 16384

noncomputable section

namespace Cert.PackRegionK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## What the body reads and writes -/

/-- The whole input block: all 32 rows, all 2048 columns. -/
abbrev r0_0 : Rect S32x2048 := Rect.unit (s := S32x2048) ![0, 0] S32x2048.size inb_S32x2048_S32x2048_0_0
/-- The whole result block: 1 × 16 × 128. -/
abbrev r1_0 : Rect S1x16x128 := Rect.unit (s := S1x16x128) ![0, 0, 0] S1x16x128.size inb_S1x16x128_S1x16x128_0_0_0

/-- What the body leaves in the result's block when the input block reads `x0`: its one store, of the packed words
    computed from the whole of `x0`, over the whole block. -/
def out0_1 (x0 : Vec F S32x2048 .i32) : Vec F S1x16x128 .i32 :=
  View.canon [⟨r1_0, k0_pay1 (View.ld x0 r0_0)⟩]

/-- The one store covers the result's block. -/
theorem cover0_1 (p0 : Vec F S1x16x128 .i32) (y : S1x16x128.Idx) :
    ∃ pc ∈ ([⟨r1_0, p0⟩] : List (View.Piece (Elt F) S1x16x128 .i32)), y ∈ pc.1.set :=
  View.cover_of_tiled [⟨r1_0, p0⟩] S1x16x128.size (by rfl) y

/-! ## The body's triple -/

set_option maxHeartbeats 1000000 in
/-- The body on whole staging buffers, the input's reading `x0` and the result's holding anything: it ends with the
    input's buffer unchanged and the result's reading `out0_1 x0`.  (One load of the input block, the pure
    computation, one load of the result block that nothing uses, one store over the whole result block.) -/
theorem sound_kernel (c : Dev nD) (E : Set Name) (i : grid0.Coords)
    (arg1 : Memref sig .tc .vmem S32x2048 .i32) (harg1 : arg1.IsWhole)
    (arg2 : Memref sig .tc .vmem S1x16x128 .i32) (harg2 : arg2.IsWhole)
    (x0 : Vec F S32x2048 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pack_body i arg1 harg1 arg2 harg2) K := by
  simp only [cc0__pack_body_eq_skeleton]; unfold cc0__pack_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The block of the state array at point `t` as a fetch reads it: its part inside the array (all 2048 columns at the
    points 0 ‥ 47, the first 1696 at point 48), off the array as the region finds it. -/
def blk0 (V : (c : Dev nD) → (b : Ref sig .tc) → Buf (Elt F) ((c : Thread nD τ).loc b)) (c : Dev nD) (t : Fin cfg0.N) :
    ((cfg0.win 0).xblock (cfg0.grid.coords t)).Idx → Elt F (cfg0.win 0).elt :=
  ((cfg0.win 0).blk t).view.read (Elt F) (V c (Pipeline.arrRef spec0 0))

/-- The proof data of the call on core `c`.  The arrays are as the region finds them (`V`).  The input's buffer is
    left as found.  The result's buffer is left holding `out0_1` of the input block completed, past the array's end,
    by SOME words `d` (at the points 0 ‥ 47 nothing is past the end and `d` is not read).  The invariant `Φ0`, the
    tallies `O` the core owes and the bound `B` on its recorded pairs are the caller's, the same at every point: the
    body reads none of them. -/
def rdat0 (Φ0 : sProp 𝕄) (O : CellTallies nD τ sig Ix) (B : Set (SemLoc sig × Ix))
    (V : (c : Dev nD) → (b : Ref sig .tc) → Buf (Elt F) ((c : Thread nD τ).loc b)) (c : Dev nD) :
    RDat τ (Elt F) Ix Name U Lvl cfg0 c where
  A w := V c (Pipeline.arrRef spec0 w)
  after w t := match w with
    | ⟨0, _⟩ => fun Y X => X = Y
    | ⟨1, _⟩ => fun _ X => ∃ d, X = out0_1 (win0_0.fill (grid0.coords t) d (blk0 V c t))
  Φ _ := Φ0
  q _ := fullShare
  owed _ := O
  recorded _ := B

/-- The data's arrays are the region-entry contents. -/
theorem A_eq (Φ0 : sProp 𝕄) (O : CellTallies nD τ sig Ix) (B : Set (SemLoc sig × Ix))
    (V : (c : Dev nD) → (b : Ref sig .tc) → Buf (Elt F) ((c : Thread nD τ).loc b)) (c : Dev nD) (w : Fin cfg0.W) : (rdat0 Φ0 O B V c).A w = V c (Pipeline.arrRef spec0 w) := by
  dsimp only [rdat0]

/-- The two relations, window by window. -/
theorem after0_0 (Φ0 : sProp 𝕄) (O : CellTallies nD τ sig Ix) (B : Set (SemLoc sig × Ix))
    (V : (c : Dev nD) → (b : Ref sig .tc) → Buf (Elt F) ((c : Thread nD τ).loc b)) (c : Dev nD) (t : Fin cfg0.N) (Y X) : (rdat0 Φ0 O B V c).after 0 t Y X ↔ X = Y := by
  dsimp only [rdat0]; exact Iff.rfl
theorem after0_1 (Φ0 : sProp 𝕄) (O : CellTallies nD τ sig Ix) (B : Set (SemLoc sig × Ix))
    (V : (c : Dev nD) → (b : Ref sig .tc) → Buf (Elt F) ((c : Thread nD τ).loc b)) (c : Dev nD) (t : Fin cfg0.N) (Y X) :
    (rdat0 Φ0 O B V c).after 1 t Y X ↔ ∃ d, X = out0_1 (win0_0.fill (grid0.coords t) d (blk0 V c t)) := by
  dsimp only [rdat0]; exact Iff.rfl

/-- What the body may find in the input's buffer: the window is fetched at every point, so the block on the part
    inside the array and some `d` past it. -/
theorem finds0_0 (Φ0 : sProp 𝕄) (O : CellTallies nD τ sig Ix) (B : Set (SemLoc sig × Ix))
    (V : (c : Dev nD) → (b : Ref sig .tc) → Buf (Elt F) ((c : Thread nD τ).loc b)) (c : Dev nD) (t : Fin cfg0.N) (Y) (h : (rdat0 Φ0 O B V c).Finds 0 t Y) :
    ∃ d, Y = win0_0.fill (grid0.coords t) d (blk0 V c t) := by
  obtain ⟨d, hd⟩ := ((rdat0 Φ0 O B V c).finds_of_fetch (fetch0_0 t) Y).mp h
  exact ⟨d, hd⟩

/-- The body obligation of the pipeline rule, at every point: whatever the two buffers hold, the body leaves the
    input's as it was and the result's at `out0_1` of it, which is `out0_1` of a completed block because what the
    input's buffer held was one; the invariant and what the core owes pass through untouched. -/
theorem body_obligation0 (Φ0 : sProp 𝕄) (O : CellTallies nD τ sig Ix) (B : Set (SemLoc sig × Ix))
    (V : (c : Dev nD) → (b : Ref sig .tc) → Buf (Elt F) ((c : Thread nD τ).loc b)) (c : Dev nD) (ι : Ix) :
    (rdat0 Φ0 O B V c).BodyObligation (defs₀ (F := F)) Variants.none ι Set.univ := fun t Y hY => by
  rw [bigSep_W0, bigSep_W0]
  obtain ⟨d0, h0⟩ := finds0_0 Φ0 O B V c t (Y 0) (hY 0)
  rw [show (rdat0 Φ0 O B V c).Φ t.succ = (rdat0 Φ0 O B V c).Φ t.castSucc from rfl,
    show (rdat0 Φ0 O B V c).owesAt ι t.succ = (rdat0 Φ0 O B V c).owesAt ι t.castSucc from rfl]
  change _ ⊢ wp frame _ _ (bodyAt0 t) _
  iintro ⟨HΦ, Ho, H0, H1⟩
  iapply (sound_kernel c Set.univ (grid0.coords t) _ _ _ _ (Y 0) _)
  isplitl [H0]; · iexact H0
  isplitl [H1]; · iexists _; iexact H1
  iintro ⟨H0, H1⟩
  isplitl [HΦ]; · iexact HΦ
  isplitl [Ho]; · iexact Ho
  isplitl [H0]
  · iexists (Y 0); isplitr; · ipureintro; exact (after0_0 Φ0 O B V c t _ _).mpr rfl
    iexact H0
  · iexists out0_1 (Y 0); isplitr; · ipureintro; exact (after0_1 Φ0 O B V c t _ _).mpr ⟨d0, by rw [h0]⟩
    iexact H1

end Cert.PackRegionK

end
-- ==== Proof.Reg0K.lean ====
/-
  The first TensorCore call as a segment of @main.

  The call is entered from the TensorCore's thread state at launch: every unscoped buffer at its contents `W0`, and
  the thread's debt term before the SparseCore call (it still owes every SparseCore of that call its start signal;
  nothing is recorded above level 0).  At the entry the state array and the result array are split out of the
  unscoped buffers; the scoped buffers no window stages ride in the pipeline's invariant; at the exit the two arrays
  come back — the state array as it was, the result array at some contents `f8` the 49 write-backs may leave — and
  are put back among the unscoped buffers, at the valuation that has `f8` at the result array and `W0` elsewhere.
  The pipeline's own waits are at the index of no call, where the thread owes nothing: that is what lets it wait while
  the start signals are still owed.
-/
import proofs.«203813_g3255585210786_cont_8to1_b_763_8_alg».proof.Proof.SetupK
import proofs.«203813_g3255585210786_cont_8to1_b_763_8_alg».proof.Proof.Reg1K
import proofs.«203813_g3255585210786_cont_8to1_b_763_8_alg».proof.Proof.PackRegionK

noncomputable section

namespace Cert.KB

open Cert.Kernel Cert.Kernel.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- The first call's proof data over the contents `W0` the region finds: its invariant the scoped buffers no window
    stages, its debt and recorded pairs those before the SparseCore call. -/
abbrev rd0 (W0 : Vals F) : (c : Dev nD) → RDat τ (Elt F) (HIx 1) ℕ UU ℕ cfg0 c := fun c =>
  Cert.PackRegionK.rdat0 (Pipeline.scopedRest spec0 c) ((K (F := F)).Otc c 0) (recBound (F := F) c 0) W0 c

/-- A valuation with the result array's contents replaced by `f8`. -/
def setV8 (c : Dev nD) (V : (b : Ref sig .tc) → Buf (Elt F) ((c : Thread nD τ).loc b))
    (f8 : Buf (Elt F) ((c : Thread nD τ).loc main_v8)) : (b : Ref sig .tc) → Buf (Elt F) ((c : Thread nD τ).loc b) :=
  fun b => if h : b = main_v8 then h ▸ f8 else V b

/-- It has `f8` at the result array, -/
theorem setV8_v8 (c : Dev nD) (V : (b : Ref sig .tc) → Buf (Elt F) ((c : Thread nD τ).loc b))
    (f8 : Buf (Elt F) ((c : Thread nD τ).loc main_v8)) : setV8 c V f8 main_v8 = f8 := by
  unfold setV8; rw [dif_pos rfl]

/-- and the old contents at every other buffer. -/
theorem setV8_ne (c : Dev nD) (V : (b : Ref sig .tc) → Buf (Elt F) ((c : Thread nD τ).loc b))
    (f8 : Buf (Elt F) ((c : Thread nD τ).loc main_v8)) {b : Ref sig .tc} (hb : b ≠ main_v8) : setV8 c V f8 b = V b := by
  unfold setV8; rw [dif_neg hb]

/-- The state array is not the result array. -/
theorem arrRef0_ne : Pipeline.arrRef spec0 0 ≠ main_v8 := by decide

/-- Everything the TensorCore owes is owed at the index of some call: at the index of none, nothing. -/
theorem Otc_none (c : Dev nD) (n : ℕ) (g : GSem nD τ sig) : ((K (F := F)).Otc c n) g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c' _ => ?_
    rw [tallyAt_apply, if_neg (fun h => nomatch h.2)]
  · rfl

set_option backward.isDefEq.respectTransparency.types false in
/-- The first call as a region segment. -/
def reg0 (W0 W1 : Vals F) :
    Pipeline.RDat.RegionSeg (pcfgs (F := F)) adm (rdats (rd0 W0) W1) ι₀ defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := Cert.PackRegionK.body_obligation0 (F := F) (U := UU) (Pipeline.scopedRest spec0 c) ((K (F := F)).Otc c 0) (recBound (F := F) c 0) W0 c ι₀
  hwaits c := Pipeline.RDat.cellsWaits_intro _ _ _ 0 c fun w s t =>
    (K (F := F)).mayWait_none _ (fun g => Otc_none (F := F) c 0 g)
  pre c := iprop(unscopedBufs c (W0 c) ∗ owesTc (F := F) c 0)
  post c := iprop(∃ f8 : Buf (Elt F) ((c : Thread nD τ).loc main_v8), ⌜(rdats (rd0 W0) W1 0 c).ArrAt 1 cfg0.N f8⌝
    ∗ unscopedBufs c (setV8 c (W0 c) f8) ∗ owesTc (F := F) c 0)
  X _ := iprop(emp)
  Y _ := iprop(emp)
  Z c := Pipeline.unscopedRest spec0 c (W0 c)
  hentry c := by
    rw [Pipeline.ownSems0_none]
    have hsplit := Pipeline.RDat.arrays_of_unscopedBufs (p := 0) (pcfgs (F := F)) adm (rdats (rd0 W0) W1) launch0.win launch0.arr_whole c
      ((rdats (rd0 W0) W1 0 c).share_full fun _ => rfl) (W0 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesTc
      icases HO with ⟨%W, %hW, HO⟩
      iexists W; isplitr
      · ipureintro; exact fun p hp => Or.inl (hW p hp)
      iexact HO
    isplitr; · iempintro
    iexact Hrest
  hin c := by
    rw [show (rdats (rd0 W0) W1 0 c).Φ 0 = Pipeline.scopedRest spec0 c from rfl]
    iintro ⟨-, -, Hr⟩
    iexact Hr
  hout c := by
    rw [Pipeline.ownSems0_none, show (rdats (rd0 W0) W1 0 c).Φ (Fin.last _) = Pipeline.scopedRest spec0 c from rfl]
    iintro Hr
    isplitr; · iempintro
    isplitr; · iempintro
    iexact Hr
  hexit c := by
    unfold RDat.arraysAt
    rw [bigSep_W0]
    iintro ⟨⟨⟨%F0, %hF0, H0⟩, ⟨%F1, %hF1, H1⟩⟩, HO, -, Hrest⟩
    imodintro
    iexists F1
    isplitr; · ipureintro; exact hF1
    isplitl [H0 H1 Hrest]
    · have h0 : F0 = W0 c main_arg0 := by
        have := hF0; rw [RDat.ArrAt_in _ _ rfl] at this; exact this
      subst h0
      have e0 : setV8 c (W0 c) F1 (Pipeline.arrRef (Pipeline.pin (pcfgs (F := F)) adm 0).spec 0) = W0 c main_arg0 :=
        setV8_ne c (W0 c) F1 arrRef0_ne
      have e1 : setV8 c (W0 c) F1 (Pipeline.arrRef (Pipeline.pin (pcfgs (F := F)) adm 0).spec 1) = F1 := setV8_v8 c (W0 c) F1
      rw [Pipeline.unscopedBufs_split (Pipeline.pin (pcfgs (F := F)) adm) 0 launch0.win.arr_unscoped launch0.win.arr_inj c (setV8 c (W0 c) F1),
        ← Pipeline.RDat.arrays_eq (pcfgs (F := F)) adm (rdats (rd0 W0) W1) 0 c launch0.arr_whole ((rdats (rd0 W0) W1 0 c).share_full fun _ => rfl)]
      unfold RDat.arrays
      rw [bigSep_W0]
      simp only [e0, e1]
      isplitl [H0 H1]
      · isplitl [H0]; · iexact H0
        iexact H1
      have hr : (Pipeline.unscopedRest (Pipeline.pin (pcfgs (F := F)) adm 0).spec c (setV8 c (W0 c) F1) : sProp 𝕄)
          = Pipeline.unscopedRest spec0 c (W0 c) := by
        unfold Pipeline.unscopedRest
        exact bigSep_congr fun b hb => by
          rw [setV8_ne c (W0 c) F1 (fun e => (Finset.mem_sdiff.mp hb).2 (Finset.mem_image.mpr ⟨1, Finset.mem_univ _, e.symm⟩))]
      rw [hr]; iexact Hrest
    unfold owesTc
    icases HO with ⟨%W, %hW, HO⟩
    iexists W; isplitr
    · ipureintro
      intro p hp
      rcases hW hp with h | ⟨w, s, rfl⟩
      · exact h
      · show (K (F := F)).lev _ none ≤ 8 * 0
        rw [SparseCore.Cfg.lev_none]
    iexact HO

end Cert.KB

end
-- ==== Proof.LaunchElemK.lean ====
/-
  The launch element of the ghost state.

  The resource algebra is a product of three components: the rounds of the four handshake semaphores, the rounds of
  the staging cells of the two pipelined calls, and the counters of the vector subcores' local copies.  The launch
  element holds, in the first, the handshake cells at their launch state with every duty token; in the second, the
  staging cells likewise with the token of every transfer the two loops issue; in the third, the unit.  Owning it
  is owning the three components separately; the second is funded into each cell's launch state and each token, and
  that family, indexed by device and pipeline, is regrouped per device, which is the form the pipelined regions of
  @main consume.  No vector subcore needs anything from the launch, the credit for the kernels' own debts is empty,
  and the free semaphores are not used.
-/
import proofs.«203813_g3255585210786_cont_8to1_b_763_8_alg».proof.Proof.SetupK

noncomputable section

namespace Cert.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The launch element: the handshake cells' rounds, the staging cells' rounds of the two pipelined calls, and the
    counters' unit. -/
def u₀ : UU :=
  ((initOf (K (F := F)).hsCells (K (F := F)).hsToks,
    initOf (Pipeline.cells cfgs Gen.cellOf_inj) (Pipeline.launchToks cfgs Gen.cellOf_inj)), 1)

/-- What @main's proof starts from on device `d`: per pipelined call, its staging cells' launch state and the duty
    tokens of the transfers its loop issues. -/
def G (d : Dev nD) : sProp 𝕄 := Pipeline.ghostOn (pcfgs (F := F)) adm EP Finset.univ d

/-- The element is the composition of its three components, each with the unit at the other two; the counters'
    component, the unit itself, is let go. -/
theorem ownU_split (a : UH) (b : UP) : (ownU ((a, b), (1 : Counters)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one (1 : Counters))))

/-- The funded ghost state, given per family over devices and pipelines, regrouped per device. -/
theorem ghost_regroup :
    iprop((bigSep Finset.univ fun c : Dev nD => bigSep Finset.univ fun p => Pipeline.cellsGhost cfgs (EP (F := F)) p c)
        ∗ (bigSep Finset.univ fun c : Dev nD => bigSep Finset.univ fun p => (Pipeline.toksInit cfgs (EP (F := F)) p c : sProp 𝕄)))
      ⊢ bigSep Finset.univ (G (F := F)) := by
  rw [← bigSep_sep']
  exact bigSep_mono fun c _ =>
    show iprop((bigSep Finset.univ fun p => Pipeline.cellsGhost cfgs (EP (F := F)) p c)
        ∗ bigSep Finset.univ fun p => (Pipeline.toksInit cfgs (EP (F := F)) p c : sProp 𝕄)) ⊢ G (F := F) c
    from Entails.of_eq (by unfold G Pipeline.ghostOn Pipeline.PerCore.ghostOn; rw [bigSep_sep'] <;> rfl)

theorem hu₀ (P : (K (F := F)).Pay (nD := nD) (Val := Elt F) (Name := ℕ) (U := UU)) (hx : ∀ q thr, P.x q thr = iprop(emp)) :
    iprop(ownU (u₀ (F := F)) ∗ P.oxCred ∗ (K (F := F)).freeSems0)
      ⊢ |={Set.univ}=> iprop(BI.own (EH (initOf (K (F := F)).hsCells (K (F := F)).hsToks)) ∗ bigSep Finset.univ (G (F := F))
          ∗ bigSep Finset.univ fun thr : Thread nD τ => bigSep Finset.univ fun q : Fin 1 => P.x q thr) := by
  unfold u₀
  iintro ⟨Hu, -, -⟩
  ihave H := (ownU_split _ _) $$ Hu
  icases H with ⟨HH, HP⟩
  imod (Pipeline.fund_ghost cfgs (EP (F := F)) Gen.cellOf_inj) $$ HP with ⟨Hg, Ht⟩
  imodintro
  isplitl [HH]; · iexact HH
  isplitl [Hg Ht]
  · iapply ghost_regroup
    isplitl [Hg] <;> iassumption
  · rw [show (bigSep Finset.univ fun thr : Thread nD τ => bigSep Finset.univ fun q : Fin 1 => P.x q thr) = (iprop(emp) : sProp 𝕄) from by
      rw [bigSep_congr fun thr _ => (bigSep_congr fun q _ => hx q thr).trans (bigSep_emp_const _), bigSep_emp_const]; rfl]
    iempintro

end Cert.KB

end
-- ==== Proof.FinalK.lean ====
/-
  Reading the claim off the final memory.

  At the end of @main the TensorCore of each device holds, whole and at full share, the result array and the six
  argument arrays, the arguments at the contents the launch memory gave them.  The state interpretation agrees with
  every held array on every index, so the final memory has the result at the value held and the arguments
  unchanged.  A location on the TensorCore spelt through the launch theorem's name of the thread is the claim's own.
-/
import proofs.«203813_g3255585210786_cont_8to1_b_763_8_alg».proof.Proof.SetupK

noncomputable section

namespace Cert.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The TensorCore thread as the launch theorem names it is the thread the claim names: their locations agree. -/
theorem T_loc (d : Dev nD) (b : Ref sig .tc) : (SparseCore.T (τ := τ) d).loc b = (d.tc : Thread nD τ).loc b := rfl

/-- The result array and the six argument arrays of device `d`, on its TensorCore. -/
abbrev vLoc (d : Dev nD) : Loc nD τ sig := (SparseCore.T d).loc main_v14
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev a5Loc (d : Dev nD) : Loc nD τ sig := (SparseCore.T d).loc main_arg5

/-- The state interpretation agrees with an array held whole, and is kept. -/
theorem agree_keep (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hf⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  · iexact HSI

/-- What the TensorCore of device `d` holds at the end of @main: the result at `v`, the arguments as launched. -/
abbrev FIN (d : Dev nD) (v : Buf (Elt F) (vLoc d)) : sProp 𝕄 :=
  iprop((vLoc d ↦{fullShare} v) ∗ (a0Loc d ↦{fullShare} m (a0Loc d)) ∗ (a1Loc d ↦{fullShare} m (a1Loc d))
    ∗ (a2Loc d ↦{fullShare} m (a2Loc d)) ∗ (a3Loc d ↦{fullShare} m (a3Loc d)) ∗ (a4Loc d ↦{fullShare} m (a4Loc d))
    ∗ (a5Loc d ↦{fullShare} m (a5Loc d)))

/-- What the claim says of device `d` in a final state: the result is `v`, the arguments are unchanged. -/
def fq (d : Dev nD) (v : Buf (Elt F) (vLoc d)) (s' : Phys nD τ sig (Elt F)) : Prop :=
  s'.mem.mem (vLoc d) = v ∧ s'.mem.mem (a0Loc d) = m (a0Loc d) ∧ s'.mem.mem (a1Loc d) = m (a1Loc d)
    ∧ s'.mem.mem (a2Loc d) = m (a2Loc d) ∧ s'.mem.mem (a3Loc d) = m (a3Loc d) ∧ s'.mem.mem (a4Loc d) = m (a4Loc d)
    ∧ s'.mem.mem (a5Loc d) = m (a5Loc d)

theorem hfin (d : Dev nD) (v : Buf (Elt F) (vLoc d)) (s' : Phys nD τ sig (Elt F)) :
    iprop(((vLoc d ↦{fullShare} v) ∗ (a0Loc d ↦{fullShare} m (a0Loc d)) ∗ (a1Loc d ↦{fullShare} m (a1Loc d))
        ∗ (a2Loc d ↦{fullShare} m (a2Loc d)) ∗ (a3Loc d ↦{fullShare} m (a3Loc d)) ∗ (a4Loc d ↦{fullShare} m (a4Loc d))
        ∗ (a5Loc d ↦{fullShare} m (a5Loc d))) ∗ SI s')
      ⊢ (⌜s'.mem.mem (vLoc d) = v ∧ s'.mem.mem (a0Loc d) = m (a0Loc d) ∧ s'.mem.mem (a1Loc d) = m (a1Loc d)
          ∧ s'.mem.mem (a2Loc d) = m (a2Loc d) ∧ s'.mem.mem (a3Loc d) = m (a3Loc d) ∧ s'.mem.mem (a4Loc d) = m (a4Loc d)
          ∧ s'.mem.mem (a5Loc d) = m (a5Loc d)⌝ : sProp 𝕄) := by
  iintro ⟨⟨Hv, H0, H1, H2, H3, H4, H5⟩, HSI⟩
  ihave H := (agree_keep s' _ _) $$ [HSI Hv]
  · isplitl [HSI] <;> iassumption
  icases H with ⟨%hv, HSI⟩
  ihave H := (agree_keep s' _ _) $$ [HSI H0]
  · isplitl [HSI] <;> iassumption
  icases H with ⟨%h0, HSI⟩
  ihave H := (agree_keep s' _ _) $$ [HSI H1]
  · isplitl [HSI] <;> iassumption
  icases H with ⟨%h1, HSI⟩
  ihave H := (agree_keep s' _ _) $$ [HSI H2]
  · isplitl [HSI] <;> iassumption
  icases H with ⟨%h2, HSI⟩
  ihave H := (agree_keep s' _ _) $$ [HSI H3]
  · isplitl [HSI] <;> iassumption
  icases H with ⟨%h3, HSI⟩
  ihave H := (agree_keep s' _ _) $$ [HSI H4]
  · isplitl [HSI] <;> iassumption
  icases H with ⟨%h4, HSI⟩
  ihave H := (agree_keep s' _ _) $$ [HSI H5]
  · isplitl [HSI] <;> iassumption
  icases H with ⟨%h5, -⟩
  ipureintro
  exact ⟨hv, h0, h1, h2, h3, h4, h5⟩

/-- The same, in the launch theorem's shape. -/
theorem hfin' (d : Dev nD) (v : Buf (Elt F) (vLoc d)) (s' : Phys nD τ sig (Elt F)) :
    iprop(FIN m d v ∗ SI s') ⊢ (⌜fq m d v s'⌝ : sProp 𝕄) := hfin m d v s'

/-- The final state's facts on device `d` are the claim's conjuncts at the claim's own spelling of the locations. -/
theorem fq_claim (d : Dev nD) (v : Buf (Elt F) (vLoc d)) (s' : Phys nD τ sig (Elt F)) (h : fq m d v s') :
    s'.mem.mem ((d.tc : Thread nD τ).loc main_v14) = v
      ∧ s'.mem.mem ((d.tc : Thread nD τ).loc main_arg0) = m ((d.tc : Thread nD τ).loc main_arg0)
      ∧ s'.mem.mem ((d.tc : Thread nD τ).loc main_arg1) = m ((d.tc : Thread nD τ).loc main_arg1)
      ∧ s'.mem.mem ((d.tc : Thread nD τ).loc main_arg2) = m ((d.tc : Thread nD τ).loc main_arg2)
      ∧ s'.mem.mem ((d.tc : Thread nD τ).loc main_arg3) = m ((d.tc : Thread nD τ).loc main_arg3)
      ∧ s'.mem.mem ((d.tc : Thread nD τ).loc main_arg4) = m ((d.tc : Thread nD τ).loc main_arg4)
      ∧ s'.mem.mem ((d.tc : Thread nD τ).loc main_arg5) = m ((d.tc : Thread nD τ).loc main_arg5) := h

end Cert.KB

end
-- ==== Proof.HostIdxK.lean ====
/-
  What the host operations leave in the buffers the three calls read, as explicit functions of what they were computed
  from: the flat index list and the slot-major validity flags (the read-out nodes' rows of the neighbour slots and of
  the flags, 352 zero rows appended, transposed), the bias as a row, the packed words as one flat table, the gathered
  words slot-major, and the read-out nodes' own packed words in blocks.
-/
import proofs.«203813_g3255585210786_cont_8to1_b_763_8_alg».proof.Proof.HostSegsK
import Idealize.ShloMosaic.Lib.StableHlo.Run

noncomputable section

namespace Cert.KB

open Cert.Kernel Cert.Kernel.Gen
open Idealize.ShloMosaic Idealize.ShloMosaic.StableHlo
open Idealize.ShloMosaic.TcCoe

variable {F : FTy → Type} [FloatOps F]

/-- Rows 1024 … 99999 of a node-by-slot array, 352 zero rows appended, slot-major. -/
def slotMajor (x : IVec S100000x8 32) : IVec S8x99328 32 :=
  transpose S8x99328 [1, 0]
    (pad S99328x8 ![0, 0] ![352, 0] ![0, 0] (extractStridedSlice S98976x8 ![1024, 0] x slices_S100000x8_S98976x8_1024_0)
      (constantI S_ 32 0#32) pads_S98976x8_S99328x8_03520_000 h_S_) transposes_S99328x8_S8x99328_1_0

/-- The flat index list. -/
def idxF (adj : IVec S100000x8 32) : IVec S794624 32 := shapeCast S794624 (slotMajor adj) shapeCasts_S8x99328_S794624

/-! ## Before the first call -/

theorem WA_v3 (W : Valuation τ sig (Elt F)) :
    (WA (F := F) W (Proc.devRef .tc main_v3) : S794624.Idx → BitVec 32) = idxF (W (Proc.devRef .tc main_arg1)) := by
  dsimp only [WA, opsA]
  after_results
  rfl

theorem WA_v6 (W : Valuation τ sig (Elt F)) :
    (WA (F := F) W (Proc.devRef .tc main_v6) : S8x99328.Idx → BitVec 32) = slotMajor (W (Proc.devRef .tc main_arg2)) := by
  dsimp only [WA, opsA]
  after_results
  rfl

theorem WA_v7 (W : Valuation τ sig (Elt F)) :
    (WA (F := F) W (Proc.devRef .tc main_v7) : S1x128.Idx → F .f32)
      = shapeCast S1x128 (W (Proc.devRef .tc main_arg5) : S128.Idx → F .f32) shapeCasts_S128_S1x128 := by
  dsimp only [WA, opsA]
  after_results
  rfl

/-- Every index names an entry of the flat table. -/
theorem idxF_lt (adj : IVec S100000x8 32) (h : ∀ i, (adj i).toNat < 100000) (j : S794624.Idx) : (idxF adj j).toNat < 100352 := by
  unfold idxF slotMajor shapeCast transpose pad extractStridedSlice
  dsimp only
  split
  · exact lt_trans (h _) (by decide)
  · simp [constantI]

/-! ## Between the first call and the SparseCore call -/

theorem WB_v9 (W : Valuation τ sig (Elt F)) :
    (WB (F := F) W (Proc.devRef .tc main_v9) : S100352.Idx → BitVec 32)
      = shapeCast S100352 (W (Proc.devRef .tc main_v8) : S49x16x128.Idx → BitVec 32) shapeCasts_S49x16x128_S100352 := by
  dsimp only [WB, opsB]
  after_results
  rfl

theorem WB_v3 (W : Valuation τ sig (Elt F)) : WB (F := F) W (Proc.devRef .tc main_v3) = W (Proc.devRef .tc main_v3) := by
  dsimp only [WB, opsB]
  after_results

/-! ## After the SparseCore call -/

theorem WC_v11 (W : Valuation τ sig (Elt F)) :
    (WC (F := F) W (Proc.devRef .tc main_v11) : S8x99328.Idx → BitVec 32)
      = shapeCast S8x99328 (W (Proc.devRef .tc main_v10) : S794624.Idx → BitVec 32) shapeCasts_S794624_S8x99328 := by
  dsimp only [WC, opsC]
  after_results
  rfl

theorem WC_v13 (W : Valuation τ sig (Elt F)) :
    (WC (F := F) W (Proc.devRef .tc main_v13) : S97x8x128.Idx → BitVec 32)
      = shapeCast S97x8x128 (extractStridedSlice S99328 ![1024] (W (Proc.devRef .tc main_v9) : S100352.Idx → BitVec 32) slices_S100352_S99328_1024)
          shapeCasts_S99328_S97x8x128 := by
  dsimp only [WC, opsC]
  after_results
  rfl

end Cert.KB

end
-- ==== Proof.ScTask.TripK.lean ====
/-
  One trip of the gather task's chunk loops, and the data facts it rests on.

  A vector subcore holds three scratches: the table (100352 words), one chunk of 6208 index words, and 6208 gathered
  words.  A chunk's loop makes 388 trips; trip `t` loads the sixteen index words at `16 t`, reads the table at the
  entries they name, and stores the sixteen entries at `16 t` of the gathered scratch.  The invariant before trip `k`
  (`inv`): the table scratch is the table, the index scratch is the chunk, and each of the first `16 k` gathered words
  is the table entry its index word names (`Done`).  The four loops of the task are the same region over different
  names, so the trip is proved once per loop by the same steps.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«203813_g3255585210786_cont_8to1_b_763_8_alg».proof.Proof.Gen.Kernel
import proofs.«203813_g3255585210786_cont_8to1_b_763_8_alg».proof.Proof.Gen.Kernel.Skeleton

noncomputable section

namespace Cert.ScTaskK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {X : Type} [URA X]

abbrev ΛP : Labels := Pipeline.Sig Λ₀ (Fin 2) fun p => (pcfgs (F := F) p).Adm
abbrev K : SparseCore.Cfg τ sig (ΛP (F := F)) 1 := sc (F := F)
abbrev 𝒱₀ : Variants := Variants.none

local notation "𝕄" => MT nD τ sig (HIx 1) (Elt F) ℕ (X × Counters) ℕ

abbrev tabW : Memref sig .scVector .hbm S100352 .i32 := Memref.whole main_v9_scv
abbrev idxW : Memref sig .scVector .hbm S794624 .i32 := Memref.whole main_v3_scv
abbrev outW : Memref sig .scVector .hbm S794624 .i32 := Memref.whole main_v10_scv
abbrev sT : Memref sig .scVector .vmem S100352 .i32 := Memref.whole cc1_scratch0
abbrev sI : Memref sig .scVector .vmem S6208 .i32 := Memref.whole cc1_scratch1
abbrev sO : Memref sig .scVector .vmem S6208 .i32 := Memref.whole cc1_scratch2

abbrev cV (L : grid1.Coords) : Fin τ.nSC := (L 0).castLE hcore1
abbrev jV (L : grid1.Coords) : Fin τ.nSub := (L 1).castLE hsub1

variable [FloatOps F]

variable (d : Dev nD) (L : grid1.Coords)

/-- The vector subcore that runs the task at grid point `L`. -/
abbrev thr : Thread nD τ := V d (cV L) (jV L)

/-- The table entry a word names (the remainder only makes the function total: under `PreIdx` it is the word itself). -/
def ent (n : Nat) : S100352.Idx := ValueIdx.ix1 (⟨n % 100352, Nat.mod_lt _ (by decide)⟩ : Fin 100352)

omit [FloatOps F] in
/-- An indexed load through one index vector reads, lane by lane, the entry the lane's word names. -/
theorem loadIdx_eq (f : Vec F S100352 .i32) (v : IVec S16 32)
    (h : ∀ a x, ((![v] : Fin 1 → IVec S16 32) a x).toNat < S100352.size a) (x : S16.Idx) :
    loadIdx f ![v] h x = f (ent (v x).toNat) := by
  unfold loadIdx
  congr 1
  funext a
  have ha : a = 0 := Subsingleton.elim _ _
  subst ha
  apply Fin.ext
  have := h 0 x
  show ((![v] : Fin 1 → IVec S16 32) 0 x).toNat = (v x).toNat % 100352
  exact (Nat.mod_eq_of_lt this).symm

/-- The gathered scratch is done below `n`: each of its first `n` words is the table scratch's entry named by the
    index scratch's word at the same place. -/
def Done (T : Buf (Elt F) ((sT).view.loc (thr d L))) (I : Buf (Elt F) ((sI).view.loc (thr d L)))
    (g : Buf (Elt F) ((sO).view.loc (thr d L))) (n : Nat) : Prop :=
  ∀ y : S6208.Idx, (y 0).val < n →
    (sO : Memref sig .scVector .vmem S6208 .i32).view.read (Elt F) g y
      = (sT : Memref sig .scVector .vmem S100352 .i32).view.read (Elt F) T
          (ent (((sI : Memref sig .scVector .vmem S6208 .i32).view.read (Elt F) I y : BitVec 32)).toNat)

omit [FloatOps F] in
theorem done_zero (T : Buf (Elt F) ((sT).view.loc (thr d L))) (I : Buf (Elt F) ((sI).view.loc (thr d L)))
    (g : Buf (Elt F) ((sO).view.loc (thr d L))) : Done d L T I g (16 * 0) :=
  fun _ h => absurd h (by omega)

omit [FloatOps F] in
/-- One trip: sixteen words loaded at `16 n`, the table read at them, the sixteen results stored at `16 n`. -/
theorem done_step (n : Nat) {o2 o3 : Fin 1 → Nat} (ho2 : o2 = ![16 * n]) (ho3 : o3 = ![16 * n])
    (p2 : ∀ a, o2 a + S16.size a ≤ S6208.size a) (p3 : ∀ a, o3 a + S16.size a ≤ S6208.size a)
    (T : Buf (Elt F) ((sT).view.loc (thr d L))) (I : Buf (Elt F) ((sI).view.loc (thr d L)))
    (g : Buf (Elt F) ((sO).view.loc (thr d L)))
    (h : ∀ a x, ((![View.readAt (Elt F) (sI : Memref sig .scVector .vmem S6208 .i32).view (Rect.unit (s := S6208) o2 S16.size p2).toLoadRect I] : Fin 1 → IVec S16 32) a x).toNat < S100352.size a)
    (hd : Done d L T I g (16 * n)) :
    Done d L T I ((sO : Memref sig .scVector .vmem S6208 .i32).view.writes (Elt F) g
      [⟨Rect.unit (s := S6208) o3 S16.size p3,
        loadIdx (View.read (Elt F) ((sT : Memref sig .scVector .vmem S100352 .i32).access (Rect.whole S100352)) T)
          ![View.readAt (Elt F) (sI : Memref sig .scVector .vmem S6208 .i32).view (Rect.unit (s := S6208) o2 S16.size p2).toLoadRect I] h⟩])
      (16 * (n + 1)) := by
  subst ho2 ho3
  intro y hy
  by_cases hm : y ∈ (Rect.unit (s := S6208) ![16 * n] S16.size p3).set
  · rw [← Rect.map_emb_univ] at hm
    obtain ⟨x, -, rfl⟩ := Finset.mem_map.mp hm
    have e : View.read (Elt F) ((sT : Memref sig .scVector .vmem S100352 .i32).access (Rect.whole S100352)) T = T :=
      Memref.read_access_whole (Elt F) (cc1_scratch0 : Ref sig .scVector) T
    rw [View.read_writes_cons_emb, loadIdx_eq, e]
    rfl
  · have hlt : (y 0).val < 16 * n := by
      by_contra hge
      apply hm
      rw [Rect.mem_set_unit]
      intro a
      have ha : a = 0 := Subsingleton.elim _ _
      subst ha
      have e1 : (![16 * n] : Fin 1 → Nat) 0 = 16 * n := rfl
      have e2 : S16.size 0 = 16 := rfl
      rw [e1, e2]
      omega
    rw [View.read_writes_apply_of_forall_not_mem _ _ _ _ (by
      intro p hp
      rw [List.mem_singleton] at hp
      subst hp
      exact hm)]
    exact hd y hlt

/-- The table scratch holds the table. -/
def TabHolds (tab : Buf (Elt F) ((tabW).view.loc (thr d L))) (T : Buf (Elt F) ((sT).view.loc (thr d L))) : Prop :=
  ∀ z, (sT : Memref sig .scVector .vmem S100352 .i32).view.read (Elt F) T z
    = (tabW : Memref sig .scVector .hbm S100352 .i32).view.read (Elt F) tab z

/-- The index scratch holds the chunk of the index array that the slice `sl` addresses. -/
def IdxHolds (sl : Memref sig .scVector .hbm S6208 .i32) (idx : sl.view.ty.Contents (Elt F)) (I : Buf (Elt F) ((sI).view.loc (thr d L))) : Prop :=
  ∀ y, (sI : Memref sig .scVector .vmem S6208 .i32).view.read (Elt F) I y = sl.view.read (Elt F) idx y

/-- Every word of the index array names a table entry. -/
def IdxOK (idx : Buf (Elt F) ((idxW).view.loc (thr d L))) : Prop := ∀ j, (idx j : BitVec 32).toNat < 100352

/-- Before trip `k` of a chunk's loop: the table scratch at the table, the index scratch at the chunk, the gathered
    scratch done below `16 k`. -/
def inv (tab : Buf (Elt F) ((tabW).view.loc (thr d L))) (sl : Memref sig .scVector .hbm S6208 .i32) (idx : sl.view.ty.Contents (Elt F))
    (k : Nat) (_ : Unit) : sProp 𝕄 :=
  iprop(∃ T I g, ((sT).view.loc (thr d L) ↦{fullShare} T) ∗ ((sI).view.loc (thr d L) ↦{fullShare} I)
    ∗ ((sO).view.loc (thr d L) ↦{fullShare} g) ∗ ⌜TabHolds d L tab T ∧ IdxHolds d L sl idx I ∧ Done d L T I g (16 * k)⌝)

abbrev iSl0 : Memref sig .scVector .hbm S6208 .i32 := idxW.slice (Rect.unit (s := S794624) (k1_off1 L 0#32) S6208.size (k1_off1_inb L 0)) (fun _ => rfl)
abbrev iSl1 : Memref sig .scVector .hbm S6208 .i32 := idxW.slice (Rect.unit (s := S794624) (k1_off1 L 6208#32) S6208.size (k1_off1_inb L 1)) (fun _ => rfl)
abbrev iSl2 : Memref sig .scVector .hbm S6208 .i32 := idxW.slice (Rect.unit (s := S794624) (k1_off1 L 12416#32) S6208.size (k1_off1_inb L 2)) (fun _ => rfl)
abbrev iSl3 : Memref sig .scVector .hbm S6208 .i32 := idxW.slice (Rect.unit (s := S794624) (k1_off1 L 18624#32) S6208.size (k1_off1_inb L 3)) (fun _ => rfl)
abbrev oSl0 : Memref sig .scVector .hbm S6208 .i32 := outW.slice (Rect.unit (s := S794624) (k1_off1 L 0#32) S6208.size (k1_off1_inb L 0)) (fun _ => rfl)
abbrev oSl1 : Memref sig .scVector .hbm S6208 .i32 := outW.slice (Rect.unit (s := S794624) (k1_off1 L 6208#32) S6208.size (k1_off1_inb L 1)) (fun _ => rfl)
abbrev oSl2 : Memref sig .scVector .hbm S6208 .i32 := outW.slice (Rect.unit (s := S794624) (k1_off1 L 12416#32) S6208.size (k1_off1_inb L 2)) (fun _ => rfl)
abbrev oSl3 : Memref sig .scVector .hbm S6208 .i32 := outW.slice (Rect.unit (s := S794624) (k1_off1 L 18624#32) S6208.size (k1_off1_inb L 3)) (fun _ => rfl)

/-- Trip `t` of chunk loop 1: sixteen index words are loaded and each names a table entry (the check), the table scratch is read at
    them, the sixteen entries are stored at the same place of the gathered scratch. -/
theorem trip1 (tab : Buf (Elt F) ((tabW).view.loc (thr d L))) (sl : Memref sig .scVector .hbm S6208 .i32) (idx : sl.view.ty.Contents (Elt F))
    (hidx : ∀ y, (sl.view.read (Elt F) idx y : BitVec 32).toNat < 100352) (t : Fin k1_t1_loop.trips) (u : Unit) :
    inv (X := X) d L tab sl idx t.val u
      ⊢ wp frame (wpE (defs₀ (F := F)) 𝒱₀ (thr d L) none) Set.univ
          (k1_t1_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8 t u)
          (inv (X := X) d L tab sl idx (t.val + 1)) := by
  unfold k1_t1_body inv
  iintro ⟨%T, %I, %g, Hs0, Hs1, Hs2, %hh⟩
  obtain ⟨hT, hIh, hd⟩ := hh
  have hchk : k1_chk1 (View.readAt (Elt F) (sI : Memref sig .scVector .vmem S6208 .i32).view (Rect.unit (s := S6208) (k1_off2 t) S16.size (k1_off2_inb t)).toLoadRect I) := by
    intro a x
    have ha : a = 0 := Subsingleton.elim _ _
    subst ha
    have h1 := hidx ((Rect.unit (s := S6208) (k1_off2 t) S16.size (k1_off2_inb t)).toLoadRect.idx x)
    rw [← hIh] at h1
    exact h1
  sl_exec
  iapply (SparseCore.wp_vectorLoadIdx 𝒱₀ (thr d L) none Set.univ (base := (sT : Memref sig .scVector .vmem S100352 .i32)) (S := Finset.univ) (q := fullShare) (Finset.subset_univ _)) $$ Hs0; iintro Hs0
  sl_exec
  sl_step
  iexists T, I, _
  isplitl [Hs0]; · iexact Hs0
  isplitl [Hs1]; · iexact Hs1
  isplitl [Hs2]; · iexact Hs2
  ipureintro
  exact ⟨hT, hIh, done_step d L t.val (k1_off2_eq t) (k1_off3_eq t) _ _ T I g _ hd⟩

/-- Trip `t` of chunk loop 2: sixteen index words are loaded and each names a table entry (the check), the table scratch is read at
    them, the sixteen entries are stored at the same place of the gathered scratch. -/
theorem trip2 (tab : Buf (Elt F) ((tabW).view.loc (thr d L))) (sl : Memref sig .scVector .hbm S6208 .i32) (idx : sl.view.ty.Contents (Elt F))
    (hidx : ∀ y, (sl.view.read (Elt F) idx y : BitVec 32).toNat < 100352) (t : Fin k1_t2_loop.trips) (u : Unit) :
    inv (X := X) d L tab sl idx t.val u
      ⊢ wp frame (wpE (defs₀ (F := F)) 𝒱₀ (thr d L) none) Set.univ
          (k1_t2_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8 t u)
          (inv (X := X) d L tab sl idx (t.val + 1)) := by
  unfold k1_t2_body inv
  iintro ⟨%T, %I, %g, Hs0, Hs1, Hs2, %hh⟩
  obtain ⟨hT, hIh, hd⟩ := hh
  have hchk : k1_chk2 (View.readAt (Elt F) (sI : Memref sig .scVector .vmem S6208 .i32).view (Rect.unit (s := S6208) (k1_off4 t) S16.size (k1_off4_inb t)).toLoadRect I) := by
    intro a x
    have ha : a = 0 := Subsingleton.elim _ _
    subst ha
    have h1 := hidx ((Rect.unit (s := S6208) (k1_off4 t) S16.size (k1_off4_inb t)).toLoadRect.idx x)
    rw [← hIh] at h1
    exact h1
  sl_exec
  iapply (SparseCore.wp_vectorLoadIdx 𝒱₀ (thr d L) none Set.univ (base := (sT : Memref sig .scVector .vmem S100352 .i32)) (S := Finset.univ) (q := fullShare) (Finset.subset_univ _)) $$ Hs0; iintro Hs0
  sl_exec
  sl_step
  iexists T, I, _
  isplitl [Hs0]; · iexact Hs0
  isplitl [Hs1]; · iexact Hs1
  isplitl [Hs2]; · iexact Hs2
  ipureintro
  exact ⟨hT, hIh, done_step d L t.val (k1_off4_eq t) (k1_off5_eq t) _ _ T I g _ hd⟩

/-- Trip `t` of chunk loop 3: sixteen index words are loaded and each names a table entry (the check), the table scratch is read at
    them, the sixteen entries are stored at the same place of the gathered scratch. -/
theorem trip3 (tab : Buf (Elt F) ((tabW).view.loc (thr d L))) (sl : Memref sig .scVector .hbm S6208 .i32) (idx : sl.view.ty.Contents (Elt F))
    (hidx : ∀ y, (sl.view.read (Elt F) idx y : BitVec 32).toNat < 100352) (t : Fin k1_t3_loop.trips) (u : Unit) :
    inv (X := X) d L tab sl idx t.val u
      ⊢ wp frame (wpE (defs₀ (F := F)) 𝒱₀ (thr d L) none) Set.univ
          (k1_t3_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8 t u)
          (inv (X := X) d L tab sl idx (t.val + 1)) := by
  unfold k1_t3_body inv
  iintro ⟨%T, %I, %g, Hs0, Hs1, Hs2, %hh⟩
  obtain ⟨hT, hIh, hd⟩ := hh
  have hchk : k1_chk3 (View.readAt (Elt F) (sI : Memref sig .scVector .vmem S6208 .i32).view (Rect.unit (s := S6208) (k1_off6 t) S16.size (k1_off6_inb t)).toLoadRect I) := by
    intro a x
    have ha : a = 0 := Subsingleton.elim _ _
    subst ha
    have h1 := hidx ((Rect.unit (s := S6208) (k1_off6 t) S16.size (k1_off6_inb t)).toLoadRect.idx x)
    rw [← hIh] at h1
    exact h1
  sl_exec
  iapply (SparseCore.wp_vectorLoadIdx 𝒱₀ (thr d L) none Set.univ (base := (sT : Memref sig .scVector .vmem S100352 .i32)) (S := Finset.univ) (q := fullShare) (Finset.subset_univ _)) $$ Hs0; iintro Hs0
  sl_exec
  sl_step
  iexists T, I, _
  isplitl [Hs0]; · iexact Hs0
  isplitl [Hs1]; · iexact Hs1
  isplitl [Hs2]; · iexact Hs2
  ipureintro
  exact ⟨hT, hIh, done_step d L t.val (k1_off6_eq t) (k1_off7_eq t) _ _ T I g _ hd⟩

/-- Trip `t` of chunk loop 4: sixteen index words are loaded and each names a table entry (the check), the table scratch is read at
    them, the sixteen entries are stored at the same place of the gathered scratch. -/
theorem trip4 (tab : Buf (Elt F) ((tabW).view.loc (thr d L))) (sl : Memref sig .scVector .hbm S6208 .i32) (idx : sl.view.ty.Contents (Elt F))
    (hidx : ∀ y, (sl.view.read (Elt F) idx y : BitVec 32).toNat < 100352) (t : Fin k1_t4_loop.trips) (u : Unit) :
    inv (X := X) d L tab sl idx t.val u
      ⊢ wp frame (wpE (defs₀ (F := F)) 𝒱₀ (thr d L) none) Set.univ
          (k1_t4_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8 t u)
          (inv (X := X) d L tab sl idx (t.val + 1)) := by
  unfold k1_t4_body inv
  iintro ⟨%T, %I, %g, Hs0, Hs1, Hs2, %hh⟩
  obtain ⟨hT, hIh, hd⟩ := hh
  have hchk : k1_chk4 (View.readAt (Elt F) (sI : Memref sig .scVector .vmem S6208 .i32).view (Rect.unit (s := S6208) (k1_off8 t) S16.size (k1_off8_inb t)).toLoadRect I) := by
    intro a x
    have ha : a = 0 := Subsingleton.elim _ _
    subst ha
    have h1 := hidx ((Rect.unit (s := S6208) (k1_off8 t) S16.size (k1_off8_inb t)).toLoadRect.idx x)
    rw [← hIh] at h1
    exact h1
  sl_exec
  iapply (SparseCore.wp_vectorLoadIdx 𝒱₀ (thr d L) none Set.univ (base := (sT : Memref sig .scVector .vmem S100352 .i32)) (S := Finset.univ) (q := fullShare) (Finset.subset_univ _)) $$ Hs0; iintro Hs0
  sl_exec
  sl_step
  iexists T, I, _
  isplitl [Hs0]; · iexact Hs0
  isplitl [Hs1]; · iexact Hs1
  isplitl [Hs2]; · iexact Hs2
  ipureintro
  exact ⟨hT, hIh, done_step d L t.val (k1_off8_eq t) (k1_off9_eq t) _ _ T I g _ hd⟩

end Cert.ScTaskK

end
-- ==== Proof.ScTask.BodyK.lean ====
/-
  The gather task of one vector subcore, as a weakest-precondition statement.

  The task copies the whole table (100352 words) into a scratch of its own; then, for each of its four chunks of 6208
  index words: copies the chunk into a second scratch, runs the chunk's loop of 388 trips (Trip.lean: after it every
  word of the third scratch is the table entry named by the index word at the same place), and copies the third scratch
  out to the chunk's slice of the result.  Each copy is issued and awaited on a semaphore of its own, one outstanding at
  a time (chunk 2's index copy is issued at the end of the first part of the printed body and awaited at the start of
  the rest).  From the table and the index array held at any read share, the four result slices and the three
  scratches held outright, the nine semaphores at zero — and every index word below 100352, which makes each trip's
  check pass — the task ends with the same, the four result slices gathered (`Gathered`).
-/
import proofs.«203813_g3255585210786_cont_8to1_b_763_8_alg».proof.Proof.ScTask.TripK

noncomputable section

namespace Cert.ScTaskK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {X : Type} [URA X]

local notation "𝕄" => MT nD τ sig (HIx 1) (Elt F) ℕ (X × Counters) ℕ

variable [FloatOps F]

variable (d : Dev nD) (L : grid1.Coords)

/-- A DMA semaphore of the task's vector subcore, as a cell. -/
abbrev cell (sm : DmaSem sig) : GSem nD τ sig := (thr d L, SemLoc.dma sm)

/-- The out slice `osl` holds, word by word, the table entry named by the same word of the index slice `isl`. -/
def Gathered (tab : Buf (Elt F) ((tabW).view.loc (thr d L))) (isl osl : Memref sig .scVector .hbm S6208 .i32)
    (idx : isl.view.ty.Contents (Elt F)) (g : osl.view.ty.Contents (Elt F)) : Prop :=
  ∀ y : S6208.Idx, (osl.view.read (Elt F) g y : BitVec 32)
    = (tabW : Memref sig .scVector .hbm S100352 .i32).view.read (Elt F) tab (ent ((isl.view.read (Elt F) idx y : BitVec 32)).toNat)

theorem trips1 : Scf.trips k1_t1_loop.lb k1_t1_loop.ub k1_t1_loop.st = 388 := by decide
theorem trips2 : Scf.trips k1_t2_loop.lb k1_t2_loop.ub k1_t2_loop.st = 388 := by decide
theorem trips3 : Scf.trips k1_t3_loop.lb k1_t3_loop.ub k1_t3_loop.st = 388 := by decide
theorem trips4 : Scf.trips k1_t4_loop.lb k1_t4_loop.ub k1_t4_loop.st = 388 := by decide

omit [FloatOps F] in
/-- A chunk's loop done (388 trips of sixteen words), the gathered scratch copied whole into the out slice: the slice is gathered. -/
theorem gathered_of (tab : Buf (Elt F) ((tabW).view.loc (thr d L))) (isl osl : Memref sig .scVector .hbm S6208 .i32)
    (idx : isl.view.ty.Contents (Elt F))
    (T : Buf (Elt F) ((sT).view.loc (thr d L))) (I : Buf (Elt F) ((sI).view.loc (thr d L))) (g : Buf (Elt F) ((sO).view.loc (thr d L)))
    (hT : TabHolds d L tab T) (hI : IdxHolds d L isl idx I) (hd : Done d L T I g (16 * 388))
    (w : (Rect.whole S6208).shape.Idx → Elt F .i32)
    (hw : ∀ y, w y = (sO : Memref sig .scVector .vmem S6208 .i32).view.read (Elt F) g y) (junk : osl.view.ty.Contents (Elt F)) :
    Gathered d L tab isl osl idx (osl.view.writes (Elt F) junk [⟨Rect.whole S6208, w⟩]) := by
  intro y
  have h1 := View.read_writes_cons_emb osl.view junk (Rect.whole S6208) w [] y
  rw [Rect.emb_whole_apply] at h1
  have hy : (y 0).val < 16 * 388 := (y 0).isLt
  rw [h1, hw, hd y hy, hT, hI]

/-- The task at grid point `L`. -/
theorem task_body (O : CellTallies nD τ sig (HIx 1)) (W : Waits sig (HIx 1)) (hO : ∀ g, O g none = 0)
    (qt qi : PosShare TreeShare)
    (tab : Buf (Elt F) ((tabW).view.loc (thr d L))) (idx : Buf (Elt F) ((idxW).view.loc (thr d L)))
    (hpre : IdxOK d L idx)
    (fo0 fo1 fo2 fo3 : Buf (Elt F) ((outW).view.loc (thr d L)))
    (f0 : Buf (Elt F) ((sT).view.loc (thr d L))) (f1 : Buf (Elt F) ((sI).view.loc (thr d L))) (f2 : Buf (Elt F) ((sO).view.loc (thr d L))) :
    iprop(levAts (K (F := F)).L (K (F := F)).lev
        ∗ ((tabW).view.loc (thr d L) ↦{qt} tab)
        ∗ ((idxW).view.loc (thr d L) ↦{qi} idx)
        ∗ ((oSl0 L).view.loc (thr d L) ↦[(oSl0 L).view.set]{fullShare} fo0)
        ∗ ((oSl1 L).view.loc (thr d L) ↦[(oSl1 L).view.set]{fullShare} fo1)
        ∗ ((oSl2 L).view.loc (thr d L) ↦[(oSl2 L).view.set]{fullShare} fo2)
        ∗ ((oSl3 L).view.loc (thr d L) ↦[(oSl3 L).view.set]{fullShare} fo3)
        ∗ ((sT).view.loc (thr d L) ↦{fullShare} f0)
        ∗ ((sI).view.loc (thr d L) ↦{fullShare} f1)
        ∗ ((sO).view.loc (thr d L) ↦{fullShare} f2)
        ∗ semVal (cell d L cc1_scoped0.sem) 0 ∗ semVal (cell d L cc1_scoped1.sem) 0 ∗ semVal (cell d L cc1_scoped2.sem) 0
        ∗ semVal (cell d L cc1_scoped3.sem) 0 ∗ semVal (cell d L cc1_scoped4.sem) 0 ∗ semVal (cell d L cc1_scoped5.sem) 0
        ∗ semVal (cell d L cc1_scoped6.sem) 0 ∗ semVal (cell d L cc1_scoped7.sem) 0 ∗ semVal (cell d L cc1_scoped8.sem) 0
        ∗ owes (thr d L) O W : sProp 𝕄)
      ⊢ wp frame (wpE (defs₀ (F := F)) 𝒱₀ (thr d L) none) Set.univ
          (cc1__gather_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8)
          fun _ => iprop(((tabW).view.loc (thr d L) ↦{qt} tab)
            ∗ ((idxW).view.loc (thr d L) ↦{qi} idx)
            ∗ (∃ g, ((oSl0 L).view.loc (thr d L) ↦[(oSl0 L).view.set]{fullShare} g) ∗ ⌜Gathered d L tab (iSl0 L) (oSl0 L) idx g⌝)
            ∗ (∃ g, ((oSl1 L).view.loc (thr d L) ↦[(oSl1 L).view.set]{fullShare} g) ∗ ⌜Gathered d L tab (iSl1 L) (oSl1 L) idx g⌝)
            ∗ (∃ g, ((oSl2 L).view.loc (thr d L) ↦[(oSl2 L).view.set]{fullShare} g) ∗ ⌜Gathered d L tab (iSl2 L) (oSl2 L) idx g⌝)
            ∗ (∃ g, ((oSl3 L).view.loc (thr d L) ↦[(oSl3 L).view.set]{fullShare} g) ∗ ⌜Gathered d L tab (iSl3 L) (oSl3 L) idx g⌝)
            ∗ (∃ f, (sT).view.loc (thr d L) ↦{fullShare} f)
            ∗ (∃ f, (sI).view.loc (thr d L) ↦{fullShare} f)
            ∗ (∃ f, (sO).view.loc (thr d L) ↦{fullShare} f)
            ∗ semVal (cell d L cc1_scoped0.sem) 0 ∗ semVal (cell d L cc1_scoped1.sem) 0 ∗ semVal (cell d L cc1_scoped2.sem) 0
            ∗ semVal (cell d L cc1_scoped3.sem) 0 ∗ semVal (cell d L cc1_scoped4.sem) 0 ∗ semVal (cell d L cc1_scoped5.sem) 0
            ∗ semVal (cell d L cc1_scoped6.sem) 0 ∗ semVal (cell d L cc1_scoped7.sem) 0 ∗ semVal (cell d L cc1_scoped8.sem) 0
            ∗ ∃ W', ⌜∀ p ∈ W', p ∈ W ∨ p.2 = none⌝ ∗ owes (thr d L) O W') := by
  rw [cc1__gather_body_eq_skeleton]; unfold cc1__gather_body_skel
  rw [wp_bind]
  rw [k1_part1_eq_skeleton]; unfold k1_part1_skel
  iintro ⟨#Hlv, Htab, Hidx, Ho0, Ho1, Ho2, Ho3, Hs0, Hs1, Hs2, Hc0, Hc1, Hc2, Hc3, Hc4, Hc5, Hc6, Hc7, Hc8, HO⟩
  ihave Hmw := ((K (F := F)).mayWaits_none (thr := thr d L) hO) $$ Hlv
  sl_exec
  sl_for (inv (X := X) d L tab (iSl0 L) idx) $$ [Hs0 Hs1 Hs2]
  case region => exact trip1 d L tab (iSl0 L) idx (fun y => hpre _)
  · unfold inv
    iexists _, _, _
    isplitl [Hs0]; · iexact Hs0
    isplitl [Hs1]; · iexact Hs1
    isplitl [Hs2]; · iexact Hs2
    ipureintro
    refine ⟨?_, ?_, done_zero d L _ _ _⟩
    · intro z; rw [View.write_whole_univ]; rfl
    · intro y; rw [View.write_whole_univ]; rfl
  iintro %_ HI
  unfold inv
  icases HI with ⟨%T0, %I0, %g0, Hs0, Hs1, Hs2, %hh0⟩
  sl_exec
  sl_for (inv (X := X) d L tab (iSl1 L) idx) $$ [Hs0 Hs1 Hs2]
  case region => exact trip2 d L tab (iSl1 L) idx (fun y => hpre _)
  · unfold inv
    iexists _, _, _
    isplitl [Hs0]; · iexact Hs0
    isplitl [Hs1]; · iexact Hs1
    isplitl [Hs2]; · iexact Hs2
    ipureintro
    refine ⟨?_, ?_, done_zero d L _ _ _⟩
    · exact hh0.1
    · intro y; rw [View.write_whole_univ]; rfl
  iintro %_ HI
  unfold inv
  icases HI with ⟨%T1, %I1, %g1, Hs0, Hs1, Hs2, %hh1⟩
  sl_exec
  sl_for (inv (X := X) d L tab (iSl2 L) idx) $$ [Hs0 Hs1 Hs2]
  case region => exact trip3 d L tab (iSl2 L) idx (fun y => hpre _)
  · unfold inv
    iexists _, _, _
    isplitl [Hs0]; · iexact Hs0
    isplitl [Hs1]; · iexact Hs1
    isplitl [Hs2]; · iexact Hs2
    ipureintro
    refine ⟨?_, ?_, done_zero d L _ _ _⟩
    · exact hh1.1
    · intro y; rw [View.write_whole_univ]; rfl
  iintro %_ HI
  unfold inv
  icases HI with ⟨%T2, %I2, %g2, Hs0, Hs1, Hs2, %hh2⟩
  sl_exec
  sl_for (inv (X := X) d L tab (iSl3 L) idx) $$ [Hs0 Hs1 Hs2]
  case region => exact trip4 d L tab (iSl3 L) idx (fun y => hpre _)
  · unfold inv
    iexists _, _, _
    isplitl [Hs0]; · iexact Hs0
    isplitl [Hs1]; · iexact Hs1
    isplitl [Hs2]; · iexact Hs2
    ipureintro
    refine ⟨?_, ?_, done_zero d L _ _ _⟩
    · exact hh2.1
    · intro y; rw [View.write_whole_univ]; rfl
  iintro %_ HI
  unfold inv
  icases HI with ⟨%T3, %I3, %g3, Hs0, Hs1, Hs2, %hh3⟩
  sl_exec
  sl_step
  have hd0 : Done d L T0 I0 g0 (16 * 388) := by have h := hh0.2.2; rw [trips1] at h; exact h
  have hd1 : Done d L T1 I1 g1 (16 * 388) := by have h := hh1.2.2; rw [trips2] at h; exact h
  have hd2 : Done d L T2 I2 g2 (16 * 388) := by have h := hh2.2.2; rw [trips3] at h; exact h
  have hd3 : Done d L T3 I3 g3 (16 * 388) := by have h := hh3.2.2; rw [trips4] at h; exact h
  isplitl [Htab]; · iexact Htab
  isplitl [Hidx]; · iexact Hidx
  isplitl [Ho0]
  · iexists _; isplitl [Ho0]; · iexact Ho0
    ipureintro; exact gathered_of d L tab (iSl0 L) (oSl0 L) idx T0 I0 g0 hh0.1 hh0.2.1 hd0 _ (fun _ => rfl) _
  isplitl [Ho1]
  · iexists _; isplitl [Ho1]; · iexact Ho1
    ipureintro; exact gathered_of d L tab (iSl1 L) (oSl1 L) idx T1 I1 g1 hh1.1 hh1.2.1 hd1 _ (fun _ => rfl) _
  isplitl [Ho2]
  · iexists _; isplitl [Ho2]; · iexact Ho2
    ipureintro; exact gathered_of d L tab (iSl2 L) (oSl2 L) idx T2 I2 g2 hh2.1 hh2.2.1 hd2 _ (fun _ => rfl) _
  isplitl [Ho3]
  · iexists _; isplitl [Ho3]; · iexact Ho3
    ipureintro; exact gathered_of d L tab (iSl3 L) (oSl3 L) idx T3 I3 g3 hh3.1 hh3.2.1 hd3 _ (fun _ => rfl) _
  isplitl [Hs0]; · iexists _; iexact Hs0
  isplitl [Hs1]; · iexists _; iexact Hs1
  isplitl [Hs2]; · iexists _; iexact Hs2
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  iexists _; isplitr
  rotate_left
  · iexact HO
  · ipureintro
    intro p hp
    simp only [Finset.mem_insert] at hp
    rcases hp with rfl | rfl | rfl | rfl | rfl | rfl | rfl | rfl | rfl | hp
    exacts [.inr rfl, .inr rfl, .inr rfl, .inr rfl, .inr rfl, .inr rfl, .inr rfl, .inr rfl, .inr rfl, .inl hp]

end Cert.ScTaskK

end
-- ==== Proof.ScTaskK.lean ====
/-
  The gather kernel's task as the launch theorem's obligation, and what the one SparseCore call carries.

  The call hands each of the two SparseCores a read share of the packed table (at whatever contents the first call left,
  under a predicate the caller chooses) and of the index array, and the result slices of its sixteen tasks; a SparseCore
  deals each task a share of its shares and the task's four slices.  The task (Body.lean) returns them with every slice
  gathered: each word the table entry its index word names.
-/
import proofs.«203813_g3255585210786_cont_8to1_b_763_8_alg».proof.Proof.SetupK
import proofs.«203813_g3255585210786_cont_8to1_b_763_8_alg».proof.Proof.ScTask.BodyK

noncomputable section

namespace Cert.ScTaskK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ Cert.KB.UU ℕ

/-- An array of the TensorCore's, as a location of device `d`. -/
abbrev tLoc (d : Dev nD) (b : Ref sig .tc) : Loc nD τ sig := (SparseCore.T d).loc b

/-- The grid point of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The read share of SparseCore `c`, and of its vector subcore `i`. -/
abbrev qC (c : Fin 2) : PosShare TreeShare := shareTok fullShare 2 c
abbrev qV (c : Fin 2) (i : Fin 16) : PosShare TreeShare := shareTok (qC c) 16 i

variable [FloatOps F]

variable (TabOK : (d : Dev nD) → Buf (Elt F) (tLoc d main_v9) → Prop) (idx : (d : Dev nD) → Buf (Elt F) (tLoc d main_v3))

/-- The four result slices of the task at `L`, at some contents. -/
def outGo (d : Dev nD) (L : grid1.Coords) : sProp 𝕄 :=
  iprop((∃ f, tLoc d main_v10 ↦[(oSl0 L).view.set]{fullShare} f) ∗ (∃ f, tLoc d main_v10 ↦[(oSl1 L).view.set]{fullShare} f)
    ∗ (∃ f, tLoc d main_v10 ↦[(oSl2 L).view.set]{fullShare} f) ∗ (∃ f, tLoc d main_v10 ↦[(oSl3 L).view.set]{fullShare} f))

/-- The same, gathered out of the table `tab`. -/
def outTd (d : Dev nD) (L : grid1.Coords) (tab : Buf (Elt F) (tLoc d main_v9)) : sProp 𝕄 :=
  iprop((∃ g, (tLoc d main_v10 ↦[(oSl0 L).view.set]{fullShare} g) ∗ ⌜Gathered d L tab (iSl0 L) (oSl0 L) (idx d) g⌝)
    ∗ (∃ g, (tLoc d main_v10 ↦[(oSl1 L).view.set]{fullShare} g) ∗ ⌜Gathered d L tab (iSl1 L) (oSl1 L) (idx d) g⌝)
    ∗ (∃ g, (tLoc d main_v10 ↦[(oSl2 L).view.set]{fullShare} g) ∗ ⌜Gathered d L tab (iSl2 L) (oSl2 L) (idx d) g⌝)
    ∗ (∃ g, (tLoc d main_v10 ↦[(oSl3 L).view.set]{fullShare} g) ∗ ⌜Gathered d L tab (iSl3 L) (oSl3 L) (idx d) g⌝))

instance outGo_storable (d : Dev nD) (L : grid1.Coords) : BI.Storable (upEmb : UEmb _ 𝕄) (outGo (F := F) d L) := by
  unfold outGo; infer_instance
instance outTd_storable (d : Dev nD) (L : grid1.Coords) (tab : Buf (Elt F) (tLoc d main_v9)) :
    BI.Storable (upEmb : UEmb _ 𝕄) (outTd idx d L tab) := by
  unfold outTd; infer_instance

/-- What the one call hands SparseCore `c`: its read share of the table (at some contents the predicate `TabOK` admits) and of
    the index array, and its sixteen tasks' result slices; -/
def stP (d : Dev nD) (c : Fin 2) : sProp 𝕄 :=
  iprop(∃ tab, ⌜TabOK d tab⌝ ∗ (tLoc d main_v9 ↦{qC c} tab) ∗ (tLoc d main_v3 ↦{qC c} idx d)
    ∗ bigSep Finset.univ fun i : Fin 16 => outGo (F := F) d (coordsV c i))
/-- what it takes back: the same, the slices gathered out of that table; -/
def dnP (d : Dev nD) (c : Fin 2) : sProp 𝕄 :=
  iprop(∃ tab, ⌜TabOK d tab⌝ ∗ (tLoc d main_v9 ↦{qC c} tab) ∗ (tLoc d main_v3 ↦{qC c} idx d)
    ∗ bigSep Finset.univ fun i : Fin 16 => outTd idx d (coordsV c i) tab)
/-- what task `i` of SparseCore `c` is handed: its share of the SparseCore's shares, and its four result slices; -/
def goP (d : Dev nD) (c : Fin 2) (i : Fin 16) : sProp 𝕄 :=
  iprop(∃ tab, ⌜TabOK d tab⌝ ∗ (tLoc d main_v9 ↦{qV c i} tab) ∗ (tLoc d main_v3 ↦{qV c i} idx d) ∗ outGo (F := F) d (coordsV c i))
/-- and what it hands back. -/
def tdP (d : Dev nD) (c : Fin 2) (i : Fin 16) : sProp 𝕄 :=
  iprop(∃ tab, ⌜TabOK d tab⌝ ∗ (tLoc d main_v9 ↦{qV c i} tab) ∗ (tLoc d main_v3 ↦{qV c i} idx d) ∗ outTd idx d (coordsV c i) tab)

instance stP_storable (d : Dev nD) (c : Fin 2) : BI.Storable (upEmb : UEmb _ 𝕄) (stP TabOK idx d c) := by
  unfold stP
  haveI : ∀ i : Fin 16, BI.Storable (upEmb : UEmb _ 𝕄) (outGo (F := F) d (coordsV c i)) := fun i => outGo_storable d _
  infer_instance
instance dnP_storable (d : Dev nD) (c : Fin 2) : BI.Storable (upEmb : UEmb _ 𝕄) (dnP TabOK idx d c) := by
  unfold dnP
  haveI : ∀ (tab : Buf (Elt F) (tLoc d main_v9)) (i : Fin 16), BI.Storable (upEmb : UEmb _ 𝕄) (outTd idx d (coordsV c i) tab) :=
    fun tab i => outTd_storable idx d _ tab
  infer_instance
instance goP_storable (d : Dev nD) (c : Fin 2) (i : Fin 16) : BI.Storable (upEmb : UEmb _ 𝕄) (goP TabOK idx d c i) := by unfold goP; infer_instance
instance tdP_storable (d : Dev nD) (c : Fin 2) (i : Fin 16) : BI.Storable (upEmb : UEmb _ 𝕄) (tdP TabOK idx d c i) := by unfold tdP; infer_instance

/-- The payloads of the one SparseCore call; the task's proof consumes nothing of the launch's. -/
def P : (Cert.KB.K (F := F)).Pay (nD := nD) (Val := Elt F) (Name := ℕ) (U := Cert.KB.UU) where
  st := fun q d c => match q with | 0 => stP TabOK idx d (Fin.cast Cert.KB.nCore_zero c)
  dn := fun q d c => match q with | 0 => dnP TabOK idx d (Fin.cast Cert.KB.nCore_zero c)
  go := fun q d c i => match q with | 0 => goP TabOK idx d (Fin.cast Cert.KB.nCore_zero c) (Fin.cast Cert.KB.nSub_zero i)
  td := fun q d c i => match q with | 0 => tdP TabOK idx d (Fin.cast Cert.KB.nCore_zero c) (Fin.cast Cert.KB.nSub_zero i)
  x := fun _ _ => iprop(emp)

instance P_storable : (P TabOK idx).IsStorable where
  st q d c := match q with | 0 => (inferInstance : BI.Storable (upEmb : UEmb _ 𝕄) (stP TabOK idx d (Fin.cast Cert.KB.nCore_zero c)))
  dn q d c := match q with | 0 => (inferInstance : BI.Storable (upEmb : UEmb _ 𝕄) (dnP TabOK idx d (Fin.cast Cert.KB.nCore_zero c)))
  go q d c i := match q with | 0 => (inferInstance : BI.Storable (upEmb : UEmb _ 𝕄) (goP TabOK idx d (Fin.cast Cert.KB.nCore_zero c) (Fin.cast Cert.KB.nSub_zero i)))
  td q d c i := match q with | 0 => (inferInstance : BI.Storable (upEmb : UEmb _ 𝕄) (tdP TabOK idx d (Fin.cast Cert.KB.nCore_zero c) (Fin.cast Cert.KB.nSub_zero i)))

variable (d : Dev nD) (L : grid1.Coords)

omit [FloatOps F] in
theorem cell_ne {a b : DmaSem sig} (h : a ≠ b) : cell d L a ≠ cell d L b :=
  fun e => h (SemLoc.dma.inj (Prod.mk.inj e).2)

omit [FloatOps F] in
/-- The nine copy semaphores are among the subcore's own cells. -/
theorem ownSems0_V :
    (ownSems0 (thr d L) : sProp 𝕄)
      = iprop(semVal (cell d L cc1_scoped0.sem) 0 ∗ semVal (cell d L cc1_scoped1.sem) 0 ∗ semVal (cell d L cc1_scoped2.sem) 0 ∗ semVal (cell d L cc1_scoped3.sem) 0 ∗ semVal (cell d L cc1_scoped4.sem) 0 ∗ semVal (cell d L cc1_scoped5.sem) 0 ∗ semVal (cell d L cc1_scoped6.sem) 0 ∗ semVal (cell d L cc1_scoped7.sem) 0 ∗ semVal (cell d L cc1_scoped8.sem) 0
          ∗ bigSep ((((((((((ownCells (thr d L)).erase (cell d L cc1_scoped0.sem)).erase (cell d L cc1_scoped1.sem)).erase (cell d L cc1_scoped2.sem)).erase (cell d L cc1_scoped3.sem)).erase (cell d L cc1_scoped4.sem)).erase (cell d L cc1_scoped5.sem)).erase (cell d L cc1_scoped6.sem)).erase (cell d L cc1_scoped7.sem)).erase (cell d L cc1_scoped8.sem)) fun g => semVal g 0) := by
  unfold SparseCore.Cfg.ownSems0
  rw [SparseCore.bigSep_erase' ((mem_ownCells (g := cell d L cc1_scoped0.sem)).mpr ⟨rfl, by show (SemLoc.dma cc1_scoped0.sem : SemLoc sig).isScoped .scVector = true; decide⟩),
    SparseCore.bigSep_erase' (Finset.mem_erase.mpr ⟨cell_ne d L (show (cc1_scoped1.sem : DmaSem sig) ≠ cc1_scoped0.sem by decide), (mem_ownCells (g := cell d L cc1_scoped1.sem)).mpr ⟨rfl, by show (SemLoc.dma cc1_scoped1.sem : SemLoc sig).isScoped .scVector = true; decide⟩⟩),
    SparseCore.bigSep_erase' (Finset.mem_erase.mpr ⟨cell_ne d L (show (cc1_scoped2.sem : DmaSem sig) ≠ cc1_scoped1.sem by decide), Finset.mem_erase.mpr ⟨cell_ne d L (show (cc1_scoped2.sem : DmaSem sig) ≠ cc1_scoped0.sem by decide), (mem_ownCells (g := cell d L cc1_scoped2.sem)).mpr ⟨rfl, by show (SemLoc.dma cc1_scoped2.sem : SemLoc sig).isScoped .scVector = true; decide⟩⟩⟩),
    SparseCore.bigSep_erase' (Finset.mem_erase.mpr ⟨cell_ne d L (show (cc1_scoped3.sem : DmaSem sig) ≠ cc1_scoped2.sem by decide), Finset.mem_erase.mpr ⟨cell_ne d L (show (cc1_scoped3.sem : DmaSem sig) ≠ cc1_scoped1.sem by decide), Finset.mem_erase.mpr ⟨cell_ne d L (show (cc1_scoped3.sem : DmaSem sig) ≠ cc1_scoped0.sem by decide), (mem_ownCells (g := cell d L cc1_scoped3.sem)).mpr ⟨rfl, by show (SemLoc.dma cc1_scoped3.sem : SemLoc sig).isScoped .scVector = true; decide⟩⟩⟩⟩),
    SparseCore.bigSep_erase' (Finset.mem_erase.mpr ⟨cell_ne d L (show (cc1_scoped4.sem : DmaSem sig) ≠ cc1_scoped3.sem by decide), Finset.mem_erase.mpr ⟨cell_ne d L (show (cc1_scoped4.sem : DmaSem sig) ≠ cc1_scoped2.sem by decide), Finset.mem_erase.mpr ⟨cell_ne d L (show (cc1_scoped4.sem : DmaSem sig) ≠ cc1_scoped1.sem by decide), Finset.mem_erase.mpr ⟨cell_ne d L (show (cc1_scoped4.sem : DmaSem sig) ≠ cc1_scoped0.sem by decide), (mem_ownCells (g := cell d L cc1_scoped4.sem)).mpr ⟨rfl, by show (SemLoc.dma cc1_scoped4.sem : SemLoc sig).isScoped .scVector = true; decide⟩⟩⟩⟩⟩),
    SparseCore.bigSep_erase' (Finset.mem_erase.mpr ⟨cell_ne d L (show (cc1_scoped5.sem : DmaSem sig) ≠ cc1_scoped4.sem by decide), Finset.mem_erase.mpr ⟨cell_ne d L (show (cc1_scoped5.sem : DmaSem sig) ≠ cc1_scoped3.sem by decide), Finset.mem_erase.mpr ⟨cell_ne d L (show (cc1_scoped5.sem : DmaSem sig) ≠ cc1_scoped2.sem by decide), Finset.mem_erase.mpr ⟨cell_ne d L (show (cc1_scoped5.sem : DmaSem sig) ≠ cc1_scoped1.sem by decide), Finset.mem_erase.mpr ⟨cell_ne d L (show (cc1_scoped5.sem : DmaSem sig) ≠ cc1_scoped0.sem by decide), (mem_ownCells (g := cell d L cc1_scoped5.sem)).mpr ⟨rfl, by show (SemLoc.dma cc1_scoped5.sem : SemLoc sig).isScoped .scVector = true; decide⟩⟩⟩⟩⟩⟩),
    SparseCore.bigSep_erase' (Finset.mem_erase.mpr ⟨cell_ne d L (show (cc1_scoped6.sem : DmaSem sig) ≠ cc1_scoped5.sem by decide), Finset.mem_erase.mpr ⟨cell_ne d L (show (cc1_scoped6.sem : DmaSem sig) ≠ cc1_scoped4.sem by decide), Finset.mem_erase.mpr ⟨cell_ne d L (show (cc1_scoped6.sem : DmaSem sig) ≠ cc1_scoped3.sem by decide), Finset.mem_erase.mpr ⟨cell_ne d L (show (cc1_scoped6.sem : DmaSem sig) ≠ cc1_scoped2.sem by decide), Finset.mem_erase.mpr ⟨cell_ne d L (show (cc1_scoped6.sem : DmaSem sig) ≠ cc1_scoped1.sem by decide), Finset.mem_erase.mpr ⟨cell_ne d L (show (cc1_scoped6.sem : DmaSem sig) ≠ cc1_scoped0.sem by decide), (mem_ownCells (g := cell d L cc1_scoped6.sem)).mpr ⟨rfl, by show (SemLoc.dma cc1_scoped6.sem : SemLoc sig).isScoped .scVector = true; decide⟩⟩⟩⟩⟩⟩⟩),
    SparseCore.bigSep_erase' (Finset.mem_erase.mpr ⟨cell_ne d L (show (cc1_scoped7.sem : DmaSem sig) ≠ cc1_scoped6.sem by decide), Finset.mem_erase.mpr ⟨cell_ne d L (show (cc1_scoped7.sem : DmaSem sig) ≠ cc1_scoped5.sem by decide), Finset.mem_erase.mpr ⟨cell_ne d L (show (cc1_scoped7.sem : DmaSem sig) ≠ cc1_scoped4.sem by decide), Finset.mem_erase.mpr ⟨cell_ne d L (show (cc1_scoped7.sem : DmaSem sig) ≠ cc1_scoped3.sem by decide), Finset.mem_erase.mpr ⟨cell_ne d L (show (cc1_scoped7.sem : DmaSem sig) ≠ cc1_scoped2.sem by decide), Finset.mem_erase.mpr ⟨cell_ne d L (show (cc1_scoped7.sem : DmaSem sig) ≠ cc1_scoped1.sem by decide), Finset.mem_erase.mpr ⟨cell_ne d L (show (cc1_scoped7.sem : DmaSem sig) ≠ cc1_scoped0.sem by decide), (mem_ownCells (g := cell d L cc1_scoped7.sem)).mpr ⟨rfl, by show (SemLoc.dma cc1_scoped7.sem : SemLoc sig).isScoped .scVector = true; decide⟩⟩⟩⟩⟩⟩⟩⟩),
    SparseCore.bigSep_erase' (Finset.mem_erase.mpr ⟨cell_ne d L (show (cc1_scoped8.sem : DmaSem sig) ≠ cc1_scoped7.sem by decide), Finset.mem_erase.mpr ⟨cell_ne d L (show (cc1_scoped8.sem : DmaSem sig) ≠ cc1_scoped6.sem by decide), Finset.mem_erase.mpr ⟨cell_ne d L (show (cc1_scoped8.sem : DmaSem sig) ≠ cc1_scoped5.sem by decide), Finset.mem_erase.mpr ⟨cell_ne d L (show (cc1_scoped8.sem : DmaSem sig) ≠ cc1_scoped4.sem by decide), Finset.mem_erase.mpr ⟨cell_ne d L (show (cc1_scoped8.sem : DmaSem sig) ≠ cc1_scoped3.sem by decide), Finset.mem_erase.mpr ⟨cell_ne d L (show (cc1_scoped8.sem : DmaSem sig) ≠ cc1_scoped2.sem by decide), Finset.mem_erase.mpr ⟨cell_ne d L (show (cc1_scoped8.sem : DmaSem sig) ≠ cc1_scoped1.sem by decide), Finset.mem_erase.mpr ⟨cell_ne d L (show (cc1_scoped8.sem : DmaSem sig) ≠ cc1_scoped0.sem by decide), (mem_ownCells (g := cell d L cc1_scoped8.sem)).mpr ⟨rfl, by show (SemLoc.dma cc1_scoped8.sem : SemLoc sig).isScoped .scVector = true; decide⟩⟩⟩⟩⟩⟩⟩⟩⟩)]

omit [FloatOps F] in
/-- The three scratches are among the subcore's own buffers. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-- The task as the launch's obligation states it: from the task's operands (read shares of the table and of the index
    array at any share `q`, its four result slices), the subcore's scoped storage and what it owes. -/
theorem tile_body (hF : (Cert.KB.K (F := F)).Facts) (hpre : ∀ d j, (idx d j : BitVec 32).toNat < 100352) (q : PosShare TreeShare)
    (O : CellTallies nD τ sig (HIx 1)) (W : Waits sig (HIx 1)) (hO : ∀ g, O g none = 0) :
    iprop(levAts (Cert.KB.K (F := F)).L (Cert.KB.K (F := F)).lev ∗ emp
        ∗ (∃ tab, ⌜TabOK d tab⌝ ∗ (tLoc d main_v9 ↦{q} tab) ∗ (tLoc d main_v3 ↦{q} idx d) ∗ outGo (F := F) d L)
        ∗ scopedBufs (thr d L) ∗ scopedSems0 (thr d L) ∗ owes (thr d L) O W : sProp 𝕄)
      ⊢ wp frame (wpE (defs₀ (F := F)) 𝒱₀ (thr d L) none) Set.univ
          (cc1__gather_body L tabW (Memref.isWhole_whole _) idxW (Memref.isWhole_whole _) outW (Memref.isWhole_whole _)
            sT (Memref.isWhole_whole _) sI (Memref.isWhole_whole _) sO (Memref.isWhole_whole _)
            cc1_scoped0 cc1_scoped1 cc1_scoped2 cc1_scoped3 cc1_scoped4 cc1_scoped5 cc1_scoped6 cc1_scoped7 cc1_scoped8)
          fun _ => iprop((∃ tab, ⌜TabOK d tab⌝ ∗ (tLoc d main_v9 ↦{q} tab) ∗ (tLoc d main_v3 ↦{q} idx d) ∗ outTd idx d L tab)
            ∗ scopedBufs (thr d L) ∗ scopedSems0 (thr d L)
            ∗ ∃ W', ⌜∀ p ∈ W', p ∈ W ∨ p.2 = none⌝ ∗ owes (thr d L) O W') := by
  rw [(Cert.KB.K (F := F)).scopedBufs_V hF d (cV L) (jV L), SparseCore.Cfg.scopedSems0_V (Val := Elt F) d (cV L) (jV L), ownSems0_V, ownBufs_V]
  unfold outGo outTd
  iintro ⟨Hlv, -, ⟨%tab, %hT, Htab, Hidx, ⟨%fo0, Ho0⟩, ⟨%fo1, Ho1⟩, ⟨%fo2, Ho2⟩, ⟨%fo3, Ho3⟩⟩, ⟨⟨%f0, Hs0⟩, ⟨%f1, Hs1⟩, ⟨%f2, Hs2⟩, Hbufs⟩,
    ⟨Hc0, Hc1, Hc2, Hc3, Hc4, Hc5, Hc6, Hc7, Hc8, Hsems⟩, HO⟩
  iapply (wp_wand_r frame (wpE (defs₀ (F := F)) 𝒱₀ (thr d L) none) Set.univ)
  isplitl [Hlv Htab Hidx Ho0 Ho1 Ho2 Ho3 Hs0 Hs1 Hs2 Hc0 Hc1 Hc2 Hc3 Hc4 Hc5 Hc6 Hc7 Hc8 HO]
  · iapply (task_body (X := Cert.KB.UH × Cert.KB.UP) d L O W hO q q tab (idx d) (hpre d) fo0 fo1 fo2 fo3 f0 f1 f2)
    isplitl [Hlv]; · iexact Hlv
    isplitl [Htab]; · iexact Htab
    isplitl [Hidx]; · iexact Hidx
    isplitl [Ho0]; · iexact Ho0
    isplitl [Ho1]; · iexact Ho1
    isplitl [Ho2]; · iexact Ho2
    isplitl [Ho3]; · iexact Ho3
    isplitl [Hs0]; · iexact Hs0
    isplitl [Hs1]; · iexact Hs1
    isplitl [Hs2]; · iexact Hs2
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact HO
  · iintro %_ ⟨Htab, Hidx, Hg0, Hg1, Hg2, Hg3, Hs0, Hs1, Hs2, Hc0, Hc1, Hc2, Hc3, Hc4, Hc5, Hc6, Hc7, Hc8, HW⟩
    isplitl [Htab Hidx Hg0 Hg1 Hg2 Hg3]
    · iexists tab
      isplitr; · ipureintro; exact hT
      isplitl [Htab]; · iexact Htab
      isplitl [Hidx]; · iexact Hidx
      isplitl [Hg0]; · iexact Hg0
      isplitl [Hg1]; · iexact Hg1
      isplitl [Hg2]; · iexact Hg2
      iexact Hg3
    isplitl [Hs0 Hs1 Hs2 Hbufs]
    · isplitl [Hs0]; · iexact Hs0
      isplitl [Hs1]; · iexact Hs1
      isplitl [Hs2]; · iexact Hs2
      iexact Hbufs
    isplitl [Hc0 Hc1 Hc2 Hc3 Hc4 Hc5 Hc6 Hc7 Hc8 Hsems]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      iexact Hsems
    iexact HW

/-- The body table's entry for the kernel on a vector subcore: the task at the subcore's grid point. -/
theorem defs₀_vector (c : Fin τ.nSC) (s : Fin τ.nSub) :
    defs₀ (F := F) (.scVector c s) 1 ()
      = SparseCore.onTile hcore1 hsub1 (fun c s => cc1__gather_body (coordsV c s)
          tabW (Memref.isWhole_whole _) idxW (Memref.isWhole_whole _) outW (Memref.isWhole_whole _)
          sT (Memref.isWhole_whole _) sI (Memref.isWhole_whole _) sO (Memref.isWhole_whole _)
          cc1_scoped0 cc1_scoped1 cc1_scoped2 cc1_scoped3 cc1_scoped4 cc1_scoped5 cc1_scoped6 cc1_scoped7 cc1_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation for the one vector-subcore kernel. -/
theorem tileObl (hF : (Cert.KB.K (F := F)).Facts) (hpre : ∀ d j, (idx d j : BitVec 32).toNat < 100352) :
    (Cert.KB.K (F := F)).TileObl (Cert.KB.D (F := F)) Cert.KB.𝒱 (P TabOK idx) Cert.KB.v₀ 0 := by
  intro d c i O W hO _ _
  simp only [show (P TabOK idx).ox = fun _ _ => 0 from rfl, add_zero]
  change _ ⊢ wp _ _ _ (Pipeline.liftProg (defs₀ (F := F) (.scVector ((Cert.KB.K (F := F)).core 0 c) ((Cert.KB.K (F := F)).sub 0 i)) 1 ())) _
  refine BI.Entails.trans ?_ (Pipeline.wp_liftProg (Cert.KB.D (F := F)) (Pipeline.defs_kernel pcfgs defs₀) 𝒱₀ _ Set.univ none _ _)
  have hc : ((Cert.KB.K (F := F)).core 0 c).val < grid1.bound 0 ∧ ((Cert.KB.K (F := F)).sub 0 i).val < grid1.bound 1 := ⟨c.isLt, i.isLt⟩
  rw [defs₀_vector]; simp only [SparseCore.onTile, hc, and_self, ↓reduceDIte]
  exact (tile_body TabOK idx d (coordsV ⟨_, hc.1⟩ ⟨_, hc.2⟩) hF hpre _ O W hO).trans (wp_mono frame _ _ fun _ => obl_post)

omit [FloatOps F] in
theorem bigSep_tasks (Φ : Fin 16 → sProp 𝕄) :
    (bigSep Finset.univ fun i : Fin ((Cert.KB.K (F := F)).nSub 0) => Φ (Fin.cast Cert.KB.nSub_zero i)) = bigSep Finset.univ Φ :=
  bigSep_congr fun _ _ => congrArg Φ (Fin.ext rfl)

omit [FloatOps F] in
/-- Shares of one array that come back at contents of their own agree with a share kept at `f`: they are all at `f`. -/
theorem agree_back {ι : Type} [DecidableEq ι] (ℓ : Loc nD τ sig) (r : PosShare TreeShare) (q : ι → PosShare TreeShare) (f : Buf (Elt F) ℓ)
    (A : Buf (Elt F) ℓ → Prop) (Φ : ι → Buf (Elt F) ℓ → sProp 𝕄) (s : Finset ι) :
    iprop((ℓ ↦{r} f) ∗ bigSep s fun i => iprop(∃ fi, ⌜A fi⌝ ∗ (ℓ ↦{q i} fi) ∗ Φ i fi))
      ⊢ iprop((ℓ ↦{r} f) ∗ bigSep s fun i => iprop((ℓ ↦{q i} f) ∗ Φ i f)) := by
  induction s using Finset.induction_on with
  | empty => rw [bigSep_empty, bigSep_empty]
  | insert a s ha ih =>
    rw [SparseCore.bigSep_insert' ha, SparseCore.bigSep_insert' ha]
    iintro ⟨Hr, ⟨%fa, -, Ha, HΦ⟩, Hs⟩
    ihave H := (persistent_entails_right (pointsTo_agree (ℓ := ℓ) (I := Finset.univ) (J := Finset.univ) (q₁ := r) (q₂ := q a) (f := f) (g := fa))) $$ [Hr Ha]
    · isplitl [Hr] <;> iassumption
    icases H with ⟨%hag, Hr, Ha⟩
    have e : fa = f := funext fun i => ((hag i (Finset.mem_inter.mpr ⟨Finset.mem_univ _, Finset.mem_univ _⟩)).1).symm
    subst e
    ihave H2 := ih $$ [Hr Hs]
    · isplitl [Hr] <;> iassumption
    icases H2 with ⟨Hr, Hs⟩
    isplitl [Hr]; · iexact Hr
    isplitl [Ha HΦ]; · isplitl [Ha] <;> iassumption
    iexact Hs

/-- A SparseCore's operands split among its sixteen tasks and gather back from them: each read share into sixteen
    tokens (the remainder kept with the splitter, against which the tasks' tables agree), the result slices dealt as they are. -/
theorem vecSplit : (Cert.KB.K (F := F)).VecSplit' (P TabOK idx) 0 := by
  intro d c
  show stP TabOK idx d (Fin.cast Cert.KB.nCore_zero c) ⊢ |={Set.univ}=> iprop(
      (bigSep Finset.univ fun i : Fin ((Cert.KB.K (F := F)).nSub 0) => goP TabOK idx d (Fin.cast Cert.KB.nCore_zero c) (Fin.cast Cert.KB.nSub_zero i))
      ∗ ((bigSep Finset.univ fun i : Fin ((Cert.KB.K (F := F)).nSub 0) => tdP TabOK idx d (Fin.cast Cert.KB.nCore_zero c) (Fin.cast Cert.KB.nSub_zero i))
          -∗ dnP TabOK idx d (Fin.cast Cert.KB.nCore_zero c)))
  generalize Fin.cast Cert.KB.nCore_zero c = c'
  rw [bigSep_tasks (F := F) (fun i => goP TabOK idx d c' i), bigSep_tasks (F := F) (fun i => tdP TabOK idx d c' i)]
  unfold stP dnP
  iintro ⟨%tab, %hT, Ht, Hi, Ho⟩
  ihave Ht' := (pointsTo_toks_split (qC c') 16) $$ Ht
  icases Ht' with ⟨Htr, Htt⟩
  ihave Hi' := (pointsTo_toks_split (qC c') 16) $$ Hi
  icases Hi' with ⟨Hir, Hit⟩
  imodintro
  have hgo : ∀ i : Fin 16, iprop((tLoc d main_v9 ↦{qV c' i} tab) ∗ (tLoc d main_v3 ↦{qV c' i} idx d) ∗ outGo (F := F) d (coordsV c' i))
      ⊢ goP TabOK idx d c' i := by
    intro i; unfold goP
    iintro ⟨H1, H2, H3⟩
    iexists tab
    isplitr; · ipureintro; exact hT
    isplitl [H1]; · iexact H1
    isplitl [H2]; · iexact H2
    iexact H3
  have hsplit : (bigSep Finset.univ fun i : Fin 16 => iprop((tLoc d main_v9 ↦{qV c' i} tab) ∗ (tLoc d main_v3 ↦{qV c' i} idx d) ∗ outTd idx d (coordsV c' i) tab) : sProp 𝕄)
      ⊢ iprop((bigSep Finset.univ fun i : Fin 16 => tLoc d main_v9 ↦{qV c' i} tab) ∗ (bigSep Finset.univ fun i : Fin 16 => tLoc d main_v3 ↦{qV c' i} idx d)
          ∗ bigSep Finset.univ fun i : Fin 16 => outTd idx d (coordsV c' i) tab) := by
    rw [bigSep_sep', bigSep_sep']
  have hgoAll : iprop((bigSep Finset.univ fun i : Fin 16 => tLoc d main_v9 ↦{qV c' i} tab) ∗ (bigSep Finset.univ fun i : Fin 16 => tLoc d main_v3 ↦{qV c' i} idx d)
        ∗ bigSep Finset.univ fun i : Fin 16 => outGo (F := F) d (coordsV c' i))
      ⊢ (bigSep Finset.univ (fun i : Fin 16 => goP TabOK idx d c' i) : sProp 𝕄) := by
    rw [← bigSep_sep', ← bigSep_sep']
    exact bigSep_mono (fun i _ => hgo i)
  isplitl [Htt Hit Ho]
  · iapply hgoAll
    isplitl [Htt]; · iexact Htt
    isplitl [Hit]; · iexact Hit
    iexact Ho
  iintro Htd
  unfold tdP
  ihave H := (agree_back (tLoc d main_v9) (shareDrop (qC c') 16) (fun i : Fin 16 => qV c' i) tab (TabOK d)
    (fun i t => iprop((tLoc d main_v3 ↦{qV c' i} idx d) ∗ outTd idx d (coordsV c' i) t)) Finset.univ) $$ [Htr Htd]
  · isplitl [Htr] <;> iassumption
  icases H with ⟨Htr, Hs⟩
  ihave Hs' := hsplit $$ Hs
  icases Hs' with ⟨Htt, Hit, Ho⟩
  iexists tab
  isplitr; · ipureintro; exact hT
  isplitl [Htr Htt]
  · iapply (pointsTo_toks_join (qC c') 16); isplitl [Htr]; · iexact Htr
    iexact Htt
  isplitl [Hir Hit]
  · iapply (pointsTo_toks_join (qC c') 16); isplitl [Hir]; · iexact Hir
    iexact Hit
  iexact Ho

end Cert.ScTaskK

end
-- ==== Proof.ScTask.CallK.lean ====
/-
  The SparseCore call as @main sees it: the three arrays whole before and after.

  The result array of 794624 words is the 128 slices of the 32 tasks' four chunks (slice number `8 i + 4 c + r` for
  vector subcore `i` of SparseCore `c`, chunk `r`: 6208 words each, pairwise apart, covering the array).  Before the
  call the table and the index array are split into a remainder @main keeps and one read share per SparseCore, and the
  result into the tasks' slices; after it the shares agree on the table's contents and join, and the gathered slices join
  into one valuation of the result: every word the table entry named by the index word at the same place.
-/
import proofs.«203813_g3255585210786_cont_8to1_b_763_8_alg».proof.Proof.ScTaskK

noncomputable section

namespace Cert.ScTaskK

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ Cert.KB.UU ℕ

/-! ## The 128 result slices: pairwise apart, covering the result -/

/-- Chunk `r`'s result slice and index slice of the task at `L`, spelt uniformly in `r` (at each `r` the program's own). -/
def oSl (L : grid1.Coords) (r : Fin 4) : Memref sig .scVector .hbm S6208 .i32 :=
  outW.slice (Rect.unit (s := S794624) (k1_off1 L (BitVec.ofNat 32 (6208 * r.val))) S6208.size (k1_off1_inb L r)) (fun _ => rfl)
def iSl (L : grid1.Coords) (r : Fin 4) : Memref sig .scVector .hbm S6208 .i32 :=
  idxW.slice (Rect.unit (s := S794624) (k1_off1 L (BitVec.ofNat 32 (6208 * r.val))) S6208.size (k1_off1_inb L r)) (fun _ => rfl)

/-- The first word of chunk `r` of the task at `L`. -/
def base (L : grid1.Coords) (r : Fin 4) : Nat := 49664 * (L 1).val + 24832 * (L 0).val + 6208 * r.val

/-- A slice is the 6208 words from its first. -/
theorem mem_oSl (L : grid1.Coords) (r : Fin 4) (j : S794624.Idx) :
    j ∈ (oSl L r).view.set ↔ base L r ≤ (j 0).val ∧ (j 0).val < base L r + 6208 := by
  have key : ∀ (w : BitVec 32) (hw : ∀ a, k1_off1 L w a + S6208.size a ≤ S794624.size a) (n : Nat) (_ : k1_off1 L w = ![n]),
      j ∈ ((outW : Memref sig .scVector .hbm S794624 .i32).slice (Rect.unit (s := S794624) (k1_off1 L w) S6208.size hw) (fun _ => rfl)).view.set
        ↔ n ≤ (j 0).val ∧ (j 0).val < n + 6208 := by
    intro w hw n e
    have hs : ((outW : Memref sig .scVector .hbm S794624 .i32).slice (Rect.unit (s := S794624) (k1_off1 L w) S6208.size hw) (fun _ => rfl)).view.set
        = (Rect.unit (s := S794624) (k1_off1 L w) S6208.size hw).set := by
      show ((View.whole (main_v10_scv : Ref sig .scVector)).slice _).set = _
      rw [View.set_slice]; exact Finset.map_refl
    rw [hs, Rect.mem_set_unit]
    constructor
    · intro h; have h0 := h 0; rw [e] at h0; exact h0
    · intro h a; have ha : a = 0 := Subsingleton.elim _ _; subst ha; rw [e]; exact h
  exact key (BitVec.ofNat 32 (6208 * r.val)) (k1_off1_inb L r) _ (k1_off1_eq L r)

/-- SparseCore, vector subcore, chunk. -/
abbrev Tix : Type := Fin 2 × Fin 16 × Fin 4

/-- The element set of a slice, in the result array of device `d`. -/
def KS (d : Dev nD) (t : Tix) : Finset (Idx (tLoc d main_v10)) := (oSl (coordsV t.1 t.2.1) t.2.2).view.set

theorem mem_KS (d : Dev nD) (t : Tix) (j : S794624.Idx) :
    j ∈ KS d t ↔ 6208 * (8 * t.2.1.val + 4 * t.1.val + t.2.2.val) ≤ (j 0).val ∧ (j 0).val < 6208 * (8 * t.2.1.val + 4 * t.1.val + t.2.2.val) + 6208 := by
  unfold KS
  refine (mem_oSl (coordsV t.1 t.2.1) t.2.2 j).trans ?_
  unfold base
  have h1 : ((coordsV t.1 t.2.1) 1).val = t.2.1.val := rfl
  have h0 : ((coordsV t.1 t.2.1) 0).val = t.1.val := rfl
  rw [h1, h0]
  constructor <;> intro h <;> omega

theorem KS_disjoint (d : Dev nD) :
    ∀ t ∈ (Finset.univ : Finset Tix), ∀ t' ∈ (Finset.univ : Finset Tix), t ≠ t' → Disjoint (KS d t) (KS d t') := by
  intro t _ t' _ hne
  rw [Finset.disjoint_left]
  intro j hj hj'
  rw [mem_KS] at hj hj'
  apply hne
  obtain ⟨c, i, r⟩ := t
  obtain ⟨c', i', r'⟩ := t'
  have hc := c.isLt; have hc' := c'.isLt; have hr := r.isLt; have hr' := r'.isLt
  simp only at hj hj'
  have h3 : c.val = c'.val ∧ i.val = i'.val ∧ r.val = r'.val := by omega
  exact Prod.ext (Fin.ext h3.1) (Prod.ext (Fin.ext h3.2.1) (Fin.ext h3.2.2))

theorem KS_cover (d : Dev nD) : (Finset.univ : Finset Tix).biUnion (KS d) = Finset.univ := by
  ext j
  simp only [Finset.mem_biUnion, Finset.mem_univ, true_and, iff_true]
  have hj : (j 0).val < 794624 := (j 0).isLt
  refine ⟨(⟨((j 0).val / 6208 % 8) / 4, by omega⟩, ⟨(j 0).val / 6208 / 8, by omega⟩, ⟨(j 0).val / 6208 % 4, by omega⟩), ?_⟩
  rw [mem_KS]
  simp only
  omega

theorem bigSep_univ_four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide), SparseCore.bigSep_insert' (by decide),
    SparseCore.bigSep_insert' (by decide), bigSep_singleton]

theorem bigSep_cores (Φ : Fin 2 → sProp 𝕄) :
    (bigSep Finset.univ fun c : Fin ((Cert.KB.K (F := F)).nCore 0) => Φ (Fin.cast Cert.KB.nCore_zero c)) = bigSep Finset.univ Φ :=
  bigSep_congr fun _ _ => congrArg Φ (Fin.ext rfl)

/-- The result whole is its 128 slices. -/
theorem out_slices (d : Dev nD) (f : Buf (Elt F) (tLoc d main_v10)) :
    (tLoc d main_v10 ↦{fullShare} f : sProp 𝕄) = bigSep (Finset.univ : Finset Tix) fun t => tLoc d main_v10 ↦[KS d t]{fullShare} f := by
  rw [← pointsTo_biUnion Finset.univ (ℓ := tLoc d main_v10) (KS d) (KS_disjoint d), KS_cover]

variable [FloatOps F]

variable (TabOK : (d : Dev nD) → Buf (Elt F) (tLoc d main_v9) → Prop) (idx : (d : Dev nD) → Buf (Elt F) (tLoc d main_v3))

/-- A task's four slices at one valuation are its operand. -/
theorem outGo_of_slices (d : Dev nD) (f : Buf (Elt F) (tLoc d main_v10)) (c : Fin 2) (i : Fin 16) :
    (bigSep Finset.univ fun r : Fin 4 => (tLoc d main_v10 ↦[KS d (c, i, r)]{fullShare} f : sProp 𝕄)) ⊢ outGo (F := F) d (coordsV c i) := by
  rw [bigSep_univ_four]
  unfold outGo
  iintro ⟨H0, H1, H2, H3⟩
  isplitl [H0]; · iexists f; iexact H0
  isplitl [H1]; · iexists f; iexact H1
  isplitl [H2]; · iexists f; iexact H2
  iexists f; iexact H3

/-- The result whole, dealt to the two SparseCores' sixteen tasks each. -/
theorem out_split (d : Dev nD) (f : Buf (Elt F) (tLoc d main_v10)) :
    (tLoc d main_v10 ↦{fullShare} f : sProp 𝕄)
      ⊢ bigSep Finset.univ fun c : Fin 2 => bigSep Finset.univ fun i : Fin 16 => outGo (F := F) d (coordsV c i) := by
  rw [out_slices, bigSep_univ_prod]
  refine bigSep_mono fun c _ => ?_
  rw [bigSep_univ_prod]
  exact bigSep_mono fun i _ => outGo_of_slices d f c i

/-- What @main keeps across the call: the remainders of the two read shares. -/
def Keep (d : Dev nD) : sProp 𝕄 :=
  iprop((∃ t, tLoc d main_v9 ↦{shareDrop fullShare 2} t) ∗ (tLoc d main_v3 ↦{shareDrop fullShare 2} idx d))

/-- At the call: the three arrays whole become what is kept and the two SparseCores' operands. -/
theorem st_intro (d : Dev nD) (tab : Buf (Elt F) (tLoc d main_v9)) (out0 : Buf (Elt F) (tLoc d main_v10)) (h : TabOK d tab) :
    iprop((tLoc d main_v9 ↦{fullShare} tab) ∗ (tLoc d main_v3 ↦{fullShare} idx d) ∗ (tLoc d main_v10 ↦{fullShare} out0))
      ⊢ iprop(Keep idx d ∗ bigSep Finset.univ fun c : Fin ((Cert.KB.K (F := F)).nCore 0) => (P TabOK idx).st 0 d c) := by
  show _ ⊢ iprop(Keep idx d ∗ bigSep Finset.univ fun c : Fin ((Cert.KB.K (F := F)).nCore 0) => stP TabOK idx d (Fin.cast Cert.KB.nCore_zero c))
  rw [bigSep_cores (F := F) (fun c => stP TabOK idx d c), bigSep_univ_two]
  unfold Keep stP
  iintro ⟨Ht, Hi, Ho⟩
  ihave Ht' := (pointsTo_toks_split fullShare 2) $$ Ht
  icases Ht' with ⟨Htr, Htt⟩
  ihave Hi' := (pointsTo_toks_split fullShare 2) $$ Hi
  icases Hi' with ⟨Hir, Hit⟩
  ihave Htt' := (Entails.of_eq (bigSep_univ_two (fun c : Fin 2 => (tLoc d main_v9 ↦{qC c} tab : sProp 𝕄)))) $$ Htt
  icases Htt' with ⟨Ht0, Ht1⟩
  ihave Hit' := (Entails.of_eq (bigSep_univ_two (fun c : Fin 2 => (tLoc d main_v3 ↦{qC c} idx d : sProp 𝕄)))) $$ Hit
  icases Hit' with ⟨Hi0, Hi1⟩
  ihave Ho' := (out_split (F := F) d out0) $$ Ho
  ihave Ho'' := (Entails.of_eq (bigSep_univ_two (fun c : Fin 2 => (bigSep Finset.univ fun i : Fin 16 => outGo (F := F) d (coordsV c i) : sProp 𝕄)))) $$ Ho'
  icases Ho'' with ⟨Ho0, Ho1⟩
  isplitl [Htr Hir]
  · isplitl [Htr]; · iexists tab; iexact Htr
    iexact Hir
  isplitl [Ht0 Hi0 Ho0]
  · iexists tab
    isplitr; · ipureintro; exact h
    isplitl [Ht0]; · iexact Ht0
    isplitl [Hi0]; · iexact Hi0
    iexact Ho0
  · iexists tab
    isplitr; · ipureintro; exact h
    isplitl [Ht1]; · iexact Ht1
    isplitl [Hi1]; · iexact Hi1
    iexact Ho1

/-- Slice `t` holds its part of the gather out of `tab`. -/
def GS (d : Dev nD) (tab : Buf (Elt F) (tLoc d main_v9)) (t : Tix) (g : Buf (Elt F) (tLoc d main_v10)) : Prop :=
  Gathered d (coordsV t.1 t.2.1) tab (iSl (coordsV t.1 t.2.1) t.2.2) (oSl (coordsV t.1 t.2.1) t.2.2) (idx d) g

/-- A task's four gathered slices, as a family over the chunk. -/
theorem outTd_slices (d : Dev nD) (tab : Buf (Elt F) (tLoc d main_v9)) (c : Fin 2) (i : Fin 16) :
    outTd idx d (coordsV c i) tab
      ⊢ bigSep Finset.univ fun r : Fin 4 => iprop(∃ g, ⌜GS idx d tab (c, i, r) g⌝ ∗ (tLoc d main_v10 ↦[KS d (c, i, r)]{fullShare} g)) := by
  rw [bigSep_univ_four]
  unfold outTd
  iintro ⟨⟨%g0, H0, %h0⟩, ⟨%g1, H1, %h1⟩, ⟨%g2, H2, %h2⟩, ⟨%g3, H3, %h3⟩⟩
  isplitl [H0]; · iexists g0; isplitr; · ipureintro; exact h0
                  iexact H0
  isplitl [H1]; · iexists g1; isplitr; · ipureintro; exact h1
                  iexact H1
  isplitl [H2]; · iexists g2; isplitr; · ipureintro; exact h2
                  iexact H2
  iexists g3; isplitr; · ipureintro; exact h3
  iexact H3

/-- The 128 gathered slices join into the result whole, gathered: each word the table entry its index word names. -/
theorem out_join (d : Dev nD) (tab : Buf (Elt F) (tLoc d main_v9)) :
    (bigSep Finset.univ fun c : Fin 2 => bigSep Finset.univ fun i : Fin 16 => outTd idx d (coordsV c i) tab : sProp 𝕄)
      ⊢ iprop(∃ g : Buf (Elt F) (tLoc d main_v10), ⌜∀ j : S794624.Idx, (g j : BitVec 32) = tab (ent ((idx d j : BitVec 32)).toNat)⌝
          ∗ (tLoc d main_v10 ↦{fullShare} g)) := by
  have h2 : (bigSep Finset.univ fun c : Fin 2 => bigSep Finset.univ fun i : Fin 16 => outTd idx d (coordsV c i) tab : sProp 𝕄)
      ⊢ bigSep (Finset.univ : Finset Tix) fun t => iprop(∃ g, ⌜GS idx d tab t g⌝ ∗ (tLoc d main_v10 ↦[KS d t]{fullShare} g)) := by
    rw [bigSep_univ_prod]
    refine bigSep_mono fun c _ => ?_
    rw [bigSep_univ_prod]
    exact bigSep_mono fun i _ => outTd_slices idx d tab c i
  refine h2.trans ?_
  refine (bigSep_exists_pi Finset.univ (fun (t : Tix) (g : Buf (Elt F) (tLoc d main_v10)) =>
    iprop(⌜GS idx d tab t g⌝ ∗ (tLoc d main_v10 ↦[KS d t]{fullShare} g)))).trans ?_
  iintro ⟨%gs, H⟩
  ihave H' := (bigSep_pure_sep Finset.univ (fun t : Tix => GS idx d tab t (gs t)) (fun t => (tLoc d main_v10 ↦[KS d t]{fullShare} gs t : sProp 𝕄))) $$ H
  icases H' with ⟨%hGS, H⟩
  ihave H'' := (pointsTo_biUnion_join Finset.univ (KS d) gs (gs default) (KS_disjoint d)) $$ H
  icases H'' with ⟨%g, %hag, Hg⟩
  rw [KS_cover]
  iexists g
  isplitr
  · ipureintro
    intro j
    have hj : j ∈ (Finset.univ : Finset Tix).biUnion (KS d) := by rw [KS_cover]; exact Finset.mem_univ _
    obtain ⟨t, -, hjt⟩ := Finset.mem_biUnion.mp hj
    obtain ⟨y, -, rfl⟩ := Finset.mem_map.mp hjt
    have e := hag t (Finset.mem_univ t) _ hjt
    exact e.trans (hGS t (Finset.mem_univ t) y)
  · iexact Hg

instance : Inhabited Tix := ⟨(0, 0, 0)⟩

/-- After the call: what was kept and the two SparseCores' results are the three arrays whole again, the table at
    contents the predicate admits, the result gathered out of it. -/
theorem dn_elim (d : Dev nD) :
    iprop(Keep idx d ∗ bigSep Finset.univ fun c : Fin ((Cert.KB.K (F := F)).nCore 0) => (P TabOK idx).dn 0 d c)
      ⊢ iprop(∃ (tab : Buf (Elt F) (tLoc d main_v9)) (g : Buf (Elt F) (tLoc d main_v10)),
          ⌜TabOK d tab ∧ ∀ j : S794624.Idx, (g j : BitVec 32) = tab (ent ((idx d j : BitVec 32)).toNat)⌝
          ∗ (tLoc d main_v9 ↦{fullShare} tab) ∗ (tLoc d main_v3 ↦{fullShare} idx d) ∗ (tLoc d main_v10 ↦{fullShare} g)) := by
  show iprop(Keep idx d ∗ bigSep Finset.univ fun c : Fin ((Cert.KB.K (F := F)).nCore 0) => dnP TabOK idx d (Fin.cast Cert.KB.nCore_zero c)) ⊢ _
  rw [bigSep_cores (F := F) (fun c => dnP TabOK idx d c), bigSep_univ_two]
  unfold Keep dnP
  iintro ⟨⟨⟨%t, Htr⟩, Hir⟩, ⟨%t0, %hT0, Ht0, Hi0, Ho0⟩, ⟨%t1, %hT1, Ht1, Hi1, Ho1⟩⟩
  ihave H := (persistent_entails_right (pointsTo_agree (ℓ := tLoc d main_v9) (I := Finset.univ) (J := Finset.univ)
    (q₁ := shareDrop fullShare 2) (q₂ := qC 0) (f := t) (g := t0))) $$ [Htr Ht0]
  · isplitl [Htr] <;> iassumption
  icases H with ⟨%h0, Htr, Ht0⟩
  have e0 : t0 = t := funext fun i => ((h0 i (Finset.mem_inter.mpr ⟨Finset.mem_univ _, Finset.mem_univ _⟩)).1).symm
  subst e0
  ihave H := (persistent_entails_right (pointsTo_agree (ℓ := tLoc d main_v9) (I := Finset.univ) (J := Finset.univ)
    (q₁ := shareDrop fullShare 2) (q₂ := qC 1) (f := t0) (g := t1))) $$ [Htr Ht1]
  · isplitl [Htr] <;> iassumption
  icases H with ⟨%h1, Htr, Ht1⟩
  have e1 : t1 = t0 := funext fun i => ((h1 i (Finset.mem_inter.mpr ⟨Finset.mem_univ _, Finset.mem_univ _⟩)).1).symm
  subst e1
  ihave Hg := (out_join idx d t1) $$ [Ho0 Ho1]
  · iapply (Entails.of_eq (bigSep_univ_two (fun c : Fin 2 => (bigSep Finset.univ fun i : Fin 16 => outTd idx d (coordsV c i) t1 : sProp 𝕄))).symm)
    isplitl [Ho0] <;> iassumption
  icases Hg with ⟨%g, %hg, Hg⟩
  iexists t1, g
  isplitr; · ipureintro; exact ⟨hT1, hg⟩
  isplitl [Htr Ht0 Ht1]
  · iapply (pointsTo_toks_join fullShare 2)
    isplitl [Htr]; · iexact Htr
    iapply (Entails.of_eq (bigSep_univ_two (fun c : Fin 2 => (tLoc d main_v9 ↦{qC c} t1 : sProp 𝕄))).symm)
    isplitl [Ht0] <;> iassumption
  isplitl [Hir Hi0 Hi1]
  · iapply (pointsTo_toks_join fullShare 2)
    isplitl [Hir]; · iexact Hir
    iapply (Entails.of_eq (bigSep_univ_two (fun c : Fin 2 => (tLoc d main_v3 ↦{qC c} idx d : sProp 𝕄))).symm)
    isplitl [Hi0] <;> iassumption
  iexact Hg

end Cert.ScTaskK

end
-- ==== Proof.HMainK.lean ====
/-
  @main on the TensorCore, inside the SparseCore program: host operations, the first pipelined call, a host
  operation, the SparseCore call, host operations, the second pipelined call.

  Between any two of these the TensorCore holds every unscoped buffer at a known valuation and its part of the
  handshake state.  The contents are a fold of the host operations over the launch memory, overwritten at three
  places by what the three calls leave — each only characterised (some contents the first call's write-backs may
  leave in the packed words; some table and gathered list the SparseCores hand back; some contents the last
  write-back may leave in the result), so the final assertion quantifies them.
-/
import proofs.«203813_g3255585210786_cont_8to1_b_763_8_alg».proof.Proof.HostSegsK
import proofs.«203813_g3255585210786_cont_8to1_b_763_8_alg».proof.Proof.StepsK
import proofs.«203813_g3255585210786_cont_8to1_b_763_8_alg».proof.Proof.Reg0K
import proofs.«203813_g3255585210786_cont_8to1_b_763_8_alg».proof.Proof.LaunchElemK
import proofs.«203813_g3255585210786_cont_8to1_b_763_8_alg».proof.Proof.FinalK
import proofs.«203813_g3255585210786_cont_8to1_b_763_8_alg».proof.Proof.HostIdxK
import proofs.«203813_g3255585210786_cont_8to1_b_763_8_alg».proof.Proof.ScTask.CallK
import proofs.«203813_g3255585210786_cont_8to1_b_763_8_alg».proof.Proof.Dom

noncomputable section

namespace Cert.KB

open Cert.Kernel Cert.Kernel.Gen
open Idealize.ShloMosaic Idealize.ShloMosaic.StableHlo
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-! ## The SparseCore call as one step -/

/-- A TensorCore buffer's location on device `d`. -/
abbrev tLoc (d : Dev nD) (b : Ref sig .tc) : Loc nD τ sig := (SparseCore.T d).loc b

/-- A valuation overwritten at the packed words, at the flat table, at the gathered list. -/
abbrev set8 (v : main_v8.ty.Contents (Elt F)) (W : Valuation τ sig (Elt F)) : Valuation τ sig (Elt F) :=
  (StableHlo.nullary main_v8 v : HloOp τ sig (Elt F)).result W
abbrev set9 (v : main_v9.ty.Contents (Elt F)) (W : Valuation τ sig (Elt F)) : Valuation τ sig (Elt F) :=
  (StableHlo.nullary main_v9 v : HloOp τ sig (Elt F)).result W
abbrev set10 (v : main_v10.ty.Contents (Elt F)) (W : Valuation τ sig (Elt F)) : Valuation τ sig (Elt F) :=
  (StableHlo.nullary main_v10 v : HloOp τ sig (Elt F)).result W

/-- The call's three arrays. -/
abbrev scRefs : Finset (DevRef τ sig) := {Proc.devRef .tc main_v9, Proc.devRef .tc main_v3, Proc.devRef .tc main_v10}

theorem scRefs_sub : (scRefs : Finset (DevRef τ sig)) ⊆ Pipeline.ucRefs τ sig := by decide

omit [FloatOps F] in
/-- Those three held at a valuation are the three buffers at its values. -/
theorem held_sc (d : Dev nD) (W : Valuation τ sig (Elt F)) :
    (held (T d) scRefs W : sProp 𝕄)
      = iprop((tLoc d main_v9 ↦{fullShare} W (Proc.devRef .tc main_v9)) ∗ (tLoc d main_v3 ↦{fullShare} W (Proc.devRef .tc main_v3))
          ∗ (tLoc d main_v10 ↦{fullShare} W (Proc.devRef .tc main_v10))) := by
  unfold held scRefs
  rw [SparseCore.bigSep_insert' (by decide), SparseCore.bigSep_insert' (by decide), bigSep_singleton]

set_option backward.isDefEq.respectTransparency.types false in
/-- The call, from every unscoped buffer at `W` whose table satisfies `TabOK` and whose index list is `idxv d`. -/
theorem runStep [∀ e, Nonempty (Elt F e)] (P : (K (F := F)).Pay (nD := nD) (Val := Elt F) (Name := ℕ) (U := UU))
    (TabOK : (d : Dev nD) → main_v9.ty.Contents (Elt F) → Prop) (idxv : (d : Dev nD) → main_v3.ty.Contents (Elt F))
    (Gath : (d : Dev nD) → main_v9.ty.Contents (Elt F) → main_v10.ty.Contents (Elt F) → Prop) (Keep : Dev nD → sProp 𝕄)
    (hst : ∀ (d : Dev nD) (tab : main_v9.ty.Contents (Elt F)) (out0 : main_v10.ty.Contents (Elt F)), TabOK d tab →
      iprop((tLoc d main_v9 ↦{fullShare} tab) ∗ (tLoc d main_v3 ↦{fullShare} idxv d) ∗ (tLoc d main_v10 ↦{fullShare} out0))
        ⊢ iprop(Keep d ∗ bigSep Finset.univ fun c : Fin ((K (F := F)).nCore 0) => P.st 0 d c))
    (hdn : ∀ d : Dev nD, iprop(Keep d ∗ bigSep Finset.univ fun c : Fin ((K (F := F)).nCore 0) => P.dn 0 d c)
        ⊢ iprop(∃ (tab : main_v9.ty.Contents (Elt F)) (g : main_v10.ty.Contents (Elt F)), ⌜TabOK d tab ∧ Gath d tab g⌝
            ∗ (tLoc d main_v9 ↦{fullShare} tab) ∗ (tLoc d main_v3 ↦{fullShare} idxv d) ∗ (tLoc d main_v10 ↦{fullShare} g)))
    (κ : GSem nD τ sig → ℕ) (d : Dev nD) {α : Type}
    (k : PUnit → Prog (TpuEff nD τ sig (Elt F) (SparseCore.Sig (ΛP (F := F)) 1) .tc) α) (Q : α → sProp 𝕄)
    (W : Valuation τ sig (Elt F)) (htab : TabOK d (W (Proc.devRef .tc main_v9))) (hidx : W (Proc.devRef .tc main_v3) = idxv d) :
    iprop((K (F := F)).ctx EH P κ (K (F := F)).lev ∗ (K (F := F)).tcSt EH d 0 ∗ held (T d) (Pipeline.ucRefs τ sig) W)
      ⊢ iprop((iprop((K (F := F)).tcSt EH d 1 ∗ ∃ (tab : main_v9.ty.Contents (Elt F)) (g : main_v10.ty.Contents (Elt F)),
              ⌜TabOK d tab ∧ Gath d tab g⌝ ∗ held (T d) (Pipeline.ucRefs τ sig) (set10 g (set9 tab W)))
            -∗ wp frame (wpE ((K (F := F)).defs (D (F := F))) 𝒱 (T d) none) Set.univ (k ⟨⟩) Q)
          -∗ wp frame (wpE ((K (F := F)).defs (D (F := F))) 𝒱 (T d) none) Set.univ ((K (F := F)).run d 0 >>= k) Q) := by
  rw [wp_bind, held_sub_split (T d) scRefs_sub W, held_sc, hidx]
  iintro ⟨#Hctx, Hst, ⟨H9, H3, H10⟩, Hrest⟩ Hk
  ihave Hs := (hst d _ _ htab) $$ [H9 H3 H10]
  · isplitl [H9]; · iexact H9
    isplitl [H3]; · iexact H3
    iexact H10
  icases Hs with ⟨HK, Hsts⟩
  iapply ((K (F := F)).wp_run (D (F := F)) 𝒱 (EH := EH) (P := P) κ d 0) $$ [Hst Hsts HK Hrest Hk]
  isplitr; · iexact Hctx
  isplitl [Hst]; · iexact Hst
  isplitl [Hsts]; · iexact Hsts
  iintro ⟨Hst1, Hdn⟩
  ihave Hd := (hdn d) $$ [HK Hdn]
  · isplitl [HK]; · iexact HK
    iexact Hdn
  icases Hd with ⟨%tab, %g, %hf, H9, H3, H10⟩
  iapply Hk
  isplitl [Hst1]; · iexact Hst1
  iexists tab, g
  isplitr; · ipureintro; exact hf
  rw [held_sub_split (T d) scRefs_sub (set10 g (set9 tab W)), held_sc]
  have e9 : set10 g (set9 tab W) (Proc.devRef .tc main_v9) = tab :=
    (nullary_result_ne (τ := τ) (y := main_v10) g _ (set9 tab W) (r := main_v9) (by decide)).trans (nullary_result main_v9 tab _ W)
  have e3 : set10 g (set9 tab W) (Proc.devRef .tc main_v3) = idxv d :=
    ((nullary_result_ne (τ := τ) (y := main_v10) g _ (set9 tab W) (r := main_v3) (by decide)).trans
      (nullary_result_ne (τ := τ) (y := main_v9) tab _ W (r := main_v3) (by decide))).trans hidx
  have e10 : set10 g (set9 tab W) (Proc.devRef .tc main_v10) = g := nullary_result main_v10 g _ _
  have erest : (held (T d) (Pipeline.ucRefs τ sig \ scRefs) (set10 g (set9 tab W)) : sProp 𝕄)
      = held (T d) (Pipeline.ucRefs τ sig \ scRefs) W := by
    refine held_congr (T d) fun b hb => ?_
    have hb' := (Finset.mem_sdiff.mp hb).2
    unfold set10 set9
    rw [HloOp.result_of_not_mem _ _ (by rw [nullary_writes, Finset.mem_singleton]; rintro rfl; exact hb' (by decide)),
      HloOp.result_of_not_mem _ _ (by rw [nullary_writes, Finset.mem_singleton]; rintro rfl; exact hb' (by decide))]
  rw [e9, e3, e10, erest]
  isplitl [H9 H3 H10]
  · isplitl [H9]; · iexact H9
    isplitl [H3]; · iexact H3
    iexact H10
  iexact Hrest

/-! ## The handshake state: the debt term and the rest -/

/-- What the handshake state before call `n` holds besides the TensorCore's debt term. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : (K (F := F)).tcSt EH d n = iprop(owesTc (F := F) d n ∗ tcRest (F := F) d n) := rfl

/-! ## The valuations -/

variable (m : (ℓ : Loc nD τ sig) → Buf (Elt F) ℓ) (g : Dev nD → PrngReg)

/-- Device `d`'s buffers at launch. -/
abbrev W0 (d : Dev nD) : Valuation τ sig (Elt F) := fun b => m (d, b)

/-- A valuation read at the TensorCore's references, on every device. -/
abbrev valsOf (W : Valuation τ sig (Elt F)) : Vals F := fun _ b => W b

/-- The buffers when the first call is entered, -/
abbrev V1 (d : Dev nD) : Valuation τ sig (Elt F) := WA (F := F) (W0 m d)
/-- when the SparseCore call is reached, the first call having left `f8` in the packed words, -/
abbrev V3 (d : Dev nD) (f8 : main_v8.ty.Contents (Elt F)) : Valuation τ sig (Elt F) := WB (F := F) (set8 f8 (V1 m d))
/-- and when the second call is entered, the SparseCores having handed back `tab` and `gth`. -/
abbrev V5 (d : Dev nD) (f8 : main_v8.ty.Contents (Elt F)) (tab : main_v9.ty.Contents (Elt F)) (gth : main_v10.ty.Contents (Elt F)) :
    Valuation τ sig (Elt F) :=
  WC (F := F) (set10 gth (set9 tab (V3 m d f8)))

/-- What is known of the three witnesses. -/
def Chain (TabOK : (d : Dev nD) → main_v9.ty.Contents (Elt F) → Prop)
    (Gath : (d : Dev nD) → main_v9.ty.Contents (Elt F) → main_v10.ty.Contents (Elt F) → Prop)
    (d : Dev nD) (f8 : main_v8.ty.Contents (Elt F)) (tab : main_v9.ty.Contents (Elt F)) (gth : main_v10.ty.Contents (Elt F)) : Prop :=
  (rdats (rd0 (valsOf (V1 m d))) (valsOf (V1 m d)) 0 d).ArrAt 1 cfg0.N f8 ∧ TabOK d tab ∧ Gath d tab gth

/-- What @main ends holding on device `d`: the second call's arrays at contents its write-backs may leave, every other
    unscoped buffer as that call found it. -/
def FINd (TabOK : (d : Dev nD) → main_v9.ty.Contents (Elt F) → Prop)
    (Gath : (d : Dev nD) → main_v9.ty.Contents (Elt F) → main_v10.ty.Contents (Elt F) → Prop) (d : Dev nD) : sProp 𝕄 :=
  iprop(∃ (f8 : main_v8.ty.Contents (Elt F)) (tab : main_v9.ty.Contents (Elt F)) (gth : main_v10.ty.Contents (Elt F)),
    ⌜Chain m TabOK Gath d f8 tab gth⌝
      ∗ (rdats (rd0 (valsOf (V1 m d))) (valsOf (V5 m d f8 tab gth)) 1 d).arraysAt cfg2.N
      ∗ Pipeline.unscopedRest spec2 d (valsOf (V5 m d f8 tab gth) d))

/-! ## The two region records' thread states, and the program's tail -/

theorem reg0_pre (W0v W1v : Vals F) (d : Dev nD) : (reg0 (F := F) W0v W1v).pre d = iprop(unscopedBufs d (W0v d) ∗ owesTc (F := F) d 0) := rfl
theorem reg1_pre (rdz : (c : Dev nD) → RDat τ (Elt F) (HIx 1) ℕ UU ℕ cfg0 c) (W1v : Vals F) (d : Dev nD) :
    (reg1 (F := F) rdz W1v).pre d = iprop(unscopedBufs d (W1v d) ∗ owesTc (F := F) d 1) := rfl

/-- The last statement of @main after its last call. -/
theorem wp_tail [∀ e, Nonempty (Elt F e)] (d : Dev nD) (Q : PUnit → sProp 𝕄) :
    Q ⟨⟩ ⊢ wp frame (wpE ((K (F := F)).defs (D (F := F))) 𝒱 (T d) none) Set.univ
      ((Prog.ret PUnit.unit : Prog (TpuEff nD τ sig (Elt F) (SparseCore.Sig (ΛP (F := F)) 1) .tc) PUnit).bind fun _ => Pure.pure PUnit.unit) Q := by
  show Q ⟨⟩ ⊢ wp frame _ Set.univ (Prog.ret PUnit.unit) Q
  rw [wp_ret]
  iintro H
  imodintro
  iexact H

/-! ## @main -/

set_option backward.isDefEq.respectTransparency.types false in
set_option maxHeartbeats 1600000 in
theorem hmain [∀ e, Nonempty (Elt F e)] (P : (K (F := F)).Pay (nD := nD) (Val := Elt F) (Name := ℕ) (U := UU))
    (TabOK : (d : Dev nD) → main_v9.ty.Contents (Elt F) → Prop) (idxv : (d : Dev nD) → main_v3.ty.Contents (Elt F))
    (Gath : (d : Dev nD) → main_v9.ty.Contents (Elt F) → main_v10.ty.Contents (Elt F) → Prop) (Keep : Dev nD → sProp 𝕄)
    (hst : ∀ (d : Dev nD) (tab : main_v9.ty.Contents (Elt F)) (out0 : main_v10.ty.Contents (Elt F)), TabOK d tab →
      iprop((tLoc d main_v9 ↦{fullShare} tab) ∗ (tLoc d main_v3 ↦{fullShare} idxv d) ∗ (tLoc d main_v10 ↦{fullShare} out0))
        ⊢ iprop(Keep d ∗ bigSep Finset.univ fun c : Fin ((K (F := F)).nCore 0) => P.st 0 d c))
    (hdn : ∀ d : Dev nD, iprop(Keep d ∗ bigSep Finset.univ fun c : Fin ((K (F := F)).nCore 0) => P.dn 0 d c)
        ⊢ iprop(∃ (tab : main_v9.ty.Contents (Elt F)) (gth : main_v10.ty.Contents (Elt F)), ⌜TabOK d tab ∧ Gath d tab gth⌝
            ∗ (tLoc d main_v9 ↦{fullShare} tab) ∗ (tLoc d main_v3 ↦{fullShare} idxv d) ∗ (tLoc d main_v10 ↦{fullShare} gth)))
    (htab : ∀ (d : Dev nD) (f8 : main_v8.ty.Contents (Elt F)),
      (rdats (rd0 (valsOf (V1 m d))) (valsOf (V1 m d)) 0 d).ArrAt 1 cfg0.N f8 → TabOK d (V3 m d f8 (Proc.devRef .tc main_v9)))
    (hidx : ∀ (d : Dev nD) (f8 : main_v8.ty.Contents (Elt F)), V3 m d f8 (Proc.devRef .tc main_v3) = idxv d)
    (κ : GSem nD τ sig → ℕ) (d : Dev nD) :
    iprop((K (F := F)).ctx EH P κ (K (F := F)).lev ∗ (K (F := F)).tcSt EH d 0 ∗ (K (F := F)).tcRes m g d ∗ G (F := F) d)
      ⊢ wp frame (wpE ((K (F := F)).defs (D (F := F))) 𝒱 (T d) none) Set.univ (main d)
          fun _ => iprop((K (F := F)).tcSt EH d 1 ∗ FINd m TabOK Gath d) := by
  rw [main_eq, tcSt_eq, tcSt_eq]
  unfold SparseCore.Cfg.tcRes G
  iintro ⟨#Hctx, ⟨HO, Hrest⟩, ⟨Hb, Hu, -, -⟩, HG⟩
  ihave #Hlev := ((K (F := F)).ctx_levAts κ) $$ Hctx
  ihave Hh := (Entails.of_eq (Pipeline.unscopedBufs_held (Ix := HIx 1) (Name := ℕ) (U := UU) (Lvl := ℕ) (Val := Elt F) d (W0 m d))) $$ Hu
  -- the host operations before the first call
  iapply (hostA d none _ _ (W0 m d)) $$ [Hb Hh]
  · isplitl [Hb] <;> iassumption
  iintro ⟨Hb, Hh⟩
  -- the first call
  ihave Hu := (Entails.of_eq (Pipeline.unscopedBufs_held (Ix := HIx 1) (Name := ℕ) (U := UU) (Lvl := ℕ) (Val := Elt F) d (V1 m d)).symm) $$ Hh
  iapply (regionStep (rdats (rd0 (valsOf (V1 m d))) (valsOf (V1 m d))) (reg0 (valsOf (V1 m d)) (valsOf (V1 m d))) Finset.univ (Finset.mem_univ _) d _ _)
    $$ [Hb Hu HO HG]
  · isplitr; · iexact Hlev
    isplitl [Hb]; · iexact Hb
    isplitl [Hu HO]
    · rw [reg0_pre]
      isplitl [Hu] <;> iassumption
    iexact HG
  iintro ⟨Hb, Hpost, HG⟩
  ihave Hpost := (show (reg0 (F := F) (valsOf (V1 m d)) (valsOf (V1 m d))).post d ⊢ iprop(∃ f8 : Buf (Elt F) ((d : Thread nD τ).loc main_v8),
      ⌜(rdats (rd0 (valsOf (V1 m d))) (valsOf (V1 m d)) 0 d).ArrAt 1 cfg0.N f8⌝ ∗ unscopedBufs d (setV8 d (valsOf (V1 m d) d) f8) ∗ owesTc (F := F) d 0)
      from .rfl) $$ Hpost
  icases Hpost with ⟨%f8, %hf8, Hu, HO⟩
  have e8 : setV8 d (valsOf (V1 m d) d) f8 = fun b : Ref sig .tc => set8 f8 (V1 m d) b := by
    funext b
    by_cases hb : b = main_v8
    · subst hb; rw [setV8_v8]; exact (nullary_result _ _ _ _).symm
    · rw [setV8_ne _ _ _ hb]; exact (nullary_result_ne (τ := τ) (y := main_v8) f8 _ (V1 m d) (r := b) hb).symm
  rw [e8]
  ihave Hh := (Entails.of_eq (Pipeline.unscopedBufs_held (Ix := HIx 1) (Name := ℕ) (U := UU) (Lvl := ℕ) (Val := Elt F) d (set8 f8 (V1 m d)))) $$ Hu
  -- the host operation between the first call and the SparseCore call
  iapply (hostB d none _ _ (set8 f8 (V1 m d))) $$ [Hb Hh]
  · isplitl [Hb] <;> iassumption
  iintro ⟨Hb, Hh⟩
  -- the SparseCore call
  ihave Hst := (Entails.of_eq (tcSt_eq (F := F) d 0).symm) $$ [HO Hrest]
  · isplitl [HO] <;> iassumption
  iapply (runStep P TabOK idxv Gath Keep hst hdn κ d _ _ (V3 m d f8) (htab d f8 hf8) (hidx d f8)) $$ [Hst Hh]
  · isplitr; · iexact Hctx
    isplitl [Hst] <;> iassumption
  iintro ⟨Hst, %tab, %gth, %hfacts, Hh⟩
  ihave Hst := (Entails.of_eq (tcSt_eq (F := F) d 1)) $$ Hst
  icases Hst with ⟨HO, Hrest⟩
  -- the host operations after it
  iapply (hostC d none _ _ (set10 gth (set9 tab (V3 m d f8)))) $$ [Hb Hh]
  · isplitl [Hb] <;> iassumption
  iintro ⟨Hb, Hh⟩
  -- the second call
  ihave Hu := (Entails.of_eq (Pipeline.unscopedBufs_held (Ix := HIx 1) (Name := ℕ) (U := UU) (Lvl := ℕ) (Val := Elt F) d (V5 m d f8 tab gth)).symm) $$ Hh
  iapply (regionStep (rdats (rd0 (valsOf (V1 m d))) (valsOf (V5 m d f8 tab gth))) (reg1 (rd0 (valsOf (V1 m d))) (valsOf (V5 m d f8 tab gth)))
      (Finset.univ.erase 0) (by decide) d _ _) $$ [Hb Hu HO HG]
  · isplitr; · iexact Hlev
    isplitl [Hb]; · iexact Hb
    isplitl [Hu HO]
    · rw [reg1_pre]
      isplitl [Hu] <;> iassumption
    iexact HG
  iintro ⟨-, Hpost, -⟩
  ihave Hpost := (show (reg1 (F := F) (rd0 (valsOf (V1 m d))) (valsOf (V5 m d f8 tab gth))).post d
      ⊢ iprop((rdats (rd0 (valsOf (V1 m d))) (valsOf (V5 m d f8 tab gth)) 1 d).arraysAt cfg2.N
          ∗ Pipeline.unscopedRest spec2 d (valsOf (V5 m d f8 tab gth) d) ∗ owesTc (F := F) d 1) from .rfl) $$ Hpost
  icases Hpost with ⟨Ha, Hr, HO⟩
  iapply (wp_tail d _)
  isplitl [HO Hrest]
  · isplitl [HO] <;> iassumption
  unfold FINd
  iexists f8, tab, gth
  isplitr; · ipureintro; exact ⟨hf8, hfacts.1, hfacts.2⟩
  isplitl [Ha] <;> iassumption

/-! ## No step writes an argument array -/

theorem V5_main_arg0 (d : Dev nD) (f8 : main_v8.ty.Contents (Elt F)) (tab : main_v9.ty.Contents (Elt F)) (gth : main_v10.ty.Contents (Elt F)) :
    V5 m d f8 tab gth (Proc.devRef .tc main_arg0) = m (d, Proc.devRef .tc main_arg0) :=
  calc V5 m d f8 tab gth (Proc.devRef .tc main_arg0)
    _ = set10 gth (set9 tab (V3 m d f8)) (Proc.devRef .tc main_arg0) :=
        StableHlo.after_of_forall_not_mem (b := Proc.devRef .tc main_arg0) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg0) := nullary_result_ne (τ := τ) (y := main_v10) gth _ _ (r := main_arg0) (by decide)
    _ = V3 m d f8 (Proc.devRef .tc main_arg0) := nullary_result_ne (τ := τ) (y := main_v9) tab _ _ (r := main_arg0) (by decide)
    _ = set8 f8 (V1 m d) (Proc.devRef .tc main_arg0) :=
        StableHlo.after_of_forall_not_mem (b := Proc.devRef .tc main_arg0) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg0) := nullary_result_ne (τ := τ) (y := main_v8) f8 _ _ (r := main_arg0) (by decide)
    _ = W0 m d (Proc.devRef .tc main_arg0) :=
        StableHlo.after_of_forall_not_mem (b := Proc.devRef .tc main_arg0) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg0) := rfl

theorem V5_main_arg1 (d : Dev nD) (f8 : main_v8.ty.Contents (Elt F)) (tab : main_v9.ty.Contents (Elt F)) (gth : main_v10.ty.Contents (Elt F)) :
    V5 m d f8 tab gth (Proc.devRef .tc main_arg1) = m (d, Proc.devRef .tc main_arg1) :=
  calc V5 m d f8 tab gth (Proc.devRef .tc main_arg1)
    _ = set10 gth (set9 tab (V3 m d f8)) (Proc.devRef .tc main_arg1) :=
        StableHlo.after_of_forall_not_mem (b := Proc.devRef .tc main_arg1) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg1) := nullary_result_ne (τ := τ) (y := main_v10) gth _ _ (r := main_arg1) (by decide)
    _ = V3 m d f8 (Proc.devRef .tc main_arg1) := nullary_result_ne (τ := τ) (y := main_v9) tab _ _ (r := main_arg1) (by decide)
    _ = set8 f8 (V1 m d) (Proc.devRef .tc main_arg1) :=
        StableHlo.after_of_forall_not_mem (b := Proc.devRef .tc main_arg1) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg1) := nullary_result_ne (τ := τ) (y := main_v8) f8 _ _ (r := main_arg1) (by decide)
    _ = W0 m d (Proc.devRef .tc main_arg1) :=
        StableHlo.after_of_forall_not_mem (b := Proc.devRef .tc main_arg1) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg1) := rfl

theorem V5_main_arg2 (d : Dev nD) (f8 : main_v8.ty.Contents (Elt F)) (tab : main_v9.ty.Contents (Elt F)) (gth : main_v10.ty.Contents (Elt F)) :
    V5 m d f8 tab gth (Proc.devRef .tc main_arg2) = m (d, Proc.devRef .tc main_arg2) :=
  calc V5 m d f8 tab gth (Proc.devRef .tc main_arg2)
    _ = set10 gth (set9 tab (V3 m d f8)) (Proc.devRef .tc main_arg2) :=
        StableHlo.after_of_forall_not_mem (b := Proc.devRef .tc main_arg2) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg2) := nullary_result_ne (τ := τ) (y := main_v10) gth _ _ (r := main_arg2) (by decide)
    _ = V3 m d f8 (Proc.devRef .tc main_arg2) := nullary_result_ne (τ := τ) (y := main_v9) tab _ _ (r := main_arg2) (by decide)
    _ = set8 f8 (V1 m d) (Proc.devRef .tc main_arg2) :=
        StableHlo.after_of_forall_not_mem (b := Proc.devRef .tc main_arg2) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg2) := nullary_result_ne (τ := τ) (y := main_v8) f8 _ _ (r := main_arg2) (by decide)
    _ = W0 m d (Proc.devRef .tc main_arg2) :=
        StableHlo.after_of_forall_not_mem (b := Proc.devRef .tc main_arg2) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg2) := rfl

theorem V5_main_arg3 (d : Dev nD) (f8 : main_v8.ty.Contents (Elt F)) (tab : main_v9.ty.Contents (Elt F)) (gth : main_v10.ty.Contents (Elt F)) :
    V5 m d f8 tab gth (Proc.devRef .tc main_arg3) = m (d, Proc.devRef .tc main_arg3) :=
  calc V5 m d f8 tab gth (Proc.devRef .tc main_arg3)
    _ = set10 gth (set9 tab (V3 m d f8)) (Proc.devRef .tc main_arg3) :=
        StableHlo.after_of_forall_not_mem (b := Proc.devRef .tc main_arg3) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg3) := nullary_result_ne (τ := τ) (y := main_v10) gth _ _ (r := main_arg3) (by decide)
    _ = V3 m d f8 (Proc.devRef .tc main_arg3) := nullary_result_ne (τ := τ) (y := main_v9) tab _ _ (r := main_arg3) (by decide)
    _ = set8 f8 (V1 m d) (Proc.devRef .tc main_arg3) :=
        StableHlo.after_of_forall_not_mem (b := Proc.devRef .tc main_arg3) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg3) := nullary_result_ne (τ := τ) (y := main_v8) f8 _ _ (r := main_arg3) (by decide)
    _ = W0 m d (Proc.devRef .tc main_arg3) :=
        StableHlo.after_of_forall_not_mem (b := Proc.devRef .tc main_arg3) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg3) := rfl

theorem V5_main_arg4 (d : Dev nD) (f8 : main_v8.ty.Contents (Elt F)) (tab : main_v9.ty.Contents (Elt F)) (gth : main_v10.ty.Contents (Elt F)) :
    V5 m d f8 tab gth (Proc.devRef .tc main_arg4) = m (d, Proc.devRef .tc main_arg4) :=
  calc V5 m d f8 tab gth (Proc.devRef .tc main_arg4)
    _ = set10 gth (set9 tab (V3 m d f8)) (Proc.devRef .tc main_arg4) :=
        StableHlo.after_of_forall_not_mem (b := Proc.devRef .tc main_arg4) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg4) := nullary_result_ne (τ := τ) (y := main_v10) gth _ _ (r := main_arg4) (by decide)
    _ = V3 m d f8 (Proc.devRef .tc main_arg4) := nullary_result_ne (τ := τ) (y := main_v9) tab _ _ (r := main_arg4) (by decide)
    _ = set8 f8 (V1 m d) (Proc.devRef .tc main_arg4) :=
        StableHlo.after_of_forall_not_mem (b := Proc.devRef .tc main_arg4) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg4) := nullary_result_ne (τ := τ) (y := main_v8) f8 _ _ (r := main_arg4) (by decide)
    _ = W0 m d (Proc.devRef .tc main_arg4) :=
        StableHlo.after_of_forall_not_mem (b := Proc.devRef .tc main_arg4) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg4) := rfl

theorem V5_main_arg5 (d : Dev nD) (f8 : main_v8.ty.Contents (Elt F)) (tab : main_v9.ty.Contents (Elt F)) (gth : main_v10.ty.Contents (Elt F)) :
    V5 m d f8 tab gth (Proc.devRef .tc main_arg5) = m (d, Proc.devRef .tc main_arg5) :=
  calc V5 m d f8 tab gth (Proc.devRef .tc main_arg5)
    _ = set10 gth (set9 tab (V3 m d f8)) (Proc.devRef .tc main_arg5) :=
        StableHlo.after_of_forall_not_mem (b := Proc.devRef .tc main_arg5) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg5) := nullary_result_ne (τ := τ) (y := main_v10) gth _ _ (r := main_arg5) (by decide)
    _ = V3 m d f8 (Proc.devRef .tc main_arg5) := nullary_result_ne (τ := τ) (y := main_v9) tab _ _ (r := main_arg5) (by decide)
    _ = set8 f8 (V1 m d) (Proc.devRef .tc main_arg5) :=
        StableHlo.after_of_forall_not_mem (b := Proc.devRef .tc main_arg5) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg5) := nullary_result_ne (τ := τ) (y := main_v8) f8 _ _ (r := main_arg5) (by decide)
    _ = W0 m d (Proc.devRef .tc main_arg5) :=
        StableHlo.after_of_forall_not_mem (b := Proc.devRef .tc main_arg5) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg5) := rfl

/-! ## The final memory -/

variable (TabOK : (d : Dev nD) → main_v9.ty.Contents (Elt F) → Prop)
  (Gath : (d : Dev nD) → main_v9.ty.Contents (Elt F) → main_v10.ty.Contents (Elt F) → Prop)

/-- What the final memory is known to hold on device `d`: for some witnesses of the three calls, the second call's
    arrays at contents its write-backs may leave, and four argument arrays outside that call at the last valuation. -/
def fqd (d : Dev nD) (M : MemSt nD τ sig (Elt F)) : Prop :=
  ∃ (f8 : main_v8.ty.Contents (Elt F)) (tab : main_v9.ty.Contents (Elt F)) (gth : main_v10.ty.Contents (Elt F)),
    Chain m TabOK Gath d f8 tab gth
    ∧ (∀ w, (rdats (rd0 (valsOf (V1 m d))) (valsOf (V5 m d f8 tab gth)) 1 d).ArrAt w cfg2.N
          (M.mem (((Pipeline.pin (pcfgs (F := F)) adm 1).spec w).arr.view.loc (d.tc : Thread nD τ))))
    ∧ M.mem (tLoc d main_arg0) = V5 m d f8 tab gth (Proc.devRef .tc main_arg0)
    ∧ M.mem (tLoc d main_arg1) = V5 m d f8 tab gth (Proc.devRef .tc main_arg1)
    ∧ M.mem (tLoc d main_arg2) = V5 m d f8 tab gth (Proc.devRef .tc main_arg2)
    ∧ M.mem (tLoc d main_arg5) = V5 m d f8 tab gth (Proc.devRef .tc main_arg5)

set_option backward.isDefEq.respectTransparency.types false in
theorem hfind [∀ e, Nonempty (Elt F e)] (d : Dev nD) (s' : Phys nD τ sig (Elt F)) :
    iprop(FINd m TabOK Gath d ∗ SI s') ⊢ (⌜fqd m TabOK Gath d s'.mem⌝ : sProp 𝕄) := by
  unfold FINd
  iintro ⟨⟨%f8, %tab, %gth, %hc, Ha, Hr⟩, HSI⟩
  ihave H := (Pipeline.RDat.arrays_read (pcfgs (F := F)) adm (rdats (rd0 (valsOf (V1 m d))) (valsOf (V5 m d f8 tab gth))) (p := 1)
    launch2.arr_whole d cfg2.N s') $$ [Ha HSI]
  · isplitl [Ha] <;> iassumption
  icases H with ⟨%harr, HSI⟩
  ihave Hr := (Entails.of_eq (unscopedRest2_eq (Ix := HIx 1) (Val := Elt F) (Name := ℕ) (U := UU) (Lvl := ℕ) d (valsOf (V5 m d f8 tab gth) d))) $$ Hr
  icases Hr with ⟨H0, H1, H2, H5, -⟩
  ihave H := (agree_keep s' _ _) $$ [HSI H0]
  · isplitl [HSI] <;> iassumption
  icases H with ⟨%h0, HSI⟩
  ihave H := (agree_keep s' _ _) $$ [HSI H1]
  · isplitl [HSI] <;> iassumption
  icases H with ⟨%h1, HSI⟩
  ihave H := (agree_keep s' _ _) $$ [HSI H2]
  · isplitl [HSI] <;> iassumption
  icases H with ⟨%h2, HSI⟩
  ihave H := (agree_keep s' _ _) $$ [HSI H5]
  · isplitl [HSI] <;> iassumption
  icases H with ⟨%h5, -⟩
  ipureintro
  exact ⟨f8, tab, gth, hc, harr, h0, h1, h2, h5⟩

/-- The six argument arrays end as launched. -/
theorem fqd_args (d : Dev nD) (M : MemSt nD τ sig (Elt F)) (h : fqd m TabOK Gath d M) :
    M.mem ((d.tc : Thread nD τ).loc main_arg0) = m ((d.tc : Thread nD τ).loc main_arg0)
    ∧ M.mem ((d.tc : Thread nD τ).loc main_arg1) = m ((d.tc : Thread nD τ).loc main_arg1)
    ∧ M.mem ((d.tc : Thread nD τ).loc main_arg2) = m ((d.tc : Thread nD τ).loc main_arg2)
    ∧ M.mem ((d.tc : Thread nD τ).loc main_arg3) = m ((d.tc : Thread nD τ).loc main_arg3)
    ∧ M.mem ((d.tc : Thread nD τ).loc main_arg4) = m ((d.tc : Thread nD τ).loc main_arg4)
    ∧ M.mem ((d.tc : Thread nD τ).loc main_arg5) = m ((d.tc : Thread nD τ).loc main_arg5) := by
  obtain ⟨f8, tab, gth, -, harr, h0, h1, h2, h5⟩ := h
  have h3 := harr 0
  have h4 := harr 4
  rw [RDat.ArrAt_in _ 0 rfl] at h3
  rw [RDat.ArrAt_in _ 4 rfl] at h4
  exact ⟨h0.trans (V5_main_arg0 m d f8 tab gth), h1.trans (V5_main_arg1 m d f8 tab gth), h2.trans (V5_main_arg2 m d f8 tab gth),
    h3.trans (V5_main_arg3 m d f8 tab gth), h4.trans (V5_main_arg4 m d f8 tab gth), h5.trans (V5_main_arg5 m d f8 tab gth)⟩

/-! ## The run -/

set_option backward.isDefEq.respectTransparency.types false in
/-- Every weakly fair execution of the 35 threads terminates, nothing faulting, and the final memory is as `fqd` says
    on every device — from the task obligation, the split of a SparseCore's operands among its tiles, and the two facts
    about what the SparseCore call takes and hands back. -/
theorem run_main [∀ e, Nonempty (Elt F e)] (P : (K (F := F)).Pay (nD := nD) (Val := Elt F) (Name := ℕ) (U := UU)) [P.IsStorable]
    (hx : ∀ q thr, P.x q thr = iprop(emp)) (hheld : P.held = ∅)
    (htile : (K (F := F)).TileObl (D (F := F)) 𝒱 P v₀ 0) (hvec : (K (F := F)).VecSplit P 0)
    (idxv : (d : Dev nD) → main_v3.ty.Contents (Elt F)) (Keep : Dev nD → sProp 𝕄)
    (hst : ∀ (d : Dev nD) (tab : main_v9.ty.Contents (Elt F)) (out0 : main_v10.ty.Contents (Elt F)), TabOK d tab →
      iprop((tLoc d main_v9 ↦{fullShare} tab) ∗ (tLoc d main_v3 ↦{fullShare} idxv d) ∗ (tLoc d main_v10 ↦{fullShare} out0))
        ⊢ iprop(Keep d ∗ bigSep Finset.univ fun c : Fin ((K (F := F)).nCore 0) => P.st 0 d c))
    (hdn : ∀ d : Dev nD, iprop(Keep d ∗ bigSep Finset.univ fun c : Fin ((K (F := F)).nCore 0) => P.dn 0 d c)
        ⊢ iprop(∃ (tab : main_v9.ty.Contents (Elt F)) (gth : main_v10.ty.Contents (Elt F)), ⌜TabOK d tab ∧ Gath d tab gth⌝
            ∗ (tLoc d main_v9 ↦{fullShare} tab) ∗ (tLoc d main_v3 ↦{fullShare} idxv d) ∗ (tLoc d main_v10 ↦{fullShare} gth)))
    (htab : ∀ (d : Dev nD) (f8 : main_v8.ty.Contents (Elt F)),
      (rdats (rd0 (valsOf (V1 m d))) (valsOf (V1 m d)) 0 d).ArrAt 1 cfg0.N f8 → TabOK d (V3 m d f8 (Proc.devRef .tc main_v9)))
    (hidx : ∀ (d : Dev nD) (f8 : main_v8.ty.Contents (Elt F)), V3 m d f8 (Proc.devRef .tc main_v3) = idxv d) :
    θ_run ((K (F := F)).defs (D (F := F))) ((K (F := F)).threads main) ⟨m, fun _ => 0, g⟩
      (fun r => ∀ d : Dev nD, fqd m TabOK Gath d r.2) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m g main (G (F := F)) (FINd m TabOK Gath) (u₀ (F := F)) (hu₀ P hx)
    (hmain m g P TabOK idxv Gath Keep hst hdn htab hidx)
    (fun d s' => fqd m TabOK Gath d s'.mem) (hfind m TabOK Gath)
    (fun r => ∀ d : Dev nD, fqd m TabOK Gath d r.2) (fun _ h => h) hheld

/-! ## The frame -/

/-- The index list the SparseCores are handed: a function of the launch memory's neighbour slots. -/
abbrev idxv (d : Dev nD) : main_v3.ty.Contents (Elt F) := idxF (m (d, Proc.devRef .tc main_arg1))

/-- It is what the buffer holds when the SparseCore call is reached, whatever the first call left in the packed words. -/
theorem V3_v3 (d : Dev nD) (f8 : main_v8.ty.Contents (Elt F)) : V3 m d f8 (Proc.devRef .tc main_v3) = idxv m d :=
  ((WB_v3 (F := F) (set8 f8 (V1 m d))).trans (nullary_result_ne (τ := τ) (y := main_v8) f8 _ (V1 m d) (r := main_v3) (by decide))).trans
    (WA_v3 (F := F) (W0 m d))

set_option backward.isDefEq.respectTransparency.types false in
/-- The run, from the one fact the tasks' checks need. -/
theorem run_args [∀ e, Nonempty (Elt F e)] (hadj : ∀ (d : Dev nD) (i : S100000x8.Idx), ((m (d, Proc.devRef .tc main_arg1) : IVec S100000x8 32) i).toNat < 100000) :
    θ_run ((K (F := F)).defs (D (F := F))) ((K (F := F)).threads main) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run ((K (F := F)).defs (D (F := F))) _ _).mono
    (fun r h c => fqd_args m (fun _ _ => True) (fun _ _ _ => True) c r.2 (h c))
    (run_main m g (fun _ _ => True) (fun _ _ _ => True) (Cert.ScTaskK.P (fun _ _ => True) (idxv m)) (fun _ _ => rfl) rfl
      (Cert.ScTaskK.tileObl (fun _ _ => True) (idxv m) facts (fun d j => idxF_lt _ (hadj d) j))
      (SparseCore.Cfg.VecSplit.of_plain (Cert.ScTaskK.vecSplit (fun _ _ => True) (idxv m)))
      (idxv m) (Cert.ScTaskK.Keep (idxv m))
      (fun d tab out0 h => Cert.ScTaskK.st_intro (fun _ _ => True) (idxv m) d tab out0 h)
      (fun d => (Cert.ScTaskK.dn_elim (fun _ _ => True) (idxv m) d).trans (by
        iintro ⟨%tab, %gth, %hf, H⟩
        iexists tab, gth
        isplitr; · ipureintro; exact ⟨trivial, trivial⟩
        iexact H))
      (fun _ _ _ => trivial) (V3_v3 m))

end Cert.KB

end
-- ==== Proof.RefRun.lean ====
/-
  The reference program's run, read back as a function of its six arguments.

  The reference is a straight line of host operations; the helper functions it calls (`jnp.take`, `jnp.where`,
  `take_along_axis`) are listed inline at their call sites, over the buffers of that call.  The line is cut into
  sixteen consecutive stretches, one per step of the computation, and the contents of the buffers that later
  stretches read are named: the gathered and masked neighbour states, the slot weights, the table address, the
  looked-up bit, the next state and the read-out.  Every weakly fair execution terminates with the result buffer
  at `result` of the launch contents of the arguments, and the arguments unchanged.
-/
import proofs.«203813_g3255585210786_cont_8to1_b_763_8_alg».proof.Proof.Gen.ReferenceIdeal
import Idealize.ShloMosaic.Lib.StableHlo.Run
import Idealize.ShloMosaic.PureOps.Ideal
import Idealize.ShloMosaic.Lib.Pipeline.Frame

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- `jnp.take`'s index normalisation: the slot table flattened to 800000 indices, a negative one wrapped by the axis length. -/
abbrev ops1 : List (HloOp τ sig (Elt F)) :=
  [ StableHlo.reshape main_arg1 main_v0 rfl shapeCasts_S100000x8_S800000,
    StableHlo.TRef.nullary main_call0.c (constantI S_ 32 0#32),
    StableHlo.TRef.unary main_call0.c main_call0.v0 (broadcastInDim S800000 ![] bcast_S_S800000),
    StableHlo.TRef.binary (.of main_v0 : StableHlo.TRef sig ⟨S800000, .i32⟩) main_call0.v0 main_call0.v1 (cmpi .slt),
    StableHlo.TRef.nullary main_call0.c_0 (constantI S_ 32 100000#32),
    StableHlo.TRef.unary main_call0.c_0 main_call0.v2 (broadcastInDim S800000 ![] bcast_S_S800000),
    StableHlo.TRef.binary (.of main_v0 : StableHlo.TRef sig ⟨S800000, .i32⟩) main_call0.v2 main_call0.v3 addi,
    StableHlo.TRef.ternary main_call0.v1 main_call0.v3 (.of main_v0 : StableHlo.TRef sig ⟨S800000, .i32⟩) main_call0.call0.v0 select,
    StableHlo.TRef.unary main_call0.call0.v0 main_call0.v5 (broadcastInDim S800000x1 ![0] bcast_S800000_S800000x1_0) ]

/-- Which indices lie in `0 … 99999`. -/
abbrev ops2 : List (HloOp τ sig (Elt F)) :=
  [ StableHlo.TRef.nullary main_call0.c_1 (constantI S1 32 99999#32),
    StableHlo.TRef.nullary main_call0.c_2 (constantI S_ 32 0#32),
    StableHlo.TRef.unary main_call0.c_2 main_call0.v6 (broadcastInDim S800000x1 ![] bcast_S_S800000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S800000x1 ![0, 1] bcast_S1x1_S800000x1_0_1),
    StableHlo.TRef.binary main_call0.v5 main_call0.v9 main_call0.v10 (cmpi .sle),
    StableHlo.TRef.binary main_call0.v7 main_call0.v10 main_call0.v11 andi ]

/-- The same per row of the index column: `and` over its one component. -/
abbrev ops3 : List (HloOp τ sig (Elt F)) :=
  [ StableHlo.TRef.nullary main_call0.c_3 (constantI S_ 1 1#1),
    StableHlo.TRef.binary main_call0.v11 main_call0.c_3 main_call0.v12 (fun x v => Host.reduce IntOp.andi x v reducesTo_S800000x1_S800000_d1 h_S_) ]

/-- The gather of the state columns. -/
abbrev ops4 : List (HloOp τ sig (Elt F)) :=
  [ StableHlo.TRef.binary (.of main_arg0 : StableHlo.TRef sig ⟨S32x100000, .i32⟩) main_call0.v5 main_call0.v13 (fun x i => Host.gather gather_S32x100000_S800000x1_S32x800000_0_1_n_n_1_1_321 x i) ]

/-- The fill word where the index was out of range, and the reshape to batch × node × slot. -/
abbrev ops5 : List (HloOp τ sig (Elt F)) :=
  [ StableHlo.TRef.unary main_call0.v12 main_call0.v14 (broadcastInDim S32x800000 ![1] bcast_S800000_S32x800000_1),
    StableHlo.TRef.nullary main_call0.c_4 (constantI S_ 32 2147483648#32),
    StableHlo.TRef.unary main_call0.c_4 main_call0.v15 (broadcastInDim S32x800000 ![] bcast_S_S32x800000),
    StableHlo.TRef.ternary main_call0.v14 main_call0.v13 main_call0.v15 main_call0.v16 select,
    StableHlo.reshape main_v1 main_v2 rfl shapeCasts_S32x800000_S32x100000x8 ]

/-- The gathered states times the validity flags. -/
abbrev ops6 : List (HloOp τ sig (Elt F)) :=
  [ StableHlo.unary main_arg2 main_v3 (broadcastInDim S1x100000x8 ![1, 2] bcast_S100000x8_S1x100000x8_1_2 : (⟨S100000x8, .i32⟩ : BufTy).Contents (Elt F) → (⟨S1x100000x8, .i32⟩ : BufTy).Contents (Elt F)),
    StableHlo.unary main_v3 main_v4 (broadcastInDim S32x100000x8 ![0, 1, 2] bcast_S1x100000x8_S32x100000x8_0_1_2 : (⟨S1x100000x8, .i32⟩ : BufTy).Contents (Elt F) → (⟨S32x100000x8, .i32⟩ : BufTy).Contents (Elt F)),
    StableHlo.binary main_v2 main_v4 main_v5 (muli : (⟨S32x100000x8, .i32⟩ : BufTy).Contents (Elt F) → (⟨S32x100000x8, .i32⟩ : BufTy).Contents (Elt F) → (⟨S32x100000x8, .i32⟩ : BufTy).Contents (Elt F)) ]

/-- The first half of the integer-power chain that builds the slot weights `2 ^ k`, `k = 0 … 7`, by repeated squaring over the bits of `k`. -/
abbrev ops7 : List (HloOp τ sig (Elt F)) :=
  [ StableHlo.nullary main_v6 (iotaInDim S8 32 0),
    StableHlo.nullary main_c (constantI S_ 32 2#32),
    StableHlo.nullary main_c_0 (constantI S_ 32 0#32),
    StableHlo.binary main_c main_c_0 main_v7 (cmpi .eq : (⟨S_, .i32⟩ : BufTy).Contents (Elt F) → (⟨S_, .i32⟩ : BufTy).Contents (Elt F) → (⟨S_, .i1⟩ : BufTy).Contents (Elt F)),
    StableHlo.nullary main_c_1 (constantI S_ 32 0#32),
    StableHlo.unary main_c_1 main_v8 (broadcastInDim S8 ![] bcast_S_S8 : (⟨S_, .i32⟩ : BufTy).Contents (Elt F) → (⟨S8, .i32⟩ : BufTy).Contents (Elt F)),
    StableHlo.binary main_v6 main_v8 main_v9 (cmpi .ne : (⟨S8, .i32⟩ : BufTy).Contents (Elt F) → (⟨S8, .i32⟩ : BufTy).Contents (Elt F) → (⟨S8, .i1⟩ : BufTy).Contents (Elt F)),
    StableHlo.unary main_v7 main_v10 (broadcastInDim S8 ![] bcast_S_S8 : (⟨S_, .i1⟩ : BufTy).Contents (Elt F) → (⟨S8, .i1⟩ : BufTy).Contents (Elt F)),
    StableHlo.binary main_v10 main_v9 main_v11 (andi : (⟨S8, .i1⟩ : BufTy).Contents (Elt F) → (⟨S8, .i1⟩ : BufTy).Contents (Elt F) → (⟨S8, .i1⟩ : BufTy).Contents (Elt F)),
    StableHlo.nullary main_c_2 (constantI S_ 32 0#32),
    StableHlo.nullary main_c_3 (constantI S_ 32 1#32),
    StableHlo.TRef.unary (.of main_c_2 : StableHlo.TRef sig ⟨S_, .i32⟩) main_call1.v0 (broadcastInDim S8 ![] bcast_S_S8),
    StableHlo.TRef.unary (.of main_c_3 : StableHlo.TRef sig ⟨S_, .i32⟩) main_call1.v1 (broadcastInDim S8 ![] bcast_S_S8),
    StableHlo.TRef.ternary (.of main_v11 : StableHlo.TRef sig ⟨S8, .i1⟩) main_call1.v0 main_call1.v1 main_call1.v2 select,
    StableHlo.nullary main_c_4 (constantI S_ 32 1#32),
    StableHlo.unary main_c_4 main_v13 (broadcastInDim S8 ![] bcast_S_S8 : (⟨S_, .i32⟩ : BufTy).Contents (Elt F) → (⟨S8, .i32⟩ : BufTy).Contents (Elt F)),
    StableHlo.binary main_v6 main_v13 main_v14 (andi : (⟨S8, .i32⟩ : BufTy).Contents (Elt F) → (⟨S8, .i32⟩ : BufTy).Contents (Elt F) → (⟨S8, .i32⟩ : BufTy).Contents (Elt F)),
    StableHlo.nullary main_c_5 (constantI S_ 32 2#32),
    StableHlo.unary main_c_5 main_v15 (broadcastInDim S8 ![] bcast_S_S8 : (⟨S_, .i32⟩ : BufTy).Contents (Elt F) → (⟨S8, .i32⟩ : BufTy).Contents (Elt F)),
    StableHlo.binary main_v12 main_v15 main_v16 (muli : (⟨S8, .i32⟩ : BufTy).Contents (Elt F) → (⟨S8, .i32⟩ : BufTy).Contents (Elt F) → (⟨S8, .i32⟩ : BufTy).Contents (Elt F)),
    StableHlo.TRef.nullary main_call2.c (constantI S_ 32 0#32),
    StableHlo.TRef.unary main_call2.c main_call2.v0 (broadcastInDim S8 ![] bcast_S_S8),
    StableHlo.TRef.binary (.of main_v14 : StableHlo.TRef sig ⟨S8, .i32⟩) main_call2.v0 main_call2.v1 (cmpi .ne),
    StableHlo.TRef.ternary main_call2.v1 (.of main_v16 : StableHlo.TRef sig ⟨S8, .i32⟩) (.of main_v12 : StableHlo.TRef sig ⟨S8, .i32⟩) main_call2.v2 select,
    StableHlo.nullary main_c_6 (constantI S_ 32 2#32),
    StableHlo.nullary main_c_7 (constantI S_ 32 2#32),
    StableHlo.binary main_c_6 main_c_7 main_v18 (muli : (⟨S_, .i32⟩ : BufTy).Contents (Elt F) → (⟨S_, .i32⟩ : BufTy).Contents (Elt F) → (⟨S_, .i32⟩ : BufTy).Contents (Elt F)),
    StableHlo.nullary main_c_8 (constantI S_ 32 1#32),
    StableHlo.unary main_c_8 main_v19 (broadcastInDim S8 ![] bcast_S_S8 : (⟨S_, .i32⟩ : BufTy).Contents (Elt F) → (⟨S8, .i32⟩ : BufTy).Contents (Elt F)),
    StableHlo.binary main_v6 main_v19 main_v20 (Host.shrui : (⟨S8, .i32⟩ : BufTy).Contents (Elt F) → (⟨S8, .i32⟩ : BufTy).Contents (Elt F) → (⟨S8, .i32⟩ : BufTy).Contents (Elt F)),
    StableHlo.nullary main_c_9 (constantI S_ 32 1#32),
    StableHlo.unary main_c_9 main_v21 (broadcastInDim S8 ![] bcast_S_S8 : (⟨S_, .i32⟩ : BufTy).Contents (Elt F) → (⟨S8, .i32⟩ : BufTy).Contents (Elt F)),
    StableHlo.binary main_v20 main_v21 main_v22 (andi : (⟨S8, .i32⟩ : BufTy).Contents (Elt F) → (⟨S8, .i32⟩ : BufTy).Contents (Elt F) → (⟨S8, .i32⟩ : BufTy).Contents (Elt F)),
    StableHlo.unary main_v18 main_v23 (broadcastInDim S8 ![] bcast_S_S8 : (⟨S_, .i32⟩ : BufTy).Contents (Elt F) → (⟨S8, .i32⟩ : BufTy).Contents (Elt F)),
    StableHlo.binary main_v17 main_v23 main_v24 (muli : (⟨S8, .i32⟩ : BufTy).Contents (Elt F) → (⟨S8, .i32⟩ : BufTy).Contents (Elt F) → (⟨S8, .i32⟩ : BufTy).Contents (Elt F)),
    StableHlo.TRef.nullary main_call3.c (constantI S_ 32 0#32),
    StableHlo.TRef.unary main_call3.c main_call3.v0 (broadcastInDim S8 ![] bcast_S_S8),
    StableHlo.TRef.binary (.of main_v22 : StableHlo.TRef sig ⟨S8, .i32⟩) main_call3.v0 main_call3.v1 (cmpi .ne),
    StableHlo.TRef.ternary main_call3.v1 (.of main_v24 : StableHlo.TRef sig ⟨S8, .i32⟩) (.of main_v17 : StableHlo.TRef sig ⟨S8, .i32⟩) main_call3.v2 select,
    StableHlo.binary main_v18 main_v18 main_v26 (muli : (⟨S_, .i32⟩ : BufTy).Contents (Elt F) → (⟨S_, .i32⟩ : BufTy).Contents (Elt F) → (⟨S_, .i32⟩ : BufTy).Contents (Elt F)),
    StableHlo.nullary main_c_10 (constantI S_ 32 1#32),
    StableHlo.unary main_c_10 main_v27 (broadcastInDim S8 ![] bcast_S_S8 : (⟨S_, .i32⟩ : BufTy).Contents (Elt F) → (⟨S8, .i32⟩ : BufTy).Contents (Elt F)),
    StableHlo.binary main_v20 main_v27 main_v28 (Host.shrui : (⟨S8, .i32⟩ : BufTy).Contents (Elt F) → (⟨S8, .i32⟩ : BufTy).Contents (Elt F) → (⟨S8, .i32⟩ : BufTy).Contents (Elt F)),
    StableHlo.nullary main_c_11 (constantI S_ 32 1#32),
    StableHlo.unary main_c_11 main_v29 (broadcastInDim S8 ![] bcast_S_S8 : (⟨S_, .i32⟩ : BufTy).Contents (Elt F) → (⟨S8, .i32⟩ : BufTy).Contents (Elt F)),
    StableHlo.binary main_v28 main_v29 main_v30 (andi : (⟨S8, .i32⟩ : BufTy).Contents (Elt F) → (⟨S8, .i32⟩ : BufTy).Contents (Elt F) → (⟨S8, .i32⟩ : BufTy).Contents (Elt F)),
    StableHlo.unary main_v26 main_v31 (broadcastInDim S8 ![] bcast_S_S8 : (⟨S_, .i32⟩ : BufTy).Contents (Elt F) → (⟨S8, .i32⟩ : BufTy).Contents (Elt F)),
    StableHlo.binary main_v25 main_v31 main_v32 (muli : (⟨S8, .i32⟩ : BufTy).Contents (Elt F) → (⟨S8, .i32⟩ : BufTy).Contents (Elt F) → (⟨S8, .i32⟩ : BufTy).Contents (Elt F)),
    StableHlo.TRef.nullary main_call4.c (constantI S_ 32 0#32),
    StableHlo.TRef.unary main_call4.c main_call4.v0 (broadcastInDim S8 ![] bcast_S_S8),
    StableHlo.TRef.binary (.of main_v30 : StableHlo.TRef sig ⟨S8, .i32⟩) main_call4.v0 main_call4.v1 (cmpi .ne),
    StableHlo.TRef.ternary main_call4.v1 (.of main_v32 : StableHlo.TRef sig ⟨S8, .i32⟩) (.of main_v25 : StableHlo.TRef sig ⟨S8, .i32⟩) main_call4.v2 select,
    StableHlo.binary main_v26 main_v26 main_v34 (muli : (⟨S_, .i32⟩ : BufTy).Contents (Elt F) → (⟨S_, .i32⟩ : BufTy).Contents (Elt F) → (⟨S_, .i32⟩ : BufTy).Contents (Elt F)),
    StableHlo.nullary main_c_12 (constantI S_ 32 1#32),
    StableHlo.unary main_c_12 main_v35 (broadcastInDim S8 ![] bcast_S_S8 : (⟨S_, .i32⟩ : BufTy).Contents (Elt F) → (⟨S8, .i32⟩ : BufTy).Contents (Elt F)),
    StableHlo.binary main_v28 main_v35 main_v36 (Host.shrui : (⟨S8, .i32⟩ : BufTy).Contents (Elt F) → (⟨S8, .i32⟩ : BufTy).Contents (Elt F) → (⟨S8, .i32⟩ : BufTy).Contents (Elt F)),
    StableHlo.nullary main_c_13 (constantI S_ 32 1#32),
    StableHlo.unary main_c_13 main_v37 (broadcastInDim S8 ![] bcast_S_S8 : (⟨S_, .i32⟩ : BufTy).Contents (Elt F) → (⟨S8, .i32⟩ : BufTy).Contents (Elt F)),
    StableHlo.binary main_v36 main_v37 main_v38 (andi : (⟨S8, .i32⟩ : BufTy).Contents (Elt F) → (⟨S8, .i32⟩ : BufTy).Contents (Elt F) → (⟨S8, .i32⟩ : BufTy).Contents (Elt F)),
    StableHlo.unary main_v34 main_v39 (broadcastInDim S8 ![] bcast_S_S8 : (⟨S_, .i32⟩ : BufTy).Contents (Elt F) → (⟨S8, .i32⟩ : BufTy).Contents (Elt F)),
    StableHlo.binary main_v33 main_v39 main_v40 (muli : (⟨S8, .i32⟩ : BufTy).Contents (Elt F) → (⟨S8, .i32⟩ : BufTy).Contents (Elt F) → (⟨S8, .i32⟩ : BufTy).Contents (Elt F)),
    StableHlo.TRef.nullary main_call5.c (constantI S_ 32 0#32),
    StableHlo.TRef.unary main_call5.c main_call5.v0 (broadcastInDim S8 ![] bcast_S_S8),
    StableHlo.TRef.binary (.of main_v38 : StableHlo.TRef sig ⟨S8, .i32⟩) main_call5.v0 main_call5.v1 (cmpi .ne),
    StableHlo.TRef.ternary main_call5.v1 (.of main_v40 : StableHlo.TRef sig ⟨S8, .i32⟩) (.of main_v33 : StableHlo.TRef sig ⟨S8, .i32⟩) main_call5.v2 select,
    StableHlo.binary main_v34 main_v34 main_v42 (muli : (⟨S_, .i32⟩ : BufTy).Contents (Elt F) → (⟨S_, .i32⟩ : BufTy).Contents (Elt F) → (⟨S_, .i32⟩ : BufTy).Contents (Elt F)),
    StableHlo.nullary main_c_14 (constantI S_ 32 1#32),
    StableHlo.unary main_c_14 main_v43 (broadcastInDim S8 ![] bcast_S_S8 : (⟨S_, .i32⟩ : BufTy).Contents (Elt F) → (⟨S8, .i32⟩ : BufTy).Contents (Elt F)) ]

/-- The second half of the power chain, and its reversal: slot 0 gets the weight 128. -/
abbrev ops8 : List (HloOp τ sig (Elt F)) :=
  [ StableHlo.binary main_v36 main_v43 main_v44 (Host.shrui : (⟨S8, .i32⟩ : BufTy).Contents (Elt F) → (⟨S8, .i32⟩ : BufTy).Contents (Elt F) → (⟨S8, .i32⟩ : BufTy).Contents (Elt F)),
    StableHlo.nullary main_c_15 (constantI S_ 32 1#32),
    StableHlo.unary main_c_15 main_v45 (broadcastInDim S8 ![] bcast_S_S8 : (⟨S_, .i32⟩ : BufTy).Contents (Elt F) → (⟨S8, .i32⟩ : BufTy).Contents (Elt F)),
    StableHlo.binary main_v44 main_v45 main_v46 (andi : (⟨S8, .i32⟩ : BufTy).Contents (Elt F) → (⟨S8, .i32⟩ : BufTy).Contents (Elt F) → (⟨S8, .i32⟩ : BufTy).Contents (Elt F)),
    StableHlo.unary main_v42 main_v47 (broadcastInDim S8 ![] bcast_S_S8 : (⟨S_, .i32⟩ : BufTy).Contents (Elt F) → (⟨S8, .i32⟩ : BufTy).Contents (Elt F)),
    StableHlo.binary main_v41 main_v47 main_v48 (muli : (⟨S8, .i32⟩ : BufTy).Contents (Elt F) → (⟨S8, .i32⟩ : BufTy).Contents (Elt F) → (⟨S8, .i32⟩ : BufTy).Contents (Elt F)),
    StableHlo.TRef.nullary main_call6.c (constantI S_ 32 0#32),
    StableHlo.TRef.unary main_call6.c main_call6.v0 (broadcastInDim S8 ![] bcast_S_S8),
    StableHlo.TRef.binary (.of main_v46 : StableHlo.TRef sig ⟨S8, .i32⟩) main_call6.v0 main_call6.v1 (cmpi .ne),
    StableHlo.TRef.ternary main_call6.v1 (.of main_v48 : StableHlo.TRef sig ⟨S8, .i32⟩) (.of main_v41 : StableHlo.TRef sig ⟨S8, .i32⟩) main_call6.v2 select,
    StableHlo.binary main_v42 main_v42 main_v50 (muli : (⟨S_, .i32⟩ : BufTy).Contents (Elt F) → (⟨S_, .i32⟩ : BufTy).Contents (Elt F) → (⟨S_, .i32⟩ : BufTy).Contents (Elt F)),
    StableHlo.nullary main_c_16 (constantI S_ 32 1#32),
    StableHlo.unary main_c_16 main_v51 (broadcastInDim S8 ![] bcast_S_S8 : (⟨S_, .i32⟩ : BufTy).Contents (Elt F) → (⟨S8, .i32⟩ : BufTy).Contents (Elt F)),
    StableHlo.binary main_v44 main_v51 main_v52 (Host.shrui : (⟨S8, .i32⟩ : BufTy).Contents (Elt F) → (⟨S8, .i32⟩ : BufTy).Contents (Elt F) → (⟨S8, .i32⟩ : BufTy).Contents (Elt F)),
    StableHlo.nullary main_c_17 (constantI S_ 32 1#32),
    StableHlo.unary main_c_17 main_v53 (broadcastInDim S8 ![] bcast_S_S8 : (⟨S_, .i32⟩ : BufTy).Contents (Elt F) → (⟨S8, .i32⟩ : BufTy).Contents (Elt F)),
    StableHlo.binary main_v52 main_v53 main_v54 (andi : (⟨S8, .i32⟩ : BufTy).Contents (Elt F) → (⟨S8, .i32⟩ : BufTy).Contents (Elt F) → (⟨S8, .i32⟩ : BufTy).Contents (Elt F)),
    StableHlo.unary main_v50 main_v55 (broadcastInDim S8 ![] bcast_S_S8 : (⟨S_, .i32⟩ : BufTy).Contents (Elt F) → (⟨S8, .i32⟩ : BufTy).Contents (Elt F)),
    StableHlo.binary main_v49 main_v55 main_v56 (muli : (⟨S8, .i32⟩ : BufTy).Contents (Elt F) → (⟨S8, .i32⟩ : BufTy).Contents (Elt F) → (⟨S8, .i32⟩ : BufTy).Contents (Elt F)),
    StableHlo.TRef.nullary main_call7.c (constantI S_ 32 0#32),
    StableHlo.TRef.unary main_call7.c main_call7.v0 (broadcastInDim S8 ![] bcast_S_S8),
    StableHlo.TRef.binary (.of main_v54 : StableHlo.TRef sig ⟨S8, .i32⟩) main_call7.v0 main_call7.v1 (cmpi .ne),
    StableHlo.TRef.ternary main_call7.v1 (.of main_v56 : StableHlo.TRef sig ⟨S8, .i32⟩) (.of main_v49 : StableHlo.TRef sig ⟨S8, .i32⟩) main_call7.v2 select,
    StableHlo.binary main_v50 main_v50 main_v58 (muli : (⟨S_, .i32⟩ : BufTy).Contents (Elt F) → (⟨S_, .i32⟩ : BufTy).Contents (Elt F) → (⟨S_, .i32⟩ : BufTy).Contents (Elt F)),
    StableHlo.nullary main_c_18 (constantI S_ 32 1#32),
    StableHlo.unary main_c_18 main_v59 (broadcastInDim S8 ![] bcast_S_S8 : (⟨S_, .i32⟩ : BufTy).Contents (Elt F) → (⟨S8, .i32⟩ : BufTy).Contents (Elt F)),
    StableHlo.binary main_v52 main_v59 main_v60 (Host.shrui : (⟨S8, .i32⟩ : BufTy).Contents (Elt F) → (⟨S8, .i32⟩ : BufTy).Contents (Elt F) → (⟨S8, .i32⟩ : BufTy).Contents (Elt F)),
    StableHlo.unary main_v57 main_v61 (Host.reverse [0] : (⟨S8, .i32⟩ : BufTy).Contents (Elt F) → (⟨S8, .i32⟩ : BufTy).Contents (Elt F)) ]

/-- The table address: the masked neighbour states times the weights, summed over the eight slots. -/
abbrev ops9 : List (HloOp τ sig (Elt F)) :=
  [ StableHlo.unary main_v61 main_v62 (broadcastInDim S1x1x8 ![2] bcast_S8_S1x1x8_2 : (⟨S8, .i32⟩ : BufTy).Contents (Elt F) → (⟨S1x1x8, .i32⟩ : BufTy).Contents (Elt F)),
    StableHlo.unary main_v62 main_v63 (broadcastInDim S32x100000x8 ![0, 1, 2] bcast_S1x1x8_S32x100000x8_0_1_2 : (⟨S1x1x8, .i32⟩ : BufTy).Contents (Elt F) → (⟨S32x100000x8, .i32⟩ : BufTy).Contents (Elt F)),
    StableHlo.binary main_v5 main_v63 main_v64 (muli : (⟨S32x100000x8, .i32⟩ : BufTy).Contents (Elt F) → (⟨S32x100000x8, .i32⟩ : BufTy).Contents (Elt F) → (⟨S32x100000x8, .i32⟩ : BufTy).Contents (Elt F)),
    StableHlo.nullary main_c_19 (constantI S_ 32 0#32),
    StableHlo.binary main_v64 main_c_19 main_v65 ((fun x v => Host.reduce IntOp.addi x v reducesTo_S32x100000x8_S32x100000_d2 h_S_) : (⟨S32x100000x8, .i32⟩ : BufTy).Contents (Elt F) → (⟨S_, .i32⟩ : BufTy).Contents (Elt F) → (⟨S32x100000, .i32⟩ : BufTy).Contents (Elt F)) ]

/-- The tables broadcast over the batch, and `take_along_axis`'s index normalisation of the address. -/
abbrev ops10 : List (HloOp τ sig (Elt F)) :=
  [ StableHlo.unary main_arg3 main_v66 (broadcastInDim S1x100000x256 ![1, 2] bcast_S100000x256_S1x100000x256_1_2 : (⟨S100000x256, .i32⟩ : BufTy).Contents (Elt F) → (⟨S1x100000x256, .i32⟩ : BufTy).Contents (Elt F)),
    StableHlo.unary main_v66 main_v67 (broadcastInDim S32x100000x256 ![0, 1, 2] bcast_S1x100000x256_S32x100000x256_0_1_2 : (⟨S1x100000x256, .i32⟩ : BufTy).Contents (Elt F) → (⟨S32x100000x256, .i32⟩ : BufTy).Contents (Elt F)),
    StableHlo.unary main_v65 main_v68 (broadcastInDim S32x100000x1 ![0, 1] bcast_S32x100000_S32x100000x1_0_1 : (⟨S32x100000, .i32⟩ : BufTy).Contents (Elt F) → (⟨S32x100000x1, .i32⟩ : BufTy).Contents (Elt F)),
    StableHlo.TRef.nullary main_call8.c (constantI S_ 32 0#32),
    StableHlo.TRef.unary main_call8.c main_call8.v0 (broadcastInDim S32x100000x1 ![] bcast_S_S32x100000x1),
    StableHlo.TRef.binary (.of main_v68 : StableHlo.TRef sig ⟨S32x100000x1, .i32⟩) main_call8.v0 main_call8.v1 (cmpi .slt),
    StableHlo.TRef.nullary main_call8.c_0 (constantI S_ 32 256#32),
    StableHlo.TRef.unary main_call8.c_0 main_call8.v2 (broadcastInDim S32x100000x1 ![] bcast_S_S32x100000x1),
    StableHlo.TRef.binary (.of main_v68 : StableHlo.TRef sig ⟨S32x100000x1, .i32⟩) main_call8.v2 main_call8.v3 addi,
    StableHlo.TRef.ternary main_call8.v1 main_call8.v3 (.of main_v68 : StableHlo.TRef sig ⟨S32x100000x1, .i32⟩) main_call8.v4 select,
    StableHlo.TRef.reshape main_call8.v4 main_call8.v5 rfl shapeCasts_S32x100000x1_S32x100000x1x1 ]

/-- Which table indices lie in `0 … 255`. -/
abbrev ops11 : List (HloOp τ sig (Elt F)) :=
  [ StableHlo.TRef.nullary main_call8.c_1 (constantI S1 32 255#32),
    StableHlo.TRef.nullary main_call8.c_2 (constantI S_ 32 0#32),
    StableHlo.TRef.unary main_call8.c_2 main_call8.v6 (broadcastInDim S32x100000x1x1 ![] bcast_S_S32x100000x1x1),
    StableHlo.TRef.binary main_call8.v5 main_call8.v6 main_call8.v7 (cmpi .sge),
    StableHlo.TRef.unary main_call8.c_1 main_call8.v8 (broadcastInDim S1x1x1x1 ![3] bcast_S1_S1x1x1x1_3),
    StableHlo.TRef.unary main_call8.v8 main_call8.v9 (broadcastInDim S32x100000x1x1 ![0, 1, 2, 3] bcast_S1x1x1x1_S32x100000x1x1_0_1_2_3),
    StableHlo.TRef.binary main_call8.v5 main_call8.v9 main_call8.v10 (cmpi .sle),
    StableHlo.TRef.binary main_call8.v7 main_call8.v10 main_call8.v11 andi ]

/-- The same per cell: `and` over the index vector's one component. -/
abbrev ops12 : List (HloOp τ sig (Elt F)) :=
  [ StableHlo.TRef.nullary main_call8.c_3 (constantI S_ 1 1#1),
    StableHlo.TRef.binary main_call8.v11 main_call8.c_3 main_call8.v12 (fun x v => Host.reduce IntOp.andi x v reducesTo_S32x100000x1x1_S32x100000x1_d3 h_S_) ]

/-- The gather of the table entries. -/
abbrev ops13 : List (HloOp τ sig (Elt F)) :=
  [ StableHlo.TRef.binary (.of main_v67 : StableHlo.TRef sig ⟨S32x100000x256, .i32⟩) main_call8.v5 main_call8.v13 (fun x i => Host.gather gather_S32x100000x256_S32x100000x1x1_S32x100000x1_n_2_01_01_2_3_111 x i) ]

/-- The fill word where the index was out of range, and the reshape to batch × node. -/
abbrev ops14 : List (HloOp τ sig (Elt F)) :=
  [ StableHlo.TRef.nullary main_call8.c_4 (constantI S_ 32 2147483648#32),
    StableHlo.TRef.unary main_call8.c_4 main_call8.v14 (broadcastInDim S32x100000x1 ![] bcast_S_S32x100000x1),
    StableHlo.TRef.ternary main_call8.v12 main_call8.v13 main_call8.v14 main_call8.v15 select,
    StableHlo.reshape main_v69 main_v70 rfl shapeCasts_S32x100000x1_S32x100000 ]

/-- A node none of whose slots is valid keeps its state. -/
abbrev ops15 : List (HloOp τ sig (Elt F)) :=
  [ StableHlo.nullary main_c_20 (constantI S_ 32 0#32),
    StableHlo.unary main_c_20 main_v71 (broadcastInDim S100000x8 ![] bcast_S_S100000x8 : (⟨S_, .i32⟩ : BufTy).Contents (Elt F) → (⟨S100000x8, .i32⟩ : BufTy).Contents (Elt F)),
    StableHlo.binary main_arg2 main_v71 main_v72 (cmpi .ne : (⟨S100000x8, .i32⟩ : BufTy).Contents (Elt F) → (⟨S100000x8, .i32⟩ : BufTy).Contents (Elt F) → (⟨S100000x8, .i1⟩ : BufTy).Contents (Elt F)),
    StableHlo.unary main_v72 main_v73 (id : (⟨S100000x8, .i1⟩ : BufTy).Contents (Elt F) → (⟨S100000x8, .i1⟩ : BufTy).Contents (Elt F)),
    StableHlo.nullary main_c_21 (constantI S_ 1 0#1),
    StableHlo.binary main_v73 main_c_21 main_v74 ((fun x v => Host.reduce IntOp.ori x v reducesTo_S100000x8_S100000_d1 h_S_) : (⟨S100000x8, .i1⟩ : BufTy).Contents (Elt F) → (⟨S_, .i1⟩ : BufTy).Contents (Elt F) → (⟨S100000, .i1⟩ : BufTy).Contents (Elt F)),
    StableHlo.unary main_v74 main_v75 (noti : (⟨S100000, .i1⟩ : BufTy).Contents (Elt F) → (⟨S100000, .i1⟩ : BufTy).Contents (Elt F)),
    StableHlo.unary main_v75 main_v76 (broadcastInDim S1x100000 ![1] bcast_S100000_S1x100000_1 : (⟨S100000, .i1⟩ : BufTy).Contents (Elt F) → (⟨S1x100000, .i1⟩ : BufTy).Contents (Elt F)),
    StableHlo.TRef.unary (.of main_v76 : StableHlo.TRef sig ⟨S1x100000, .i1⟩) main_call9.v0 (broadcastInDim S32x100000 ![0, 1] bcast_S1x100000_S32x100000_0_1),
    StableHlo.TRef.ternary main_call9.v0 (.of main_arg0 : StableHlo.TRef sig ⟨S32x100000, .i32⟩) (.of main_v70 : StableHlo.TRef sig ⟨S32x100000, .i32⟩) main_call9.v1 select ]

/-- The read-out: the next states of the nodes from 1024 on as reals, times `W`, plus the bias, through `1 / (1 + exp (-x))`. -/
abbrev ops16 : List (HloOp τ sig (Elt F)) :=
  [ StableHlo.unary main_v77 main_v78 ((extractStridedSlice S32x98976 ![0, 1024] · slices_S32x100000_S32x98976_0_1024) : (⟨S32x100000, .i32⟩ : BufTy).Contents (Elt F) → (⟨S32x98976, .i32⟩ : BufTy).Contents (Elt F)),
    StableHlo.unary main_v78 main_v79 (sitofp .f32 : (⟨S32x98976, .i32⟩ : BufTy).Contents (Elt F) → (⟨S32x98976, .f32⟩ : BufTy).Contents (Elt F)),
    StableHlo.binary main_v79 main_arg4 main_v80 ((fun l r => Host.dotGeneral dot_S32x98976_S98976x128_S32x128_1_0_0_1_n_n none l r) : (⟨S32x98976, .f32⟩ : BufTy).Contents (Elt F) → (⟨S98976x128, .f32⟩ : BufTy).Contents (Elt F) → (⟨S32x128, .f32⟩ : BufTy).Contents (Elt F)),
    StableHlo.unary main_arg5 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S32x128 ![0, 1] bcast_S1x128_S32x128_0_1 : (⟨S1x128, .f32⟩ : BufTy).Contents (Elt F) → (⟨S32x128, .f32⟩ : BufTy).Contents (Elt F)),
    StableHlo.binary main_v80 main_v82 main_v83 (addf : (⟨S32x128, .f32⟩ : BufTy).Contents (Elt F) → (⟨S32x128, .f32⟩ : BufTy).Contents (Elt F) → (⟨S32x128, .f32⟩ : BufTy).Contents (Elt F)),
    StableHlo.unary main_v83 main_v84 (Host.negf : (⟨S32x128, .f32⟩ : BufTy).Contents (Elt F) → (⟨S32x128, .f32⟩ : BufTy).Contents (Elt F)),
    StableHlo.unary main_v84 main_v85 (Host.exp : (⟨S32x128, .f32⟩ : BufTy).Contents (Elt F) → (⟨S32x128, .f32⟩ : BufTy).Contents (Elt F)),
    StableHlo.nullary main_cst (constant S_ .f32 0x3F800000#32),
    StableHlo.unary main_cst main_v86 (broadcastInDim S32x128 ![] bcast_S_S32x128 : (⟨S_, .f32⟩ : BufTy).Contents (Elt F) → (⟨S32x128, .f32⟩ : BufTy).Contents (Elt F)),
    StableHlo.binary main_v86 main_v85 main_v87 (addf : (⟨S32x128, .f32⟩ : BufTy).Contents (Elt F) → (⟨S32x128, .f32⟩ : BufTy).Contents (Elt F) → (⟨S32x128, .f32⟩ : BufTy).Contents (Elt F)),
    StableHlo.nullary main_cst_22 (constant S_ .f32 0x3F800000#32),
    StableHlo.unary main_cst_22 main_v88 (broadcastInDim S32x128 ![] bcast_S_S32x128 : (⟨S_, .f32⟩ : BufTy).Contents (Elt F) → (⟨S32x128, .f32⟩ : BufTy).Contents (Elt F)),
    StableHlo.binary main_v88 main_v87 main_v89 (Host.divf : (⟨S32x128, .f32⟩ : BufTy).Contents (Elt F) → (⟨S32x128, .f32⟩ : BufTy).Contents (Elt F) → (⟨S32x128, .f32⟩ : BufTy).Contents (Elt F)) ]

/-- The whole line. -/
abbrev ops : List (HloOp τ sig (Elt F)) := (ops1 ++ (ops2 ++ (ops3 ++ (ops4 ++ (ops5 ++ (ops6 ++ (ops7))))))) ++ (ops8 ++ (ops9 ++ (ops10 ++ (ops11 ++ (ops12 ++ (ops13 ++ (ops14 ++ (ops15 ++ (ops16)))))))))

set_option maxRecDepth 16384 in
set_option maxHeartbeats 4000000 in
/-- The first window of the program is the first seven stretches: the helper functions' definitions unfolded at
    their calls, both sides are one chain of steps once sequencing is reassociated. -/
theorem part0_eq (c : Dev nD) : main_part0 (F := F) c = seq (ops1 ++ (ops2 ++ (ops3 ++ (ops4 ++ (ops5 ++ (ops6 ++ (ops7))))))) := by
  simp only [main_part0, fn_take.body, fn_where.body, fn_where_0.body, fn_where_1.body, ops1, ops2, ops3, ops4, ops5, ops6, ops7, List.cons_append,
    List.nil_append, seq, bind_assoc, pure_bind]
  rfl

set_option maxRecDepth 16384 in
set_option maxHeartbeats 4000000 in
/-- The second window is the other nine. -/
theorem part1_eq (c : Dev nD) : main_part1 (F := F) c = seq (ops8 ++ (ops9 ++ (ops10 ++ (ops11 ++ (ops12 ++ (ops13 ++ (ops14 ++ (ops15 ++ (ops16))))))))) := by
  simp only [main_part1, fn_where_1.body, fn_take_along_axis.body, fn_where_2.body, ops8, ops9, ops10, ops11, ops12, ops13, ops14, ops15, ops16,
    List.cons_append, List.nil_append, seq, bind_assoc, pure_bind]

theorem main_eq (c : Dev nD) : main (F := F) c = seq ops :=
  calc main (F := F) c = (main_part0 (F := F) c >>= fun _ => main_part1 (F := F) c) := rfl
    _ = (seq (ops1 ++ (ops2 ++ (ops3 ++ (ops4 ++ (ops5 ++ (ops6 ++ (ops7))))))) >>= fun _ => seq (ops8 ++ (ops9 ++ (ops10 ++ (ops11 ++ (ops12 ++ (ops13 ++ (ops14 ++ (ops15 ++ (ops16)))))))))) := by rw [part0_eq, part1_eq]
    _ = seq ops := (seq_append _ _).symm

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops1_sub : (ops1 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub ..⟩

set_option maxRecDepth 8192 in
theorem ops2_sub : (ops2 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub ..⟩

set_option maxRecDepth 8192 in
theorem ops3_sub : (ops3 : List (HloOp τ sig (Elt F))).Forall fun op => op.bufs ⊆ tcRefs τ sig :=
  ⟨nullary_bufs_sub .., binary_bufs_sub ..⟩

set_option maxRecDepth 8192 in
theorem ops4_sub : (ops4 : List (HloOp τ sig (Elt F))).Forall fun op => op.bufs ⊆ tcRefs τ sig :=
  binary_bufs_sub ..

set_option maxRecDepth 8192 in
theorem ops5_sub : (ops5 : List (HloOp τ sig (Elt F))).Forall fun op => op.bufs ⊆ tcRefs τ sig :=
  ⟨unary_bufs_sub .., nullary_bufs_sub .., unary_bufs_sub .., ternary_bufs_sub .., reshape_bufs_sub ..⟩

set_option maxRecDepth 8192 in
theorem ops6_sub : (ops6 : List (HloOp τ sig (Elt F))).Forall fun op => op.bufs ⊆ tcRefs τ sig :=
  ⟨unary_bufs_sub .., unary_bufs_sub .., binary_bufs_sub ..⟩

set_option maxRecDepth 8192 in
theorem ops7_sub : (ops7 : List (HloOp τ sig (Elt F))).Forall fun op => op.bufs ⊆ tcRefs τ sig :=
  ⟨nullary_bufs_sub .., nullary_bufs_sub .., nullary_bufs_sub .., binary_bufs_sub .., nullary_bufs_sub .., unary_bufs_sub .., binary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub ..⟩

set_option maxRecDepth 8192 in
theorem ops8_sub : (ops8 : List (HloOp τ sig (Elt F))).Forall fun op => op.bufs ⊆ tcRefs τ sig :=
  ⟨binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., unary_bufs_sub ..⟩

set_option maxRecDepth 8192 in
theorem ops9_sub : (ops9 : List (HloOp τ sig (Elt F))).Forall fun op => op.bufs ⊆ tcRefs τ sig :=
  ⟨unary_bufs_sub .., unary_bufs_sub .., binary_bufs_sub .., nullary_bufs_sub .., binary_bufs_sub ..⟩

set_option maxRecDepth 8192 in
theorem ops10_sub : (ops10 : List (HloOp τ sig (Elt F))).Forall fun op => op.bufs ⊆ tcRefs τ sig :=
  ⟨unary_bufs_sub .., unary_bufs_sub .., unary_bufs_sub .., nullary_bufs_sub .., unary_bufs_sub .., binary_bufs_sub .., nullary_bufs_sub .., unary_bufs_sub .., binary_bufs_sub .., ternary_bufs_sub .., reshape_bufs_sub ..⟩

set_option maxRecDepth 8192 in
theorem ops11_sub : (ops11 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub ..⟩

set_option maxRecDepth 8192 in
theorem ops12_sub : (ops12 : List (HloOp τ sig (Elt F))).Forall fun op => op.bufs ⊆ tcRefs τ sig :=
  ⟨nullary_bufs_sub .., binary_bufs_sub ..⟩

set_option maxRecDepth 8192 in
theorem ops13_sub : (ops13 : List (HloOp τ sig (Elt F))).Forall fun op => op.bufs ⊆ tcRefs τ sig :=
  binary_bufs_sub ..

set_option maxRecDepth 8192 in
theorem ops14_sub : (ops14 : List (HloOp τ sig (Elt F))).Forall fun op => op.bufs ⊆ tcRefs τ sig :=
  ⟨nullary_bufs_sub .., unary_bufs_sub .., ternary_bufs_sub .., reshape_bufs_sub ..⟩

set_option maxRecDepth 8192 in
theorem ops15_sub : (ops15 : List (HloOp τ sig (Elt F))).Forall fun op => op.bufs ⊆ tcRefs τ sig :=
  ⟨nullary_bufs_sub .., unary_bufs_sub .., binary_bufs_sub .., unary_bufs_sub .., nullary_bufs_sub .., binary_bufs_sub .., unary_bufs_sub .., unary_bufs_sub .., unary_bufs_sub .., ternary_bufs_sub ..⟩

set_option maxRecDepth 8192 in
theorem ops16_sub : (ops16 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with (h | h | h | h | h | h | h) | h | h | h | h | h | h | h | h | h
    exacts [List.forall_iff_forall_mem.mp ops1_sub op h,
      List.forall_iff_forall_mem.mp ops2_sub op h,
      List.forall_iff_forall_mem.mp ops3_sub op h,
      List.forall_iff_forall_mem.mp ops4_sub op h,
      List.forall_iff_forall_mem.mp ops5_sub op h,
      List.forall_iff_forall_mem.mp ops6_sub op h,
      List.forall_iff_forall_mem.mp ops7_sub op h,
      List.forall_iff_forall_mem.mp ops8_sub op h,
      List.forall_iff_forall_mem.mp ops9_sub op h,
      List.forall_iff_forall_mem.mp ops10_sub op h,
      List.forall_iff_forall_mem.mp ops11_sub op h,
      List.forall_iff_forall_mem.mp ops12_sub op h,
      List.forall_iff_forall_mem.mp ops13_sub op h,
      List.forall_iff_forall_mem.mp ops14_sub op h,
      List.forall_iff_forall_mem.mp ops15_sub op h,
      List.forall_iff_forall_mem.mp ops16_sub op h]

/-! ## The stages, as functions of what they read -/

/-- `jnp.take`'s indices: the slot table flattened, a negative entry wrapped by the axis length 100000, as a column. -/
def takeIdx (a1 : IVec S100000x8 32) : IVec S800000x1 32 :=
  (broadcastInDim S800000x1 ![0] bcast_S800000_S800000x1_0) (select ((cmpi .slt) (shapeCast S800000 (a1) shapeCasts_S100000x8_S800000) ((broadcastInDim S800000 ![] bcast_S_S800000) (constantI S_ 32 0#32))) (addi (shapeCast S800000 (a1) shapeCasts_S100000x8_S800000) ((broadcastInDim S800000 ![] bcast_S_S800000) (constantI S_ 32 100000#32))) (shapeCast S800000 (a1) shapeCasts_S100000x8_S800000))

/-- The index lies between 0 and 99999, as signed words. -/
def idxOk (ix : IVec S800000x1 32) : IVec S800000x1 1 :=
  andi ((cmpi .sge) (ix) ((broadcastInDim S800000x1 ![] bcast_S_S800000x1) (constantI S_ 32 0#32))) ((cmpi .sle) (ix) ((broadcastInDim S800000x1 ![0, 1] bcast_S1x1_S800000x1_0_1) ((broadcastInDim S1x1 ![1] bcast_S1_S1x1_1) (constantI S1 32 99999#32))))

/-- The conjunction over the index vector's one component. -/
def rowOk (c : IVec S800000x1 1) : IVec S800000 1 :=
  (fun x v => Host.reduce IntOp.andi x v reducesTo_S800000x1_S800000_d1 h_S_) (c) (constantI S_ 1 1#1)

/-- The state columns at a column of indices. -/
def gatherSt (a0 : IVec S32x100000 32) (ix : IVec S800000x1 32) : IVec S32x800000 32 :=
  (fun x i => Host.gather gather_S32x100000_S800000x1_S32x800000_0_1_n_n_1_1_321 x i) (a0) (ix)

/-- The gathered columns where the index was in range, the fill word elsewhere, as batch × node × slot. -/
def takenOf (ok : IVec S800000 1) (g : IVec S32x800000 32) : IVec S32x100000x8 32 :=
  shapeCast S32x100000x8 (select ((broadcastInDim S32x800000 ![1] bcast_S800000_S32x800000_1) (ok)) (g) ((broadcastInDim S32x800000 ![] bcast_S_S32x800000) (constantI S_ 32 2147483648#32))) shapeCasts_S32x800000_S32x100000x8

/-- Gathered states times the slots' validity flags. -/
def maskedBy (t : IVec S32x100000x8 32) (a2 : IVec S100000x8 32) : IVec S32x100000x8 32 :=
  (muli) (t) ((broadcastInDim S32x100000x8 ![0, 1, 2] bcast_S1x100000x8_S32x100000x8_0_1_2) ((broadcastInDim S1x100000x8 ![1, 2] bcast_S100000x8_S1x100000x8_1_2) (a2)))

/-- The slot numbers `0 … 7`. -/
def slots : IVec S8 32 :=
  iotaInDim S8 32 0

/-- The power chain's start: 1 in every slot (the test for a zero base selects nothing, the base being 2). -/
def pw0 : IVec S8 32 :=
  select ((andi) ((broadcastInDim S8 ![] bcast_S_S8) ((cmpi .eq) (constantI S_ 32 2#32) (constantI S_ 32 0#32))) ((cmpi .ne) (slots) ((broadcastInDim S8 ![] bcast_S_S8) (constantI S_ 32 0#32)))) ((broadcastInDim S8 ![] bcast_S_S8) (constantI S_ 32 0#32)) ((broadcastInDim S8 ![] bcast_S_S8) (constantI S_ 32 1#32))

/-- After bit 0 of the exponent `k`: `2 ^ (k % 2)`. -/
def pw1 : IVec S8 32 :=
  select ((cmpi .ne) ((andi) (slots) ((broadcastInDim S8 ![] bcast_S_S8) (constantI S_ 32 1#32))) ((broadcastInDim S8 ![] bcast_S_S8) (constantI S_ 32 0#32))) ((muli) (pw0) ((broadcastInDim S8 ![] bcast_S_S8) (constantI S_ 32 2#32))) (pw0)

/-- The base squared once: 4. -/
def sq1 : IVec S_ 32 :=
  (muli) (constantI S_ 32 2#32) (constantI S_ 32 2#32)

/-- The exponent shifted right once. -/
def sh1 : IVec S8 32 :=
  (Host.shrui) (slots) ((broadcastInDim S8 ![] bcast_S_S8) (constantI S_ 32 1#32))

/-- After bit 1 of the exponent: `2 ^ (k % 4)`. -/
def pw2 : IVec S8 32 :=
  select ((cmpi .ne) ((andi) (sh1) ((broadcastInDim S8 ![] bcast_S_S8) (constantI S_ 32 1#32))) ((broadcastInDim S8 ![] bcast_S_S8) (constantI S_ 32 0#32))) ((muli) (pw1) ((broadcastInDim S8 ![] bcast_S_S8) (sq1))) (pw1)

/-- The base squared twice: 16. -/
def sq2 : IVec S_ 32 :=
  (muli) (sq1) (sq1)

/-- The exponent shifted right twice. -/
def sh2 : IVec S8 32 :=
  (Host.shrui) (sh1) ((broadcastInDim S8 ![] bcast_S_S8) (constantI S_ 32 1#32))

/-- After bit 2 of the exponent: `2 ^ k`, the exponent being below 8. -/
def pw3 : IVec S8 32 :=
  select ((cmpi .ne) ((andi) (sh2) ((broadcastInDim S8 ![] bcast_S_S8) (constantI S_ 32 1#32))) ((broadcastInDim S8 ![] bcast_S_S8) (constantI S_ 32 0#32))) ((muli) (pw2) ((broadcastInDim S8 ![] bcast_S_S8) (sq2))) (pw2)

/-- The base squared three times: 256. -/
def sq3 : IVec S_ 32 :=
  (muli) (sq2) (sq2)

/-- The exponent shifted right three times: zero in every slot. -/
def sh3 : IVec S8 32 :=
  (Host.shrui) (sh2) ((broadcastInDim S8 ![] bcast_S_S8) (constantI S_ 32 1#32))

/-- After bit 3 of the exponent. -/
def pw4 : IVec S8 32 :=
  select ((cmpi .ne) ((andi) (sh3) ((broadcastInDim S8 ![] bcast_S_S8) (constantI S_ 32 1#32))) ((broadcastInDim S8 ![] bcast_S_S8) (constantI S_ 32 0#32))) ((muli) (pw3) ((broadcastInDim S8 ![] bcast_S_S8) (sq3))) (pw3)

/-- The base squared four times: 65536. -/
def sq4 : IVec S_ 32 :=
  (muli) (sq3) (sq3)

/-- The word 1 in every slot. -/
def ones : IVec S8 32 :=
  (broadcastInDim S8 ![] bcast_S_S8) (constantI S_ 32 1#32)

/-- The exponent shifted right once more. -/
def sh4 (s : IVec S8 32) (o : IVec S8 32) : IVec S8 32 :=
  (Host.shrui) (s) (o)

/-- After bit 4 of the exponent. -/
def pw5 (p : IVec S8 32) (s : IVec S8 32) (q : IVec S_ 32) (o : IVec S8 32) : IVec S8 32 :=
  select ((cmpi .ne) ((andi) (sh4 s o) ((broadcastInDim S8 ![] bcast_S_S8) (constantI S_ 32 1#32))) ((broadcastInDim S8 ![] bcast_S_S8) (constantI S_ 32 0#32))) ((muli) (p) ((broadcastInDim S8 ![] bcast_S_S8) (q))) (p)

/-- The running square, squared. -/
def sq5 (q : IVec S_ 32) : IVec S_ 32 :=
  (muli) (q) (q)

/-- The exponent shifted right once more. -/
def sh5 (s : IVec S8 32) (o : IVec S8 32) : IVec S8 32 :=
  (Host.shrui) (sh4 s o) ((broadcastInDim S8 ![] bcast_S_S8) (constantI S_ 32 1#32))

/-- After bit 5 of the exponent. -/
def pw6 (p : IVec S8 32) (s : IVec S8 32) (q : IVec S_ 32) (o : IVec S8 32) : IVec S8 32 :=
  select ((cmpi .ne) ((andi) (sh5 s o) ((broadcastInDim S8 ![] bcast_S_S8) (constantI S_ 32 1#32))) ((broadcastInDim S8 ![] bcast_S_S8) (constantI S_ 32 0#32))) ((muli) (pw5 p s q o) ((broadcastInDim S8 ![] bcast_S_S8) (sq5 q))) (pw5 p s q o)

/-- The chain's end reversed along the slot axis. -/
def wts (p : IVec S8 32) (s : IVec S8 32) (q : IVec S_ 32) (o : IVec S8 32) : IVec S8 32 :=
  (Host.reverse [0]) (pw6 p s q o)

/-- The table address as a word: the masked neighbour states times the slot weights, summed over the eight slots. -/
def addrW (m : IVec S32x100000x8 32) (w : IVec S8 32) : IVec S32x100000 32 :=
  ((fun x v => Host.reduce IntOp.addi x v reducesTo_S32x100000x8_S32x100000_d2 h_S_)) ((muli) (m) ((broadcastInDim S32x100000x8 ![0, 1, 2] bcast_S1x1x8_S32x100000x8_0_1_2) ((broadcastInDim S1x1x8 ![2] bcast_S8_S1x1x8_2) (w)))) (constantI S_ 32 0#32)

/-- The tables, the same for every batch row. -/
def tables (a3 : IVec S100000x256 32) : IVec S32x100000x256 32 :=
  (broadcastInDim S32x100000x256 ![0, 1, 2] bcast_S1x100000x256_S32x100000x256_0_1_2) ((broadcastInDim S1x100000x256 ![1, 2] bcast_S100000x256_S1x100000x256_1_2) (a3))

/-- `take_along_axis`'s indices: the address, a negative one wrapped by the table length 256. -/
def lutIdx (ad : IVec S32x100000 32) : IVec S32x100000x1x1 32 :=
  shapeCast S32x100000x1x1 (select ((cmpi .slt) ((broadcastInDim S32x100000x1 ![0, 1] bcast_S32x100000_S32x100000x1_0_1) (ad)) ((broadcastInDim S32x100000x1 ![] bcast_S_S32x100000x1) (constantI S_ 32 0#32))) (addi ((broadcastInDim S32x100000x1 ![0, 1] bcast_S32x100000_S32x100000x1_0_1) (ad)) ((broadcastInDim S32x100000x1 ![] bcast_S_S32x100000x1) (constantI S_ 32 256#32))) ((broadcastInDim S32x100000x1 ![0, 1] bcast_S32x100000_S32x100000x1_0_1) (ad))) shapeCasts_S32x100000x1_S32x100000x1x1

/-- The index lies between 0 and 255, as signed words. -/
def jdxOk (jx : IVec S32x100000x1x1 32) : IVec S32x100000x1x1 1 :=
  andi ((cmpi .sge) (jx) ((broadcastInDim S32x100000x1x1 ![] bcast_S_S32x100000x1x1) (constantI S_ 32 0#32))) ((cmpi .sle) (jx) ((broadcastInDim S32x100000x1x1 ![0, 1, 2, 3] bcast_S1x1x1x1_S32x100000x1x1_0_1_2_3) ((broadcastInDim S1x1x1x1 ![3] bcast_S1_S1x1x1x1_3) (constantI S1 32 255#32))))

/-- The conjunction over the index vector's one component. -/
def cellOk (c : IVec S32x100000x1x1 1) : IVec S32x100000x1 1 :=
  (fun x v => Host.reduce IntOp.andi x v reducesTo_S32x100000x1x1_S32x100000x1_d3 h_S_) (c) (constantI S_ 1 1#1)

/-- The table entries at an array of indices. -/
def gatherTb (tb : IVec S32x100000x256 32) (jx : IVec S32x100000x1x1 32) : IVec S32x100000x1 32 :=
  (fun x i => Host.gather gather_S32x100000x256_S32x100000x1x1_S32x100000x1_n_2_01_01_2_3_111 x i) (tb) (jx)

/-- The gathered entries where the index was in range, the fill word elsewhere. -/
def lookedOf (ok : IVec S32x100000x1 1) (g : IVec S32x100000x1 32) : IVec S32x100000 32 :=
  shapeCast S32x100000 (select (ok) (g) ((broadcastInDim S32x100000x1 ![] bcast_S_S32x100000x1) (constantI S_ 32 2147483648#32))) shapeCasts_S32x100000x1_S32x100000

/-- Per node: no slot is valid. -/
def noSlot (a2 : IVec S100000x8 32) : IVec S1x100000 1 :=
  (broadcastInDim S1x100000 ![1] bcast_S100000_S1x100000_1) ((noti) (((fun x v => Host.reduce IntOp.ori x v reducesTo_S100000x8_S100000_d1 h_S_)) ((id) ((cmpi .ne) (a2) ((broadcastInDim S100000x8 ![] bcast_S_S100000x8) (constantI S_ 32 0#32)))) (constantI S_ 1 0#1)))

/-- The next state: the old state where no slot is valid, the looked-up bit elsewhere. -/
def nextSt (a0 : IVec S32x100000 32) (a2 : IVec S100000x8 32) (lk : IVec S32x100000 32) : IVec S32x100000 32 :=
  select ((broadcastInDim S32x100000 ![0, 1] bcast_S1x100000_S32x100000_0_1) (noSlot a2)) (a0) (lk)

/-- The read-out before the logistic function: the states of the nodes from 1024 on as floats, times `W`, plus the bias. -/
def preact (ns : IVec S32x100000 32) (a4 : FVec F S98976x128 .f32) (a5 : FVec F S128 .f32) : FVec F S32x128 .f32 :=
  (addf) (((fun l r => Host.dotGeneral dot_S32x98976_S98976x128_S32x128_1_0_0_1_n_n none l r)) ((sitofp .f32) (((extractStridedSlice S32x98976 ![0, 1024] · slices_S32x100000_S32x98976_0_1024)) (ns))) (a4)) ((broadcastInDim S32x128 ![0, 1] bcast_S1x128_S32x128_0_1) ((broadcastInDim S1x128 ![1] bcast_S128_S1x128_1) (a5)))

/-- `1 / (1 + exp (-x))` of it. -/
def readout (ns : IVec S32x100000 32) (a4 : FVec F S98976x128 .f32) (a5 : FVec F S128 .f32) : FVec F S32x128 .f32 :=
  (Host.divf) ((broadcastInDim S32x128 ![] bcast_S_S32x128) (constant S_ .f32 0x3F800000#32)) ((addf) ((broadcastInDim S32x128 ![] bcast_S_S32x128) (constant S_ .f32 0x3F800000#32)) ((Host.exp) ((Host.negf) (preact ns a4 a5))))

/-- The neighbours' states: the gather at `jnp.take`'s indices, the fill word where one is out of range. -/
def takenAt (a0 : IVec S32x100000 32) (ix : IVec S800000x1 32) : IVec S32x100000x8 32 :=
  takenOf (rowOk (idxOk ix)) (gatherSt a0 ix)

/-- The neighbours' states times the slots' validity flags. -/
def masked (a0 : IVec S32x100000 32) (a1 a2 : IVec S100000x8 32) : IVec S32x100000x8 32 :=
  maskedBy (takenAt a0 (takeIdx a1)) a2

/-- The slot weights: the power chain run on the slot numbers, reversed — slot 0 weighs most. -/
def weights : IVec S8 32 := wts pw4 sh3 sq4 ones

/-- The table entry at an array of indices, the fill word where one is out of range. -/
def lookedAt (tb : IVec S32x100000x256 32) (jx : IVec S32x100000x1x1 32) : IVec S32x100000 32 :=
  lookedOf (cellOk (jdxOk jx)) (gatherTb tb jx)

/-- The table entry at the address, per batch row and node. -/
def looked (a3 : IVec S100000x256 32) (ad : IVec S32x100000 32) : IVec S32x100000 32 :=
  lookedAt (tables a3) (lutIdx ad)

/-- The reference's result as a function of its six arguments, for any float values. -/
def resultF (a0 : IVec S32x100000 32) (a1 a2 : IVec S100000x8 32) (a3 : IVec S100000x256 32) (a4 : FVec F S98976x128 .f32)
    (a5 : FVec F S128 .f32) : FVec F S32x128 .f32 :=
  readout (nextSt a0 a2 (looked a3 (addrW (masked a0 a1 a2) weights))) a4 a5

/-! ## What each stretch leaves, from any contents -/

/-- The buffers the first stretch writes. -/
abbrev ops1_W : List (Ref sig .tc) := [main_v0, main_call0_c, main_call0_v0, main_call0_v1, main_call0_c_0, main_call0_v2, main_call0_v3, main_call0_v4, main_call0_v5]
set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep1 (V : Valuation τ sig (Elt F)) (r : Ref sig .tc) (h : r ∉ ops1_W) :
    after ops1 V (no_index (Proc.devRef .tc r)) = V (Proc.devRef .tc r) :=
  after_of_writes_sub ops1 V ops1_writes h

/-- The buffers the second stretch writes. -/
abbrev ops2_W : List (Ref sig .tc) := [main_call0_c_1, main_call0_c_2, main_call0_v6, main_call0_v7, main_call0_v8, main_call0_v9, main_call0_v10, main_call0_v11]
set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep2 (V : Valuation τ sig (Elt F)) (r : Ref sig .tc) (h : r ∉ ops2_W) :
    after ops2 V (no_index (Proc.devRef .tc r)) = V (Proc.devRef .tc r) :=
  after_of_writes_sub ops2 V ops2_writes h

/-- The buffers the third stretch writes. -/
abbrev ops3_W : List (Ref sig .tc) := [main_call0_c_3, main_call0_v12]
set_option maxRecDepth 8192 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep3 (V : Valuation τ sig (Elt F)) (r : Ref sig .tc) (h : r ∉ ops3_W) :
    after ops3 V (no_index (Proc.devRef .tc r)) = V (Proc.devRef .tc r) :=
  after_of_writes_sub ops3 V ops3_writes h

/-- The buffers the fourth stretch writes. -/
abbrev ops4_W : List (Ref sig .tc) := [main_call0_v13]
set_option maxRecDepth 8192 in
theorem ops4_writes : (ops4 : List (HloOp τ sig (Elt F))).Forall fun op => op.writes ⊆ (ops4_W.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))
/-- A buffer the stretch does not write keeps its contents through it. -/
theorem keep4 (V : Valuation τ sig (Elt F)) (r : Ref sig .tc) (h : r ∉ ops4_W) :
    after ops4 V (no_index (Proc.devRef .tc r)) = V (Proc.devRef .tc r) :=
  after_of_writes_sub ops4 V ops4_writes h

/-- The buffers the fifth stretch writes. -/
abbrev ops5_W : List (Ref sig .tc) := [main_call0_v14, main_call0_c_4, main_call0_v15, main_v1, main_v2]
set_option maxRecDepth 8192 in
theorem ops5_writes : (ops5 : List (HloOp τ sig (Elt F))).Forall fun op => op.writes ⊆ (ops5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep5 (V : Valuation τ sig (Elt F)) (r : Ref sig .tc) (h : r ∉ ops5_W) :
    after ops5 V (no_index (Proc.devRef .tc r)) = V (Proc.devRef .tc r) :=
  after_of_writes_sub ops5 V ops5_writes h

/-- The buffers the sixth stretch writes. -/
abbrev ops6_W : List (Ref sig .tc) := [main_v3, main_v4, main_v5]
set_option maxRecDepth 8192 in
theorem ops6_writes : (ops6 : List (HloOp τ sig (Elt F))).Forall fun op => op.writes ⊆ (ops6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep6 (V : Valuation τ sig (Elt F)) (r : Ref sig .tc) (h : r ∉ ops6_W) :
    after ops6 V (no_index (Proc.devRef .tc r)) = V (Proc.devRef .tc r) :=
  after_of_writes_sub ops6 V ops6_writes h

/-- The buffers the seventh stretch writes. -/
abbrev ops7_W : List (Ref sig .tc) := [main_v6, main_c, main_c_0, main_v7, main_c_1, main_v8, main_v9, main_v10, main_v11, main_c_2, main_c_3, main_call1_v0, main_call1_v1, main_v12, main_c_4, main_v13, main_v14, main_c_5, main_v15, main_v16, main_call2_c, main_call2_v0, main_call2_v1, main_v17, main_c_6, main_c_7, main_v18, main_c_8, main_v19, main_v20, main_c_9, main_v21, main_v22, main_v23, main_v24, main_call3_c, main_call3_v0, main_call3_v1, main_v25, main_v26, main_c_10, main_v27, main_v28, main_c_11, main_v29, main_v30, main_v31, main_v32, main_call4_c, main_call4_v0, main_call4_v1, main_v33, main_v34, main_c_12, main_v35, main_v36, main_c_13, main_v37, main_v38, main_v39, main_v40, main_call5_c, main_call5_v0, main_call5_v1, main_v41, main_v42, main_c_14, main_v43]
set_option maxRecDepth 8192 in
theorem ops7_writes : (ops7 : List (HloOp τ sig (Elt F))).Forall fun op => op.writes ⊆ (ops7_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep7 (V : Valuation τ sig (Elt F)) (r : Ref sig .tc) (h : r ∉ ops7_W) :
    after ops7 V (no_index (Proc.devRef .tc r)) = V (Proc.devRef .tc r) :=
  after_of_writes_sub ops7 V ops7_writes h

/-- The buffers the eighth stretch writes. -/
abbrev ops8_W : List (Ref sig .tc) := [main_v44, main_c_15, main_v45, main_v46, main_v47, main_v48, main_call6_c, main_call6_v0, main_call6_v1, main_v49, main_v50, main_c_16, main_v51, main_v52, main_c_17, main_v53, main_v54, main_v55, main_v56, main_call7_c, main_call7_v0, main_call7_v1, main_v57, main_v58, main_c_18, main_v59, main_v60, main_v61]
set_option maxRecDepth 8192 in
theorem ops8_writes : (ops8 : List (HloOp τ sig (Elt F))).Forall fun op => op.writes ⊆ (ops8_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep8 (V : Valuation τ sig (Elt F)) (r : Ref sig .tc) (h : r ∉ ops8_W) :
    after ops8 V (no_index (Proc.devRef .tc r)) = V (Proc.devRef .tc r) :=
  after_of_writes_sub ops8 V ops8_writes h

/-- The buffers the ninth stretch writes. -/
abbrev ops9_W : List (Ref sig .tc) := [main_v62, main_v63, main_v64, main_c_19, main_v65]
set_option maxRecDepth 8192 in
theorem ops9_writes : (ops9 : List (HloOp τ sig (Elt F))).Forall fun op => op.writes ⊆ (ops9_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep9 (V : Valuation τ sig (Elt F)) (r : Ref sig .tc) (h : r ∉ ops9_W) :
    after ops9 V (no_index (Proc.devRef .tc r)) = V (Proc.devRef .tc r) :=
  after_of_writes_sub ops9 V ops9_writes h

/-- The buffers the tenth stretch writes. -/
abbrev ops10_W : List (Ref sig .tc) := [main_v66, main_v67, main_v68, main_call8_c, main_call8_v0, main_call8_v1, main_call8_c_0, main_call8_v2, main_call8_v3, main_call8_v4, main_call8_v5]
set_option maxRecDepth 8192 in
theorem ops10_writes : (ops10 : List (HloOp τ sig (Elt F))).Forall fun op => op.writes ⊆ (ops10_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep10 (V : Valuation τ sig (Elt F)) (r : Ref sig .tc) (h : r ∉ ops10_W) :
    after ops10 V (no_index (Proc.devRef .tc r)) = V (Proc.devRef .tc r) :=
  after_of_writes_sub ops10 V ops10_writes h

/-- The buffers the eleventh stretch writes. -/
abbrev ops11_W : List (Ref sig .tc) := [main_call8_c_1, main_call8_c_2, main_call8_v6, main_call8_v7, main_call8_v8, main_call8_v9, main_call8_v10, main_call8_v11]
set_option maxRecDepth 8192 in
theorem ops11_writes : (ops11 : List (HloOp τ sig (Elt F))).Forall fun op => op.writes ⊆ (ops11_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep11 (V : Valuation τ sig (Elt F)) (r : Ref sig .tc) (h : r ∉ ops11_W) :
    after ops11 V (no_index (Proc.devRef .tc r)) = V (Proc.devRef .tc r) :=
  after_of_writes_sub ops11 V ops11_writes h

/-- The buffers the twelfth stretch writes. -/
abbrev ops12_W : List (Ref sig .tc) := [main_call8_c_3, main_call8_v12]
set_option maxRecDepth 8192 in
theorem ops12_writes : (ops12 : List (HloOp τ sig (Elt F))).Forall fun op => op.writes ⊆ (ops12_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep12 (V : Valuation τ sig (Elt F)) (r : Ref sig .tc) (h : r ∉ ops12_W) :
    after ops12 V (no_index (Proc.devRef .tc r)) = V (Proc.devRef .tc r) :=
  after_of_writes_sub ops12 V ops12_writes h

/-- The buffers the thirteenth stretch writes. -/
abbrev ops13_W : List (Ref sig .tc) := [main_call8_v13]
set_option maxRecDepth 8192 in
theorem ops13_writes : (ops13 : List (HloOp τ sig (Elt F))).Forall fun op => op.writes ⊆ (ops13_W.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))
/-- A buffer the stretch does not write keeps its contents through it. -/
theorem keep13 (V : Valuation τ sig (Elt F)) (r : Ref sig .tc) (h : r ∉ ops13_W) :
    after ops13 V (no_index (Proc.devRef .tc r)) = V (Proc.devRef .tc r) :=
  after_of_writes_sub ops13 V ops13_writes h

/-- The buffers the fourteenth stretch writes. -/
abbrev ops14_W : List (Ref sig .tc) := [main_call8_c_4, main_call8_v14, main_v69, main_v70]
set_option maxRecDepth 8192 in
theorem ops14_writes : (ops14 : List (HloOp τ sig (Elt F))).Forall fun op => op.writes ⊆ (ops14_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep14 (V : Valuation τ sig (Elt F)) (r : Ref sig .tc) (h : r ∉ ops14_W) :
    after ops14 V (no_index (Proc.devRef .tc r)) = V (Proc.devRef .tc r) :=
  after_of_writes_sub ops14 V ops14_writes h

/-- The buffers the fifteenth stretch writes. -/
abbrev ops15_W : List (Ref sig .tc) := [main_c_20, main_v71, main_v72, main_v73, main_c_21, main_v74, main_v75, main_v76, main_call9_v0, main_v77]
set_option maxRecDepth 8192 in
theorem ops15_writes : (ops15 : List (HloOp τ sig (Elt F))).Forall fun op => op.writes ⊆ (ops15_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep15 (V : Valuation τ sig (Elt F)) (r : Ref sig .tc) (h : r ∉ ops15_W) :
    after ops15 V (no_index (Proc.devRef .tc r)) = V (Proc.devRef .tc r) :=
  after_of_writes_sub ops15 V ops15_writes h

/-- The buffers the sixteenth stretch writes. -/
abbrev ops16_W : List (Ref sig .tc) := [main_v78, main_v79, main_v80, main_v81, main_v82, main_v83, main_v84, main_v85, main_cst, main_v86, main_v87, main_cst_22, main_v88, main_v89]
set_option maxRecDepth 8192 in
theorem ops16_writes : (ops16 : List (HloOp τ sig (Elt F))).Forall fun op => op.writes ⊆ (ops16_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem keep16 (V : Valuation τ sig (Elt F)) (r : Ref sig .tc) (h : r ∉ ops16_W) :
    after ops16 V (no_index (Proc.devRef .tc r)) = V (Proc.devRef .tc r) :=
  after_of_writes_sub ops16 V ops16_writes h

set_option maxRecDepth 8192 in
set_option maxHeartbeats 1000000 in
/-- The first stretch leaves the indices. -/
theorem stage1 (V : Valuation τ sig (Elt F)) :
    after ops1 V (no_index (Proc.devRef .tc main_call0_v5)) = takeIdx (V (main_arg1 : DevRef τ sig)) := by
  simp only [ops1]
  after_results_simp
  try simp only [TRef.ofBuf, TRef.toBuf, cast_cast, cast_eq]
  rfl

set_option maxRecDepth 8192 in
set_option maxHeartbeats 1000000 in
/-- The second stretch leaves the range test. -/
theorem stage2 (V : Valuation τ sig (Elt F)) :
    after ops2 V (no_index (Proc.devRef .tc main_call0_v11)) = idxOk (V (main_call0_v5 : DevRef τ sig)) := by
  simp only [ops2]
  after_results_simp
  try simp only [TRef.ofBuf, TRef.toBuf, cast_cast, cast_eq]
  rfl

set_option maxRecDepth 8192 in
set_option maxHeartbeats 1000000 in
/-- The third stretch leaves it per row. -/
theorem stage3 (V : Valuation τ sig (Elt F)) :
    after ops3 V (no_index (Proc.devRef .tc main_call0_v12)) = rowOk (V (main_call0_v11 : DevRef τ sig)) := by
  simp only [ops3]
  after_results_simp
  try simp only [TRef.ofBuf, TRef.toBuf, cast_cast, cast_eq]
  rfl

set_option maxRecDepth 8192 in
set_option maxHeartbeats 1000000 in
/-- The fourth stretch leaves the gathered columns. -/
theorem stage4 (V : Valuation τ sig (Elt F)) :
    after ops4 V (no_index (Proc.devRef .tc main_call0_v13)) = gatherSt (V (main_arg0 : DevRef τ sig)) (V (main_call0_v5 : DevRef τ sig)) := by
  simp only [ops4]
  after_results_simp
  try simp only [TRef.ofBuf, TRef.toBuf, cast_cast, cast_eq]
  rfl

set_option maxRecDepth 8192 in
set_option maxHeartbeats 1000000 in
/-- The fifth stretch leaves the neighbours' states. -/
theorem stage5 (V : Valuation τ sig (Elt F)) :
    after ops5 V (no_index (Proc.devRef .tc main_v2)) = takenOf (V (main_call0_v12 : DevRef τ sig)) (V (main_call0_v13 : DevRef τ sig)) := by
  simp only [ops5]
  after_results_simp
  try simp only [TRef.ofBuf, TRef.toBuf, cast_cast, cast_eq]
  rfl

set_option maxRecDepth 8192 in
set_option maxHeartbeats 1000000 in
/-- The sixth stretch leaves the masked neighbour states. -/
theorem stage6 (V : Valuation τ sig (Elt F)) :
    after ops6 V (no_index (Proc.devRef .tc main_v5)) = maskedBy (V (main_v2 : DevRef τ sig)) (V (main_arg2 : DevRef τ sig)) := by
  simp only [ops6]
  after_results_simp
  try simp only [TRef.ofBuf, TRef.toBuf, cast_cast, cast_eq]
  rfl

set_option maxRecDepth 8192 in
set_option maxHeartbeats 1000000 in
/-- The seventh stretch leaves the chain after four bits, -/
theorem stage7_pw (V : Valuation τ sig (Elt F)) :
    after ops7 V (no_index (Proc.devRef .tc main_v41)) = pw4 := by
  simp only [ops7]
  after_results_simp
  try simp only [TRef.ofBuf, TRef.toBuf, cast_cast, cast_eq]
  rfl

set_option maxRecDepth 8192 in
set_option maxHeartbeats 1000000 in
/-- the shifted exponent, -/
theorem stage7_sh (V : Valuation τ sig (Elt F)) :
    after ops7 V (no_index (Proc.devRef .tc main_v36)) = sh3 := by
  simp only [ops7]
  after_results_simp
  try simp only [TRef.ofBuf, TRef.toBuf, cast_cast, cast_eq]
  rfl

set_option maxRecDepth 8192 in
set_option maxHeartbeats 1000000 in
/-- the running square -/
theorem stage7_sq (V : Valuation τ sig (Elt F)) :
    after ops7 V (no_index (Proc.devRef .tc main_v42)) = sq4 := by
  simp only [ops7]
  after_results_simp
  try simp only [TRef.ofBuf, TRef.toBuf, cast_cast, cast_eq]
  rfl

set_option maxRecDepth 8192 in
set_option maxHeartbeats 1000000 in
/-- and the constant 1. -/
theorem stage7_ones (V : Valuation τ sig (Elt F)) :
    after ops7 V (no_index (Proc.devRef .tc main_v43)) = ones := by
  simp only [ops7]
  after_results_simp
  try simp only [TRef.ofBuf, TRef.toBuf, cast_cast, cast_eq]
  rfl

set_option maxRecDepth 8192 in
set_option maxHeartbeats 1000000 in
/-- The eighth stretch finishes the chain from those and reverses it. -/
theorem stage8 (V : Valuation τ sig (Elt F)) :
    after ops8 V (no_index (Proc.devRef .tc main_v61)) = wts (V (main_v41 : DevRef τ sig)) (V (main_v36 : DevRef τ sig)) (V (main_v42 : DevRef τ sig)) (V (main_v43 : DevRef τ sig)) := by
  simp only [ops8]
  after_results_simp
  try simp only [TRef.ofBuf, TRef.toBuf, cast_cast, cast_eq]
  rfl

set_option maxRecDepth 8192 in
set_option maxHeartbeats 1000000 in
/-- The ninth stretch leaves the address. -/
theorem stage9 (V : Valuation τ sig (Elt F)) :
    after ops9 V (no_index (Proc.devRef .tc main_v65)) = addrW (V (main_v5 : DevRef τ sig)) (V (main_v61 : DevRef τ sig)) := by
  simp only [ops9]
  after_results_simp
  try simp only [TRef.ofBuf, TRef.toBuf, cast_cast, cast_eq]
  rfl

set_option maxRecDepth 8192 in
set_option maxHeartbeats 1000000 in
/-- The tenth stretch leaves the broadcast tables -/
theorem stage10_tab (V : Valuation τ sig (Elt F)) :
    after ops10 V (no_index (Proc.devRef .tc main_v67)) = tables (V (main_arg3 : DevRef τ sig)) := by
  simp only [ops10]
  after_results_simp
  try simp only [TRef.ofBuf, TRef.toBuf, cast_cast, cast_eq]
  rfl

set_option maxRecDepth 8192 in
set_option maxHeartbeats 1000000 in
/-- and the look-up's indices. -/
theorem stage10_idx (V : Valuation τ sig (Elt F)) :
    after ops10 V (no_index (Proc.devRef .tc main_call8_v5)) = lutIdx (V (main_v65 : DevRef τ sig)) := by
  simp only [ops10]
  after_results_simp
  try simp only [TRef.ofBuf, TRef.toBuf, cast_cast, cast_eq]
  rfl

set_option maxRecDepth 8192 in
set_option maxHeartbeats 1000000 in
/-- The eleventh stretch leaves the range test. -/
theorem stage11 (V : Valuation τ sig (Elt F)) :
    after ops11 V (no_index (Proc.devRef .tc main_call8_v11)) = jdxOk (V (main_call8_v5 : DevRef τ sig)) := by
  simp only [ops11]
  after_results_simp
  try simp only [TRef.ofBuf, TRef.toBuf, cast_cast, cast_eq]
  rfl

set_option maxRecDepth 8192 in
set_option maxHeartbeats 1000000 in
/-- The twelfth stretch leaves it per cell. -/
theorem stage12 (V : Valuation τ sig (Elt F)) :
    after ops12 V (no_index (Proc.devRef .tc main_call8_v12)) = cellOk (V (main_call8_v11 : DevRef τ sig)) := by
  simp only [ops12]
  after_results_simp
  try simp only [TRef.ofBuf, TRef.toBuf, cast_cast, cast_eq]
  rfl

set_option maxRecDepth 8192 in
set_option maxHeartbeats 1000000 in
/-- The thirteenth stretch leaves the gathered entries. -/
theorem stage13 (V : Valuation τ sig (Elt F)) :
    after ops13 V (no_index (Proc.devRef .tc main_call8_v13)) = gatherTb (V (main_v67 : DevRef τ sig)) (V (main_call8_v5 : DevRef τ sig)) := by
  simp only [ops13]
  after_results_simp
  try simp only [TRef.ofBuf, TRef.toBuf, cast_cast, cast_eq]
  rfl

set_option maxRecDepth 8192 in
set_option maxHeartbeats 1000000 in
/-- The fourteenth stretch leaves the looked-up bit. -/
theorem stage14 (V : Valuation τ sig (Elt F)) :
    after ops14 V (no_index (Proc.devRef .tc main_v70)) = lookedOf (V (main_call8_v12 : DevRef τ sig)) (V (main_call8_v13 : DevRef τ sig)) := by
  simp only [ops14]
  after_results_simp
  try simp only [TRef.ofBuf, TRef.toBuf, cast_cast, cast_eq]
  rfl

set_option maxRecDepth 8192 in
set_option maxHeartbeats 1000000 in
/-- The fifteenth stretch leaves the next state. -/
theorem stage15 (V : Valuation τ sig (Elt F)) :
    after ops15 V (no_index (Proc.devRef .tc main_v77)) = nextSt (V (main_arg0 : DevRef τ sig)) (V (main_arg2 : DevRef τ sig)) (V (main_v70 : DevRef τ sig)) := by
  simp only [ops15]
  after_results_simp
  try simp only [TRef.ofBuf, TRef.toBuf, cast_cast, cast_eq]
  rfl

set_option maxRecDepth 8192 in
set_option maxHeartbeats 1000000 in
/-- The sixteenth stretch leaves the read-out. -/
theorem stage16 (V : Valuation τ sig (Elt F)) :
    after ops16 V (no_index (Proc.devRef .tc main_v89)) = readout (V (main_v77 : DevRef τ sig)) (V (main_arg4 : DevRef τ sig)) (V (main_arg5 : DevRef τ sig)) := by
  simp only [ops16]
  after_results_simp
  try simp only [TRef.ofBuf, TRef.toBuf, cast_cast, cast_eq]
  rfl

/-! ## The whole line -/

set_option maxRecDepth 8192 in
/-- The result buffer after the whole line, from any contents: the stages composed. -/
theorem after_result (V : Valuation τ sig (Elt F)) :
    after ops V (Proc.devRef .tc main_v89) = resultF (V (main_arg0 : DevRef τ sig)) (V (main_arg1 : DevRef τ sig)) (V (main_arg2 : DevRef τ sig)) (V (main_arg3 : DevRef τ sig)) (V (main_arg4 : DevRef τ sig)) (V (main_arg5 : DevRef τ sig)) := by
  simp (disch := decide) only [ops, after_append, stage1, stage2, stage3, stage4, stage5, stage6, stage7_pw, stage7_sh, stage7_sq, stage7_ones, stage8, stage9, stage10_tab, stage10_idx, stage11, stage12, stage13, stage14, stage15, stage16, keep1, keep2, keep3, keep4, keep5, keep6, keep7, keep8, keep9, keep10, keep11, keep12, keep13, keep14, keep15, keep16]
  simp only [resultF, masked, takenAt, looked, lookedAt, weights]

set_option maxRecDepth 8192 in
/-- No stretch writes an argument. -/
theorem after_arg (V : Valuation τ sig (Elt F)) (r : Ref sig .tc)
    (h : r ∉ ops1_W ∧ r ∉ ops2_W ∧ r ∉ ops3_W ∧ r ∉ ops4_W ∧ r ∉ ops5_W ∧ r ∉ ops6_W ∧ r ∉ ops7_W ∧ r ∉ ops8_W ∧ r ∉ ops9_W ∧ r ∉ ops10_W ∧ r ∉ ops11_W ∧ r ∉ ops12_W ∧ r ∉ ops13_W ∧ r ∉ ops14_W ∧ r ∉ ops15_W ∧ r ∉ ops16_W) :
    after ops V (Proc.devRef .tc r) = V (Proc.devRef .tc r) := by
  obtain ⟨h1, h2, h3, h4, h5, h6, h7, h8, h9, h10, h11, h12, h13, h14, h15, h16⟩ := h
  simp only [ops, after_append]
  rw [keep16 _ r h16, keep15 _ r h15, keep14 _ r h14, keep13 _ r h13, keep12 _ r h12, keep11 _ r h11, keep10 _ r h10, keep9 _ r h9, keep8 _ r h8, keep7 _ r h7, keep6 _ r h6, keep5 _ r h5, keep4 _ r h4, keep3 _ r h3, keep2 _ r h2, keep1 _ r h1]

/-! ## The run -/

set_option maxRecDepth 8192 in
/-- Every operation of the line determines what it writes. -/
theorem ops_fresh : ∀ op ∈ (ops : List (HloOp τ sig (Elt F))), op.fresh = ∅ := by
  intro op h
  simp only [ops, List.mem_append] at h
  rcases h with (h | h | h | h | h | h | h) | h | h | h | h | h | h | h | h | h <;>
    ((repeat (cases h with | head => rfl | tail _ h => ?_)); exact nomatch h)

/-- The reference's result on the extended reals, as a function of the six arguments. -/
def result (a0 : IVec S32x100000 32) (a1 a2 : IVec S100000x8 32) (a3 : IVec S100000x256 32) (a4 : FVec Ideal S98976x128 .f32)
    (a5 : FVec Ideal S128 .f32) : FVec Ideal S32x128 .f32 :=
  resultF a0 a1 a2 a3 a4 a5

/-- On every device, from any memory with zero counters: every weakly fair execution of the reference terminates
    with the result buffer at `result` of the arguments' launch contents, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v89) = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v89).trans (after_result (launchContents m c)),
      (h c main_arg0).trans (after_arg (launchContents m c) main_arg0 (by decide)),
      (h c main_arg1).trans (after_arg (launchContents m c) main_arg1 (by decide)),
      (h c main_arg2).trans (after_arg (launchContents m c) main_arg2 (by decide)),
      (h c main_arg3).trans (after_arg (launchContents m c) main_arg3 (by decide)),
      (h c main_arg4).trans (after_arg (launchContents m c) main_arg4 (by decide)),
      (h c main_arg5).trans (after_arg (launchContents m c) main_arg5 (by decide))⟩)
    (run_seq scopedRefs_eq scopedSems_eq defs main (fun _ => ops) main_eq (fun _ => ops_sub) m g (fun _ => ops_fresh))

end Cert.RefSide

end
-- ==== Proof.RefValue.lean ====
/-
  The reference's result is the specified function, index by index.

  The read-out is the logistic function of a sum over the 98976 read-out nodes; the next state keeps the old one at
  a node with no valid slot and is the looked-up table entry elsewhere; the table address is the sum of the masked
  neighbour states times the slot weights `2 ^ (7 - k)`.  Under the ranges of the arguments no index is out of range,
  so that neither gather meets its fill word and no sum of words wraps.
-/
import proofs.«203813_g3255585210786_cont_8to1_b_763_8_alg».proof.Proof.RefRun
import proofs.«203813_g3255585210786_cont_8to1_b_763_8_alg».proof.Proof.Spec
import Idealize.ShloMosaic.Lib.Pipeline.Value
import Idealize.ShloMosaic.Lib.ValueIdx
import Idealize.ShloMosaic.Lib.Affine
import Idealize.ShloMosaic.PureOps.Ideal.Laws
import Idealize.ShloMosaic.PureOps.Reduce

noncomputable section

namespace Cert.RefSide

open Cert.ReferenceIdeal Cert.ReferenceIdeal.Gen Idealize.ShloMosaic Idealize.ShloMosaic.TcCoe Idealize.SL.Sem Idealize.ShloMosaic.StableHlo

open Idealize.ShloMosaic.ValueIdx
open scoped BigOperators

/-! ## The read-out -/

/-- The word `0x3F800000` is the real 1. -/
theorem ofBits_one : Ideal.ofBits .f32 0x3F800000#32 = 1 := by
  simp [Ideal.ofBits, Ideal.ieee, -EReal.coe_mul]; norm_num

/-- The bias broadcast to batch × output reads the bias at the output coordinate. -/
theorem bias_apply (a5 : FVec Ideal S128 .f32) (p : Fin 32) (q : Fin 128) :
    broadcastInDim S32x128 ![0, 1] bcast_S1x128_S32x128_0_1 (broadcastInDim S1x128 ![1] bcast_S128_S1x128_1 a5) (ix2 p q)
      = a5 (ix1 q) := by
  rw [broadcastInDim_apply ![0, 1] bcast_S1x128_S32x128_0_1 _ (ix2 p q) (ix2 (0 : Fin 1) q) (fun a => by fin_cases a <;> rfl),
    broadcastInDim_apply ![1] bcast_S128_S1x128_1 a5 (ix2 (0 : Fin 1) q) (ix1 q) (fun a => by fin_cases a; rfl)]

theorem preact_def (ns : IVec S32x100000 32) (a4 : FVec Ideal S98976x128 .f32) (a5 : FVec Ideal S128 .f32) :
    preact ns a4 a5 = addf (Host.dotGeneral dot_S32x98976_S98976x128_S32x128_1_0_0_1_n_n none
        (sitofp .f32 (extractStridedSlice S32x98976 ![0, 1024] ns slices_S32x100000_S32x98976_0_1024)) a4)
      (broadcastInDim S32x128 ![0, 1] bcast_S1x128_S32x128_0_1 (broadcastInDim S1x128 ![1] bcast_S128_S1x128_1 a5)) := rfl

set_option maxRecDepth 8192 in
/-- The read-out before the logistic function, at an index: the sum over the 98976 read-out nodes. -/
theorem preact_apply (ns : IVec S32x100000 32) (a4 : FVec Ideal S98976x128 .f32) (a5 : FVec Ideal S128 .f32) (p : Fin 32) (q : Fin 128) :
    preact ns a4 a5 (ix2 p q)
      = (∑ r : Fin 98976, (((ns (ix2 p (Cert.Spec.res r))).toInt : ℝ) : EReal) * a4 (ix2 r q)) + a5 (ix1 q) := by
  rw [preact_def, addf_apply, bias_apply]
  refine congrArg (· + a5 (ix1 q)) ?_
  simp only [Host.dotGeneral]
  rw [Ideal.dotGeneral_apply]
  rw [← Equiv.sum_comp (contrEquiv1 dot_S32x98976_S98976x128_S32x128_1_0_0_1_n_n 98976 rfl rfl).symm]
  refine Finset.sum_congr rfl fun r _ => ?_
  have hl : dot_S32x98976_S98976x128_S32x128_1_0_0_1_n_n.lhsIdx (ix2 p q) ((contrEquiv1 dot_S32x98976_S98976x128_S32x128_1_0_0_1_n_n 98976 rfl rfl).symm r) = ix2 p r :=
    funext fun a => Fin.ext (by match a with | ⟨0, _⟩ => rfl | ⟨1, _⟩ => rfl)
  have hr : dot_S32x98976_S98976x128_S32x128_1_0_0_1_n_n.rhsIdx (ix2 p q) ((contrEquiv1 dot_S32x98976_S98976x128_S32x128_1_0_0_1_n_n 98976 rfl rfl).symm r) = ix2 r q :=
    funext fun a => Fin.ext (by match a with | ⟨0, _⟩ => rfl | ⟨1, _⟩ => rfl)
  rw [hl, hr, sitofp_apply, extractStridedSlice_apply ![0, 1024] ns slices_S32x100000_S32x98976_0_1024 (ix2 p r) (ix2 p (Cert.Spec.res r)) (fun a => by fin_cases a <;> simp [Cert.Spec.res])]
  rfl

theorem readout_def (ns : IVec S32x100000 32) (a4 : FVec Ideal S98976x128 .f32) (a5 : FVec Ideal S128 .f32) :
    readout ns a4 a5 = Host.divf (broadcastInDim S32x128 ![] bcast_S_S32x128 (constant S_ .f32 0x3F800000#32))
      (addf (broadcastInDim S32x128 ![] bcast_S_S32x128 (constant S_ .f32 0x3F800000#32)) (Host.exp (Host.negf (preact ns a4 a5)))) := rfl

theorem hostDivf_apply {s : Shape} {φ : FTy} (a b : FVec Ideal s φ) (i : s.Idx) : Host.divf a b i = Ideal.div (a i) (b i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-- The constant 1 broadcast to batch × output. -/
theorem one_apply (j : S32x128.Idx) :
    broadcastInDim S32x128 ![] bcast_S_S32x128 (constant (F := Ideal) S_ .f32 0x3F800000#32) j = 1 := by
  rw [broadcastInDim_apply ![] bcast_S_S32x128 _ j ix0 (fun a => a.elim0), constant_apply, ofBits_one]

set_option maxRecDepth 8192 in
/-- The read-out at an index: the logistic function of that sum. -/
theorem readout_apply (ns : IVec S32x100000 32) (a4 : FVec Ideal S98976x128 .f32) (a5 : FVec Ideal S128 .f32) (p : Fin 32) (q : Fin 128) :
    readout ns a4 a5 (ix2 p q)
      = Ideal.logistic ((∑ r : Fin 98976, (((ns (ix2 p (Cert.Spec.res r))).toInt : ℝ) : EReal) * a4 (ix2 r q)) + a5 (ix1 q)) := by
  rw [readout_def, hostDivf_apply, addf_apply, one_apply, hostExp_apply, hostNegf_apply, preact_apply]
  rfl

/-! ## The slot weights -/

set_option maxRecDepth 65536 in
/-- Slot `k` weighs `2 ^ (7 - k)`: slot 0 is the most significant bit of the address. -/
theorem weights_apply (k : Fin 8) : weights (ix1 k) = BitVec.ofNat 32 (2 ^ (7 - k.val)) := by
  fin_cases k <;> rfl

/-! ## A node with no valid slot -/

/-- A fold by `or` from 0 over one-bit words is 0 exactly when every word is. -/
theorem fold_ori_eq_zero {ι : Type} [DecidableEq ι] (s : Finset ι) (f : ι → BitVec 1) :
    s.fold IntOp.ori 0#1 f = 0#1 ↔ ∀ k ∈ s, f k = 0#1 := by
  have hor : ∀ x y : BitVec 1, IntOp.ori x y = 0#1 ↔ x = 0#1 ∧ y = 0#1 := by decide
  induction s using Finset.induction_on with
  | empty => simp
  | insert a s ha ih =>
    rw [Finset.fold_insert ha, hor]
    constructor
    · rintro ⟨h1, h2⟩ k hk
      rcases Finset.mem_insert.mp hk with rfl | hk
      exacts [h1, ih.1 h2 k hk]
    · intro h
      exact ⟨h a (Finset.mem_insert_self a s), ih.2 fun k hk => h k (Finset.mem_insert_of_mem hk)⟩

theorem noSlot_def (a2 : IVec S100000x8 32) :
    noSlot a2 = broadcastInDim S1x100000 ![1] bcast_S100000_S1x100000_1
      (noti (Host.reduce IntOp.ori (id (cmpi .ne a2 (broadcastInDim S100000x8 ![] bcast_S_S100000x8 (constantI S_ 32 0#32))))
        (constantI S_ 1 0#1) reducesTo_S100000x8_S100000_d1 h_S_)) := rfl

/-- The flag array drops its slot axis. -/
theorem reduces_msk : S100000x8.Reduces [1] S100000 := by decide

/-- Node `n` with slot `k` put back. -/
theorem lift_msk (n : Fin 100000) (k : Fin 8) : reduces_msk.lift (ix1 n) k = ix2 n k :=
  funext fun c => Fin.ext (by
    match c with | ⟨0, _⟩ => rfl | ⟨1, _⟩ => rfl)

/-- A word is different from 0 to the bit 0 exactly when it is 0. -/
theorem cmpi_ne_zero_eq_zero (x : BitVec 32) : IntOp.cmpi .ne x 0#32 = 0#1 ↔ x = 0#32 := by
  constructor
  · intro h
    by_contra hx
    have h1 := (IntOp.cmpi_ne (x := x) (y := 0#32)).2 hx
    rw [h] at h1
    exact absurd h1 (by decide)
  · intro h
    subst h
    decide

/-- No slot of node `n` is valid exactly when all its eight flags are 0. -/
theorem noSlot_apply (a2 : IVec S100000x8 32) (n : Fin 100000) :
    noSlot a2 (ix2 (0 : Fin 1) n) = 1#1 ↔ ∀ k : Fin 8, a2 (ix2 n k) = 0#32 := by
  have hnot : ∀ x : BitVec 1, ~~~x = 1#1 ↔ x = 0#1 := by decide
  rw [noSlot_def, broadcastInDim_apply ![1] bcast_S100000_S1x100000_1 _ (ix2 (0 : Fin 1) n) (ix1 n) (fun a => by fin_cases a; rfl)]
  show ~~~(Host.reduce IntOp.ori _ _ reducesTo_S100000x8_S100000_d1 h_S_ (ix1 n)) = 1#1 ↔ _
  rw [hnot, Host.reduce_eq_fold_single IntOp.ori _ _ reducesTo_S100000x8_S100000_d1 reduces_msk h_S_ (ix1 n)]
  show Finset.fold IntOp.ori 0#1 _ _ = 0#1 ↔ _
  rw [fold_ori_eq_zero]
  constructor
  · intro h k
    have hk : IntOp.cmpi .ne (a2 (reduces_msk.lift (ix1 n) k)) 0#32 = 0#1 := h k (Finset.mem_univ _)
    rw [lift_msk] at hk
    exact (cmpi_ne_zero_eq_zero _).1 hk
  · intro h (k : Fin 8) _
    show IntOp.cmpi .ne (a2 (reduces_msk.lift (ix1 n) k)) 0#32 = 0#1
    rw [lift_msk]
    exact (cmpi_ne_zero_eq_zero _).2 (h k)

theorem nextSt_def (a0 : IVec S32x100000 32) (a2 : IVec S100000x8 32) (lk : IVec S32x100000 32) :
    nextSt a0 a2 lk = select (broadcastInDim S32x100000 ![0, 1] bcast_S1x100000_S32x100000_0_1 (noSlot a2)) a0 lk := rfl

/-- The next state at an index: the old state at a node with no valid slot, the looked-up bit elsewhere. -/
theorem nextSt_apply (a0 : IVec S32x100000 32) (a2 : IVec S100000x8 32) (lk : IVec S32x100000 32) (b : Fin 32) (n : Fin 100000) :
    nextSt a0 a2 lk (ix2 b n) = if ∀ k : Fin 8, a2 (ix2 n k) = 0#32 then a0 (ix2 b n) else lk (ix2 b n) := by
  rw [nextSt_def, select_apply,
    broadcastInDim_apply ![0, 1] bcast_S1x100000_S32x100000_0_1 _ (ix2 b n) (ix2 (0 : Fin 1) n) (fun a => by fin_cases a <;> rfl)]
  by_cases h : ∀ k : Fin 8, a2 (ix2 n k) = 0#32
  · rw [if_pos h, (noSlot_apply a2 n).2 h, select_one]
  · rw [if_neg h, eq_zero_of_ne_one (fun hc => h ((noSlot_apply a2 n).1 hc)), select_zero]

/-! ## The table address -/

/-- A fold by word addition from 0, as a number: the sum of the words' values, modulo `2 ^ 32`. -/
theorem toNat_fold_addi {ι : Type} [DecidableEq ι] (s : Finset ι) (f : ι → BitVec 32) :
    (s.fold IntOp.addi 0#32 f).toNat = (∑ k ∈ s, (f k).toNat) % 2 ^ 32 := by
  induction s using Finset.induction_on with
  | empty => simp
  | insert a s ha ih =>
    rw [Finset.fold_insert ha, Finset.sum_insert ha]
    show (f a + Finset.fold IntOp.addi 0#32 f s).toNat = _
    rw [BitVec.toNat_add, ih, Nat.add_mod_mod]

/-- The product array drops its slot axis. -/
theorem reduces_addr : S32x100000x8.Reduces [2] S32x100000 := by decide

/-- Batch row `b`, node `n` with slot `k` put back. -/
theorem lift_addr (b : Fin 32) (n : Fin 100000) (k : Fin 8) : reduces_addr.lift (ix2 b n) k = ix3 b n k :=
  funext fun c => Fin.ext (by
    match c with | ⟨0, _⟩ => rfl | ⟨1, _⟩ => rfl | ⟨2, _⟩ => rfl)

theorem addrW_def (m : IVec S32x100000x8 32) (w : IVec S8 32) :
    addrW m w = Host.reduce IntOp.addi
      (muli m (broadcastInDim S32x100000x8 ![0, 1, 2] bcast_S1x1x8_S32x100000x8_0_1_2 (broadcastInDim S1x1x8 ![2] bcast_S8_S1x1x8_2 w)))
      (constantI S_ 32 0#32) reducesTo_S32x100000x8_S32x100000_d2 h_S_ := rfl

/-- The weights broadcast to batch × node × slot read the slot's weight. -/
theorem wbcast_apply (w : IVec S8 32) (b : Fin 32) (n : Fin 100000) (k : Fin 8) :
    broadcastInDim S32x100000x8 ![0, 1, 2] bcast_S1x1x8_S32x100000x8_0_1_2 (broadcastInDim S1x1x8 ![2] bcast_S8_S1x1x8_2 w) (ix3 b n k)
      = w (ix1 k) := by
  rw [broadcastInDim_apply ![0, 1, 2] bcast_S1x1x8_S32x100000x8_0_1_2 _ (ix3 b n k) (ix3 (0 : Fin 1) (0 : Fin 1) k) (fun a => by fin_cases a <;> rfl),
    broadcastInDim_apply ![2] bcast_S8_S1x1x8_2 w (ix3 (0 : Fin 1) (0 : Fin 1) k) (ix1 k) (fun a => by fin_cases a; rfl)]

/-- The address word as a number: the sum over the slots of the products' values, modulo `2 ^ 32`. -/
theorem addrW_toNat (m : IVec S32x100000x8 32) (w : IVec S8 32) (b : Fin 32) (n : Fin 100000) :
    (addrW m w (ix2 b n)).toNat = (∑ k : Fin 8, (m (ix3 b n k) * w (ix1 k)).toNat) % 2 ^ 32 := by
  rw [addrW_def, Host.reduce_eq_fold_single IntOp.addi _ _ reducesTo_S32x100000x8_S32x100000_d2 reduces_addr h_S_ (ix2 b n)]
  show (Finset.fold IntOp.addi 0#32 _ _).toNat = _
  rw [toNat_fold_addi]
  refine congrArg (· % 2 ^ 32) (Finset.sum_congr rfl fun (k : Fin 8) _ => ?_)
  show (m (reduces_addr.lift (ix2 b n) k) * broadcastInDim S32x100000x8 ![0, 1, 2] bcast_S1x1x8_S32x100000x8_0_1_2 (broadcastInDim S1x1x8 ![2] bcast_S8_S1x1x8_2 w) (reduces_addr.lift (ix2 b n) k)).toNat = _
  rw [lift_addr, wbcast_apply]

/-! ## The gathered neighbour states -/

/-- The flat position of slot `k` of node `n`. -/
def flat (n : Fin 100000) (k : Fin 8) : Fin 800000 := ⟨n.val * 8 + k.val, by have := n.isLt; have := k.isLt; omega⟩

/-- The flattened slot table at that position is the slot. -/
theorem flat_apply (a1 : IVec S100000x8 32) (n : Fin 100000) (k : Fin 8) :
    shapeCast S800000 a1 shapeCasts_S100000x8_S800000 (ix1 (flat n k)) = a1 (ix2 n k) :=
  shapeCast_apply a1 shapeCasts_S100000x8_S800000 (ix1 (flat n k)) (ix2 n k) (by
    rw [Shape.rowMajor_val_two, Shape.rowMajor_val_one]; rfl)

/-- A word with an unsigned value below `2 ^ 31` is that value as a signed integer. -/
theorem toInt_of_small {x : BitVec 32} {N : Nat} (h : x.toNat < N) (hN : N ≤ 2 ^ 31) : x.toInt = (x.toNat : Int) := by
  have hc := BitVec.toInt_eq_toNat_cond x
  split at hc <;> omega

theorem takeIdx_def (a1 : IVec S100000x8 32) :
    takeIdx a1 = broadcastInDim S800000x1 ![0] bcast_S800000_S800000x1_0
      (select (cmpi .slt (shapeCast S800000 a1 shapeCasts_S100000x8_S800000) (broadcastInDim S800000 ![] bcast_S_S800000 (constantI S_ 32 0#32)))
        (addi (shapeCast S800000 a1 shapeCasts_S100000x8_S800000) (broadcastInDim S800000 ![] bcast_S_S800000 (constantI S_ 32 100000#32)))
        (shapeCast S800000 a1 shapeCasts_S100000x8_S800000)) := rfl

/-- A slot that names a node is its own index: nothing is negative, nothing wraps. -/
theorem takeIdx_apply (a1 : IVec S100000x8 32) (n : Fin 100000) (k : Fin 8) (h : (a1 (ix2 n k)).toNat < 100000) :
    takeIdx a1 (ix2 (flat n k) (0 : Fin 1)) = a1 (ix2 n k) := by
  rw [takeIdx_def, broadcastInDim_apply ![0] bcast_S800000_S800000x1_0 _ (ix2 (flat n k) (0 : Fin 1)) (ix1 (flat n k))
    (fun a => by fin_cases a; rfl), select_apply]
  have hz : cmpi .slt (shapeCast S800000 a1 shapeCasts_S100000x8_S800000)
      (broadcastInDim S800000 ![] bcast_S_S800000 (constantI S_ 32 0#32)) (ix1 (flat n k)) = 0#1 :=
    eq_zero_of_ne_one fun hc => by
      have h1 : (shapeCast S800000 a1 shapeCasts_S100000x8_S800000 (ix1 (flat n k))).toInt < (0#32).toInt := IntOp.cmpi_slt.1 hc
      rw [flat_apply, toInt_of_small h (by norm_num)] at h1
      have e0 : (0#32).toInt = 0 := by decide
      omega
  rw [hz, select_zero, flat_apply]

theorem idxOk_def (ix : IVec S800000x1 32) :
    idxOk ix = andi (cmpi .sge ix (broadcastInDim S800000x1 ![] bcast_S_S800000x1 (constantI S_ 32 0#32)))
      (cmpi .sle ix (broadcastInDim S800000x1 ![0, 1] bcast_S1x1_S800000x1_0_1 (broadcastInDim S1x1 ![1] bcast_S1_S1x1_1 (constantI S1 32 99999#32)))) := rfl

/-- An index below 100000 passes the range test. -/
theorem idxOk_apply (ix : IVec S800000x1 32) (j : Fin 800000) (h : (ix (ix2 j (0 : Fin 1))).toNat < 100000) :
    idxOk ix (ix2 j (0 : Fin 1)) = 1#1 := by
  rw [idxOk_def]
  show IntOp.andi (IntOp.cmpi .sge (ix (ix2 j (0 : Fin 1))) 0#32) (IntOp.cmpi .sle (ix (ix2 j (0 : Fin 1))) 99999#32) = 1#1
  rw [IntOp.andi_eq_one, IntOp.cmpi_sge, IntOp.cmpi_sle, toInt_of_small h (by norm_num)]
  have e0 : (0#32).toInt = 0 := by decide
  have e1 : (99999#32).toInt = 99999 := by decide
  omega

/-- A fold by `and` from 1 over one word is that word. -/
theorem fold_andi_fin1 (f : Fin 1 → BitVec 1) :
    Finset.fold IntOp.andi 1#1 f (Finset.univ : Finset (Fin 1)) = IntOp.andi (f 0) 1#1 := by
  rw [Finset.univ_unique, Finset.fold_singleton]; rfl

/-- The index column drops its one-component axis. -/
theorem reduces_row : S800000x1.Reduces [1] S800000 := by decide

theorem lift_row (j : Fin 800000) (k : Fin 1) : reduces_row.lift (ix1 j) k = ix2 j k :=
  funext fun c => Fin.ext (by
    match c with | ⟨0, _⟩ => rfl | ⟨1, _⟩ => rfl)

theorem rowOk_def (c : IVec S800000x1 1) :
    rowOk c = Host.reduce IntOp.andi c (constantI S_ 1 1#1) reducesTo_S800000x1_S800000_d1 h_S_ := rfl

/-- The conjunction over the one component is that component. -/
theorem rowOk_apply (c : IVec S800000x1 1) (j : Fin 800000) (h : c (ix2 j (0 : Fin 1)) = 1#1) : rowOk c (ix1 j) = 1#1 := by
  rw [rowOk_def, Host.reduce_eq_fold_single IntOp.andi _ _ reducesTo_S800000x1_S800000_d1 reduces_row h_S_ (ix1 j)]
  show Finset.fold IntOp.andi 1#1 (fun k : Fin 1 => c (reduces_row.lift (ix1 j) k)) (Finset.univ : Finset (Fin 1)) = 1#1
  rw [fold_andi_fin1, lift_row, h]
  decide

theorem takenOf_def (ok : IVec S800000 1) (g : IVec S32x800000 32) :
    takenOf ok g = shapeCast S32x100000x8 (select (broadcastInDim S32x800000 ![1] bcast_S800000_S32x800000_1 ok) g
      (broadcastInDim S32x800000 ![] bcast_S_S32x800000 (constantI S_ 32 2147483648#32))) shapeCasts_S32x800000_S32x100000x8 := rfl

/-- Where the index was in range the reshaped select is the gathered word. -/
theorem takenOf_apply (ok : IVec S800000 1) (g : IVec S32x800000 32) (b : Fin 32) (n : Fin 100000) (k : Fin 8)
    (h : ok (ix1 (flat n k)) = 1#1) : takenOf ok g (ix3 b n k) = g (ix2 b (flat n k)) := by
  rw [takenOf_def, shapeCast_apply _ shapeCasts_S32x800000_S32x100000x8 (ix3 b n k) (ix2 b (flat n k)) (by
      rw [Shape.rowMajor_val_two, Shape.rowMajor_val_three]
      show b.val * 800000 + (n.val * 8 + k.val) = (b.val * 100000 + n.val) * 8 + k.val
      omega),
    select_apply, broadcastInDim_apply ![1] bcast_S800000_S32x800000_1 ok (ix2 b (flat n k)) (ix1 (flat n k)) (fun a => by fin_cases a; rfl),
    h, select_one]

theorem maskedBy_def (t : IVec S32x100000x8 32) (a2 : IVec S100000x8 32) :
    maskedBy t a2 = muli t (broadcastInDim S32x100000x8 ![0, 1, 2] bcast_S1x100000x8_S32x100000x8_0_1_2
      (broadcastInDim S1x100000x8 ![1, 2] bcast_S100000x8_S1x100000x8_1_2 a2)) := rfl

/-- The masked state at an index: the gathered state times the slot's flag. -/
theorem maskedBy_apply (t : IVec S32x100000x8 32) (a2 : IVec S100000x8 32) (b : Fin 32) (n : Fin 100000) (k : Fin 8) :
    maskedBy t a2 (ix3 b n k) = t (ix3 b n k) * a2 (ix2 n k) := by
  rw [maskedBy_def]
  show t (ix3 b n k) * _ = _
  rw [broadcastInDim_apply ![0, 1, 2] bcast_S1x100000x8_S32x100000x8_0_1_2 _ (ix3 b n k) (ix3 (0 : Fin 1) n k) (fun a => by fin_cases a <;> rfl),
    broadcastInDim_apply ![1, 2] bcast_S100000x8_S1x100000x8_1_2 a2 (ix3 (0 : Fin 1) n k) (ix2 n k) (fun a => by fin_cases a <;> rfl)]

/-- What the first gather reads at an index, when the start index names a node. -/
def TakeFact : Prop :=
  ∀ (x : IVec S32x100000 32) (idx : IVec S800000x1 32) (b : Fin 32) (j : Fin 800000) (h : (idx (ix2 j (0 : Fin 1))).toNat < 100000),
    Host.gather gather_S32x100000_S800000x1_S32x800000_0_1_n_n_1_1_321 x idx (ix2 b j) = x (ix2 b ⟨(idx (ix2 j (0 : Fin 1))).toNat, h⟩)

/-- The masked neighbour state at an index, when the slot names a node. -/
theorem masked_apply (H : TakeFact) (a0 : IVec S32x100000 32) (a1 a2 : IVec S100000x8 32) (b : Fin 32) (n : Fin 100000) (k : Fin 8)
    (h : (a1 (ix2 n k)).toNat < 100000) :
    masked a0 a1 a2 (ix3 b n k) = a0 (ix2 b ⟨(a1 (ix2 n k)).toNat, h⟩) * a2 (ix2 n k) := by
  have hi : takeIdx a1 (ix2 (flat n k) (0 : Fin 1)) = a1 (ix2 n k) := takeIdx_apply a1 n k h
  have hlt : (takeIdx a1 (ix2 (flat n k) (0 : Fin 1))).toNat < 100000 := by rw [hi]; exact h
  show maskedBy (takenOf (rowOk (idxOk (takeIdx a1))) (gatherSt a0 (takeIdx a1))) a2 (ix3 b n k) = _
  rw [maskedBy_apply, takenOf_apply _ _ b n k (rowOk_apply _ _ (idxOk_apply _ _ hlt))]
  show Host.gather gather_S32x100000_S800000x1_S32x800000_0_1_n_n_1_1_321 a0 (takeIdx a1) (ix2 b (flat n k)) * _ = _
  rw [H a0 (takeIdx a1) b (flat n k) hlt]
  congr 2
  exact congrArg (ix2 b) (Fin.ext (by show (takeIdx a1 (ix2 (flat n k) (0 : Fin 1))).toNat = _; rw [hi]))

/-! ## The table look-up -/

theorem tables_def (a3 : IVec S100000x256 32) :
    tables a3 = broadcastInDim S32x100000x256 ![0, 1, 2] bcast_S1x100000x256_S32x100000x256_0_1_2
      (broadcastInDim S1x100000x256 ![1, 2] bcast_S100000x256_S1x100000x256_1_2 a3) := rfl

/-- The broadcast tables at batch row `b` are the tables. -/
theorem tables_apply (a3 : IVec S100000x256 32) (b : Fin 32) (n : Fin 100000) (e : Fin 256) :
    tables a3 (ix3 b n e) = a3 (ix2 n e) := by
  rw [tables_def,
    broadcastInDim_apply ![0, 1, 2] bcast_S1x100000x256_S32x100000x256_0_1_2 _ (ix3 b n e) (ix3 (0 : Fin 1) n e) (fun a => by fin_cases a <;> rfl),
    broadcastInDim_apply ![1, 2] bcast_S100000x256_S1x100000x256_1_2 a3 (ix3 (0 : Fin 1) n e) (ix2 n e) (fun a => by fin_cases a <;> rfl)]

theorem lutIdx_def (ad : IVec S32x100000 32) :
    lutIdx ad = shapeCast S32x100000x1x1
      (select (cmpi .slt (broadcastInDim S32x100000x1 ![0, 1] bcast_S32x100000_S32x100000x1_0_1 ad) (broadcastInDim S32x100000x1 ![] bcast_S_S32x100000x1 (constantI S_ 32 0#32)))
        (addi (broadcastInDim S32x100000x1 ![0, 1] bcast_S32x100000_S32x100000x1_0_1 ad) (broadcastInDim S32x100000x1 ![] bcast_S_S32x100000x1 (constantI S_ 32 256#32)))
        (broadcastInDim S32x100000x1 ![0, 1] bcast_S32x100000_S32x100000x1_0_1 ad)) shapeCasts_S32x100000x1_S32x100000x1x1 := rfl

/-- The address as a column entry. -/
theorem adcol_apply (ad : IVec S32x100000 32) (b : Fin 32) (n : Fin 100000) :
    broadcastInDim S32x100000x1 ![0, 1] bcast_S32x100000_S32x100000x1_0_1 ad (ix3 b n (0 : Fin 1)) = ad (ix2 b n) :=
  broadcastInDim_apply ![0, 1] bcast_S32x100000_S32x100000x1_0_1 ad (ix3 b n (0 : Fin 1)) (ix2 b n) (fun a => by fin_cases a <;> rfl)

/-- An address below 256 is its own index: nothing is negative, nothing wraps. -/
theorem lutIdx_apply (ad : IVec S32x100000 32) (b : Fin 32) (n : Fin 100000) (h : (ad (ix2 b n)).toNat < 256) :
    lutIdx ad (ix4 b n (0 : Fin 1) (0 : Fin 1)) = ad (ix2 b n) := by
  rw [lutIdx_def, shapeCast_apply _ shapeCasts_S32x100000x1_S32x100000x1x1 (ix4 b n (0 : Fin 1) (0 : Fin 1)) (ix3 b n (0 : Fin 1)) (by
      rw [Shape.rowMajor_val_three, Shape.rowMajor_val_four]
      show (b.val * 100000 + n.val) * 1 + 0 = ((b.val * 100000 + n.val) * 1 + 0) * 1 + 0
      omega),
    select_apply]
  have hz : cmpi .slt (broadcastInDim S32x100000x1 ![0, 1] bcast_S32x100000_S32x100000x1_0_1 ad)
      (broadcastInDim S32x100000x1 ![] bcast_S_S32x100000x1 (constantI S_ 32 0#32)) (ix3 b n (0 : Fin 1)) = 0#1 :=
    eq_zero_of_ne_one fun hc => by
      have h1 : (broadcastInDim S32x100000x1 ![0, 1] bcast_S32x100000_S32x100000x1_0_1 ad (ix3 b n (0 : Fin 1))).toInt < (0#32).toInt :=
        IntOp.cmpi_slt.1 hc
      rw [adcol_apply, toInt_of_small h (by norm_num)] at h1
      have e0 : (0#32).toInt = 0 := by decide
      omega
  rw [hz, select_zero, adcol_apply]

theorem jdxOk_def (jx : IVec S32x100000x1x1 32) :
    jdxOk jx = andi (cmpi .sge jx (broadcastInDim S32x100000x1x1 ![] bcast_S_S32x100000x1x1 (constantI S_ 32 0#32)))
      (cmpi .sle jx (broadcastInDim S32x100000x1x1 ![0, 1, 2, 3] bcast_S1x1x1x1_S32x100000x1x1_0_1_2_3
        (broadcastInDim S1x1x1x1 ![3] bcast_S1_S1x1x1x1_3 (constantI S1 32 255#32)))) := rfl

/-- An index below 256 passes the range test. -/
theorem jdxOk_apply (jx : IVec S32x100000x1x1 32) (b : Fin 32) (n : Fin 100000)
    (h : (jx (ix4 b n (0 : Fin 1) (0 : Fin 1))).toNat < 256) : jdxOk jx (ix4 b n (0 : Fin 1) (0 : Fin 1)) = 1#1 := by
  rw [jdxOk_def]
  show IntOp.andi (IntOp.cmpi .sge (jx (ix4 b n (0 : Fin 1) (0 : Fin 1))) 0#32) (IntOp.cmpi .sle (jx (ix4 b n (0 : Fin 1) (0 : Fin 1))) 255#32) = 1#1
  rw [IntOp.andi_eq_one, IntOp.cmpi_sge, IntOp.cmpi_sle, toInt_of_small h (by norm_num)]
  have e0 : (0#32).toInt = 0 := by decide
  have e1 : (255#32).toInt = 255 := by decide
  omega

/-- The index array drops its one-component axis. -/
theorem reduces_cell : S32x100000x1x1.Reduces [3] S32x100000x1 := by decide

theorem lift_cell (b : Fin 32) (n : Fin 100000) (k : Fin 1) : reduces_cell.lift (ix3 b n (0 : Fin 1)) k = ix4 b n (0 : Fin 1) k :=
  funext fun c => Fin.ext (by
    match c with | ⟨0, _⟩ => rfl | ⟨1, _⟩ => rfl | ⟨2, _⟩ => rfl | ⟨3, _⟩ => rfl)

theorem cellOk_def (c : IVec S32x100000x1x1 1) :
    cellOk c = Host.reduce IntOp.andi c (constantI S_ 1 1#1) reducesTo_S32x100000x1x1_S32x100000x1_d3 h_S_ := rfl

/-- The conjunction over the one component is that component. -/
theorem cellOk_apply (c : IVec S32x100000x1x1 1) (b : Fin 32) (n : Fin 100000) (h : c (ix4 b n (0 : Fin 1) (0 : Fin 1)) = 1#1) :
    cellOk c (ix3 b n (0 : Fin 1)) = 1#1 := by
  rw [cellOk_def, Host.reduce_eq_fold_single IntOp.andi _ _ reducesTo_S32x100000x1x1_S32x100000x1_d3 reduces_cell h_S_ (ix3 b n (0 : Fin 1))]
  show Finset.fold IntOp.andi 1#1 (fun k : Fin 1 => c (reduces_cell.lift (ix3 b n (0 : Fin 1)) k)) (Finset.univ : Finset (Fin 1)) = 1#1
  rw [fold_andi_fin1, lift_cell, h]
  decide

theorem lookedOf_def (ok : IVec S32x100000x1 1) (g : IVec S32x100000x1 32) :
    lookedOf ok g = shapeCast S32x100000 (select ok g (broadcastInDim S32x100000x1 ![] bcast_S_S32x100000x1 (constantI S_ 32 2147483648#32)))
      shapeCasts_S32x100000x1_S32x100000 := rfl

/-- Where the index was in range the reshaped select is the gathered word. -/
theorem lookedOf_apply (ok : IVec S32x100000x1 1) (g : IVec S32x100000x1 32) (b : Fin 32) (n : Fin 100000)
    (h : ok (ix3 b n (0 : Fin 1)) = 1#1) : lookedOf ok g (ix2 b n) = g (ix3 b n (0 : Fin 1)) := by
  rw [lookedOf_def, shapeCast_apply _ shapeCasts_S32x100000x1_S32x100000 (ix2 b n) (ix3 b n (0 : Fin 1)) (by
      rw [Shape.rowMajor_val_two, Shape.rowMajor_val_three]
      show (b.val * 100000 + n.val) * 1 + 0 = b.val * 100000 + n.val
      omega),
    select_apply, h, select_one]

/-- What the second gather reads at an index, when the start index names a table entry. -/
def AlongFact : Prop :=
  ∀ (x : IVec S32x100000x256 32) (idx : IVec S32x100000x1x1 32) (b : Fin 32) (n : Fin 100000)
    (h : (idx (ix4 b n (0 : Fin 1) (0 : Fin 1))).toNat < 256),
    Host.gather gather_S32x100000x256_S32x100000x1x1_S32x100000x1_n_2_01_01_2_3_111 x idx (ix3 b n (0 : Fin 1))
      = x (ix3 b n ⟨(idx (ix4 b n (0 : Fin 1) (0 : Fin 1))).toNat, h⟩)

/-- The looked-up word at an index, when the address is below 256: the node's table entry at the address. -/
theorem looked_apply (H : AlongFact) (a3 : IVec S100000x256 32) (ad : IVec S32x100000 32) (b : Fin 32) (n : Fin 100000)
    (h : (ad (ix2 b n)).toNat < 256) : looked a3 ad (ix2 b n) = a3 (ix2 n ⟨(ad (ix2 b n)).toNat, h⟩) := by
  have hi : lutIdx ad (ix4 b n (0 : Fin 1) (0 : Fin 1)) = ad (ix2 b n) := lutIdx_apply ad b n h
  have hlt : (lutIdx ad (ix4 b n (0 : Fin 1) (0 : Fin 1))).toNat < 256 := by rw [hi]; exact h
  show lookedOf (cellOk (jdxOk (lutIdx ad))) (gatherTb (tables a3) (lutIdx ad)) (ix2 b n) = _
  rw [lookedOf_apply _ _ b n (cellOk_apply _ b n (jdxOk_apply _ b n hlt))]
  show Host.gather gather_S32x100000x256_S32x100000x1x1_S32x100000x1_n_2_01_01_2_3_111 (tables a3) (lutIdx ad) (ix3 b n (0 : Fin 1)) = _
  rw [H (tables a3) (lutIdx ad) b n hlt, tables_apply]
  exact congrArg (fun e => a3 (ix2 n e)) (Fin.ext (by show (lutIdx ad (ix4 b n (0 : Fin 1) (0 : Fin 1))).toNat = _; rw [hi]))

/-! ## The assembly -/

section Assembly

variable (a0 : IVec S32x100000 32) (a1 a2 : IVec S100000x8 32) (a3 : IVec S100000x256 32)

/-- A word that is 0 or 1 has a value of at most 1. -/
theorem toNat_le_one {x : BitVec 32} (h : x = 0#32 ∨ x = 1#32) : x.toNat ≤ 1 := by
  rcases h with h | h <;> rw [h] <;> decide

/-- Under the ranges the address is below 256. -/
theorem addr_lt (hd : Cert.Spec.Dom a0 a1 a2 a3) (b : Fin 32) (n : Fin 100000) : Cert.Spec.addr a0 a1 a2 b n < 256 := by
  have hle : Cert.Spec.addr a0 a1 a2 b n ≤ ∑ k : Fin 8, 2 ^ (7 - k.val) :=
    Finset.sum_le_sum fun k _ => by
      have hs := toNat_le_one (hd.st01 (ix2 b (Cert.Spec.nbr a1 n k)))
      have hm := toNat_le_one (hd.msk01 (ix2 n k))
      calc (a0 (ix2 b (Cert.Spec.nbr a1 n k))).toNat * (a2 (ix2 n k)).toNat * 2 ^ (7 - k.val)
          ≤ 1 * 1 * 2 ^ (7 - k.val) := Nat.mul_le_mul_right _ (Nat.mul_le_mul hs hm)
        _ = 2 ^ (7 - k.val) := by simp
  have h255 : (∑ k : Fin 8, 2 ^ (7 - k.val)) = 255 := by decide
  omega

/-- A slot that names a node is the specification's neighbour. -/
theorem nbr_eq (n : Fin 100000) (k : Fin 8) (h : (a1 (ix2 n k)).toNat < 100000) :
    (⟨(a1 (ix2 n k)).toNat, h⟩ : Fin 100000) = Cert.Spec.nbr a1 n k :=
  Fin.ext (Nat.mod_eq_of_lt h).symm

/-- One slot's term of the address, as a number. -/
theorem term_toNat (HT : TakeFact) (hd : Cert.Spec.Dom a0 a1 a2 a3) (b : Fin 32) (n : Fin 100000) (k : Fin 8) :
    (masked a0 a1 a2 (ix3 b n k) * weights (ix1 k)).toNat
      = (a0 (ix2 b (Cert.Spec.nbr a1 n k))).toNat * (a2 (ix2 n k)).toNat * 2 ^ (7 - k.val) := by
  rw [masked_apply HT a0 a1 a2 b n k (hd.adj_lt (ix2 n k)), nbr_eq a1 n k (hd.adj_lt (ix2 n k)), weights_apply]
  rcases hd.st01 (ix2 b (Cert.Spec.nbr a1 n k)) with h0 | h0 <;> rcases hd.msk01 (ix2 n k) with h1 | h1 <;>
    rw [h0, h1] <;> fin_cases k <;> decide

/-- Under the ranges the address word's value is the specified address. -/
theorem addr_eq (HT : TakeFact) (hd : Cert.Spec.Dom a0 a1 a2 a3) (b : Fin 32) (n : Fin 100000) :
    (addrW (masked a0 a1 a2) weights (ix2 b n)).toNat = Cert.Spec.addr a0 a1 a2 b n := by
  rw [addrW_toNat, Finset.sum_congr rfl (fun k _ => term_toNat a0 a1 a2 a3 HT hd b n k)]
  exact Nat.mod_eq_of_lt (lt_trans (addr_lt a0 a1 a2 a3 hd b n) (by norm_num))

/-- Under the ranges the reference's next state is the specified one. -/
theorem next_eq (HT : TakeFact) (HA : AlongFact) (hd : Cert.Spec.Dom a0 a1 a2 a3) (b : Fin 32) (n : Fin 100000) :
    nextSt a0 a2 (looked a3 (addrW (masked a0 a1 a2) weights)) (ix2 b n) = Cert.Spec.next a0 a1 a2 a3 b n := by
  rw [nextSt_apply]
  unfold Cert.Spec.next
  by_cases h : ∀ k : Fin 8, a2 (ix2 n k) = 0#32
  · rw [if_pos h, if_pos h]
  · rw [if_neg h, if_neg h]
    have hadr := addr_eq a0 a1 a2 a3 HT hd b n
    have hlt := addr_lt a0 a1 a2 a3 hd b n
    rw [looked_apply HA a3 _ b n (by rw [hadr]; exact hlt)]
    simp only [hadr, Nat.mod_eq_of_lt hlt]

end Assembly

/-- Under the ranges of the integer arguments, and given what the two gathers read at an in-range index, the
    reference's result is the specified function. -/
theorem result_eq_spec_of (HT : TakeFact) (HA : AlongFact) (a0 : IVec S32x100000 32) (a1 a2 : IVec S100000x8 32)
    (a3 : IVec S100000x256 32) (a4 : FVec Ideal S98976x128 .f32) (a5 : FVec Ideal S128 .f32)
    (hd : Cert.Spec.Dom a0 a1 a2 a3) : result a0 a1 a2 a3 a4 a5 = Cert.Spec.out a0 a1 a2 a3 a4 a5 := by
  funext j
  obtain ⟨p, q, rfl⟩ : ∃ (p : Fin 32) (q : Fin 128), j = ix2 p q := ⟨j 0, j 1, eq_ix2 j⟩
  show readout (nextSt a0 a2 (looked a3 (addrW (masked a0 a1 a2) weights))) a4 a5 (ix2 p q)
    = Ideal.logistic ((∑ r : Fin 98976, (((Cert.Spec.next a0 a1 a2 a3 p (Cert.Spec.res r)).toInt : ℝ) : EReal) * a4 (ix2 r q)) + a5 (ix1 q))
  rw [readout_apply]
  refine congrArg (fun s => Ideal.logistic (s + a5 (ix1 q))) (Finset.sum_congr rfl fun r _ => ?_)
  rw [next_eq a0 a1 a2 a3 HT HA hd p (Cert.Spec.res r)]

end Cert.RefSide

end
-- ==== Proof.GatherApply.lean ====
/-
  The two gathers of the reference, read at an index.

  `jnp.take` along axis 1 gathers whole columns: result `(b, j)` is the operand at `(b, s)` where `s` is start index
  `j` read as a signed word and clamped into the axis.  `take_along_axis` on the last axis is a gather batched over the
  first two axes: result `(b, n, 0)` is the operand at `(b, n, s)` with `s` the start index at `(b, n, 0, 0)`.  For a start
  index already inside the axis the clamp does nothing.
-/
import proofs.«203813_g3255585210786_cont_8to1_b_763_8_alg».proof.ReferenceIdeal
import Idealize.ShloMosaic.Lib.ValueIdx

namespace Cert.RefSide

open Idealize.ShloMosaic Idealize.ShloMosaic.ValueIdx Cert.ReferenceIdeal

/-- A word below `N ≤ 2^31`, read signed and clamped into `[0, N - 1]`, is its own value. -/
theorem word_clamp (v : BitVec 32) (N : Nat) (h : v.toNat < N) (hN : N ≤ 2 ^ 31) :
    min v.toInt.toNat (N - 1) = v.toNat := by
  have e : v.toInt = (v.toNat : Int) := by
    rw [BitVec.toInt_eq_toNat_cond, if_pos (by omega)]
  rw [e, Int.toNat_natCast]
  exact Nat.min_eq_left (by omega)

theorem not_mem_single {n : Nat} {a b : Fin n} (h : a.val ≠ b.val) : a ∉ [b] :=
  fun hm => h (congrArg Fin.val (List.mem_singleton.mp hm))

theorem not_mem_pair {n : Nat} {a b c : Fin n} (h1 : a.val ≠ b.val) (h2 : a.val ≠ c.val) : a ∉ [b, c] := fun hm => by
  rcases List.mem_cons.mp hm with e | hm'
  · exact h1 (congrArg Fin.val e)
  · exact h2 (congrArg Fin.val (List.mem_singleton.mp hm'))

variable [Facts₀]

/-- The column gather at `(b, j)`, for a start index inside the axis. -/
theorem gather_take {α : Type} (x : S32x100000.Idx → α) (idx : IVec S800000x1 32) (b : Fin 32) (j : Fin 800000)
    (h : (idx (ix2 j 0)).toNat < 100000) :
    Host.gather gather_S32x100000_S800000x1_S32x800000_0_1_n_n_1_1_321 x idx (ix2 b j) = x (ix2 b ⟨(idx (ix2 j 0)).toNat, h⟩) := by
  unfold Host.gather
  congr 1
  funext a
  refine Fin.ext ?_
  show (gather_S32x100000_S800000x1_S32x800000_0_1_n_n_1_1_321).start (ix2 b j) idx a + (gather_S32x100000_S800000x1_S32x800000_0_1_n_n_1_1_321).batchCoord (ix2 b j) a + (gather_S32x100000_S800000x1_S32x800000_0_1_n_n_1_1_321).offCoord (ix2 b j) a = _
  rw [GatherDims.batchCoord_eq_zero _ _ _ List.not_mem_nil, Nat.add_zero]
  match a with
  | ⟨0, h0⟩ =>
    have hns : (⟨0, h0⟩ : Fin S32x100000.rank) ∉ (gather_S32x100000_S800000x1_S32x800000_0_1_n_n_1_1_321).startIndexMap :=
      not_mem_single (show (0 : Nat) ≠ 1 by decide)
    have hk : (⟨0, h0⟩ : Fin S32x100000.rank) ∈ (gather_S32x100000_S800000x1_S32x800000_0_1_n_n_1_1_321).sKept :=
      (GatherDims.mem_sKept _ _).mpr ⟨not_mem_single (show (0 : Nat) ≠ 1 by decide), List.not_mem_nil⟩
    have hs : (gather_S32x100000_S800000x1_S32x800000_0_1_n_n_1_1_321).start (ix2 b j) idx ⟨0, h0⟩ = 0 := by
      unfold GatherDims.start; rw [dif_neg hns]
    have ho : (gather_S32x100000_S800000x1_S32x800000_0_1_n_n_1_1_321).offCoord (ix2 b j) ⟨0, h0⟩ = b.val := by
      unfold GatherDims.offCoord; rw [dif_pos hk]; first | done | rfl
    rw [hs, ho, Nat.zero_add]; first | done | rfl
  | ⟨1, h1⟩ =>
    have hc : (⟨1, h1⟩ : Fin S32x100000.rank) ∈ (gather_S32x100000_S800000x1_S32x800000_0_1_n_n_1_1_321).collapsedSliceDims := List.mem_singleton.mpr rfl
    have hm : (⟨1, h1⟩ : Fin S32x100000.rank) ∈ (gather_S32x100000_S800000x1_S32x800000_0_1_n_n_1_1_321).startIndexMap := List.mem_singleton.mpr rfl
    have ho : (gather_S32x100000_S800000x1_S32x800000_0_1_n_n_1_1_321).offCoord (ix2 b j) ⟨1, h1⟩ = 0 :=
      GatherDims.offCoord_eq_zero _ _ _ (fun hk => ((GatherDims.mem_sKept _ _).mp hk).1 hc)
    rw [ho, Nat.add_zero]
    unfold GatherDims.start
    rw [dif_pos hm]
    have hsi : (gather_S32x100000_S800000x1_S32x800000_0_1_n_n_1_1_321).siIdx (ix2 b j) ⟨List.idxOf (⟨1, h1⟩ : Fin S32x100000.rank) (gather_S32x100000_S800000x1_S32x800000_0_1_n_n_1_1_321).startIndexMap,
        List.idxOf_lt_length_iff.2 hm⟩ = ix2 j 0 := by
      funext c; refine Fin.ext ?_
      match c with
      | ⟨0, _⟩ => rfl
      | ⟨1, _⟩ => rfl
    rw [hsi]
    exact word_clamp _ 100000 h (by norm_num)

/-- The batched gather at `(b, n, 0)`, for a start index inside the axis. -/
theorem gather_along {α : Type} (x : S32x100000x256.Idx → α) (idx : IVec S32x100000x1x1 32) (b : Fin 32) (n : Fin 100000)
    (h : (idx (ix4 b n 0 0)).toNat < 256) :
    Host.gather gather_S32x100000x256_S32x100000x1x1_S32x100000x1_n_2_01_01_2_3_111 x idx (ix3 b n 0) = x (ix3 b n ⟨(idx (ix4 b n 0 0)).toNat, h⟩) := by
  unfold Host.gather
  congr 1
  funext a
  refine Fin.ext ?_
  show (gather_S32x100000x256_S32x100000x1x1_S32x100000x1_n_2_01_01_2_3_111).start (ix3 b n 0) idx a + (gather_S32x100000x256_S32x100000x1x1_S32x100000x1_n_2_01_01_2_3_111).batchCoord (ix3 b n 0) a + (gather_S32x100000x256_S32x100000x1x1_S32x100000x1_n_2_01_01_2_3_111).offCoord (ix3 b n 0) a = _
  match a with
  | ⟨0, h0⟩ =>
    have hob : (⟨0, h0⟩ : Fin S32x100000x256.rank) ∈ (gather_S32x100000x256_S32x100000x1x1_S32x100000x1_n_2_01_01_2_3_111).operandBatchingDims :=
      List.mem_cons.mpr (Or.inl rfl)
    rw [GatherDims.offCoord_eq_zero _ _ _ (fun hk => ((GatherDims.mem_sKept _ _).mp hk).2 hob), Nat.add_zero,
      GatherDims.start_batching _ _ _ _ hob, Nat.zero_add]
    unfold GatherDims.batchCoord; rw [dif_pos hob]; first | done | rfl
  | ⟨1, h1⟩ =>
    have hob : (⟨1, h1⟩ : Fin S32x100000x256.rank) ∈ (gather_S32x100000x256_S32x100000x1x1_S32x100000x1_n_2_01_01_2_3_111).operandBatchingDims :=
      List.mem_cons.mpr (Or.inr (List.mem_singleton.mpr rfl))
    rw [GatherDims.offCoord_eq_zero _ _ _ (fun hk => ((GatherDims.mem_sKept _ _).mp hk).2 hob), Nat.add_zero,
      GatherDims.start_batching _ _ _ _ hob, Nat.zero_add]
    unfold GatherDims.batchCoord; rw [dif_pos hob]; first | done | rfl
  | ⟨2, h2⟩ =>
    have hnb : (⟨2, h2⟩ : Fin S32x100000x256.rank) ∉ (gather_S32x100000x256_S32x100000x1x1_S32x100000x1_n_2_01_01_2_3_111).operandBatchingDims :=
      not_mem_pair (show (2 : Nat) ≠ 0 by decide) (show (2 : Nat) ≠ 1 by decide)
    have hc : (⟨2, h2⟩ : Fin S32x100000x256.rank) ∈ (gather_S32x100000x256_S32x100000x1x1_S32x100000x1_n_2_01_01_2_3_111).collapsedSliceDims := List.mem_singleton.mpr rfl
    have hm : (⟨2, h2⟩ : Fin S32x100000x256.rank) ∈ (gather_S32x100000x256_S32x100000x1x1_S32x100000x1_n_2_01_01_2_3_111).startIndexMap := List.mem_singleton.mpr rfl
    rw [GatherDims.offCoord_eq_zero _ _ _ (fun hk => ((GatherDims.mem_sKept _ _).mp hk).1 hc), Nat.add_zero,
      GatherDims.batchCoord_eq_zero _ _ _ hnb, Nat.add_zero]
    unfold GatherDims.start
    rw [dif_pos hm]
    have hsi : (gather_S32x100000x256_S32x100000x1x1_S32x100000x1_n_2_01_01_2_3_111).siIdx (ix3 b n 0) ⟨List.idxOf (⟨2, h2⟩ : Fin S32x100000x256.rank) (gather_S32x100000x256_S32x100000x1x1_S32x100000x1_n_2_01_01_2_3_111).startIndexMap,
        List.idxOf_lt_length_iff.2 hm⟩ = ix4 b n 0 0 := by
      funext c; refine Fin.ext ?_
      match c with
      | ⟨0, _⟩ => rfl
      | ⟨1, _⟩ => rfl
      | ⟨2, _⟩ => rfl
      | ⟨3, _⟩ => rfl
    rw [hsi]
    exact word_clamp _ 256 h (by norm_num)

end Cert.RefSide
-- ==== Proof.RefSpec.lean ====
/-
  The reference side, closed: under the input predicate the reference runs, ends with the specified function of
  its arguments in the result buffer, and leaves the arguments as they were.

  The input predicate gives the ranges of the integer arguments; under the ranges the reference's composed term is
  the specified function, the two gathers reading in range; and the run leaves that term in the result buffer.
-/
import proofs.«203813_g3255585210786_cont_8to1_b_763_8_alg».proof.Defs
import proofs.«203813_g3255585210786_cont_8to1_b_763_8_alg».proof.Proof.RefValue
import proofs.«203813_g3255585210786_cont_8to1_b_763_8_alg».proof.Proof.GatherApply
import proofs.«203813_g3255585210786_cont_8to1_b_763_8_alg».proof.Proof.Dom

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

/-- Under the ranges of the integer arguments the reference's result is the specified function. -/
theorem result_eq_spec (a0 : IVec S32x100000 32) (a1 a2 : IVec S100000x8 32) (a3 : IVec S100000x256 32)
    (a4 : FVec Ideal S98976x128 .f32) (a5 : FVec Ideal S128 .f32) (hd : Cert.Spec.Dom a0 a1 a2 a3) :
    result a0 a1 a2 a3 a4 a5 = Cert.Spec.out a0 a1 a2 a3 a4 a5 :=
  result_eq_spec_of (fun x idx b j h => gather_take x idx b j h) (fun x idx b n h => gather_along x idx b n h)
    a0 a1 a2 a3 a4 a5 hd

/-- The reference runs and leaves its arguments as they were. -/
theorem frame [hPre_input_domain : Cert.Pre_input_domain.Facts] : Cert.frame_ReferenceIdeal :=
  fun m g _ => (θ_run _ _ _).mono (fun _ h c => (h c).2) (run m g)

/-- Under the input predicate every weakly fair execution of the reference terminates with the result buffer at
    the specified function of the arguments' launch contents, and the arguments unchanged. -/
theorem run_spec [hPre_input_domain : Cert.Pre_input_domain.Facts] (m : (ℓ : Loc nD τ sig) → Buf (Elt Ideal) ℓ) (g : Dev nD → PrngReg)
    (hpre : Cert.Pre_ReferenceIdeal m) :
    θ_run (defs (F := Ideal)) (onTc (τ := τ) (main (F := Ideal))) ⟨m, fun _ => 0, g⟩ (fun r => ∀ c : Dev nD,
      r.2.mem ((c.tc : Thread nD τ).loc main_v89) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c =>
      ⟨(h c).1.trans (result_eq_spec _ _ _ _ _ _ (dom_of_fn (F := Ideal) _ _ _ _ _ _ (hpre c))), (h c).2⟩)
    (run m g)

end Cert.RefSide

end
-- ==== Proof.Frames.lean ====
/-
  Four of the claim's five conjuncts.

  The two kernels' frames are one argument at two float instances: under the precondition every neighbour slot
  names a node, so every index the SparseCores gather at names a table entry; then every weakly fair execution of the
  35 threads terminates without a fault and no step writes an argument array.  The reference's frame is its run read
  at the argument arrays.  The idealization pass rewrote nothing, so what it preserves holds trivially.
-/
import proofs.«203813_g3255585210786_cont_8to1_b_763_8_alg».proof.Defs
import proofs.«203813_g3255585210786_cont_8to1_b_763_8_alg».proof.Proof.Gen.Kernel
import proofs.«203813_g3255585210786_cont_8to1_b_763_8_alg».proof.Proof.Gen.KernelIdeal
import proofs.«203813_g3255585210786_cont_8to1_b_763_8_alg».proof.Proof.Gen.ReferenceIdeal
import proofs.«203813_g3255585210786_cont_8to1_b_763_8_alg».proof.Proof.Gen.Pre_input_domain
import proofs.«203813_g3255585210786_cont_8to1_b_763_8_alg».proof.Proof.HMain
import proofs.«203813_g3255585210786_cont_8to1_b_763_8_alg».proof.Proof.HMainK
import proofs.«203813_g3255585210786_cont_8to1_b_763_8_alg».proof.Proof.RefSpec

noncomputable section

namespace Cert.Frames

open Idealize.ShloMosaic Idealize.SL.Sem

/-- The idealized kernel's frame. -/
theorem frame_ki : Cert.frame_KernelIdeal (hKernelIdeal := Cert.KernelIdeal.Gen.facts) (hPre_input_domain := Cert.Pre_input_domain.Gen.facts) :=
  fun m g hpre => Cert.KI.run_args (F := Ideal) m g
    (fun d i => (Cert.RefSide.dom_of_fn (F := Ideal) _ _ _ _ _ _ (hpre d)).adj_lt i)

/-- The kernel's frame as printed, at the word-level floats. -/
theorem frame_kb : Cert.frame_Kernel (hKernel := Cert.Kernel.Gen.facts) (hPre_input_domain := Cert.Pre_input_domain.Gen.facts) :=
  fun m g hpre => Cert.KB.run_args (F := Bits) m g
    (fun d i => (Cert.RefSide.dom_of_fn (F := Bits) _ _ _ _ _ _ (hpre d)).adj_lt i)

/-- The reference's frame. -/
theorem frame_ri : Cert.frame_ReferenceIdeal (hReferenceIdeal := Cert.ReferenceIdeal.Gen.facts) (hPre_input_domain := Cert.Pre_input_domain.Gen.facts) :=
  Cert.RefSide.frame

/-- Nothing was rewritten. -/
theorem preserves : Cert.preserves_Kernel_KernelIdeal := trivial

end Cert.Frames

end
-- ==== Proof.MainRegionV.lean ====
/-
  The second TensorCore call as relational proof data that carries the accumulator's value.

  The call walks 97 grid points.  At point `t` the body finds, in the six input buffers, the blocks of the six
  input arrays at `t` — the node tables' and `W`'s completed, past their arrays' end (only the last block overhangs),
  by words nothing names; the bias block, fetched once, kept from point to point — and leaves them as found.  The
  accumulator's buffer, which is fetched never and written back once, after the last point, is left holding a function
  of what it held and of the six blocks: overwritten by the block's partial product at the first point, that added at
  a middle point, that added and the bias added and the logistic function applied at the last (`accStep`: the
  function the body's run at that point computes).  So what the accumulator holds after point `t` is `accStep` folded
  over the points up to `t`, which is what the value of the call is read off.
-/
import proofs.«203813_g3255585210786_cont_8to1_b_763_8_alg».proof.Proof.MainBody
import proofs.«203813_g3255585210786_cont_8to1_b_763_8_alg».proof.Proof.Gen.KernelIdeal.Launch
import proofs.«203813_g3255585210786_cont_8to1_b_763_8_alg».proof.Proof.Gen.KernelIdeal.Points
import Idealize.ShloMosaic.Lib.Pipeline.Kit
import Idealize.ShloMosaic.Lib.Pipeline.FrameBody

noncomputable section

namespace Cert.MainRegionV

open Cert.KernelIdeal Cert.KernelIdeal.Gen Cert.MainBody
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] {U : Type} [URA U]

local notation "𝕄" => MT nD τ sig (SparseCore.Cfg.HIx 1) (Elt F) ℕ U ℕ

/-- Window `w`'s block at point `t` as a fetch reads it: its part inside the array, off the array as the region finds it. -/
def blk (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- What the body finds in the six input buffers at point `t`: the block; for the node tables (window 0) and `W`
    (window 4), whose last block overhangs the array, the block completed past the array's end by some `d`. -/
def found0 (V : (c : Dev nD) → (b : Ref sig .tc) → Buf (Elt F) ((c : Thread nD τ).loc b)) (c : Dev nD) (t : Fin cfg2.N) (d0 : Vec F S1024x256 .i32) : Vec F S1024x256 .i32 :=
  win2_0.fill (grid2.coords t) d0 (blk V c 0 t)
def found1 (V : (c : Dev nD) → (b : Ref sig .tc) → Buf (Elt F) ((c : Thread nD τ).loc b)) (c : Dev nD) (t : Fin cfg2.N) : Vec F S8x1024 .i32 := blk V c 1 t
def found2 (V : (c : Dev nD) → (b : Ref sig .tc) → Buf (Elt F) ((c : Thread nD τ).loc b)) (c : Dev nD) (t : Fin cfg2.N) : Vec F S8x1024 .i32 := blk V c 2 t
def found3 (V : (c : Dev nD) → (b : Ref sig .tc) → Buf (Elt F) ((c : Thread nD τ).loc b)) (c : Dev nD) (t : Fin cfg2.N) : Vec F S1x8x128 .i32 := blk V c 3 t
def found4 (V : (c : Dev nD) → (b : Ref sig .tc) → Buf (Elt F) ((c : Thread nD τ).loc b)) (c : Dev nD) (t : Fin cfg2.N) (d4 : Vec F S1024x128 .f32) : Vec F S1024x128 .f32 :=
  win2_4.fill (grid2.coords t) d4 (blk V c 4 t)
def found5 (V : (c : Dev nD) → (b : Ref sig .tc) → Buf (Elt F) ((c : Thread nD τ).loc b)) (c : Dev nD) (t : Fin cfg2.N) : Vec F S1x128 .f32 := blk V c 5 t

/-- What the body at point `t` makes of the accumulator's contents, the six input buffers reading `x1 … x6`: the
    function its run there computes — the first point's, the last point's or a middle point's. -/
def accStep (U : Type) [URA U] (c : Dev nD) (t : Fin cfg2.N) (x1 : Vec F S1024x256 .i32) (x2 : Vec F S8x1024 .i32) (x3 : Vec F S8x1024 .i32)
    (x4 : Vec F S1x8x128 .i32) (x5 : Vec F S1024x128 .f32) (x6 : Vec F S1x128 .f32) : Vec F S32x128 .f32 → Vec F S32x128 .f32 :=
  if h0 : t.val = 0 then
    (runFirst (F := F) (U := U) c (grid2.coords t) ((cond1_iff t).mpr h0)
      (fun h => by have := (cond2_iff t).mp h; omega) (fun h => by have := (cond3_iff t).mp h; omega)
      (win2_0.stage (cfg2.slots t 0)) (hstage2_0 ((cfg2.slots t 0).cast nbuf2_0))
      (win2_1.stage (cfg2.slots t 1)) (hstage2_1 ((cfg2.slots t 1).cast nbuf2_1))
      (win2_2.stage (cfg2.slots t 2)) (hstage2_2 ((cfg2.slots t 2).cast nbuf2_2))
      (win2_3.stage (cfg2.slots t 3)) (hstage2_3 ((cfg2.slots t 3).cast nbuf2_3))
      (win2_4.stage (cfg2.slots t 4)) (hstage2_4 ((cfg2.slots t 4).cast nbuf2_4))
      (win2_5.stage (cfg2.slots t 5)) (hstage2_5 ((cfg2.slots t 5).cast nbuf2_5))
      (win2_6.stage (cfg2.slots t 6)) (hstage2_6 ((cfg2.slots t 6).cast nbuf2_6))
      x1 x2 x3 x4 x5 x6).1
  else if h96 : t.val = 96 then
    (runLast (F := F) (U := U) c (grid2.coords t) (fun h => h0 ((cond1_iff t).mp h)) ((cond2_iff t).mpr (Nat.pos_of_ne_zero h0)) ((cond3_iff t).mpr h96)
      (win2_0.stage (cfg2.slots t 0)) (hstage2_0 ((cfg2.slots t 0).cast nbuf2_0))
      (win2_1.stage (cfg2.slots t 1)) (hstage2_1 ((cfg2.slots t 1).cast nbuf2_1))
      (win2_2.stage (cfg2.slots t 2)) (hstage2_2 ((cfg2.slots t 2).cast nbuf2_2))
      (win2_3.stage (cfg2.slots t 3)) (hstage2_3 ((cfg2.slots t 3).cast nbuf2_3))
      (win2_4.stage (cfg2.slots t 4)) (hstage2_4 ((cfg2.slots t 4).cast nbuf2_4))
      (win2_5.stage (cfg2.slots t 5)) (hstage2_5 ((cfg2.slots t 5).cast nbuf2_5))
      (win2_6.stage (cfg2.slots t 6)) (hstage2_6 ((cfg2.slots t 6).cast nbuf2_6))
      x1 x2 x3 x4 x5 x6).1
  else
    (runMid (F := F) (U := U) c (grid2.coords t) (fun h => h0 ((cond1_iff t).mp h)) ((cond2_iff t).mpr (Nat.pos_of_ne_zero h0)) (fun h => h96 ((cond3_iff t).mp h))
      (win2_0.stage (cfg2.slots t 0)) (hstage2_0 ((cfg2.slots t 0).cast nbuf2_0))
      (win2_1.stage (cfg2.slots t 1)) (hstage2_1 ((cfg2.slots t 1).cast nbuf2_1))
      (win2_2.stage (cfg2.slots t 2)) (hstage2_2 ((cfg2.slots t 2).cast nbuf2_2))
      (win2_3.stage (cfg2.slots t 3)) (hstage2_3 ((cfg2.slots t 3).cast nbuf2_3))
      (win2_4.stage (cfg2.slots t 4)) (hstage2_4 ((cfg2.slots t 4).cast nbuf2_4))
      (win2_5.stage (cfg2.slots t 5)) (hstage2_5 ((cfg2.slots t 5).cast nbuf2_5))
      (win2_6.stage (cfg2.slots t 6)) (hstage2_6 ((cfg2.slots t 6).cast nbuf2_6))
      x1 x2 x3 x4 x5 x6).1

/-- The call's proof data on core `c`: the seven arrays as the region finds them (`V`); every input's buffer left as
    found; the accumulator's left at `accStep` of what it held, over the six blocks as found (for some completions `d0`,
    `d4` of the two overhanging ones); the invariant, the debt and the bound on the recorded pairs are the caller's. -/
def rdatV (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) :
    RDat τ (Elt F) (SparseCore.Cfg.HIx 1) ℕ U ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => ∃ d0 d4, X = accStep U c t (found0 V c t d0) (found1 V c t) (found2 V c t) (found3 V c t) (found4 V c t d4) (found5 V c t) Y
  Φ _ := Φc
  q _ := fullShare
  owed _ := O
  recorded _ := B

/-! ## The body's triple at a point -/

/-- The body at point `t` on the point's seven staging buffers, the inputs reading `x1 … x6` and the accumulator `x7`:
    it returns with the inputs as they were and the accumulator reading `accStep … x7`. -/
theorem sound_acc (c : Dev nD) (t : Fin cfg2.N) (x1 : Vec F S1024x256 .i32) (x2 : Vec F S8x1024 .i32) (x3 : Vec F S8x1024 .i32)
    (x4 : Vec F S1x8x128 .i32) (x5 : Vec F S1024x128 .f32) (x6 : Vec F S1x128 .f32) (x7 : Vec F S32x128 .f32) (K : PUnit → sProp 𝕄) :
    iprop(owns (c : Thread nD τ) (st2_0 t) fullShare x1 ∗ owns (c : Thread nD τ) (st2_1 t) fullShare x2 ∗ owns (c : Thread nD τ) (st2_2 t) fullShare x3 ∗ owns (c : Thread nD τ) (st2_3 t) fullShare x4 ∗ owns (c : Thread nD τ) (st2_4 t) fullShare x5 ∗ owns (c : Thread nD τ) (st2_5 t) fullShare x6 ∗ owns (c : Thread nD τ) (st2_6 t) fullShare x7
        ∗ (iprop(owns (c : Thread nD τ) (st2_0 t) fullShare x1 ∗ owns (c : Thread nD τ) (st2_1 t) fullShare x2 ∗ owns (c : Thread nD τ) (st2_2 t) fullShare x3 ∗ owns (c : Thread nD τ) (st2_3 t) fullShare x4 ∗ owns (c : Thread nD τ) (st2_4 t) fullShare x5 ∗ owns (c : Thread nD τ) (st2_5 t) fullShare x6 ∗ owns (c : Thread nD τ) (st2_6 t) fullShare (accStep U c t x1 x2 x3 x4 x5 x6 x7)) -∗ K ⟨⟩))
      ⊢ wp frame (wpE (defs₀ (F := F)) Variants.none c none) Set.univ (bodyAt2 t) K := by
  unfold accStep
  by_cases h0 : t.val = 0
  · rw [dif_pos h0]
    exact (runFirst (F := F) (U := U) c (grid2.coords t) _ _ _ _ _ _ _ _ _ _ _ _ _ _ _ _ _ x1 x2 x3 x4 x5 x6).2 x7 Set.univ K
  · rw [dif_neg h0]
    by_cases h96 : t.val = 96
    · rw [dif_pos h96]
      exact (runLast (F := F) (U := U) c (grid2.coords t) _ _ _ _ _ _ _ _ _ _ _ _ _ _ _ _ _ x1 x2 x3 x4 x5 x6).2 x7 Set.univ K
    · rw [dif_neg h96]
      exact (runMid (F := F) (U := U) c (grid2.coords t) _ _ _ _ _ _ _ _ _ _ _ _ _ _ _ _ _ x1 x2 x3 x4 x5 x6).2 x7 Set.univ K

/-! ## What the body may find in the input buffers -/

/-- The data's arrays are the region-entry contents. -/
theorem A_eqV (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (w : Fin cfg2.W) :
    (rdatV (F := F) (U := U) Φc O B V c).A w = V c (Pipeline.arrRef spec2 w) := by
  dsimp only [rdatV]

/-- Every input's buffer is left as found. -/
theorem keepV (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (w : Fin cfg2.W) (hw : w.val ≠ 6)
    (t : Fin cfg2.N) (Y X) (h : (rdatV (F := F) (U := U) Φc O B V c).after w t Y X) : X = Y := by
  match w, hw with
  | ⟨0, _⟩, _ => exact h
  | ⟨1, _⟩, _ => exact h
  | ⟨2, _⟩, _ => exact h
  | ⟨3, _⟩, _ => exact h
  | ⟨4, _⟩, _ => exact h
  | ⟨5, _⟩, _ => exact h
  | ⟨6, _⟩, hw => exact absurd rfl hw

/-- Where a block of the node tables (of `W`) is cut depends on its block index only. -/
theorem clip2_0 : ∀ t t' : Fin cfg2.N, (cfg2.win 0).index t = (cfg2.win 0).index t' →
    (cfg2.win 0).clip (cfg2.grid.coords t) = (cfg2.win 0).clip (cfg2.grid.coords t') := by
  intro t t' h
  funext a
  show Pipeline.Clip.of (win2_0.indexMap (grid2.coords t) a) _ _ = Pipeline.Clip.of (win2_0.indexMap (grid2.coords t') a) _ _
  rw [show win2_0.indexMap (grid2.coords t) = win2_0.indexMap (grid2.coords t') from h]

theorem clip2_4 : ∀ t t' : Fin cfg2.N, (cfg2.win 4).index t = (cfg2.win 4).index t' →
    (cfg2.win 4).clip (cfg2.grid.coords t) = (cfg2.win 4).clip (cfg2.grid.coords t') := by
  intro t t' h
  funext a
  show Pipeline.Clip.of (win2_4.indexMap (grid2.coords t) a) _ _ = Pipeline.Clip.of (win2_4.indexMap (grid2.coords t') a) _ _
  rw [show win2_4.indexMap (grid2.coords t) = win2_4.indexMap (grid2.coords t') from h]

/-- What the body may find in an input's buffer is that window's block at the point (completed, for the two windows
    whose last block overhangs), whether or not the point fetched it: an input left as found, not fetched, still holds
    the previous point's block, which has the same block index. -/
theorem findsV_0 (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (t : Fin cfg2.N) (Y)
    (h : (rdatV (F := F) (U := U) Φc O B V c).Finds 0 t Y) : ∃ d0, Y = found0 V c t d0 := by
  obtain ⟨d, hd⟩ := Pipeline.RDat.finds_in_eq_fetched (rdatV (F := F) (U := U) Φc O B V c) 0 rfl clip2_0 (keepV Φc O B V c 0 (by decide)) t Y h
  exact ⟨d, hd⟩
theorem findsV_1 (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (t : Fin cfg2.N) (Y)
    (h : (rdatV (F := F) (U := U) Φc O B V c).Finds 1 t Y) : Y = found1 V c t := by
  obtain ⟨d, hd⟩ := Pipeline.RDat.finds_in_eq_fetched (rdatV (F := F) (U := U) Φc O B V c) 1 rfl (fun _ _ _ => rfl) (keepV Φc O B V c 1 (by decide)) t Y h
  exact hd
theorem findsV_2 (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (t : Fin cfg2.N) (Y)
    (h : (rdatV (F := F) (U := U) Φc O B V c).Finds 2 t Y) : Y = found2 V c t := by
  obtain ⟨d, hd⟩ := Pipeline.RDat.finds_in_eq_fetched (rdatV (F := F) (U := U) Φc O B V c) 2 rfl (fun _ _ _ => rfl) (keepV Φc O B V c 2 (by decide)) t Y h
  exact hd
theorem findsV_3 (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (t : Fin cfg2.N) (Y)
    (h : (rdatV (F := F) (U := U) Φc O B V c).Finds 3 t Y) : Y = found3 V c t := by
  obtain ⟨d, hd⟩ := Pipeline.RDat.finds_in_eq_fetched (rdatV (F := F) (U := U) Φc O B V c) 3 rfl (fun _ _ _ => rfl) (keepV Φc O B V c 3 (by decide)) t Y h
  exact hd
theorem findsV_4 (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (t : Fin cfg2.N) (Y)
    (h : (rdatV (F := F) (U := U) Φc O B V c).Finds 4 t Y) : ∃ d4, Y = found4 V c t d4 := by
  obtain ⟨d, hd⟩ := Pipeline.RDat.finds_in_eq_fetched (rdatV (F := F) (U := U) Φc O B V c) 4 rfl clip2_4 (keepV Φc O B V c 4 (by decide)) t Y h
  exact ⟨d, hd⟩
theorem findsV_5 (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (t : Fin cfg2.N) (Y)
    (h : (rdatV (F := F) (U := U) Φc O B V c).Finds 5 t Y) : Y = found5 V c t := by
  obtain ⟨d, hd⟩ := Pipeline.RDat.finds_in_eq_fetched (rdatV (F := F) (U := U) Φc O B V c) 5 rfl (fun _ _ _ => rfl) (keepV Φc O B V c 5 (by decide)) t Y h
  exact hd

end Cert.MainRegionV

end
-- ==== Proof.MainRegionVO.lean ====
/-
  The body obligation of the second TensorCore call's value-carrying proof data.

  At a point the six input buffers hold the point's blocks (`findsV_w`), the body leaves them as found and leaves the
  accumulator at `accStep` of what it held over what the inputs read (`sound_acc`), which is `accStep` over the blocks.
-/
import proofs.«203813_g3255585210786_cont_8to1_b_763_8_alg».proof.Proof.MainRegionV

noncomputable section

namespace Cert.MainRegionV

open Cert.KernelIdeal Cert.KernelIdeal.Gen Cert.MainBody
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] {U : Type} [URA U]

local notation "𝕄" => MT nD τ sig (SparseCore.Cfg.HIx 1) (Elt F) ℕ U ℕ

/-- An input's relation holds of a buffer left as found. -/
theorem afterV_in (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (w : Fin cfg2.W) (hw : w.val ≠ 6)
    (t : Fin cfg2.N) (Y) : (rdatV (F := F) (U := U) Φc O B V c).after w t Y Y := by
  match w, hw with
  | ⟨0, _⟩, _ => exact rfl
  | ⟨1, _⟩, _ => exact rfl
  | ⟨2, _⟩, _ => exact rfl
  | ⟨3, _⟩, _ => exact rfl
  | ⟨4, _⟩, _ => exact rfl
  | ⟨5, _⟩, _ => exact rfl
  | ⟨6, _⟩, hw => exact absurd rfl hw

/-- The accumulator's relation, spelled out. -/
theorem afterV_6 (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (t : Fin cfg2.N) (Y X) :
    (rdatV (F := F) (U := U) Φc O B V c).after 6 t Y X
      ↔ ∃ d0 d4, X = accStep U c t (found0 V c t d0) (found1 V c t) (found2 V c t) (found3 V c t) (found4 V c t d4) (found5 V c t) Y := by
  dsimp only [rdatV]; exact Iff.rfl

/-- The library's body obligation for the call, at every point and for all contents the buffers may hold. -/
theorem body_obligationV (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) (ι : SparseCore.Cfg.HIx 1) :
    (rdatV (F := F) (U := U) Φc O B V c).BodyObligation (defs₀ (F := F)) Variants.none ι Set.univ := fun t Y hY => by
  rw [bigSep_W2, bigSep_W2]
  obtain ⟨d0, e0⟩ := findsV_0 Φc O B V c t (Y 0) (hY 0)
  have e1 := findsV_1 Φc O B V c t (Y 1) (hY 1)
  have e2 := findsV_2 Φc O B V c t (Y 2) (hY 2)
  have e3 := findsV_3 Φc O B V c t (Y 3) (hY 3)
  obtain ⟨d4, e4⟩ := findsV_4 Φc O B V c t (Y 4) (hY 4)
  have e5 := findsV_5 Φc O B V c t (Y 5) (hY 5)
  rw [show (rdatV (F := F) (U := U) Φc O B V c).Φ t.succ = (rdatV (F := F) (U := U) Φc O B V c).Φ t.castSucc from rfl,
    show (rdatV (F := F) (U := U) Φc O B V c).owesAt ι t.succ = (rdatV (F := F) (U := U) Φc O B V c).owesAt ι t.castSucc from rfl]
  change _ ⊢ wp frame _ _ (bodyAt2 t) _
  iintro ⟨HΦ, Ho, H0, H1, H2, H3, H4, H5, H6⟩
  iapply (sound_acc (F := F) (U := U) c t (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]
  · iexists (Y 0); isplitr; · ipureintro; exact afterV_in Φc O B V c 0 (by decide) t (Y 0)
    iexact H0
  isplitl [H1]
  · iexists (Y 1); isplitr; · ipureintro; exact afterV_in Φc O B V c 1 (by decide) t (Y 1)
    iexact H1
  isplitl [H2]
  · iexists (Y 2); isplitr; · ipureintro; exact afterV_in Φc O B V c 2 (by decide) t (Y 2)
    iexact H2
  isplitl [H3]
  · iexists (Y 3); isplitr; · ipureintro; exact afterV_in Φc O B V c 3 (by decide) t (Y 3)
    iexact H3
  isplitl [H4]
  · iexists (Y 4); isplitr; · ipureintro; exact afterV_in Φc O B V c 4 (by decide) t (Y 4)
    iexact H4
  isplitl [H5]
  · iexists (Y 5); isplitr; · ipureintro; exact afterV_in Φc O B V c 5 (by decide) t (Y 5)
    iexact H5
  iexists _; isplitr
  swap; · iexact H6
  ipureintro
  refine (afterV_6 Φc O B V c t _ _).mpr ⟨d0, d4, ?_⟩
  rw [← e0, ← e1, ← e2, ← e3, ← e4, ← e5]

end Cert.MainRegionV

end
-- ==== Proof.Reg1V.lean ====
/-
  The second TensorCore call as a segment of @main, over the proof data that carries the accumulator's value.

  As the segment over the plain data: entered from the thread state after the SparseCore call, the call's seven arrays
  split out of the unscoped buffers at the entry and handed back at the exit, the six inputs as they were and the
  result array at some contents the one write-back may leave — which this data constrains: a chain of 97 steps.
-/
import proofs.«203813_g3255585210786_cont_8to1_b_763_8_alg».proof.Proof.Reg1
import proofs.«203813_g3255585210786_cont_8to1_b_763_8_alg».proof.Proof.MainRegionVO

noncomputable section

namespace Cert.KI

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-- The two calls' proof data: the first call's is a parameter; the second's is the value-carrying data over the
    contents `W1` the second region finds, its invariant the scoped buffers no window stages, its debt and recorded
    pairs those after the SparseCore call. -/
def rdatsV (rd0 : (c : Dev nD) → RDat τ (Elt F) (HIx 1) ℕ UU ℕ cfg0 c) (W1 : Vals F) :
    (p : Fin 2) → (c : Dev nD) → RDat τ (Elt F) (HIx 1) ℕ UU ℕ (Pipeline.pin (pcfgs (F := F)) adm p) c
  | ⟨0, _⟩ => rd0
  | ⟨1, _⟩ => fun c => Cert.MainRegionV.rdatV (F := F) (U := UU) (Pipeline.scopedRest spec2 c) ((K (F := F)).Otc c 1) (recBound (F := F) c 1) W1 c

set_option backward.isDefEq.respectTransparency.types false in
/-- The second call as a region segment, over the value-carrying data. -/
def reg1V (rd0 : (c : Dev nD) → RDat τ (Elt F) (HIx 1) ℕ UU ℕ cfg0 c) (W1 : Vals F) :
    Pipeline.RDat.RegionSeg (pcfgs (F := F)) adm (rdatsV rd0 W1) ι₀ defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := Cert.MainRegionV.body_obligationV (F := F) (U := UU) (Pipeline.scopedRest spec2 c) ((K (F := F)).Otc c 1) (recBound (F := F) c 1) W1 c ι₀
  hwaits := Pipeline.RDat.hwaits_of_owed_zero _ _ _ _ _ _ 1 fun c _ => (K (F := F)).Otc_end c (le_refl 1)
  pre c := iprop(unscopedBufs c (W1 c) ∗ owesTc (F := F) c 1)
  post c := iprop((rdatsV rd0 W1 1 c).arraysAt cfg2.N ∗ Pipeline.unscopedRest spec2 c (W1 c) ∗ owesTc (F := F) c 1)
  X _ := iprop(emp)
  Y _ := iprop(emp)
  Z c := Pipeline.unscopedRest spec2 c (W1 c)
  hentry c := by
    rw [Pipeline.ownSems0_none]
    have hsplit := Pipeline.RDat.arrays_of_unscopedBufs (p := 1) (pcfgs (F := F)) adm (rdatsV rd0 W1) launch2.win launch2.arr_whole c
      ((rdatsV rd0 W1 1 c).share_full fun _ => rfl) (W1 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesTc
      icases HO with ⟨%W, %hW, HO⟩
      iexists W; isplitr
      · ipureintro; exact fun p hp => Or.inl (hW p hp)
      iexact HO
    isplitr; · iempintro
    iexact Hrest
  hin c := by
    rw [show (rdatsV rd0 W1 1 c).Φ 0 = Pipeline.scopedRest spec2 c from rfl]
    iintro ⟨-, -, Hr⟩
    iexact Hr
  hout c := by
    rw [Pipeline.ownSems0_none, show (rdatsV rd0 W1 1 c).Φ (Fin.last _) = Pipeline.scopedRest spec2 c from rfl]
    iintro Hr
    isplitr; · iempintro
    isplitr; · iempintro
    iexact Hr
  hexit c := by
    iintro ⟨Ha, HO, -, Hrest⟩
    imodintro
    isplitl [Ha]; · iexact Ha
    isplitl [Hrest]; · iexact Hrest
    unfold owesTc
    icases HO with ⟨%W, %hW, HO⟩
    iexists W; isplitr
    · ipureintro
      intro p hp
      rcases hW hp with h | ⟨w, s, rfl⟩
      · exact h
      · show (K (F := F)).lev _ none ≤ 8 * 1
        rw [SparseCore.Cfg.lev_none]; exact Nat.zero_le _
    iexact HO

/-- The thread state the segment is entered from. -/
theorem reg1V_pre (rdz : (c : Dev nD) → RDat τ (Elt F) (HIx 1) ℕ UU ℕ cfg0 c) (W1v : Vals F) (d : Dev nD) :
    (reg1V (F := F) rdz W1v).pre d = iprop(unscopedBufs d (W1v d) ∗ owesTc (F := F) d 1) := rfl

end Cert.KI

end
-- ==== Proof.HMainV.lean ====
/-
  @main on the TensorCore, inside the SparseCore program: host operations, the first pipelined call, a host
  operation, the SparseCore call, host operations, the second pipelined call.

  Between any two of these the TensorCore holds every unscoped buffer at a known valuation and its part of the
  handshake state.  The contents are a fold of the host operations over the launch memory, overwritten at three
  places by what the three calls leave — each only characterised (some contents the first call's write-backs may
  leave in the packed words; some table and gathered list the SparseCores hand back; some contents the last
  write-back may leave in the result), so the final assertion quantifies them.  Here the second call runs over the proof data that carries the
  accumulator's value, so that the result's contents are a chain of 97 steps.
-/
import proofs.«203813_g3255585210786_cont_8to1_b_763_8_alg».proof.Proof.HostSegs
import proofs.«203813_g3255585210786_cont_8to1_b_763_8_alg».proof.Proof.Steps
import proofs.«203813_g3255585210786_cont_8to1_b_763_8_alg».proof.Proof.Reg0
import proofs.«203813_g3255585210786_cont_8to1_b_763_8_alg».proof.Proof.LaunchElem
import proofs.«203813_g3255585210786_cont_8to1_b_763_8_alg».proof.Proof.Final
import proofs.«203813_g3255585210786_cont_8to1_b_763_8_alg».proof.Proof.HostIdx
import proofs.«203813_g3255585210786_cont_8to1_b_763_8_alg».proof.Proof.ScTask.Call
import proofs.«203813_g3255585210786_cont_8to1_b_763_8_alg».proof.Proof.Dom
import proofs.«203813_g3255585210786_cont_8to1_b_763_8_alg».proof.Proof.Reg1V

noncomputable section

namespace Cert.KV

open Cert.KI

open Cert.KernelIdeal Cert.KernelIdeal.Gen
open Idealize.ShloMosaic Idealize.ShloMosaic.StableHlo
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-! ## The SparseCore call as one step -/

/-- A TensorCore buffer's location on device `d`. -/
abbrev tLoc (d : Dev nD) (b : Ref sig .tc) : Loc nD τ sig := (SparseCore.T d).loc b

/-- A valuation overwritten at the packed words, at the flat table, at the gathered list. -/
abbrev set8 (v : main_v8.ty.Contents (Elt F)) (W : Valuation τ sig (Elt F)) : Valuation τ sig (Elt F) :=
  (StableHlo.nullary main_v8 v : HloOp τ sig (Elt F)).result W
abbrev set9 (v : main_v9.ty.Contents (Elt F)) (W : Valuation τ sig (Elt F)) : Valuation τ sig (Elt F) :=
  (StableHlo.nullary main_v9 v : HloOp τ sig (Elt F)).result W
abbrev set10 (v : main_v10.ty.Contents (Elt F)) (W : Valuation τ sig (Elt F)) : Valuation τ sig (Elt F) :=
  (StableHlo.nullary main_v10 v : HloOp τ sig (Elt F)).result W

/-- The call's three arrays. -/
abbrev scRefs : Finset (DevRef τ sig) := {Proc.devRef .tc main_v9, Proc.devRef .tc main_v3, Proc.devRef .tc main_v10}

theorem scRefs_sub : (scRefs : Finset (DevRef τ sig)) ⊆ Pipeline.ucRefs τ sig := by decide

omit [FloatOps F] in
/-- Those three held at a valuation are the three buffers at its values. -/
theorem held_sc (d : Dev nD) (W : Valuation τ sig (Elt F)) :
    (held (T d) scRefs W : sProp 𝕄)
      = iprop((tLoc d main_v9 ↦{fullShare} W (Proc.devRef .tc main_v9)) ∗ (tLoc d main_v3 ↦{fullShare} W (Proc.devRef .tc main_v3))
          ∗ (tLoc d main_v10 ↦{fullShare} W (Proc.devRef .tc main_v10))) := by
  unfold held scRefs
  rw [SparseCore.bigSep_insert' (by decide), SparseCore.bigSep_insert' (by decide), bigSep_singleton]

set_option backward.isDefEq.respectTransparency.types false in
/-- The call, from every unscoped buffer at `W` whose table satisfies `TabOK` and whose index list is `idxv d`. -/
theorem runStep [∀ e, Nonempty (Elt F e)] (P : (K (F := F)).Pay (nD := nD) (Val := Elt F) (Name := ℕ) (U := UU))
    (TabOK : (d : Dev nD) → main_v9.ty.Contents (Elt F) → Prop) (idxv : (d : Dev nD) → main_v3.ty.Contents (Elt F))
    (Gath : (d : Dev nD) → main_v9.ty.Contents (Elt F) → main_v10.ty.Contents (Elt F) → Prop) (Keep : Dev nD → sProp 𝕄)
    (hst : ∀ (d : Dev nD) (tab : main_v9.ty.Contents (Elt F)) (out0 : main_v10.ty.Contents (Elt F)), TabOK d tab →
      iprop((tLoc d main_v9 ↦{fullShare} tab) ∗ (tLoc d main_v3 ↦{fullShare} idxv d) ∗ (tLoc d main_v10 ↦{fullShare} out0))
        ⊢ iprop(Keep d ∗ bigSep Finset.univ fun c : Fin ((K (F := F)).nCore 0) => P.st 0 d c))
    (hdn : ∀ d : Dev nD, iprop(Keep d ∗ bigSep Finset.univ fun c : Fin ((K (F := F)).nCore 0) => P.dn 0 d c)
        ⊢ iprop(∃ (tab : main_v9.ty.Contents (Elt F)) (g : main_v10.ty.Contents (Elt F)), ⌜TabOK d tab ∧ Gath d tab g⌝
            ∗ (tLoc d main_v9 ↦{fullShare} tab) ∗ (tLoc d main_v3 ↦{fullShare} idxv d) ∗ (tLoc d main_v10 ↦{fullShare} g)))
    (κ : GSem nD τ sig → ℕ) (d : Dev nD) {α : Type}
    (k : PUnit → Prog (TpuEff nD τ sig (Elt F) (SparseCore.Sig (ΛP (F := F)) 1) .tc) α) (Q : α → sProp 𝕄)
    (W : Valuation τ sig (Elt F)) (htab : TabOK d (W (Proc.devRef .tc main_v9))) (hidx : W (Proc.devRef .tc main_v3) = idxv d) :
    iprop((K (F := F)).ctx EH P κ (K (F := F)).lev ∗ (K (F := F)).tcSt EH d 0 ∗ held (T d) (Pipeline.ucRefs τ sig) W)
      ⊢ iprop((iprop((K (F := F)).tcSt EH d 1 ∗ ∃ (tab : main_v9.ty.Contents (Elt F)) (g : main_v10.ty.Contents (Elt F)),
              ⌜TabOK d tab ∧ Gath d tab g⌝ ∗ held (T d) (Pipeline.ucRefs τ sig) (set10 g (set9 tab W)))
            -∗ wp frame (wpE ((K (F := F)).defs (D (F := F))) 𝒱 (T d) none) Set.univ (k ⟨⟩) Q)
          -∗ wp frame (wpE ((K (F := F)).defs (D (F := F))) 𝒱 (T d) none) Set.univ ((K (F := F)).run d 0 >>= k) Q) := by
  rw [wp_bind, held_sub_split (T d) scRefs_sub W, held_sc, hidx]
  iintro ⟨#Hctx, Hst, ⟨H9, H3, H10⟩, Hrest⟩ Hk
  ihave Hs := (hst d _ _ htab) $$ [H9 H3 H10]
  · isplitl [H9]; · iexact H9
    isplitl [H3]; · iexact H3
    iexact H10
  icases Hs with ⟨HK, Hsts⟩
  iapply ((K (F := F)).wp_run (D (F := F)) 𝒱 (EH := EH) (P := P) κ d 0) $$ [Hst Hsts HK Hrest Hk]
  isplitr; · iexact Hctx
  isplitl [Hst]; · iexact Hst
  isplitl [Hsts]; · iexact Hsts
  iintro ⟨Hst1, Hdn⟩
  ihave Hd := (hdn d) $$ [HK Hdn]
  · isplitl [HK]; · iexact HK
    iexact Hdn
  icases Hd with ⟨%tab, %g, %hf, H9, H3, H10⟩
  iapply Hk
  isplitl [Hst1]; · iexact Hst1
  iexists tab, g
  isplitr; · ipureintro; exact hf
  rw [held_sub_split (T d) scRefs_sub (set10 g (set9 tab W)), held_sc]
  have e9 : set10 g (set9 tab W) (Proc.devRef .tc main_v9) = tab :=
    (nullary_result_ne (τ := τ) (y := main_v10) g _ (set9 tab W) (r := main_v9) (by decide)).trans (nullary_result main_v9 tab _ W)
  have e3 : set10 g (set9 tab W) (Proc.devRef .tc main_v3) = idxv d :=
    ((nullary_result_ne (τ := τ) (y := main_v10) g _ (set9 tab W) (r := main_v3) (by decide)).trans
      (nullary_result_ne (τ := τ) (y := main_v9) tab _ W (r := main_v3) (by decide))).trans hidx
  have e10 : set10 g (set9 tab W) (Proc.devRef .tc main_v10) = g := nullary_result main_v10 g _ _
  have erest : (held (T d) (Pipeline.ucRefs τ sig \ scRefs) (set10 g (set9 tab W)) : sProp 𝕄)
      = held (T d) (Pipeline.ucRefs τ sig \ scRefs) W := by
    refine held_congr (T d) fun b hb => ?_
    have hb' := (Finset.mem_sdiff.mp hb).2
    unfold set10 set9
    rw [HloOp.result_of_not_mem _ _ (by rw [nullary_writes, Finset.mem_singleton]; rintro rfl; exact hb' (by decide)),
      HloOp.result_of_not_mem _ _ (by rw [nullary_writes, Finset.mem_singleton]; rintro rfl; exact hb' (by decide))]
  rw [e9, e3, e10, erest]
  isplitl [H9 H3 H10]
  · isplitl [H9]; · iexact H9
    isplitl [H3]; · iexact H3
    iexact H10
  iexact Hrest

/-! ## The handshake state: the debt term and the rest -/

/-- What the handshake state before call `n` holds besides the TensorCore's debt term. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : (K (F := F)).tcSt EH d n = iprop(owesTc (F := F) d n ∗ tcRest (F := F) d n) := rfl

/-! ## The valuations -/

variable (m : (ℓ : Loc nD τ sig) → Buf (Elt F) ℓ) (g : Dev nD → PrngReg)

/-- Device `d`'s buffers at launch. -/
abbrev W0 (d : Dev nD) : Valuation τ sig (Elt F) := fun b => m (d, b)

/-- A valuation read at the TensorCore's references, on every device. -/
abbrev valsOf (W : Valuation τ sig (Elt F)) : Vals F := fun _ b => W b

/-- The buffers when the first call is entered, -/
abbrev V1 (d : Dev nD) : Valuation τ sig (Elt F) := WA (F := F) (W0 m d)
/-- when the SparseCore call is reached, the first call having left `f8` in the packed words, -/
abbrev V3 (d : Dev nD) (f8 : main_v8.ty.Contents (Elt F)) : Valuation τ sig (Elt F) := WB (F := F) (set8 f8 (V1 m d))
/-- and when the second call is entered, the SparseCores having handed back `tab` and `gth`. -/
abbrev V5 (d : Dev nD) (f8 : main_v8.ty.Contents (Elt F)) (tab : main_v9.ty.Contents (Elt F)) (gth : main_v10.ty.Contents (Elt F)) :
    Valuation τ sig (Elt F) :=
  WC (F := F) (set10 gth (set9 tab (V3 m d f8)))

/-- What is known of the three witnesses. -/
def Chain (TabOK : (d : Dev nD) → main_v9.ty.Contents (Elt F) → Prop)
    (Gath : (d : Dev nD) → main_v9.ty.Contents (Elt F) → main_v10.ty.Contents (Elt F) → Prop)
    (d : Dev nD) (f8 : main_v8.ty.Contents (Elt F)) (tab : main_v9.ty.Contents (Elt F)) (gth : main_v10.ty.Contents (Elt F)) : Prop :=
  (rdats (rd0 (valsOf (V1 m d))) (valsOf (V1 m d)) 0 d).ArrAt 1 cfg0.N f8 ∧ TabOK d tab ∧ Gath d tab gth

/-- What @main ends holding on device `d`: the second call's arrays at contents its write-backs may leave, every other
    unscoped buffer as that call found it. -/
def FINd (TabOK : (d : Dev nD) → main_v9.ty.Contents (Elt F) → Prop)
    (Gath : (d : Dev nD) → main_v9.ty.Contents (Elt F) → main_v10.ty.Contents (Elt F) → Prop) (d : Dev nD) : sProp 𝕄 :=
  iprop(∃ (f8 : main_v8.ty.Contents (Elt F)) (tab : main_v9.ty.Contents (Elt F)) (gth : main_v10.ty.Contents (Elt F)),
    ⌜Chain m TabOK Gath d f8 tab gth⌝
      ∗ (rdatsV (rd0 (valsOf (V1 m d))) (valsOf (V5 m d f8 tab gth)) 1 d).arraysAt cfg2.N
      ∗ Pipeline.unscopedRest spec2 d (valsOf (V5 m d f8 tab gth) d))

/-! ## The two region records' thread states, and the program's tail -/

theorem reg0_pre (W0v W1v : Vals F) (d : Dev nD) : (reg0 (F := F) W0v W1v).pre d = iprop(unscopedBufs d (W0v d) ∗ owesTc (F := F) d 0) := rfl
theorem reg1V_pre (rdz : (c : Dev nD) → RDat τ (Elt F) (HIx 1) ℕ UU ℕ cfg0 c) (W1v : Vals F) (d : Dev nD) :
    (reg1V (F := F) rdz W1v).pre d = iprop(unscopedBufs d (W1v d) ∗ owesTc (F := F) d 1) := rfl

/-- The last statement of @main after its last call. -/
theorem wp_tail [∀ e, Nonempty (Elt F e)] (d : Dev nD) (Q : PUnit → sProp 𝕄) :
    Q ⟨⟩ ⊢ wp frame (wpE ((K (F := F)).defs (D (F := F))) 𝒱 (T d) none) Set.univ
      ((Prog.ret PUnit.unit : Prog (TpuEff nD τ sig (Elt F) (SparseCore.Sig (ΛP (F := F)) 1) .tc) PUnit).bind fun _ => Pure.pure PUnit.unit) Q := by
  show Q ⟨⟩ ⊢ wp frame _ Set.univ (Prog.ret PUnit.unit) Q
  rw [wp_ret]
  iintro H
  imodintro
  iexact H

/-! ## @main -/

set_option backward.isDefEq.respectTransparency.types false in
set_option maxHeartbeats 1600000 in
theorem hmain [∀ e, Nonempty (Elt F e)] (P : (K (F := F)).Pay (nD := nD) (Val := Elt F) (Name := ℕ) (U := UU))
    (TabOK : (d : Dev nD) → main_v9.ty.Contents (Elt F) → Prop) (idxv : (d : Dev nD) → main_v3.ty.Contents (Elt F))
    (Gath : (d : Dev nD) → main_v9.ty.Contents (Elt F) → main_v10.ty.Contents (Elt F) → Prop) (Keep : Dev nD → sProp 𝕄)
    (hst : ∀ (d : Dev nD) (tab : main_v9.ty.Contents (Elt F)) (out0 : main_v10.ty.Contents (Elt F)), TabOK d tab →
      iprop((tLoc d main_v9 ↦{fullShare} tab) ∗ (tLoc d main_v3 ↦{fullShare} idxv d) ∗ (tLoc d main_v10 ↦{fullShare} out0))
        ⊢ iprop(Keep d ∗ bigSep Finset.univ fun c : Fin ((K (F := F)).nCore 0) => P.st 0 d c))
    (hdn : ∀ d : Dev nD, iprop(Keep d ∗ bigSep Finset.univ fun c : Fin ((K (F := F)).nCore 0) => P.dn 0 d c)
        ⊢ iprop(∃ (tab : main_v9.ty.Contents (Elt F)) (gth : main_v10.ty.Contents (Elt F)), ⌜TabOK d tab ∧ Gath d tab gth⌝
            ∗ (tLoc d main_v9 ↦{fullShare} tab) ∗ (tLoc d main_v3 ↦{fullShare} idxv d) ∗ (tLoc d main_v10 ↦{fullShare} gth)))
    (htab : ∀ (d : Dev nD) (f8 : main_v8.ty.Contents (Elt F)),
      (rdats (rd0 (valsOf (V1 m d))) (valsOf (V1 m d)) 0 d).ArrAt 1 cfg0.N f8 → TabOK d (V3 m d f8 (Proc.devRef .tc main_v9)))
    (hidx : ∀ (d : Dev nD) (f8 : main_v8.ty.Contents (Elt F)), V3 m d f8 (Proc.devRef .tc main_v3) = idxv d)
    (κ : GSem nD τ sig → ℕ) (d : Dev nD) :
    iprop((K (F := F)).ctx EH P κ (K (F := F)).lev ∗ (K (F := F)).tcSt EH d 0 ∗ (K (F := F)).tcRes m g d ∗ G (F := F) d)
      ⊢ wp frame (wpE ((K (F := F)).defs (D (F := F))) 𝒱 (T d) none) Set.univ (main d)
          fun _ => iprop((K (F := F)).tcSt EH d 1 ∗ FINd m TabOK Gath d) := by
  rw [main_eq, tcSt_eq, tcSt_eq]
  unfold SparseCore.Cfg.tcRes G
  iintro ⟨#Hctx, ⟨HO, Hrest⟩, ⟨Hb, Hu, -, -⟩, HG⟩
  ihave #Hlev := ((K (F := F)).ctx_levAts κ) $$ Hctx
  ihave Hh := (Entails.of_eq (Pipeline.unscopedBufs_held (Ix := HIx 1) (Name := ℕ) (U := UU) (Lvl := ℕ) (Val := Elt F) d (W0 m d))) $$ Hu
  -- the host operations before the first call
  iapply (hostA d none _ _ (W0 m d)) $$ [Hb Hh]
  · isplitl [Hb] <;> iassumption
  iintro ⟨Hb, Hh⟩
  -- the first call
  ihave Hu := (Entails.of_eq (Pipeline.unscopedBufs_held (Ix := HIx 1) (Name := ℕ) (U := UU) (Lvl := ℕ) (Val := Elt F) d (V1 m d)).symm) $$ Hh
  iapply (regionStep (rdats (rd0 (valsOf (V1 m d))) (valsOf (V1 m d))) (reg0 (valsOf (V1 m d)) (valsOf (V1 m d))) Finset.univ (Finset.mem_univ _) d _ _)
    $$ [Hb Hu HO HG]
  · isplitr; · iexact Hlev
    isplitl [Hb]; · iexact Hb
    isplitl [Hu HO]
    · rw [reg0_pre]
      isplitl [Hu] <;> iassumption
    iexact HG
  iintro ⟨Hb, Hpost, HG⟩
  ihave Hpost := (show (reg0 (F := F) (valsOf (V1 m d)) (valsOf (V1 m d))).post d ⊢ iprop(∃ f8 : Buf (Elt F) ((d : Thread nD τ).loc main_v8),
      ⌜(rdats (rd0 (valsOf (V1 m d))) (valsOf (V1 m d)) 0 d).ArrAt 1 cfg0.N f8⌝ ∗ unscopedBufs d (setV8 d (valsOf (V1 m d) d) f8) ∗ owesTc (F := F) d 0)
      from .rfl) $$ Hpost
  icases Hpost with ⟨%f8, %hf8, Hu, HO⟩
  have e8 : setV8 d (valsOf (V1 m d) d) f8 = fun b : Ref sig .tc => set8 f8 (V1 m d) b := by
    funext b
    by_cases hb : b = main_v8
    · subst hb; rw [setV8_v8]; exact (nullary_result _ _ _ _).symm
    · rw [setV8_ne _ _ _ hb]; exact (nullary_result_ne (τ := τ) (y := main_v8) f8 _ (V1 m d) (r := b) hb).symm
  rw [e8]
  ihave Hh := (Entails.of_eq (Pipeline.unscopedBufs_held (Ix := HIx 1) (Name := ℕ) (U := UU) (Lvl := ℕ) (Val := Elt F) d (set8 f8 (V1 m d)))) $$ Hu
  -- the host operation between the first call and the SparseCore call
  iapply (hostB d none _ _ (set8 f8 (V1 m d))) $$ [Hb Hh]
  · isplitl [Hb] <;> iassumption
  iintro ⟨Hb, Hh⟩
  -- the SparseCore call
  ihave Hst := (Entails.of_eq (tcSt_eq (F := F) d 0).symm) $$ [HO Hrest]
  · isplitl [HO] <;> iassumption
  iapply (runStep P TabOK idxv Gath Keep hst hdn κ d _ _ (V3 m d f8) (htab d f8 hf8) (hidx d f8)) $$ [Hst Hh]
  · isplitr; · iexact Hctx
    isplitl [Hst] <;> iassumption
  iintro ⟨Hst, %tab, %gth, %hfacts, Hh⟩
  ihave Hst := (Entails.of_eq (tcSt_eq (F := F) d 1)) $$ Hst
  icases Hst with ⟨HO, Hrest⟩
  -- the host operations after it
  iapply (hostC d none _ _ (set10 gth (set9 tab (V3 m d f8)))) $$ [Hb Hh]
  · isplitl [Hb] <;> iassumption
  iintro ⟨Hb, Hh⟩
  -- the second call
  ihave Hu := (Entails.of_eq (Pipeline.unscopedBufs_held (Ix := HIx 1) (Name := ℕ) (U := UU) (Lvl := ℕ) (Val := Elt F) d (V5 m d f8 tab gth)).symm) $$ Hh
  iapply (regionStep (rdatsV (rd0 (valsOf (V1 m d))) (valsOf (V5 m d f8 tab gth))) (reg1V (rd0 (valsOf (V1 m d))) (valsOf (V5 m d f8 tab gth)))
      (Finset.univ.erase 0) (by decide) d _ _) $$ [Hb Hu HO HG]
  · isplitr; · iexact Hlev
    isplitl [Hb]; · iexact Hb
    isplitl [Hu HO]
    · rw [reg1V_pre]
      isplitl [Hu] <;> iassumption
    iexact HG
  iintro ⟨-, Hpost, -⟩
  ihave Hpost := (show (reg1V (F := F) (rd0 (valsOf (V1 m d))) (valsOf (V5 m d f8 tab gth))).post d
      ⊢ iprop((rdatsV (rd0 (valsOf (V1 m d))) (valsOf (V5 m d f8 tab gth)) 1 d).arraysAt cfg2.N
          ∗ Pipeline.unscopedRest spec2 d (valsOf (V5 m d f8 tab gth) d) ∗ owesTc (F := F) d 1) from .rfl) $$ Hpost
  icases Hpost with ⟨Ha, Hr, HO⟩
  iapply (wp_tail d _)
  isplitl [HO Hrest]
  · isplitl [HO] <;> iassumption
  unfold FINd
  iexists f8, tab, gth
  isplitr; · ipureintro; exact ⟨hf8, hfacts.1, hfacts.2⟩
  isplitl [Ha] <;> iassumption

/-! ## No step writes an argument array -/

theorem V5_main_arg0 (d : Dev nD) (f8 : main_v8.ty.Contents (Elt F)) (tab : main_v9.ty.Contents (Elt F)) (gth : main_v10.ty.Contents (Elt F)) :
    V5 m d f8 tab gth (Proc.devRef .tc main_arg0) = m (d, Proc.devRef .tc main_arg0) :=
  calc V5 m d f8 tab gth (Proc.devRef .tc main_arg0)
    _ = set10 gth (set9 tab (V3 m d f8)) (Proc.devRef .tc main_arg0) :=
        StableHlo.after_of_forall_not_mem (b := Proc.devRef .tc main_arg0) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg0) := nullary_result_ne (τ := τ) (y := main_v10) gth _ _ (r := main_arg0) (by decide)
    _ = V3 m d f8 (Proc.devRef .tc main_arg0) := nullary_result_ne (τ := τ) (y := main_v9) tab _ _ (r := main_arg0) (by decide)
    _ = set8 f8 (V1 m d) (Proc.devRef .tc main_arg0) :=
        StableHlo.after_of_forall_not_mem (b := Proc.devRef .tc main_arg0) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg0) := nullary_result_ne (τ := τ) (y := main_v8) f8 _ _ (r := main_arg0) (by decide)
    _ = W0 m d (Proc.devRef .tc main_arg0) :=
        StableHlo.after_of_forall_not_mem (b := Proc.devRef .tc main_arg0) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg0) := rfl

theorem V5_main_arg1 (d : Dev nD) (f8 : main_v8.ty.Contents (Elt F)) (tab : main_v9.ty.Contents (Elt F)) (gth : main_v10.ty.Contents (Elt F)) :
    V5 m d f8 tab gth (Proc.devRef .tc main_arg1) = m (d, Proc.devRef .tc main_arg1) :=
  calc V5 m d f8 tab gth (Proc.devRef .tc main_arg1)
    _ = set10 gth (set9 tab (V3 m d f8)) (Proc.devRef .tc main_arg1) :=
        StableHlo.after_of_forall_not_mem (b := Proc.devRef .tc main_arg1) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg1) := nullary_result_ne (τ := τ) (y := main_v10) gth _ _ (r := main_arg1) (by decide)
    _ = V3 m d f8 (Proc.devRef .tc main_arg1) := nullary_result_ne (τ := τ) (y := main_v9) tab _ _ (r := main_arg1) (by decide)
    _ = set8 f8 (V1 m d) (Proc.devRef .tc main_arg1) :=
        StableHlo.after_of_forall_not_mem (b := Proc.devRef .tc main_arg1) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg1) := nullary_result_ne (τ := τ) (y := main_v8) f8 _ _ (r := main_arg1) (by decide)
    _ = W0 m d (Proc.devRef .tc main_arg1) :=
        StableHlo.after_of_forall_not_mem (b := Proc.devRef .tc main_arg1) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg1) := rfl

theorem V5_main_arg2 (d : Dev nD) (f8 : main_v8.ty.Contents (Elt F)) (tab : main_v9.ty.Contents (Elt F)) (gth : main_v10.ty.Contents (Elt F)) :
    V5 m d f8 tab gth (Proc.devRef .tc main_arg2) = m (d, Proc.devRef .tc main_arg2) :=
  calc V5 m d f8 tab gth (Proc.devRef .tc main_arg2)
    _ = set10 gth (set9 tab (V3 m d f8)) (Proc.devRef .tc main_arg2) :=
        StableHlo.after_of_forall_not_mem (b := Proc.devRef .tc main_arg2) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg2) := nullary_result_ne (τ := τ) (y := main_v10) gth _ _ (r := main_arg2) (by decide)
    _ = V3 m d f8 (Proc.devRef .tc main_arg2) := nullary_result_ne (τ := τ) (y := main_v9) tab _ _ (r := main_arg2) (by decide)
    _ = set8 f8 (V1 m d) (Proc.devRef .tc main_arg2) :=
        StableHlo.after_of_forall_not_mem (b := Proc.devRef .tc main_arg2) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg2) := nullary_result_ne (τ := τ) (y := main_v8) f8 _ _ (r := main_arg2) (by decide)
    _ = W0 m d (Proc.devRef .tc main_arg2) :=
        StableHlo.after_of_forall_not_mem (b := Proc.devRef .tc main_arg2) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg2) := rfl

theorem V5_main_arg3 (d : Dev nD) (f8 : main_v8.ty.Contents (Elt F)) (tab : main_v9.ty.Contents (Elt F)) (gth : main_v10.ty.Contents (Elt F)) :
    V5 m d f8 tab gth (Proc.devRef .tc main_arg3) = m (d, Proc.devRef .tc main_arg3) :=
  calc V5 m d f8 tab gth (Proc.devRef .tc main_arg3)
    _ = set10 gth (set9 tab (V3 m d f8)) (Proc.devRef .tc main_arg3) :=
        StableHlo.after_of_forall_not_mem (b := Proc.devRef .tc main_arg3) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg3) := nullary_result_ne (τ := τ) (y := main_v10) gth _ _ (r := main_arg3) (by decide)
    _ = V3 m d f8 (Proc.devRef .tc main_arg3) := nullary_result_ne (τ := τ) (y := main_v9) tab _ _ (r := main_arg3) (by decide)
    _ = set8 f8 (V1 m d) (Proc.devRef .tc main_arg3) :=
        StableHlo.after_of_forall_not_mem (b := Proc.devRef .tc main_arg3) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg3) := nullary_result_ne (τ := τ) (y := main_v8) f8 _ _ (r := main_arg3) (by decide)
    _ = W0 m d (Proc.devRef .tc main_arg3) :=
        StableHlo.after_of_forall_not_mem (b := Proc.devRef .tc main_arg3) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg3) := rfl

theorem V5_main_arg4 (d : Dev nD) (f8 : main_v8.ty.Contents (Elt F)) (tab : main_v9.ty.Contents (Elt F)) (gth : main_v10.ty.Contents (Elt F)) :
    V5 m d f8 tab gth (Proc.devRef .tc main_arg4) = m (d, Proc.devRef .tc main_arg4) :=
  calc V5 m d f8 tab gth (Proc.devRef .tc main_arg4)
    _ = set10 gth (set9 tab (V3 m d f8)) (Proc.devRef .tc main_arg4) :=
        StableHlo.after_of_forall_not_mem (b := Proc.devRef .tc main_arg4) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg4) := nullary_result_ne (τ := τ) (y := main_v10) gth _ _ (r := main_arg4) (by decide)
    _ = V3 m d f8 (Proc.devRef .tc main_arg4) := nullary_result_ne (τ := τ) (y := main_v9) tab _ _ (r := main_arg4) (by decide)
    _ = set8 f8 (V1 m d) (Proc.devRef .tc main_arg4) :=
        StableHlo.after_of_forall_not_mem (b := Proc.devRef .tc main_arg4) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg4) := nullary_result_ne (τ := τ) (y := main_v8) f8 _ _ (r := main_arg4) (by decide)
    _ = W0 m d (Proc.devRef .tc main_arg4) :=
        StableHlo.after_of_forall_not_mem (b := Proc.devRef .tc main_arg4) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg4) := rfl

theorem V5_main_arg5 (d : Dev nD) (f8 : main_v8.ty.Contents (Elt F)) (tab : main_v9.ty.Contents (Elt F)) (gth : main_v10.ty.Contents (Elt F)) :
    V5 m d f8 tab gth (Proc.devRef .tc main_arg5) = m (d, Proc.devRef .tc main_arg5) :=
  calc V5 m d f8 tab gth (Proc.devRef .tc main_arg5)
    _ = set10 gth (set9 tab (V3 m d f8)) (Proc.devRef .tc main_arg5) :=
        StableHlo.after_of_forall_not_mem (b := Proc.devRef .tc main_arg5) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = set9 tab (V3 m d f8) (Proc.devRef .tc main_arg5) := nullary_result_ne (τ := τ) (y := main_v10) gth _ _ (r := main_arg5) (by decide)
    _ = V3 m d f8 (Proc.devRef .tc main_arg5) := nullary_result_ne (τ := τ) (y := main_v9) tab _ _ (r := main_arg5) (by decide)
    _ = set8 f8 (V1 m d) (Proc.devRef .tc main_arg5) :=
        StableHlo.after_of_forall_not_mem (b := Proc.devRef .tc main_arg5) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = V1 m d (Proc.devRef .tc main_arg5) := nullary_result_ne (τ := τ) (y := main_v8) f8 _ _ (r := main_arg5) (by decide)
    _ = W0 m d (Proc.devRef .tc main_arg5) :=
        StableHlo.after_of_forall_not_mem (b := Proc.devRef .tc main_arg5) _ _ (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide)))
    _ = m (d, Proc.devRef .tc main_arg5) := rfl

/-! ## The final memory -/

variable (TabOK : (d : Dev nD) → main_v9.ty.Contents (Elt F) → Prop)
  (Gath : (d : Dev nD) → main_v9.ty.Contents (Elt F) → main_v10.ty.Contents (Elt F) → Prop)

/-- What the final memory is known to hold on device `d`: for some witnesses of the three calls, the second call's
    arrays at contents its write-backs may leave, and four argument arrays outside that call at the last valuation. -/
def fqd (d : Dev nD) (M : MemSt nD τ sig (Elt F)) : Prop :=
  ∃ (f8 : main_v8.ty.Contents (Elt F)) (tab : main_v9.ty.Contents (Elt F)) (gth : main_v10.ty.Contents (Elt F)),
    Chain m TabOK Gath d f8 tab gth
    ∧ (∀ w, (rdatsV (rd0 (valsOf (V1 m d))) (valsOf (V5 m d f8 tab gth)) 1 d).ArrAt w cfg2.N
          (M.mem (((Pipeline.pin (pcfgs (F := F)) adm 1).spec w).arr.view.loc (d.tc : Thread nD τ))))
    ∧ M.mem (tLoc d main_arg0) = V5 m d f8 tab gth (Proc.devRef .tc main_arg0)
    ∧ M.mem (tLoc d main_arg1) = V5 m d f8 tab gth (Proc.devRef .tc main_arg1)
    ∧ M.mem (tLoc d main_arg2) = V5 m d f8 tab gth (Proc.devRef .tc main_arg2)
    ∧ M.mem (tLoc d main_arg5) = V5 m d f8 tab gth (Proc.devRef .tc main_arg5)

set_option backward.isDefEq.respectTransparency.types false in
theorem hfind [∀ e, Nonempty (Elt F e)] (d : Dev nD) (s' : Phys nD τ sig (Elt F)) :
    iprop(FINd m TabOK Gath d ∗ SI s') ⊢ (⌜fqd m TabOK Gath d s'.mem⌝ : sProp 𝕄) := by
  unfold FINd
  iintro ⟨⟨%f8, %tab, %gth, %hc, Ha, Hr⟩, HSI⟩
  ihave H := (Pipeline.RDat.arrays_read (pcfgs (F := F)) adm (rdatsV (rd0 (valsOf (V1 m d))) (valsOf (V5 m d f8 tab gth))) (p := 1)
    launch2.arr_whole d cfg2.N s') $$ [Ha HSI]
  · isplitl [Ha] <;> iassumption
  icases H with ⟨%harr, HSI⟩
  ihave Hr := (Entails.of_eq (unscopedRest2_eq (Ix := HIx 1) (Val := Elt F) (Name := ℕ) (U := UU) (Lvl := ℕ) d (valsOf (V5 m d f8 tab gth) d))) $$ Hr
  icases Hr with ⟨H0, H1, H2, H5, -⟩
  ihave H := (agree_keep s' _ _) $$ [HSI H0]
  · isplitl [HSI] <;> iassumption
  icases H with ⟨%h0, HSI⟩
  ihave H := (agree_keep s' _ _) $$ [HSI H1]
  · isplitl [HSI] <;> iassumption
  icases H with ⟨%h1, HSI⟩
  ihave H := (agree_keep s' _ _) $$ [HSI H2]
  · isplitl [HSI] <;> iassumption
  icases H with ⟨%h2, HSI⟩
  ihave H := (agree_keep s' _ _) $$ [HSI H5]
  · isplitl [HSI] <;> iassumption
  icases H with ⟨%h5, -⟩
  ipureintro
  exact ⟨f8, tab, gth, hc, harr, h0, h1, h2, h5⟩

/-- The six argument arrays end as launched. -/
theorem fqd_args (d : Dev nD) (M : MemSt nD τ sig (Elt F)) (h : fqd m TabOK Gath d M) :
    M.mem ((d.tc : Thread nD τ).loc main_arg0) = m ((d.tc : Thread nD τ).loc main_arg0)
    ∧ M.mem ((d.tc : Thread nD τ).loc main_arg1) = m ((d.tc : Thread nD τ).loc main_arg1)
    ∧ M.mem ((d.tc : Thread nD τ).loc main_arg2) = m ((d.tc : Thread nD τ).loc main_arg2)
    ∧ M.mem ((d.tc : Thread nD τ).loc main_arg3) = m ((d.tc : Thread nD τ).loc main_arg3)
    ∧ M.mem ((d.tc : Thread nD τ).loc main_arg4) = m ((d.tc : Thread nD τ).loc main_arg4)
    ∧ M.mem ((d.tc : Thread nD τ).loc main_arg5) = m ((d.tc : Thread nD τ).loc main_arg5) := by
  obtain ⟨f8, tab, gth, -, harr, h0, h1, h2, h5⟩ := h
  have h3 := harr 0
  have h4 := harr 4
  rw [RDat.ArrAt_in _ 0 rfl] at h3
  rw [RDat.ArrAt_in _ 4 rfl] at h4
  exact ⟨h0.trans (V5_main_arg0 m d f8 tab gth), h1.trans (V5_main_arg1 m d f8 tab gth), h2.trans (V5_main_arg2 m d f8 tab gth),
    h3.trans (V5_main_arg3 m d f8 tab gth), h4.trans (V5_main_arg4 m d f8 tab gth), h5.trans (V5_main_arg5 m d f8 tab gth)⟩

/-! ## The run -/

set_option backward.isDefEq.respectTransparency.types false in
/-- Every weakly fair execution of the 35 threads terminates, nothing faulting, and the final memory is as `fqd` says
    on every device — from the task obligation, the split of a SparseCore's operands among its tiles, and the two facts
    about what the SparseCore call takes and hands back. -/
theorem run_main [∀ e, Nonempty (Elt F e)] (P : (K (F := F)).Pay (nD := nD) (Val := Elt F) (Name := ℕ) (U := UU)) [P.IsStorable]
    (hx : ∀ q thr, P.x q thr = iprop(emp)) (hheld : P.held = ∅)
    (htile : (K (F := F)).TileObl (D (F := F)) 𝒱 P v₀ 0) (hvec : (K (F := F)).VecSplit P 0)
    (idxv : (d : Dev nD) → main_v3.ty.Contents (Elt F)) (Keep : Dev nD → sProp 𝕄)
    (hst : ∀ (d : Dev nD) (tab : main_v9.ty.Contents (Elt F)) (out0 : main_v10.ty.Contents (Elt F)), TabOK d tab →
      iprop((tLoc d main_v9 ↦{fullShare} tab) ∗ (tLoc d main_v3 ↦{fullShare} idxv d) ∗ (tLoc d main_v10 ↦{fullShare} out0))
        ⊢ iprop(Keep d ∗ bigSep Finset.univ fun c : Fin ((K (F := F)).nCore 0) => P.st 0 d c))
    (hdn : ∀ d : Dev nD, iprop(Keep d ∗ bigSep Finset.univ fun c : Fin ((K (F := F)).nCore 0) => P.dn 0 d c)
        ⊢ iprop(∃ (tab : main_v9.ty.Contents (Elt F)) (gth : main_v10.ty.Contents (Elt F)), ⌜TabOK d tab ∧ Gath d tab gth⌝
            ∗ (tLoc d main_v9 ↦{fullShare} tab) ∗ (tLoc d main_v3 ↦{fullShare} idxv d) ∗ (tLoc d main_v10 ↦{fullShare} gth)))
    (htab : ∀ (d : Dev nD) (f8 : main_v8.ty.Contents (Elt F)),
      (rdats (rd0 (valsOf (V1 m d))) (valsOf (V1 m d)) 0 d).ArrAt 1 cfg0.N f8 → TabOK d (V3 m d f8 (Proc.devRef .tc main_v9)))
    (hidx : ∀ (d : Dev nD) (f8 : main_v8.ty.Contents (Elt F)), V3 m d f8 (Proc.devRef .tc main_v3) = idxv d) :
    θ_run ((K (F := F)).defs (D (F := F))) ((K (F := F)).threads main) ⟨m, fun _ => 0, g⟩
      (fun r => ∀ d : Dev nD, fqd m TabOK Gath d r.2) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m g main (G (F := F)) (FINd m TabOK Gath) (u₀ (F := F)) (hu₀ P hx)
    (hmain m g P TabOK idxv Gath Keep hst hdn htab hidx)
    (fun d s' => fqd m TabOK Gath d s'.mem) (hfind m TabOK Gath)
    (fun r => ∀ d : Dev nD, fqd m TabOK Gath d r.2) (fun _ h => h) hheld

/-! ## The frame -/

/-- The index list the SparseCores are handed: a function of the launch memory's neighbour slots. -/
abbrev idxv (d : Dev nD) : main_v3.ty.Contents (Elt F) := idxF (m (d, Proc.devRef .tc main_arg1))

/-- It is what the buffer holds when the SparseCore call is reached, whatever the first call left in the packed words. -/
theorem V3_v3 (d : Dev nD) (f8 : main_v8.ty.Contents (Elt F)) : V3 m d f8 (Proc.devRef .tc main_v3) = idxv m d :=
  ((WB_v3 (F := F) (set8 f8 (V1 m d))).trans (nullary_result_ne (τ := τ) (y := main_v8) f8 _ (V1 m d) (r := main_v3) (by decide))).trans
    (WA_v3 (F := F) (W0 m d))

set_option backward.isDefEq.respectTransparency.types false in
/-- The run, from the one fact the tasks' checks need. -/
theorem run_args [∀ e, Nonempty (Elt F e)] (hadj : ∀ (d : Dev nD) (i : S100000x8.Idx), ((m (d, Proc.devRef .tc main_arg1) : IVec S100000x8 32) i).toNat < 100000) :
    θ_run ((K (F := F)).defs (D (F := F))) ((K (F := F)).threads main) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run ((K (F := F)).defs (D (F := F))) _ _).mono
    (fun r h c => fqd_args m (fun _ _ => True) (fun _ _ _ => True) c r.2 (h c))
    (run_main m g (fun _ _ => True) (fun _ _ _ => True) (Cert.ScTask.P (fun _ _ => True) (idxv m)) (fun _ _ => rfl) rfl
      (Cert.ScTask.tileObl (fun _ _ => True) (idxv m) facts (fun d j => idxF_lt _ (hadj d) j))
      (SparseCore.Cfg.VecSplit.of_plain (Cert.ScTask.vecSplit (fun _ _ => True) (idxv m)))
      (idxv m) (Cert.ScTask.Keep (idxv m))
      (fun d tab out0 h => Cert.ScTask.st_intro (fun _ _ => True) (idxv m) d tab out0 h)
      (fun d => (Cert.ScTask.dn_elim (fun _ _ => True) (idxv m) d).trans (by
        iintro ⟨%tab, %gth, %hf, H⟩
        iexists tab, gth
        isplitr; · ipureintro; exact ⟨trivial, trivial⟩
        iexact H))
      (fun _ _ _ => trivial) (V3_v3 m))

end Cert.KV

end
-- ==== Proof.V5Vals.lean ====
/-
  What the buffers the second call reads hold when it is entered, in terms of the launch memory and of what the first
  call and the SparseCores handed back: the gathered words slot-major, the validity flags slot-major, the read-out
  nodes' own packed words in blocks, the bias as a row; and the flat table the SparseCores were handed.
-/
import proofs.«203813_g3255585210786_cont_8to1_b_763_8_alg».proof.Proof.HMainV

noncomputable section

namespace Cert.KV

open Cert.KernelIdeal Cert.KernelIdeal.Gen Cert.KI
open Idealize.ShloMosaic Idealize.ShloMosaic.StableHlo
open Idealize.ShloMosaic.TcCoe

variable {F : FTy → Type} [FloatOps F]
variable (m : (ℓ : Loc nD τ sig) → Buf (Elt F) ℓ)
variable (d : Dev nD) (f8 : main_v8.ty.Contents (Elt F)) (tab : main_v9.ty.Contents (Elt F)) (gth : main_v10.ty.Contents (Elt F))

/-- The flat table at the SparseCore call: the packed words viewed as one list. -/
theorem V3_v9 : (V3 m d f8 (Proc.devRef .tc main_v9) : S100352.Idx → BitVec 32)
    = shapeCast S100352 (f8 : S49x16x128.Idx → BitVec 32) shapeCasts_S49x16x128_S100352 := by
  rw [show V3 m d f8 = WB (F := F) (set8 f8 (V1 m d)) from rfl, WB_v9]
  rw [show set8 f8 (V1 m d) (Proc.devRef .tc main_v8) = f8 from nullary_result main_v8 f8 _ _]

/-- The gathered words, slot-major. -/
theorem V5_v11 : (V5 m d f8 tab gth (Proc.devRef .tc main_v11) : S8x99328.Idx → BitVec 32)
    = shapeCast S8x99328 (gth : S794624.Idx → BitVec 32) shapeCasts_S794624_S8x99328 := by
  rw [show V5 m d f8 tab gth = WC (F := F) (set10 gth (set9 tab (V3 m d f8))) from rfl, WC_v11]
  rw [show set10 gth (set9 tab (V3 m d f8)) (Proc.devRef .tc main_v10) = gth from nullary_result main_v10 gth _ _]

/-- The read-out nodes' own packed words, in blocks. -/
theorem V5_v13 : (V5 m d f8 tab gth (Proc.devRef .tc main_v13) : S97x8x128.Idx → BitVec 32)
    = shapeCast S97x8x128 (extractStridedSlice S99328 ![1024] (tab : S100352.Idx → BitVec 32) slices_S100352_S99328_1024) shapeCasts_S99328_S97x8x128 := by
  rw [show V5 m d f8 tab gth = WC (F := F) (set10 gth (set9 tab (V3 m d f8))) from rfl, WC_v13]
  rw [show set10 gth (set9 tab (V3 m d f8)) (Proc.devRef .tc main_v9) = tab from
    (nullary_result_ne (τ := τ) (y := main_v10) gth _ (set9 tab (V3 m d f8)) (r := main_v9) (by decide)).trans (nullary_result main_v9 tab _ _)]

/-- A buffer written before the first call only keeps its contents to the end. -/
theorem V5_of_V1 (b : Ref sig .tc) (hC : ∀ op ∈ opsC (F := F), Proc.devRef .tc b ∉ op.writes) (hB : ∀ op ∈ opsB (F := F), Proc.devRef .tc b ∉ op.writes)
    (h8 : b ≠ main_v8) (h9 : b ≠ main_v9) (h10 : b ≠ main_v10) :
    V5 m d f8 tab gth (Proc.devRef .tc b) = V1 m d (Proc.devRef .tc b) :=
  calc V5 m d f8 tab gth (Proc.devRef .tc b)
    _ = set10 gth (set9 tab (V3 m d f8)) (Proc.devRef .tc b) := StableHlo.after_of_forall_not_mem (b := Proc.devRef .tc b) _ _ hC
    _ = set9 tab (V3 m d f8) (Proc.devRef .tc b) := nullary_result_ne (τ := τ) (y := main_v10) gth _ _ (r := b) h10
    _ = V3 m d f8 (Proc.devRef .tc b) := nullary_result_ne (τ := τ) (y := main_v9) tab _ _ (r := b) h9
    _ = set8 f8 (V1 m d) (Proc.devRef .tc b) := StableHlo.after_of_forall_not_mem (b := Proc.devRef .tc b) _ _ hB
    _ = V1 m d (Proc.devRef .tc b) := nullary_result_ne (τ := τ) (y := main_v8) f8 _ _ (r := b) h8

/-- The validity flags, slot-major. -/
theorem V5_v6 : (V5 m d f8 tab gth (Proc.devRef .tc main_v6) : S8x99328.Idx → BitVec 32) = slotMajor (m (d, Proc.devRef .tc main_arg2)) :=
  (V5_of_V1 m d f8 tab gth main_v6 (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide))) (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide))) (by decide) (by decide) (by decide)).trans (WA_v6 (F := F) (W0 m d))

/-- The bias as a row. -/
theorem V5_v7 : (V5 m d f8 tab gth (Proc.devRef .tc main_v7) : S1x128.Idx → F .f32)
    = shapeCast S1x128 (m (d, Proc.devRef .tc main_arg5) : S128.Idx → F .f32) shapeCasts_S128_S1x128 :=
  (V5_of_V1 m d f8 tab gth main_v7 (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide))) (List.forall_iff_forall_mem.mp (by
      simp only [List.Forall, StableHlo.nullary_writes, StableHlo.unary_writes, StableHlo.binary_writes, StableHlo.reshape_writes, Finset.mem_singleton]
      repeat' apply And.intro
      all_goals exact StableHlo.devRef_ne_of_ne (by decide))) (by decide) (by decide) (by decide)).trans (WA_v7 (F := F) (W0 m d))

end Cert.KV

end
-- ==== Proof.LaneMath.Defs.lean ====
/-
  One lane of the integer arithmetic, as functions of 32-bit words.

  A node's eight gathered neighbour words are multiplied by their 0/1 flags; for a bit position `q` below 8 the
  four bits `q`, `q+8`, `q+16`, `q+24` of each word are brought to the bottom of the four bytes (`quad`), and a Horner
  fold `a ↦ a + a + quad` over the eight slots builds, in byte `j`, the 8-bit table address of batch row `q + 8 j`
  (slot 0 most significant).  The 256-entry table is held as eight 32-bit words; bits 5, 6, 7 of the address choose the
  word and bits 0..4 the bit inside it.  A node with no valid slot keeps its old bit.

  Every definition is written with the scalar integer operations the vector operations apply lane by lane.
-/
import Idealize.ShloMosaic.PureOps.Ideal
import Idealize.ShloMosaic.Lib.ValueIdx
import Idealize.ShloMosaic.PureOps.Reduce

namespace Cert.Lane

open Idealize.ShloMosaic

/-- Bits `q, q+8, q+16, q+24` of `x`, at the bottom of the four bytes. -/
def quad (x : BitVec 32) (q : Nat) : BitVec 32 :=
  IntOp.andi (IntOp.shrsi .vector x (BitVec.ofNat 32 q)) 16843009#32

/-- One Horner step: twice the accumulator plus the next slot's bits. -/
def hstep (a x : BitVec 32) : BitVec 32 := IntOp.addi (IntOp.addi a a) x

/-- The four byte-wise addresses for bit position `q`: the Horner fold over the eight slots, slot 0 first. -/
def accOf (gm : Fin 8 → BitVec 32) (q : Nat) : BitVec 32 :=
  hstep (hstep (hstep (hstep (hstep (hstep (hstep (quad (gm 0) q) (quad (gm 1) q)) (quad (gm 2) q)) (quad (gm 3) q))
    (quad (gm 4) q)) (quad (gm 5) q)) (quad (gm 6) q)) (quad (gm 7) q)

/-- Byte `j` of the accumulator: the table address of batch row `q + 8 j`. -/
def idxOf (acc : BitVec 32) (j : Nat) : BitVec 32 :=
  IntOp.andi (IntOp.shrsi .vector acc (BitVec.ofNat 32 (8 * j))) 255#32

/-- Bit `n` of `x` as a word 0 or 1. -/
def bitOf (x n : BitVec 32) : BitVec 32 := IntOp.andi (IntOp.shrsi .vector x n) 1#32

/-- The table word the address names: a three-level choice on its bits 5, 6, 7. -/
def selOf (w : Fin 8 → BitVec 32) (idx : BitVec 32) : BitVec 32 :=
  Scalar.select (IntOp.cmpi .eq (bitOf idx 7#32) 0#32)
    (Scalar.select (IntOp.cmpi .eq (bitOf idx 6#32) 0#32)
      (Scalar.select (IntOp.cmpi .eq (bitOf idx 5#32) 0#32) (w 0) (w 1))
      (Scalar.select (IntOp.cmpi .eq (bitOf idx 5#32) 0#32) (w 2) (w 3)))
    (Scalar.select (IntOp.cmpi .eq (bitOf idx 6#32) 0#32)
      (Scalar.select (IntOp.cmpi .eq (bitOf idx 5#32) 0#32) (w 4) (w 5))
      (Scalar.select (IntOp.cmpi .eq (bitOf idx 5#32) 0#32) (w 6) (w 7)))

/-- The table's bit at the address: bit `idx mod 32` of the chosen word. -/
def lbitOf (w : Fin 8 → BitVec 32) (idx : BitVec 32) : BitVec 32 :=
  bitOf (selOf w idx) (IntOp.andi idx 31#32)

/-- The node's own old bit for batch row `q + 8 j`, read from its packed word. -/
def oldOf (p : BitVec 32) (q j : Nat) : BitVec 32 :=
  bitOf (quad p q) (BitVec.ofNat 32 (8 * j))

/-- The sum of the eight flags, slot 0 first. -/
def msumOf (m : Fin 8 → BitVec 32) : BitVec 32 :=
  IntOp.addi (IntOp.addi (IntOp.addi (IntOp.addi (IntOp.addi (IntOp.addi (IntOp.addi (m 0) (m 1)) (m 2)) (m 3)) (m 4)) (m 5))
    (m 6)) (m 7)

/-- The masked gathered words. -/
def gmOf (g m : Fin 8 → BitVec 32) : Fin 8 → BitVec 32 := fun k => IntOp.muli (g k) (m k)

/-- The lane's result for batch row `q + 8 j`: the old bit where no slot is valid, the table's bit otherwise. -/
def laneOf (g m : Fin 8 → BitVec 32) (p : BitVec 32) (w : Fin 8 → BitVec 32) (q j : Nat) : BitVec 32 :=
  Scalar.select (IntOp.cmpi .eq (msumOf m) 0#32) (oldOf p q j) (lbitOf w (idxOf (accOf (gmOf g m) q) j))

/-- A table word from its two 16-bit halves. -/
def wordOf (h0 h1 : BitVec 32) : BitVec 32 := IntOp.addi h0 (IntOp.shli .vector h1 16#32)

/-- The packed word of 32 batch rows: row `b` at bit `b`. -/
def packOf (s : Fin 32 → BitVec 32) : BitVec 32 :=
  Finset.univ.fold (IntOp.addi (w := 32)) 0#32 fun b : Fin 32 => IntOp.shli .vector (s b) (BitVec.ofNat 32 b.val)

/-- Sixteen consecutive table entries as one number below 65536: entry `16 t + c` at bit `c`. -/
def hOf (l : Fin 256 → BitVec 32) (t : Fin 16) : Nat :=
  ∑ c : Fin 16, 2 ^ c.val * (l ⟨16 * t.val + c.val, by have := t.isLt; have := c.isLt; omega⟩).toNat

/-- The eight table words: word `j` holds entries `32 j .. 32 j + 31`. -/
def wordsOf (l : Fin 256 → BitVec 32) : Fin 8 → BitVec 32 := fun j =>
  wordOf (BitVec.ofNat 32 (hOf l ⟨2 * j.val, by have := j.isLt; omega⟩))
    (BitVec.ofNat 32 (hOf l ⟨2 * j.val + 1, by have := j.isLt; omega⟩))

end Cert.Lane
-- ==== Proof.PackValue.lean ====
/-
  What the first TensorCore call writes, index by index.

  The body's one store puts, at row `a / 128` and lane `a % 128` of the result's block, the sum over the 32 rows `b`
  of the input block's word at `(b, a)` shifted left by `b` (`k0_pay1_apply`: the shape cast keeps the row-major
  position, the reduction over the leading axis is a fold over the 32 rows in any order, the shift count is the row
  number).  At point `t` the input block's column `a` is the array's column `2048 t + a` wherever the array has that
  column (`fill_blk0_apply`), so the word is the packed word of node `2048 t + a` (`after1_value`).
-/
import proofs.«203813_g3255585210786_cont_8to1_b_763_8_alg».proof.Proof.PackRegion
import proofs.«203813_g3255585210786_cont_8to1_b_763_8_alg».proof.Proof.LaneMath.Defs
import Idealize.ShloMosaic.Lib.Pipeline.Value
import Idealize.ShloMosaic.Lib.ValueIdx
import Idealize.ShloMosaic.PureOps.Reduce

set_option maxRecDepth 16384

noncomputable section

namespace Cert.PackRegion

open Cert.KernelIdeal Cert.KernelIdeal.Gen
open Idealize.ShloMosaic Idealize.ShloMosaic.TcCoe Idealize.ShloMosaic.ValueIdx
open Idealize.SL Idealize.SL.RA Idealize.SL.BI
open Idealize.ShloMosaic.Pipeline (RDat Cfg Window)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The stored word at column `a` of the block (row `a / 128`, lane `a % 128`): the 32 rows' words at column `a`, row `b`
    shifted left by `b`, added up. -/
theorem k0_pay1_apply (x0 : Vec F S32x2048 .i32) (a : Fin 2048) :
    k0_pay1 x0 (ix3 (0 : Fin 1) (⟨a.val / 128, by have := a.isLt; omega⟩ : Fin 16) (⟨a.val % 128, Nat.mod_lt _ (by decide)⟩ : Fin 128))
      = Cert.Lane.packOf (fun b => x0 (ix2 b a)) := by
  unfold k0_pay1
  rw [shapeCast_apply _ _ _ (ix1 a) (by
    rw [Shape.rowMajor_val_one, Shape.rowMajor_val_three]
    show a.val = ((0 : Nat) * 16 + a.val / 128) * 128 + a.val % 128
    have := Nat.div_add_mod a.val 128; omega)]
  refine (multiReductionI_eq_fold .add _ _ reduces_S32x2048_S2048 rfl (ix1 a)).trans ?_
  refine (Shape.Reduces.fold_filter_drop_single reduces_S32x2048_S2048 _ _ _ (ix1 a)).trans ?_
  unfold Cert.Lane.packOf
  refine Finset.fold_congr (s := (Finset.univ : Finset (Fin 32))) (fun (b : Fin 32) _ => ?_)
  have hl : reduces_S32x2048_S2048.lift (ix1 a) b = ix2 (b : Fin 32) a := by
    funext c
    apply Fin.ext
    show (reduces_S32x2048_S2048.lift (ix1 a) b c).val = _
    match c with
    | ⟨0, _⟩ => rfl
    | ⟨1, _⟩ => rfl
  show IntOp.shli .vector (x0 (reduces_S32x2048_S2048.lift (ix1 a) b))
      (broadcastTo S32x2048 (iota Kind.tc S32x1 32 [0] iota_S32x1_d0_w32) broadcasts_S32x1_S32x2048 (reduces_S32x2048_S2048.lift (ix1 a) b)) = _
  rw [hl, broadcastTo_apply _ _ (ix2 (b : Fin 32) a) (ix2 (b : Fin 32) (0 : Fin 1)) (by
    intro c
    match c with
    | ⟨0, _⟩ => rfl
    | ⟨1, _⟩ => rfl), iota_single_apply]

/-- One store over the whole block leaves its payload, computed from the whole input block. -/
theorem out0_1_eq (x0 : Vec F S32x2048 .i32) : out0_1 x0 = k0_pay1 x0 := by
  unfold out0_1
  rw [View.canon_unit_zero (by funext a; fin_cases a <;> rfl), View.ld_unit_zero (by funext a; fin_cases a <;> rfl)]

/-- So the result's block at column `a` is the packed word of the input block's column `a`. -/
theorem out0_1_apply (x0 : Vec F S32x2048 .i32) (a : Fin 2048) :
    out0_1 x0 (ix3 (0 : Fin 1) (⟨a.val / 128, by have := a.isLt; omega⟩ : Fin 16) (⟨a.val % 128, Nat.mod_lt _ (by decide)⟩ : Fin 128))
      = Cert.Lane.packOf (fun b => x0 (ix2 b a)) := by
  rw [out0_1_eq]; exact k0_pay1_apply x0 a

/-- The grid has one axis: the point's coordinate is its number. -/
theorem coords0 (t : Fin cfg0.N) : (grid0.coords t 0).val = t.val := by
  show t.val / grid0.stride 0 % 49 = t.val
  rw [show grid0.stride 0 = 1 from by decide, Nat.div_one]
  exact Nat.mod_eq_of_lt (N_0 ▸ t.isLt)

/-- A coordinate of a block is moved iff the array has it. -/
theorem lt_xsize_iff {G : Pipeline.Grid} (w : Window sig G) (i : G.Coords) (a : Fin w.shape.rank) (j : Nat) (hj : j < w.size a) :
    j < w.xsize i a ↔ w.indexMap i a * w.size a + j < w.shape.size a := by
  have h := w.hclip i a
  show j < (w.clip i a).extent (w.size a) ↔ _
  generalize w.clip i a = cl at h ⊢
  cases cl with
  | none =>
    have h' : (w.indexMap i a + 1) * w.size a ≤ w.shape.size a := h
    rw [Nat.succ_mul] at h'
    exact ⟨fun _ => by omega, fun _ => hj⟩
  | some n =>
    have h' : 0 < n ∧ n < w.size a ∧ w.indexMap i a * w.size a + n = w.shape.size a := h
    show j < n ↔ _
    omega

/-- The input block as staged at point `t`, completed past the array's end by any `d`, reads at a column the array has
    the array's word there: row `b`, column `2048 t + a`. -/
theorem fill_blk0_apply (V : (c : Dev nD) → (b : Ref sig .tc) → Buf (Elt F) ((c : Thread nD τ).loc b)) (c : Dev nD)
    (t : Fin cfg0.N) (d : win0_0.block.Idx → Elt F .i32) (b : Fin 32) (a : Fin 2048) (h : 2048 * t.val + a.val < 100000) :
    win0_0.fill (grid0.coords t) d (blk0 V c t) (ix2 b a) = V c main_arg0 (ix2 b (⟨2048 * t.val + a.val, h⟩ : Fin 100000)) := by
  have hm : win0_0.moved (grid0.coords t) (ix2 b a) = true := by
    rw [Window.moved_iff]
    intro ax
    match ax with
    | ⟨0, _⟩ =>
      refine (lt_xsize_iff win0_0 (grid0.coords t) (0 : Fin 2) b.val (show b.val < win0_0.size (0 : Fin 2) from b.isLt)).mpr ?_
      show 0 * 32 + b.val < 32
      have := b.isLt; omega
    | ⟨1, _⟩ =>
      refine (lt_xsize_iff win0_0 (grid0.coords t) (1 : Fin 2) a.val (show a.val < win0_0.size (1 : Fin 2) from a.isLt)).mpr ?_
      show (BitVec.ofNat 32 (grid0.coords t 0).val).toNat * 2048 + a.val < 100000
      rw [coords0, BitVec.toNat_ofNat, Nat.mod_eq_of_lt (by have := t.isLt; have := N_0; omega)]
      omega
  have hx : ix2 b a = win0_0.xinj (grid0.coords t) (fun ax => ⟨(ix2 b a ax).val, (win0_0.moved_iff (grid0.coords t) (ix2 b a)).mp hm ax⟩) := by
    funext ax; exact Fin.ext rfl
  rw [hx, Window.fill_xinj]
  unfold blk0
  rw [View.read_apply]
  refine (cast_eq _ _).trans (congrArg (V c main_arg0) ?_)
  funext ax
  apply Fin.ext
  match ax with
  | ⟨0, _⟩ =>
    show 0 * 32 + 1 * b.val = b.val
    omega
  | ⟨1, _⟩ =>
    show (BitVec.ofNat 32 (grid0.coords t 0).val).toNat * 2048 + 1 * a.val = 2048 * t.val + a.val
    rw [coords0, BitVec.toNat_ofNat, Nat.mod_eq_of_lt (by have := t.isLt; have := N_0; omega)]
    omega

/-- THE VALUE.  Whatever the body may leave in the result's buffer at point `t` (any `X` in the data's relation, whatever
    was found there), its word at row `a / 128`, lane `a % 128` — column `a` of the block — is, for a column the
    array has (`2048 t + a < 100000`), the packed word of the 32 states of node `2048 t + a`: row `b` at bit `b`. -/
theorem after1_value (Φ0 : sProp 𝕄) (O : CellTallies nD τ sig Ix) (B : Set (SemLoc sig × Ix))
    (V : (c : Dev nD) → (b : Ref sig .tc) → Buf (Elt F) ((c : Thread nD τ).loc b)) (c : Dev nD)
    (t : Fin cfg0.N) (Y X) (hX : (rdat0 Φ0 O B V c).after 1 t Y X) (a : Fin 2048) (h : 2048 * t.val + a.val < 100000) :
    X (ix3 (0 : Fin 1) (⟨a.val / 128, by have := a.isLt; omega⟩ : Fin 16) (⟨a.val % 128, Nat.mod_lt _ (by decide)⟩ : Fin 128))
      = Cert.Lane.packOf (fun b => V c main_arg0 (ix2 b (⟨2048 * t.val + a.val, h⟩ : Fin 100000))) := by
  obtain ⟨d, rfl⟩ := (after0_1 Φ0 O B V c t Y X).mp hX
  rw [out0_1_apply]
  exact congrArg Cert.Lane.packOf (funext fun b => fill_blk0_apply V c t d b a h)

end Cert.PackRegion

end
-- ==== Proof.PackArr.lean ====
/-
  What the result array holds after the first TensorCore call, and the same array read flat.

  Point `t` writes its block back onto row-block `t` of the 49 × 16 × 128 result array; the blocks tile the array, so
  after the write-backs below `k` every row-block `t < k` holds what the body left at point `t` and has not been
  written since (induction on `k`: a later write-back lands on another row-block).  With the value of what the body
  leaves (`after1_value`), node `n < 100000` — row-block `n / 2048`, row `n % 2048 / 128`, lane `n % 128` — holds the
  packed word of the 32 states of node `n`; the last 352 words of the array are not described.  Read flat (the
  row-major reshape to 100352 words) that is word `n`.
-/
import proofs.«203813_g3255585210786_cont_8to1_b_763_8_alg».proof.Proof.PackValue
import Idealize.ShloMosaic.Lib.Pipeline.Cells

set_option maxRecDepth 16384

noncomputable section

namespace Cert.PackRegion

open Cert.KernelIdeal Cert.KernelIdeal.Gen
open Idealize.ShloMosaic Idealize.ShloMosaic.TcCoe Idealize.ShloMosaic.ValueIdx
open Idealize.SL Idealize.SL.RA Idealize.SL.BI
open Idealize.ShloMosaic.Pipeline (RDat Cfg Window)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The grid has 49 points. -/
theorem t_lt (t : Fin cfg0.N) : t.val < 49 := N_0 ▸ t.isLt

/-- After the write-backs below `k`, row-block `t < k` of the result array holds at column `a` (row `a / 128`, lane
    `a % 128`), where the state array has column `2048 t + a`, the packed word of node `2048 t + a`. -/
theorem arrAt1_block (Φ0 : sProp 𝕄) (O : CellTallies nD τ sig Ix) (B : Set (SemLoc sig × Ix))
    (V : (c : Dev nD) → (b : Ref sig .tc) → Buf (Elt F) ((c : Thread nD τ).loc b)) (c : Dev nD) :
    ∀ (k : Nat) (hk : k ≤ cfg0.N) (G : Buf (Elt F) ((c : Thread nD τ).loc main_v8)), (rdat0 Φ0 O B V c).ArrAt 1 k G →
      ∀ (t : Fin cfg0.N) (a : Fin 2048) (h : 2048 * t.val + a.val < 100000), t.val < k →
        G (ix3 (⟨t.val, t_lt t⟩ : Fin 49) (⟨a.val / 128, by have := a.isLt; omega⟩ : Fin 16) (⟨a.val % 128, Nat.mod_lt _ (by decide)⟩ : Fin 128))
          = Cert.Lane.packOf (fun b => V c main_arg0 (ix2 b (⟨2048 * t.val + a.val, h⟩ : Fin 100000)))
  | 0, _, G, _, t, a, h, ht => absurd ht (Nat.not_lt_zero _)
  | k + 1, hk, G, hG, t, a, h, ht => by
    have hu : k < cfg0.N := hk
    have hG' := hG
    rw [show k + 1 = (⟨k, hu⟩ : Fin cfg0.N).val + 1 from rfl, RDat.ArrAt_succ _ 1 ⟨k, hu⟩, if_pos (flush0_1 ⟨k, hu⟩)] at hG'
    obtain ⟨G₀, X, hG₀, ⟨Y, hY, hX⟩, rfl⟩ := hG'
    have hidx0 : (BitVec.ofNat 32 (grid0.coords (⟨k, hu⟩ : Fin cfg0.N) 0).val).toNat = k := by
      have h49 : k < 49 := N_0 ▸ hu
      rw [coords0, BitVec.toNat_ofNat]; show k % 2 ^ 32 = k; exact Nat.mod_eq_of_lt (by omega)
    by_cases htk : t.val < k
    · rw [View.write_of_not_mem _ _ _ (by
        intro hmem
        obtain ⟨x, _, hx⟩ := Finset.mem_map.mp hmem
        have h0 := congrArg (fun i : S49x16x128.Idx => (i 0).val) hx
        have h1 : (BitVec.ofNat 32 (grid0.coords (⟨k, hu⟩ : Fin cfg0.N) 0).val).toNat * 1 + 1 * (x 0).val = t.val := h0
        rw [hidx0] at h1
        omega)]
      exact arrAt1_block Φ0 O B V c k (Nat.le_of_lt hu) G₀ hG₀ t a h htk
    · have hk' : t.val = k := by omega
      have ht' : t = ⟨k, hu⟩ := Fin.ext hk'
      subst ht'
      have hidx : (ix3 (⟨k, t_lt ⟨k, hu⟩⟩ : Fin 49) (⟨a.val / 128, by have := a.isLt; omega⟩ : Fin 16) (⟨a.val % 128, Nat.mod_lt _ (by decide)⟩ : Fin 128) : S49x16x128.Idx)
          = ((cfg0.win 1).blk ⟨k, hu⟩).view.emb (ix3 (0 : Fin 1) (⟨a.val / 128, by have := a.isLt; omega⟩ : Fin 16) (⟨a.val % 128, Nat.mod_lt _ (by decide)⟩ : Fin 128)) := by
        funext ax
        apply Fin.ext
        match ax with
        | ⟨0, _⟩ =>
          show k = (BitVec.ofNat 32 (grid0.coords (⟨k, hu⟩ : Fin cfg0.N) 0).val).toNat * 1 + 1 * 0
          rw [hidx0]; omega
        | ⟨1, _⟩ =>
          show a.val / 128 = 0 * 16 + 1 * (a.val / 128)
          omega
        | ⟨2, _⟩ =>
          show a.val % 128 = 0 * 128 + 1 * (a.val % 128)
          omega
      have hv := after1_value Φ0 O B V c ⟨k, hu⟩ Y X hX a h
      refine Eq.trans ?_ hv
      show View.write (Elt F) ((cfg0.win 1).blk ⟨k, hu⟩).view G₀ ((cfg0.win 1).cut (cfg0.grid.coords ⟨k, hu⟩) X) Finset.univ
          (ix3 (⟨k, t_lt ⟨k, hu⟩⟩ : Fin 49) (⟨a.val / 128, by have := a.isLt; omega⟩ : Fin 16) (⟨a.val % 128, Nat.mod_lt _ (by decide)⟩ : Fin 128)) = _
      rw [hidx, View.write_emb_of_mem _ _ (Finset.mem_univ _)]
      exact (cast_eq _ _).trans (congrArg X (funext fun ax => Fin.ext rfl))

/-- THE RESULT ARRAY after the call: whatever contents `f8` the 49 write-backs may leave, node `n` holds its packed word. -/
theorem arrAt1_value (Φ0 : sProp 𝕄) (O : CellTallies nD τ sig Ix) (B : Set (SemLoc sig × Ix))
    (V : (c : Dev nD) → (b : Ref sig .tc) → Buf (Elt F) ((c : Thread nD τ).loc b)) (c : Dev nD)
    (f8 : Buf (Elt F) ((c : Thread nD τ).loc main_v8)) (hf : (rdat0 Φ0 O B V c).ArrAt 1 cfg0.N f8) (n : Fin 100000) :
    f8 (ix3 (⟨n.val / 2048, by have := n.isLt; omega⟩ : Fin 49) (⟨n.val % 2048 / 128, by omega⟩ : Fin 16) (⟨n.val % 128, Nat.mod_lt _ (by decide)⟩ : Fin 128))
      = Cert.Lane.packOf (fun b => V c main_arg0 (ix2 b n)) := by
  have ht : n.val / 2048 < cfg0.N := by show n.val / 2048 < grid0.N; rw [N_0]; have := n.isLt; omega
  have hh : 2048 * (n.val / 2048) + n.val % 2048 < 100000 := by have := n.isLt; omega
  have hb := arrAt1_block Φ0 O B V c cfg0.N le_rfl f8 hf ⟨n.val / 2048, ht⟩ ⟨n.val % 2048, Nat.mod_lt _ (by decide)⟩ hh ht
  have e1 : (⟨n.val % 128, Nat.mod_lt _ (by decide)⟩ : Fin 128) = ⟨n.val % 2048 % 128, Nat.mod_lt _ (by decide)⟩ := Fin.ext (by simp only; omega)
  have e2 : (⟨2048 * (n.val / 2048) + n.val % 2048, hh⟩ : Fin 100000) = n := Fin.ext (by simp only; omega)
  rw [e1]
  rw [e2] at hb
  exact hb

/-- The same read flat: word `n` of the row-major reshape to 100352 words is node `n`'s packed word. -/
theorem tab_value (Φ0 : sProp 𝕄) (O : CellTallies nD τ sig Ix) (B : Set (SemLoc sig × Ix))
    (V : (c : Dev nD) → (b : Ref sig .tc) → Buf (Elt F) ((c : Thread nD τ).loc b)) (c : Dev nD)
    (f8 : Buf (Elt F) ((c : Thread nD τ).loc main_v8)) (hf : (rdat0 Φ0 O B V c).ArrAt 1 cfg0.N f8) (n : Fin 100000) :
    shapeCast S100352 (f8 : S49x16x128.Idx → BitVec 32) shapeCasts_S49x16x128_S100352 (ix1 (⟨n.val, by have := n.isLt; omega⟩ : Fin 100352))
      = Cert.Lane.packOf (fun b => V c main_arg0 (ix2 b n)) := by
  rw [shapeCast_apply _ _ _ (ix3 (⟨n.val / 2048, by have := n.isLt; omega⟩ : Fin 49) (⟨n.val % 2048 / 128, by omega⟩ : Fin 16) (⟨n.val % 128, Nat.mod_lt _ (by decide)⟩ : Fin 128)) (by
    rw [Shape.rowMajor_val_three, Shape.rowMajor_val_one]
    show (n.val / 2048 * 16 + n.val % 2048 / 128) * 128 + n.val % 128 = n.val
    omega)]
  exact arrAt1_value Φ0 O B V c f8 hf n

/-- The state array is never written: it may hold only what the region found. -/
theorem arrAt0_eq (Φ0 : sProp 𝕄) (O : CellTallies nD τ sig Ix) (B : Set (SemLoc sig × Ix))
    (V : (c : Dev nD) → (b : Ref sig .tc) → Buf (Elt F) ((c : Thread nD τ).loc b)) (c : Dev nD) (k : Nat)
    (f0 : Buf (Elt F) ((c : Thread nD τ).loc main_arg0)) (hf : (rdat0 Φ0 O B V c).ArrAt 0 k f0) : f0 = V c main_arg0 := by
  rw [RDat.ArrAt_in _ 0 rfl] at hf; exact hf

end Cert.PackRegion

end
-- ==== Proof.MainArr.lean ====
/-
  What the result array holds after the second TensorCore call.

  The accumulator's block is never fetched and is written back once, after the last point; its block is the whole
  32 × 128 result array.  What the body may find in its buffer at a point after the first is what it may have left at
  the point before (no write-back comes between), so what it may leave at point `n` is `accStep` at `n` of what it may
  have left at `n - 1`, over the blocks as found at `n` — a chain of 97 steps from whatever the buffer held at the
  start (`Iter`).  The result array ends holding what the body left at point 96.
-/
import proofs.«203813_g3255585210786_cont_8to1_b_763_8_alg».proof.Proof.MainRegionVO
import Idealize.ShloMosaic.Lib.Pipeline.Cells

noncomputable section

namespace Cert.MainRegionV

open Cert.KernelIdeal Cert.KernelIdeal.Gen Cert.MainBody
open Idealize.ShloMosaic
open Idealize.ShloMosaic.TcCoe Idealize.ShloMosaic.Tactic
open Idealize.SL Idealize.SL.RA Idealize.SL.BI
open Idealize.ShloMosaic.Pipeline (RDat Cfg Window)

variable {F : FTy → Type} [FloatOps F] {U : Type} [URA U]

local notation "𝕄" => MT nD τ sig (SparseCore.Cfg.HIx 1) (Elt F) ℕ U ℕ

/-- What the accumulator's buffer may hold after the body at point `n`: at point 0, `accStep` of anything; at point
    `n + 1`, `accStep` of what it may have held after point `n`; each over the six blocks as found at the point, the two
    overhanging ones completed by some `d0`, `d4`. -/
def Iter (U : Type) [URA U] (V : (c : Dev nD) → (b : Ref sig .tc) → Buf (Elt F) ((c : Thread nD τ).loc b)) (c : Dev nD) : (n : Nat) → n < cfg2.N → Vec F S32x128 .f32 → Prop
  | 0, h, X => ∃ d0 d4 Y, X = accStep U c ⟨0, h⟩ (found0 V c ⟨0, h⟩ d0) (found1 V c ⟨0, h⟩) (found2 V c ⟨0, h⟩) (found3 V c ⟨0, h⟩) (found4 V c ⟨0, h⟩ d4) (found5 V c ⟨0, h⟩) Y
  | n + 1, h, X => ∃ d0 d4 Y, Iter U V c n (Nat.lt_of_succ_lt h) Y
      ∧ X = accStep U c ⟨n + 1, h⟩ (found0 V c ⟨n + 1, h⟩ d0) (found1 V c ⟨n + 1, h⟩) (found2 V c ⟨n + 1, h⟩) (found3 V c ⟨n + 1, h⟩) (found4 V c ⟨n + 1, h⟩ d4) (found5 V c ⟨n + 1, h⟩) Y

/-- The accumulator's window is an output: never fetched. -/
theorem fetch2_6 (t : Fin cfg2.N) : (cfg2.win 6).fetch t = false := rfl

/-- What the body may leave in the accumulator's buffer at point `n` is a chain of `n + 1` steps. -/
theorem leavesV_6 (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD) :
    ∀ (n : Nat) (hn : n < cfg2.N) (X), (rdatV (F := F) (U := U) Φc O B V c).Leaves 6 ⟨n, hn⟩ X → Iter U V c n hn X
  | 0, hn, X, ⟨Y, hY, hX⟩ => by
    obtain ⟨d0, d4, rfl⟩ := (afterV_6 Φc O B V c _ _ _).mp hX
    exact ⟨d0, d4, Y, rfl⟩
  | n + 1, hn, X, ⟨Y, hY, hX⟩ => by
    obtain ⟨d0, d4, rfl⟩ := (afterV_6 Φc O B V c _ _ _).mp hX
    rw [RDat.finds_of_pos _ (fetch2_6 _) (Nat.succ_ne_zero n)] at hY
    rcases hY with hfl | hL
    · exfalso
      have h96 := (flush2_6 _).mp hfl
      have hN : n + 1 < 97 := lt_of_lt_of_eq hn (show cfg2.N = 97 from N_2)
      simp only [Nat.add_sub_cancel] at h96
      omega
    · exact ⟨d0, d4, Y, leavesV_6 Φc O B V c n (Nat.lt_of_succ_lt hn) Y hL, rfl⟩

/-- THE RESULT ARRAY after the call: whatever contents the one write-back may leave, they are what a chain of 97 steps
    ends with. -/
theorem arrAt6 (Φc : sProp 𝕄) (O : CellTallies nD τ sig (SparseCore.Cfg.HIx 1)) (B : Set (SemLoc sig × SparseCore.Cfg.HIx 1))
    (V : (c : Dev nD) → (b : Ref sig .tc) → Buf (Elt F) ((c : Thread nD τ).loc b)) (c : Dev nD)
    (F14 : Buf (Elt F) ((c : Thread nD τ).loc main_v14)) (h : (rdatV (F := F) (U := U) Φc O B V c).ArrAt 6 cfg2.N F14) :
    ∃ X, Iter U V c 96 (by decide) X ∧ (F14 : S32x128.Idx → F .f32) = X := by
  have hu : 96 < cfg2.N := by decide
  have h' : (rdatV (F := F) (U := U) Φc O B V c).ArrAt 6 ((⟨96, hu⟩ : Fin cfg2.N).val + 1) F14 := by
    have := h; rwa [show cfg2.N = 97 from N_2] at this
  rw [RDat.ArrAt_succ, if_pos ((flush2_6 _).mpr rfl)] at h'
  obtain ⟨G₀, X, hG₀, hL, rfl⟩ := h'
  refine ⟨X, leavesV_6 Φc O B V c 96 hu X hL, ?_⟩
  funext i
  have hi : ((cfg2.win 6).blk ⟨96, hu⟩).view.emb (fun a => ⟨(i a).val, (i a).isLt⟩) = i := by
    funext a
    apply Fin.ext
    match a with
    | ⟨0, _⟩ => show 0 * 32 + 1 * (i 0).val = (i 0).val; omega
    | ⟨1, _⟩ => show 0 * 128 + 1 * (i 1).val = (i 1).val; omega
  rw [← hi, View.write_emb_of_mem _ _ (Finset.mem_univ _)]
  refine (cast_eq _ _).trans (congrArg X ?_)
  rw [hi]
  funext a
  exact Fin.ext rfl

end Cert.MainRegionV

end
-- ==== Proof.MainValue.Defs.lean ====
/-
  What one grid point of the read-out call computes, as functions of its six input blocks.

  The block holds 1024 nodes; node `r` sits at sublane `r / 128` and lane `r % 128` of the 8×128 integer vectors.
  Its 256-entry table row is folded into eight 32-bit words: sixteen consecutive 0/1 entries are summed with weights
  `2^c` (exactly, on the extended reals, as the selector product forms them), converted back to an integer, and two
  such halves make a word.  `resBit` is the node's new bit in batch row `bb`; `wz` is the weight block with the
  rows past the last read-out node zeroed; `part` is the block's contribution to the read-out sum.
-/
import proofs.«203813_g3255585210786_cont_8to1_b_763_8_alg».proof.KernelIdeal
import proofs.«203813_g3255585210786_cont_8to1_b_763_8_alg».proof.Proof.LaneMath.Defs
import Idealize.ShloMosaic.Lib.ValueIdx

noncomputable section

open scoped BigOperators

namespace Cert.MainValue

open Cert.KernelIdeal
open Idealize.ShloMosaic Idealize.ShloMosaic.ValueIdx

/-- The sublane of node `r` of the block. -/
def sub (r : Fin 1024) : Fin 8 := ⟨r.val / 128, by have := r.isLt; omega⟩

/-- The lane of node `r` of the block. -/
def ln (r : Fin 1024) : Fin 128 := ⟨r.val % 128, Nat.mod_lt _ (by decide)⟩

/-- Entries `16 t … 16 t + 15` of row `r` of the table block, summed with weights `2^c` on the extended reals. -/
def halfF (x1 : IVec S1024x256 32) (r : Fin 1024) (t : Fin 16) : EReal :=
  ∑ c : Fin 16, (((2 ^ c.val : ℕ) : ℝ) : EReal)
    * (((x1 (ix2 r (⟨16 * t.val + c.val, by have := t.isLt; have := c.isLt; omega⟩ : Fin 256))).toInt : ℝ) : EReal)

/-- Table word `j` of row `r`: entries `32 j … 32 j + 31`, from its two halves. -/
def wordK (x1 : IVec S1024x256 32) (r : Fin 1024) (j : Fin 8) : BitVec 32 :=
  Cert.Lane.wordOf (Ideal.fptosi 32 (halfF x1 r ⟨2 * j.val, by have := j.isLt; omega⟩))
    (Ideal.fptosi 32 (halfF x1 r ⟨2 * j.val + 1, by have := j.isLt; omega⟩))

/-- Node `r`'s new bit in batch row `bb`: bit position `bb % 8` of byte `bb / 8` of the packed words. -/
def resBit (x1 : IVec S1024x256 32) (x2 x3 : IVec S8x1024 32) (x4 : IVec S1x8x128 32) (bb : Fin 32) (r : Fin 1024) :
    BitVec 32 :=
  Cert.Lane.laneOf (fun k => x2 (ix2 k r)) (fun k => x3 (ix2 k r)) (x4 (ix3 (0 : Fin 1) (sub r) (ln r))) (wordK x1 r)
    (bb.val % 8) (bb.val / 8)

/-- The weight block with the rows of nodes past the last read-out node (98976) replaced by zero. -/
def wz (i : grid2.Coords) (x5 : FVec Ideal S1024x128 .f32) (r : Fin 1024) (o : Fin 128) : EReal :=
  if 1024 * (i 0).val + r.val < 98976 then x5 (ix2 r o) else 0

/-- The block's contribution to output `(b, o)`. -/
def part (i : grid2.Coords) (x1 : IVec S1024x256 32) (x2 x3 : IVec S8x1024 32) (x4 : IVec S1x8x128 32)
    (x5 : FVec Ideal S1024x128 .f32) (b : Fin 32) (o : Fin 128) : EReal :=
  ∑ r : Fin 1024, (((resBit x1 x2 x3 x4 b r).toInt : ℝ) : EReal) * wz i x5 r o

end Cert.MainValue

end
-- ==== Proof.AccSum.lean ====
/-
  What the accumulator of the read-out call holds after its 97 grid points, on the extended reals.

  At the first point the body overwrites the accumulator with the block's contribution, at a middle point it adds
  the block's contribution, and at the last it adds the block's contribution and the bias and applies the logistic
  function.  So after point `n < 96` entry `(b, o)` is the sum of the contributions of the points `0 … n`, and after
  the last point it is the logistic function of the sum of all 97 contributions plus the bias.  Addition on the
  extended reals is associative, so the partial sums regroup with no finiteness condition.  The two blocks whose last
  instance overhangs its array are completed, at each point, by words nothing names: they are chosen per point, once
  for all entries.
-/
import proofs.«203813_g3255585210786_cont_8to1_b_763_8_alg».proof.Proof.MainArr
import proofs.«203813_g3255585210786_cont_8to1_b_763_8_alg».proof.Proof.MainValue.Defs
import Idealize.ShloMosaic.Lib.ValueIdx

noncomputable section

open scoped BigOperators

namespace Cert.MainRegionV

open Cert.KernelIdeal Cert.KernelIdeal.Gen Cert.MainBody
open Cert.MainValue (part)
open Idealize.ShloMosaic Idealize.ShloMosaic.TcCoe Idealize.ShloMosaic.ValueIdx
open Idealize.SL Idealize.SL.RA Idealize.SL.BI

variable {U : Type} [URA U]

/-! ## What the three runs compute -/

/-- The three runs of the body as functions of the accumulator, entry by entry: the first point's, a middle point's,
    the last point's. -/
structure RunApply (U : Type) [URA U] : Prop where
  first : ∀ (c : Dev nD) (i : grid2.Coords) (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec Ideal S1024x256 .i32) (x2 x3 : Vec Ideal S8x1024 .i32) (x4 : Vec Ideal S1x8x128 .i32) (x5 : Vec Ideal S1024x128 .f32) (x6 : Vec Ideal S1x128 .f32)
    (h1 : k2_cond1 i = 1#1) (h2 : ¬ k2_cond2 i = 1#1) (h3 : ¬ k2_cond3 i = 1#1) (x7 : Vec Ideal S32x128 .f32) (b : Fin 32) (o : Fin 128),
    (runFirst (F := Ideal) (U := U) c i h1 h2 h3 M1 hm1 M2 hm2 M3 hm3 M4 hm4 M5 hm5 M6 hm6 M7 hm7 x1 x2 x3 x4 x5 x6).1 x7 (ix2 b o)
      = part i x1 x2 x3 x4 x5 b o
  mid : ∀ (c : Dev nD) (i : grid2.Coords) (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec Ideal S1024x256 .i32) (x2 x3 : Vec Ideal S8x1024 .i32) (x4 : Vec Ideal S1x8x128 .i32) (x5 : Vec Ideal S1024x128 .f32) (x6 : Vec Ideal S1x128 .f32)
    (h1 : ¬ k2_cond1 i = 1#1) (h2 : k2_cond2 i = 1#1) (h3 : ¬ k2_cond3 i = 1#1) (x7 : Vec Ideal S32x128 .f32) (b : Fin 32) (o : Fin 128),
    (runMid (F := Ideal) (U := U) c i h1 h2 h3 M1 hm1 M2 hm2 M3 hm3 M4 hm4 M5 hm5 M6 hm6 M7 hm7 x1 x2 x3 x4 x5 x6).1 x7 (ix2 b o)
      = x7 (ix2 b o) + part i x1 x2 x3 x4 x5 b o
  last : ∀ (c : Dev nD) (i : grid2.Coords) (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec Ideal S1024x256 .i32) (x2 x3 : Vec Ideal S8x1024 .i32) (x4 : Vec Ideal S1x8x128 .i32) (x5 : Vec Ideal S1024x128 .f32) (x6 : Vec Ideal S1x128 .f32)
    (h1 : ¬ k2_cond1 i = 1#1) (h2 : k2_cond2 i = 1#1) (h3 : k2_cond3 i = 1#1) (x7 : Vec Ideal S32x128 .f32) (b : Fin 32) (o : Fin 128),
    (runLast (F := Ideal) (U := U) c i h1 h2 h3 M1 hm1 M2 hm2 M3 hm3 M4 hm4 M5 hm5 M6 hm6 M7 hm7 x1 x2 x3 x4 x5 x6).1 x7 (ix2 b o)
      = Ideal.logistic ((x7 (ix2 b o) + part i x1 x2 x3 x4 x5 b o) + x6 (ix2 (0 : Fin 1) o))

/-! ## One point -/

/-- At the first point the accumulator is overwritten with the block's contribution, -/
theorem accStep_first (hv : RunApply U) (c : Dev nD) (t : Fin cfg2.N) (h0 : t.val = 0)
    (x1 : Vec Ideal S1024x256 .i32) (x2 x3 : Vec Ideal S8x1024 .i32) (x4 : Vec Ideal S1x8x128 .i32) (x5 : Vec Ideal S1024x128 .f32) (x6 : Vec Ideal S1x128 .f32)
    (Y : Vec Ideal S32x128 .f32) (b : Fin 32) (o : Fin 128) :
    accStep (F := Ideal) U c t x1 x2 x3 x4 x5 x6 Y (ix2 b o) = part (grid2.coords t) x1 x2 x3 x4 x5 b o := by
  unfold accStep; rw [dif_pos h0]
  exact hv.first c (grid2.coords t) _ _ _ _ _ _ _ _ _ _ _ _ _ _ x1 x2 x3 x4 x5 x6 _ _ _ Y b o

/-- at a middle point the block's contribution is added, -/
theorem accStep_mid (hv : RunApply U) (c : Dev nD) (t : Fin cfg2.N) (h0 : t.val ≠ 0) (h96 : t.val ≠ 96)
    (x1 : Vec Ideal S1024x256 .i32) (x2 x3 : Vec Ideal S8x1024 .i32) (x4 : Vec Ideal S1x8x128 .i32) (x5 : Vec Ideal S1024x128 .f32) (x6 : Vec Ideal S1x128 .f32)
    (Y : Vec Ideal S32x128 .f32) (b : Fin 32) (o : Fin 128) :
    accStep (F := Ideal) U c t x1 x2 x3 x4 x5 x6 Y (ix2 b o) = Y (ix2 b o) + part (grid2.coords t) x1 x2 x3 x4 x5 b o := by
  unfold accStep; rw [dif_neg h0, dif_neg h96]
  exact hv.mid c (grid2.coords t) _ _ _ _ _ _ _ _ _ _ _ _ _ _ x1 x2 x3 x4 x5 x6 _ _ _ Y b o

/-- and at the last point the block's contribution and the bias are added and the logistic function applied. -/
theorem accStep_last (hv : RunApply U) (c : Dev nD) (t : Fin cfg2.N) (h96 : t.val = 96)
    (x1 : Vec Ideal S1024x256 .i32) (x2 x3 : Vec Ideal S8x1024 .i32) (x4 : Vec Ideal S1x8x128 .i32) (x5 : Vec Ideal S1024x128 .f32) (x6 : Vec Ideal S1x128 .f32)
    (Y : Vec Ideal S32x128 .f32) (b : Fin 32) (o : Fin 128) :
    accStep (F := Ideal) U c t x1 x2 x3 x4 x5 x6 Y (ix2 b o)
      = Ideal.logistic ((Y (ix2 b o) + part (grid2.coords t) x1 x2 x3 x4 x5 b o) + x6 (ix2 (0 : Fin 1) o)) := by
  unfold accStep; rw [dif_neg (by omega : ¬ t.val = 0), dif_pos h96]
  exact hv.last c (grid2.coords t) _ _ _ _ _ _ _ _ _ _ _ _ _ _ x1 x2 x3 x4 x5 x6 _ _ _ Y b o

/-! ## The points in order -/

/-- The words that complete the two overhanging blocks at a point. -/
abbrev Junk : Type := Vec Ideal S1024x256 .i32 × Vec Ideal S1024x128 .f32

/-- The contribution of point `t` to entry `(b, o)`, its two overhanging blocks completed by `D t`. -/
def partAt (V : (c : Dev nD) → (b : Ref sig .tc) → Buf (Elt Ideal) ((c : Thread nD τ).loc b)) (c : Dev nD) (D : ℕ → Junk)
    (t : Fin cfg2.N) (b : Fin 32) (o : Fin 128) : EReal :=
  part (grid2.coords t) (found0 V c t (D t.val).1) (found1 V c t) (found2 V c t) (found3 V c t) (found4 V c t (D t.val).2) b o

/-- The same over the naturals: nothing past the grid. -/
def partN (V : (c : Dev nD) → (b : Ref sig .tc) → Buf (Elt Ideal) ((c : Thread nD τ).loc b)) (c : Dev nD) (D : ℕ → Junk)
    (b : Fin 32) (o : Fin 128) (i : ℕ) : EReal :=
  if hi : i < cfg2.N then partAt V c D ⟨i, hi⟩ b o else 0

/-- The contribution of a point reads the completions at that point only. -/
theorem partN_congr (V : (c : Dev nD) → (b : Ref sig .tc) → Buf (Elt Ideal) ((c : Thread nD τ).loc b)) (c : Dev nD) (D D' : ℕ → Junk)
    (b : Fin 32) (o : Fin 128) (i : ℕ) (h : D i = D' i) : partN V c D b o i = partN V c D' b o i := by
  unfold partN partAt; split
  · show part _ (found0 V c _ (D i).1) _ _ _ (found4 V c _ (D i).2) b o = part _ (found0 V c _ (D' i).1) _ _ _ (found4 V c _ (D' i).2) b o
    rw [h]
  · rfl

/-- A predicate on the accumulator's contents after point `n` that unfolds point by point as the call does: after
    point 0, `accStep` there of anything; after point `n + 1`, `accStep` there of contents it admits after point `n`. -/
structure IsIter (U : Type) [URA U] (V : (c : Dev nD) → (b : Ref sig .tc) → Buf (Elt Ideal) ((c : Thread nD τ).loc b)) (c : Dev nD)
    (R : (n : ℕ) → n < cfg2.N → Vec Ideal S32x128 .f32 → Prop) : Prop where
  zero : ∀ (h : 0 < cfg2.N) (X : Vec Ideal S32x128 .f32), R 0 h X → ∃ d0 d4 Y,
    X = accStep (F := Ideal) U c ⟨0, h⟩ (found0 V c ⟨0, h⟩ d0) (found1 V c ⟨0, h⟩) (found2 V c ⟨0, h⟩) (found3 V c ⟨0, h⟩) (found4 V c ⟨0, h⟩ d4) (found5 V c ⟨0, h⟩) Y
  succ : ∀ (n : ℕ) (h : n + 1 < cfg2.N) (X : Vec Ideal S32x128 .f32), R (n + 1) h X → ∃ d0 d4 Y, R n (Nat.lt_of_succ_lt h) Y ∧
    X = accStep (F := Ideal) U c ⟨n + 1, h⟩ (found0 V c ⟨n + 1, h⟩ d0) (found1 V c ⟨n + 1, h⟩) (found2 V c ⟨n + 1, h⟩) (found3 V c ⟨n + 1, h⟩) (found4 V c ⟨n + 1, h⟩ d4) (found5 V c ⟨n + 1, h⟩) Y

variable {V : (c : Dev nD) → (b : Ref sig .tc) → Buf (Elt Ideal) ((c : Thread nD τ).loc b)} {c : Dev nD}
  {R : (n : ℕ) → n < cfg2.N → Vec Ideal S32x128 .f32 → Prop}

/-- After point `n < 96` every entry is the sum of the contributions of the points `0 … n`, for completions chosen per
    point and the same for all entries. -/
theorem iter_sum (hv : RunApply U) (hR : IsIter U V c R) (n : ℕ) :
    ∀ (h : n < cfg2.N), n < 96 → ∀ X : Vec Ideal S32x128 .f32, R n h X →
      ∃ D : ℕ → Junk, ∀ (b : Fin 32) (o : Fin 128), X (ix2 b o) = ∑ i ∈ Finset.range (n + 1), partN V c D b o i := by
  induction n with
  | zero =>
    intro h _ X hX
    obtain ⟨d0, d4, Y, rfl⟩ := hR.zero h X hX
    refine ⟨fun _ => (d0, d4), fun b o => ?_⟩
    rw [accStep_first hv c ⟨0, h⟩ rfl, Finset.sum_range_one]
    unfold partN; rw [dif_pos h]; rfl
  | succ n ih =>
    intro h hn X hX
    obtain ⟨d0, d4, Y, hY, rfl⟩ := hR.succ n h X hX
    obtain ⟨D', hD'⟩ := ih (Nat.lt_of_succ_lt h) (by omega) Y hY
    refine ⟨fun i => if i = n + 1 then (d0, d4) else D' i, fun b o => ?_⟩
    rw [accStep_mid hv c ⟨n + 1, h⟩ (Nat.succ_ne_zero n) (by show n + 1 ≠ 96; omega), hD' b o, Finset.sum_range_succ _ (n + 1)]
    refine congrArg₂ (· + ·) ?_ ?_
    · refine Finset.sum_congr rfl fun i hi => partN_congr V c _ _ b o i ?_
      have : i ≠ n + 1 := by have := Finset.mem_range.mp hi; omega
      show D' i = if i = n + 1 then (d0, d4) else D' i
      rw [if_neg this]
    · unfold partN partAt; rw [dif_pos h]
      show part _ (found0 V c _ d0) _ _ _ (found4 V c _ d4) b o = part _ (found0 V c _ (if n + 1 = n + 1 then (d0, d4) else D' (n + 1)).1) _ _ _ (found4 V c _ (if n + 1 = n + 1 then (d0, d4) else D' (n + 1)).2) b o
      rw [if_pos rfl]

/-- The sum over the naturals below 97 is the sum over the grid's points. -/
theorem sum_partN (D : ℕ → Junk) (b : Fin 32) (o : Fin 128) :
    ∑ i ∈ Finset.range (96 + 1), partN V c D b o i = ∑ t : Fin cfg2.N, partAt V c D t b o := by
  have e : ∑ i ∈ Finset.range (96 + 1), partN V c D b o i = ∑ i ∈ Finset.range cfg2.N, partN V c D b o i :=
    congrArg (fun k => ∑ i ∈ Finset.range k, partN V c D b o i) (N_2.symm : 96 + 1 = cfg2.N)
  rw [e, ← Fin.sum_univ_eq_sum_range (fun i => partN V c D b o i) cfg2.N]
  exact Finset.sum_congr rfl fun t _ => by unfold partN; rw [dif_pos t.isLt]

/-- AFTER THE LAST POINT every entry `(b, o)` is the logistic function of the sum of the 97 contributions plus the
    bias at `o`, for completions chosen per point and the same for all entries. -/
theorem iter_last (hv : RunApply U) (hR : IsIter U V c R) (h : 96 < cfg2.N) (X : Vec Ideal S32x128 .f32) (hX : R 96 h X) :
    ∃ D : ℕ → Junk, ∀ (b : Fin 32) (o : Fin 128),
      X (ix2 b o) = Ideal.logistic ((∑ t : Fin cfg2.N, partAt V c D t b o) + found5 V c ⟨96, h⟩ (ix2 (0 : Fin 1) o)) := by
  obtain ⟨d0, d4, Y, hY, rfl⟩ := hR.succ 95 h X hX
  obtain ⟨D', hD'⟩ := iter_sum hv hR 95 (Nat.lt_of_succ_lt h) (by omega) Y hY
  refine ⟨fun i => if i = 96 then (d0, d4) else D' i, fun b o => ?_⟩
  rw [accStep_last hv c ⟨95 + 1, h⟩ rfl, hD' b o, ← sum_partN, Finset.sum_range_succ _ 96]
  refine congrArg Ideal.logistic (congrArg₂ (· + ·) (congrArg₂ (· + ·) ?_ ?_) rfl)
  · refine Finset.sum_congr rfl fun i hi => partN_congr V c _ _ b o i ?_
    have : i ≠ 96 := by have := Finset.mem_range.mp hi; omega
    show D' i = if i = 96 then (d0, d4) else D' i
    rw [if_neg this]
  · unfold partN partAt; rw [dif_pos h]
    show part _ (found0 V c _ d0) _ _ _ (found4 V c _ d4) b o = part _ (found0 V c _ (if 96 = 96 then (d0, d4) else D' 96).1) _ _ _ (found4 V c _ (if 96 = 96 then (d0, d4) else D' 96).2) b o
    rw [if_pos rfl]

/-! ## The call's result -/

/-- The accumulator's contents after point `n`, as the region's proof data names them, unfold point by point. -/
theorem iter_isIter (V : (c : Dev nD) → (b : Ref sig .tc) → Buf (Elt Ideal) ((c : Thread nD τ).loc b)) (c : Dev nD) :
    IsIter U V c (Iter (F := Ideal) U V c) :=
  ⟨fun _ _ hX => hX, fun _ _ _ hX => hX⟩

/-- What the accumulator may hold after the last point: the logistic function of the 97 contributions' sum plus the bias. -/
theorem iter96_value (hv : RunApply U) (V : (c : Dev nD) → (b : Ref sig .tc) → Buf (Elt Ideal) ((c : Thread nD τ).loc b)) (c : Dev nD)
    (h : 96 < cfg2.N) (X : Vec Ideal S32x128 .f32) (hX : Iter (F := Ideal) U V c 96 h X) :
    ∃ D : ℕ → Junk, ∀ (b : Fin 32) (o : Fin 128),
      X (ix2 b o) = Ideal.logistic ((∑ t : Fin cfg2.N, partAt V c D t b o) + found5 V c ⟨96, h⟩ (ix2 (0 : Fin 1) o)) :=
  iter_last hv (iter_isIter V c) h X hX

/-- THE RESULT ARRAY after the call: whatever contents the one write-back may leave, entry `(b, o)` is the logistic function
    of the sum over the 97 points of the point's contribution, plus the bias at `o`. -/
theorem arr_value (hv : RunApply U) (Φc : sProp (MT nD τ sig (SparseCore.Cfg.HIx 1) (Elt Ideal) ℕ U ℕ)) (O : CellTallies nD τ sig (SparseCore.Cfg.HIx 1))
    (B : Set (SemLoc sig × SparseCore.Cfg.HIx 1)) (V : (c : Dev nD) → (b : Ref sig .tc) → Buf (Elt Ideal) ((c : Thread nD τ).loc b)) (c : Dev nD)
    (F14 : Buf (Elt Ideal) ((c : Thread nD τ).loc main_v14)) (h : (rdatV (F := Ideal) (U := U) Φc O B V c).ArrAt 6 cfg2.N F14) :
    ∃ D : ℕ → Junk, ∀ (b : Fin 32) (o : Fin 128),
      F14 (ix2 b o) = Ideal.logistic ((∑ t : Fin cfg2.N, partAt V c D t b o) + found5 V c ⟨96, by decide⟩ (ix2 (0 : Fin 1) o)) := by
  obtain ⟨X, hX, hF⟩ := arrAt6 (F := Ideal) (U := U) Φc O B V c F14 h
  obtain ⟨D, hD⟩ := iter96_value hv V c (by decide) X hX
  exact ⟨D, fun b o => (congrFun hF (ix2 b o)).trans (hD b o)⟩

end Cert.MainRegionV

end
-- ==== Proof.KernelIdx.lean ====
/-
  What the second pipelined call's computed operands hold, index by index.

  The neighbour slots and the validity flags of the 98976 read-out nodes (rows 1024 … 99999), 352 zero rows appended, are
  laid out slot-major (8 × 99328); the flat index list is that array in row-major order.  The gathered list, cast back to
  8 × 99328, therefore holds at slot `k` of read-out node `r` the packed word of the node that slot names; and the
  packed table from word 1024 on, cast to 97 × 8 × 128, holds at `(i, s, l)` the packed word of read-out node
  `1024 i + 128 s + l`.
-/
import proofs.«203813_g3255585210786_cont_8to1_b_763_8_alg».proof.Proof.HostIdx
import proofs.«203813_g3255585210786_cont_8to1_b_763_8_alg».proof.Proof.Spec
import proofs.«203813_g3255585210786_cont_8to1_b_763_8_alg».proof.Proof.LaneMath.Defs
import proofs.«203813_g3255585210786_cont_8to1_b_763_8_alg».proof.Proof.ScTask.Trip
import Idealize.ShloMosaic.Lib.Pipeline.Value
import Idealize.ShloMosaic.Lib.ValueLayout

noncomputable section

namespace Cert.KI

open Cert.KernelIdeal Cert.KernelIdeal.Gen
open Idealize.ShloMosaic Idealize.ShloMosaic.ValueIdx
open Cert.ScTask (ent)

/-- The slot-major array at slot `k`, row `r`: the array's row `1024 + r` at slot `k` for a read-out node's row, zero for an appended one. -/
theorem slotMajor_apply (x : IVec S100000x8 32) (k : Fin 8) (r : Fin 99328) :
    slotMajor x (ix2 k r) = if h : r.val < 98976 then x (ix2 (⟨1024 + r.val, by omega⟩ : Fin 100000) k) else 0#32 := by
  unfold slotMajor
  rw [transpose_ix2_apply]
  unfold pad
  by_cases hr : r.val < 98976
  · rw [dif_pos hr, dif_pos (by
      intro a
      fin_cases a
      · refine ⟨Nat.zero_le _, Nat.mod_one _, ?_⟩
        show (r.val - 0) / (0 + 1) < 98976
        simpa using hr
      · refine ⟨Nat.zero_le _, Nat.mod_one _, ?_⟩
        show (k.val - 0) / (0 + 1) < 8
        simpa using k.isLt)]
    exact extractStridedSlice_apply _ _ _ _ _ (fun a => by
      fin_cases a
      · show 1024 + r.val = 1024 + (r.val - 0) / (0 + 1)
        simp
      · show k.val = 0 + (k.val - 0) / (0 + 1)
        simp)
  · rw [dif_neg hr, dif_neg (by
      intro h
      apply hr
      have h0 := (h 0).2.2
      have h0' : (r.val - 0) / (0 + 1) < 98976 := h0
      simpa using h0')]
    rfl

/-- The flat index list at `k · 99328 + r` is the slot-major array at slot `k`, row `r`. -/
theorem idxF_apply (adj : IVec S100000x8 32) (k : Fin 8) (r : Fin 99328) :
    idxF adj (ix1 (⟨k.val * 99328 + r.val, by have := k.isLt; have := r.isLt; omega⟩ : Fin 794624)) = slotMajor adj (ix2 k r) := by
  unfold idxF
  exact shapeCast_apply _ _ _ _ (by
    rw [Shape.rowMajor_val_two, Shape.rowMajor_val_one]
    rfl)

/-- THE GATHERED WORDS.  With the flat table holding each node's packed word and the gathered list holding, word by word, the
    table entry its index names: at slot `k` of read-out node `r` stands the packed word of the node that slot names. -/
theorem gathered_apply (st : IVec S32x100000 32) (adj : IVec S100000x8 32) (tab : IVec S100352 32) (gth : IVec S794624 32)
    (htab : ∀ n : Fin 100000, tab (ix1 (⟨n.val, by have := n.isLt; omega⟩ : Fin 100352)) = Cert.Lane.packOf fun b => st (ix2 b n))
    (hg : ∀ j, gth j = tab (ent (idxF adj j).toNat))
    (hadj : ∀ i, (adj i).toNat < 100000) (k : Fin 8) (r : Fin 99328) (hr : r.val < 98976) :
    shapeCast S8x99328 gth shapeCasts_S794624_S8x99328 (ix2 k r)
      = Cert.Lane.packOf fun b => st (ix2 b (Cert.Spec.nbr adj (Cert.Spec.res ⟨r.val, hr⟩) k)) := by
  have e1 : shapeCast S8x99328 gth shapeCasts_S794624_S8x99328 (ix2 k r)
      = gth (ix1 (⟨k.val * 99328 + r.val, by have := k.isLt; have := r.isLt; omega⟩ : Fin 794624)) :=
    shapeCast_apply _ _ _ _ (by
      rw [Shape.rowMajor_val_one, Shape.rowMajor_val_two]
      rfl)
  rw [e1, hg, idxF_apply, slotMajor_apply, dif_pos hr]
  have hn := hadj (ix2 (⟨1024 + r.val, by omega⟩ : Fin 100000) k)
  have e2 : ent (adj (ix2 (⟨1024 + r.val, by omega⟩ : Fin 100000) k)).toNat
      = ix1 (⟨(⟨(adj (ix2 (⟨1024 + r.val, by omega⟩ : Fin 100000) k)).toNat, hn⟩ : Fin 100000).val, by omega⟩ : Fin 100352) := by
    unfold ent
    congr 1
    apply Fin.ext
    exact Nat.mod_eq_of_lt (by omega)
  rw [e2, htab]
  congr 1
  funext b
  congr 2
  apply Fin.ext
  show (adj (ix2 (⟨1024 + r.val, by omega⟩ : Fin 100000) k)).toNat = (adj (ix2 (Cert.Spec.res ⟨r.val, hr⟩) k)).toNat % 100000
  rw [Nat.mod_eq_of_lt (hadj _)]
  rfl

/-- THE OWN WORDS.  The read-out nodes' own packed words, in blocks of 8 × 128: at `(i, s, l)` stands the packed word of
    read-out node `1024 i + 128 s + l`. -/
theorem own_apply (st : IVec S32x100000 32) (tab : IVec S100352 32)
    (htab : ∀ n : Fin 100000, tab (ix1 (⟨n.val, by have := n.isLt; omega⟩ : Fin 100352)) = Cert.Lane.packOf fun b => st (ix2 b n))
    (i : Fin 97) (s : Fin 8) (l : Fin 128) (h : 1024 * i.val + 128 * s.val + l.val < 98976) :
    shapeCast S97x8x128 (extractStridedSlice S99328 ![1024] tab slices_S100352_S99328_1024) shapeCasts_S99328_S97x8x128 (ix3 i s l)
      = Cert.Lane.packOf fun b => st (ix2 b (Cert.Spec.res ⟨1024 * i.val + 128 * s.val + l.val, h⟩)) := by
  have e1 : shapeCast S97x8x128 (extractStridedSlice S99328 ![1024] tab slices_S100352_S99328_1024) shapeCasts_S99328_S97x8x128 (ix3 i s l)
      = extractStridedSlice S99328 ![1024] tab slices_S100352_S99328_1024
          (ix1 (⟨1024 * i.val + 128 * s.val + l.val, by omega⟩ : Fin 99328)) :=
    shapeCast_apply _ _ _ _ (by
      rw [Shape.rowMajor_val_one, Shape.rowMajor_val_three]
      show 1024 * i.val + 128 * s.val + l.val = (i.val * 8 + s.val) * 128 + l.val
      omega)
  have e2 : extractStridedSlice S99328 ![1024] tab slices_S100352_S99328_1024
        (ix1 (⟨1024 * i.val + 128 * s.val + l.val, by omega⟩ : Fin 99328))
      = tab (ix1 (⟨1024 + (1024 * i.val + 128 * s.val + l.val), by omega⟩ : Fin 100352)) :=
    extractStridedSlice_apply _ _ _ _ _ (fun a => by
      have ha : a = 0 := Subsingleton.elim _ _
      subst ha
      rfl)
  rw [e1, e2]
  exact htab ⟨1024 + (1024 * i.val + 128 * s.val + l.val), by omega⟩

end Cert.KI

end
-- ==== Proof.MainBlk.lean ====
/-
  What the second pipelined call's staged blocks hold, index by index.

  At grid point `t` of 97 the six input buffers hold blocks of the six input arrays: rows `1024 (t + 1) …` of the
  node tables (the last block overhangs the array: past its end the buffer holds words nothing names), columns
  `1024 t …` of the two 8 × 99328 arrays, block `t` of the 97 × 8 × 128 array, rows `1024 t …` of the weights (the
  last block overhangs likewise), and the bias row whole.  Each block read at an index the array has is the array
  read at the index shifted by the block's offset.
-/
import proofs.«203813_g3255585210786_cont_8to1_b_763_8_alg».proof.Proof.MainRegionV
import proofs.«203813_g3255585210786_cont_8to1_b_763_8_alg».proof.Proof.PackValue
import Idealize.ShloMosaic.Lib.ValueIdx

set_option maxRecDepth 16384

noncomputable section

namespace Cert.MainRegionV

open Cert.KernelIdeal Cert.KernelIdeal.Gen
open Idealize.ShloMosaic Idealize.ShloMosaic.TcCoe Idealize.ShloMosaic.ValueIdx
open Idealize.ShloMosaic.Pipeline (RDat Cfg Window)
open Cert.PackRegion (lt_xsize_iff)

variable {F : FTy → Type} [FloatOps F]

/-- The grid has one axis: the point's coordinate is its number. -/
theorem coords2 (t : Fin cfg2.N) : (grid2.coords t 0).val = t.val := by
  show t.val / grid2.stride 0 % 97 = t.val
  rw [show grid2.stride 0 = 1 from by decide, Nat.div_one]
  exact Nat.mod_eq_of_lt (lt_of_lt_of_eq t.isLt (show cfg2.N = 97 from N_2))

/-- The point's number as a word, and its successor. -/
theorem tword (t : Fin cfg2.N) : (BitVec.ofNat 32 (grid2.coords t 0).val).toNat = t.val := by
  have hN : t.val < 97 := lt_of_lt_of_eq t.isLt (show cfg2.N = 97 from N_2)
  rw [coords2, BitVec.toNat_ofNat, Nat.mod_eq_of_lt (by omega)]
theorem tword1 (t : Fin cfg2.N) : (Scalar.addi (BitVec.ofNat 32 (grid2.coords t 0).val) 1#32).toNat = t.val + 1 := by
  have hN : t.val < 97 := lt_of_lt_of_eq t.isLt (show cfg2.N = 97 from N_2)
  show ((BitVec.ofNat 32 (grid2.coords t 0).val) + 1#32).toNat = _
  rw [BitVec.toNat_add, tword]
  show (t.val + 1) % 4294967296 = t.val + 1
  exact Nat.mod_eq_of_lt (by omega)

/-- Window 0's block as staged at point `t`, completed past the array's end by any `d0`, reads at a row the array has the
    array's element there. -/
theorem found0_apply (V : (c : Dev nD) → (b : Ref sig .tc) → Buf (Elt F) ((c : Thread nD τ).loc b)) (c : Dev nD)
    (t : Fin cfg2.N) (d0 : Vec F S1024x256 .i32) (r : Fin 1024) (a : Fin 256) (h : 1024 * (t.val + 1) + r.val < 100000) :
    found0 V c t d0 (ix2 r a) = V c main_arg3 (ix2 (⟨1024 * (t.val + 1) + r.val, h⟩ : Fin 100000) a) := by
  unfold found0
  have hm : win2_0.moved (grid2.coords t) (ix2 r a) = true := by
    rw [Window.moved_iff]
    intro ax
    match ax with
    | ⟨0, _⟩ =>
      refine (lt_xsize_iff win2_0 (grid2.coords t) (0 : Fin 2) r.val (show r.val < win2_0.size (0 : Fin 2) from r.isLt)).mpr ?_
      show (Scalar.addi (BitVec.ofNat 32 (grid2.coords t 0).val) 1#32).toNat * 1024 + r.val < 100000
      rw [tword1]; omega
    | ⟨1, _⟩ =>
      refine (lt_xsize_iff win2_0 (grid2.coords t) (1 : Fin 2) a.val (show a.val < win2_0.size (1 : Fin 2) from a.isLt)).mpr ?_
      show 0 * 256 + a.val < 256
      have := a.isLt; omega
  have hx : ix2 r a = win2_0.xinj (grid2.coords t) (fun ax => ⟨(ix2 r a ax).val, (win2_0.moved_iff (grid2.coords t) (ix2 r a)).mp hm ax⟩) := by
    funext ax; exact Fin.ext rfl
  rw [hx, Window.fill_xinj]
  unfold blk
  rw [View.read_apply]
  refine (cast_eq _ _).trans (congrArg (V c main_arg3) ?_)
  funext ax
  apply Fin.ext
  match ax with
  | ⟨0, _⟩ =>
    show (Scalar.addi (BitVec.ofNat 32 (grid2.coords t 0).val) 1#32).toNat * 1024 + 1 * r.val = 1024 * (t.val + 1) + r.val
    rw [tword1]; omega
  | ⟨1, _⟩ =>
    show 0 * 256 + 1 * a.val = a.val
    omega

/-- Window 4's block as staged at point `t`, completed past the array's end by any `d4`, reads at a row the array has the
    array's element there. -/
theorem found4_apply (V : (c : Dev nD) → (b : Ref sig .tc) → Buf (Elt F) ((c : Thread nD τ).loc b)) (c : Dev nD)
    (t : Fin cfg2.N) (d4 : Vec F S1024x128 .f32) (r : Fin 1024) (a : Fin 128) (h : 1024 * t.val + r.val < 98976) :
    found4 V c t d4 (ix2 r a) = V c main_arg4 (ix2 (⟨1024 * t.val + r.val, h⟩ : Fin 98976) a) := by
  unfold found4
  have hm : win2_4.moved (grid2.coords t) (ix2 r a) = true := by
    rw [Window.moved_iff]
    intro ax
    match ax with
    | ⟨0, _⟩ =>
      refine (lt_xsize_iff win2_4 (grid2.coords t) (0 : Fin 2) r.val (show r.val < win2_4.size (0 : Fin 2) from r.isLt)).mpr ?_
      show (BitVec.ofNat 32 (grid2.coords t 0).val).toNat * 1024 + r.val < 98976
      rw [tword]; omega
    | ⟨1, _⟩ =>
      refine (lt_xsize_iff win2_4 (grid2.coords t) (1 : Fin 2) a.val (show a.val < win2_4.size (1 : Fin 2) from a.isLt)).mpr ?_
      show 0 * 128 + a.val < 128
      have := a.isLt; omega
  have hx : ix2 r a = win2_4.xinj (grid2.coords t) (fun ax => ⟨(ix2 r a ax).val, (win2_4.moved_iff (grid2.coords t) (ix2 r a)).mp hm ax⟩) := by
    funext ax; exact Fin.ext rfl
  rw [hx, Window.fill_xinj]
  unfold blk
  rw [View.read_apply]
  refine (cast_eq _ _).trans (congrArg (V c main_arg4) ?_)
  funext ax
  apply Fin.ext
  match ax with
  | ⟨0, _⟩ =>
    show (BitVec.ofNat 32 (grid2.coords t 0).val).toNat * 1024 + 1 * r.val = 1024 * t.val + r.val
    rw [tword]; omega
  | ⟨1, _⟩ =>
    show 0 * 128 + 1 * a.val = a.val
    omega

/-- Window 1's block at point `t`: columns `1024 t … 1024 t + 1023` of the array. -/
theorem found1_apply (V : (c : Dev nD) → (b : Ref sig .tc) → Buf (Elt F) ((c : Thread nD τ).loc b)) (c : Dev nD)
    (t : Fin cfg2.N) (k : Fin 8) (r : Fin 1024) :
    found1 V c t (ix2 k r) = V c main_v11 (ix2 k (⟨1024 * t.val + r.val, by
      have hN : t.val < 97 := lt_of_lt_of_eq t.isLt (show cfg2.N = 97 from N_2)
      have := r.isLt; omega⟩ : Fin 99328)) := by
  unfold found1 blk
  rw [View.read_apply]
  refine (cast_eq _ _).trans (congrArg (V c main_v11) ?_)
  funext ax
  apply Fin.ext
  match ax with
  | ⟨0, _⟩ =>
    show 0 * 8 + 1 * k.val = k.val
    omega
  | ⟨1, _⟩ =>
    show (BitVec.ofNat 32 (grid2.coords t 0).val).toNat * 1024 + 1 * r.val = 1024 * t.val + r.val
    rw [tword]; omega

/-- Window 2's block at point `t`: columns `1024 t … 1024 t + 1023` of the array. -/
theorem found2_apply (V : (c : Dev nD) → (b : Ref sig .tc) → Buf (Elt F) ((c : Thread nD τ).loc b)) (c : Dev nD)
    (t : Fin cfg2.N) (k : Fin 8) (r : Fin 1024) :
    found2 V c t (ix2 k r) = V c main_v6 (ix2 k (⟨1024 * t.val + r.val, by
      have hN : t.val < 97 := lt_of_lt_of_eq t.isLt (show cfg2.N = 97 from N_2)
      have := r.isLt; omega⟩ : Fin 99328)) := by
  unfold found2 blk
  rw [View.read_apply]
  refine (cast_eq _ _).trans (congrArg (V c main_v6) ?_)
  funext ax
  apply Fin.ext
  match ax with
  | ⟨0, _⟩ =>
    show 0 * 8 + 1 * k.val = k.val
    omega
  | ⟨1, _⟩ =>
    show (BitVec.ofNat 32 (grid2.coords t 0).val).toNat * 1024 + 1 * r.val = 1024 * t.val + r.val
    rw [tword]; omega

/-- Window 3's block at point `t`: the array's block `t`. -/
theorem found3_apply (V : (c : Dev nD) → (b : Ref sig .tc) → Buf (Elt F) ((c : Thread nD τ).loc b)) (c : Dev nD)
    (t : Fin cfg2.N) (s : Fin 8) (l : Fin 128) :
    found3 V c t (ix3 (0 : Fin 1) s l) = V c main_v13 (ix3 (⟨t.val, lt_of_lt_of_eq t.isLt (show cfg2.N = 97 from N_2)⟩ : Fin 97) s l) := by
  unfold found3 blk
  rw [View.read_apply]
  refine (cast_eq _ _).trans (congrArg (V c main_v13) ?_)
  funext ax
  apply Fin.ext
  match ax with
  | ⟨0, _⟩ =>
    show (BitVec.ofNat 32 (grid2.coords t 0).val).toNat * 1 + 1 * 0 = t.val
    rw [tword]; omega
  | ⟨1, _⟩ =>
    show 0 * 8 + 1 * s.val = s.val
    omega
  | ⟨2, _⟩ =>
    show 0 * 128 + 1 * l.val = l.val
    omega

/-- Window 5's block at every point: the array whole. -/
theorem found5_apply (V : (c : Dev nD) → (b : Ref sig .tc) → Buf (Elt F) ((c : Thread nD τ).loc b)) (c : Dev nD)
    (t : Fin cfg2.N) (o : Fin 128) :
    found5 V c t (ix2 (0 : Fin 1) o) = V c main_v7 (ix2 (0 : Fin 1) o) := by
  unfold found5 blk
  rw [View.read_apply]
  refine (cast_eq _ _).trans (congrArg (V c main_v7) ?_)
  funext ax
  apply Fin.ext
  match ax with
  | ⟨0, _⟩ =>
    show 0 * 1 + 1 * 0 = 0
    omega
  | ⟨1, _⟩ =>
    show 0 * 128 + 1 * o.val = o.val
    omega

end Cert.MainRegionV

end
-- ==== Proof.LaneMath.Bits.lean ====
/-
  Small facts about 32-bit words used by the lane arithmetic: shifts by a literal amount, a shift followed by a
  mask read bit by bit, the value of a masked word as a number, and the bits of a number given as a binary sum.
-/
import proofs.«203813_g3255585210786_cont_8to1_b_763_8_alg».proof.Proof.LaneMath.Defs

open scoped BigOperators

namespace Cert.Lane

open Idealize.ShloMosaic

/-! ### The shifts at an amount below 32 -/

theorem shrsi_word (x y : BitVec 32) (hy : y.toNat < 32) : IntOp.shrsi .vector x y = x.sshiftRight y.toNat := by
  unfold IntOp.shrsi
  rw [if_pos hy]; rfl

theorem shrsi_lit (x : BitVec 32) (n : Nat) (hn : n < 32) :
    IntOp.shrsi .vector x (BitVec.ofNat 32 n) = x.sshiftRight n := by
  have h : (BitVec.ofNat 32 n).toNat = n := by rw [BitVec.toNat_ofNat]; omega
  rw [shrsi_word _ _ (by omega), h]

theorem shli_lit (x : BitVec 32) (n : Nat) (hn : n < 32) :
    IntOp.shli .vector x (BitVec.ofNat 32 n) = x <<< n := by
  have h : (BitVec.ofNat 32 n).toNat = n := by rw [BitVec.toNat_ofNat]; omega
  unfold IntOp.shli
  rw [if_pos (by omega), BitVec.shiftLeft_eq', h]

/-! ### A shift followed by a mask -/

/-- Where the mask has no bit that the shift would fill with the sign, the arithmetic shift is the logical one. -/
theorem sshiftRight_and (x m : BitVec 32) (s : Nat) (h : ∀ i, i < 32 → m.getLsbD i = true → s + i < 32) :
    x.sshiftRight s &&& m = (x >>> s) &&& m := by
  apply BitVec.eq_of_getLsbD_eq
  intro i hi
  rw [BitVec.getLsbD_and, BitVec.getLsbD_and, BitVec.getLsbD_sshiftRight, BitVec.getLsbD_ushiftRight]
  cases hm : m.getLsbD i with
  | false => simp
  | true =>
    have := h i hi hm
    simp [this, show ¬ (32 ≤ i) by omega]

/-- One bit of a word, read by an arithmetic shift and the mask 1. -/
theorem sshiftRight_and_one (x : BitVec 32) (s : Nat) (hs : s < 32) :
    x.sshiftRight s &&& 1#32 = if x.getLsbD s then 1#32 else 0#32 := by
  apply BitVec.eq_of_getLsbD_eq
  intro i hi
  rw [BitVec.getLsbD_and, BitVec.getLsbD_sshiftRight, BitVec.getLsbD_one]
  by_cases h0 : i = 0
  · subst h0
    cases hx : x.getLsbD s <;> simp [hs]
  · cases hx : x.getLsbD s <;> simp [h0]

theorem ushiftRight_and_one (x : BitVec 32) (s : Nat) :
    (x >>> s) &&& 1#32 = if x.getLsbD s then 1#32 else 0#32 := by
  apply BitVec.eq_of_getLsbD_eq
  intro i hi
  rw [BitVec.getLsbD_and, BitVec.getLsbD_ushiftRight, BitVec.getLsbD_one]
  by_cases h0 : i = 0
  · subst h0
    cases hx : x.getLsbD s <;> simp
  · cases hx : x.getLsbD s <;> simp [h0]

theorem bitOf_lit (x : BitVec 32) (n : Nat) (hn : n < 32) :
    bitOf x (BitVec.ofNat 32 n) = if x.getLsbD n then 1#32 else 0#32 := by
  unfold bitOf IntOp.andi
  rw [shrsi_lit _ _ hn, sshiftRight_and_one _ _ hn]

theorem bitOf_word (x y : BitVec 32) (hy : y.toNat < 32) :
    bitOf x y = if x.getLsbD y.toNat then 1#32 else 0#32 := by
  unfold bitOf IntOp.andi
  rw [shrsi_word _ _ hy, sshiftRight_and_one _ _ hy]

/-- A 0/1 word is the word of its own lowest bit. -/
theorem ite_decide_eq_one (s : BitVec 32) (hs : s = 0#32 ∨ s = 1#32) :
    (if decide (s = 1#32) then 1#32 else 0#32) = s := by
  rcases hs with h | h <;> subst h <;> decide

theorem toNat_le_one (s : BitVec 32) (hs : s = 0#32 ∨ s = 1#32) : s.toNat ≤ 1 := by
  rcases hs with h | h <;> subst h <;> decide

theorem toNat_eq_one_iff (s : BitVec 32) : s.toNat = 1 ↔ s = 1#32 := by
  constructor
  · intro h; apply BitVec.eq_of_toNat_eq; rw [h]; rfl
  · intro h; subst h; rfl

/-! ### The masks' positions -/

theorem mask_quad_pos : ∀ i, i < 32 → (16843009#32 : BitVec 32).getLsbD i = true → i ≤ 24 := by decide

theorem mask_quad_at (j : Nat) (hj : j < 4) : (16843009#32 : BitVec 32).getLsbD (8 * j) = true := by
  interval_cases j <;> decide

/-! ### Numbers -/

/-- A bitwise "and" of two numbers, byte by byte. -/
theorem land_byte (a b : Nat) : a &&& b = (a % 256 &&& b % 256) + 256 * (a / 256 &&& b / 256) := by
  have h1 : (a &&& b) % 2 ^ 8 = (a % 2 ^ 8) &&& (b % 2 ^ 8) := Nat.and_mod_two_pow
  have h2 : (a &&& b) / 2 ^ 8 = (a / 2 ^ 8) &&& (b / 2 ^ 8) := Nat.and_div_two_pow
  norm_num at h1 h2
  omega

/-- The mask `0x01010101` keeps the lowest bit of each byte. -/
theorem land_quad (n : Nat) :
    n &&& 16843009 = n % 2 + 256 * (n / 256 % 2) + 65536 * (n / 65536 % 2) + 16777216 * (n / 16777216 % 2) := by
  rw [land_byte n 16843009, show 16843009 % 256 = 1 by norm_num, show 16843009 / 256 = 65793 by norm_num,
    land_byte (n / 256) 65793, show 65793 % 256 = 1 by norm_num, show 65793 / 256 = 257 by norm_num,
    land_byte (n / 256 / 256) 257, show 257 % 256 = 1 by norm_num, show 257 / 256 = 1 by norm_num]
  simp only [Nat.and_one_is_mod]
  omega

/-- The bits of a binary sum with digits 0 or 1, and its size. -/
theorem binsum (n : Nat) (f : Fin n → Nat) (hf : ∀ b, f b ≤ 1) :
    (∑ b : Fin n, f b * 2 ^ b.val) < 2 ^ n ∧
      ∀ i : Fin n, (∑ b : Fin n, f b * 2 ^ b.val).testBit i.val = decide (f i = 1) := by
  induction n with
  | zero => exact ⟨by simp, fun i => i.elim0⟩
  | succ n ih =>
    obtain ⟨hlt, hbit⟩ := ih (fun b => f b.castSucc) (fun b => hf _)
    rw [Fin.sum_univ_castSucc]
    simp only [Fin.val_castSucc, Fin.val_last]
    have hl := hf (Fin.last n)
    have hpos : 0 < 2 ^ n := Nat.two_pow_pos n
    refine ⟨?_, ?_⟩
    · have : f (Fin.last n) * 2 ^ n ≤ 1 * 2 ^ n := Nat.mul_le_mul_right _ hl
      rw [Nat.pow_succ]; omega
    · intro i
      rw [Nat.add_comm, Nat.mul_comm, Nat.testBit_two_pow_mul_add _ hlt]
      by_cases hi : i.val < n
      · rw [if_pos hi]
        have := hbit ⟨i.val, hi⟩
        simpa using this
      · have hin : i.val = n := by have := i.isLt; omega
        have hil : i = Fin.last n := Fin.ext hin
        rw [if_neg hi, hin, Nat.sub_self, hil, Nat.testBit_zero]
        have : f (Fin.last n) = 0 ∨ f (Fin.last n) = 1 := by omega
        rcases this with h | h <;> simp [h]

end Cert.Lane
-- ==== Proof.LaneMath.Pack.lean ====
/-
  Packing 32 batch rows of 0/1 states into one word, and reading a row's bit back.

  The rows occupy distinct bits, so the sum of the shifted rows is the number whose binary digits they are: it is
  below 2^32 (no wrap) and its bit `b` is row `b`.
-/
import proofs.«203813_g3255585210786_cont_8to1_b_763_8_alg».proof.Proof.LaneMath.Bits
import Mathlib.Data.BitVec
import Mathlib.Algebra.BigOperators.Fin

open scoped BigOperators

namespace Cert.Lane

open Idealize.ShloMosaic

/-- The number whose binary digit `b` is row `b`. -/
def packNat (s : Fin 32 → BitVec 32) : Nat := ∑ b : Fin 32, (s b).toNat * 2 ^ b.val

theorem packNat_lt (s : Fin 32 → BitVec 32) (hs : ∀ b, s b = 0#32 ∨ s b = 1#32) : packNat s < 2 ^ 32 :=
  (binsum 32 (fun b => (s b).toNat) (fun b => toNat_le_one _ (hs b))).1

theorem packNat_testBit (s : Fin 32 → BitVec 32) (hs : ∀ b, s b = 0#32 ∨ s b = 1#32) (b : Fin 32) :
    (packNat s).testBit b.val = decide (s b = 1#32) := by
  have := (binsum 32 (fun b => (s b).toNat) (fun b => toNat_le_one _ (hs b))).2 b
  rw [packNat, this]
  exact decide_eq_decide.mpr (toNat_eq_one_iff _)

/-- One shifted row as the word of a number. -/
theorem shl_row (x : BitVec 32) (b : Nat) : x <<< b = BitVec.ofNat 32 (x.toNat * 2 ^ b) := by
  apply BitVec.eq_of_toNat_eq
  rw [BitVec.toNat_shiftLeft, BitVec.toNat_ofNat, Nat.shiftLeft_eq]

theorem packOf_eq_ofNat (s : Fin 32 → BitVec 32) : packOf s = BitVec.ofNat 32 (packNat s) := by
  have h1 : packOf s = ∑ b : Fin 32, BitVec.ofNat 32 ((s b).toNat * 2 ^ b.val) := by
    unfold packOf
    rw [Finset.sum_eq_fold]
    refine congrArg (fun f => Finset.fold (β := BitVec 32) (· + ·) 0#32 f Finset.univ) (funext fun b => ?_)
    rw [shli_lit _ _ b.isLt, shl_row]
  rw [h1, packNat, ← BitVec.natCast_eq_ofNat, Nat.cast_sum]
  rfl

theorem packOf_toNat (s : Fin 32 → BitVec 32) (hs : ∀ b, s b = 0#32 ∨ s b = 1#32) :
    (packOf s).toNat = packNat s := by
  rw [packOf_eq_ofNat, BitVec.toNat_ofNat]
  exact Nat.mod_eq_of_lt (packNat_lt s hs)

/-- Bit `b` of the packed word is row `b`. -/
theorem pack_getLsbD (s : Fin 32 → BitVec 32) (hs : ∀ b, s b = 0#32 ∨ s b = 1#32) (b : Fin 32) :
    (packOf s).getLsbD b.val = decide (s b = 1#32) := by
  rw [← BitVec.testBit_toNat, packOf_toNat s hs, packNat_testBit s hs]

/-- Row `b` read back by a logical shift and the mask 1. -/
theorem pack_bit (s : Fin 32 → BitVec 32) (hs : ∀ b, s b = 0#32 ∨ s b = 1#32) (b : Fin 32) :
    (packOf s >>> b.val) &&& 1#32 = s b := by
  rw [ushiftRight_and_one, pack_getLsbD s hs, ite_decide_eq_one _ (hs b)]

/-- Bit `q + 8 j` of any word, read the way the main body reads it: shift by `q`, keep each byte's lowest bit, shift
    by `8 j`, keep the lowest bit. -/
theorem oldOf_eq (p : BitVec 32) (q j : Nat) (hq : q < 8) (hj : j < 4) :
    oldOf p q j = if p.getLsbD (q + 8 * j) then 1#32 else 0#32 := by
  unfold oldOf
  rw [bitOf_lit _ _ (by omega)]
  unfold quad IntOp.andi
  rw [shrsi_lit _ _ (by omega), BitVec.getLsbD_and, BitVec.getLsbD_sshiftRight, mask_quad_at j hj]
  simp [show ¬ (32 ≤ 8 * j) by omega, show q + 8 * j < 32 by omega]

/-- Row `q + 8 j` read back from the packed word the way the main body reads it. -/
theorem pack_old (s : Fin 32 → BitVec 32) (hs : ∀ b, s b = 0#32 ∨ s b = 1#32) (q j : Nat) (hq : q < 8) (hj : j < 4) :
    oldOf (packOf s) q j = s ⟨q + 8 * j, by omega⟩ := by
  rw [oldOf_eq _ _ _ hq hj]
  have := pack_getLsbD s hs ⟨q + 8 * j, by omega⟩
  simp only at this
  rw [this, ite_decide_eq_one _ (hs _)]

end Cert.Lane
-- ==== Proof.LaneMath.Mask.lean ====
/-
  Masking a gathered word by its 0/1 flag, and the test "no slot is valid".
-/
import proofs.«203813_g3255585210786_cont_8to1_b_763_8_alg».proof.Proof.LaneMath.Bits

namespace Cert.Lane

open Idealize.ShloMosaic

/-- A word times a 0/1 flag: the word where the flag is 1, zero where it is 0. -/
theorem muli_flag_getLsbD (g m : BitVec 32) (hm : m = 0#32 ∨ m = 1#32) (t : Nat) :
    (IntOp.muli g m).getLsbD t = (g.getLsbD t && decide (m = 1#32)) := by
  unfold IntOp.muli
  rcases hm with h | h <;> subst h
  · simp
  · simp

/-- The sum of eight 0/1 flags is zero exactly when every flag is zero (the sum is at most 8: it does not wrap). -/
theorem msumOf_eq_zero_iff (m : Fin 8 → BitVec 32) (hm : ∀ k, m k = 0#32 ∨ m k = 1#32) :
    msumOf m = 0#32 ↔ ∀ k, m k = 0#32 := by
  have hb : ∀ k, (m k).toNat ≤ 1 := fun k => toNat_le_one _ (hm k)
  have hz : ∀ k, (m k).toNat = 0 ↔ m k = 0#32 := fun k =>
    ⟨fun h => BitVec.eq_of_toNat_eq (by rw [h]; rfl), fun h => by rw [h]; rfl⟩
  have h0 := hb 0; have h1 := hb 1; have h2 := hb 2; have h3 := hb 3
  have h4 := hb 4; have h5 := hb 5; have h6 := hb 6; have h7 := hb 7
  have hs : (msumOf m).toNat = (m 0).toNat + (m 1).toNat + (m 2).toNat + (m 3).toNat + (m 4).toNat + (m 5).toNat
      + (m 6).toNat + (m 7).toNat := by
    unfold msumOf IntOp.addi
    simp only [BitVec.toNat_add]
    omega
  constructor
  · intro h k
    have : (msumOf m).toNat = 0 := by rw [h]; rfl
    rw [hs] at this
    apply (hz k).mp
    rcases k with ⟨k, hk⟩
    interval_cases k
    · show (m 0).toNat = 0; omega
    · show (m 1).toNat = 0; omega
    · show (m 2).toNat = 0; omega
    · show (m 3).toNat = 0; omega
    · show (m 4).toNat = 0; omega
    · show (m 5).toNat = 0; omega
    · show (m 6).toNat = 0; omega
    · show (m 7).toNat = 0; omega
  · intro h
    apply BitVec.eq_of_toNat_eq
    rw [hs]
    have e := fun k => (hz k).mpr (h k)
    rw [e 0, e 1, e 2, e 3, e 4, e 5, e 6, e 7]; rfl

end Cert.Lane
-- ==== Proof.LaneMath.Addr.Digits.lean ====
/-
  The four digits of a `quad`, one Horner step as a number, and a byte of a word read by shift and mask.
-/
import proofs.«203813_g3255585210786_cont_8to1_b_763_8_alg».proof.Proof.LaneMath.Bits

open scoped BigOperators

namespace Cert.Lane

open Idealize.ShloMosaic

theorem mask_255_pos : ∀ i, i < 32 → (255#32 : BitVec 32).getLsbD i = true → i < 8 := by decide

/-- A bit of a word as a number, from the word's value. -/
theorem getLsbD_toNat_div (x : BitVec 32) (q s : Nat) :
    (x.getLsbD (q + s)).toNat = x.toNat / 2 ^ q / 2 ^ s % 2 := by
  rw [← BitVec.testBit_toNat, Nat.testBit_eq_decide_div_mod_eq, Nat.pow_add, Nat.div_div_eq_div_mul]
  have h : x.toNat / (2 ^ q * 2 ^ s) % 2 < 2 := Nat.mod_lt _ (by omega)
  generalize x.toNat / (2 ^ q * 2 ^ s) % 2 = y at h
  interval_cases y <;> rfl

/-- The four digits of a `quad`: bits `q`, `q+8`, `q+16`, `q+24` of the word. -/
theorem quad_digits (x : BitVec 32) (q : Nat) (hq : q < 8) :
    ∃ b0 b1 b2 b3 : Nat, b0 ≤ 1 ∧ b1 ≤ 1 ∧ b2 ≤ 1 ∧ b3 ≤ 1 ∧
      (quad x q).toNat = b0 + 256 * b1 + 65536 * b2 + 16777216 * b3 ∧
      (x.getLsbD (q + 8 * 0)).toNat = b0 ∧ (x.getLsbD (q + 8 * 1)).toNat = b1 ∧
      (x.getLsbD (q + 8 * 2)).toNat = b2 ∧ (x.getLsbD (q + 8 * 3)).toNat = b3 ∧
      (quad x q).toNat ≤ 16843009 := by
  have hv : (quad x q).toNat = (x.toNat / 2 ^ q) &&& 16843009 := by
    unfold quad IntOp.andi
    rw [shrsi_lit _ _ (by omega),
      sshiftRight_and _ _ _ (fun i hi hm => by have := mask_quad_pos i hi hm; omega),
      BitVec.toNat_and, BitVec.toNat_ushiftRight, Nat.shiftRight_eq_div_pow]
    rfl
  rw [land_quad] at hv
  refine ⟨x.toNat / 2 ^ q % 2, x.toNat / 2 ^ q / 256 % 2, x.toNat / 2 ^ q / 65536 % 2, x.toNat / 2 ^ q / 16777216 % 2,
    by omega, by omega, by omega, by omega, hv, ?_, ?_, ?_, ?_, by omega⟩
  · rw [getLsbD_toNat_div]; norm_num
  · rw [getLsbD_toNat_div]; norm_num
  · rw [getLsbD_toNat_div]; norm_num
  · rw [getLsbD_toNat_div]; norm_num

theorem hstep_toNat (a x : BitVec 32) :
    (hstep a x).toNat = ((a.toNat + a.toNat) % 4294967296 + x.toNat) % 4294967296 := by
  unfold hstep IntOp.addi
  rw [BitVec.toNat_add, BitVec.toNat_add]

/-- A byte of a word, read by an arithmetic shift and the mask 255. -/
theorem idxOf_toNat (a : BitVec 32) (j : Nat) (hj : j < 4) : (idxOf a j).toNat = a.toNat / 2 ^ (8 * j) % 256 := by
  unfold idxOf IntOp.andi
  rw [shrsi_lit _ _ (by omega),
    sshiftRight_and _ _ _ (fun i hi hm => by have := mask_255_pos i hi hm; omega),
    BitVec.toNat_and, BitVec.toNat_ushiftRight, Nat.shiftRight_eq_div_pow]
  exact Nat.and_two_pow_sub_one_eq_mod _ 8

end Cert.Lane
-- ==== Proof.LaneMath.Addr.Horner.lean ====
/-
  Eight Horner steps on words below `0x01010101`: the value, with no wrap.
-/
import proofs.«203813_g3255585210786_cont_8to1_b_763_8_alg».proof.Proof.LaneMath.Addr.Digits

open scoped BigOperators

namespace Cert.Lane

open Idealize.ShloMosaic

/-- Eight Horner steps on words below `0x01010101` do not wrap. -/
theorem horner_toNat (Q0 Q1 Q2 Q3 Q4 Q5 Q6 Q7 : BitVec 32)
    (h0 : Q0.toNat ≤ 16843009) (h1 : Q1.toNat ≤ 16843009) (h2 : Q2.toNat ≤ 16843009) (h3 : Q3.toNat ≤ 16843009)
    (h4 : Q4.toNat ≤ 16843009) (h5 : Q5.toNat ≤ 16843009) (h6 : Q6.toNat ≤ 16843009) (h7 : Q7.toNat ≤ 16843009) :
    (hstep (hstep (hstep (hstep (hstep (hstep (hstep Q0 Q1) Q2) Q3) Q4) Q5) Q6) Q7).toNat
      = 128 * Q0.toNat + 64 * Q1.toNat + 32 * Q2.toNat + 16 * Q3.toNat + 8 * Q4.toNat + 4 * Q5.toNat + 2 * Q6.toNat + 1 * Q7.toNat := by
  have s1 : (hstep Q0 Q1).toNat = 2 * Q0.toNat + 1 * Q1.toNat := by
    rw [hstep_toNat]; omega
  have s2 : (hstep (hstep Q0 Q1) Q2).toNat = 4 * Q0.toNat + 2 * Q1.toNat + 1 * Q2.toNat := by
    rw [hstep_toNat, s1]; omega
  have s3 : (hstep (hstep (hstep Q0 Q1) Q2) Q3).toNat = 8 * Q0.toNat + 4 * Q1.toNat + 2 * Q2.toNat + 1 * Q3.toNat := by
    rw [hstep_toNat, s2]; omega
  have s4 : (hstep (hstep (hstep (hstep Q0 Q1) Q2) Q3) Q4).toNat = 16 * Q0.toNat + 8 * Q1.toNat + 4 * Q2.toNat + 2 * Q3.toNat + 1 * Q4.toNat := by
    rw [hstep_toNat, s3]; omega
  have s5 : (hstep (hstep (hstep (hstep (hstep Q0 Q1) Q2) Q3) Q4) Q5).toNat = 32 * Q0.toNat + 16 * Q1.toNat + 8 * Q2.toNat + 4 * Q3.toNat + 2 * Q4.toNat + 1 * Q5.toNat := by
    rw [hstep_toNat, s4]; omega
  have s6 : (hstep (hstep (hstep (hstep (hstep (hstep Q0 Q1) Q2) Q3) Q4) Q5) Q6).toNat = 64 * Q0.toNat + 32 * Q1.toNat + 16 * Q2.toNat + 8 * Q3.toNat + 4 * Q4.toNat + 2 * Q5.toNat + 1 * Q6.toNat := by
    rw [hstep_toNat, s5]; omega
  have s7 : (hstep (hstep (hstep (hstep (hstep (hstep (hstep Q0 Q1) Q2) Q3) Q4) Q5) Q6) Q7).toNat = 128 * Q0.toNat + 64 * Q1.toNat + 32 * Q2.toNat + 16 * Q3.toNat + 8 * Q4.toNat + 4 * Q5.toNat + 2 * Q6.toNat + 1 * Q7.toNat := by
    rw [hstep_toNat, s6]; omega
  exact s7

end Cert.Lane
-- ==== Proof.LaneMath.Addr.Bytes.lean ====
/-
  The Horner sum of eight words of four 0/1 digits, read byte by byte: no carry crosses a byte.
-/
import Mathlib.Tactic.Ring
import Mathlib.Tactic.NormNum

namespace Cert.Lane

/-- Four numbers below 256 are the four bytes of their base-256 sum. -/
theorem bytes4 (B0 B1 B2 B3 : Nat) (h0 : B0 < 256) (h1 : B1 < 256) (h2 : B2 < 256) (h3 : B3 < 256) :
    (B0 + 256 * B1 + 65536 * B2 + 16777216 * B3) / 2 ^ (8 * 0) % 256 = B0 ∧
    (B0 + 256 * B1 + 65536 * B2 + 16777216 * B3) / 2 ^ (8 * 1) % 256 = B1 ∧
    (B0 + 256 * B1 + 65536 * B2 + 16777216 * B3) / 2 ^ (8 * 2) % 256 = B2 ∧
    (B0 + 256 * B1 + 65536 * B2 + 16777216 * B3) / 2 ^ (8 * 3) % 256 = B3 := by
  norm_num
  refine ⟨by omega, by omega, by omega, by omega⟩

/-- The Horner sum of eight digit words, byte by byte. -/
theorem byte_sum (a0 a1 a2 a3 b0 b1 b2 b3 c0 c1 c2 c3 d0 d1 d2 d3 e0 e1 e2 e3 f0 f1 f2 f3 g0 g1 g2 g3 h0 h1 h2 h3 : Nat)
    (ha0 : a0 ≤ 1) (ha1 : a1 ≤ 1) (ha2 : a2 ≤ 1) (ha3 : a3 ≤ 1)
    (hb0 : b0 ≤ 1) (hb1 : b1 ≤ 1) (hb2 : b2 ≤ 1) (hb3 : b3 ≤ 1)
    (hc0 : c0 ≤ 1) (hc1 : c1 ≤ 1) (hc2 : c2 ≤ 1) (hc3 : c3 ≤ 1)
    (hd0 : d0 ≤ 1) (hd1 : d1 ≤ 1) (hd2 : d2 ≤ 1) (hd3 : d3 ≤ 1)
    (he0 : e0 ≤ 1) (he1 : e1 ≤ 1) (he2 : e2 ≤ 1) (he3 : e3 ≤ 1)
    (hf0 : f0 ≤ 1) (hf1 : f1 ≤ 1) (hf2 : f2 ≤ 1) (hf3 : f3 ≤ 1)
    (hg0 : g0 ≤ 1) (hg1 : g1 ≤ 1) (hg2 : g2 ≤ 1) (hg3 : g3 ≤ 1)
    (hh0 : h0 ≤ 1) (hh1 : h1 ≤ 1) (hh2 : h2 ≤ 1) (hh3 : h3 ≤ 1) :
    (128 * (a0 + 256 * a1 + 65536 * a2 + 16777216 * a3) + 64 * (b0 + 256 * b1 + 65536 * b2 + 16777216 * b3) + 32 * (c0 + 256 * c1 + 65536 * c2 + 16777216 * c3) + 16 * (d0 + 256 * d1 + 65536 * d2 + 16777216 * d3) + 8 * (e0 + 256 * e1 + 65536 * e2 + 16777216 * e3) + 4 * (f0 + 256 * f1 + 65536 * f2 + 16777216 * f3) + 2 * (g0 + 256 * g1 + 65536 * g2 + 16777216 * g3) + 1 * (h0 + 256 * h1 + 65536 * h2 + 16777216 * h3)) / 2 ^ (8 * 0) % 256
      = a0 * 2 ^ (7 - 0) + b0 * 2 ^ (7 - 1) + c0 * 2 ^ (7 - 2) + d0 * 2 ^ (7 - 3) + e0 * 2 ^ (7 - 4) + f0 * 2 ^ (7 - 5) + g0 * 2 ^ (7 - 6) + h0 * 2 ^ (7 - 7) ∧
    (128 * (a0 + 256 * a1 + 65536 * a2 + 16777216 * a3) + 64 * (b0 + 256 * b1 + 65536 * b2 + 16777216 * b3) + 32 * (c0 + 256 * c1 + 65536 * c2 + 16777216 * c3) + 16 * (d0 + 256 * d1 + 65536 * d2 + 16777216 * d3) + 8 * (e0 + 256 * e1 + 65536 * e2 + 16777216 * e3) + 4 * (f0 + 256 * f1 + 65536 * f2 + 16777216 * f3) + 2 * (g0 + 256 * g1 + 65536 * g2 + 16777216 * g3) + 1 * (h0 + 256 * h1 + 65536 * h2 + 16777216 * h3)) / 2 ^ (8 * 1) % 256
      = a1 * 2 ^ (7 - 0) + b1 * 2 ^ (7 - 1) + c1 * 2 ^ (7 - 2) + d1 * 2 ^ (7 - 3) + e1 * 2 ^ (7 - 4) + f1 * 2 ^ (7 - 5) + g1 * 2 ^ (7 - 6) + h1 * 2 ^ (7 - 7) ∧
    (128 * (a0 + 256 * a1 + 65536 * a2 + 16777216 * a3) + 64 * (b0 + 256 * b1 + 65536 * b2 + 16777216 * b3) + 32 * (c0 + 256 * c1 + 65536 * c2 + 16777216 * c3) + 16 * (d0 + 256 * d1 + 65536 * d2 + 16777216 * d3) + 8 * (e0 + 256 * e1 + 65536 * e2 + 16777216 * e3) + 4 * (f0 + 256 * f1 + 65536 * f2 + 16777216 * f3) + 2 * (g0 + 256 * g1 + 65536 * g2 + 16777216 * g3) + 1 * (h0 + 256 * h1 + 65536 * h2 + 16777216 * h3)) / 2 ^ (8 * 2) % 256
      = a2 * 2 ^ (7 - 0) + b2 * 2 ^ (7 - 1) + c2 * 2 ^ (7 - 2) + d2 * 2 ^ (7 - 3) + e2 * 2 ^ (7 - 4) + f2 * 2 ^ (7 - 5) + g2 * 2 ^ (7 - 6) + h2 * 2 ^ (7 - 7) ∧
    (128 * (a0 + 256 * a1 + 65536 * a2 + 16777216 * a3) + 64 * (b0 + 256 * b1 + 65536 * b2 + 16777216 * b3) + 32 * (c0 + 256 * c1 + 65536 * c2 + 16777216 * c3) + 16 * (d0 + 256 * d1 + 65536 * d2 + 16777216 * d3) + 8 * (e0 + 256 * e1 + 65536 * e2 + 16777216 * e3) + 4 * (f0 + 256 * f1 + 65536 * f2 + 16777216 * f3) + 2 * (g0 + 256 * g1 + 65536 * g2 + 16777216 * g3) + 1 * (h0 + 256 * h1 + 65536 * h2 + 16777216 * h3)) / 2 ^ (8 * 3) % 256
      = a3 * 2 ^ (7 - 0) + b3 * 2 ^ (7 - 1) + c3 * 2 ^ (7 - 2) + d3 * 2 ^ (7 - 3) + e3 * 2 ^ (7 - 4) + f3 * 2 ^ (7 - 5) + g3 * 2 ^ (7 - 6) + h3 * 2 ^ (7 - 7) := by
  have e : 128 * (a0 + 256 * a1 + 65536 * a2 + 16777216 * a3) + 64 * (b0 + 256 * b1 + 65536 * b2 + 16777216 * b3) + 32 * (c0 + 256 * c1 + 65536 * c2 + 16777216 * c3) + 16 * (d0 + 256 * d1 + 65536 * d2 + 16777216 * d3) + 8 * (e0 + 256 * e1 + 65536 * e2 + 16777216 * e3) + 4 * (f0 + 256 * f1 + 65536 * f2 + 16777216 * f3) + 2 * (g0 + 256 * g1 + 65536 * g2 + 16777216 * g3) + 1 * (h0 + 256 * h1 + 65536 * h2 + 16777216 * h3)
      = (128 * a0 + 64 * b0 + 32 * c0 + 16 * d0 + 8 * e0 + 4 * f0 + 2 * g0 + 1 * h0) + 256 * (128 * a1 + 64 * b1 + 32 * c1 + 16 * d1 + 8 * e1 + 4 * f1 + 2 * g1 + 1 * h1)
        + 65536 * (128 * a2 + 64 * b2 + 32 * c2 + 16 * d2 + 8 * e2 + 4 * f2 + 2 * g2 + 1 * h2) + 16777216 * (128 * a3 + 64 * b3 + 32 * c3 + 16 * d3 + 8 * e3 + 4 * f3 + 2 * g3 + 1 * h3) := by
    ring
  have k0 : 128 * a0 + 64 * b0 + 32 * c0 + 16 * d0 + 8 * e0 + 4 * f0 + 2 * g0 + 1 * h0 < 256 := by omega
  have k1 : 128 * a1 + 64 * b1 + 32 * c1 + 16 * d1 + 8 * e1 + 4 * f1 + 2 * g1 + 1 * h1 < 256 := by omega
  have k2 : 128 * a2 + 64 * b2 + 32 * c2 + 16 * d2 + 8 * e2 + 4 * f2 + 2 * g2 + 1 * h2 < 256 := by omega
  have k3 : 128 * a3 + 64 * b3 + 32 * c3 + 16 * d3 + 8 * e3 + 4 * f3 + 2 * g3 + 1 * h3 < 256 := by omega
  obtain ⟨r0, r1, r2, r3⟩ := bytes4 _ _ _ _ k0 k1 k2 k3
  rw [e]
  refine ⟨r0.trans ?_, r1.trans ?_, r2.trans ?_, r3.trans ?_⟩ <;> ring

end Cert.Lane
-- ==== Proof.LaneMath.Addr.lean ====
/-
  The table address: byte `j` of the Horner fold over the eight masked words is the 8-bit number whose digit
  `7 - k` is bit `q + 8 j` of word `k`.

  Each `quad` has one digit 0 or 1 at the bottom of each byte; after eight steps every byte holds at most 255, so no
  carry crosses a byte and nothing wraps.
-/
import proofs.«203813_g3255585210786_cont_8to1_b_763_8_alg».proof.Proof.LaneMath.Addr.Digits
import proofs.«203813_g3255585210786_cont_8to1_b_763_8_alg».proof.Proof.LaneMath.Addr.Horner
import proofs.«203813_g3255585210786_cont_8to1_b_763_8_alg».proof.Proof.LaneMath.Addr.Bytes
import Mathlib.Algebra.BigOperators.Fin

open scoped BigOperators

namespace Cert.Lane

open Idealize.ShloMosaic

/-- (B) The address of batch row `q + 8 j`. -/
theorem idx_toNat (gm : Fin 8 → BitVec 32) (q j : Nat) (hq : q < 8) (hj : j < 4) :
    (idxOf (accOf gm q) j).toNat = ∑ k : Fin 8, ((gm k).getLsbD (q + 8 * j)).toNat * 2 ^ (7 - k.val) := by
  have hj4 : j = 0 ∨ j = 1 ∨ j = 2 ∨ j = 3 := by omega
  obtain ⟨a0, a1, a2, a3, ha0, ha1, ha2, ha3, hA, hA0, hA1, hA2, hA3, hQ0⟩ := quad_digits (gm 0) q hq
  obtain ⟨b0, b1, b2, b3, hb0, hb1, hb2, hb3, hB, hB0, hB1, hB2, hB3, hQ1⟩ := quad_digits (gm 1) q hq
  obtain ⟨c0, c1, c2, c3, hc0, hc1, hc2, hc3, hC, hC0, hC1, hC2, hC3, hQ2⟩ := quad_digits (gm 2) q hq
  obtain ⟨d0, d1, d2, d3, hd0, hd1, hd2, hd3, hD, hD0, hD1, hD2, hD3, hQ3⟩ := quad_digits (gm 3) q hq
  obtain ⟨e0, e1, e2, e3, he0, he1, he2, he3, hE, hE0, hE1, hE2, hE3, hQ4⟩ := quad_digits (gm 4) q hq
  obtain ⟨f0, f1, f2, f3, hf0, hf1, hf2, hf3, hF, hF0, hF1, hF2, hF3, hQ5⟩ := quad_digits (gm 5) q hq
  obtain ⟨g0, g1, g2, g3, hg0, hg1, hg2, hg3, hG, hG0, hG1, hG2, hG3, hQ6⟩ := quad_digits (gm 6) q hq
  obtain ⟨h0, h1, h2, h3, hh0, hh1, hh2, hh3, hH, hH0, hH1, hH2, hH3, hQ7⟩ := quad_digits (gm 7) q hq
  rw [idxOf_toNat _ _ hj, Fin.sum_univ_eight]
  have v0 : (0 : Fin 8).val = 0 := rfl
  have v1 : (1 : Fin 8).val = 1 := rfl
  have v2 : (2 : Fin 8).val = 2 := rfl
  have v3 : (3 : Fin 8).val = 3 := rfl
  have v4 : (4 : Fin 8).val = 4 := rfl
  have v5 : (5 : Fin 8).val = 5 := rfl
  have v6 : (6 : Fin 8).val = 6 := rfl
  have v7 : (7 : Fin 8).val = 7 := rfl
  rw [v0, v1, v2, v3, v4, v5, v6, v7]
  unfold accOf
  rw [horner_toNat _ _ _ _ _ _ _ _ hQ0 hQ1 hQ2 hQ3 hQ4 hQ5 hQ6 hQ7, hA, hB, hC, hD, hE, hF, hG, hH]
  obtain ⟨r0, r1, r2, r3⟩ := byte_sum a0 a1 a2 a3 b0 b1 b2 b3 c0 c1 c2 c3 d0 d1 d2 d3 e0 e1 e2 e3 f0 f1 f2 f3 g0 g1 g2 g3 h0 h1 h2 h3
    ha0 ha1 ha2 ha3 hb0 hb1 hb2 hb3 hc0 hc1 hc2 hc3 hd0 hd1 hd2 hd3 he0 he1 he2 he3 hf0 hf1 hf2 hf3 hg0 hg1 hg2 hg3 hh0 hh1 hh2 hh3
  rcases hj4 with rfl | rfl | rfl | rfl
  · rw [hA0, hB0, hC0, hD0, hE0, hF0, hG0, hH0]; exact r0
  · rw [hA1, hB1, hC1, hD1, hE1, hF1, hG1, hH1]; exact r1
  · rw [hA2, hB2, hC2, hD2, hE2, hF2, hG2, hH2]; exact r2
  · rw [hA3, hB3, hC3, hD3, hE3, hF3, hG3, hH3]; exact r3

end Cert.Lane
-- ==== Proof.LaneMath.Table.lean ====
/-
  The truth table held as eight 32-bit words, and the lookup of one entry.

  Sixteen consecutive 0/1 entries form a number below 65536 (entry `16 t + c` at bit `c`); two such numbers make a
  word, so word `j` holds entries `32 j .. 32 j + 31`, entry `32 j + i` at bit `i`.  Bits 5, 6, 7 of an address below
  256 choose the word and bits 0..4 the bit inside it.
-/
import proofs.«203813_g3255585210786_cont_8to1_b_763_8_alg».proof.Proof.LaneMath.Bits
import Mathlib.Algebra.BigOperators.Fin

open scoped BigOperators

namespace Cert.Lane

open Idealize.ShloMosaic

/-! ### Sixteen entries as a number -/

theorem hOf_eq (l : Fin 256 → BitVec 32) (t : Fin 16) :
    hOf l t = ∑ c : Fin 16, (l ⟨16 * t.val + c.val, by have := t.isLt; have := c.isLt; omega⟩).toNat * 2 ^ c.val :=
  Finset.sum_congr rfl fun _ _ => Nat.mul_comm _ _

theorem hOf_lt (l : Fin 256 → BitVec 32) (hl : ∀ a, l a = 0#32 ∨ l a = 1#32) (t : Fin 16) : hOf l t < 65536 := by
  rw [hOf_eq]
  exact (binsum 16 (fun c : Fin 16 => (l ⟨16 * t.val + c.val, by have := t.isLt; have := c.isLt; omega⟩).toNat)
    (fun c => toNat_le_one _ (hl _))).1

theorem hOf_testBit (l : Fin 256 → BitVec 32) (hl : ∀ a, l a = 0#32 ∨ l a = 1#32) (t c : Fin 16) :
    (hOf l t).testBit c.val = decide (l ⟨16 * t.val + c.val, by have := t.isLt; have := c.isLt; omega⟩ = 1#32) := by
  rw [hOf_eq]
  have := (binsum 16 (fun c : Fin 16 => (l ⟨16 * t.val + c.val, by have := t.isLt; have := c.isLt; omega⟩).toNat)
    (fun c => toNat_le_one _ (hl _))).2 c
  rw [this]
  exact decide_eq_decide.mpr (toNat_eq_one_iff _)

/-- The conversion of an exact whole number below 2^31 to a 32-bit integer is that number's word. -/
theorem fptosi_natCast (n : Nat) (hn : n < 2 ^ 31) : Ideal.fptosi 32 (((n : ℝ) : EReal)) = BitVec.ofNat 32 n := by
  unfold Ideal.fptosi
  rw [Ideal.toIntClamped_coe, if_pos (Nat.cast_nonneg n), Int.floor_natCast]
  have h1 : min ((((2 : Nat) ^ (32 - 1) : Nat) : Int) - 1) (n : Int) = (n : Int) := by
    apply min_eq_right; push_cast; omega
  have h2 : max (-(((2 : Nat) ^ (32 - 1) : Nat) : Int)) (n : Int) = (n : Int) := by
    apply max_eq_right; push_cast; omega
  rw [h1, h2, BitVec.ofInt_natCast]

/-! ### A word from two halves -/

theorem wordOf_toNat (h0 h1 : Nat) (hh0 : h0 < 65536) (hh1 : h1 < 65536) :
    (wordOf (BitVec.ofNat 32 h0) (BitVec.ofNat 32 h1)).toNat = 2 ^ 16 * h1 + h0 := by
  unfold wordOf IntOp.addi
  rw [show (16#32 : BitVec 32) = BitVec.ofNat 32 16 from rfl, shli_lit _ _ (by omega), BitVec.toNat_add,
    BitVec.toNat_shiftLeft, BitVec.toNat_ofNat, BitVec.toNat_ofNat, Nat.shiftLeft_eq]
  norm_num
  omega

theorem wordOf_getLsbD (h0 h1 : Nat) (hh0 : h0 < 65536) (hh1 : h1 < 65536) (i : Nat) :
    (wordOf (BitVec.ofNat 32 h0) (BitVec.ofNat 32 h1)).getLsbD i
      = if i < 16 then h0.testBit i else h1.testBit (i - 16) := by
  rw [← BitVec.testBit_toNat, wordOf_toNat _ _ hh0 hh1, Nat.testBit_two_pow_mul_add _ (by omega : h0 < 2 ^ 16)]

/-! ### Choosing the word -/

theorem select_bit (idx : BitVec 32) (n : Nat) (hn : n < 32) (x y : BitVec 32) :
    Scalar.select (IntOp.cmpi .eq (bitOf idx (BitVec.ofNat 32 n)) 0#32) x y = if idx.getLsbD n then y else x := by
  rw [bitOf_lit _ _ hn]
  unfold Scalar.select IntOp.cmpi
  cases idx.getLsbD n <;> simp

/-- The three-level choice on bits 5, 6, 7 of the address is word `address / 32`. -/
theorem selOf_eq (w : Fin 8 → BitVec 32) (idx : BitVec 32) (K : Fin 8) (hK : idx.toNat / 32 = K.val) :
    selOf w idx = w K := by
  unfold selOf
  simp only [select_bit idx 5 (by omega), select_bit idx 6 (by omega), select_bit idx 7 (by omega)]
  have b5 : idx.getLsbD 5 = decide (K.val % 2 = 1) := by
    rw [← BitVec.testBit_toNat, Nat.testBit_eq_decide_div_mod_eq, decide_eq_decide]; norm_num; omega
  have b6 : idx.getLsbD 6 = decide (K.val / 2 % 2 = 1) := by
    rw [← BitVec.testBit_toNat, Nat.testBit_eq_decide_div_mod_eq, decide_eq_decide]; norm_num; omega
  have b7 : idx.getLsbD 7 = decide (K.val / 4 % 2 = 1) := by
    rw [← BitVec.testBit_toNat, Nat.testBit_eq_decide_div_mod_eq, decide_eq_decide]; norm_num; omega
  rw [b5, b6, b7]
  clear b5 b6 b7 hK
  rcases K with ⟨K, hK⟩
  interval_cases K <;> simp

/-! ### The lookup -/

/-- (D) The bit the lane reads from the chosen word is the table's entry at the address. -/
theorem lbitOf_wordsOf (l : Fin 256 → BitVec 32) (hl : ∀ a, l a = 0#32 ∨ l a = 1#32) (idx : BitVec 32)
    (ha : idx.toNat < 256) : lbitOf (wordsOf l) idx = l ⟨idx.toNat, ha⟩ := by
  unfold lbitOf
  have h31 : (IntOp.andi idx 31#32).toNat = idx.toNat % 32 := by
    unfold IntOp.andi; rw [BitVec.toNat_and]; exact Nat.and_two_pow_sub_one_eq_mod _ 5
  rw [bitOf_word _ _ (by rw [h31]; omega), h31,
    selOf_eq (wordsOf l) idx ⟨idx.toNat / 32, by omega⟩ rfl]
  unfold wordsOf
  rw [wordOf_getLsbD _ _ (hOf_lt l hl _) (hOf_lt l hl _)]
  by_cases hlt : idx.toNat % 32 < 16
  · rw [if_pos hlt]
    have := hOf_testBit l hl ⟨2 * (idx.toNat / 32), by omega⟩ ⟨idx.toNat % 32, hlt⟩
    simp only at this
    rw [this]
    have e : (⟨16 * (2 * (idx.toNat / 32)) + idx.toNat % 32, by omega⟩ : Fin 256) = ⟨idx.toNat, ha⟩ :=
      Fin.ext (by simp only []; omega)
    rw [e, ite_decide_eq_one _ (hl _)]
  · rw [if_neg hlt]
    have := hOf_testBit l hl ⟨2 * (idx.toNat / 32) + 1, by omega⟩ ⟨idx.toNat % 32 - 16, by omega⟩
    simp only at this
    rw [this]
    have e : (⟨16 * (2 * (idx.toNat / 32) + 1) + (idx.toNat % 32 - 16), by omega⟩ : Fin 256) = ⟨idx.toNat, ha⟩ :=
      Fin.ext (by simp only []; omega)
    rw [e, ite_decide_eq_one _ (hl _)]

end Cert.Lane
-- ==== Proof.LaneMath.lean ====
/-
  One lane, joined: the word the lane computes for batch row `q + 8 j` of a node is the node's next state.

  Over plain words first (`laneOf_eq`): with 0/1 flags and a 0/1 table, the lane keeps the old bit where every flag is
  zero and otherwise reads the table at the address whose digit `7 - k` is bit `q + 8 j` of gathered word `k` times flag
  `k`.  Then with the gathered words the packed words of the nodes the slots name (`laneOf_eq_next`).
-/
import proofs.«203813_g3255585210786_cont_8to1_b_763_8_alg».proof.Proof.LaneMath.Pack
import proofs.«203813_g3255585210786_cont_8to1_b_763_8_alg».proof.Proof.LaneMath.Mask
import proofs.«203813_g3255585210786_cont_8to1_b_763_8_alg».proof.Proof.LaneMath.Addr
import proofs.«203813_g3255585210786_cont_8to1_b_763_8_alg».proof.Proof.LaneMath.Table
import proofs.«203813_g3255585210786_cont_8to1_b_763_8_alg».proof.Proof.Spec

open scoped BigOperators

namespace Cert.Lane

open Idealize.ShloMosaic Idealize.ShloMosaic.ValueIdx

theorem select_eq_zero (a x y : BitVec 32) :
    Scalar.select (IntOp.cmpi .eq a 0#32) x y = if a = 0#32 then x else y := by
  unfold Scalar.select IntOp.cmpi
  by_cases h : a = 0#32
  · subst h; simp
  · have hb : (a == 0#32) = false := beq_eq_false_iff_ne.mpr h
    simp [hb, h]

/-- (E) The lane over plain words. -/
theorem laneOf_eq (g m : Fin 8 → BitVec 32) (p : BitVec 32) (l : Fin 256 → BitVec 32) (q j : Nat) (hq : q < 8) (hj : j < 4)
    (hm : ∀ k, m k = 0#32 ∨ m k = 1#32) (hl : ∀ a, l a = 0#32 ∨ l a = 1#32) :
    laneOf g m p (wordsOf l) q j =
      if ∀ k, m k = 0#32 then (if p.getLsbD (q + 8 * j) then 1#32 else 0#32)
      else l ⟨(∑ k : Fin 8, ((g k).getLsbD (q + 8 * j)).toNat * (m k).toNat * 2 ^ (7 - k.val)) % 256,
        Nat.mod_lt _ (by decide)⟩ := by
  unfold laneOf
  rw [select_eq_zero]
  have hidx := idx_toNat (gmOf g m) q j hq hj
  have hsum : ∑ k : Fin 8, ((gmOf g m k).getLsbD (q + 8 * j)).toNat * 2 ^ (7 - k.val)
      = ∑ k : Fin 8, ((g k).getLsbD (q + 8 * j)).toNat * (m k).toNat * 2 ^ (7 - k.val) := by
    refine Finset.sum_congr rfl fun k _ => ?_
    unfold gmOf
    rw [muli_flag_getLsbD _ _ (hm k)]
    rcases hm k with h | h <;> rw [h] <;> simp
  have hlt : (idxOf (accOf (gmOf g m) q) j).toNat < 256 := by
    rw [idxOf_toNat _ _ hj]; exact Nat.mod_lt _ (by decide)
  by_cases hall : ∀ k, m k = 0#32
  · rw [if_pos ((msumOf_eq_zero_iff m hm).mpr hall), if_pos hall, oldOf_eq _ _ _ hq hj]
  · rw [if_neg (fun h => hall ((msumOf_eq_zero_iff m hm).mp h)), if_neg hall, lbitOf_wordsOf l hl _ hlt]
    refine congrArg l (Fin.ext ?_)
    show (idxOf (accOf (gmOf g m) q) j).toNat = _
    rw [← hsum, ← hidx]
    exact (Nat.mod_eq_of_lt hlt).symm

/-- A 0/1 word's lowest bit as a number is the word's value. -/
theorem decide_eq_one_toNat (s : BitVec 32) (hs : s = 0#32 ∨ s = 1#32) : (decide (s = 1#32)).toNat = s.toNat := by
  rcases hs with h | h <;> subst h <;> decide

/-- (E) The lane with the gathered words the packed words of the nodes the slots name: the node's next state. -/
theorem laneOf_eq_next (st : IVec Spec.SSt 32) (adj msk : IVec Spec.SAdj 32) (lut : IVec Spec.SLut 32)
    (hD : Spec.Dom st adj msk lut) (n : Fin 100000) (q j : Nat) (hq : q < 8) (hj : j < 4) :
    laneOf (fun k => packOf fun b => st (ix2 b (Spec.nbr adj n k))) (fun k => msk (ix2 n k))
        (packOf fun b => st (ix2 b n)) (wordsOf fun a => lut (ix2 n a)) q j
      = Spec.next st adj msk lut ⟨q + 8 * j, by omega⟩ n := by
  have hE := laneOf_eq (fun k => packOf fun b => st (ix2 b (Spec.nbr adj n k))) (fun k => msk (ix2 n k))
    (packOf fun b => st (ix2 b n)) (fun a => lut (ix2 n a)) q j hq hj (fun k => hD.msk01 _) (fun a => hD.lut01 _)
  rw [hE]
  unfold Spec.next
  by_cases hall : ∀ k : Fin 8, msk (ix2 n k) = 0#32
  · rw [if_pos hall, if_pos hall]
    have hb := pack_getLsbD (fun b => st (ix2 b n)) (fun b => hD.st01 _) ⟨q + 8 * j, by omega⟩
    simp only at hb
    rw [hb, ite_decide_eq_one _ (hD.st01 _)]
  · rw [if_neg hall, if_neg hall]
    refine congrArg (fun a : Fin 256 => lut (ix2 n a)) (Fin.ext ?_)
    show _ % 256 = Spec.addr st adj msk ⟨q + 8 * j, by omega⟩ n % 256
    unfold Spec.addr
    refine congrArg (· % 256) (Finset.sum_congr rfl fun k _ => ?_)
    have hb := pack_getLsbD (fun b => st (ix2 b (Spec.nbr adj n k))) (fun b => hD.st01 _) ⟨q + 8 * j, by omega⟩
    simp only at hb
    rw [hb, decide_eq_one_toNat _ (hD.st01 _)]

end Cert.Lane
-- ==== Proof.ResBit.lean ====
/-
  The new bit of a node of the block is the node's next state.

  The two halves of a table word are exact whole numbers below 65536 (sums of sixteen 0/1 entries with weights
  `2^c`), so the conversion to an integer returns them and the eight words are the table's words.  With the gathered
  words the packed words of the nodes the slots name, the lane's result for batch row `bb` (bit position `bb % 8` of
  byte `bb / 8`) is `next` at `bb`.
-/
import proofs.«203813_g3255585210786_cont_8to1_b_763_8_alg».proof.Proof.MainValue.Defs
import proofs.«203813_g3255585210786_cont_8to1_b_763_8_alg».proof.Proof.LaneMath
import proofs.«203813_g3255585210786_cont_8to1_b_763_8_alg».proof.Proof.Spec

noncomputable section

open scoped BigOperators

namespace Cert.MainValue

open Cert.KernelIdeal
open Idealize.ShloMosaic Idealize.ShloMosaic.ValueIdx

/-- The inclusion of the reals in the extended reals commutes with finite sums. -/
theorem ereal_coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A half of a table word is the whole number `hOf`, as a real. -/
theorem halfF_eq (x1 : IVec S1024x256 32) (r : Fin 1024)
    (h01 : ∀ a : Fin 256, x1 (ix2 r a) = 0#32 ∨ x1 (ix2 r a) = 1#32) (t : Fin 16) :
    halfF x1 r t = (((Cert.Lane.hOf (fun a => x1 (ix2 r a)) t : ℕ) : ℝ) : EReal) := by
  unfold halfF Cert.Lane.hOf
  rw [Nat.cast_sum, ereal_coe_sum]
  refine Finset.sum_congr rfl fun c _ => ?_
  beta_reduce
  have e1 : (1#32 : BitVec 32).toInt = 1 := by decide
  have e0 : (0#32 : BitVec 32).toInt = 0 := by decide
  have n1 : (1#32 : BitVec 32).toNat = 1 := rfl
  have n0 : (0#32 : BitVec 32).toNat = 0 := rfl
  rcases h01 ⟨16 * t.val + c.val, by have := t.isLt; have := c.isLt; omega⟩ with h | h
  · rw [h, e0, n0]; simp
  · rw [h, e1, n1]; simp

/-- (1) The eight table words of row `r` are the words of its 0/1 entries. -/
theorem wordK_eq (x1 : IVec S1024x256 32) (r : Fin 1024)
    (h01 : ∀ a : Fin 256, x1 (ix2 r a) = 0#32 ∨ x1 (ix2 r a) = 1#32) :
    wordK x1 r = Cert.Lane.wordsOf (fun a => x1 (ix2 r a)) := by
  funext j
  have hlt : ∀ t : Fin 16, Cert.Lane.hOf (fun a => x1 (ix2 r a)) t < 2 ^ 31 := fun t => by
    have := Cert.Lane.hOf_lt (fun a => x1 (ix2 r a)) h01 t
    omega
  unfold wordK Cert.Lane.wordsOf
  rw [halfF_eq x1 r h01, halfF_eq x1 r h01, Cert.Lane.fptosi_natCast _ (hlt _), Cert.Lane.fptosi_natCast _ (hlt _)]

/-- (2) The lane: with the block's row `r` holding node `n`'s table row, the packed words of the nodes its slots name,
    its flags and its own packed word, the new bit in batch row `bb` is `next`. -/
theorem resBit_eq_next (st : IVec Cert.Spec.SSt 32) (adj msk : IVec Cert.Spec.SAdj 32) (lut : IVec Cert.Spec.SLut 32)
    (hD : Cert.Spec.Dom st adj msk lut) (n : Fin 100000)
    (x1 : IVec S1024x256 32) (x2 x3 : IVec S8x1024 32) (x4 : IVec S1x8x128 32) (r : Fin 1024) (bb : Fin 32)
    (h1 : ∀ a : Fin 256, x1 (ix2 r a) = lut (ix2 n a))
    (h2 : ∀ k : Fin 8, x2 (ix2 k r) = Cert.Lane.packOf (fun b => st (ix2 b (Cert.Spec.nbr adj n k))))
    (h3 : ∀ k : Fin 8, x3 (ix2 k r) = msk (ix2 n k))
    (h4 : x4 (ix3 (0 : Fin 1) (sub r) (ln r)) = Cert.Lane.packOf (fun b => st (ix2 b n))) :
    resBit x1 x2 x3 x4 bb r = Cert.Spec.next st adj msk lut bb n := by
  have hw : wordK x1 r = Cert.Lane.wordsOf (fun a => lut (ix2 n a)) := by
    rw [wordK_eq x1 r (fun a => by rw [h1 a]; exact hD.lut01 _)]
    exact congrArg Cert.Lane.wordsOf (funext h1)
  have e2 : (fun k : Fin 8 => x2 (ix2 k r))
      = fun k : Fin 8 => Cert.Lane.packOf (fun b => st (ix2 b (Cert.Spec.nbr adj n k))) := funext h2
  have e3 : (fun k : Fin 8 => x3 (ix2 k r)) = fun k : Fin 8 => msk (ix2 n k) := funext h3
  unfold resBit
  rw [hw, h4, e2, e3,
    Cert.Lane.laneOf_eq_next st adj msk lut hD n (bb.val % 8) (bb.val / 8) (Nat.mod_lt _ (by decide))
      (by have := bb.isLt; omega)]
  exact congrArg (fun b : Fin 32 => Cert.Spec.next st adj msk lut b n) (Fin.ext (by simp only []; omega))

/-- (3) The same as the real number the read-out sums. -/
theorem resBit_toReal (st : IVec Cert.Spec.SSt 32) (adj msk : IVec Cert.Spec.SAdj 32) (lut : IVec Cert.Spec.SLut 32)
    (hD : Cert.Spec.Dom st adj msk lut) (n : Fin 100000)
    (x1 : IVec S1024x256 32) (x2 x3 : IVec S8x1024 32) (x4 : IVec S1x8x128 32) (r : Fin 1024) (bb : Fin 32)
    (h1 : ∀ a : Fin 256, x1 (ix2 r a) = lut (ix2 n a))
    (h2 : ∀ k : Fin 8, x2 (ix2 k r) = Cert.Lane.packOf (fun b => st (ix2 b (Cert.Spec.nbr adj n k))))
    (h3 : ∀ k : Fin 8, x3 (ix2 k r) = msk (ix2 n k))
    (h4 : x4 (ix3 (0 : Fin 1) (sub r) (ln r)) = Cert.Lane.packOf (fun b => st (ix2 b n))) :
    (((resBit x1 x2 x3 x4 bb r).toInt : ℝ) : EReal) = (((Cert.Spec.next st adj msk lut bb n).toInt : ℝ) : EReal) := by
  rw [resBit_eq_next st adj msk lut hD n x1 x2 x3 x4 r bb h1 h2 h3 h4]

end Cert.MainValue

end
-- ==== Proof.SumBlocks.lean ====
/-
  A sum over the 98976 read-out nodes, cut into 97 blocks of 1024.

  Ninety-seven blocks of 1024 rows cover 99328 rows; the last 352 lie past the read-out's end and contribute 0.
  The pairs (block, row in the block) are the numbers below 99328 written in base 1024, so that the double sum is
  a single sum over those numbers, and dropping the zero terms past 98976 leaves the sum over the read-out nodes.
  A block sum whose rows past the end carry a zero weight is therefore the specified read-out sum.
-/
import proofs.«203813_g3255585210786_cont_8to1_b_763_8_alg».proof.Proof.Spec
import Mathlib.Algebra.BigOperators.Fin
import Mathlib.Algebra.BigOperators.Intervals

noncomputable section

open scoped BigOperators

namespace Cert.Spec

open Idealize.ShloMosaic Idealize.ShloMosaic.ValueIdx

/-- The blocked sum of a function on the numbers below 98976, extended by 0, is its sum. -/
theorem sum_blocks (f : Fin 98976 → EReal) :
    (∑ i : Fin 97, ∑ r : Fin 1024, if h : 1024 * i.val + r.val < 98976 then f ⟨1024 * i.val + r.val, h⟩ else 0)
      = ∑ n : Fin 98976, f n := by
  -- the function extended by 0 to all numbers
  let g : ℕ → EReal := fun n => if h : n < 98976 then f ⟨n, h⟩ else 0
  have hg : ∀ n : Fin 98976, g n.val = f n := fun n => by
    show (if h : n.val < 98976 then f ⟨n.val, h⟩ else 0) = f n
    rw [dif_pos n.isLt]
  -- the double sum is the sum over the numbers below 97 * 1024
  have h1 : (∑ i : Fin 97, ∑ r : Fin 1024, if h : 1024 * i.val + r.val < 98976 then f ⟨1024 * i.val + r.val, h⟩ else 0)
      = ∑ q : Fin (97 * 1024), g q.val := by
    rw [← Fintype.sum_prod_type', ← Equiv.sum_comp finProdFinEquiv (fun q : Fin (97 * 1024) => g q.val)]
    refine Finset.sum_congr rfl fun p _ => ?_
    show g (1024 * p.1.val + p.2.val) = g (finProdFinEquiv p).val
    rw [finProdFinEquiv_apply_val, Nat.add_comm]
  -- the numbers from 98976 on contribute nothing
  have h2 : (∑ q : Fin (97 * 1024), g q.val) = ∑ n : Fin 98976, g n.val := by
    rw [← Finset.sum_range (fun n => g n), ← Finset.sum_range (fun n => g n)]
    refine (Finset.sum_subset (Finset.range_mono (by norm_num)) fun n _ hn => ?_).symm
    have hlt : ¬ n < 98976 := fun h => hn (Finset.mem_range.mpr h)
    show (if h : n < 98976 then f ⟨n, h⟩ else 0) = 0
    rw [dif_neg hlt]
  rw [h1, h2]
  exact Finset.sum_congr rfl fun n _ => hg n

/-- A blocked read-out sum — row `r` of block `i` carrying the next state of node `1024 + 1024 i + r` and its
    weight, the rows past the read-out's end a zero weight — through the logistic function is the specified result. -/
theorem out_of_blocks (st : IVec SSt 32) (adj msk : IVec SAdj 32) (lut : IVec SLut 32) (Wt : FVec Ideal SW .f32)
    (bias : FVec Ideal SBias .f32) (b : Fin 32) (o : Fin 128) (rb : Fin 97 → Fin 1024 → BitVec 32)
    (wz : Fin 97 → Fin 1024 → EReal)
    (hin : ∀ i r (h : 1024 * i.val + r.val < 98976),
      rb i r = next st adj msk lut b (res ⟨1024 * i.val + r.val, h⟩) ∧ wz i r = Wt (ix2 ⟨1024 * i.val + r.val, h⟩ o))
    (hout : ∀ i r, ¬ 1024 * i.val + r.val < 98976 → wz i r = 0) :
    Ideal.logistic ((∑ i : Fin 97, ∑ r : Fin 1024, (((rb i r).toInt : ℝ) : EReal) * wz i r) + bias (ix1 o))
      = out st adj msk lut Wt bias (ix2 b o) := by
  have hsum : (∑ i : Fin 97, ∑ r : Fin 1024, (((rb i r).toInt : ℝ) : EReal) * wz i r)
      = ∑ n : Fin 98976, (((next st adj msk lut b (res n)).toInt : ℝ) : EReal) * Wt (ix2 n o) := by
    rw [← sum_blocks]
    refine Finset.sum_congr rfl fun i _ => Finset.sum_congr rfl fun r _ => ?_
    by_cases h : 1024 * i.val + r.val < 98976
    · rw [dif_pos h, (hin i r h).1, (hin i r h).2]
    · rw [dif_neg h, hout i r h, mul_zero]
  rw [hsum]
  rfl

end Cert.Spec

end
-- ==== Proof.KernelOut.lean ====
/-
  The second pipelined call's result is the specified read-out.

  Row `r` of block `i` of the 97 is read-out node `1024 i + r`, that is node `1024 + 1024 i + r` of the network: its
  table row sits in the table array's row block `i + 1`, its eight gathered words and flags in column `1024 i + r` of
  the slot-major arrays, its own packed word at sublane `r / 128`, lane `r % 128` of block `i`.  So the node's new
  bit in batch row `b` is its next state, its weight row is the weights' row `1024 i + r` (zero past the read-out's
  end), and the blocks' contributions add up to the read-out sum; the bias row read at `(0, o)` is the bias at `o`.
-/
import proofs.«203813_g3255585210786_cont_8to1_b_763_8_alg».proof.Proof.KernelIdx
import proofs.«203813_g3255585210786_cont_8to1_b_763_8_alg».proof.Proof.MainBlk
import proofs.«203813_g3255585210786_cont_8to1_b_763_8_alg».proof.Proof.ResBit
import proofs.«203813_g3255585210786_cont_8to1_b_763_8_alg».proof.Proof.SumBlocks
import Idealize.ShloMosaic.Lib.ValueLayout

set_option maxRecDepth 16384

noncomputable section

open scoped BigOperators

namespace Cert.MainRegionV

open Cert.KernelIdeal Cert.KernelIdeal.Gen
open Idealize.ShloMosaic Idealize.ShloMosaic.TcCoe Idealize.ShloMosaic.ValueIdx
open Cert.KI (slotMajor idxF slotMajor_apply gathered_apply own_apply)
open Cert.ScTask (ent)
open Cert.MainValue (part wz resBit sub ln)

/-- Grid point `i` of the 97. -/
def pt (i : Fin 97) : Fin cfg2.N := ⟨i.val, lt_of_lt_of_eq i.isLt (show 97 = cfg2.N from N_2.symm)⟩

/-- THE RESULT.  With the six input arrays holding the table rows, the weights, the gathered words, the slot-major flags,
    the read-out nodes' own packed words and the bias row, a result that is, entry by entry, the logistic function of the
    97 blocks' contributions plus the bias is the specified read-out. -/
theorem out_of_closed (st : IVec S32x100000 32) (adj msk : IVec S100000x8 32) (lut : IVec S100000x256 32)
    (Wt : FVec Ideal S98976x128 .f32) (bias : FVec Ideal S128 .f32) (hD : Cert.Spec.Dom st adj msk lut)
    (V : (c : Dev nD) → (b : Ref sig .tc) → Buf (Elt Ideal) ((c : Thread nD τ).loc b)) (c : Dev nD)
    (tab : IVec S100352 32) (gth : IVec S794624 32)
    (htab : ∀ n : Fin 100000, tab (ix1 (⟨n.val, by have := n.isLt; omega⟩ : Fin 100352)) = Cert.Lane.packOf fun b => st (ix2 b n))
    (hg : ∀ j, gth j = tab (ent (idxF adj j).toNat))
    (e3 : V c main_arg3 = lut) (e4 : V c main_arg4 = Wt)
    (e11 : V c main_v11 = shapeCast S8x99328 gth shapeCasts_S794624_S8x99328) (e6 : V c main_v6 = slotMajor msk)
    (e13 : V c main_v13 = shapeCast S97x8x128 (extractStridedSlice S99328 ![1024] tab slices_S100352_S99328_1024) shapeCasts_S99328_S97x8x128)
    (e7 : V c main_v7 = shapeCast S1x128 bias shapeCasts_S128_S1x128)
    (X : Vec Ideal S32x128 .f32) (D0 : Fin 97 → Vec Ideal S1024x256 .i32) (D4 : Fin 97 → Vec Ideal S1024x128 .f32)
    (hX : ∀ (b : Fin 32) (o : Fin 128), X (ix2 b o) = Ideal.logistic ((∑ i : Fin 97,
        part (grid2.coords (pt i)) (found0 V c (pt i) (D0 i)) (found1 V c (pt i)) (found2 V c (pt i)) (found3 V c (pt i))
          (found4 V c (pt i) (D4 i)) b o) + found5 V c (pt ⟨96, by decide⟩) (ix2 (0 : Fin 1) o))) :
    X = Cert.Spec.out st adj msk lut Wt bias := by
  suffices key : ∀ (b : Fin 32) (o : Fin 128), X (ix2 b o) = Cert.Spec.out st adj msk lut Wt bias (ix2 b o) by
    funext j
    rw [eq_ix2 j]
    exact key (j 0) (j 1)
  intro b o
  rw [hX b o, found5_apply, e7, shapeCast_a_1a_apply]
  unfold part
  refine Cert.Spec.out_of_blocks st adj msk lut Wt bias b o
    (fun i r => resBit (found0 V c (pt i) (D0 i)) (found1 V c (pt i)) (found2 V c (pt i)) (found3 V c (pt i)) b r)
    (fun i r => wz (grid2.coords (pt i)) (found4 V c (pt i) (D4 i)) r o) ?hin ?hout
  case hin =>
    intro i r h
    have hi : (pt i).val = i.val := rfl
    constructor
    · refine Cert.MainValue.resBit_eq_next st adj msk lut hD (Cert.Spec.res ⟨1024 * i.val + r.val, h⟩) _ _ _ _ r b ?h1 ?h2 ?h3 ?h4
      case h1 =>
        intro a
        rw [found0_apply V c (pt i) (D0 i) r a (by rw [hi]; omega), e3]
        exact congrArg (fun n => lut (ix2 n a)) (Fin.ext (by show 1024 * ((pt i).val + 1) + r.val = 1024 + (1024 * i.val + r.val); rw [hi]; omega))
      case h2 =>
        intro k
        rw [found1_apply, e11]
        exact gathered_apply st adj tab gth htab hg hD.adj_lt k _ h
      case h3 =>
        intro k
        rw [found2_apply, e6, slotMajor_apply, dif_pos (show (1024 * (pt i).val + r.val) < 98976 from h)]
        rfl
      case h4 =>
        rw [found3_apply, e13]
        have h' : 1024 * i.val + 128 * (sub r).val + (ln r).val < 98976 := by
          show 1024 * i.val + 128 * (r.val / 128) + r.val % 128 < 98976
          omega
        refine (own_apply st tab htab ⟨i.val, i.isLt⟩ (sub r) (ln r) h').trans ?_
        refine congrArg (fun n => Cert.Lane.packOf fun b => st (ix2 b (Cert.Spec.res n))) (Fin.ext ?_)
        show 1024 * i.val + 128 * (r.val / 128) + r.val % 128 = 1024 * i.val + r.val
        omega
    · show wz (grid2.coords (pt i)) (found4 V c (pt i) (D4 i)) r o = _
      unfold wz
      rw [if_pos (by rw [coords2]; exact h), found4_apply V c (pt i) (D4 i) r o h, e4]
      rfl
  case hout =>
    intro i r h
    show wz (grid2.coords (pt i)) (found4 V c (pt i) (D4 i)) r o = 0
    unfold wz
    rw [if_neg (by rw [coords2]; exact h)]

end Cert.MainRegionV

end
-- ==== Proof.MainValue.Layout.lean ====
/-
  How the body's layout operations re-index: the leading slab of a rank-3 vector, the cast between a row of 1024 nodes
  and its 8×128 sublane-lane form, and the stack of 32 slabs.
-/
import proofs.«203813_g3255585210786_cont_8to1_b_763_8_alg».proof.Proof.MainValue.Defs
import Idealize.ShloMosaic.Lib.ValueLayout
import Idealize.ShloMosaic.Lib.Pipeline.Value

namespace Cert.MainValue

open Idealize.ShloMosaic Idealize.ShloMosaic.ValueIdx

variable {α : Type}

/-- The slab at offset `o` along the leading axis lies inside the vector. -/
theorem lead_lt {n a b o : Nat} (h : (⟨3, ![n, a, b]⟩ : Shape).Slices ![o, 0, 0] ⟨3, ![1, a, b]⟩) : o < n := by
  obtain ⟨_, h2⟩ := h
  have := h2 (0 : Fin 3)
  exact this

/-- The slab at offset `o` along the leading axis reads, at `(0, s, l)`, the source at `(o, s, l)`. -/
theorem slice3_lead_apply {n a b : Nat} (o : Nat) (X : (⟨3, ![n, a, b]⟩ : Shape).Idx → α)
    (h : (⟨3, ![n, a, b]⟩ : Shape).Slices ![o, 0, 0] ⟨3, ![1, a, b]⟩) (u : Fin 1) (s : Fin a) (l : Fin b) :
    extractStridedSlice ⟨3, ![1, a, b]⟩ ![o, 0, 0] X h (ix3 u s l) = X (ix3 (⟨o, lead_lt h⟩ : Fin n) s l) :=
  extractStridedSlice_apply _ _ _ _ _ (fun ax => by
    match ax with
    | ⟨0, _⟩ => show o = o + u.val; omega
    | ⟨1, _⟩ => exact (Nat.zero_add _).symm
    | ⟨2, _⟩ => exact (Nat.zero_add _).symm)

/-- A row of 1024 nodes cast to 8 sublanes of 128 lanes: node `r` sits at sublane `r / 128`, lane `r % 128`. -/
theorem shapeCast_rows_apply {m : Nat} (X : (⟨2, ![m, 1024]⟩ : Shape).Idx → α)
    (h : (⟨2, ![m, 1024]⟩ : Shape).ShapeCasts ⟨3, ![m, 8, 128]⟩) (k : Fin m) (r : Fin 1024) :
    shapeCast ⟨3, ![m, 8, 128]⟩ X h (ix3 k (sub r) (ln r)) = X (ix2 k r) :=
  shapeCast_apply X h _ _ (by
    rw [Shape.rowMajor_val_three, Shape.rowMajor_val_two]
    show k.val * 1024 + r.val = (k.val * 8 + r.val / 128) * 128 + r.val % 128
    omega)

/-- The inverse cast: at node `r` of row `k` it reads sublane `r / 128`, lane `r % 128` of slab `k`. -/
theorem shapeCast_slabs_apply {m : Nat} (X : (⟨3, ![m, 8, 128]⟩ : Shape).Idx → α)
    (h : (⟨3, ![m, 8, 128]⟩ : Shape).ShapeCasts ⟨2, ![m, 1024]⟩) (k : Fin m) (r : Fin 1024) :
    shapeCast ⟨2, ![m, 1024]⟩ X h (ix2 k r) = X (ix3 k (sub r) (ln r)) :=
  shapeCast_apply X h _ _ (by
    rw [Shape.rowMajor_val_three, Shape.rowMajor_val_two]
    show (k.val * 8 + r.val / 128) * 128 + r.val % 128 = k.val * 1024 + r.val
    omega)

end Cert.MainValue
-- ==== Proof.MainValue.Float.lean ====
/-
  The float part of a grid point: the block's partial product as a sum over its 1024 nodes, the zeroing of the weight
  rows past the last read-out node, and the final bias and logistic step, each read at one output index.
-/
import proofs.«203813_g3255585210786_cont_8to1_b_763_8_alg».proof.Proof.Gen.KernelIdeal
import proofs.«203813_g3255585210786_cont_8to1_b_763_8_alg».proof.Proof.Gen.KernelIdeal.Skeleton
import proofs.«203813_g3255585210786_cont_8to1_b_763_8_alg».proof.Proof.MainValue.Layout
import Idealize.ShloMosaic.PureOps.Ideal.Laws
import Idealize.ShloMosaic.Lib.Affine
import Idealize.ShloMosaic.Lib.WholeRead

noncomputable section

open scoped BigOperators

namespace Cert.MainValue

open Cert.KernelIdeal Cert.KernelIdeal.Gen
open Idealize.ShloMosaic Idealize.ShloMosaic.ValueIdx

/-- The 32 result rows, each an 8×128 integer vector, stacked and multiplied into the weight block: output `(b, o)` is
    the sum over the block's nodes of row `b`'s entry, as a real, times the node's weight. -/
theorem stack32_matmul_apply (R : Fin 32 → IVec S8x128 32) (v10 : FVec Ideal S1024x128 .f32)
    (hc : Shape.Concatenates ((List.ofFn fun n : Fin 32 =>
      (⟨S1x8x128, shapeCast S1x8x128 (R n) shapeCasts_S8x128_S1x8x128⟩ : (s : Shape) × (s.Idx → BitVec 32))).map (·.1)) S32x8x128 0)
    (b : Fin 32) (o : Fin 128) :
    matmul dot_S32x1024_S1024x128_S32x128_1_0_0_1_n_n none
      (sitofp (F := Ideal) .f32 (shapeCast S32x1024 (concatenate S32x8x128 0 (List.ofFn fun n : Fin 32 =>
        (⟨S1x8x128, shapeCast S1x8x128 (R n) shapeCasts_S8x128_S1x8x128⟩ : (s : Shape) × (s.Idx → BitVec 32))) hc)
        shapeCasts_S32x8x128_S32x1024))
      v10 (constant (F := Ideal) S32x128 .f32 0x00000000#32) (ix2 b o)
    = ∑ r : Fin 1024, (((R b (ix2 (sub r) (ln r))).toInt : ℝ) : EReal) * v10 (ix2 r o) := by
  refine (Ideal.matmul_constant_zero_apply _ _ _ _ _).trans ?_
  rw [← Equiv.sum_comp (contrEquiv1 dot_S32x1024_S1024x128_S32x128_1_0_0_1_n_n 1024 rfl rfl).symm]
  refine Finset.sum_congr rfl fun r _ => ?_
  have c2 := contrEquiv1_symm_val dot_S32x1024_S1024x128_S32x128_1_0_0_1_n_n 1024 rfl rfl r
  have l2 : dot_S32x1024_S1024x128_S32x128_1_0_0_1_n_n.lhsIdx (ix2 b o) ((contrEquiv1 _ 1024 rfl rfl).symm r) = ix2 b r := by
    funext ax; apply Fin.ext
    match ax with
    | ⟨0, _⟩ => simp [DotDims.lhsIdx, dot_S32x1024_S1024x128_S32x128_1_0_0_1_n_n]; rfl
    | ⟨1, _⟩ => simp [DotDims.lhsIdx, dot_S32x1024_S1024x128_S32x128_1_0_0_1_n_n]; exact c2
  have r2 : dot_S32x1024_S1024x128_S32x128_1_0_0_1_n_n.rhsIdx (ix2 b o) ((contrEquiv1 _ 1024 rfl rfl).symm r) = ix2 r o := by
    funext ax; apply Fin.ext
    match ax with
    | ⟨0, _⟩ => simp [DotDims.rhsIdx, dot_S32x1024_S1024x128_S32x128_1_0_0_1_n_n]; exact c2
    | ⟨1, _⟩ => simp [DotDims.rhsIdx, dot_S32x1024_S1024x128_S32x128_1_0_0_1_n_n]; rfl
  rw [l2, r2]
  refine congrArg (· * v10 (ix2 r o)) ?_
  show ((BitVec.toInt (shapeCast (α := BitVec 32) S32x1024 _ shapeCasts_S32x8x128_S32x1024 (ix2 b r)) : ℝ) : EReal) = _
  rw [shapeCast_slabs_apply]
  rw [concatenate_ofFn_unit_apply (t := S32x8x128) (s₁ := S1x8x128) (0 : Fin 3)
    (fun n : Fin 32 => shapeCast S1x8x128 (R n) shapeCasts_S8x128_S1x8x128) hc rfl rfl (ix3 b (sub r) (ln r)) b rfl
    (ix3 (0 : Fin 1) (sub r) (ln r))
    (fun ax hax => by
      match ax with
      | ⟨0, _⟩ => exact absurd rfl hax
      | ⟨1, _⟩ => rfl
      | ⟨2, _⟩ => rfl)]
  rw [shapeCast_ab_1ab_apply]

set_option maxHeartbeats 1000000 in
/-- The partial product at an output index: the 32 result rows in stacking order (row `q + 8 j` is bit position `q` of
    byte `j`; the last row's final select is formed here) against the weight block. -/
theorem pay231_apply (v10 : FVec Ideal S1024x128 .f32) (v190 : IVec S8x128 1)
    (v290 v337 v384 v431 v528 v575 v622 v669 v766 v813 v860 v907 v1004 v1051 v1098 v1145 v1242 v1289 v1336 v1383 v1480
      v1527 v1574 v1621 v1718 v1765 v1812 v1859 v1909 v1956 v2003 v2050 v2090 : IVec S8x128 32) (b : Fin 32) (o : Fin 128) :
    k2_pay231 (F := Ideal) v10 v190 v290 v337 v384 v431 v528 v575 v622 v669 v766 v813 v860 v907 v1004 v1051 v1098 v1145
        v1242 v1289 v1336 v1383 v1480 v1527 v1574 v1621 v1718 v1765 v1812 v1859 v1909 v1956 v2003 v2050 v2090 (ix2 b o)
      = ∑ r : Fin 1024,
          ((((![v290, v528, v766, v1004, v1242, v1480, v1718, v1956, v337, v575, v813, v1051, v1289, v1527, v1765, v2003,
            v384, v622, v860, v1098, v1336, v1574, v1812, v2050, v431, v669, v907, v1145, v1383, v1621, v1859,
            select v190 (andi (shrsi v1909 (broadcast S8x128 24#32)) (broadcast S8x128 1#32))
              (andi v2090 (broadcast S8x128 1#32))] : Fin 32 → IVec S8x128 32) b (ix2 (sub r) (ln r))).toInt : ℝ) : EReal)
            * v10 (ix2 r o) :=
  stack32_matmul_apply (![v290, v528, v766, v1004, v1242, v1480, v1718, v1956, v337, v575, v813, v1051, v1289, v1527, v1765, v2003,
    v384, v622, v860, v1098, v1336, v1574, v1812, v2050, v431, v669, v907, v1145, v1383, v1621, v1859,
    select v190 (andi (shrsi v1909 (broadcast S8x128 24#32)) (broadcast S8x128 1#32))
      (andi v2090 (broadcast S8x128 1#32))]) v10 _ b o

/-- The weight block with the rows past node 98976 zeroed, read at `(r, o)`. -/
theorem row_lt (n r : Nat) (hn : n < 97) (hr : r < 1024) :
    IntOp.cmpi .slt (IntOp.addi (Scalar.muli (BitVec.ofNat 32 n) 1024#32) (BitVec.ofNat 32 r)) 98976#32
      = if 1024 * n + r < 98976 then 1#1 else 0#1 := by
  have hs : Affine.IsInt (Scalar.addi (Scalar.muli (BitVec.ofNat 32 n) 1024#32) (BitVec.ofNat 32 r)) ((1024 * n + r : Nat) : Int) :=
    Affine.addi (Affine.muli (Affine.ofNat n ⟨rfl, by omega⟩) (Affine.ofNat 1024 ⟨rfl, by omega⟩) ⟨rfl, by omega, by omega⟩)
      (Affine.ofNat r ⟨rfl, by omega⟩) ⟨by push_cast; ring, by omega, by omega⟩
  have hc : Affine.IsInt (98976#32 : BitVec 32) (98976 : Int) := Affine.ofNat 98976 ⟨rfl, by omega⟩
  by_cases h : 1024 * n + r < 98976
  · rw [if_pos h]
    exact Affine.slt_holds hs hc (by omega)
  · rw [if_neg h]
    exact eq_zero_of_ne_one (Affine.slt_fails hs hc (by omega))

theorem pay2_apply (i : grid2.Coords) (v6 : FVec Ideal S1024x128 .f32) (r : Fin 1024) (o : Fin 128) :
    k2_pay2 (F := Ideal) i v6 (ix2 r o) = wz i v6 r o := by
  have hb : broadcastTo S1024x128 (shapeCast S1024x1 (cmpi .slt (addi (broadcast S1024x1 (Scalar.muli (BitVec.ofNat 32 (i 0).val) 1024#32))
        (iota .tc S1024x1 32 [0] iota_S1024x1_d0_w32)) (broadcast S1024x1 98976#32)) shapeCasts_S1024x1_S1024x1)
        broadcasts_S1024x1_S1024x128 (ix2 r o)
      = IntOp.cmpi .slt (IntOp.addi (Scalar.muli (BitVec.ofNat 32 (i 0).val) 1024#32) (BitVec.ofNat 32 r.val)) 98976#32 := by
    rw [broadcastTo_apply _ _ (ix2 r o) (ix2 r (0 : Fin 1)) (fun a => by
      match a with
      | ⟨0, _⟩ => rfl
      | ⟨1, _⟩ => rfl), shapeCast_self]
    show IntOp.cmpi .slt (IntOp.addi _ (BitVec.ofNat 32 (0 * _ + r.val))) _ = _
    rw [Nat.zero_mul, Nat.zero_add]
    rfl
  show Scalar.select (broadcastTo S1024x128 _ broadcasts_S1024x1_S1024x128 (ix2 r o)) (v6 (ix2 r o)) (Ideal.ofBits .f32 0x00000000#32) = _
  rw [hb, row_lt _ _ (i 0).isLt r.isLt, Ideal.ofBits_zero_f32]
  unfold wz
  by_cases h : 1024 * (i 0).val + r.val < 98976
  · rw [if_pos h, if_pos h]; exact select_one _ _
  · rw [if_neg h, if_neg h]; exact select_zero _ _

/-- The last point's update read at an output index: bias added, logistic applied. -/
theorem pay1_apply (v2143 : FVec Ideal S32x128 .f32) (v2145 : FVec Ideal S1x128 .f32) (b : Fin 32) (o : Fin 128) :
    k2_pay1 (F := Ideal) v2143 v2145 (ix2 b o) = Ideal.logistic (v2143 (ix2 b o) + v2145 (ix2 (0 : Fin 1) o)) := by
  show Ideal.logistic (shapeCast S32x128 v2143 shapeCasts_S32x128_S32x128 (ix2 b o)
    + broadcastTo S32x128 (shapeCast S1x128 v2145 shapeCasts_S1x128_S1x128) broadcasts_S1x128_S32x128 (ix2 b o)) = _
  rw [shapeCast_self, shapeCast_self, broadcastTo_1b_ab_apply]

/-- What a load of a whole staging block reads: the block's contents. -/
theorem readAt_whole {s : Shape} {e : EltTy} {M : Memref sig .tc .vmem s e} (hm : M.IsWhole) (x : s.Idx → Elt Ideal e)
    (off : Fin s.rank → Nat) (h0 : ∀ a, off a = 0) (inb : ∀ a, off a + s.size a ≤ s.size a) :
    View.readAt (Elt Ideal) M.view (Rect.unit (s := s) off s.size inb).toLoadRect (hm.unread x) = x := by
  funext j
  rw [Memref.IsWhole.readAt_unread]
  refine congrArg x (funext fun a => Fin.ext ?_)
  show off a + 1 * (j a).val = (j a).val
  rw [h0 a, Nat.zero_add, Nat.one_mul]

end Cert.MainValue

end
-- ==== Proof.MainValue.Base.lean ====
/-
  The values every lane computation starts from, at a middle grid point: the masked neighbour words, the mask sum's
  zero test and the node's own packed word, each read at the lane of node `r`.
-/
import proofs.«203813_g3255585210786_cont_8to1_b_763_8_alg».proof.Proof.MainBody
import proofs.«203813_g3255585210786_cont_8to1_b_763_8_alg».proof.Proof.MainValue.Float

noncomputable section

namespace Cert.MainValue

open Cert.KernelIdeal Cert.KernelIdeal.Gen Cert.MainBody
open Idealize.ShloMosaic Idealize.ShloMosaic.ValueIdx

variable (c : Dev nD) (i : grid2.Coords)
    (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec Ideal S1024x256 .i32) (x2 : Vec Ideal S8x1024 .i32) (x3 : Vec Ideal S8x1024 .i32) (x4 : Vec Ideal S1x8x128 .i32)
    (x5 : Vec Ideal S1024x128 .f32) (x6 : Vec Ideal S1x128 .f32)

/-- One lane's result from the lane's inputs: the no-valid-slot flag, the node's own word, the table words and the masked
    neighbour words. -/
def laneB (nn : BitVec 1) (p : BitVec 32) (w gm : Fin 8 → BitVec 32) (q j : Nat) : BitVec 32 :=
  Scalar.select nn (Cert.Lane.oldOf p q j) (Cert.Lane.lbitOf w (Cert.Lane.idxOf (Cert.Lane.accOf gm q) j))

theorem laneOf_eq_laneB (g m : Fin 8 → BitVec 32) (p : BitVec 32) (w : Fin 8 → BitVec 32) (q j : Nat) :
    Cert.Lane.laneOf g m p w q j
      = laneB (IntOp.cmpi .eq (Cert.Lane.msumOf m) 0#32) p w (Cert.Lane.gmOf g m) q j := rfl

theorem zero_offsets2 : ∀ a : Fin 2, (![0, 0] : Fin 2 → Nat) a = 0 := fun a => by
  match a with
  | ⟨0, _⟩ => rfl
  | ⟨1, _⟩ => rfl

theorem zero_offsets3 : ∀ a : Fin 3, (![0, 0, 0] : Fin 3 → Nat) a = 0 := fun a => by
  match a with
  | ⟨0, _⟩ => rfl
  | ⟨1, _⟩ => rfl
  | ⟨2, _⟩ => rfl

/-- Slot `k`'s gathered words, at the lane of node `r`. -/
theorem gathered_apply (k : Nat) (h : S8x8x128.Slices ![k, 0, 0] S1x8x128) (h' : S1x8x128.ShapeCasts S8x128) (r : Fin 1024) :
    shapeCast S8x128 (extractStridedSlice S1x8x128 ![k, 0, 0] (runMid.sl.v122 (F := Ideal) c M2 hm2 x2) h) h' (ix2 (sub r) (ln r))
      = x2 (ix2 (⟨k, lead_lt h⟩ : Fin 8) r) := by
  rw [shapeCast_1ab_ab_apply, slice3_lead_apply]
  show shapeCast S8x8x128 (shapeCast S8x1024 (View.readAt (Elt Ideal) M2.view _ (hm2.unread x2)) _) _ (ix3 _ (sub r) (ln r)) = _
  rw [shapeCast_rows_apply]
  exact (congrFun (shapeCast_self (s := S8x1024) _ _) _).trans (congrFun (readAt_whole hm2 x2 _ zero_offsets2 _) _)

/-- Slot `k`'s validity flags, at the lane of node `r`. -/
theorem flags_apply (k : Nat) (h : S8x8x128.Slices ![k, 0, 0] S1x8x128) (h' : S1x8x128.ShapeCasts S8x128) (r : Fin 1024) :
    shapeCast S8x128 (extractStridedSlice S1x8x128 ![k, 0, 0] (runMid.sl.v125 (F := Ideal) c M3 hm3 x3) h) h' (ix2 (sub r) (ln r))
      = x3 (ix2 (⟨k, lead_lt h⟩ : Fin 8) r) := by
  rw [shapeCast_1ab_ab_apply, slice3_lead_apply]
  show shapeCast S8x8x128 (shapeCast S8x1024 (View.readAt (Elt Ideal) M3.view _ (hm3.unread x3)) _) _ (ix3 _ (sub r) (ln r)) = _
  rw [shapeCast_rows_apply]
  exact (congrFun (shapeCast_self (s := S8x1024) _ _) _).trans (congrFun (readAt_whole hm3 x3 _ zero_offsets2 _) _)

local notation "NN" => runMid.sl.v190 (F := Ideal) c M3 hm3 x3
local notation "PK" => runMid.sl.v193 (F := Ideal) c M4 hm4 x4
local notation "WW" => (![runMid.sl.r_3 (F := Ideal) c M1 hm1 x1, runMid.sl.r_4 (F := Ideal) c M1 hm1 x1, runMid.sl.r_5 (F := Ideal) c M1 hm1 x1,
  runMid.sl.r_6 (F := Ideal) c M1 hm1 x1, runMid.sl.v98 (F := Ideal) c M1 hm1 x1, runMid.sl.v105 (F := Ideal) c M1 hm1 x1,
  runMid.sl.v112 (F := Ideal) c M1 hm1 x1, runMid.sl.v119 (F := Ideal) c M1 hm1 x1] : Fin 8 → IVec S8x128 32)
local notation "GM" => (![runMid.sl.v130 (F := Ideal) c M2 hm2 M3 hm3 x2 x3, runMid.sl.v135 (F := Ideal) c M2 hm2 M3 hm3 x2 x3,
  runMid.sl.v140 (F := Ideal) c M2 hm2 M3 hm3 x2 x3, runMid.sl.v145 (F := Ideal) c M2 hm2 M3 hm3 x2 x3,
  runMid.sl.v150 (F := Ideal) c M2 hm2 M3 hm3 x2 x3, runMid.sl.v155 (F := Ideal) c M2 hm2 M3 hm3 x2 x3,
  runMid.sl.v160 (F := Ideal) c M2 hm2 M3 hm3 x2 x3, runMid.sl.v165 (F := Ideal) c M2 hm2 M3 hm3 x2 x3] : Fin 8 → IVec S8x128 32)

/-- The masked neighbour words at the lane of node `r`. -/
theorem gm_fun (r : Fin 1024) :
    (fun k => GM k (ix2 (sub r) (ln r))) = Cert.Lane.gmOf (fun k => x2 (ix2 k r)) (fun k => x3 (ix2 k r)) := by
  funext k
  have e : ∀ (k : Nat) (h h2 : S8x8x128.Slices ![k, 0, 0] S1x8x128) (h' h2' : S1x8x128.ShapeCasts S8x128),
      IntOp.muli (shapeCast S8x128 (extractStridedSlice S1x8x128 ![k, 0, 0] (runMid.sl.v122 (F := Ideal) c M2 hm2 x2) h) h' (ix2 (sub r) (ln r)))
        (shapeCast S8x128 (extractStridedSlice S1x8x128 ![k, 0, 0] (runMid.sl.v125 (F := Ideal) c M3 hm3 x3) h2) h2' (ix2 (sub r) (ln r)))
        = IntOp.muli (x2 (ix2 (⟨k, lead_lt h⟩ : Fin 8) r)) (x3 (ix2 (⟨k, lead_lt h⟩ : Fin 8) r)) := fun k h h2 h' h2' => by
    rw [gathered_apply, flags_apply]
  match k with
  | ⟨0, _⟩ => exact e 0 _ _ _ _
  | ⟨1, _⟩ => exact e 1 _ _ _ _
  | ⟨2, _⟩ => exact e 2 _ _ _ _
  | ⟨3, _⟩ => exact e 3 _ _ _ _
  | ⟨4, _⟩ => exact e 4 _ _ _ _
  | ⟨5, _⟩ => exact e 5 _ _ _ _
  | ⟨6, _⟩ => exact e 6 _ _ _ _
  | ⟨7, _⟩ => exact e 7 _ _ _ _

/-- The no-valid-slot flag at the lane of node `r`: the eight flags sum to zero. -/
theorem nn_apply (r : Fin 1024) :
    NN (ix2 (sub r) (ln r)) = IntOp.cmpi .eq (Cert.Lane.msumOf fun k => x3 (ix2 k r)) 0#32 := by
  have e : ∀ (k : Nat) (h : S8x8x128.Slices ![k, 0, 0] S1x8x128) (h' : S1x8x128.ShapeCasts S8x128),
      shapeCast S8x128 (extractStridedSlice S1x8x128 ![k, 0, 0] (runMid.sl.v125 (F := Ideal) c M3 hm3 x3) h) h' (ix2 (sub r) (ln r))
        = x3 (ix2 (⟨k, lead_lt h⟩ : Fin 8) r) := fun k h h' => flags_apply c M3 hm3 x3 k h h' r
  show IntOp.cmpi .eq (IntOp.addi (IntOp.addi (IntOp.addi (IntOp.addi (IntOp.addi (IntOp.addi (IntOp.addi
      (shapeCast S8x128 (extractStridedSlice S1x8x128 ![0, 0, 0] (runMid.sl.v125 (F := Ideal) c M3 hm3 x3) _) _ (ix2 (sub r) (ln r)))
      (shapeCast S8x128 (extractStridedSlice S1x8x128 ![1, 0, 0] (runMid.sl.v125 (F := Ideal) c M3 hm3 x3) _) _ (ix2 (sub r) (ln r))))
      (shapeCast S8x128 (extractStridedSlice S1x8x128 ![2, 0, 0] (runMid.sl.v125 (F := Ideal) c M3 hm3 x3) _) _ (ix2 (sub r) (ln r))))
      (shapeCast S8x128 (extractStridedSlice S1x8x128 ![3, 0, 0] (runMid.sl.v125 (F := Ideal) c M3 hm3 x3) _) _ (ix2 (sub r) (ln r))))
      (shapeCast S8x128 (extractStridedSlice S1x8x128 ![4, 0, 0] (runMid.sl.v125 (F := Ideal) c M3 hm3 x3) _) _ (ix2 (sub r) (ln r))))
      (shapeCast S8x128 (extractStridedSlice S1x8x128 ![5, 0, 0] (runMid.sl.v125 (F := Ideal) c M3 hm3 x3) _) _ (ix2 (sub r) (ln r))))
      (shapeCast S8x128 (extractStridedSlice S1x8x128 ![6, 0, 0] (runMid.sl.v125 (F := Ideal) c M3 hm3 x3) _) _ (ix2 (sub r) (ln r))))
      (shapeCast S8x128 (extractStridedSlice S1x8x128 ![7, 0, 0] (runMid.sl.v125 (F := Ideal) c M3 hm3 x3) _) _ (ix2 (sub r) (ln r)))) 0#32 = _
  rw [e 0, e 1, e 2, e 3, e 4, e 5, e 6, e 7]
  rfl

/-- The node's own packed word at the lane of node `r`. -/
theorem pk_apply (r : Fin 1024) : PK (ix2 (sub r) (ln r)) = x4 (ix3 (0 : Fin 1) (sub r) (ln r)) := by
  show shapeCast S8x128 (shapeCast S1x8x128 (View.readAt (Elt Ideal) M4.view _ (hm4.unread x4)) _) _ (ix2 (sub r) (ln r)) = _
  rw [shapeCast_1ab_ab_apply]
  exact (congrFun (shapeCast_self (s := S1x8x128) _ _) _).trans (congrFun (readAt_whole hm4 x4 _ zero_offsets3 _) _)

end Cert.MainValue

end
-- ==== Proof.MainValue.Rows.lean ====
/-
  The result rows of a middle grid point, lane by lane: the row for bit position `q` of byte `j` is, at every lane, the
  lane computation for `(q, j)` applied to the lane's table words, masked neighbour words, own word and no-valid-slot
  flag.  Every step between them is a lane-wise integer operation, so each equation holds by unfolding.
-/
import proofs.«203813_g3255585210786_cont_8to1_b_763_8_alg».proof.Proof.MainValue.Base

noncomputable section

namespace Cert.MainValue

open Cert.KernelIdeal Cert.KernelIdeal.Gen Cert.MainBody
open Idealize.ShloMosaic Idealize.ShloMosaic.ValueIdx

variable (c : Dev nD) (i : grid2.Coords)
    (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec Ideal S1024x256 .i32) (x2 : Vec Ideal S8x1024 .i32) (x3 : Vec Ideal S8x1024 .i32) (x4 : Vec Ideal S1x8x128 .i32)
    (x5 : Vec Ideal S1024x128 .f32) (x6 : Vec Ideal S1x128 .f32)

local notation "NN" => runMid.sl.v190 (F := Ideal) c M3 hm3 x3
local notation "PK" => runMid.sl.v193 (F := Ideal) c M4 hm4 x4
local notation "WW" => (![runMid.sl.r_3 (F := Ideal) c M1 hm1 x1, runMid.sl.r_4 (F := Ideal) c M1 hm1 x1, runMid.sl.r_5 (F := Ideal) c M1 hm1 x1,
  runMid.sl.r_6 (F := Ideal) c M1 hm1 x1, runMid.sl.v98 (F := Ideal) c M1 hm1 x1, runMid.sl.v105 (F := Ideal) c M1 hm1 x1,
  runMid.sl.v112 (F := Ideal) c M1 hm1 x1, runMid.sl.v119 (F := Ideal) c M1 hm1 x1] : Fin 8 → IVec S8x128 32)
local notation "GM" => (![runMid.sl.v130 (F := Ideal) c M2 hm2 M3 hm3 x2 x3, runMid.sl.v135 (F := Ideal) c M2 hm2 M3 hm3 x2 x3,
  runMid.sl.v140 (F := Ideal) c M2 hm2 M3 hm3 x2 x3, runMid.sl.v145 (F := Ideal) c M2 hm2 M3 hm3 x2 x3,
  runMid.sl.v150 (F := Ideal) c M2 hm2 M3 hm3 x2 x3, runMid.sl.v155 (F := Ideal) c M2 hm2 M3 hm3 x2 x3,
  runMid.sl.v160 (F := Ideal) c M2 hm2 M3 hm3 x2 x3, runMid.sl.v165 (F := Ideal) c M2 hm2 M3 hm3 x2 x3] : Fin 8 → IVec S8x128 32)

set_option maxHeartbeats 16000000 in
/-- Byte 0: batch rows 0 to 7. -/
theorem byte0_apply (q : Fin 8) (J : S8x128.Idx) :
    (![runMid.sl.v290 (F := Ideal) c M1 hm1 M2 hm2 M3 hm3 M4 hm4 x1 x2 x3 x4, runMid.sl.v528 (F := Ideal) c M1 hm1 M2 hm2 M3 hm3 M4 hm4 x1 x2 x3 x4, runMid.sl.v766 (F := Ideal) c M1 hm1 M2 hm2 M3 hm3 M4 hm4 x1 x2 x3 x4, runMid.sl.v1004 (F := Ideal) c M1 hm1 M2 hm2 M3 hm3 M4 hm4 x1 x2 x3 x4,
      runMid.sl.v1242 (F := Ideal) c M1 hm1 M2 hm2 M3 hm3 M4 hm4 x1 x2 x3 x4, runMid.sl.v1480 (F := Ideal) c M1 hm1 M2 hm2 M3 hm3 M4 hm4 x1 x2 x3 x4, runMid.sl.v1718 (F := Ideal) c M1 hm1 M2 hm2 M3 hm3 M4 hm4 x1 x2 x3 x4, runMid.sl.v1956 (F := Ideal) c M1 hm1 M2 hm2 M3 hm3 M4 hm4 x1 x2 x3 x4] : Fin 8 → IVec S8x128 32) q J
      = laneB (NN J) (PK J) (fun k => WW k J) (fun k => GM k J) q.val 0 := by
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

set_option maxHeartbeats 16000000 in
/-- Byte 1: batch rows 8 to 15. -/
theorem byte1_apply (q : Fin 8) (J : S8x128.Idx) :
    (![runMid.sl.v337 (F := Ideal) c M1 hm1 M2 hm2 M3 hm3 M4 hm4 x1 x2 x3 x4, runMid.sl.v575 (F := Ideal) c M1 hm1 M2 hm2 M3 hm3 M4 hm4 x1 x2 x3 x4, runMid.sl.v813 (F := Ideal) c M1 hm1 M2 hm2 M3 hm3 M4 hm4 x1 x2 x3 x4, runMid.sl.v1051 (F := Ideal) c M1 hm1 M2 hm2 M3 hm3 M4 hm4 x1 x2 x3 x4,
      runMid.sl.v1289 (F := Ideal) c M1 hm1 M2 hm2 M3 hm3 M4 hm4 x1 x2 x3 x4, runMid.sl.v1527 (F := Ideal) c M1 hm1 M2 hm2 M3 hm3 M4 hm4 x1 x2 x3 x4, runMid.sl.v1765 (F := Ideal) c M1 hm1 M2 hm2 M3 hm3 M4 hm4 x1 x2 x3 x4, runMid.sl.v2003 (F := Ideal) c M1 hm1 M2 hm2 M3 hm3 M4 hm4 x1 x2 x3 x4] : Fin 8 → IVec S8x128 32) q J
      = laneB (NN J) (PK J) (fun k => WW k J) (fun k => GM k J) q.val 1 := by
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

set_option maxHeartbeats 16000000 in
/-- Byte 2: batch rows 16 to 23. -/
theorem byte2_apply (q : Fin 8) (J : S8x128.Idx) :
    (![runMid.sl.v384 (F := Ideal) c M1 hm1 M2 hm2 M3 hm3 M4 hm4 x1 x2 x3 x4, runMid.sl.v622 (F := Ideal) c M1 hm1 M2 hm2 M3 hm3 M4 hm4 x1 x2 x3 x4, runMid.sl.v860 (F := Ideal) c M1 hm1 M2 hm2 M3 hm3 M4 hm4 x1 x2 x3 x4, runMid.sl.v1098 (F := Ideal) c M1 hm1 M2 hm2 M3 hm3 M4 hm4 x1 x2 x3 x4,
      runMid.sl.v1336 (F := Ideal) c M1 hm1 M2 hm2 M3 hm3 M4 hm4 x1 x2 x3 x4, runMid.sl.v1574 (F := Ideal) c M1 hm1 M2 hm2 M3 hm3 M4 hm4 x1 x2 x3 x4, runMid.sl.v1812 (F := Ideal) c M1 hm1 M2 hm2 M3 hm3 M4 hm4 x1 x2 x3 x4, runMid.sl.v2050 (F := Ideal) c M1 hm1 M2 hm2 M3 hm3 M4 hm4 x1 x2 x3 x4] : Fin 8 → IVec S8x128 32) q J
      = laneB (NN J) (PK J) (fun k => WW k J) (fun k => GM k J) q.val 2 := by
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

set_option maxHeartbeats 16000000 in
/-- Byte 3: batch rows 24 to 31; the last row's final select is formed with the partial product. -/
theorem byte3_apply (q : Fin 8) (J : S8x128.Idx) :
    (![runMid.sl.v431 (F := Ideal) c M1 hm1 M2 hm2 M3 hm3 M4 hm4 x1 x2 x3 x4, runMid.sl.v669 (F := Ideal) c M1 hm1 M2 hm2 M3 hm3 M4 hm4 x1 x2 x3 x4, runMid.sl.v907 (F := Ideal) c M1 hm1 M2 hm2 M3 hm3 M4 hm4 x1 x2 x3 x4, runMid.sl.v1145 (F := Ideal) c M1 hm1 M2 hm2 M3 hm3 M4 hm4 x1 x2 x3 x4,
      runMid.sl.v1383 (F := Ideal) c M1 hm1 M2 hm2 M3 hm3 M4 hm4 x1 x2 x3 x4, runMid.sl.v1621 (F := Ideal) c M1 hm1 M2 hm2 M3 hm3 M4 hm4 x1 x2 x3 x4, runMid.sl.v1859 (F := Ideal) c M1 hm1 M2 hm2 M3 hm3 M4 hm4 x1 x2 x3 x4,
      select (runMid.sl.v190 (F := Ideal) c M3 hm3 x3)
        (andi (shrsi (runMid.sl.v1909 (F := Ideal) c M4 hm4 x4) (broadcast S8x128 24#32)) (broadcast S8x128 1#32))
        (andi (runMid.sl.v2090 (F := Ideal) c M1 hm1 M2 hm2 M3 hm3 x1 x2 x3) (broadcast S8x128 1#32))] : Fin 8 → IVec S8x128 32) q J
      = laneB (NN J) (PK J) (fun k => WW k J) (fun k => GM k J) q.val 3 := by
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

end Cert.MainValue

end
-- ==== Proof.MainValue.WordsSel.lean ====
/-
  The selector matrix of the table-word product.  Row `t` of the 16×256 matrix holds `2^(c mod 16)` in columns
  `16 t … 16 t + 15` and zero elsewhere, so a sum against it keeps sixteen columns, each with its power of two.
-/
import proofs.«203813_g3255585210786_cont_8to1_b_763_8_alg».proof.Proof.Gen.KernelIdeal
import proofs.«203813_g3255585210786_cont_8to1_b_763_8_alg».proof.Proof.Gen.KernelIdeal.Skeleton
import proofs.«203813_g3255585210786_cont_8to1_b_763_8_alg».proof.Proof.MainValue.Defs
import Idealize.ShloMosaic.PureOps.Ideal.Laws

noncomputable section

open scoped BigOperators

namespace Cert.MainValue

open Cert.KernelIdeal Cert.KernelIdeal.Gen
open Idealize.ShloMosaic Idealize.ShloMosaic.ValueIdx

/-- The selector matrix as integers, as the body builds it from two iotas: the column's quotient by 16 compared with the
    row, and 1 shifted left by the column's remainder. -/
def selVec : IVec S16x256 32 :=
  have v14 : IVec S16x256 32 := iota .tc S16x256 32 [1] iota_S16x256_d1_w32
  have v42 : IVec S16x256 32 := broadcast S16x256 16#32
  have v43 : IVec S16x256 32 := remsi v14 v42
  have v44 : IVec S16x256 32 := broadcast S16x256 0#32
  have v45 : IVec S16x256 1 := cmpi .ne v43 v44
  have v46 : IVec S16x256 32 := broadcast S16x256 0#32
  have v47 : IVec S16x256 1 := cmpi .slt v43 v46
  let v48 : BitVec 1 := Scalar.cmpi .slt 16#32 0#32
  have v49 : IVec S16x256 1 := broadcast S16x256 v48
  have v50 : IVec S16x256 1 := broadcastTo S16x256 v49 broadcasts_S16x256_S16x256
  have v51 : IVec S16x256 1 := xori v47 v50
  have v52 : IVec S16x256 1 := andi v51 v45
  have v53 : IVec S16x256 32 := broadcast S16x256 16#32
  have v54 : IVec S16x256 32 := addi v43 v53
  have v55 : IVec S16x256 32 := select v52 v54 v43
  have v56 : IVec S16x256 32 := broadcast S16x256 1#32
  have v57 : IVec S16x256 32 := shli v56 v55
  have v58 : IVec S16x256 32 := broadcast S16x256 0#32
  have v59 : IVec S16x256 32 := select k2_pay4 v57 v58
  v59

/-- Its entries: `2^(c mod 16)` where `c / 16` is the row, zero elsewhere. -/
theorem selVec_apply : ∀ (t : Fin 16) (c : Fin 256),
    selVec (ix2 t c) = if c.val / 16 = t.val then BitVec.ofNat 32 (2 ^ (c.val % 16)) else 0#32 := by
  decide +kernel

theorem pow_toInt : ∀ k : Fin 16, (BitVec.ofNat 32 (2 ^ k.val)).toInt = ((2 ^ k.val : ℕ) : ℤ) := by decide

/-- A sum against a selector row keeps the row's sixteen columns. -/
theorem sum_sel (t : Fin 16) (S y : Fin 256 → EReal)
    (hS : ∀ c : Fin 256, S c = if c.val / 16 = t.val then (((2 ^ (c.val % 16) : ℕ) : ℝ) : EReal) else 0) :
    ∑ c : Fin 256, S c * y c
      = ∑ c' : Fin 16, (((2 ^ c'.val : ℕ) : ℝ) : EReal)
          * y ⟨16 * t.val + c'.val, by have := t.isLt; have := c'.isLt; omega⟩ := by
  let f : Fin 16 → Fin 256 := fun c' => ⟨16 * t.val + c'.val, by have := t.isLt; have := c'.isLt; omega⟩
  have hf : Function.Injective f := fun a b h => Fin.ext (by
    have := congrArg Fin.val h
    simp only [f] at this
    omega)
  rw [← Finset.sum_subset (Finset.subset_univ (Finset.univ.image f)) (fun c _ hc => by
    rw [hS c, if_neg, zero_mul]
    intro hct
    exact hc (Finset.mem_image.mpr ⟨⟨c.val % 16, Nat.mod_lt _ (by decide)⟩, Finset.mem_univ _,
      Fin.ext (by show 16 * t.val + c.val % 16 = c.val; omega)⟩))]
  rw [Finset.sum_image (fun a _ b _ h => hf h)]
  refine Finset.sum_congr rfl fun c' _ => ?_
  rw [hS (f c'), if_pos (by show (16 * t.val + c'.val) / 16 = t.val; omega)]
  have e : (f c').val % 16 = c'.val := by show (16 * t.val + c'.val) % 16 = c'.val; omega
  rw [e]

set_option maxHeartbeats 4000000 in
/-- The half-word vector is the selector product converted to integers, in sublane-lane form. -/
theorem pay5_eq (v12 : FVec Ideal S1024x256 .f32) :
    k2_pay5 (F := Ideal) v12 (iota .tc S16x256 32 [1] iota_S16x256_d1_w32) k2_pay4 16#32
      = shapeCast S16x8x128 (fptosi 32 (matmul dot_S16x256_S1024x256_S16x1024_1_1_0_0_n_n none (sitofp (F := Ideal) .f32 selVec) v12
          (constant (F := Ideal) S16x1024 .f32 0x00000000#32))) shapeCasts_S16x1024_S16x8x128 := rfl

end Cert.MainValue

end
-- ==== Proof.MainValue.Words.lean ====
/-
  The table words of a block's nodes.  The body multiplies the selector matrix into the block's table rows converted to
  reals, so entry `(t, r)` of the product is the sum of node `r`'s sixteen entries `16 t + c` weighted by `2^c`:
  every other term is zero times a real.  Converted back to integers, two consecutive halves make one 32-bit table word.
-/
import proofs.«203813_g3255585210786_cont_8to1_b_763_8_alg».proof.Proof.MainBody
import proofs.«203813_g3255585210786_cont_8to1_b_763_8_alg».proof.Proof.MainValue.Float
import proofs.«203813_g3255585210786_cont_8to1_b_763_8_alg».proof.Proof.MainValue.WordsSel

noncomputable section

open scoped BigOperators

namespace Cert.MainValue

open Cert.KernelIdeal Cert.KernelIdeal.Gen Cert.MainBody
open Idealize.ShloMosaic Idealize.ShloMosaic.ValueIdx

theorem zero_offsets2' : ∀ a : Fin 2, (![0, 0] : Fin 2 → Nat) a = 0 := fun a => by
  match a with
  | ⟨0, _⟩ => rfl
  | ⟨1, _⟩ => rfl

variable (c : Dev nD) (i : grid2.Coords)
    (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec Ideal S1024x256 .i32) (x2 : Vec Ideal S8x1024 .i32) (x3 : Vec Ideal S8x1024 .i32) (x4 : Vec Ideal S1x8x128 .i32)
    (x5 : Vec Ideal S1024x128 .f32) (x6 : Vec Ideal S1x128 .f32)

/-- Half-word `t` of node `r`: the product's entry `(t, r)`, converted back to an integer. -/
theorem half_apply (r : Fin 1024) (t : Fin 16) :
    runMid.sl.r_2 (F := Ideal) c M1 hm1 x1 (ix3 t (sub r) (ln r)) = Ideal.fptosi 32 (halfF x1 r t) := by
  show k2_pay5 (F := Ideal) (runMid.sl.r_1 (F := Ideal) c M1 hm1 x1) (iota .tc S16x256 32 [1] iota_S16x256_d1_w32) k2_pay4 16#32
    (ix3 t (sub r) (ln r)) = _
  rw [pay5_eq, shapeCast_rows_apply]
  show Ideal.fptosi 32 (matmul dot_S16x256_S1024x256_S16x1024_1_1_0_0_n_n none (sitofp (F := Ideal) .f32 selVec) (runMid.sl.r_1 (F := Ideal) c M1 hm1 x1)
      (constant (F := Ideal) S16x1024 .f32 0x00000000#32) (ix2 t r)) = _
  refine congrArg (Ideal.fptosi 32) ?_
  refine (Ideal.matmul_constant_zero_apply _ _ _ _ _).trans ?_
  rw [← Equiv.sum_comp (contrEquiv1 dot_S16x256_S1024x256_S16x1024_1_1_0_0_n_n 256 rfl rfl).symm]
  have hterm : ∀ cc : Fin 256,
      sitofp (F := Ideal) .f32 selVec (dot_S16x256_S1024x256_S16x1024_1_1_0_0_n_n.lhsIdx (ix2 t r) ((contrEquiv1 dot_S16x256_S1024x256_S16x1024_1_1_0_0_n_n 256 rfl rfl).symm cc))
        * runMid.sl.r_1 (F := Ideal) c M1 hm1 x1 (dot_S16x256_S1024x256_S16x1024_1_1_0_0_n_n.rhsIdx (ix2 t r) ((contrEquiv1 dot_S16x256_S1024x256_S16x1024_1_1_0_0_n_n 256 rfl rfl).symm cc))
      = (((selVec (ix2 t cc)).toInt : ℝ) : EReal) * (((BitVec.toInt (x1 (ix2 r cc)) : ℤ) : ℝ) : EReal) := fun cc => by
    have c2 := contrEquiv1_symm_val dot_S16x256_S1024x256_S16x1024_1_1_0_0_n_n 256 rfl rfl cc
    have l2 : dot_S16x256_S1024x256_S16x1024_1_1_0_0_n_n.lhsIdx (ix2 t r) ((contrEquiv1 _ 256 rfl rfl).symm cc) = ix2 t cc := by
      funext ax; apply Fin.ext
      match ax with
      | ⟨0, _⟩ => simp [DotDims.lhsIdx, dot_S16x256_S1024x256_S16x1024_1_1_0_0_n_n]; rfl
      | ⟨1, _⟩ => simp [DotDims.lhsIdx, dot_S16x256_S1024x256_S16x1024_1_1_0_0_n_n]; exact c2
    have r2 : dot_S16x256_S1024x256_S16x1024_1_1_0_0_n_n.rhsIdx (ix2 t r) ((contrEquiv1 _ 256 rfl rfl).symm cc) = ix2 r cc := by
      funext ax; apply Fin.ext
      match ax with
      | ⟨0, _⟩ => simp [DotDims.rhsIdx, dot_S16x256_S1024x256_S16x1024_1_1_0_0_n_n]; rfl
      | ⟨1, _⟩ => simp [DotDims.rhsIdx, dot_S16x256_S1024x256_S16x1024_1_1_0_0_n_n]; exact c2
    rw [l2, r2]
    exact congrArg (fun v : BitVec 32 => (((selVec (ix2 t cc)).toInt : ℝ) : EReal) * (((v.toInt : ℤ) : ℝ) : EReal))
      (congrFun (readAt_whole hm1 x1 _ zero_offsets2' _) (ix2 r cc))
  refine (Finset.sum_congr rfl fun cc _ => hterm cc).trans ?_
  refine sum_sel t _ _ fun c => ?_
  rw [selVec_apply t c]
  by_cases h : c.val / 16 = t.val
  · rw [if_pos h, if_pos h, pow_toInt ⟨c.val % 16, Nat.mod_lt _ (by decide)⟩, Int.cast_natCast]
  · rw [if_neg h, if_neg h]
    show (((0 : ℤ) : ℝ) : EReal) = 0
    rw [Int.cast_zero, EReal.coe_zero]

/-- A table word from two slabs of the half-word vector, at the lane of node `r`. -/
theorem word_apply (a b : Nat) (ha : S16x8x128.Slices ![a, 0, 0] S1x8x128) (hb : S16x8x128.Slices ![b, 0, 0] S1x8x128)
    (h' h'' : S1x8x128.ShapeCasts S8x128) (r : Fin 1024) :
    IntOp.addi (shapeCast S8x128 (extractStridedSlice S1x8x128 ![a, 0, 0] (runMid.sl.r_2 (F := Ideal) c M1 hm1 x1) ha) h' (ix2 (sub r) (ln r)))
        (IntOp.shli .vector (shapeCast S8x128 (extractStridedSlice S1x8x128 ![b, 0, 0] (runMid.sl.r_2 (F := Ideal) c M1 hm1 x1) hb) h''
          (ix2 (sub r) (ln r))) 16#32)
      = Cert.Lane.wordOf (Ideal.fptosi 32 (halfF x1 r ⟨a, lead_lt ha⟩)) (Ideal.fptosi 32 (halfF x1 r ⟨b, lead_lt hb⟩)) := by
  rw [shapeCast_1ab_ab_apply, slice3_lead_apply, shapeCast_1ab_ab_apply, slice3_lead_apply, half_apply, half_apply]
  rfl

/-- The eight table words at the lane of node `r`. -/
theorem ww_fun (r : Fin 1024) :
    (fun k => (![runMid.sl.r_3 (F := Ideal) c M1 hm1 x1, runMid.sl.r_4 (F := Ideal) c M1 hm1 x1, runMid.sl.r_5 (F := Ideal) c M1 hm1 x1,
      runMid.sl.r_6 (F := Ideal) c M1 hm1 x1, runMid.sl.v98 (F := Ideal) c M1 hm1 x1, runMid.sl.v105 (F := Ideal) c M1 hm1 x1,
      runMid.sl.v112 (F := Ideal) c M1 hm1 x1, runMid.sl.v119 (F := Ideal) c M1 hm1 x1] : Fin 8 → IVec S8x128 32) k (ix2 (sub r) (ln r)))
      = wordK x1 r := by
  funext k
  match k with
  | ⟨0, _⟩ => exact word_apply c M1 hm1 x1 0 1 _ _ _ _ r
  | ⟨1, _⟩ => exact word_apply c M1 hm1 x1 2 3 _ _ _ _ r
  | ⟨2, _⟩ => exact word_apply c M1 hm1 x1 4 5 _ _ _ _ r
  | ⟨3, _⟩ => exact word_apply c M1 hm1 x1 6 7 _ _ _ _ r
  | ⟨4, _⟩ => exact word_apply c M1 hm1 x1 8 9 _ _ _ _ r
  | ⟨5, _⟩ => exact word_apply c M1 hm1 x1 10 11 _ _ _ _ r
  | ⟨6, _⟩ => exact word_apply c M1 hm1 x1 12 13 _ _ _ _ r
  | ⟨7, _⟩ => exact word_apply c M1 hm1 x1 14 15 _ _ _ _ r

end Cert.MainValue

end
-- ==== Proof.MainValue.lean ====
/-
  One grid point of the read-out call, index by index.  The partial product of a block is `part`: the sum over the
  block's 1024 nodes of the node's new bit in the batch row, as a real, times the node's (zeroed past the last read-out
  node) weight.  The first point stores it, a middle point adds it to the accumulator, the last point adds it, then the
  bias, and applies the logistic function.  The integer part is read off the middle point's run; the other two runs
  compute the same values, which unfolding shows.
-/
import proofs.«203813_g3255585210786_cont_8to1_b_763_8_alg».proof.Proof.MainBody
import proofs.«203813_g3255585210786_cont_8to1_b_763_8_alg».proof.Proof.MainValue.Base
import proofs.«203813_g3255585210786_cont_8to1_b_763_8_alg».proof.Proof.MainValue.Rows
import proofs.«203813_g3255585210786_cont_8to1_b_763_8_alg».proof.Proof.MainValue.Words
import Idealize.ShloMosaic.Lib.WritesUnit
import Idealize.ShloMosaic.Lib.Pipeline.FrameBody

noncomputable section

open scoped BigOperators

namespace Cert.MainValue

open Cert.KernelIdeal Cert.KernelIdeal.Gen Cert.MainBody
open Idealize.ShloMosaic Idealize.ShloMosaic.ValueIdx

variable {U : Type} [Idealize.SL.RA.URA U]

variable (c : Dev nD) (i : grid2.Coords)
    (M1 : Memref sig .tc .vmem S1024x256 .i32) (hm1 : M1.IsWhole) (M2 : Memref sig .tc .vmem S8x1024 .i32) (hm2 : M2.IsWhole)
    (M3 : Memref sig .tc .vmem S8x1024 .i32) (hm3 : M3.IsWhole) (M4 : Memref sig .tc .vmem S1x8x128 .i32) (hm4 : M4.IsWhole)
    (M5 : Memref sig .tc .vmem S1024x128 .f32) (hm5 : M5.IsWhole) (M6 : Memref sig .tc .vmem S1x128 .f32) (hm6 : M6.IsWhole)
    (M7 : Memref sig .tc .vmem S32x128 .f32) (hm7 : M7.IsWhole)
    (x1 : Vec Ideal S1024x256 .i32) (x2 : Vec Ideal S8x1024 .i32) (x3 : Vec Ideal S8x1024 .i32) (x4 : Vec Ideal S1x8x128 .i32)
    (x5 : Vec Ideal S1024x128 .f32) (x6 : Vec Ideal S1x128 .f32)

local notation "NN" => runMid.sl.v190 (F := Ideal) c M3 hm3 x3
local notation "PK" => runMid.sl.v193 (F := Ideal) c M4 hm4 x4
local notation "WW" => (![runMid.sl.r_3 (F := Ideal) c M1 hm1 x1, runMid.sl.r_4 (F := Ideal) c M1 hm1 x1, runMid.sl.r_5 (F := Ideal) c M1 hm1 x1,
  runMid.sl.r_6 (F := Ideal) c M1 hm1 x1, runMid.sl.v98 (F := Ideal) c M1 hm1 x1, runMid.sl.v105 (F := Ideal) c M1 hm1 x1,
  runMid.sl.v112 (F := Ideal) c M1 hm1 x1, runMid.sl.v119 (F := Ideal) c M1 hm1 x1] : Fin 8 → IVec S8x128 32)
local notation "GM" => (![runMid.sl.v130 (F := Ideal) c M2 hm2 M3 hm3 x2 x3, runMid.sl.v135 (F := Ideal) c M2 hm2 M3 hm3 x2 x3,
  runMid.sl.v140 (F := Ideal) c M2 hm2 M3 hm3 x2 x3, runMid.sl.v145 (F := Ideal) c M2 hm2 M3 hm3 x2 x3,
  runMid.sl.v150 (F := Ideal) c M2 hm2 M3 hm3 x2 x3, runMid.sl.v155 (F := Ideal) c M2 hm2 M3 hm3 x2 x3,
  runMid.sl.v160 (F := Ideal) c M2 hm2 M3 hm3 x2 x3, runMid.sl.v165 (F := Ideal) c M2 hm2 M3 hm3 x2 x3] : Fin 8 → IVec S8x128 32)

/-- A 32-entry vector read at `q + 8 j` is the `j`-th group of eight read at `q`. -/
theorem vec32_at {α : Type} (a0 a1 a2 a3 a4 a5 a6 a7 a8 a9 a10 a11 a12 a13 a14 a15 a16 a17 a18 a19 a20 a21 a22 a23 a24 a25 a26 a27 a28 a29 a30 a31 : α) (q : Fin 8) (j : Fin 4) (h : q.val + 8 * j.val < 32) :
    (![a0, a1, a2, a3, a4, a5, a6, a7, a8, a9, a10, a11, a12, a13, a14, a15, a16, a17, a18, a19, a20, a21, a22, a23, a24, a25, a26, a27, a28, a29, a30, a31] : Fin 32 → α) ⟨q.val + 8 * j.val, h⟩
      = (![![a0, a1, a2, a3, a4, a5, a6, a7], ![a8, a9, a10, a11, a12, a13, a14, a15],
          ![a16, a17, a18, a19, a20, a21, a22, a23], ![a24, a25, a26, a27, a28, a29, a30, a31]] : Fin 4 → Fin 8 → α) j q := by
  fin_cases j <;> fin_cases q <;> rfl

/-- A node's new bit in batch row `bb` is the lane computation for bit position `bb % 8` of byte `bb / 8`. -/
theorem resBit_eq (bb : Fin 32) (r : Fin 1024) (q j : Nat) (hq : bb.val % 8 = q) (hj : bb.val / 8 = j) :
    resBit x1 x2 x3 x4 bb r
      = Cert.Lane.laneOf (fun k => x2 (ix2 k r)) (fun k => x3 (ix2 k r)) (x4 (ix3 (0 : Fin 1) (sub r) (ln r))) (wordK x1 r) q j := by
  subst hq hj
  unfold resBit
  rfl

set_option maxHeartbeats 4000000 in
/-- The matrix the body converts to reals before its second product: at `(b, r)` it is node `r`'s new bit in batch
    row `b`. -/
theorem v2131_apply (b : Fin 32) (r : Fin 1024) :
    (![runMid.sl.v290 (F := Ideal) c M1 hm1 M2 hm2 M3 hm3 M4 hm4 x1 x2 x3 x4,
      runMid.sl.v528 (F := Ideal) c M1 hm1 M2 hm2 M3 hm3 M4 hm4 x1 x2 x3 x4,
      runMid.sl.v766 (F := Ideal) c M1 hm1 M2 hm2 M3 hm3 M4 hm4 x1 x2 x3 x4,
      runMid.sl.v1004 (F := Ideal) c M1 hm1 M2 hm2 M3 hm3 M4 hm4 x1 x2 x3 x4,
      runMid.sl.v1242 (F := Ideal) c M1 hm1 M2 hm2 M3 hm3 M4 hm4 x1 x2 x3 x4,
      runMid.sl.v1480 (F := Ideal) c M1 hm1 M2 hm2 M3 hm3 M4 hm4 x1 x2 x3 x4,
      runMid.sl.v1718 (F := Ideal) c M1 hm1 M2 hm2 M3 hm3 M4 hm4 x1 x2 x3 x4,
      runMid.sl.v1956 (F := Ideal) c M1 hm1 M2 hm2 M3 hm3 M4 hm4 x1 x2 x3 x4,
      runMid.sl.v337 (F := Ideal) c M1 hm1 M2 hm2 M3 hm3 M4 hm4 x1 x2 x3 x4,
      runMid.sl.v575 (F := Ideal) c M1 hm1 M2 hm2 M3 hm3 M4 hm4 x1 x2 x3 x4,
      runMid.sl.v813 (F := Ideal) c M1 hm1 M2 hm2 M3 hm3 M4 hm4 x1 x2 x3 x4,
      runMid.sl.v1051 (F := Ideal) c M1 hm1 M2 hm2 M3 hm3 M4 hm4 x1 x2 x3 x4,
      runMid.sl.v1289 (F := Ideal) c M1 hm1 M2 hm2 M3 hm3 M4 hm4 x1 x2 x3 x4,
      runMid.sl.v1527 (F := Ideal) c M1 hm1 M2 hm2 M3 hm3 M4 hm4 x1 x2 x3 x4,
      runMid.sl.v1765 (F := Ideal) c M1 hm1 M2 hm2 M3 hm3 M4 hm4 x1 x2 x3 x4,
      runMid.sl.v2003 (F := Ideal) c M1 hm1 M2 hm2 M3 hm3 M4 hm4 x1 x2 x3 x4,
      runMid.sl.v384 (F := Ideal) c M1 hm1 M2 hm2 M3 hm3 M4 hm4 x1 x2 x3 x4,
      runMid.sl.v622 (F := Ideal) c M1 hm1 M2 hm2 M3 hm3 M4 hm4 x1 x2 x3 x4,
      runMid.sl.v860 (F := Ideal) c M1 hm1 M2 hm2 M3 hm3 M4 hm4 x1 x2 x3 x4,
      runMid.sl.v1098 (F := Ideal) c M1 hm1 M2 hm2 M3 hm3 M4 hm4 x1 x2 x3 x4,
      runMid.sl.v1336 (F := Ideal) c M1 hm1 M2 hm2 M3 hm3 M4 hm4 x1 x2 x3 x4,
      runMid.sl.v1574 (F := Ideal) c M1 hm1 M2 hm2 M3 hm3 M4 hm4 x1 x2 x3 x4,
      runMid.sl.v1812 (F := Ideal) c M1 hm1 M2 hm2 M3 hm3 M4 hm4 x1 x2 x3 x4,
      runMid.sl.v2050 (F := Ideal) c M1 hm1 M2 hm2 M3 hm3 M4 hm4 x1 x2 x3 x4,
      runMid.sl.v431 (F := Ideal) c M1 hm1 M2 hm2 M3 hm3 M4 hm4 x1 x2 x3 x4,
      runMid.sl.v669 (F := Ideal) c M1 hm1 M2 hm2 M3 hm3 M4 hm4 x1 x2 x3 x4,
      runMid.sl.v907 (F := Ideal) c M1 hm1 M2 hm2 M3 hm3 M4 hm4 x1 x2 x3 x4,
      runMid.sl.v1145 (F := Ideal) c M1 hm1 M2 hm2 M3 hm3 M4 hm4 x1 x2 x3 x4,
      runMid.sl.v1383 (F := Ideal) c M1 hm1 M2 hm2 M3 hm3 M4 hm4 x1 x2 x3 x4,
      runMid.sl.v1621 (F := Ideal) c M1 hm1 M2 hm2 M3 hm3 M4 hm4 x1 x2 x3 x4,
      runMid.sl.v1859 (F := Ideal) c M1 hm1 M2 hm2 M3 hm3 M4 hm4 x1 x2 x3 x4,
      select (runMid.sl.v190 (F := Ideal) c M3 hm3 x3)
        (andi (shrsi (runMid.sl.v1909 (F := Ideal) c M4 hm4 x4) (broadcast S8x128 24#32)) (broadcast S8x128 1#32))
        (andi (runMid.sl.v2090 (F := Ideal) c M1 hm1 M2 hm2 M3 hm3 x1 x2 x3) (broadcast S8x128 1#32))] : Fin 32 → IVec S8x128 32) b (ix2 (sub r) (ln r))
      = resBit x1 x2 x3 x4 b r := by
  have key : ∀ q j : Nat,
      laneB (NN (ix2 (sub r) (ln r))) (PK (ix2 (sub r) (ln r))) (fun k => WW k (ix2 (sub r) (ln r)))
          (fun k => GM k (ix2 (sub r) (ln r))) q j
        = Cert.Lane.laneOf (fun k => x2 (ix2 k r)) (fun k => x3 (ix2 k r)) (x4 (ix3 (0 : Fin 1) (sub r) (ln r))) (wordK x1 r) q j :=
    fun q j => by
      rw [laneOf_eq_laneB, nn_apply c M3 hm3 x3 r, pk_apply c M4 hm4 x4 r, ww_fun c M1 hm1 x1 r, gm_fun c M2 hm2 M3 hm3 x2 x3 r]
  obtain ⟨q, j, rfl⟩ : ∃ (q : Fin 8) (j : Fin 4), b = ⟨q.val + 8 * j.val, by have := q.isLt; have := j.isLt; omega⟩ :=
    ⟨⟨b.val % 8, Nat.mod_lt _ (by decide)⟩, ⟨b.val / 8, by have := b.isLt; omega⟩, Fin.ext (by show b.val = b.val % 8 + 8 * (b.val / 8); omega)⟩
  refine (congrFun (vec32_at _ _ _ _ _ _ _ _ _ _ _ _ _ _ _ _ _ _ _ _ _ _ _ _ _ _ _ _ _ _ _ _ q j _) (ix2 (sub r) (ln r))).trans ?_
  match j with
  | ⟨0, _⟩ => exact ((byte0_apply c M1 hm1 M2 hm2 M3 hm3 M4 hm4 x1 x2 x3 x4 q (ix2 (sub r) (ln r))).trans (key q.val 0)).trans (resBit_eq x1 x2 x3 x4 _ r q.val 0 (by show (q.val + 8 * 0) % 8 = q.val; have := q.isLt; omega) (by show (q.val + 8 * 0) / 8 = 0; have := q.isLt; omega)).symm
  | ⟨1, _⟩ => exact ((byte1_apply c M1 hm1 M2 hm2 M3 hm3 M4 hm4 x1 x2 x3 x4 q (ix2 (sub r) (ln r))).trans (key q.val 1)).trans (resBit_eq x1 x2 x3 x4 _ r q.val 1 (by show (q.val + 8 * 1) % 8 = q.val; have := q.isLt; omega) (by show (q.val + 8 * 1) / 8 = 1; have := q.isLt; omega)).symm
  | ⟨2, _⟩ => exact ((byte2_apply c M1 hm1 M2 hm2 M3 hm3 M4 hm4 x1 x2 x3 x4 q (ix2 (sub r) (ln r))).trans (key q.val 2)).trans (resBit_eq x1 x2 x3 x4 _ r q.val 2 (by show (q.val + 8 * 2) % 8 = q.val; have := q.isLt; omega) (by show (q.val + 8 * 2) / 8 = 2; have := q.isLt; omega)).symm
  | ⟨3, _⟩ => exact ((byte3_apply c M1 hm1 M2 hm2 M3 hm3 M4 hm4 x1 x2 x3 x4 q (ix2 (sub r) (ln r))).trans (key q.val 3)).trans (resBit_eq x1 x2 x3 x4 _ r q.val 3 (by show (q.val + 8 * 3) % 8 = q.val; have := q.isLt; omega) (by show (q.val + 8 * 3) / 8 = 3; have := q.isLt; omega)).symm

/-- The block's partial product at an output index, at a middle point's values. -/
theorem mid_part (b : Fin 32) (o : Fin 128) :
    k2_pay231 (F := Ideal) (runMid.sl.r (F := Ideal) c i M5 hm5 x5) (runMid.sl.v190 (F := Ideal) c M3 hm3 x3)
      (runMid.sl.v290 (F := Ideal) c M1 hm1 M2 hm2 M3 hm3 M4 hm4 x1 x2 x3 x4)
      (runMid.sl.v337 (F := Ideal) c M1 hm1 M2 hm2 M3 hm3 M4 hm4 x1 x2 x3 x4)
      (runMid.sl.v384 (F := Ideal) c M1 hm1 M2 hm2 M3 hm3 M4 hm4 x1 x2 x3 x4)
      (runMid.sl.v431 (F := Ideal) c M1 hm1 M2 hm2 M3 hm3 M4 hm4 x1 x2 x3 x4)
      (runMid.sl.v528 (F := Ideal) c M1 hm1 M2 hm2 M3 hm3 M4 hm4 x1 x2 x3 x4)
      (runMid.sl.v575 (F := Ideal) c M1 hm1 M2 hm2 M3 hm3 M4 hm4 x1 x2 x3 x4)
      (runMid.sl.v622 (F := Ideal) c M1 hm1 M2 hm2 M3 hm3 M4 hm4 x1 x2 x3 x4)
      (runMid.sl.v669 (F := Ideal) c M1 hm1 M2 hm2 M3 hm3 M4 hm4 x1 x2 x3 x4)
      (runMid.sl.v766 (F := Ideal) c M1 hm1 M2 hm2 M3 hm3 M4 hm4 x1 x2 x3 x4)
      (runMid.sl.v813 (F := Ideal) c M1 hm1 M2 hm2 M3 hm3 M4 hm4 x1 x2 x3 x4)
      (runMid.sl.v860 (F := Ideal) c M1 hm1 M2 hm2 M3 hm3 M4 hm4 x1 x2 x3 x4)
      (runMid.sl.v907 (F := Ideal) c M1 hm1 M2 hm2 M3 hm3 M4 hm4 x1 x2 x3 x4)
      (runMid.sl.v1004 (F := Ideal) c M1 hm1 M2 hm2 M3 hm3 M4 hm4 x1 x2 x3 x4)
      (runMid.sl.v1051 (F := Ideal) c M1 hm1 M2 hm2 M3 hm3 M4 hm4 x1 x2 x3 x4)
      (runMid.sl.v1098 (F := Ideal) c M1 hm1 M2 hm2 M3 hm3 M4 hm4 x1 x2 x3 x4)
      (runMid.sl.v1145 (F := Ideal) c M1 hm1 M2 hm2 M3 hm3 M4 hm4 x1 x2 x3 x4)
      (runMid.sl.v1242 (F := Ideal) c M1 hm1 M2 hm2 M3 hm3 M4 hm4 x1 x2 x3 x4)
      (runMid.sl.v1289 (F := Ideal) c M1 hm1 M2 hm2 M3 hm3 M4 hm4 x1 x2 x3 x4)
      (runMid.sl.v1336 (F := Ideal) c M1 hm1 M2 hm2 M3 hm3 M4 hm4 x1 x2 x3 x4)
      (runMid.sl.v1383 (F := Ideal) c M1 hm1 M2 hm2 M3 hm3 M4 hm4 x1 x2 x3 x4)
      (runMid.sl.v1480 (F := Ideal) c M1 hm1 M2 hm2 M3 hm3 M4 hm4 x1 x2 x3 x4)
      (runMid.sl.v1527 (F := Ideal) c M1 hm1 M2 hm2 M3 hm3 M4 hm4 x1 x2 x3 x4)
      (runMid.sl.v1574 (F := Ideal) c M1 hm1 M2 hm2 M3 hm3 M4 hm4 x1 x2 x3 x4)
      (runMid.sl.v1621 (F := Ideal) c M1 hm1 M2 hm2 M3 hm3 M4 hm4 x1 x2 x3 x4)
      (runMid.sl.v1718 (F := Ideal) c M1 hm1 M2 hm2 M3 hm3 M4 hm4 x1 x2 x3 x4)
      (runMid.sl.v1765 (F := Ideal) c M1 hm1 M2 hm2 M3 hm3 M4 hm4 x1 x2 x3 x4)
      (runMid.sl.v1812 (F := Ideal) c M1 hm1 M2 hm2 M3 hm3 M4 hm4 x1 x2 x3 x4)
      (runMid.sl.v1859 (F := Ideal) c M1 hm1 M2 hm2 M3 hm3 M4 hm4 x1 x2 x3 x4)
      (runMid.sl.v1909 (F := Ideal) c M4 hm4 x4)
      (runMid.sl.v1956 (F := Ideal) c M1 hm1 M2 hm2 M3 hm3 M4 hm4 x1 x2 x3 x4)
      (runMid.sl.v2003 (F := Ideal) c M1 hm1 M2 hm2 M3 hm3 M4 hm4 x1 x2 x3 x4)
      (runMid.sl.v2050 (F := Ideal) c M1 hm1 M2 hm2 M3 hm3 M4 hm4 x1 x2 x3 x4)
      (runMid.sl.v2090 (F := Ideal) c M1 hm1 M2 hm2 M3 hm3 x1 x2 x3) (ix2 b o)
      = part i x1 x2 x3 x4 x5 b o := by
  rw [pay231_apply]
  unfold part
  refine Finset.sum_congr rfl fun r _ => ?_
  have hw : runMid.sl.r (F := Ideal) c i M5 hm5 x5 (ix2 r o) = wz i x5 r o :=
    (pay2_apply i _ r o).trans (congrArg (fun v => wz i v r o) (readAt_whole hm5 x5 _ zero_offsets2 _))
  rw [hw]
  exact congrArg (fun a : BitVec 32 => (((a.toInt : ℤ) : ℝ) : EReal) * wz i x5 r o)
    (v2131_apply c M1 hm1 M2 hm2 M3 hm3 M4 hm4 x1 x2 x3 x4 b r)

set_option maxHeartbeats 2000000 in
/-- The accumulator block read back where a whole-block store put it. -/
theorem read_store (w : FVec Ideal S32x128 .f32) (L : List (View.Piece (Elt Ideal) S32x128 .f32)) (b : Fin 32) (o : Fin 128) :
    View.read (Elt Ideal) M7.view (M7.view.writes (Elt Ideal) M7.view.junk
      ((⟨Rect.unit (s := S32x128) ![0, 0] S32x128.size inb_S32x128_S32x128_0_0, w⟩ : View.Piece (Elt Ideal) S32x128 .f32) :: L)) (ix2 b o)
      = w (ix2 b o) := by
  refine View.read_writes_cons_unit_of_mem (Val := Elt Ideal) M7.view M7.view.junk (off' := ![0, 0]) inb_S32x128_S32x128_0_0 w L
    (ix2 b o) (ix2 b o) rfl ?_
  intro a
  match a with
  | ⟨0, _⟩ => exact (Nat.zero_add _).symm
  | ⟨1, _⟩ => exact (Nat.zero_add _).symm

theorem acc_read (x7 : Vec Ideal S32x128 .f32) (b : Fin 32) (o : Fin 128) :
    shapeCast S32x128 (View.readAt (Elt Ideal) M7.view
        (Rect.unit (s := S32x128) ![0, 0] S32x128.size inb_S32x128_S32x128_0_0).toLoadRect (hm7.unread x7))
      shapeCasts_S32x128_S32x128 (ix2 b o) = x7 (ix2 b o) :=
  (congrFun (shapeCast_self (s := S32x128) _ _) _).trans (congrFun (readAt_whole hm7 x7 _ zero_offsets2 _) _)

/-- The first point: the accumulator is the block's partial product. -/
theorem runFirst_apply (h1 : k2_cond1 i = 1#1) (h2 : ¬ k2_cond2 i = 1#1) (h3 : ¬ k2_cond3 i = 1#1)
    (x7 : Vec Ideal S32x128 .f32) (b : Fin 32) (o : Fin 128) :
    (runFirst (F := Ideal) (U := U) c i h1 h2 h3 M1 hm1 M2 hm2 M3 hm3 M4 hm4 M5 hm5 M6 hm6 M7 hm7 x1 x2 x3 x4 x5 x6).1 x7 (ix2 b o) = part i x1 x2 x3 x4 x5 b o := by
  unfold runFirst
  show View.read (Elt Ideal) M7.view (M7.view.writes (Elt Ideal) M7.view.junk
    (runFirst.sl.H7_1 (F := Ideal) c i M1 hm1 M2 hm2 M3 hm3 M4 hm4 M5 hm5 x1 x2 x3 x4 x5)) (ix2 b o) = _
  unfold runFirst.sl.H7_1
  rw [read_store]
  exact mid_part c i M1 hm1 M2 hm2 M3 hm3 M4 hm4 M5 hm5 x1 x2 x3 x4 x5 b o

/-- A middle point: the block's partial product is added to the accumulator. -/
theorem runMid_apply (h1 : ¬ k2_cond1 i = 1#1) (h2 : k2_cond2 i = 1#1) (h3 : ¬ k2_cond3 i = 1#1)
    (x7 : Vec Ideal S32x128 .f32) (b : Fin 32) (o : Fin 128) :
    (runMid (F := Ideal) (U := U) c i h1 h2 h3 M1 hm1 M2 hm2 M3 hm3 M4 hm4 M5 hm5 M6 hm6 M7 hm7 x1 x2 x3 x4 x5 x6).1 x7 (ix2 b o) = x7 (ix2 b o) + part i x1 x2 x3 x4 x5 b o := by
  unfold runMid
  show View.read (Elt Ideal) M7.view (M7.view.writes (Elt Ideal) M7.view.junk
    (runMid.sl.H7_1 (F := Ideal) c i M1 hm1 M2 hm2 M3 hm3 M4 hm4 M5 hm5 M7 hm7 x1 x2 x3 x4 x5 x7)) (ix2 b o) = _
  unfold runMid.sl.H7_1
  rw [read_store]
  unfold k2_pay232
  dsimp only
  rw [addf_apply, mid_part, acc_read]

/-- The last point: the partial product and the bias are added, and the logistic function applied. -/
theorem runLast_apply (h1 : ¬ k2_cond1 i = 1#1) (h2 : k2_cond2 i = 1#1) (h3 : k2_cond3 i = 1#1)
    (x7 : Vec Ideal S32x128 .f32) (b : Fin 32) (o : Fin 128) :
    (runLast (F := Ideal) (U := U) c i h1 h2 h3 M1 hm1 M2 hm2 M3 hm3 M4 hm4 M5 hm5 M6 hm6 M7 hm7 x1 x2 x3 x4 x5 x6).1 x7 (ix2 b o)
      = Ideal.logistic ((x7 (ix2 b o) + part i x1 x2 x3 x4 x5 b o) + x6 (ix2 (0 : Fin 1) o)) := by
  unfold runLast
  show View.read (Elt Ideal) M7.view (M7.view.writes (Elt Ideal) M7.view.junk
    (runLast.sl.H7_2 (F := Ideal) c i M1 hm1 M2 hm2 M3 hm3 M4 hm4 M5 hm5 M6 hm6 M7 hm7 x1 x2 x3 x4 x5 x6 x7)) (ix2 b o) = _
  unfold runLast.sl.H7_2
  rw [read_store, pay1_apply]
  have hacc : runLast.sl.v2143 (F := Ideal) c i M1 hm1 M2 hm2 M3 hm3 M4 hm4 M5 hm5 M7 hm7 x1 x2 x3 x4 x5 x7 (ix2 b o)
      = x7 (ix2 b o) + part i x1 x2 x3 x4 x5 b o := by
    unfold runLast.sl.v2143 runLast.sl.H7_1
    rw [View.readCov_cons_toLoadRect]
    unfold k2_pay232
    dsimp only
    rw [addf_apply, acc_read]
    exact congrArg (x7 (ix2 b o) + ·) (mid_part c i M1 hm1 M2 hm2 M3 hm3 M4 hm4 M5 hm5 x1 x2 x3 x4 x5 b o)
  rw [hacc]
  exact congrArg (fun v => Ideal.logistic ((x7 (ix2 b o) + part i x1 x2 x3 x4 x5 b o) + v))
    (congrFun (readAt_whole hm6 x6 _ zero_offsets2 _) _)

end Cert.MainValue

end
-- ==== Proof.AccGlue.lean ====
/-
  The read-out call's result array is the specified read-out.

  What the one write-back may leave in the result array is, entry by entry, the logistic function of the sum of the 97
  points' contributions plus the bias, the two overhanging blocks completed per point by words nothing names; and a
  result of that form, over input arrays holding the table rows, the weights, the gathered words, the slot-major flags,
  the read-out nodes' own packed words and the bias row, is the specified read-out.  The grid's points are the 97
  naturals below 97, so the sum over the one is the sum over the other.
-/
import proofs.«203813_g3255585210786_cont_8to1_b_763_8_alg».proof.Proof.AccSum
import proofs.«203813_g3255585210786_cont_8to1_b_763_8_alg».proof.Proof.KernelOut
import proofs.«203813_g3255585210786_cont_8to1_b_763_8_alg».proof.Proof.MainValue

set_option maxRecDepth 16384

noncomputable section

open scoped BigOperators

namespace Cert.MainRegionV

open Cert.KernelIdeal Cert.KernelIdeal.Gen Cert.MainBody
open Idealize.ShloMosaic Idealize.ShloMosaic.TcCoe Idealize.ShloMosaic.ValueIdx
open Cert.KI (slotMajor idxF)
open Cert.ScTask (ent)
open Cert.MainValue (part)
open Idealize.SL Idealize.SL.RA Idealize.SL.BI

variable {U : Type} [URA U]

/-- The three runs of the body compute, entry by entry, the first point's, a middle point's and the last point's step. -/
theorem runApply : RunApply U :=
  ⟨Cert.MainValue.runFirst_apply, Cert.MainValue.runMid_apply, Cert.MainValue.runLast_apply⟩

/-- The sum of the points' contributions over the grid's points is the sum over the 97 naturals below 97. -/
theorem sum_pt (V : (c : Dev nD) → (b : Ref sig .tc) → Buf (Elt Ideal) ((c : Thread nD τ).loc b)) (c : Dev nD) (D : ℕ → Junk)
    (b : Fin 32) (o : Fin 128) :
    ∑ t : Fin cfg2.N, partAt V c D t b o
      = ∑ i : Fin 97, part (grid2.coords (pt i)) (found0 V c (pt i) (D i.val).1) (found1 V c (pt i)) (found2 V c (pt i)) (found3 V c (pt i))
          (found4 V c (pt i) (D i.val).2) b o :=
  Fintype.sum_equiv (finCongr (N_2 : cfg2.N = 97)) _ _ fun t => rfl

/-- THE RESULT ARRAY after the read-out call is the specified read-out. -/
theorem arr_value_out (hv : RunApply U) (st : IVec S32x100000 32) (adj msk : IVec S100000x8 32) (lut : IVec S100000x256 32)
    (Wt : FVec Ideal S98976x128 .f32) (bias : FVec Ideal S128 .f32) (hD : Cert.Spec.Dom st adj msk lut)
    (V : (c : Dev nD) → (b : Ref sig .tc) → Buf (Elt Ideal) ((c : Thread nD τ).loc b)) (c : Dev nD)
    (tab : IVec S100352 32) (gth : IVec S794624 32)
    (htab : ∀ n : Fin 100000, tab (ix1 (⟨n.val, by have := n.isLt; omega⟩ : Fin 100352)) = Cert.Lane.packOf fun b => st (ix2 b n))
    (hg : ∀ j, gth j = tab (ent (idxF adj j).toNat))
    (e3 : V c main_arg3 = lut) (e4 : V c main_arg4 = Wt)
    (e11 : V c main_v11 = shapeCast S8x99328 gth shapeCasts_S794624_S8x99328) (e6 : V c main_v6 = slotMajor msk)
    (e13 : V c main_v13 = shapeCast S97x8x128 (extractStridedSlice S99328 ![1024] tab slices_S100352_S99328_1024) shapeCasts_S99328_S97x8x128)
    (e7 : V c main_v7 = shapeCast S1x128 bias shapeCasts_S128_S1x128)
    (Φc : sProp (MT nD τ sig (SparseCore.Cfg.HIx 1) (Elt Ideal) ℕ U ℕ)) (O : CellTallies nD τ sig (SparseCore.Cfg.HIx 1))
    (B : Set (SemLoc sig × SparseCore.Cfg.HIx 1))
    (F14 : Buf (Elt Ideal) ((c : Thread nD τ).loc main_v14)) (h : (rdatV (F := Ideal) (U := U) Φc O B V c).ArrAt 6 cfg2.N F14) :
    (F14 : S32x128.Idx → EReal) = Cert.Spec.out st adj msk lut Wt bias := by
  obtain ⟨D, hD'⟩ := arr_value hv Φc O B V c F14 h
  refine out_of_closed st adj msk lut Wt bias hD V c tab gth htab hg e3 e4 e11 e6 e13 e7 F14 (fun i => (D i.val).1) (fun i => (D i.val).2) fun b o => ?_
  rw [hD' b o, sum_pt V c D b o]
  rfl

/-- The same with the three runs' values supplied. -/
theorem arr_value_out' (st : IVec S32x100000 32) (adj msk : IVec S100000x8 32) (lut : IVec S100000x256 32)
    (Wt : FVec Ideal S98976x128 .f32) (bias : FVec Ideal S128 .f32) (hD : Cert.Spec.Dom st adj msk lut)
    (V : (c : Dev nD) → (b : Ref sig .tc) → Buf (Elt Ideal) ((c : Thread nD τ).loc b)) (c : Dev nD)
    (tab : IVec S100352 32) (gth : IVec S794624 32)
    (htab : ∀ n : Fin 100000, tab (ix1 (⟨n.val, by have := n.isLt; omega⟩ : Fin 100352)) = Cert.Lane.packOf fun b => st (ix2 b n))
    (hg : ∀ j, gth j = tab (ent (idxF adj j).toNat))
    (e3 : V c main_arg3 = lut) (e4 : V c main_arg4 = Wt)
    (e11 : V c main_v11 = shapeCast S8x99328 gth shapeCasts_S794624_S8x99328) (e6 : V c main_v6 = slotMajor msk)
    (e13 : V c main_v13 = shapeCast S97x8x128 (extractStridedSlice S99328 ![1024] tab slices_S100352_S99328_1024) shapeCasts_S99328_S97x8x128)
    (e7 : V c main_v7 = shapeCast S1x128 bias shapeCasts_S128_S1x128)
    (Φc : sProp (MT nD τ sig (SparseCore.Cfg.HIx 1) (Elt Ideal) ℕ U ℕ)) (O : CellTallies nD τ sig (SparseCore.Cfg.HIx 1))
    (B : Set (SemLoc sig × SparseCore.Cfg.HIx 1))
    (F14 : Buf (Elt Ideal) ((c : Thread nD τ).loc main_v14)) (h : (rdatV (F := Ideal) (U := U) Φc O B V c).ArrAt 6 cfg2.N F14) :
    (F14 : S32x128.Idx → EReal) = Cert.Spec.out st adj msk lut Wt bias :=
  arr_value_out runApply st adj msk lut Wt bias hD V c tab gth htab hg e3 e4 e11 e6 e13 e7 Φc O B F14 h

end Cert.MainRegionV

end
-- ==== Proof.KernelAlg.lean ====
/-
  The idealized kernel computes the specified function.

  The run of the whole program ends, on every device, with the result array at contents the second call's one
  write-back may leave, over the buffers as that call found them; those hold the launch memory's arrays rearranged, the
  packed words of the states (what the first call wrote, read flat) and the neighbours' packed words (what the
  SparseCores gathered from that table).  What the packed table and the gathered list are known to hold is carried
  through the run as the two predicates below.  The result array is then the specified output, entry by entry, and the
  six argument arrays are as at launch.
-/
import proofs.«203813_g3255585210786_cont_8to1_b_763_8_alg».proof.Proof.HMainV
import proofs.«203813_g3255585210786_cont_8to1_b_763_8_alg».proof.Proof.V5Vals
import proofs.«203813_g3255585210786_cont_8to1_b_763_8_alg».proof.Proof.PackArr
import proofs.«203813_g3255585210786_cont_8to1_b_763_8_alg».proof.Proof.MainArr
import proofs.«203813_g3255585210786_cont_8to1_b_763_8_alg».proof.Proof.Gen.Pre_input_domain
import proofs.«203813_g3255585210786_cont_8to1_b_763_8_alg».proof.Proof.Spec
import proofs.«203813_g3255585210786_cont_8to1_b_763_8_alg».proof.Proof.AccGlue

noncomputable section

namespace Cert.KV

open Cert.KernelIdeal Cert.KernelIdeal.Gen Cert.KI
open Idealize.ShloMosaic Idealize.ShloMosaic.StableHlo Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable (m : (ℓ : Loc nD τ sig) → Buf (Elt Ideal) ℓ) (g : Dev nD → PrngReg)

/-- The flat table holds, at every node, the packed word of the node's 32 states. -/
def TabOKv (d : Dev nD) (tab : main_v9.ty.Contents (Elt Ideal)) : Prop :=
  ∀ n : Fin 100000, (tab : S100352.Idx → BitVec 32) (ix1 (⟨n.val, by have := n.isLt; omega⟩ : Fin 100352))
    = Cert.Lane.packOf fun b => (m (d, Proc.devRef .tc main_arg0) : IVec S32x100000 32) (ix2 b n)

/-- The gathered list holds, entry by entry, the table's word at the index list's entry. -/
def Gathv (d : Dev nD) (tab : main_v9.ty.Contents (Elt Ideal)) (gth : main_v10.ty.Contents (Elt Ideal)) : Prop :=
  ∀ j : S794624.Idx, (gth j : BitVec 32) = tab (Cert.ScTask.ent ((idxv m d j : BitVec 32)).toNat)

/-- No host operation before the first call writes the state array. -/
theorem V1_main_arg0 (d : Dev nD) : V1 m d (Proc.devRef .tc main_arg0) = m (d, Proc.devRef .tc main_arg0) :=
  StableHlo.after_of_forall_not_mem (b := Proc.devRef .tc main_arg0) _ _ (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))

/-- What the first call leaves, read flat, is the packed table. -/
theorem htabv (d : Dev nD) (f8 : main_v8.ty.Contents (Elt Ideal))
    (h : (rdats (rd0 (valsOf (V1 m d))) (valsOf (V1 m d)) 0 d).ArrAt 1 cfg0.N f8) : TabOKv m d (V3 m d f8 (Proc.devRef .tc main_v9)) := by
  intro n
  rw [V3_v9]
  have hv := Cert.PackRegion.tab_value (F := Ideal) (Pipeline.scopedRest spec0 d) ((K (F := Ideal)).Otc d 0) (recBound (F := Ideal) d 0)
    (valsOf (V1 m d)) d f8 h n
  rw [hv]
  exact congrArg Cert.Lane.packOf (funext fun b => congrFun (V1_main_arg0 m d) (ix2 b n))

set_option backward.isDefEq.respectTransparency.types false in
/-- THE KERNEL'S RUN: from a launch memory in the input domain, every weakly fair execution of the 35 threads terminates,
    nothing faulting, and on every device the result array holds the specified output and the six argument arrays what
    they held — given `hval`: that whatever the second call's one write-back may leave in the result array, over the
    buffers that call found (under what is known of the packed table and the gathered list), is the specified output. -/
theorem kernel_run_of_val [∀ e, Nonempty (Elt Ideal e)]
    (hpre : Cert.Pre_KernelIdeal (hPre_input_domain := Cert.Pre_input_domain.Gen.facts) m)
    (hval : ∀ (c : Dev nD) (f8 : main_v8.ty.Contents (Elt Ideal)) (tab : main_v9.ty.Contents (Elt Ideal)) (gth : main_v10.ty.Contents (Elt Ideal)),
      Chain m (TabOKv m) (Gathv m) c f8 tab gth →
      ∀ F14 : Buf (Elt Ideal) ((c : Thread nD τ).loc main_v14),
        (Cert.MainRegionV.rdatV (F := Ideal) (U := UU) (Pipeline.scopedRest spec2 c) ((K (F := Ideal)).Otc c 1) (recBound (F := Ideal) c 1)
          (valsOf (V5 m c f8 tab gth)) c).ArrAt 6 cfg2.N F14 →
        F14 = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :
    θ_run (Cert.KernelIdeal.defs (F := Ideal)) (Cert.KernelIdeal.threads (F := Ideal)) ⟨m, fun _ => 0, g⟩ (fun r => ∀ c : Dev nD,
      r.2.mem ((c.tc : Thread nD τ).loc main_v14) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run ((K (F := Ideal)).defs (D (F := Ideal))) _ _).mono
    (fun r h c => ⟨by
      obtain ⟨f8, tab, gth, hc, harr, -⟩ := h c
      exact hval c f8 tab gth hc _ (harr 6), fqd_args m (TabOKv m) (Gathv m) c r.2 (h c)⟩)
    (run_main m g (TabOKv m) (Gathv m) (Cert.ScTask.P (TabOKv m) (idxv m)) (fun _ _ => rfl) rfl
      (Cert.ScTask.tileObl (TabOKv m) (idxv m) facts (fun d j => idxF_lt _
        (fun i => (Cert.RefSide.dom_of_fn (F := Ideal) _ _ _ _ _ _ (hpre d)).adj_lt i) j))
      (SparseCore.Cfg.VecSplit.of_plain (Cert.ScTask.vecSplit (TabOKv m) (idxv m)))
      (idxv m) (Cert.ScTask.Keep (idxv m))
      (fun d tab out0 h => Cert.ScTask.st_intro (TabOKv m) (idxv m) d tab out0 h)
      (fun d => Cert.ScTask.dn_elim (TabOKv m) (idxv m) d)
      (htabv m) (V3_v3 m))

set_option backward.isDefEq.respectTransparency.types false in
/-- THE KERNEL'S RUN, from what the three runs of the second call's body compute entry by entry (`hv`): the result array
    holds the specified output on every device, and the six argument arrays what they held.  On device `c` the second
    call finds the node tables and `W` as at launch, the gathered words slot-major, the flags slot-major, the read-out
    nodes' own packed words in blocks and the bias as a row; the table is the packed table and the gathered list is read
    off it through the index list, which is what the result's closed form needs. -/
theorem kernel_run [∀ e, Nonempty (Elt Ideal e)] (hv : Cert.MainRegionV.RunApply UU)
    (hpre : Cert.Pre_KernelIdeal (hPre_input_domain := Cert.Pre_input_domain.Gen.facts) m) :
    θ_run (Cert.KernelIdeal.defs (F := Ideal)) (Cert.KernelIdeal.threads (F := Ideal)) ⟨m, fun _ => 0, g⟩ (fun r => ∀ c : Dev nD,
      r.2.mem ((c.tc : Thread nD τ).loc main_v14) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  kernel_run_of_val m g hpre fun c f8 tab gth hc F14 h =>
    Cert.MainRegionV.arr_value_out (U := UU) hv
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (Cert.RefSide.dom_of_fn (F := Ideal) _ _ _ _ _ _ (hpre c))
      (valsOf (V5 m c f8 tab gth)) c tab gth hc.2.1 hc.2.2
      (V5_main_arg3 m c f8 tab gth) (V5_main_arg4 m c f8 tab gth)
      (V5_v11 m c f8 tab gth) (V5_v6 m c f8 tab gth) (V5_v13 m c f8 tab gth) (V5_v7 m c f8 tab gth)
      (Pipeline.scopedRest spec2 c) ((K (F := Ideal)).Otc c 1) (recBound (F := Ideal) c 1) F14 h

end Cert.KV

end
-- ==== Proof.lean ====
/- The proof of `Cert.Claim`: the two kernels' frames, the reference's frame, what the idealization pass preserves, and the
   algebraic agreement of the idealized kernel with the reference.

   Both programs compute one function of the six argument arrays (`Cert.Spec.out`, Proof/Spec.lean): for each of the 32
   batch rows and each read-out node, the node's next state — its own state when no neighbour slot is valid, else the
   entry of its 256-entry table at the address spelt big-endian by its eight neighbours' masked states —, then the
   logistic function of these 98976 bits' product with `W` plus the bias.  The kernel gets there by packing the 32 rows
   into one word per node (first pipelined call), gathering the neighbours' words on the SparseCores, and computing all
   32 rows' addresses byte-wise, the table lookups and the blocked product in the second pipelined call.  Each program's
   result is shown equal to `Cert.Spec.out` of the launch contents, which is the claim's witness `v0`. -/
import proofs.«203813_g3255585210786_cont_8to1_b_763_8_alg».proof.Defs
import proofs.«203813_g3255585210786_cont_8to1_b_763_8_alg».proof.Proof.Gen.Kernel
import proofs.«203813_g3255585210786_cont_8to1_b_763_8_alg».proof.Proof.Gen.Kernel.Skeleton
import proofs.«203813_g3255585210786_cont_8to1_b_763_8_alg».proof.Proof.Gen.Kernel.Launch
import proofs.«203813_g3255585210786_cont_8to1_b_763_8_alg».proof.Proof.Gen.Kernel.Regions
import proofs.«203813_g3255585210786_cont_8to1_b_763_8_alg».proof.Proof.Gen.Kernel.Points
import proofs.«203813_g3255585210786_cont_8to1_b_763_8_alg».proof.Proof.Gen.KernelIdeal
import proofs.«203813_g3255585210786_cont_8to1_b_763_8_alg».proof.Proof.Gen.KernelIdeal.Skeleton
import proofs.«203813_g3255585210786_cont_8to1_b_763_8_alg».proof.Proof.Gen.KernelIdeal.Launch
import proofs.«203813_g3255585210786_cont_8to1_b_763_8_alg».proof.Proof.Gen.KernelIdeal.Regions
import proofs.«203813_g3255585210786_cont_8to1_b_763_8_alg».proof.Proof.Gen.KernelIdeal.Points
import proofs.«203813_g3255585210786_cont_8to1_b_763_8_alg».proof.Proof.Gen.ReferenceIdeal
import proofs.«203813_g3255585210786_cont_8to1_b_763_8_alg».proof.Proof.Gen.Pre_input_domain
import Idealize.ShloMosaic.Adequacy
import Idealize.ShloMosaic.Init
import proofs.«203813_g3255585210786_cont_8to1_b_763_8_alg».proof.Proof.Frames
import proofs.«203813_g3255585210786_cont_8to1_b_763_8_alg».proof.Proof.KernelAlg
import proofs.«203813_g3255585210786_cont_8to1_b_763_8_alg».proof.Proof.MainValue

noncomputable section

namespace Cert.Proof

open Idealize.ShloMosaic Idealize.SL.Sem

/-- One grid point of the second call computes, in each of its three cases, what its accumulator formula says. -/
theorem runApply : Cert.MainRegionV.RunApply Cert.KI.UU :=
  ⟨Cert.MainValue.runFirst_apply, Cert.MainValue.runMid_apply, Cert.MainValue.runLast_apply⟩

/-- The idealized kernel and the reference end with one and the same result, the function of the launch contents that
    `Cert.Spec.out` names, and each keeps its arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KV.kernel_run m g runApply hpre, ?_⟩
  have hpre' : Cert.Pre_ReferenceIdeal (hPre_input_domain := Cert.Pre_input_domain.Gen.facts) m' := fun c => by
    obtain ⟨h0, h1, h2, h3, h4, h5⟩ := hagree c
    have := hpre c
    rw [← h0, ← h1, ← h2, ← h3, ← h4, ← h5] at this
    exact this
  refine (θ_run (Cert.ReferenceIdeal.defs (F := Ideal)) _ _).mono (fun r h c => ?_) (Cert.RefSide.run_spec m' g' hpre')
  obtain ⟨h0, h1, h2, h3, h4, h5⟩ := hagree c
  obtain ⟨hv, hargs⟩ := h c
  refine ⟨hv.trans ?_, hargs⟩
  rw [h0, h1, h2, h3, h4, h5]

theorem claim : Cert.Claim := ⟨Cert.Kernel.Gen.facts, Cert.KernelIdeal.Gen.facts, Cert.ReferenceIdeal.Gen.facts, Cert.Pre_input_domain.Gen.facts,
  Cert.Frames.frame_kb, Cert.Frames.frame_ki, Cert.Frames.frame_ri, Cert.Frames.preserves, algebraic⟩

end Cert.Proof

end
